-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v471)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v471) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v792) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262143x128 : Shape := ⟨2, ![262143, 128]⟩
abbrev S1024x128 : Shape := ⟨2, ![1024, 128]⟩
abbrev S1024x256 : Shape := ⟨2, ![1024, 256]⟩
abbrev S1024 : Shape := ⟨1, ![1024]⟩
abbrev S_ : Shape := ⟨0, ![]⟩

class Facts : Prop where
  bcast_S_S262143x128 : S_.BroadcastsInDim S262143x128 (![] : Fin 0 → Fin S262143x128.rank)
  reducesTo_S262143x128_S_d0_1 : S262143x128.ReducesTo [0, 1] S_
  h_S_ : 0 < S_.numel
  bcast_S_S1024x128 : S_.BroadcastsInDim S1024x128 (![] : Fin 0 → Fin S1024x128.rank)
  reducesTo_S1024x128_S_d0_1 : S1024x128.ReducesTo [0, 1] S_
  bcast_S_S1024x256 : S_.BroadcastsInDim S1024x256 (![] : Fin 0 → Fin S1024x256.rank)
  reducesTo_S1024x256_S_d0_1 : S1024x256.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S262143x128 .f32) (main_arg1 : FVec F S1024x128 .f32) (main_arg2 : FVec F S1024x256 .f32) (main_arg3 : FVec F S1024 .f32) (main_arg4 : FVec F S1024 .f32) : IVec S_ 1 :=
  let main_v0 : FVec F S262143x128 .f32 := Host.absf main_arg0
  let main_cst : FVec F S_ .f32 := constant S_ .f32 0x7F800000#32
  let main_v1 : FVec F S262143x128 .f32 := broadcastInDim S262143x128 ![] bcast_S_S262143x128 main_cst
  let main_v2 : IVec S262143x128 1 := cmpf .olt main_v0 main_v1
  let main_c : IVec S_ 1 := constantI S_ 1 1#1
  let main_v3 : IVec S_ 1 := (fun x v => Host.reduce IntOp.andi x v reducesTo_S262143x128_S_d0_1 h_S_) main_v2 main_c
  let main_v4 : FVec F S1024x128 .f32 := Host.absf main_arg1
  let main_cst_0 : FVec F S_ .f32 := constant S_ .f32 0x7F800000#32
  let main_v5 : FVec F S1024x128 .f32 := broadcastInDim S1024x128 ![] bcast_S_S1024x128 main_cst_0
  let main_v6 : IVec S1024x128 1 := cmpf .olt main_v4 main_v5
  let main_c_1 : IVec S_ 1 := constantI S_ 1 1#1
  let main_v7 : IVec S_ 1 := (fun x v => Host.reduce IntOp.andi x v reducesTo_S1024x128_S_d0_1 h_S_) main_v6 main_c_1
  let main_v8 : IVec S_ 1 := andi main_v3 main_v7
  let main_v9 : FVec F S1024x256 .f32 := Host.absf main_arg2
  let main_cst_2 : FVec F S_ .f32 := constant S_ .f32 0x7F800000#32
  let main_v10 : FVec F S1024x256 .f32 := broadcastInDim S1024x256 ![] bcast_S_S1024x256 main_cst_2
  let main_v11 : IVec S1024x256 1 := cmpf .olt main_v9 main_v10
  let main_c_3 : IVec S_ 1 := constantI S_ 1 1#1
  let main_v12 : IVec S_ 1 := (fun x v => Host.reduce IntOp.andi x v reducesTo_S1024x256_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_v13 main_v16
-- ==== Kernel.lean ====
abbrev S262143x128 : Shape := ⟨2, ![262143, 128]⟩
abbrev S1024x128 : Shape := ⟨2, ![1024, 128]⟩
abbrev S1024x256 : Shape := ⟨2, ![1024, 256]⟩
abbrev S1024 : Shape := ⟨1, ![1024]⟩
abbrev S128x128 : Shape := ⟨2, ![128, 128]⟩
abbrev S512x128 : Shape := ⟨2, ![512, 128]⟩
abbrev S128x512 : Shape := ⟨2, ![128, 512]⟩
abbrev S128x256 : Shape := ⟨2, ![128, 256]⟩
abbrev S512x256 : Shape := ⟨2, ![512, 256]⟩
abbrev S256x512 : Shape := ⟨2, ![256, 512]⟩
abbrev S128 : Shape := ⟨1, ![128]⟩
abbrev S512 : Shape := ⟨1, ![512]⟩
abbrev S1x512 : Shape := ⟨2, ![1, 512]⟩
abbrev S131072x128 : Shape := ⟨2, ![131072, 128]⟩
abbrev S65536x128 : Shape := ⟨2, ![65536, 128]⟩
abbrev S32768x128 : Shape := ⟨2, ![32768, 128]⟩
abbrev S16384x128 : Shape := ⟨2, ![16384, 128]⟩
abbrev S8192x128 : Shape := ⟨2, ![8192, 128]⟩
abbrev S4096x128 : Shape := ⟨2, ![4096, 128]⟩
abbrev S2048x128 : Shape := ⟨2, ![2048, 128]⟩
abbrev S256x128 : Shape := ⟨2, ![256, 128]⟩
abbrev S64x128 : Shape := ⟨2, ![64, 128]⟩
abbrev S32x128 : Shape := ⟨2, ![32, 128]⟩
abbrev S16x128 : Shape := ⟨2, ![16, 128]⟩
abbrev S8x128 : Shape := ⟨2, ![8, 128]⟩
abbrev S1024x512 : Shape := ⟨2, ![1024, 512]⟩
abbrev S512x512 : Shape := ⟨2, ![512, 512]⟩
abbrev S256x256 : Shape := ⟨2, ![256, 256]⟩
abbrev S64x256 : Shape := ⟨2, ![64, 256]⟩
abbrev S64x512 : Shape := ⟨2, ![64, 512]⟩
abbrev S32x256 : Shape := ⟨2, ![32, 256]⟩
abbrev S32x512 : Shape := ⟨2, ![32, 512]⟩
abbrev S16x256 : Shape := ⟨2, ![16, 256]⟩
abbrev S16x512 : Shape := ⟨2, ![16, 512]⟩
abbrev S8x256 : Shape := ⟨2, ![8, 256]⟩
abbrev S8x512 : Shape := ⟨2, ![8, 512]⟩
abbrev S128x1024 : Shape := ⟨2, ![128, 1024]⟩
abbrev S512x1024 : Shape := ⟨2, ![512, 1024]⟩
abbrev S1x1024 : Shape := ⟨2, ![1, 1024]⟩
abbrev S256x1024 : Shape := ⟨2, ![256, 1024]⟩
abbrev S_ : Shape := ⟨0, ![]⟩
abbrev S64x1024 : Shape := ⟨2, ![64, 1024]⟩
abbrev S32x1024 : Shape := ⟨2, ![32, 1024]⟩
abbrev S16x1024 : Shape := ⟨2, ![16, 1024]⟩
abbrev S8x1024 : Shape := ⟨2, ![8, 1024]⟩
abbrev S4x128 : Shape := ⟨2, ![4, 128]⟩
abbrev S4x256 : Shape := ⟨2, ![4, 256]⟩
abbrev S4x1024 : Shape := ⟨2, ![4, 1024]⟩
abbrev S2x128 : Shape := ⟨2, ![2, 128]⟩
abbrev S2x256 : Shape := ⟨2, ![2, 256]⟩
abbrev S2x1024 : Shape := ⟨2, ![2, 1024]⟩
abbrev S1x128 : Shape := ⟨2, ![1, 128]⟩
abbrev S1x256 : Shape := ⟨2, ![1, 256]⟩

abbrev nBuf : Space → Nat
  | .hbm => 538
  | .vmem => 24
  | .smem => 0
  | _ => 0

abbrev hbmTy0_0 (i : Nat) : BufTy := match i % 128 with
  | 0 => ⟨S262143x128, .f32⟩
  | 1 => ⟨S1024x128, .f32⟩
  | 2 => ⟨S1024x256, .f32⟩
  | 3 => ⟨S1024, .f32⟩
  | 4 => ⟨S1024, .f32⟩
  | 5 => ⟨S128x128, .f32⟩
  | 6 => ⟨S128x128, .f32⟩
  | 7 => ⟨S128x128, .f32⟩
  | 8 => ⟨S128x128, .f32⟩
  | 9 => ⟨S512x128, .f32⟩
  | 10 => ⟨S128x512, .f32⟩
  | 11 => ⟨S128x256, .f32⟩
  | 12 => ⟨S128x256, .f32⟩
  | 13 => ⟨S128x256, .f32⟩
  | 14 => ⟨S128x256, .f32⟩
  | 15 => ⟨S512x256, .f32⟩
  | 16 => ⟨S256x512, .f32⟩
  | 17 => ⟨S128, .f32⟩
  | 18 => ⟨S128, .f32⟩
  | 19 => ⟨S128, .f32⟩
  | 20 => ⟨S128, .f32⟩
  | 21 => ⟨S512, .f32⟩
  | 22 => ⟨S1x512, .f32⟩
  | 23 => ⟨S128, .f32⟩
  | 24 => ⟨S128, .f32⟩
  | 25 => ⟨S128, .f32⟩
  | 26 => ⟨S128, .f32⟩
  | 27 => ⟨S512, .f32⟩
  | 28 => ⟨S1x512, .f32⟩
  | 29 => ⟨S131072x128, .f32⟩
  | 30 => ⟨S65536x128, .f32⟩
  | 31 => ⟨S32768x128, .f32⟩
  | 32 => ⟨S16384x128, .f32⟩
  | 33 => ⟨S8192x128, .f32⟩
  | 34 => ⟨S4096x128, .f32⟩
  | 35 => ⟨S2048x128, .f32⟩
  | 36 => ⟨S1024x128, .f32⟩
  | 37 => ⟨S1024x128, .f32⟩
  | 38 => ⟨S1024x128, .f32⟩
  | 39 => ⟨S512x128, .f32⟩
  | 40 => ⟨S512x256, .f32⟩
  | 41 => ⟨S512x256, .f32⟩
  | 42 => ⟨S128x1024, .f32⟩
  | 43 => ⟨S512x1024, .f32⟩
  | 44 => ⟨S1x1024, .f32⟩
  | 45 => ⟨S512x1024, .f32⟩
  | 46 => ⟨S512x1024, .f32⟩
  | 47 => ⟨S256x1024, .f32⟩
  | 48 => ⟨S512x1024, .f32⟩
  | 49 => ⟨S512x1024, .f32⟩
  | 50 => ⟨S1x1024, .f32⟩
  | 51 => ⟨S512x1024, .f32⟩
  | 52 => ⟨S512x1024, .f32⟩
  | 53 => ⟨S512x256, .f32⟩
  | 54 => ⟨S512x256, .f32⟩
  | 55 => ⟨S512x256, .f32⟩
  | 56 => ⟨S512x256, .f32⟩
  | 57 => ⟨S512x256, .f32⟩
  | 58 => ⟨S512x256, .f32⟩
  | 59 => ⟨S_, .f32⟩
  | 60 => ⟨S512x256, .f32⟩
  | 61 => ⟨S512x256, .f32⟩
  | 62 => ⟨S_, .f32⟩
  | 63 => ⟨S512x256, .f32⟩
  | 64 => ⟨S512x256, .f32⟩
  | 65 => ⟨S512x256, .f32⟩
  | 66 => ⟨S512x256, .f32⟩
  | 67 => ⟨S512x256, .f32⟩
  | 68 => ⟨S_, .f32⟩
  | 69 => ⟨S512x256, .f32⟩
  | 70 => ⟨S512x256, .f32⟩
  | 71 => ⟨S_, .f32⟩
  | 72 => ⟨S512x256, .f32⟩
  | 73 => ⟨S512x256, .f32⟩
  | 74 => ⟨S512x256, .f32⟩
  | 75 => ⟨S512x256, .f32⟩
  | 76 => ⟨S512x256, .f32⟩
  | 77 => ⟨S512x256, .f32⟩
  | 78 => ⟨S512x256, .f32⟩
  | 79 => ⟨S_, .f32⟩
  | 80 => ⟨S512x256, .f32⟩
  | 81 => ⟨S512x256, .f32⟩
  | 82 => ⟨S_, .f32⟩
  | 83 => ⟨S512x256, .f32⟩
  | 84 => ⟨S512x256, .f32⟩
  | 85 => ⟨S512x256, .f32⟩
  | 86 => ⟨S512x256, .f32⟩
  | 87 => ⟨S512x128, .f32⟩
  | 88 => ⟨S512x128, .f32⟩
  | 89 => ⟨S256x128, .f32⟩
  | 90 => ⟨S256x256, .f32⟩
  | 91 => ⟨S256x256, .f32⟩
  | 92 => ⟨S128x1024, .f32⟩
  | 93 => ⟨S256x1024, .f32⟩
  | 94 => ⟨S1x1024, .f32⟩
  | 95 => ⟨S256x1024, .f32⟩
  | 96 => ⟨S256x1024, .f32⟩
  | 97 => ⟨S256x1024, .f32⟩
  | 98 => ⟨S256x1024, .f32⟩
  | 99 => ⟨S256x1024, .f32⟩
  | 100 => ⟨S1x1024, .f32⟩
  | 101 => ⟨S256x1024, .f32⟩
  | 102 => ⟨S256x1024, .f32⟩
  | 103 => ⟨S256x256, .f32⟩
  | 104 => ⟨S256x256, .f32⟩
  | 105 => ⟨S256x256, .f32⟩
  | 106 => ⟨S256x256, .f32⟩
  | 107 => ⟨S256x256, .f32⟩
  | 108 => ⟨S256x256, .f32⟩
  | 109 => ⟨S_, .f32⟩
  | 110 => ⟨S256x256, .f32⟩
  | 111 => ⟨S256x256, .f32⟩
  | 112 => ⟨S_, .f32⟩
  | 113 => ⟨S256x256, .f32⟩
  | 114 => ⟨S256x256, .f32⟩
  | 115 => ⟨S256x256, .f32⟩
  | 116 => ⟨S256x256, .f32⟩
  | 117 => ⟨S256x256, .f32⟩
  | 118 => ⟨S_, .f32⟩
  | 119 => ⟨S256x256, .f32⟩
  | 120 => ⟨S256x256, .f32⟩
  | 121 => ⟨S_, .f32⟩
  | 122 => ⟨S256x256, .f32⟩
  | 123 => ⟨S256x256, .f32⟩
  | 124 => ⟨S256x256, .f32⟩
  | 125 => ⟨S256x256, .f32⟩
  | 126 => ⟨S256x256, .f32⟩
  | 127 => ⟨S256x256, .f32⟩
  | _ => ⟨S262143x128, .f32⟩

abbrev hbmTy0_1 (i : Nat) : BufTy := match i % 128 with
  | 0 => ⟨S256x256, .f32⟩
  | 1 => ⟨S_, .f32⟩
  | 2 => ⟨S256x256, .f32⟩
  | 3 => ⟨S256x256, .f32⟩
  | 4 => ⟨S_, .f32⟩
  | 5 => ⟨S256x256, .f32⟩
  | 6 => ⟨S256x256, .f32⟩
  | 7 => ⟨S256x256, .f32⟩
  | 8 => ⟨S256x256, .f32⟩
  | 9 => ⟨S256x128, .f32⟩
  | 10 => ⟨S256x128, .f32⟩
  | 11 => ⟨S128x128, .f32⟩
  | 12 => ⟨S128x256, .f32⟩
  | 13 => ⟨S128x256, .f32⟩
  | 14 => ⟨S128x1024, .f32⟩
  | 15 => ⟨S128x1024, .f32⟩
  | 16 => ⟨S1x1024, .f32⟩
  | 17 => ⟨S128x1024, .f32⟩
  | 18 => ⟨S128x1024, .f32⟩
  | 19 => ⟨S256x1024, .f32⟩
  | 20 => ⟨S128x1024, .f32⟩
  | 21 => ⟨S128x1024, .f32⟩
  | 22 => ⟨S1x1024, .f32⟩
  | 23 => ⟨S128x1024, .f32⟩
  | 24 => ⟨S128x1024, .f32⟩
  | 25 => ⟨S128x256, .f32⟩
  | 26 => ⟨S128x256, .f32⟩
  | 27 => ⟨S128x256, .f32⟩
  | 28 => ⟨S128x256, .f32⟩
  | 29 => ⟨S128x256, .f32⟩
  | 30 => ⟨S128x256, .f32⟩
  | 31 => ⟨S_, .f32⟩
  | 32 => ⟨S128x256, .f32⟩
  | 33 => ⟨S128x256, .f32⟩
  | 34 => ⟨S_, .f32⟩
  | 35 => ⟨S128x256, .f32⟩
  | 36 => ⟨S128x256, .f32⟩
  | 37 => ⟨S128x256, .f32⟩
  | 38 => ⟨S128x256, .f32⟩
  | 39 => ⟨S128x256, .f32⟩
  | 40 => ⟨S_, .f32⟩
  | 41 => ⟨S128x256, .f32⟩
  | 42 => ⟨S128x256, .f32⟩
  | 43 => ⟨S_, .f32⟩
  | 44 => ⟨S128x256, .f32⟩
  | 45 => ⟨S128x256, .f32⟩
  | 46 => ⟨S128x256, .f32⟩
  | 47 => ⟨S128x256, .f32⟩
  | 48 => ⟨S128x256, .f32⟩
  | 49 => ⟨S128x256, .f32⟩
  | 50 => ⟨S128x256, .f32⟩
  | 51 => ⟨S_, .f32⟩
  | 52 => ⟨S128x256, .f32⟩
  | 53 => ⟨S128x256, .f32⟩
  | 54 => ⟨S_, .f32⟩
  | 55 => ⟨S128x256, .f32⟩
  | 56 => ⟨S128x256, .f32⟩
  | 57 => ⟨S128x256, .f32⟩
  | 58 => ⟨S128x256, .f32⟩
  | 59 => ⟨S128x128, .f32⟩
  | 60 => ⟨S128x128, .f32⟩
  | 61 => ⟨S64x128, .f32⟩
  | 62 => ⟨S64x256, .f32⟩
  | 63 => ⟨S64x256, .f32⟩
  | 64 => ⟨S128x1024, .f32⟩
  | 65 => ⟨S64x1024, .f32⟩
  | 66 => ⟨S1x1024, .f32⟩
  | 67 => ⟨S64x1024, .f32⟩
  | 68 => ⟨S64x1024, .f32⟩
  | 69 => ⟨S256x1024, .f32⟩
  | 70 => ⟨S64x1024, .f32⟩
  | 71 => ⟨S64x1024, .f32⟩
  | 72 => ⟨S1x1024, .f32⟩
  | 73 => ⟨S64x1024, .f32⟩
  | 74 => ⟨S64x1024, .f32⟩
  | 75 => ⟨S64x256, .f32⟩
  | 76 => ⟨S64x256, .f32⟩
  | 77 => ⟨S64x256, .f32⟩
  | 78 => ⟨S64x256, .f32⟩
  | 79 => ⟨S64x256, .f32⟩
  | 80 => ⟨S64x256, .f32⟩
  | 81 => ⟨S_, .f32⟩
  | 82 => ⟨S64x256, .f32⟩
  | 83 => ⟨S64x256, .f32⟩
  | 84 => ⟨S_, .f32⟩
  | 85 => ⟨S64x256, .f32⟩
  | 86 => ⟨S64x256, .f32⟩
  | 87 => ⟨S64x256, .f32⟩
  | 88 => ⟨S64x256, .f32⟩
  | 89 => ⟨S64x256, .f32⟩
  | 90 => ⟨S_, .f32⟩
  | 91 => ⟨S64x256, .f32⟩
  | 92 => ⟨S64x256, .f32⟩
  | 93 => ⟨S_, .f32⟩
  | 94 => ⟨S64x256, .f32⟩
  | 95 => ⟨S64x256, .f32⟩
  | 96 => ⟨S64x256, .f32⟩
  | 97 => ⟨S64x256, .f32⟩
  | 98 => ⟨S64x256, .f32⟩
  | 99 => ⟨S64x256, .f32⟩
  | 100 => ⟨S64x256, .f32⟩
  | 101 => ⟨S_, .f32⟩
  | 102 => ⟨S64x256, .f32⟩
  | 103 => ⟨S64x256, .f32⟩
  | 104 => ⟨S_, .f32⟩
  | 105 => ⟨S64x256, .f32⟩
  | 106 => ⟨S64x256, .f32⟩
  | 107 => ⟨S64x256, .f32⟩
  | 108 => ⟨S64x256, .f32⟩
  | 109 => ⟨S64x128, .f32⟩
  | 110 => ⟨S64x128, .f32⟩
  | 111 => ⟨S32x128, .f32⟩
  | 112 => ⟨S32x256, .f32⟩
  | 113 => ⟨S32x256, .f32⟩
  | 114 => ⟨S128x1024, .f32⟩
  | 115 => ⟨S32x1024, .f32⟩
  | 116 => ⟨S1x1024, .f32⟩
  | 117 => ⟨S32x1024, .f32⟩
  | 118 => ⟨S32x1024, .f32⟩
  | 119 => ⟨S256x1024, .f32⟩
  | 120 => ⟨S32x1024, .f32⟩
  | 121 => ⟨S32x1024, .f32⟩
  | 122 => ⟨S1x1024, .f32⟩
  | 123 => ⟨S32x1024, .f32⟩
  | 124 => ⟨S32x1024, .f32⟩
  | 125 => ⟨S32x256, .f32⟩
  | 126 => ⟨S32x256, .f32⟩
  | 127 => ⟨S32x256, .f32⟩
  | _ => ⟨S262143x128, .f32⟩

abbrev hbmTy0_2 (i : Nat) : BufTy := match i % 128 with
  | 0 => ⟨S32x256, .f32⟩
  | 1 => ⟨S32x256, .f32⟩
  | 2 => ⟨S32x256, .f32⟩
  | 3 => ⟨S_, .f32⟩
  | 4 => ⟨S32x256, .f32⟩
  | 5 => ⟨S32x256, .f32⟩
  | 6 => ⟨S_, .f32⟩
  | 7 => ⟨S32x256, .f32⟩
  | 8 => ⟨S32x256, .f32⟩
  | 9 => ⟨S32x256, .f32⟩
  | 10 => ⟨S32x256, .f32⟩
  | 11 => ⟨S32x256, .f32⟩
  | 12 => ⟨S_, .f32⟩
  | 13 => ⟨S32x256, .f32⟩
  | 14 => ⟨S32x256, .f32⟩
  | 15 => ⟨S_, .f32⟩
  | 16 => ⟨S32x256, .f32⟩
  | 17 => ⟨S32x256, .f32⟩
  | 18 => ⟨S32x256, .f32⟩
  | 19 => ⟨S32x256, .f32⟩
  | 20 => ⟨S32x256, .f32⟩
  | 21 => ⟨S32x256, .f32⟩
  | 22 => ⟨S32x256, .f32⟩
  | 23 => ⟨S_, .f32⟩
  | 24 => ⟨S32x256, .f32⟩
  | 25 => ⟨S32x256, .f32⟩
  | 26 => ⟨S_, .f32⟩
  | 27 => ⟨S32x256, .f32⟩
  | 28 => ⟨S32x256, .f32⟩
  | 29 => ⟨S32x256, .f32⟩
  | 30 => ⟨S32x256, .f32⟩
  | 31 => ⟨S32x128, .f32⟩
  | 32 => ⟨S32x128, .f32⟩
  | 33 => ⟨S16x128, .f32⟩
  | 34 => ⟨S16x256, .f32⟩
  | 35 => ⟨S16x256, .f32⟩
  | 36 => ⟨S128x1024, .f32⟩
  | 37 => ⟨S16x1024, .f32⟩
  | 38 => ⟨S1x1024, .f32⟩
  | 39 => ⟨S16x1024, .f32⟩
  | 40 => ⟨S16x1024, .f32⟩
  | 41 => ⟨S256x1024, .f32⟩
  | 42 => ⟨S16x1024, .f32⟩
  | 43 => ⟨S16x1024, .f32⟩
  | 44 => ⟨S1x1024, .f32⟩
  | 45 => ⟨S16x1024, .f32⟩
  | 46 => ⟨S16x1024, .f32⟩
  | 47 => ⟨S16x256, .f32⟩
  | 48 => ⟨S16x256, .f32⟩
  | 49 => ⟨S16x256, .f32⟩
  | 50 => ⟨S16x256, .f32⟩
  | 51 => ⟨S16x256, .f32⟩
  | 52 => ⟨S16x256, .f32⟩
  | 53 => ⟨S_, .f32⟩
  | 54 => ⟨S16x256, .f32⟩
  | 55 => ⟨S16x256, .f32⟩
  | 56 => ⟨S_, .f32⟩
  | 57 => ⟨S16x256, .f32⟩
  | 58 => ⟨S16x256, .f32⟩
  | 59 => ⟨S16x256, .f32⟩
  | 60 => ⟨S16x256, .f32⟩
  | 61 => ⟨S16x256, .f32⟩
  | 62 => ⟨S_, .f32⟩
  | 63 => ⟨S16x256, .f32⟩
  | 64 => ⟨S16x256, .f32⟩
  | 65 => ⟨S_, .f32⟩
  | 66 => ⟨S16x256, .f32⟩
  | 67 => ⟨S16x256, .f32⟩
  | 68 => ⟨S16x256, .f32⟩
  | 69 => ⟨S16x256, .f32⟩
  | 70 => ⟨S16x256, .f32⟩
  | 71 => ⟨S16x256, .f32⟩
  | 72 => ⟨S16x256, .f32⟩
  | 73 => ⟨S_, .f32⟩
  | 74 => ⟨S16x256, .f32⟩
  | 75 => ⟨S16x256, .f32⟩
  | 76 => ⟨S_, .f32⟩
  | 77 => ⟨S16x256, .f32⟩
  | 78 => ⟨S16x256, .f32⟩
  | 79 => ⟨S16x256, .f32⟩
  | 80 => ⟨S16x256, .f32⟩
  | 81 => ⟨S16x128, .f32⟩
  | 82 => ⟨S16x128, .f32⟩
  | 83 => ⟨S8x128, .f32⟩
  | 84 => ⟨S8x256, .f32⟩
  | 85 => ⟨S8x256, .f32⟩
  | 86 => ⟨S128x1024, .f32⟩
  | 87 => ⟨S8x1024, .f32⟩
  | 88 => ⟨S1x1024, .f32⟩
  | 89 => ⟨S8x1024, .f32⟩
  | 90 => ⟨S8x1024, .f32⟩
  | 91 => ⟨S256x1024, .f32⟩
  | 92 => ⟨S8x1024, .f32⟩
  | 93 => ⟨S8x1024, .f32⟩
  | 94 => ⟨S1x1024, .f32⟩
  | 95 => ⟨S8x1024, .f32⟩
  | 96 => ⟨S8x1024, .f32⟩
  | 97 => ⟨S8x256, .f32⟩
  | 98 => ⟨S8x256, .f32⟩
  | 99 => ⟨S8x256, .f32⟩
  | 100 => ⟨S8x256, .f32⟩
  | 101 => ⟨S8x256, .f32⟩
  | 102 => ⟨S8x256, .f32⟩
  | 103 => ⟨S_, .f32⟩
  | 104 => ⟨S8x256, .f32⟩
  | 105 => ⟨S8x256, .f32⟩
  | 106 => ⟨S_, .f32⟩
  | 107 => ⟨S8x256, .f32⟩
  | 108 => ⟨S8x256, .f32⟩
  | 109 => ⟨S8x256, .f32⟩
  | 110 => ⟨S8x256, .f32⟩
  | 111 => ⟨S8x256, .f32⟩
  | 112 => ⟨S_, .f32⟩
  | 113 => ⟨S8x256, .f32⟩
  | 114 => ⟨S8x256, .f32⟩
  | 115 => ⟨S_, .f32⟩
  | 116 => ⟨S8x256, .f32⟩
  | 117 => ⟨S8x256, .f32⟩
  | 118 => ⟨S8x256, .f32⟩
  | 119 => ⟨S8x256, .f32⟩
  | 120 => ⟨S8x256, .f32⟩
  | 121 => ⟨S8x256, .f32⟩
  | 122 => ⟨S8x256, .f32⟩
  | 123 => ⟨S_, .f32⟩
  | 124 => ⟨S8x256, .f32⟩
  | 125 => ⟨S8x256, .f32⟩
  | 126 => ⟨S_, .f32⟩
  | 127 => ⟨S8x256, .f32⟩
  | _ => ⟨S262143x128, .f32⟩

abbrev hbmTy0_3 (i : Nat) : BufTy := match i % 128 with
  | 0 => ⟨S8x256, .f32⟩
  | 1 => ⟨S8x256, .f32⟩
  | 2 => ⟨S8x256, .f32⟩
  | 3 => ⟨S8x128, .f32⟩
  | 4 => ⟨S8x128, .f32⟩
  | 5 => ⟨S4x128, .f32⟩
  | 6 => ⟨S4x256, .f32⟩
  | 7 => ⟨S4x256, .f32⟩
  | 8 => ⟨S128x1024, .f32⟩
  | 9 => ⟨S4x1024, .f32⟩
  | 10 => ⟨S1x1024, .f32⟩
  | 11 => ⟨S4x1024, .f32⟩
  | 12 => ⟨S4x1024, .f32⟩
  | 13 => ⟨S256x1024, .f32⟩
  | 14 => ⟨S4x1024, .f32⟩
  | 15 => ⟨S4x1024, .f32⟩
  | 16 => ⟨S1x1024, .f32⟩
  | 17 => ⟨S4x1024, .f32⟩
  | 18 => ⟨S4x1024, .f32⟩
  | 19 => ⟨S4x256, .f32⟩
  | 20 => ⟨S4x256, .f32⟩
  | 21 => ⟨S4x256, .f32⟩
  | 22 => ⟨S4x256, .f32⟩
  | 23 => ⟨S4x256, .f32⟩
  | 24 => ⟨S4x256, .f32⟩
  | 25 => ⟨S_, .f32⟩
  | 26 => ⟨S4x256, .f32⟩
  | 27 => ⟨S4x256, .f32⟩
  | 28 => ⟨S_, .f32⟩
  | 29 => ⟨S4x256, .f32⟩
  | 30 => ⟨S4x256, .f32⟩
  | 31 => ⟨S4x256, .f32⟩
  | 32 => ⟨S4x256, .f32⟩
  | 33 => ⟨S4x256, .f32⟩
  | 34 => ⟨S_, .f32⟩
  | 35 => ⟨S4x256, .f32⟩
  | 36 => ⟨S4x256, .f32⟩
  | 37 => ⟨S_, .f32⟩
  | 38 => ⟨S4x256, .f32⟩
  | 39 => ⟨S4x256, .f32⟩
  | 40 => ⟨S4x256, .f32⟩
  | 41 => ⟨S4x256, .f32⟩
  | 42 => ⟨S4x256, .f32⟩
  | 43 => ⟨S4x256, .f32⟩
  | 44 => ⟨S4x256, .f32⟩
  | 45 => ⟨S_, .f32⟩
  | 46 => ⟨S4x256, .f32⟩
  | 47 => ⟨S4x256, .f32⟩
  | 48 => ⟨S_, .f32⟩
  | 49 => ⟨S4x256, .f32⟩
  | 50 => ⟨S4x256, .f32⟩
  | 51 => ⟨S4x256, .f32⟩
  | 52 => ⟨S4x256, .f32⟩
  | 53 => ⟨S4x128, .f32⟩
  | 54 => ⟨S4x128, .f32⟩
  | 55 => ⟨S2x128, .f32⟩
  | 56 => ⟨S2x256, .f32⟩
  | 57 => ⟨S2x256, .f32⟩
  | 58 => ⟨S128x1024, .f32⟩
  | 59 => ⟨S2x1024, .f32⟩
  | 60 => ⟨S1x1024, .f32⟩
  | 61 => ⟨S2x1024, .f32⟩
  | 62 => ⟨S2x1024, .f32⟩
  | 63 => ⟨S256x1024, .f32⟩
  | 64 => ⟨S2x1024, .f32⟩
  | 65 => ⟨S2x1024, .f32⟩
  | 66 => ⟨S1x1024, .f32⟩
  | 67 => ⟨S2x1024, .f32⟩
  | 68 => ⟨S2x1024, .f32⟩
  | 69 => ⟨S2x256, .f32⟩
  | 70 => ⟨S2x256, .f32⟩
  | 71 => ⟨S2x256, .f32⟩
  | 72 => ⟨S2x256, .f32⟩
  | 73 => ⟨S2x256, .f32⟩
  | 74 => ⟨S2x256, .f32⟩
  | 75 => ⟨S_, .f32⟩
  | 76 => ⟨S2x256, .f32⟩
  | 77 => ⟨S2x256, .f32⟩
  | 78 => ⟨S_, .f32⟩
  | 79 => ⟨S2x256, .f32⟩
  | 80 => ⟨S2x256, .f32⟩
  | 81 => ⟨S2x256, .f32⟩
  | 82 => ⟨S2x256, .f32⟩
  | 83 => ⟨S2x256, .f32⟩
  | 84 => ⟨S_, .f32⟩
  | 85 => ⟨S2x256, .f32⟩
  | 86 => ⟨S2x256, .f32⟩
  | 87 => ⟨S_, .f32⟩
  | 88 => ⟨S2x256, .f32⟩
  | 89 => ⟨S2x256, .f32⟩
  | 90 => ⟨S2x256, .f32⟩
  | 91 => ⟨S2x256, .f32⟩
  | 92 => ⟨S2x256, .f32⟩
  | 93 => ⟨S2x256, .f32⟩
  | 94 => ⟨S2x256, .f32⟩
  | 95 => ⟨S_, .f32⟩
  | 96 => ⟨S2x256, .f32⟩
  | 97 => ⟨S2x256, .f32⟩
  | 98 => ⟨S_, .f32⟩
  | 99 => ⟨S2x256, .f32⟩
  | 100 => ⟨S2x256, .f32⟩
  | 101 => ⟨S2x256, .f32⟩
  | 102 => ⟨S2x256, .f32⟩
  | 103 => ⟨S2x128, .f32⟩
  | 104 => ⟨S2x128, .f32⟩
  | 105 => ⟨S1x128, .f32⟩
  | 106 => ⟨S1x256, .f32⟩
  | 107 => ⟨S1x256, .f32⟩
  | 108 => ⟨S128x1024, .f32⟩
  | 109 => ⟨S1x1024, .f32⟩
  | 110 => ⟨S1x1024, .f32⟩
  | 111 => ⟨S1x1024, .f32⟩
  | 112 => ⟨S256x1024, .f32⟩
  | 113 => ⟨S1x1024, .f32⟩
  | 114 => ⟨S1x1024, .f32⟩
  | 115 => ⟨S1x1024, .f32⟩
  | 116 => ⟨S1x1024, .f32⟩
  | 117 => ⟨S1x256, .f32⟩
  | 118 => ⟨S1x256, .f32⟩
  | 119 => ⟨S1x256, .f32⟩
  | 120 => ⟨S1x256, .f32⟩
  | 121 => ⟨S1x256, .f32⟩
  | 122 => ⟨S1x256, .f32⟩
  | 123 => ⟨S_, .f32⟩
  | 124 => ⟨S1x256, .f32⟩
  | 125 => ⟨S1x256, .f32⟩
  | 126 => ⟨S_, .f32⟩
  | 127 => ⟨S1x256, .f32⟩
  | _ => ⟨S262143x128, .f32⟩

abbrev hbmTy0_4 (i : Nat) : BufTy := match i % 128 with
  | 0 => ⟨S1x256, .f32⟩
  | 1 => ⟨S1x256, .f32⟩
  | 2 => ⟨S1x256, .f32⟩
  | 3 => ⟨S1x256, .f32⟩
  | 4 => ⟨S_, .f32⟩
  | 5 => ⟨S1x256, .f32⟩
  | 6 => ⟨S1x256, .f32⟩
  | 7 => ⟨S_, .f32⟩
  | 8 => ⟨S1x256, .f32⟩
  | 9 => ⟨S1x256, .f32⟩
  | 10 => ⟨S1x256, .f32⟩
  | 11 => ⟨S1x256, .f32⟩
  | 12 => ⟨S1x256, .f32⟩
  | 13 => ⟨S1x256, .f32⟩
  | 14 => ⟨S1x256, .f32⟩
  | 15 => ⟨S_, .f32⟩
  | 16 => ⟨S1x256, .f32⟩
  | 17 => ⟨S1x256, .f32⟩
  | 18 => ⟨S_, .f32⟩
  | 19 => ⟨S1x256, .f32⟩
  | 20 => ⟨S1x256, .f32⟩
  | 21 => ⟨S1x256, .f32⟩
  | 22 => ⟨S1x256, .f32⟩
  | 23 => ⟨S1x128, .f32⟩
  | 24 => ⟨S1x128, .f32⟩
  | 25 => ⟨S1x256, .f32⟩
  | _ => ⟨S262143x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S262143x128, .f32⟩

abbrev bufTy : (tb : Table) → Fin (tcTables nBuf tb) → BufTy
  | .hbm, ⟨i, _⟩ => hbmTy i
  | .local _ .vmem, ⟨0, _⟩ => ⟨S1024x128, .f32⟩
  | .local _ .vmem, ⟨1, _⟩ => ⟨S1024x128, .f32⟩
  | .local _ .vmem, ⟨2, _⟩ => ⟨S512x128, .f32⟩
  | .local _ .vmem, ⟨3, _⟩ => ⟨S512x128, .f32⟩
  | .local _ .vmem, ⟨4, _⟩ => ⟨S256x128, .f32⟩
  | .local _ .vmem, ⟨5, _⟩ => ⟨S256x128, .f32⟩
  | .local _ .vmem, ⟨6, _⟩ => ⟨S128x128, .f32⟩
  | .local _ .vmem, ⟨7, _⟩ => ⟨S128x128, .f32⟩
  | .local _ .vmem, ⟨8, _⟩ => ⟨S64x128, .f32⟩
  | .local _ .vmem, ⟨9, _⟩ => ⟨S64x128, .f32⟩
  | .local _ .vmem, ⟨10, _⟩ => ⟨S32x128, .f32⟩
  | .local _ .vmem, ⟨11, _⟩ => ⟨S32x128, .f32⟩
  | .local _ .vmem, ⟨12, _⟩ => ⟨S16x128, .f32⟩
  | .local _ .vmem, ⟨13, _⟩ => ⟨S16x128, .f32⟩
  | .local _ .vmem, ⟨14, _⟩ => ⟨S8x128, .f32⟩
  | .local _ .vmem, ⟨15, _⟩ => ⟨S8x128, .f32⟩
  | .local _ .vmem, ⟨16, _⟩ => ⟨S128x512, .f32⟩
  | .local _ .vmem, ⟨17, _⟩ => ⟨S256x512, .f32⟩
  | .local _ .vmem, ⟨18, _⟩ => ⟨S1x512, .f32⟩
  | .local _ .vmem, ⟨19, _⟩ => ⟨S1x512, .f32⟩
  | .local _ .vmem, ⟨20, _⟩ => ⟨S8x128, .f32⟩
  | .local _ .vmem, ⟨21, _⟩ => ⟨S8x128, .f32⟩
  | .local _ .vmem, ⟨22, _⟩ => ⟨S8x128, .f32⟩
  | .local _ .vmem, ⟨23, _⟩ => ⟨S8x128, .f32⟩
  | _, _ => ⟨S262143x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32_0 : Ref sig .tc := ⟨.hbm, 37, rfl⟩
abbrev main_v32_1 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_cst : Ref sig .tc := ⟨.hbm, 59, rfl⟩
abbrev main_v53 : Ref sig .tc := ⟨.hbm, 60, rfl⟩
abbrev main_v54 : Ref sig .tc := ⟨.hbm, 61, rfl⟩
abbrev main_cst_0 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_cst_1 : Ref sig .tc := ⟨.hbm, 68, rfl⟩
abbrev main_v60 : Ref sig .tc := ⟨.hbm, 69, rfl⟩
abbrev main_v61 : Ref sig .tc := ⟨.hbm, 70, rfl⟩
abbrev main_cst_2 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_cst_3 : Ref sig .tc := ⟨.hbm, 79, rfl⟩
abbrev main_v69 : Ref sig .tc := ⟨.hbm, 80, rfl⟩
abbrev main_v70 : Ref sig .tc := ⟨.hbm, 81, rfl⟩
abbrev main_cst_4 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_cst_5 : Ref sig .tc := ⟨.hbm, 109, rfl⟩
abbrev main_v97 : Ref sig .tc := ⟨.hbm, 110, rfl⟩
abbrev main_v98 : Ref sig .tc := ⟨.hbm, 111, rfl⟩
abbrev main_cst_6 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_v103 : Ref sig .tc := ⟨.hbm, 117, rfl⟩
abbrev main_cst_7 : Ref sig .tc := ⟨.hbm, 118, rfl⟩
abbrev main_v104 : Ref sig .tc := ⟨.hbm, 119, rfl⟩
abbrev main_v105 : Ref sig .tc := ⟨.hbm, 120, rfl⟩
abbrev main_cst_8 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩
abbrev main_v111 : Ref sig .tc := ⟨.hbm, 127, rfl⟩
abbrev main_v112 : Ref sig .tc := ⟨.hbm, 128, rfl⟩
abbrev main_cst_9 : Ref sig .tc := ⟨.hbm, 129, rfl⟩
abbrev main_v113 : Ref sig .tc := ⟨.hbm, 130, rfl⟩
abbrev main_v114 : Ref sig .tc := ⟨.hbm, 131, rfl⟩
abbrev main_cst_10 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_v118 : Ref sig .tc := ⟨.hbm, 136, rfl⟩
abbrev main_v119 : Ref sig .tc := ⟨.hbm, 137, rfl⟩
abbrev main_v120 : Ref sig .tc := ⟨.hbm, 138, rfl⟩
abbrev main_v121 : Ref sig .tc := ⟨.hbm, 139, rfl⟩
abbrev main_v122 : Ref sig .tc := ⟨.hbm, 140, rfl⟩
abbrev main_v123 : Ref sig .tc := ⟨.hbm, 141, rfl⟩
abbrev main_v124 : Ref sig .tc := ⟨.hbm, 142, rfl⟩
abbrev main_v125 : Ref sig .tc := ⟨.hbm, 143, rfl⟩
abbrev main_v126 : Ref sig .tc := ⟨.hbm, 144, rfl⟩
abbrev main_v127 : Ref sig .tc := ⟨.hbm, 145, rfl⟩
abbrev main_v128 : Ref sig .tc := ⟨.hbm, 146, rfl⟩
abbrev main_v129 : Ref sig .tc := ⟨.hbm, 147, rfl⟩
abbrev main_v130 : Ref sig .tc := ⟨.hbm, 148, rfl⟩
abbrev main_v131 : Ref sig .tc := ⟨.hbm, 149, rfl⟩
abbrev main_v132 : Ref sig .tc := ⟨.hbm, 150, rfl⟩
abbrev main_v133 : Ref sig .tc := ⟨.hbm, 151, rfl⟩
abbrev main_v134 : Ref sig .tc := ⟨.hbm, 152, rfl⟩
abbrev main_v135 : Ref sig .tc := ⟨.hbm, 153, rfl⟩
abbrev main_v136 : Ref sig .tc := ⟨.hbm, 154, rfl⟩
abbrev main_v137 : Ref sig .tc := ⟨.hbm, 155, rfl⟩
abbrev main_v138 : Ref sig .tc := ⟨.hbm, 156, rfl⟩
abbrev main_v139 : Ref sig .tc := ⟨.hbm, 157, rfl⟩
abbrev main_v140 : Ref sig .tc := ⟨.hbm, 158, rfl⟩
abbrev main_cst_11 : Ref sig .tc := ⟨.hbm, 159, rfl⟩
abbrev main_v141 : Ref sig .tc := ⟨.hbm, 160, rfl⟩
abbrev main_v142 : Ref sig .tc := ⟨.hbm, 161, rfl⟩
abbrev main_cst_12 : Ref sig .tc := ⟨.hbm, 162, rfl⟩
abbrev main_v143 : Ref sig .tc := ⟨.hbm, 163, rfl⟩
abbrev main_v144 : Ref sig .tc := ⟨.hbm, 164, rfl⟩
abbrev main_v145 : Ref sig .tc := ⟨.hbm, 165, rfl⟩
abbrev main_v146 : Ref sig .tc := ⟨.hbm, 166, rfl⟩
abbrev main_v147 : Ref sig .tc := ⟨.hbm, 167, rfl⟩
abbrev main_cst_13 : Ref sig .tc := ⟨.hbm, 168, rfl⟩
abbrev main_v148 : Ref sig .tc := ⟨.hbm, 169, rfl⟩
abbrev main_v149 : Ref sig .tc := ⟨.hbm, 170, rfl⟩
abbrev main_cst_14 : Ref sig .tc := ⟨.hbm, 171, rfl⟩
abbrev main_v150 : Ref sig .tc := ⟨.hbm, 172, rfl⟩
abbrev main_v151 : Ref sig .tc := ⟨.hbm, 173, rfl⟩
abbrev main_v152 : Ref sig .tc := ⟨.hbm, 174, rfl⟩
abbrev main_v153 : Ref sig .tc := ⟨.hbm, 175, rfl⟩
abbrev main_v154 : Ref sig .tc := ⟨.hbm, 176, rfl⟩
abbrev main_v155 : Ref sig .tc := ⟨.hbm, 177, rfl⟩
abbrev main_v156 : Ref sig .tc := ⟨.hbm, 178, rfl⟩
abbrev main_cst_15 : Ref sig .tc := ⟨.hbm, 179, rfl⟩
abbrev main_v157 : Ref sig .tc := ⟨.hbm, 180, rfl⟩
abbrev main_v158 : Ref sig .tc := ⟨.hbm, 181, rfl⟩
abbrev main_cst_16 : Ref sig .tc := ⟨.hbm, 182, rfl⟩
abbrev main_v159 : Ref sig .tc := ⟨.hbm, 183, rfl⟩
abbrev main_v160 : Ref sig .tc := ⟨.hbm, 184, rfl⟩
abbrev main_v161 : Ref sig .tc := ⟨.hbm, 185, rfl⟩
abbrev main_v162 : Ref sig .tc := ⟨.hbm, 186, rfl⟩
abbrev main_v163 : Ref sig .tc := ⟨.hbm, 187, rfl⟩
abbrev main_v164 : Ref sig .tc := ⟨.hbm, 188, rfl⟩
abbrev main_v165 : Ref sig .tc := ⟨.hbm, 189, rfl⟩
abbrev main_v166 : Ref sig .tc := ⟨.hbm, 190, rfl⟩
abbrev main_v167 : Ref sig .tc := ⟨.hbm, 191, rfl⟩
abbrev main_v168 : Ref sig .tc := ⟨.hbm, 192, rfl⟩
abbrev main_v169 : Ref sig .tc := ⟨.hbm, 193, rfl⟩
abbrev main_v170 : Ref sig .tc := ⟨.hbm, 194, rfl⟩
abbrev main_v171 : Ref sig .tc := ⟨.hbm, 195, rfl⟩
abbrev main_v172 : Ref sig .tc := ⟨.hbm, 196, rfl⟩
abbrev main_v173 : Ref sig .tc := ⟨.hbm, 197, rfl⟩
abbrev main_v174 : Ref sig .tc := ⟨.hbm, 198, rfl⟩
abbrev main_v175 : Ref sig .tc := ⟨.hbm, 199, rfl⟩
abbrev main_v176 : Ref sig .tc := ⟨.hbm, 200, rfl⟩
abbrev main_v177 : Ref sig .tc := ⟨.hbm, 201, rfl⟩
abbrev main_v178 : Ref sig .tc := ⟨.hbm, 202, rfl⟩
abbrev main_v179 : Ref sig .tc := ⟨.hbm, 203, rfl⟩
abbrev main_v180 : Ref sig .tc := ⟨.hbm, 204, rfl⟩
abbrev main_v181 : Ref sig .tc := ⟨.hbm, 205, rfl⟩
abbrev main_v182 : Ref sig .tc := ⟨.hbm, 206, rfl⟩
abbrev main_v183 : Ref sig .tc := ⟨.hbm, 207, rfl⟩
abbrev main_v184 : Ref sig .tc := ⟨.hbm, 208, rfl⟩
abbrev main_cst_17 : Ref sig .tc := ⟨.hbm, 209, rfl⟩
abbrev main_v185 : Ref sig .tc := ⟨.hbm, 210, rfl⟩
abbrev main_v186 : Ref sig .tc := ⟨.hbm, 211, rfl⟩
abbrev main_cst_18 : Ref sig .tc := ⟨.hbm, 212, rfl⟩
abbrev main_v187 : Ref sig .tc := ⟨.hbm, 213, rfl⟩
abbrev main_v188 : Ref sig .tc := ⟨.hbm, 214, rfl⟩
abbrev main_v189 : Ref sig .tc := ⟨.hbm, 215, rfl⟩
abbrev main_v190 : Ref sig .tc := ⟨.hbm, 216, rfl⟩
abbrev main_v191 : Ref sig .tc := ⟨.hbm, 217, rfl⟩
abbrev main_cst_19 : Ref sig .tc := ⟨.hbm, 218, rfl⟩
abbrev main_v192 : Ref sig .tc := ⟨.hbm, 219, rfl⟩
abbrev main_v193 : Ref sig .tc := ⟨.hbm, 220, rfl⟩
abbrev main_cst_20 : Ref sig .tc := ⟨.hbm, 221, rfl⟩
abbrev main_v194 : Ref sig .tc := ⟨.hbm, 222, rfl⟩
abbrev main_v195 : Ref sig .tc := ⟨.hbm, 223, rfl⟩
abbrev main_v196 : Ref sig .tc := ⟨.hbm, 224, rfl⟩
abbrev main_v197 : Ref sig .tc := ⟨.hbm, 225, rfl⟩
abbrev main_v198 : Ref sig .tc := ⟨.hbm, 226, rfl⟩
abbrev main_v199 : Ref sig .tc := ⟨.hbm, 227, rfl⟩
abbrev main_v200 : Ref sig .tc := ⟨.hbm, 228, rfl⟩
abbrev main_cst_21 : Ref sig .tc := ⟨.hbm, 229, rfl⟩
abbrev main_v201 : Ref sig .tc := ⟨.hbm, 230, rfl⟩
abbrev main_v202 : Ref sig .tc := ⟨.hbm, 231, rfl⟩
abbrev main_cst_22 : Ref sig .tc := ⟨.hbm, 232, rfl⟩
abbrev main_v203 : Ref sig .tc := ⟨.hbm, 233, rfl⟩
abbrev main_v204 : Ref sig .tc := ⟨.hbm, 234, rfl⟩
abbrev main_v205 : Ref sig .tc := ⟨.hbm, 235, rfl⟩
abbrev main_v206 : Ref sig .tc := ⟨.hbm, 236, rfl⟩
abbrev main_v207 : Ref sig .tc := ⟨.hbm, 237, rfl⟩
abbrev main_v208 : Ref sig .tc := ⟨.hbm, 238, rfl⟩
abbrev main_v209 : Ref sig .tc := ⟨.hbm, 239, rfl⟩
abbrev main_v210 : Ref sig .tc := ⟨.hbm, 240, rfl⟩
abbrev main_v211 : Ref sig .tc := ⟨.hbm, 241, rfl⟩
abbrev main_v212 : Ref sig .tc := ⟨.hbm, 242, rfl⟩
abbrev main_v213 : Ref sig .tc := ⟨.hbm, 243, rfl⟩
abbrev main_v214 : Ref sig .tc := ⟨.hbm, 244, rfl⟩
abbrev main_v215 : Ref sig .tc := ⟨.hbm, 245, rfl⟩
abbrev main_v216 : Ref sig .tc := ⟨.hbm, 246, rfl⟩
abbrev main_v217 : Ref sig .tc := ⟨.hbm, 247, rfl⟩
abbrev main_v218 : Ref sig .tc := ⟨.hbm, 248, rfl⟩
abbrev main_v219 : Ref sig .tc := ⟨.hbm, 249, rfl⟩
abbrev main_v220 : Ref sig .tc := ⟨.hbm, 250, rfl⟩
abbrev main_v221 : Ref sig .tc := ⟨.hbm, 251, rfl⟩
abbrev main_v222 : Ref sig .tc := ⟨.hbm, 252, rfl⟩
abbrev main_v223 : Ref sig .tc := ⟨.hbm, 253, rfl⟩
abbrev main_v224 : Ref sig .tc := ⟨.hbm, 254, rfl⟩
abbrev main_v225 : Ref sig .tc := ⟨.hbm, 255, rfl⟩
abbrev main_v226 : Ref sig .tc := ⟨.hbm, 256, rfl⟩
abbrev main_v227 : Ref sig .tc := ⟨.hbm, 257, rfl⟩
abbrev main_v228 : Ref sig .tc := ⟨.hbm, 258, rfl⟩
abbrev main_cst_23 : Ref sig .tc := ⟨.hbm, 259, rfl⟩
abbrev main_v229 : Ref sig .tc := ⟨.hbm, 260, rfl⟩
abbrev main_v230 : Ref sig .tc := ⟨.hbm, 261, rfl⟩
abbrev main_cst_24 : Ref sig .tc := ⟨.hbm, 262, rfl⟩
abbrev main_v231 : Ref sig .tc := ⟨.hbm, 263, rfl⟩
abbrev main_v232 : Ref sig .tc := ⟨.hbm, 264, rfl⟩
abbrev main_v233 : Ref sig .tc := ⟨.hbm, 265, rfl⟩
abbrev main_v234 : Ref sig .tc := ⟨.hbm, 266, rfl⟩
abbrev main_v235 : Ref sig .tc := ⟨.hbm, 267, rfl⟩
abbrev main_cst_25 : Ref sig .tc := ⟨.hbm, 268, rfl⟩
abbrev main_v236 : Ref sig .tc := ⟨.hbm, 269, rfl⟩
abbrev main_v237 : Ref sig .tc := ⟨.hbm, 270, rfl⟩
abbrev main_cst_26 : Ref sig .tc := ⟨.hbm, 271, rfl⟩
abbrev main_v238 : Ref sig .tc := ⟨.hbm, 272, rfl⟩
abbrev main_v239 : Ref sig .tc := ⟨.hbm, 273, rfl⟩
abbrev main_v240 : Ref sig .tc := ⟨.hbm, 274, rfl⟩
abbrev main_v241 : Ref sig .tc := ⟨.hbm, 275, rfl⟩
abbrev main_v242 : Ref sig .tc := ⟨.hbm, 276, rfl⟩
abbrev main_v243 : Ref sig .tc := ⟨.hbm, 277, rfl⟩
abbrev main_v244 : Ref sig .tc := ⟨.hbm, 278, rfl⟩
abbrev main_cst_27 : Ref sig .tc := ⟨.hbm, 279, rfl⟩
abbrev main_v245 : Ref sig .tc := ⟨.hbm, 280, rfl⟩
abbrev main_v246 : Ref sig .tc := ⟨.hbm, 281, rfl⟩
abbrev main_cst_28 : Ref sig .tc := ⟨.hbm, 282, rfl⟩
abbrev main_v247 : Ref sig .tc := ⟨.hbm, 283, rfl⟩
abbrev main_v248 : Ref sig .tc := ⟨.hbm, 284, rfl⟩
abbrev main_v249 : Ref sig .tc := ⟨.hbm, 285, rfl⟩
abbrev main_v250 : Ref sig .tc := ⟨.hbm, 286, rfl⟩
abbrev main_v251 : Ref sig .tc := ⟨.hbm, 287, rfl⟩
abbrev main_v252 : Ref sig .tc := ⟨.hbm, 288, rfl⟩
abbrev main_v253 : Ref sig .tc := ⟨.hbm, 289, rfl⟩
abbrev main_v254 : Ref sig .tc := ⟨.hbm, 290, rfl⟩
abbrev main_v255 : Ref sig .tc := ⟨.hbm, 291, rfl⟩
abbrev main_v256 : Ref sig .tc := ⟨.hbm, 292, rfl⟩
abbrev main_v257 : Ref sig .tc := ⟨.hbm, 293, rfl⟩
abbrev main_v258 : Ref sig .tc := ⟨.hbm, 294, rfl⟩
abbrev main_v259 : Ref sig .tc := ⟨.hbm, 295, rfl⟩
abbrev main_v260 : Ref sig .tc := ⟨.hbm, 296, rfl⟩
abbrev main_v261 : Ref sig .tc := ⟨.hbm, 297, rfl⟩
abbrev main_v262 : Ref sig .tc := ⟨.hbm, 298, rfl⟩
abbrev main_v263 : Ref sig .tc := ⟨.hbm, 299, rfl⟩
abbrev main_v264 : Ref sig .tc := ⟨.hbm, 300, rfl⟩
abbrev main_v265 : Ref sig .tc := ⟨.hbm, 301, rfl⟩
abbrev main_v266 : Ref sig .tc := ⟨.hbm, 302, rfl⟩
abbrev main_v267 : Ref sig .tc := ⟨.hbm, 303, rfl⟩
abbrev main_v268 : Ref sig .tc := ⟨.hbm, 304, rfl⟩
abbrev main_v269 : Ref sig .tc := ⟨.hbm, 305, rfl⟩
abbrev main_v270 : Ref sig .tc := ⟨.hbm, 306, rfl⟩
abbrev main_v271 : Ref sig .tc := ⟨.hbm, 307, rfl⟩
abbrev main_v272 : Ref sig .tc := ⟨.hbm, 308, rfl⟩
abbrev main_cst_29 : Ref sig .tc := ⟨.hbm, 309, rfl⟩
abbrev main_v273 : Ref sig .tc := ⟨.hbm, 310, rfl⟩
abbrev main_v274 : Ref sig .tc := ⟨.hbm, 311, rfl⟩
abbrev main_cst_30 : Ref sig .tc := ⟨.hbm, 312, rfl⟩
abbrev main_v275 : Ref sig .tc := ⟨.hbm, 313, rfl⟩
abbrev main_v276 : Ref sig .tc := ⟨.hbm, 314, rfl⟩
abbrev main_v277 : Ref sig .tc := ⟨.hbm, 315, rfl⟩
abbrev main_v278 : Ref sig .tc := ⟨.hbm, 316, rfl⟩
abbrev main_v279 : Ref sig .tc := ⟨.hbm, 317, rfl⟩
abbrev main_cst_31 : Ref sig .tc := ⟨.hbm, 318, rfl⟩
abbrev main_v280 : Ref sig .tc := ⟨.hbm, 319, rfl⟩
abbrev main_v281 : Ref sig .tc := ⟨.hbm, 320, rfl⟩
abbrev main_cst_32 : Ref sig .tc := ⟨.hbm, 321, rfl⟩
abbrev main_v282 : Ref sig .tc := ⟨.hbm, 322, rfl⟩
abbrev main_v283 : Ref sig .tc := ⟨.hbm, 323, rfl⟩
abbrev main_v284 : Ref sig .tc := ⟨.hbm, 324, rfl⟩
abbrev main_v285 : Ref sig .tc := ⟨.hbm, 325, rfl⟩
abbrev main_v286 : Ref sig .tc := ⟨.hbm, 326, rfl⟩
abbrev main_v287 : Ref sig .tc := ⟨.hbm, 327, rfl⟩
abbrev main_v288 : Ref sig .tc := ⟨.hbm, 328, rfl⟩
abbrev main_cst_33 : Ref sig .tc := ⟨.hbm, 329, rfl⟩
abbrev main_v289 : Ref sig .tc := ⟨.hbm, 330, rfl⟩
abbrev main_v290 : Ref sig .tc := ⟨.hbm, 331, rfl⟩
abbrev main_cst_34 : Ref sig .tc := ⟨.hbm, 332, rfl⟩
abbrev main_v291 : Ref sig .tc := ⟨.hbm, 333, rfl⟩
abbrev main_v292 : Ref sig .tc := ⟨.hbm, 334, rfl⟩
abbrev main_v293 : Ref sig .tc := ⟨.hbm, 335, rfl⟩
abbrev main_v294 : Ref sig .tc := ⟨.hbm, 336, rfl⟩
abbrev main_v295 : Ref sig .tc := ⟨.hbm, 337, rfl⟩
abbrev main_v296 : Ref sig .tc := ⟨.hbm, 338, rfl⟩
abbrev main_v297 : Ref sig .tc := ⟨.hbm, 339, rfl⟩
abbrev main_v298 : Ref sig .tc := ⟨.hbm, 340, rfl⟩
abbrev main_v299 : Ref sig .tc := ⟨.hbm, 341, rfl⟩
abbrev main_v300 : Ref sig .tc := ⟨.hbm, 342, rfl⟩
abbrev main_v301 : Ref sig .tc := ⟨.hbm, 343, rfl⟩
abbrev main_v302 : Ref sig .tc := ⟨.hbm, 344, rfl⟩
abbrev main_v303 : Ref sig .tc := ⟨.hbm, 345, rfl⟩
abbrev main_v304 : Ref sig .tc := ⟨.hbm, 346, rfl⟩
abbrev main_v305 : Ref sig .tc := ⟨.hbm, 347, rfl⟩
abbrev main_v306 : Ref sig .tc := ⟨.hbm, 348, rfl⟩
abbrev main_v307 : Ref sig .tc := ⟨.hbm, 349, rfl⟩
abbrev main_v308 : Ref sig .tc := ⟨.hbm, 350, rfl⟩
abbrev main_v309 : Ref sig .tc := ⟨.hbm, 351, rfl⟩
abbrev main_v310 : Ref sig .tc := ⟨.hbm, 352, rfl⟩
abbrev main_v311 : Ref sig .tc := ⟨.hbm, 353, rfl⟩
abbrev main_v312 : Ref sig .tc := ⟨.hbm, 354, rfl⟩
abbrev main_v313 : Ref sig .tc := ⟨.hbm, 355, rfl⟩
abbrev main_v314 : Ref sig .tc := ⟨.hbm, 356, rfl⟩
abbrev main_v315 : Ref sig .tc := ⟨.hbm, 357, rfl⟩
abbrev main_v316 : Ref sig .tc := ⟨.hbm, 358, rfl⟩
abbrev main_cst_35 : Ref sig .tc := ⟨.hbm, 359, rfl⟩
abbrev main_v317 : Ref sig .tc := ⟨.hbm, 360, rfl⟩
abbrev main_v318 : Ref sig .tc := ⟨.hbm, 361, rfl⟩
abbrev main_cst_36 : Ref sig .tc := ⟨.hbm, 362, rfl⟩
abbrev main_v319 : Ref sig .tc := ⟨.hbm, 363, rfl⟩
abbrev main_v320 : Ref sig .tc := ⟨.hbm, 364, rfl⟩
abbrev main_v321 : Ref sig .tc := ⟨.hbm, 365, rfl⟩
abbrev main_v322 : Ref sig .tc := ⟨.hbm, 366, rfl⟩
abbrev main_v323 : Ref sig .tc := ⟨.hbm, 367, rfl⟩
abbrev main_cst_37 : Ref sig .tc := ⟨.hbm, 368, rfl⟩
abbrev main_v324 : Ref sig .tc := ⟨.hbm, 369, rfl⟩
abbrev main_v325 : Ref sig .tc := ⟨.hbm, 370, rfl⟩
abbrev main_cst_38 : Ref sig .tc := ⟨.hbm, 371, rfl⟩
abbrev main_v326 : Ref sig .tc := ⟨.hbm, 372, rfl⟩
abbrev main_v327 : Ref sig .tc := ⟨.hbm, 373, rfl⟩
abbrev main_v328 : Ref sig .tc := ⟨.hbm, 374, rfl⟩
abbrev main_v329 : Ref sig .tc := ⟨.hbm, 375, rfl⟩
abbrev main_v330 : Ref sig .tc := ⟨.hbm, 376, rfl⟩
abbrev main_v331 : Ref sig .tc := ⟨.hbm, 377, rfl⟩
abbrev main_v332 : Ref sig .tc := ⟨.hbm, 378, rfl⟩
abbrev main_cst_39 : Ref sig .tc := ⟨.hbm, 379, rfl⟩
abbrev main_v333 : Ref sig .tc := ⟨.hbm, 380, rfl⟩
abbrev main_v334 : Ref sig .tc := ⟨.hbm, 381, rfl⟩
abbrev main_cst_40 : Ref sig .tc := ⟨.hbm, 382, rfl⟩
abbrev main_v335 : Ref sig .tc := ⟨.hbm, 383, rfl⟩
abbrev main_v336 : Ref sig .tc := ⟨.hbm, 384, rfl⟩
abbrev main_v337 : Ref sig .tc := ⟨.hbm, 385, rfl⟩
abbrev main_v338 : Ref sig .tc := ⟨.hbm, 386, rfl⟩
abbrev main_v339 : Ref sig .tc := ⟨.hbm, 387, rfl⟩
abbrev main_v340 : Ref sig .tc := ⟨.hbm, 388, rfl⟩
abbrev main_v341 : Ref sig .tc := ⟨.hbm, 389, rfl⟩
abbrev main_v342 : Ref sig .tc := ⟨.hbm, 390, rfl⟩
abbrev main_v343 : Ref sig .tc := ⟨.hbm, 391, rfl⟩
abbrev main_v344 : Ref sig .tc := ⟨.hbm, 392, rfl⟩
abbrev main_v345 : Ref sig .tc := ⟨.hbm, 393, rfl⟩
abbrev main_v346 : Ref sig .tc := ⟨.hbm, 394, rfl⟩
abbrev main_v347 : Ref sig .tc := ⟨.hbm, 395, rfl⟩
abbrev main_v348 : Ref sig .tc := ⟨.hbm, 396, rfl⟩
abbrev main_v349 : Ref sig .tc := ⟨.hbm, 397, rfl⟩
abbrev main_v350 : Ref sig .tc := ⟨.hbm, 398, rfl⟩
abbrev main_v351 : Ref sig .tc := ⟨.hbm, 399, rfl⟩
abbrev main_v352 : Ref sig .tc := ⟨.hbm, 400, rfl⟩
abbrev main_v353 : Ref sig .tc := ⟨.hbm, 401, rfl⟩
abbrev main_v354 : Ref sig .tc := ⟨.hbm, 402, rfl⟩
abbrev main_v355 : Ref sig .tc := ⟨.hbm, 403, rfl⟩
abbrev main_v356 : Ref sig .tc := ⟨.hbm, 404, rfl⟩
abbrev main_v357 : Ref sig .tc := ⟨.hbm, 405, rfl⟩
abbrev main_v358 : Ref sig .tc := ⟨.hbm, 406, rfl⟩
abbrev main_v359 : Ref sig .tc := ⟨.hbm, 407, rfl⟩
abbrev main_v360 : Ref sig .tc := ⟨.hbm, 408, rfl⟩
abbrev main_cst_41 : Ref sig .tc := ⟨.hbm, 409, rfl⟩
abbrev main_v361 : Ref sig .tc := ⟨.hbm, 410, rfl⟩
abbrev main_v362 : Ref sig .tc := ⟨.hbm, 411, rfl⟩
abbrev main_cst_42 : Ref sig .tc := ⟨.hbm, 412, rfl⟩
abbrev main_v363 : Ref sig .tc := ⟨.hbm, 413, rfl⟩
abbrev main_v364 : Ref sig .tc := ⟨.hbm, 414, rfl⟩
abbrev main_v365 : Ref sig .tc := ⟨.hbm, 415, rfl⟩
abbrev main_v366 : Ref sig .tc := ⟨.hbm, 416, rfl⟩
abbrev main_v367 : Ref sig .tc := ⟨.hbm, 417, rfl⟩
abbrev main_cst_43 : Ref sig .tc := ⟨.hbm, 418, rfl⟩
abbrev main_v368 : Ref sig .tc := ⟨.hbm, 419, rfl⟩
abbrev main_v369 : Ref sig .tc := ⟨.hbm, 420, rfl⟩
abbrev main_cst_44 : Ref sig .tc := ⟨.hbm, 421, rfl⟩
abbrev main_v370 : Ref sig .tc := ⟨.hbm, 422, rfl⟩
abbrev main_v371 : Ref sig .tc := ⟨.hbm, 423, rfl⟩
abbrev main_v372 : Ref sig .tc := ⟨.hbm, 424, rfl⟩
abbrev main_v373 : Ref sig .tc := ⟨.hbm, 425, rfl⟩
abbrev main_v374 : Ref sig .tc := ⟨.hbm, 426, rfl⟩
abbrev main_v375 : Ref sig .tc := ⟨.hbm, 427, rfl⟩
abbrev main_v376 : Ref sig .tc := ⟨.hbm, 428, rfl⟩
abbrev main_cst_45 : Ref sig .tc := ⟨.hbm, 429, rfl⟩
abbrev main_v377 : Ref sig .tc := ⟨.hbm, 430, rfl⟩
abbrev main_v378 : Ref sig .tc := ⟨.hbm, 431, rfl⟩
abbrev main_cst_46 : Ref sig .tc := ⟨.hbm, 432, rfl⟩
abbrev main_v379 : Ref sig .tc := ⟨.hbm, 433, rfl⟩
abbrev main_v380 : Ref sig .tc := ⟨.hbm, 434, rfl⟩
abbrev main_v381 : Ref sig .tc := ⟨.hbm, 435, rfl⟩
abbrev main_v382 : Ref sig .tc := ⟨.hbm, 436, rfl⟩
abbrev main_v383 : Ref sig .tc := ⟨.hbm, 437, rfl⟩
abbrev main_v384 : Ref sig .tc := ⟨.hbm, 438, rfl⟩
abbrev main_v385 : Ref sig .tc := ⟨.hbm, 439, rfl⟩
abbrev main_v386 : Ref sig .tc := ⟨.hbm, 440, rfl⟩
abbrev main_v387 : Ref sig .tc := ⟨.hbm, 441, rfl⟩
abbrev main_v388 : Ref sig .tc := ⟨.hbm, 442, rfl⟩
abbrev main_v389 : Ref sig .tc := ⟨.hbm, 443, rfl⟩
abbrev main_v390 : Ref sig .tc := ⟨.hbm, 444, rfl⟩
abbrev main_v391 : Ref sig .tc := ⟨.hbm, 445, rfl⟩
abbrev main_v392 : Ref sig .tc := ⟨.hbm, 446, rfl⟩
abbrev main_v393 : Ref sig .tc := ⟨.hbm, 447, rfl⟩
abbrev main_v394 : Ref sig .tc := ⟨.hbm, 448, rfl⟩
abbrev main_v395 : Ref sig .tc := ⟨.hbm, 449, rfl⟩
abbrev main_v396 : Ref sig .tc := ⟨.hbm, 450, rfl⟩
abbrev main_v397 : Ref sig .tc := ⟨.hbm, 451, rfl⟩
abbrev main_v398 : Ref sig .tc := ⟨.hbm, 452, rfl⟩
abbrev main_v399 : Ref sig .tc := ⟨.hbm, 453, rfl⟩
abbrev main_v400 : Ref sig .tc := ⟨.hbm, 454, rfl⟩
abbrev main_v401 : Ref sig .tc := ⟨.hbm, 455, rfl⟩
abbrev main_v402 : Ref sig .tc := ⟨.hbm, 456, rfl⟩
abbrev main_v403 : Ref sig .tc := ⟨.hbm, 457, rfl⟩
abbrev main_v404 : Ref sig .tc := ⟨.hbm, 458, rfl⟩
abbrev main_cst_47 : Ref sig .tc := ⟨.hbm, 459, rfl⟩
abbrev main_v405 : Ref sig .tc := ⟨.hbm, 460, rfl⟩
abbrev main_v406 : Ref sig .tc := ⟨.hbm, 461, rfl⟩
abbrev main_cst_48 : Ref sig .tc := ⟨.hbm, 462, rfl⟩
abbrev main_v407 : Ref sig .tc := ⟨.hbm, 463, rfl⟩
abbrev main_v408 : Ref sig .tc := ⟨.hbm, 464, rfl⟩
abbrev main_v409 : Ref sig .tc := ⟨.hbm, 465, rfl⟩
abbrev main_v410 : Ref sig .tc := ⟨.hbm, 466, rfl⟩
abbrev main_v411 : Ref sig .tc := ⟨.hbm, 467, rfl⟩
abbrev main_cst_49 : Ref sig .tc := ⟨.hbm, 468, rfl⟩
abbrev main_v412 : Ref sig .tc := ⟨.hbm, 469, rfl⟩
abbrev main_v413 : Ref sig .tc := ⟨.hbm, 470, rfl⟩
abbrev main_cst_50 : Ref sig .tc := ⟨.hbm, 471, rfl⟩
abbrev main_v414 : Ref sig .tc := ⟨.hbm, 472, rfl⟩
abbrev main_v415 : Ref sig .tc := ⟨.hbm, 473, rfl⟩
abbrev main_v416 : Ref sig .tc := ⟨.hbm, 474, rfl⟩
abbrev main_v417 : Ref sig .tc := ⟨.hbm, 475, rfl⟩
abbrev main_v418 : Ref sig .tc := ⟨.hbm, 476, rfl⟩
abbrev main_v419 : Ref sig .tc := ⟨.hbm, 477, rfl⟩
abbrev main_v420 : Ref sig .tc := ⟨.hbm, 478, rfl⟩
abbrev main_cst_51 : Ref sig .tc := ⟨.hbm, 479, rfl⟩
abbrev main_v421 : Ref sig .tc := ⟨.hbm, 480, rfl⟩
abbrev main_v422 : Ref sig .tc := ⟨.hbm, 481, rfl⟩
abbrev main_cst_52 : Ref sig .tc := ⟨.hbm, 482, rfl⟩
abbrev main_v423 : Ref sig .tc := ⟨.hbm, 483, rfl⟩
abbrev main_v424 : Ref sig .tc := ⟨.hbm, 484, rfl⟩
abbrev main_v425 : Ref sig .tc := ⟨.hbm, 485, rfl⟩
abbrev main_v426 : Ref sig .tc := ⟨.hbm, 486, rfl⟩
abbrev main_v427 : Ref sig .tc := ⟨.hbm, 487, rfl⟩
abbrev main_v428 : Ref sig .tc := ⟨.hbm, 488, rfl⟩
abbrev main_v429 : Ref sig .tc := ⟨.hbm, 489, rfl⟩
abbrev main_v430 : Ref sig .tc := ⟨.hbm, 490, rfl⟩
abbrev main_v431 : Ref sig .tc := ⟨.hbm, 491, rfl⟩
abbrev main_v432 : Ref sig .tc := ⟨.hbm, 492, rfl⟩
abbrev main_v433 : Ref sig .tc := ⟨.hbm, 493, rfl⟩
abbrev main_v434 : Ref sig .tc := ⟨.hbm, 494, rfl⟩
abbrev main_v435 : Ref sig .tc := ⟨.hbm, 495, rfl⟩
abbrev main_v436 : Ref sig .tc := ⟨.hbm, 496, rfl⟩
abbrev main_v437 : Ref sig .tc := ⟨.hbm, 497, rfl⟩
abbrev main_v438 : Ref sig .tc := ⟨.hbm, 498, rfl⟩
abbrev main_v439 : Ref sig .tc := ⟨.hbm, 499, rfl⟩
abbrev main_v440 : Ref sig .tc := ⟨.hbm, 500, rfl⟩
abbrev main_v441 : Ref sig .tc := ⟨.hbm, 501, rfl⟩
abbrev main_v442 : Ref sig .tc := ⟨.hbm, 502, rfl⟩
abbrev main_v443 : Ref sig .tc := ⟨.hbm, 503, rfl⟩
abbrev main_v444 : Ref sig .tc := ⟨.hbm, 504, rfl⟩
abbrev main_v445 : Ref sig .tc := ⟨.hbm, 505, rfl⟩
abbrev main_v446 : Ref sig .tc := ⟨.hbm, 506, rfl⟩
abbrev main_cst_53 : Ref sig .tc := ⟨.hbm, 507, rfl⟩
abbrev main_v447 : Ref sig .tc := ⟨.hbm, 508, rfl⟩
abbrev main_v448 : Ref sig .tc := ⟨.hbm, 509, rfl⟩
abbrev main_cst_54 : Ref sig .tc := ⟨.hbm, 510, rfl⟩
abbrev main_v449 : Ref sig .tc := ⟨.hbm, 511, rfl⟩
abbrev main_v450 : Ref sig .tc := ⟨.hbm, 512, rfl⟩
abbrev main_v451 : Ref sig .tc := ⟨.hbm, 513, rfl⟩
abbrev main_v452 : Ref sig .tc := ⟨.hbm, 514, rfl⟩
abbrev main_v453 : Ref sig .tc := ⟨.hbm, 515, rfl⟩
abbrev main_cst_55 : Ref sig .tc := ⟨.hbm, 516, rfl⟩
abbrev main_v454 : Ref sig .tc := ⟨.hbm, 517, rfl⟩
abbrev main_v455 : Ref sig .tc := ⟨.hbm, 518, rfl⟩
abbrev main_cst_56 : Ref sig .tc := ⟨.hbm, 519, rfl⟩
abbrev main_v456 : Ref sig .tc := ⟨.hbm, 520, rfl⟩
abbrev main_v457 : Ref sig .tc := ⟨.hbm, 521, rfl⟩
abbrev main_v458 : Ref sig .tc := ⟨.hbm, 522, rfl⟩
abbrev main_v459 : Ref sig .tc := ⟨.hbm, 523, rfl⟩
abbrev main_v460 : Ref sig .tc := ⟨.hbm, 524, rfl⟩
abbrev main_v461 : Ref sig .tc := ⟨.hbm, 525, rfl⟩
abbrev main_v462 : Ref sig .tc := ⟨.hbm, 526, rfl⟩
abbrev main_cst_57 : Ref sig .tc := ⟨.hbm, 527, rfl⟩
abbrev main_v463 : Ref sig .tc := ⟨.hbm, 528, rfl⟩
abbrev main_v464 : Ref sig .tc := ⟨.hbm, 529, rfl⟩
abbrev main_cst_58 : Ref sig .tc := ⟨.hbm, 530, rfl⟩
abbrev main_v465 : Ref sig .tc := ⟨.hbm, 531, rfl⟩
abbrev main_v466 : Ref sig .tc := ⟨.hbm, 532, rfl⟩
abbrev main_v467 : Ref sig .tc := ⟨.hbm, 533, rfl⟩
abbrev main_v468 : Ref sig .tc := ⟨.hbm, 534, rfl⟩
abbrev main_v469 : Ref sig .tc := ⟨.hbm, 535, rfl⟩
abbrev main_v470 : Ref sig .tc := ⟨.hbm, 536, rfl⟩
abbrev main_v471 : Ref sig .tc := ⟨.hbm, 537, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem12_1 : DmaSem sig := 21
abbrev cc0_sem13_0 : DmaSem sig := 22
abbrev cc0_sem13_1 : DmaSem sig := 23

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S128x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S8x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S8x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

class Facts₀ : Prop where
  slices_S1024x128_S128x128_0_0 : S1024x128.Slices ![0, 0] S128x128
  slices_S1024x128_S128x128_256_0 : S1024x128.Slices ![256, 0] S128x128
  slices_S1024x128_S128x128_512_0 : S1024x128.Slices ![512, 0] S128x128
  slices_S1024x128_S128x128_768_0 : S1024x128.Slices ![768, 0] S128x128
  concatenates_S128x128_S128x128_S128x128_S128x128_S512x128_d0 : Shape.Concatenates [S128x128, S128x128, S128x128, S128x128] S512x128 0
  transposes_S512x128_S128x512_1_0 : S512x128.Transposes [1, 0] S128x512
  slices_S1024x256_S128x256_0_0 : S1024x256.Slices ![0, 0] S128x256
  slices_S1024x256_S128x256_256_0 : S1024x256.Slices ![256, 0] S128x256
  slices_S1024x256_S128x256_512_0 : S1024x256.Slices ![512, 0] S128x256
  slices_S1024x256_S128x256_768_0 : S1024x256.Slices ![768, 0] S128x256
  concatenates_S128x256_S128x256_S128x256_S128x256_S512x256_d0 : Shape.Concatenates [S128x256, S128x256, S128x256, S128x256] S512x256 0
  transposes_S512x256_S256x512_1_0 : S512x256.Transposes [1, 0] S256x512
  slices_S1024_S128_0 : S1024.Slices ![0] S128
  slices_S1024_S128_256 : S1024.Slices ![256] S128
  slices_S1024_S128_512 : S1024.Slices ![512] S128
  slices_S1024_S128_768 : S1024.Slices ![768] S128
  concatenates_S128_S128_S128_S128_S512_d0 : Shape.Concatenates [S128, S128, S128, S128] S512 0
  shapeCasts_S512_S1x512 : S512.ShapeCasts S1x512
  slices_S262143x128_S131072x128_131071_0 : S262143x128.Slices ![131071, 0] S131072x128
  slices_S262143x128_S65536x128_65535_0 : S262143x128.Slices ![65535, 0] S65536x128
  slices_S262143x128_S32768x128_32767_0 : S262143x128.Slices ![32767, 0] S32768x128
  slices_S262143x128_S16384x128_16383_0 : S262143x128.Slices ![16383, 0] S16384x128
  slices_S262143x128_S8192x128_8191_0 : S262143x128.Slices ![8191, 0] S8192x128
  slices_S262143x128_S4096x128_4095_0 : S262143x128.Slices ![4095, 0] S4096x128
  slices_S262143x128_S2048x128_2047_0 : S262143x128.Slices ![2047, 0] S2048x128
  slices_S262143x128_S1024x128_1023_0 : S262143x128.Slices ![1023, 0] S1024x128
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  broadcasts_S1x512_S1024x512 : S1x512.Broadcasts S1024x512
  slices_S1024x512_o0_0_S1024x128 : S1024x512.Slices ![0, 0] S1024x128
  slices_S1024x512_o0_128_S1024x128 : S1024x512.Slices ![0, 128] S1024x128
  slices_S1024x512_o0_256_S1024x128 : S1024x512.Slices ![0, 256] S1024x128
  slices_S1024x512_o0_384_S1024x128 : S1024x512.Slices ![0, 384] S1024x128
  slices_S1024x256_o0_0_S1024x128 : S1024x256.Slices ![0, 0] S1024x128
  shapeCasts_S1024x128_S512x256 : S1024x128.ShapeCasts S512x256
  inb_S512x128_S512x128_0_0 : ∀ a, (![0, 0] : Fin 2 → Nat) a + S512x128.size a ≤ S512x128.size a
  h_S512x128 : 0 < S512x128.numel
  shapeCasts_S512x128_S512x128 : S512x128.ShapeCasts S512x128
  broadcasts_S1x512_S512x512 : S1x512.Broadcasts S512x512
  slices_S512x512_o0_0_S512x128 : S512x512.Slices ![0, 0] S512x128
  slices_S512x512_o0_128_S512x128 : S512x512.Slices ![0, 128] S512x128
  slices_S512x512_o0_256_S512x128 : S512x512.Slices ![0, 256] S512x128
  slices_S512x512_o0_384_S512x128 : S512x512.Slices ![0, 384] S512x128
  slices_S512x256_o0_0_S512x128 : S512x256.Slices ![0, 0] S512x128
  shapeCasts_S512x128_S256x256 : S512x128.ShapeCasts S256x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  broadcasts_S1x512_S256x512 : S1x512.Broadcasts S256x512
  slices_S256x512_o0_0_S256x128 : S256x512.Slices ![0, 0] S256x128
  slices_S256x512_o0_128_S256x128 : S256x512.Slices ![0, 128] S256x128
  slices_S256x512_o0_256_S256x128 : S256x512.Slices ![0, 256] S256x128
  slices_S256x512_o0_384_S256x128 : S256x512.Slices ![0, 384] S256x128
  slices_S256x256_o0_0_S256x128 : S256x256.Slices ![0, 0] S256x128
  shapeCasts_S256x128_S128x256 : S256x128.ShapeCasts S128x256
  inb_S128x128_S128x128_0_0 : ∀ a, (![0, 0] : Fin 2 → Nat) a + S128x128.size a ≤ S128x128.size a
  h_S128x128 : 0 < S128x128.numel
  shapeCasts_S128x128_S128x128 : S128x128.ShapeCasts S128x128
  broadcasts_S1x512_S128x512 : S1x512.Broadcasts S128x512
  slices_S128x512_o0_0_S128x128 : S128x512.Slices ![0, 0] S128x128
  slices_S128x512_o0_128_S128x128 : S128x512.Slices ![0, 128] S128x128
  slices_S128x512_o0_256_S128x128 : S128x512.Slices ![0, 256] S128x128
  slices_S128x512_o0_384_S128x128 : S128x512.Slices ![0, 384] S128x128
  slices_S128x256_o0_0_S128x128 : S128x256.Slices ![0, 0] S128x128
  shapeCasts_S128x128_S64x256 : S128x128.ShapeCasts S64x256
  inb_S64x128_S64x128_0_0 : ∀ a, (![0, 0] : Fin 2 → Nat) a + S64x128.size a ≤ S64x128.size a
  h_S64x128 : 0 < S64x128.numel
  shapeCasts_S64x128_S64x128 : S64x128.ShapeCasts S64x128
  broadcasts_S1x512_S64x512 : S1x512.Broadcasts S64x512
  slices_S64x512_o0_0_S64x128 : S64x512.Slices ![0, 0] S64x128
  slices_S64x512_o0_128_S64x128 : S64x512.Slices ![0, 128] S64x128
  slices_S64x512_o0_256_S64x128 : S64x512.Slices ![0, 256] S64x128
  slices_S64x512_o0_384_S64x128 : S64x512.Slices ![0, 384] S64x128
  slices_S64x256_o0_0_S64x128 : S64x256.Slices ![0, 0] S64x128
  shapeCasts_S64x128_S32x256 : S64x128.ShapeCasts S32x256
  inb_S32x128_S32x128_0_0 : ∀ a, (![0, 0] : Fin 2 → Nat) a + S32x128.size a ≤ S32x128.size a
  h_S32x128 : 0 < S32x128.numel
  shapeCasts_S32x128_S32x128 : S32x128.ShapeCasts S32x128
  broadcasts_S1x512_S32x512 : S1x512.Broadcasts S32x512
  slices_S32x512_o0_0_S32x128 : S32x512.Slices ![0, 0] S32x128
  slices_S32x512_o0_128_S32x128 : S32x512.Slices ![0, 128] S32x128
  slices_S32x512_o0_256_S32x128 : S32x512.Slices ![0, 256] S32x128
  slices_S32x512_o0_384_S32x128 : S32x512.Slices ![0, 384] S32x128
  slices_S32x256_o0_0_S32x128 : S32x256.Slices ![0, 0] S32x128
  shapeCasts_S32x128_S16x256 : S32x128.ShapeCasts S16x256
  inb_S16x128_S16x128_0_0 : ∀ a, (![0, 0] : Fin 2 → Nat) a + S16x128.size a ≤ S16x128.size a
  h_S16x128 : 0 < S16x128.numel
  shapeCasts_S16x128_S16x128 : S16x128.ShapeCasts S16x128
  broadcasts_S1x512_S16x512 : S1x512.Broadcasts S16x512
  slices_S16x512_o0_0_S16x128 : S16x512.Slices ![0, 0] S16x128
  slices_S16x512_o0_128_S16x128 : S16x512.Slices ![0, 128] S16x128
  slices_S16x512_o0_256_S16x128 : S16x512.Slices ![0, 256] S16x128
  slices_S16x512_o0_384_S16x128 : S16x512.Slices ![0, 384] S16x128
  slices_S16x256_o0_0_S16x128 : S16x256.Slices ![0, 0] S16x128
  shapeCasts_S16x128_S8x256 : S16x128.ShapeCasts S8x256
  inb_S8x128_S8x128_0_0 : ∀ a, (![0, 0] : Fin 2 → Nat) a + S8x128.size a ≤ S8x128.size a
  h_S8x128 : 0 < S8x128.numel
  shapeCasts_S8x128_S8x128 : S8x128.ShapeCasts S8x128
  broadcasts_S1x512_S8x512 : S1x512.Broadcasts S8x512
  slices_S8x512_o0_0_S8x128 : S8x512.Slices ![0, 0] S8x128
  slices_S8x512_o0_128_S8x128 : S8x512.Slices ![0, 128] S8x128
  slices_S8x512_o0_256_S8x128 : S8x512.Slices ![0, 256] S8x128
  slices_S8x512_o0_384_S8x128 : S8x512.Slices ![0, 384] S8x128
  slices_S8x256_o0_0_S8x128 : S8x256.Slices ![0, 0] S8x128
  slices_S262143x128_S512x128_511_0 : S262143x128.Slices ![511, 0] S512x128
  transposes_S1024x128_S128x1024_1_0 : S1024x128.Transposes [1, 0] S128x1024
  bcast_S1024_S1x1024_1 : S1024.BroadcastsInDim S1x1024 (![1] : Fin 1 → Fin S1x1024.rank)
  bcast_S1x1024_S512x1024_0_1 : S1x1024.BroadcastsInDim S512x1024 (![0, 1] : Fin 2 → Fin S512x1024.rank)
  transposes_S1024x256_S256x1024_1_0 : S1024x256.Transposes [1, 0] S256x1024
  slices_S512x1024_S512x256_0_0 : S512x1024.Slices ![0, 0] S512x256
  slices_S512x1024_S512x256_0_256 : S512x1024.Slices ![0, 256] S512x256
  slices_S512x1024_S512x256_0_512 : S512x1024.Slices ![0, 512] S512x256
  slices_S512x1024_S512x256_0_768 : S512x1024.Slices ![0, 768] S512x256
  bcast_S_S512x256 : S_.BroadcastsInDim S512x256 (![] : Fin 0 → Fin S512x256.rank)
  slices_S512x256_S512x128_0_0 : S512x256.Slices ![0, 0] S512x128
  slices_S262143x128_S256x128_255_0 : S262143x128.Slices ![255, 0] S256x128
  bcast_S1x1024_S256x1024_0_1 : S1x1024.BroadcastsInDim S256x1024 (![0, 1] : Fin 2 → Fin S256x1024.rank)
  slices_S256x1024_S256x256_0_0 : S256x1024.Slices ![0, 0] S256x256
  slices_S256x1024_S256x256_0_256 : S256x1024.Slices ![0, 256] S256x256
  slices_S256x1024_S256x256_0_512 : S256x1024.Slices ![0, 512] S256x256
  slices_S256x1024_S256x256_0_768 : S256x1024.Slices ![0, 768] S256x256
  bcast_S_S256x256 : S_.BroadcastsInDim S256x256 (![] : Fin 0 → Fin S256x256.rank)
  slices_S256x256_S256x128_0_0 : S256x256.Slices ![0, 0] S256x128
  slices_S262143x128_S128x128_127_0 : S262143x128.Slices ![127, 0] S128x128
  bcast_S1x1024_S128x1024_0_1 : S1x1024.BroadcastsInDim S128x1024 (![0, 1] : Fin 2 → Fin S128x1024.rank)
  slices_S128x1024_S128x256_0_0 : S128x1024.Slices ![0, 0] S128x256
  slices_S128x1024_S128x256_0_256 : S128x1024.Slices ![0, 256] S128x256
  slices_S128x1024_S128x256_0_512 : S128x1024.Slices ![0, 512] S128x256
  slices_S128x1024_S128x256_0_768 : S128x1024.Slices ![0, 768] S128x256
  bcast_S_S128x256 : S_.BroadcastsInDim S128x256 (![] : Fin 0 → Fin S128x256.rank)
  slices_S128x256_S128x128_0_0 : S128x256.Slices ![0, 0] S128x128
  slices_S262143x128_S64x128_63_0 : S262143x128.Slices ![63, 0] S64x128
  bcast_S1x1024_S64x1024_0_1 : S1x1024.BroadcastsInDim S64x1024 (![0, 1] : Fin 2 → Fin S64x1024.rank)
  slices_S64x1024_S64x256_0_0 : S64x1024.Slices ![0, 0] S64x256
  slices_S64x1024_S64x256_0_256 : S64x1024.Slices ![0, 256] S64x256
  slices_S64x1024_S64x256_0_512 : S64x1024.Slices ![0, 512] S64x256
  slices_S64x1024_S64x256_0_768 : S64x1024.Slices ![0, 768] S64x256
  bcast_S_S64x256 : S_.BroadcastsInDim S64x256 (![] : Fin 0 → Fin S64x256.rank)
  slices_S64x256_S64x128_0_0 : S64x256.Slices ![0, 0] S64x128
  slices_S262143x128_S32x128_31_0 : S262143x128.Slices ![31, 0] S32x128
  bcast_S1x1024_S32x1024_0_1 : S1x1024.BroadcastsInDim S32x1024 (![0, 1] : Fin 2 → Fin S32x1024.rank)
  slices_S32x1024_S32x256_0_0 : S32x1024.Slices ![0, 0] S32x256
  slices_S32x1024_S32x256_0_256 : S32x1024.Slices ![0, 256] S32x256
  slices_S32x1024_S32x256_0_512 : S32x1024.Slices ![0, 512] S32x256
  slices_S32x1024_S32x256_0_768 : S32x1024.Slices ![0, 768] S32x256
  bcast_S_S32x256 : S_.BroadcastsInDim S32x256 (![] : Fin 0 → Fin S32x256.rank)
  slices_S32x256_S32x128_0_0 : S32x256.Slices ![0, 0] S32x128
  slices_S262143x128_S16x128_15_0 : S262143x128.Slices ![15, 0] S16x128
  bcast_S1x1024_S16x1024_0_1 : S1x1024.BroadcastsInDim S16x1024 (![0, 1] : Fin 2 → Fin S16x1024.rank)
  slices_S16x1024_S16x256_0_0 : S16x1024.Slices ![0, 0] S16x256
  slices_S16x1024_S16x256_0_256 : S16x1024.Slices ![0, 256] S16x256
  slices_S16x1024_S16x256_0_512 : S16x1024.Slices ![0, 512] S16x256
  slices_S16x1024_S16x256_0_768 : S16x1024.Slices ![0, 768] S16x256
  bcast_S_S16x256 : S_.BroadcastsInDim S16x256 (![] : Fin 0 → Fin S16x256.rank)
  slices_S16x256_S16x128_0_0 : S16x256.Slices ![0, 0] S16x128
  slices_S262143x128_S8x128_7_0 : S262143x128.Slices ![7, 0] S8x128
  bcast_S1x1024_S8x1024_0_1 : S1x1024.BroadcastsInDim S8x1024 (![0, 1] : Fin 2 → Fin S8x1024.rank)
  slices_S8x1024_S8x256_0_0 : S8x1024.Slices ![0, 0] S8x256
  slices_S8x1024_S8x256_0_256 : S8x1024.Slices ![0, 256] S8x256
  slices_S8x1024_S8x256_0_512 : S8x1024.Slices ![0, 512] S8x256
  slices_S8x1024_S8x256_0_768 : S8x1024.Slices ![0, 768] S8x256
  bcast_S_S8x256 : S_.BroadcastsInDim S8x256 (![] : Fin 0 → Fin S8x256.rank)
  slices_S8x256_S8x128_0_0 : S8x256.Slices ![0, 0] S8x128
  slices_S262143x128_S4x128_3_0 : S262143x128.Slices ![3, 0] S4x128
  shapeCasts_S8x128_S4x256 : S8x128.ShapeCasts S4x256
  bcast_S1x1024_S4x1024_0_1 : S1x1024.BroadcastsInDim S4x1024 (![0, 1] : Fin 2 → Fin S4x1024.rank)
  slices_S4x1024_S4x256_0_0 : S4x1024.Slices ![0, 0] S4x256
  slices_S4x1024_S4x256_0_256 : S4x1024.Slices ![0, 256] S4x256
  slices_S4x1024_S4x256_0_512 : S4x1024.Slices ![0, 512] S4x256
  slices_S4x1024_S4x256_0_768 : S4x1024.Slices ![0, 768] S4x256
  bcast_S_S4x256 : S_.BroadcastsInDim S4x256 (![] : Fin 0 → Fin S4x256.rank)
  slices_S4x256_S4x128_0_0 : S4x256.Slices ![0, 0] S4x128
  slices_S262143x128_S2x128_1_0 : S262143x128.Slices ![1, 0] S2x128
  shapeCasts_S4x128_S2x256 : S4x128.ShapeCasts S2x256
  bcast_S1x1024_S2x1024_0_1 : S1x1024.BroadcastsInDim S2x1024 (![0, 1] : Fin 2 → Fin S2x1024.rank)
  slices_S2x1024_S2x256_0_0 : S2x1024.Slices ![0, 0] S2x256
  slices_S2x1024_S2x256_0_256 : S2x1024.Slices ![0, 256] S2x256
  slices_S2x1024_S2x256_0_512 : S2x1024.Slices ![0, 512] S2x256
  slices_S2x1024_S2x256_0_768 : S2x1024.Slices ![0, 768] S2x256
  bcast_S_S2x256 : S_.BroadcastsInDim S2x256 (![] : Fin 0 → Fin S2x256.rank)
  slices_S2x256_S2x128_0_0 : S2x256.Slices ![0, 0] S2x128
  slices_S262143x128_S1x128_0_0 : S262143x128.Slices ![0, 0] S1x128
  shapeCasts_S2x128_S1x256 : S2x128.ShapeCasts S1x256
  slices_S1x1024_S1x256_0_0 : S1x1024.Slices ![0, 0] S1x256
  slices_S1x1024_S1x256_0_256 : S1x1024.Slices ![0, 256] S1x256
  slices_S1x1024_S1x256_0_512 : S1x1024.Slices ![0, 512] S1x256
  slices_S1x1024_S1x256_0_768 : S1x1024.Slices ![0, 768] S1x256
  bcast_S_S1x256 : S_.BroadcastsInDim S1x256 (![] : Fin 0 → Fin S1x256.rank)
  slices_S1x256_S1x128_0_0 : S1x256.Slices ![0, 0] S1x128
  concatenates_S1x128_S1x128_S1x256_d1 : Shape.Concatenates [S1x128, S1x128] S1x256 1
  dot_S1024x128_S128x512_S1024x512_1_0_0_1_n_n_wf : DotDims.WF S1024x128 S128x512 S1024x512 [1] [0] [0] [1] [] []
  dot_S1024x256_S256x512_S1024x512_1_0_0_1_n_n_wf : DotDims.WF S1024x256 S256x512 S1024x512 [1] [0] [0] [1] [] []
  dot_S512x128_S128x512_S512x512_1_0_0_1_n_n_wf : DotDims.WF S512x128 S128x512 S512x512 [1] [0] [0] [1] [] []
  dot_S512x256_S256x512_S512x512_1_0_0_1_n_n_wf : DotDims.WF S512x256 S256x512 S512x512 [1] [0] [0] [1] [] []
  dot_S256x128_S128x512_S256x512_1_0_0_1_n_n_wf : DotDims.WF S256x128 S128x512 S256x512 [1] [0] [0] [1] [] []
  dot_S256x256_S256x512_S256x512_1_0_0_1_n_n_wf : DotDims.WF S256x256 S256x512 S256x512 [1] [0] [0] [1] [] []
  dot_S128x128_S128x512_S128x512_1_0_0_1_n_n_wf : DotDims.WF S128x128 S128x512 S128x512 [1] [0] [0] [1] [] []
  dot_S128x256_S256x512_S128x512_1_0_0_1_n_n_wf : DotDims.WF S128x256 S256x512 S128x512 [1] [0] [0] [1] [] []
  dot_S64x128_S128x512_S64x512_1_0_0_1_n_n_wf : DotDims.WF S64x128 S128x512 S64x512 [1] [0] [0] [1] [] []
  dot_S64x256_S256x512_S64x512_1_0_0_1_n_n_wf : DotDims.WF S64x256 S256x512 S64x512 [1] [0] [0] [1] [] []
  dot_S32x128_S128x512_S32x512_1_0_0_1_n_n_wf : DotDims.WF S32x128 S128x512 S32x512 [1] [0] [0] [1] [] []
  dot_S32x256_S256x512_S32x512_1_0_0_1_n_n_wf : DotDims.WF S32x256 S256x512 S32x512 [1] [0] [0] [1] [] []
  dot_S16x128_S128x512_S16x512_1_0_0_1_n_n_wf : DotDims.WF S16x128 S128x512 S16x512 [1] [0] [0] [1] [] []
  dot_S16x256_S256x512_S16x512_1_0_0_1_n_n_wf : DotDims.WF S16x256 S256x512 S16x512 [1] [0] [0] [1] [] []
  dot_S8x128_S128x512_S8x512_1_0_0_1_n_n_wf : DotDims.WF S8x128 S128x512 S8x512 [1] [0] [0] [1] [] []
  dot_S8x256_S256x512_S8x512_1_0_0_1_n_n_wf : DotDims.WF S8x256 S256x512 S8x512 [1] [0] [0] [1] [] []
  dot_S512x128_S128x1024_S512x1024_1_0_0_1_n_n_wf : DotDims.WF S512x128 S128x1024 S512x1024 [1] [0] [0] [1] [] []
  dot_S512x256_S256x1024_S512x1024_1_0_0_1_n_n_wf : DotDims.WF S512x256 S256x1024 S512x1024 [1] [0] [0] [1] [] []
  dot_S256x128_S128x1024_S256x1024_1_0_0_1_n_n_wf : DotDims.WF S256x128 S128x1024 S256x1024 [1] [0] [0] [1] [] []
  dot_S256x256_S256x1024_S256x1024_1_0_0_1_n_n_wf : DotDims.WF S256x256 S256x1024 S256x1024 [1] [0] [0] [1] [] []
  dot_S128x128_S128x1024_S128x1024_1_0_0_1_n_n_wf : DotDims.WF S128x128 S128x1024 S128x1024 [1] [0] [0] [1] [] []
  dot_S128x256_S256x1024_S128x1024_1_0_0_1_n_n_wf : DotDims.WF S128x256 S256x1024 S128x1024 [1] [0] [0] [1] [] []
  dot_S64x128_S128x1024_S64x1024_1_0_0_1_n_n_wf : DotDims.WF S64x128 S128x1024 S64x1024 [1] [0] [0] [1] [] []
  dot_S64x256_S256x1024_S64x1024_1_0_0_1_n_n_wf : DotDims.WF S64x256 S256x1024 S64x1024 [1] [0] [0] [1] [] []
  dot_S32x128_S128x1024_S32x1024_1_0_0_1_n_n_wf : DotDims.WF S32x128 S128x1024 S32x1024 [1] [0] [0] [1] [] []
  dot_S32x256_S256x1024_S32x1024_1_0_0_1_n_n_wf : DotDims.WF S32x256 S256x1024 S32x1024 [1] [0] [0] [1] [] []
  dot_S16x128_S128x1024_S16x1024_1_0_0_1_n_n_wf : DotDims.WF S16x128 S128x1024 S16x1024 [1] [0] [0] [1] [] []
  dot_S16x256_S256x1024_S16x1024_1_0_0_1_n_n_wf : DotDims.WF S16x256 S256x1024 S16x1024 [1] [0] [0] [1] [] []
  dot_S8x128_S128x1024_S8x1024_1_0_0_1_n_n_wf : DotDims.WF S8x128 S128x1024 S8x1024 [1] [0] [0] [1] [] []
  dot_S8x256_S256x1024_S8x1024_1_0_0_1_n_n_wf : DotDims.WF S8x256 S256x1024 S8x1024 [1] [0] [0] [1] [] []
  dot_S4x128_S128x1024_S4x1024_1_0_0_1_n_n_wf : DotDims.WF S4x128 S128x1024 S4x1024 [1] [0] [0] [1] [] []
  dot_S4x256_S256x1024_S4x1024_1_0_0_1_n_n_wf : DotDims.WF S4x256 S256x1024 S4x1024 [1] [0] [0] [1] [] []
  dot_S2x128_S128x1024_S2x1024_1_0_0_1_n_n_wf : DotDims.WF S2x128 S128x1024 S2x1024 [1] [0] [0] [1] [] []
  dot_S2x256_S256x1024_S2x1024_1_0_0_1_n_n_wf : DotDims.WF S2x256 S256x1024 S2x1024 [1] [0] [0] [1] [] []
  dot_S1x128_S128x1024_S1x1024_1_0_0_1_n_n_wf : DotDims.WF S1x128 S128x1024 S1x1024 [1] [0] [0] [1] [] []
  dot_S1x256_S256x1024_S1x1024_1_0_0_1_n_n_wf : DotDims.WF S1x256 S256x1024 S1x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S131072x128.size a
  hwx0_0 : ∀ i : grid0.Coords, EltTy.bits .f32 = 32 ∨ (Rect.block (s := S131072x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S65536x128.size a
  hwx0_1 : ∀ i : grid0.Coords, EltTy.bits .f32 = 32 ∨ (Rect.block (s := S65536x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S32768x128.size a
  hwx0_2 : ∀ i : grid0.Coords, EltTy.bits .f32 = 32 ∨ (Rect.block (s := S32768x128) S256x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S16384x128.size a
  hwx0_3 : ∀ i : grid0.Coords, EltTy.bits .f32 = 32 ∨ (Rect.block (s := S16384x128) S128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S64x128.size a ≤ S8192x128.size a
  hwx0_4 : ∀ i : grid0.Coords, EltTy.bits .f32 = 32 ∨ (Rect.block (s := S8192x128) S64x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S32x128.size a ≤ S4096x128.size a
  hwx0_5 : ∀ i : grid0.Coords, EltTy.bits .f32 = 32 ∨ (Rect.block (s := S4096x128) S32x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S16x128.size a ≤ S2048x128.size a
  hwx0_6 : ∀ i : grid0.Coords, EltTy.bits .f32 = 32 ∨ (Rect.block (s := S2048x128) S16x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8x128.size a ≤ S1024x128.size a
  hwx0_7 : ∀ i : grid0.Coords, EltTy.bits .f32 = 32 ∨ (Rect.block (s := S1024x128) S8x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x512.size a ≤ S128x512.size a
  hwx0_8 : ∀ i : grid0.Coords, EltTy.bits .f32 = 32 ∨ (Rect.block (s := S128x512) S128x512.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256x512.size a ≤ S256x512.size a
  hwx0_9 : ∀ i : grid0.Coords, EltTy.bits .f32 = 32 ∨ (Rect.block (s := S256x512) S256x512.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x512.size a ≤ S1x512.size a
  hwx0_10 : ∀ i : grid0.Coords, EltTy.bits .f32 = 32 ∨ (Rect.block (s := S1x512) S1x512.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x512.size a ≤ S1x512.size a
  hwx0_11 : ∀ i : grid0.Coords, EltTy.bits .f32 = 32 ∨ (Rect.block (s := S1x512) S1x512.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S8x128.size a ≤ S1024x128.size a
  hwx0_12 : ∀ i : grid0.Coords, EltTy.bits .f32 = 32 ∨ (Rect.block (s := S1024x128) S8x128.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S8x128.size a ≤ S1024x128.size a
  hwx0_13 : ∀ i : grid0.Coords, EltTy.bits .f32 = 32 ∨ (Rect.block (s := S1024x128) S8x128.size (cc0_transform_13 i) (hinb0_13 i)).WholeWords (EltTy.packing .f32)

variable [Facts₀]

def dot_S1024x128_S128x512_S1024x512_1_0_0_1_n_n : DotDims S1024x128 S128x512 S1024x512 where
  lhsContracting := [1]
  rhsContracting := [0]
  lhsNonContracting := [0]
  rhsNonContracting := [1]
  lhsBatch := []
  rhsBatch := []
  wf := dot_S1024x128_S128x512_S1024x512_1_0_0_1_n_n_wf
def dot_S1024x256_S256x512_S1024x512_1_0_0_1_n_n : DotDims S1024x256 S256x512 S1024x512 where
  lhsContracting := [1]
  rhsContracting := [0]
  lhsNonContracting := [0]
  rhsNonContracting := [1]
  lhsBatch := []
  rhsBatch := []
  wf := dot_S1024x256_S256x512_S1024x512_1_0_0_1_n_n_wf
def dot_S512x128_S128x512_S512x512_1_0_0_1_n_n : DotDims S512x128 S128x512 S512x512 where
  lhsContracting := [1]
  rhsContracting := [0]
  lhsNonContracting := [0]
  rhsNonContracting := [1]
  lhsBatch := []
  rhsBatch := []
  wf := dot_S512x128_S128x512_S512x512_1_0_0_1_n_n_wf
def dot_S512x256_S256x512_S512x512_1_0_0_1_n_n : DotDims S512x256 S256x512 S512x512 where
  lhsContracting := [1]
  rhsContracting := [0]
  lhsNonContracting := [0]
  rhsNonContracting := [1]
  lhsBatch := []
  rhsBatch := []
  wf := dot_S512x256_S256x512_S512x512_1_0_0_1_n_n_wf
def dot_S256x128_S128x512_S256x512_1_0_0_1_n_n : DotDims S256x128 S128x512 S256x512 where
  lhsContracting := [1]
  rhsContracting := [0]
  lhsNonContracting := [0]
  rhsNonContracting := [1]
  lhsBatch := []
  rhsBatch := []
  wf := dot_S256x128_S128x512_S256x512_1_0_0_1_n_n_wf
def dot_S256x256_S256x512_S256x512_1_0_0_1_n_n : DotDims S256x256 S256x512 S256x512 where
  lhsContracting := [1]
  rhsContracting := [0]
  lhsNonContracting := [0]
  rhsNonContracting := [1]
  lhsBatch := []
  rhsBatch := []
  wf := dot_S256x256_S256x512_S256x512_1_0_0_1_n_n_wf
def dot_S128x128_S128x512_S128x512_1_0_0_1_n_n : DotDims S128x128 S128x512 S128x512 where
  lhsContracting := [1]
  rhsContracting := [0]
  lhsNonContracting := [0]
  rhsNonContracting := [1]
  lhsBatch := []
  rhsBatch := []
  wf := dot_S128x128_S128x512_S128x512_1_0_0_1_n_n_wf
def dot_S128x256_S256x512_S128x512_1_0_0_1_n_n : DotDims S128x256 S256x512 S128x512 where
  lhsContracting := [1]
  rhsContracting := [0]
  lhsNonContracting := [0]
  rhsNonContracting := [1]
  lhsBatch := []
  rhsBatch := []
  wf := dot_S128x256_S256x512_S128x512_1_0_0_1_n_n_wf
def dot_S64x128_S128x512_S64x512_1_0_0_1_n_n : DotDims S64x128 S128x512 S64x512 where
  lhsContracting := [1]
  rhsContracting := [0]
  lhsNonContracting := [0]
  rhsNonContracting := [1]
  lhsBatch := []
  rhsBatch := []
  wf := dot_S64x128_S128x512_S64x512_1_0_0_1_n_n_wf
def dot_S64x256_S256x512_S64x512_1_0_0_1_n_n : DotDims S64x256 S256x512 S64x512 where
  lhsContracting := [1]
  rhsContracting := [0]
  lhsNonContracting := [0]
  rhsNonContracting := [1]
  lhsBatch := []
  rhsBatch := []
  wf := dot_S64x256_S256x512_S64x512_1_0_0_1_n_n_wf
def dot_S32x128_S128x512_S32x512_1_0_0_1_n_n : DotDims S32x128 S128x512 S32x512 where
  lhsContracting := [1]
  rhsContracting := [0]
  lhsNonContracting := [0]
  rhsNonContracting := [1]
  lhsBatch := []
  rhsBatch := []
  wf := dot_S32x128_S128x512_S32x512_1_0_0_1_n_n_wf
def dot_S32x256_S256x512_S32x512_1_0_0_1_n_n : DotDims S32x256 S256x512 S32x512 where
  lhsContracting := [1]
  rhsContracting := [0]
  lhsNonContracting := [0]
  rhsNonContracting := [1]
  lhsBatch := []
  rhsBatch := []
  wf := dot_S32x256_S256x512_S32x512_1_0_0_1_n_n_wf
def dot_S16x128_S128x512_S16x512_1_0_0_1_n_n : DotDims S16x128 S128x512 S16x512 where
  lhsContracting := [1]
  rhsContracting := [0]
  lhsNonContracting := [0]
  rhsNonContracting := [1]
  lhsBatch := []
  rhsBatch := []
  wf := dot_S16x128_S128x512_S16x512_1_0_0_1_n_n_wf
def dot_S16x256_S256x512_S16x512_1_0_0_1_n_n : DotDims S16x256 S256x512 S16x512 where
  lhsContracting := [1]
  rhsContracting := [0]
  lhsNonContracting := [0]
  rhsNonContracting := [1]
  lhsBatch := []
  rhsBatch := []
  wf := dot_S16x256_S256x512_S16x512_1_0_0_1_n_n_wf
def dot_S8x128_S128x512_S8x512_1_0_0_1_n_n : DotDims S8x128 S128x512 S8x512 where
  lhsContracting := [1]
  rhsContracting := [0]
  lhsNonContracting := [0]
  rhsNonContracting := [1]
  lhsBatch := []
  rhsBatch := []
  wf := dot_S8x128_S128x512_S8x512_1_0_0_1_n_n_wf
def dot_S8x256_S256x512_S8x512_1_0_0_1_n_n : DotDims S8x256 S256x512 S8x512 where
  lhsContracting := [1]
  rhsContracting := [0]
  lhsNonContracting := [0]
  rhsNonContracting := [1]
  lhsBatch := []
  rhsBatch := []
  wf := dot_S8x256_S256x512_S8x512_1_0_0_1_n_n_wf
def dot_S512x128_S128x1024_S512x1024_1_0_0_1_n_n : DotDims S512x128 S128x1024 S512x1024 where
  lhsContracting := [1]
  rhsContracting := [0]
  lhsNonContracting := [0]
  rhsNonContracting := [1]
  lhsBatch := []
  rhsBatch := []
  wf := dot_S512x128_S128x1024_S512x1024_1_0_0_1_n_n_wf
def dot_S512x256_S256x1024_S512x1024_1_0_0_1_n_n : DotDims S512x256 S256x1024 S512x1024 where
  lhsContracting := [1]
  rhsContracting := [0]
  lhsNonContracting := [0]
  rhsNonContracting := [1]
  lhsBatch := []
  rhsBatch := []
  wf := dot_S512x256_S256x1024_S512x1024_1_0_0_1_n_n_wf
def dot_S256x128_S128x1024_S256x1024_1_0_0_1_n_n : DotDims S256x128 S128x1024 S256x1024 where
  lhsContracting := [1]
  rhsContracting := [0]
  lhsNonContracting := [0]
  rhsNonContracting := [1]
  lhsBatch := []
  rhsBatch := []
  wf := dot_S256x128_S128x1024_S256x1024_1_0_0_1_n_n_wf
def dot_S256x256_S256x1024_S256x1024_1_0_0_1_n_n : DotDims S256x256 S256x1024 S256x1024 where
  lhsContracting := [1]
  rhsContracting := [0]
  lhsNonContracting := [0]
  rhsNonContracting := [1]
  lhsBatch := []
  rhsBatch := []
  wf := dot_S256x256_S256x1024_S256x1024_1_0_0_1_n_n_wf
def dot_S128x128_S128x1024_S128x1024_1_0_0_1_n_n : DotDims S128x128 S128x1024 S128x1024 where
  lhsContracting := [1]
  rhsContracting := [0]
  lhsNonContracting := [0]
  rhsNonContracting := [1]
  lhsBatch := []
  rhsBatch := []
  wf := dot_S128x128_S128x1024_S128x1024_1_0_0_1_n_n_wf
def dot_S128x256_S256x1024_S128x1024_1_0_0_1_n_n : DotDims S128x256 S256x1024 S128x1024 where
  lhsContracting := [1]
  rhsContracting := [0]
  lhsNonContracting := [0]
  rhsNonContracting := [1]
  lhsBatch := []
  rhsBatch := []
  wf := dot_S128x256_S256x1024_S128x1024_1_0_0_1_n_n_wf
def dot_S64x128_S128x1024_S64x1024_1_0_0_1_n_n : DotDims S64x128 S128x1024 S64x1024 where
  lhsContracting := [1]
  rhsContracting := [0]
  lhsNonContracting := [0]
  rhsNonContracting := [1]
  lhsBatch := []
  rhsBatch := []
  wf := dot_S64x128_S128x1024_S64x1024_1_0_0_1_n_n_wf
def dot_S64x256_S256x1024_S64x1024_1_0_0_1_n_n : DotDims S64x256 S256x1024 S64x1024 where
  lhsContracting := [1]
  rhsContracting := [0]
  lhsNonContracting := [0]
  rhsNonContracting := [1]
  lhsBatch := []
  rhsBatch := []
  wf := dot_S64x256_S256x1024_S64x1024_1_0_0_1_n_n_wf
def dot_S32x128_S128x1024_S32x1024_1_0_0_1_n_n : DotDims S32x128 S128x1024 S32x1024 where
  lhsContracting := [1]
  rhsContracting := [0]
  lhsNonContracting := [0]
  rhsNonContracting := [1]
  lhsBatch := []
  rhsBatch := []
  wf := dot_S32x128_S128x1024_S32x1024_1_0_0_1_n_n_wf
def dot_S32x256_S256x1024_S32x1024_1_0_0_1_n_n : DotDims S32x256 S256x1024 S32x1024 where
  lhsContracting := [1]
  rhsContracting := [0]
  lhsNonContracting := [0]
  rhsNonContracting := [1]
  lhsBatch := []
  rhsBatch := []
  wf := dot_S32x256_S256x1024_S32x1024_1_0_0_1_n_n_wf
def dot_S16x128_S128x1024_S16x1024_1_0_0_1_n_n : DotDims S16x128 S128x1024 S16x1024 where
  lhsContracting := [1]
  rhsContracting := [0]
  lhsNonContracting := [0]
  rhsNonContracting := [1]
  lhsBatch := []
  rhsBatch := []
  wf := dot_S16x128_S128x1024_S16x1024_1_0_0_1_n_n_wf
def dot_S16x256_S256x1024_S16x1024_1_0_0_1_n_n : DotDims S16x256 S256x1024 S16x1024 where
  lhsContracting := [1]
  rhsContracting := [0]
  lhsNonContracting := [0]
  rhsNonContracting := [1]
  lhsBatch := []
  rhsBatch := []
  wf := dot_S16x256_S256x1024_S16x1024_1_0_0_1_n_n_wf
def dot_S8x128_S128x1024_S8x1024_1_0_0_1_n_n : DotDims S8x128 S128x1024 S8x1024 where
  lhsContracting := [1]
  rhsContracting := [0]
  lhsNonContracting := [0]
  rhsNonContracting := [1]
  lhsBatch := []
  rhsBatch := []
  wf := dot_S8x128_S128x1024_S8x1024_1_0_0_1_n_n_wf
def dot_S8x256_S256x1024_S8x1024_1_0_0_1_n_n : DotDims S8x256 S256x1024 S8x1024 where
  lhsContracting := [1]
  rhsContracting := [0]
  lhsNonContracting := [0]
  rhsNonContracting := [1]
  lhsBatch := []
  rhsBatch := []
  wf := dot_S8x256_S256x1024_S8x1024_1_0_0_1_n_n_wf
def dot_S4x128_S128x1024_S4x1024_1_0_0_1_n_n : DotDims S4x128 S128x1024 S4x1024 where
  lhsContracting := [1]
  rhsContracting := [0]
  lhsNonContracting := [0]
  rhsNonContracting := [1]
  lhsBatch := []
  rhsBatch := []
  wf := dot_S4x128_S128x1024_S4x1024_1_0_0_1_n_n_wf
def dot_S4x256_S256x1024_S4x1024_1_0_0_1_n_n : DotDims S4x256 S256x1024 S4x1024 where
  lhsContracting := [1]
  rhsContracting := [0]
  lhsNonContracting := [0]
  rhsNonContracting := [1]
  lhsBatch := []
  rhsBatch := []
  wf := dot_S4x256_S256x1024_S4x1024_1_0_0_1_n_n_wf
def dot_S2x128_S128x1024_S2x1024_1_0_0_1_n_n : DotDims S2x128 S128x1024 S2x1024 where
  lhsContracting := [1]
  rhsContracting := [0]
  lhsNonContracting := [0]
  rhsNonContracting := [1]
  lhsBatch := []
  rhsBatch := []
  wf := dot_S2x128_S128x1024_S2x1024_1_0_0_1_n_n_wf
def dot_S2x256_S256x1024_S2x1024_1_0_0_1_n_n : DotDims S2x256 S256x1024 S2x1024 where
  lhsContracting := [1]
  rhsContracting := [0]
  lhsNonContracting := [0]
  rhsNonContracting := [1]
  lhsBatch := []
  rhsBatch := []
  wf := dot_S2x256_S256x1024_S2x1024_1_0_0_1_n_n_wf
def dot_S1x128_S128x1024_S1x1024_1_0_0_1_n_n : DotDims S1x128 S128x1024 S1x1024 where
  lhsContracting := [1]
  rhsContracting := [0]
  lhsNonContracting := [0]
  rhsNonContracting := [1]
  lhsBatch := []
  rhsBatch := []
  wf := dot_S1x128_S128x1024_S1x1024_1_0_0_1_n_n_wf
def dot_S1x256_S256x1024_S1x1024_1_0_0_1_n_n : DotDims S1x256 S256x1024 S1x1024 where
  lhsContracting := [1]
  rhsContracting := [0]
  lhsNonContracting := [0]
  rhsNonContracting := [1]
  lhsBatch := []
  rhsBatch := []
  wf := dot_S1x256_S256x1024_S1x1024_1_0_0_1_n_n_wf

abbrev win0_0 : Pipeline.Window sig grid0 :=
  Pipeline.Window.ofSpec (Memref.whole main_v24) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v25) S512x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v26) S256x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v27) S128x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v28) S64x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v29) S32x128.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v30) S16x128.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v31) S8x128.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v5) S128x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v11) S256x512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v17) S1x512.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v23) S1x512.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v32_0) S8x128.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v32_1) S8x128.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S262143x128 : Shape := ⟨2, ![262143, 128]⟩
abbrev S1024x128 : Shape := ⟨2, ![1024, 128]⟩
abbrev S1024x256 : Shape := ⟨2, ![1024, 256]⟩
abbrev S1024 : Shape := ⟨1, ![1024]⟩
abbrev S_ : Shape := ⟨0, ![]⟩
abbrev S262144x128 : Shape := ⟨2, ![262144, 128]⟩
abbrev S131072x128 : Shape := ⟨2, ![131072, 128]⟩
abbrev S131072x256 : Shape := ⟨2, ![131072, 256]⟩
abbrev S128x1024 : Shape := ⟨2, ![128, 1024]⟩
abbrev S131072x1024 : Shape := ⟨2, ![131072, 1024]⟩
abbrev S1x1024 : Shape := ⟨2, ![1, 1024]⟩
abbrev S256x1024 : Shape := ⟨2, ![256, 1024]⟩
abbrev S65536x128 : Shape := ⟨2, ![65536, 128]⟩
abbrev S65536x256 : Shape := ⟨2, ![65536, 256]⟩
abbrev S65536x1024 : Shape := ⟨2, ![65536, 1024]⟩
abbrev S32768x128 : Shape := ⟨2, ![32768, 128]⟩
abbrev S32768x256 : Shape := ⟨2, ![32768, 256]⟩
abbrev S32768x1024 : Shape := ⟨2, ![32768, 1024]⟩
abbrev S16384x128 : Shape := ⟨2, ![16384, 128]⟩
abbrev S16384x256 : Shape := ⟨2, ![16384, 256]⟩
abbrev S16384x1024 : Shape := ⟨2, ![16384, 1024]⟩
abbrev S8192x128 : Shape := ⟨2, ![8192, 128]⟩
abbrev S8192x256 : Shape := ⟨2, ![8192, 256]⟩
abbrev S8192x1024 : Shape := ⟨2, ![8192, 1024]⟩
abbrev S4096x128 : Shape := ⟨2, ![4096, 128]⟩
abbrev S4096x256 : Shape := ⟨2, ![4096, 256]⟩
abbrev S4096x1024 : Shape := ⟨2, ![4096, 1024]⟩
abbrev S2048x128 : Shape := ⟨2, ![2048, 128]⟩
abbrev S2048x256 : Shape := ⟨2, ![2048, 256]⟩
abbrev S2048x1024 : Shape := ⟨2, ![2048, 1024]⟩
abbrev S1024x1024 : Shape := ⟨2, ![1024, 1024]⟩
abbrev S512x128 : Shape := ⟨2, ![512, 128]⟩
abbrev S512x256 : Shape := ⟨2, ![512, 256]⟩
abbrev S512x1024 : Shape := ⟨2, ![512, 1024]⟩
abbrev S256x128 : Shape := ⟨2, ![256, 128]⟩
abbrev S256x256 : Shape := ⟨2, ![256, 256]⟩
abbrev S128x128 : Shape := ⟨2, ![128, 128]⟩
abbrev S128x256 : Shape := ⟨2, ![128, 256]⟩
abbrev S64x128 : Shape := ⟨2, ![64, 128]⟩
abbrev S64x256 : Shape := ⟨2, ![64, 256]⟩
abbrev S64x1024 : Shape := ⟨2, ![64, 1024]⟩
abbrev S32x128 : Shape := ⟨2, ![32, 128]⟩
abbrev S32x256 : Shape := ⟨2, ![32, 256]⟩
abbrev S32x1024 : Shape := ⟨2, ![32, 1024]⟩
abbrev S16x128 : Shape := ⟨2, ![16, 128]⟩
abbrev S16x256 : Shape := ⟨2, ![16, 256]⟩
abbrev S16x1024 : Shape := ⟨2, ![16, 1024]⟩
abbrev S8x128 : Shape := ⟨2, ![8, 128]⟩
abbrev S8x256 : Shape := ⟨2, ![8, 256]⟩
abbrev S8x1024 : Shape := ⟨2, ![8, 1024]⟩
abbrev S4x128 : Shape := ⟨2, ![4, 128]⟩
abbrev S4x256 : Shape := ⟨2, ![4, 256]⟩
abbrev S4x1024 : Shape := ⟨2, ![4, 1024]⟩
abbrev S2x128 : Shape := ⟨2, ![2, 128]⟩
abbrev S2x256 : Shape := ⟨2, ![2, 256]⟩
abbrev S2x1024 : Shape := ⟨2, ![2, 1024]⟩
abbrev S1x128 : Shape := ⟨2, ![1, 128]⟩
abbrev S1x256 : Shape := ⟨2, ![1, 256]⟩

abbrev nBuf : Space → Nat
  | .hbm => 908
  | .vmem => 0
  | .smem => 0
  | _ => 0

abbrev hbmTy0_0 (i : Nat) : BufTy := match i % 128 with
  | 0 => ⟨S262143x128, .f32⟩
  | 1 => ⟨S1024x128, .f32⟩
  | 2 => ⟨S1024x256, .f32⟩
  | 3 => ⟨S1024, .f32⟩
  | 4 => ⟨S1024, .f32⟩
  | 5 => ⟨S_, .f32⟩
  | 6 => ⟨S262144x128, .f32⟩
  | 7 => ⟨S_, .f32⟩
  | 8 => ⟨S262144x128, .f32⟩
  | 9 => ⟨S131072x128, .f32⟩
  | 10 => ⟨S131072x256, .f32⟩
  | 11 => ⟨S131072x256, .f32⟩
  | 12 => ⟨S128x1024, .f32⟩
  | 13 => ⟨S131072x1024, .f32⟩
  | 14 => ⟨S1x1024, .f32⟩
  | 15 => ⟨S131072x1024, .f32⟩
  | 16 => ⟨S131072x1024, .f32⟩
  | 17 => ⟨S256x1024, .f32⟩
  | 18 => ⟨S131072x1024, .f32⟩
  | 19 => ⟨S131072x1024, .f32⟩
  | 20 => ⟨S1x1024, .f32⟩
  | 21 => ⟨S131072x1024, .f32⟩
  | 22 => ⟨S131072x1024, .f32⟩
  | 23 => ⟨S131072x256, .f32⟩
  | 24 => ⟨S131072x256, .f32⟩
  | 25 => ⟨S131072x256, .f32⟩
  | 26 => ⟨S131072x256, .f32⟩
  | 27 => ⟨S131072x256, .f32⟩
  | 28 => ⟨S131072x256, .f32⟩
  | 29 => ⟨S_, .f32⟩
  | 30 => ⟨S131072x256, .f32⟩
  | 31 => ⟨S131072x256, .f32⟩
  | 32 => ⟨S_, .f32⟩
  | 33 => ⟨S131072x256, .f32⟩
  | 34 => ⟨S131072x256, .f32⟩
  | 35 => ⟨S131072x256, .f32⟩
  | 36 => ⟨S131072x256, .f32⟩
  | 37 => ⟨S131072x256, .f32⟩
  | 38 => ⟨S_, .f32⟩
  | 39 => ⟨S131072x256, .f32⟩
  | 40 => ⟨S131072x256, .f32⟩
  | 41 => ⟨S_, .f32⟩
  | 42 => ⟨S131072x256, .f32⟩
  | 43 => ⟨S131072x256, .f32⟩
  | 44 => ⟨S131072x256, .f32⟩
  | 45 => ⟨S131072x256, .f32⟩
  | 46 => ⟨S131072x256, .f32⟩
  | 47 => ⟨S131072x256, .f32⟩
  | 48 => ⟨S131072x256, .f32⟩
  | 49 => ⟨S_, .f32⟩
  | 50 => ⟨S131072x256, .f32⟩
  | 51 => ⟨S131072x256, .f32⟩
  | 52 => ⟨S_, .f32⟩
  | 53 => ⟨S131072x256, .f32⟩
  | 54 => ⟨S131072x256, .f32⟩
  | 55 => ⟨S131072x256, .f32⟩
  | 56 => ⟨S131072x256, .f32⟩
  | 57 => ⟨S131072x128, .f32⟩
  | 58 => ⟨S131072x128, .f32⟩
  | 59 => ⟨S65536x128, .f32⟩
  | 60 => ⟨S65536x256, .f32⟩
  | 61 => ⟨S65536x256, .f32⟩
  | 62 => ⟨S128x1024, .f32⟩
  | 63 => ⟨S65536x1024, .f32⟩
  | 64 => ⟨S1x1024, .f32⟩
  | 65 => ⟨S65536x1024, .f32⟩
  | 66 => ⟨S65536x1024, .f32⟩
  | 67 => ⟨S256x1024, .f32⟩
  | 68 => ⟨S65536x1024, .f32⟩
  | 69 => ⟨S65536x1024, .f32⟩
  | 70 => ⟨S1x1024, .f32⟩
  | 71 => ⟨S65536x1024, .f32⟩
  | 72 => ⟨S65536x1024, .f32⟩
  | 73 => ⟨S65536x256, .f32⟩
  | 74 => ⟨S65536x256, .f32⟩
  | 75 => ⟨S65536x256, .f32⟩
  | 76 => ⟨S65536x256, .f32⟩
  | 77 => ⟨S65536x256, .f32⟩
  | 78 => ⟨S65536x256, .f32⟩
  | 79 => ⟨S_, .f32⟩
  | 80 => ⟨S65536x256, .f32⟩
  | 81 => ⟨S65536x256, .f32⟩
  | 82 => ⟨S_, .f32⟩
  | 83 => ⟨S65536x256, .f32⟩
  | 84 => ⟨S65536x256, .f32⟩
  | 85 => ⟨S65536x256, .f32⟩
  | 86 => ⟨S65536x256, .f32⟩
  | 87 => ⟨S65536x256, .f32⟩
  | 88 => ⟨S_, .f32⟩
  | 89 => ⟨S65536x256, .f32⟩
  | 90 => ⟨S65536x256, .f32⟩
  | 91 => ⟨S_, .f32⟩
  | 92 => ⟨S65536x256, .f32⟩
  | 93 => ⟨S65536x256, .f32⟩
  | 94 => ⟨S65536x256, .f32⟩
  | 95 => ⟨S65536x256, .f32⟩
  | 96 => ⟨S65536x256, .f32⟩
  | 97 => ⟨S65536x256, .f32⟩
  | 98 => ⟨S65536x256, .f32⟩
  | 99 => ⟨S_, .f32⟩
  | 100 => ⟨S65536x256, .f32⟩
  | 101 => ⟨S65536x256, .f32⟩
  | 102 => ⟨S_, .f32⟩
  | 103 => ⟨S65536x256, .f32⟩
  | 104 => ⟨S65536x256, .f32⟩
  | 105 => ⟨S65536x256, .f32⟩
  | 106 => ⟨S65536x256, .f32⟩
  | 107 => ⟨S65536x128, .f32⟩
  | 108 => ⟨S65536x128, .f32⟩
  | 109 => ⟨S32768x128, .f32⟩
  | 110 => ⟨S32768x256, .f32⟩
  | 111 => ⟨S32768x256, .f32⟩
  | 112 => ⟨S128x1024, .f32⟩
  | 113 => ⟨S32768x1024, .f32⟩
  | 114 => ⟨S1x1024, .f32⟩
  | 115 => ⟨S32768x1024, .f32⟩
  | 116 => ⟨S32768x1024, .f32⟩
  | 117 => ⟨S256x1024, .f32⟩
  | 118 => ⟨S32768x1024, .f32⟩
  | 119 => ⟨S32768x1024, .f32⟩
  | 120 => ⟨S1x1024, .f32⟩
  | 121 => ⟨S32768x1024, .f32⟩
  | 122 => ⟨S32768x1024, .f32⟩
  | 123 => ⟨S32768x256, .f32⟩
  | 124 => ⟨S32768x256, .f32⟩
  | 125 => ⟨S32768x256, .f32⟩
  | 126 => ⟨S32768x256, .f32⟩
  | 127 => ⟨S32768x256, .f32⟩
  | _ => ⟨S262143x128, .f32⟩

abbrev hbmTy0_1 (i : Nat) : BufTy := match i % 128 with
  | 0 => ⟨S32768x256, .f32⟩
  | 1 => ⟨S_, .f32⟩
  | 2 => ⟨S32768x256, .f32⟩
  | 3 => ⟨S32768x256, .f32⟩
  | 4 => ⟨S_, .f32⟩
  | 5 => ⟨S32768x256, .f32⟩
  | 6 => ⟨S32768x256, .f32⟩
  | 7 => ⟨S32768x256, .f32⟩
  | 8 => ⟨S32768x256, .f32⟩
  | 9 => ⟨S32768x256, .f32⟩
  | 10 => ⟨S_, .f32⟩
  | 11 => ⟨S32768x256, .f32⟩
  | 12 => ⟨S32768x256, .f32⟩
  | 13 => ⟨S_, .f32⟩
  | 14 => ⟨S32768x256, .f32⟩
  | 15 => ⟨S32768x256, .f32⟩
  | 16 => ⟨S32768x256, .f32⟩
  | 17 => ⟨S32768x256, .f32⟩
  | 18 => ⟨S32768x256, .f32⟩
  | 19 => ⟨S32768x256, .f32⟩
  | 20 => ⟨S32768x256, .f32⟩
  | 21 => ⟨S_, .f32⟩
  | 22 => ⟨S32768x256, .f32⟩
  | 23 => ⟨S32768x256, .f32⟩
  | 24 => ⟨S_, .f32⟩
  | 25 => ⟨S32768x256, .f32⟩
  | 26 => ⟨S32768x256, .f32⟩
  | 27 => ⟨S32768x256, .f32⟩
  | 28 => ⟨S32768x256, .f32⟩
  | 29 => ⟨S32768x128, .f32⟩
  | 30 => ⟨S32768x128, .f32⟩
  | 31 => ⟨S16384x128, .f32⟩
  | 32 => ⟨S16384x256, .f32⟩
  | 33 => ⟨S16384x256, .f32⟩
  | 34 => ⟨S128x1024, .f32⟩
  | 35 => ⟨S16384x1024, .f32⟩
  | 36 => ⟨S1x1024, .f32⟩
  | 37 => ⟨S16384x1024, .f32⟩
  | 38 => ⟨S16384x1024, .f32⟩
  | 39 => ⟨S256x1024, .f32⟩
  | 40 => ⟨S16384x1024, .f32⟩
  | 41 => ⟨S16384x1024, .f32⟩
  | 42 => ⟨S1x1024, .f32⟩
  | 43 => ⟨S16384x1024, .f32⟩
  | 44 => ⟨S16384x1024, .f32⟩
  | 45 => ⟨S16384x256, .f32⟩
  | 46 => ⟨S16384x256, .f32⟩
  | 47 => ⟨S16384x256, .f32⟩
  | 48 => ⟨S16384x256, .f32⟩
  | 49 => ⟨S16384x256, .f32⟩
  | 50 => ⟨S16384x256, .f32⟩
  | 51 => ⟨S_, .f32⟩
  | 52 => ⟨S16384x256, .f32⟩
  | 53 => ⟨S16384x256, .f32⟩
  | 54 => ⟨S_, .f32⟩
  | 55 => ⟨S16384x256, .f32⟩
  | 56 => ⟨S16384x256, .f32⟩
  | 57 => ⟨S16384x256, .f32⟩
  | 58 => ⟨S16384x256, .f32⟩
  | 59 => ⟨S16384x256, .f32⟩
  | 60 => ⟨S_, .f32⟩
  | 61 => ⟨S16384x256, .f32⟩
  | 62 => ⟨S16384x256, .f32⟩
  | 63 => ⟨S_, .f32⟩
  | 64 => ⟨S16384x256, .f32⟩
  | 65 => ⟨S16384x256, .f32⟩
  | 66 => ⟨S16384x256, .f32⟩
  | 67 => ⟨S16384x256, .f32⟩
  | 68 => ⟨S16384x256, .f32⟩
  | 69 => ⟨S16384x256, .f32⟩
  | 70 => ⟨S16384x256, .f32⟩
  | 71 => ⟨S_, .f32⟩
  | 72 => ⟨S16384x256, .f32⟩
  | 73 => ⟨S16384x256, .f32⟩
  | 74 => ⟨S_, .f32⟩
  | 75 => ⟨S16384x256, .f32⟩
  | 76 => ⟨S16384x256, .f32⟩
  | 77 => ⟨S16384x256, .f32⟩
  | 78 => ⟨S16384x256, .f32⟩
  | 79 => ⟨S16384x128, .f32⟩
  | 80 => ⟨S16384x128, .f32⟩
  | 81 => ⟨S8192x128, .f32⟩
  | 82 => ⟨S8192x256, .f32⟩
  | 83 => ⟨S8192x256, .f32⟩
  | 84 => ⟨S128x1024, .f32⟩
  | 85 => ⟨S8192x1024, .f32⟩
  | 86 => ⟨S1x1024, .f32⟩
  | 87 => ⟨S8192x1024, .f32⟩
  | 88 => ⟨S8192x1024, .f32⟩
  | 89 => ⟨S256x1024, .f32⟩
  | 90 => ⟨S8192x1024, .f32⟩
  | 91 => ⟨S8192x1024, .f32⟩
  | 92 => ⟨S1x1024, .f32⟩
  | 93 => ⟨S8192x1024, .f32⟩
  | 94 => ⟨S8192x1024, .f32⟩
  | 95 => ⟨S8192x256, .f32⟩
  | 96 => ⟨S8192x256, .f32⟩
  | 97 => ⟨S8192x256, .f32⟩
  | 98 => ⟨S8192x256, .f32⟩
  | 99 => ⟨S8192x256, .f32⟩
  | 100 => ⟨S8192x256, .f32⟩
  | 101 => ⟨S_, .f32⟩
  | 102 => ⟨S8192x256, .f32⟩
  | 103 => ⟨S8192x256, .f32⟩
  | 104 => ⟨S_, .f32⟩
  | 105 => ⟨S8192x256, .f32⟩
  | 106 => ⟨S8192x256, .f32⟩
  | 107 => ⟨S8192x256, .f32⟩
  | 108 => ⟨S8192x256, .f32⟩
  | 109 => ⟨S8192x256, .f32⟩
  | 110 => ⟨S_, .f32⟩
  | 111 => ⟨S8192x256, .f32⟩
  | 112 => ⟨S8192x256, .f32⟩
  | 113 => ⟨S_, .f32⟩
  | 114 => ⟨S8192x256, .f32⟩
  | 115 => ⟨S8192x256, .f32⟩
  | 116 => ⟨S8192x256, .f32⟩
  | 117 => ⟨S8192x256, .f32⟩
  | 118 => ⟨S8192x256, .f32⟩
  | 119 => ⟨S8192x256, .f32⟩
  | 120 => ⟨S8192x256, .f32⟩
  | 121 => ⟨S_, .f32⟩
  | 122 => ⟨S8192x256, .f32⟩
  | 123 => ⟨S8192x256, .f32⟩
  | 124 => ⟨S_, .f32⟩
  | 125 => ⟨S8192x256, .f32⟩
  | 126 => ⟨S8192x256, .f32⟩
  | 127 => ⟨S8192x256, .f32⟩
  | _ => ⟨S262143x128, .f32⟩

abbrev hbmTy0_2 (i : Nat) : BufTy := match i % 128 with
  | 0 => ⟨S8192x256, .f32⟩
  | 1 => ⟨S8192x128, .f32⟩
  | 2 => ⟨S8192x128, .f32⟩
  | 3 => ⟨S4096x128, .f32⟩
  | 4 => ⟨S4096x256, .f32⟩
  | 5 => ⟨S4096x256, .f32⟩
  | 6 => ⟨S128x1024, .f32⟩
  | 7 => ⟨S4096x1024, .f32⟩
  | 8 => ⟨S1x1024, .f32⟩
  | 9 => ⟨S4096x1024, .f32⟩
  | 10 => ⟨S4096x1024, .f32⟩
  | 11 => ⟨S256x1024, .f32⟩
  | 12 => ⟨S4096x1024, .f32⟩
  | 13 => ⟨S4096x1024, .f32⟩
  | 14 => ⟨S1x1024, .f32⟩
  | 15 => ⟨S4096x1024, .f32⟩
  | 16 => ⟨S4096x1024, .f32⟩
  | 17 => ⟨S4096x256, .f32⟩
  | 18 => ⟨S4096x256, .f32⟩
  | 19 => ⟨S4096x256, .f32⟩
  | 20 => ⟨S4096x256, .f32⟩
  | 21 => ⟨S4096x256, .f32⟩
  | 22 => ⟨S4096x256, .f32⟩
  | 23 => ⟨S_, .f32⟩
  | 24 => ⟨S4096x256, .f32⟩
  | 25 => ⟨S4096x256, .f32⟩
  | 26 => ⟨S_, .f32⟩
  | 27 => ⟨S4096x256, .f32⟩
  | 28 => ⟨S4096x256, .f32⟩
  | 29 => ⟨S4096x256, .f32⟩
  | 30 => ⟨S4096x256, .f32⟩
  | 31 => ⟨S4096x256, .f32⟩
  | 32 => ⟨S_, .f32⟩
  | 33 => ⟨S4096x256, .f32⟩
  | 34 => ⟨S4096x256, .f32⟩
  | 35 => ⟨S_, .f32⟩
  | 36 => ⟨S4096x256, .f32⟩
  | 37 => ⟨S4096x256, .f32⟩
  | 38 => ⟨S4096x256, .f32⟩
  | 39 => ⟨S4096x256, .f32⟩
  | 40 => ⟨S4096x256, .f32⟩
  | 41 => ⟨S4096x256, .f32⟩
  | 42 => ⟨S4096x256, .f32⟩
  | 43 => ⟨S_, .f32⟩
  | 44 => ⟨S4096x256, .f32⟩
  | 45 => ⟨S4096x256, .f32⟩
  | 46 => ⟨S_, .f32⟩
  | 47 => ⟨S4096x256, .f32⟩
  | 48 => ⟨S4096x256, .f32⟩
  | 49 => ⟨S4096x256, .f32⟩
  | 50 => ⟨S4096x256, .f32⟩
  | 51 => ⟨S4096x128, .f32⟩
  | 52 => ⟨S4096x128, .f32⟩
  | 53 => ⟨S2048x128, .f32⟩
  | 54 => ⟨S2048x256, .f32⟩
  | 55 => ⟨S2048x256, .f32⟩
  | 56 => ⟨S128x1024, .f32⟩
  | 57 => ⟨S2048x1024, .f32⟩
  | 58 => ⟨S1x1024, .f32⟩
  | 59 => ⟨S2048x1024, .f32⟩
  | 60 => ⟨S2048x1024, .f32⟩
  | 61 => ⟨S256x1024, .f32⟩
  | 62 => ⟨S2048x1024, .f32⟩
  | 63 => ⟨S2048x1024, .f32⟩
  | 64 => ⟨S1x1024, .f32⟩
  | 65 => ⟨S2048x1024, .f32⟩
  | 66 => ⟨S2048x1024, .f32⟩
  | 67 => ⟨S2048x256, .f32⟩
  | 68 => ⟨S2048x256, .f32⟩
  | 69 => ⟨S2048x256, .f32⟩
  | 70 => ⟨S2048x256, .f32⟩
  | 71 => ⟨S2048x256, .f32⟩
  | 72 => ⟨S2048x256, .f32⟩
  | 73 => ⟨S_, .f32⟩
  | 74 => ⟨S2048x256, .f32⟩
  | 75 => ⟨S2048x256, .f32⟩
  | 76 => ⟨S_, .f32⟩
  | 77 => ⟨S2048x256, .f32⟩
  | 78 => ⟨S2048x256, .f32⟩
  | 79 => ⟨S2048x256, .f32⟩
  | 80 => ⟨S2048x256, .f32⟩
  | 81 => ⟨S2048x256, .f32⟩
  | 82 => ⟨S_, .f32⟩
  | 83 => ⟨S2048x256, .f32⟩
  | 84 => ⟨S2048x256, .f32⟩
  | 85 => ⟨S_, .f32⟩
  | 86 => ⟨S2048x256, .f32⟩
  | 87 => ⟨S2048x256, .f32⟩
  | 88 => ⟨S2048x256, .f32⟩
  | 89 => ⟨S2048x256, .f32⟩
  | 90 => ⟨S2048x256, .f32⟩
  | 91 => ⟨S2048x256, .f32⟩
  | 92 => ⟨S2048x256, .f32⟩
  | 93 => ⟨S_, .f32⟩
  | 94 => ⟨S2048x256, .f32⟩
  | 95 => ⟨S2048x256, .f32⟩
  | 96 => ⟨S_, .f32⟩
  | 97 => ⟨S2048x256, .f32⟩
  | 98 => ⟨S2048x256, .f32⟩
  | 99 => ⟨S2048x256, .f32⟩
  | 100 => ⟨S2048x256, .f32⟩
  | 101 => ⟨S2048x128, .f32⟩
  | 102 => ⟨S2048x128, .f32⟩
  | 103 => ⟨S1024x128, .f32⟩
  | 104 => ⟨S1024x256, .f32⟩
  | 105 => ⟨S1024x256, .f32⟩
  | 106 => ⟨S128x1024, .f32⟩
  | 107 => ⟨S1024x1024, .f32⟩
  | 108 => ⟨S1x1024, .f32⟩
  | 109 => ⟨S1024x1024, .f32⟩
  | 110 => ⟨S1024x1024, .f32⟩
  | 111 => ⟨S256x1024, .f32⟩
  | 112 => ⟨S1024x1024, .f32⟩
  | 113 => ⟨S1024x1024, .f32⟩
  | 114 => ⟨S1x1024, .f32⟩
  | 115 => ⟨S1024x1024, .f32⟩
  | 116 => ⟨S1024x1024, .f32⟩
  | 117 => ⟨S1024x256, .f32⟩
  | 118 => ⟨S1024x256, .f32⟩
  | 119 => ⟨S1024x256, .f32⟩
  | 120 => ⟨S1024x256, .f32⟩
  | 121 => ⟨S1024x256, .f32⟩
  | 122 => ⟨S1024x256, .f32⟩
  | 123 => ⟨S_, .f32⟩
  | 124 => ⟨S1024x256, .f32⟩
  | 125 => ⟨S1024x256, .f32⟩
  | 126 => ⟨S_, .f32⟩
  | 127 => ⟨S1024x256, .f32⟩
  | _ => ⟨S262143x128, .f32⟩

abbrev hbmTy0_3 (i : Nat) : BufTy := match i % 128 with
  | 0 => ⟨S1024x256, .f32⟩
  | 1 => ⟨S1024x256, .f32⟩
  | 2 => ⟨S1024x256, .f32⟩
  | 3 => ⟨S1024x256, .f32⟩
  | 4 => ⟨S_, .f32⟩
  | 5 => ⟨S1024x256, .f32⟩
  | 6 => ⟨S1024x256, .f32⟩
  | 7 => ⟨S_, .f32⟩
  | 8 => ⟨S1024x256, .f32⟩
  | 9 => ⟨S1024x256, .f32⟩
  | 10 => ⟨S1024x256, .f32⟩
  | 11 => ⟨S1024x256, .f32⟩
  | 12 => ⟨S1024x256, .f32⟩
  | 13 => ⟨S1024x256, .f32⟩
  | 14 => ⟨S1024x256, .f32⟩
  | 15 => ⟨S_, .f32⟩
  | 16 => ⟨S1024x256, .f32⟩
  | 17 => ⟨S1024x256, .f32⟩
  | 18 => ⟨S_, .f32⟩
  | 19 => ⟨S1024x256, .f32⟩
  | 20 => ⟨S1024x256, .f32⟩
  | 21 => ⟨S1024x256, .f32⟩
  | 22 => ⟨S1024x256, .f32⟩
  | 23 => ⟨S1024x128, .f32⟩
  | 24 => ⟨S1024x128, .f32⟩
  | 25 => ⟨S512x128, .f32⟩
  | 26 => ⟨S512x256, .f32⟩
  | 27 => ⟨S512x256, .f32⟩
  | 28 => ⟨S128x1024, .f32⟩
  | 29 => ⟨S512x1024, .f32⟩
  | 30 => ⟨S1x1024, .f32⟩
  | 31 => ⟨S512x1024, .f32⟩
  | 32 => ⟨S512x1024, .f32⟩
  | 33 => ⟨S256x1024, .f32⟩
  | 34 => ⟨S512x1024, .f32⟩
  | 35 => ⟨S512x1024, .f32⟩
  | 36 => ⟨S1x1024, .f32⟩
  | 37 => ⟨S512x1024, .f32⟩
  | 38 => ⟨S512x1024, .f32⟩
  | 39 => ⟨S512x256, .f32⟩
  | 40 => ⟨S512x256, .f32⟩
  | 41 => ⟨S512x256, .f32⟩
  | 42 => ⟨S512x256, .f32⟩
  | 43 => ⟨S512x256, .f32⟩
  | 44 => ⟨S512x256, .f32⟩
  | 45 => ⟨S_, .f32⟩
  | 46 => ⟨S512x256, .f32⟩
  | 47 => ⟨S512x256, .f32⟩
  | 48 => ⟨S_, .f32⟩
  | 49 => ⟨S512x256, .f32⟩
  | 50 => ⟨S512x256, .f32⟩
  | 51 => ⟨S512x256, .f32⟩
  | 52 => ⟨S512x256, .f32⟩
  | 53 => ⟨S512x256, .f32⟩
  | 54 => ⟨S_, .f32⟩
  | 55 => ⟨S512x256, .f32⟩
  | 56 => ⟨S512x256, .f32⟩
  | 57 => ⟨S_, .f32⟩
  | 58 => ⟨S512x256, .f32⟩
  | 59 => ⟨S512x256, .f32⟩
  | 60 => ⟨S512x256, .f32⟩
  | 61 => ⟨S512x256, .f32⟩
  | 62 => ⟨S512x256, .f32⟩
  | 63 => ⟨S512x256, .f32⟩
  | 64 => ⟨S512x256, .f32⟩
  | 65 => ⟨S_, .f32⟩
  | 66 => ⟨S512x256, .f32⟩
  | 67 => ⟨S512x256, .f32⟩
  | 68 => ⟨S_, .f32⟩
  | 69 => ⟨S512x256, .f32⟩
  | 70 => ⟨S512x256, .f32⟩
  | 71 => ⟨S512x256, .f32⟩
  | 72 => ⟨S512x256, .f32⟩
  | 73 => ⟨S512x128, .f32⟩
  | 74 => ⟨S512x128, .f32⟩
  | 75 => ⟨S256x128, .f32⟩
  | 76 => ⟨S256x256, .f32⟩
  | 77 => ⟨S256x256, .f32⟩
  | 78 => ⟨S128x1024, .f32⟩
  | 79 => ⟨S256x1024, .f32⟩
  | 80 => ⟨S1x1024, .f32⟩
  | 81 => ⟨S256x1024, .f32⟩
  | 82 => ⟨S256x1024, .f32⟩
  | 83 => ⟨S256x1024, .f32⟩
  | 84 => ⟨S256x1024, .f32⟩
  | 85 => ⟨S256x1024, .f32⟩
  | 86 => ⟨S1x1024, .f32⟩
  | 87 => ⟨S256x1024, .f32⟩
  | 88 => ⟨S256x1024, .f32⟩
  | 89 => ⟨S256x256, .f32⟩
  | 90 => ⟨S256x256, .f32⟩
  | 91 => ⟨S256x256, .f32⟩
  | 92 => ⟨S256x256, .f32⟩
  | 93 => ⟨S256x256, .f32⟩
  | 94 => ⟨S256x256, .f32⟩
  | 95 => ⟨S_, .f32⟩
  | 96 => ⟨S256x256, .f32⟩
  | 97 => ⟨S256x256, .f32⟩
  | 98 => ⟨S_, .f32⟩
  | 99 => ⟨S256x256, .f32⟩
  | 100 => ⟨S256x256, .f32⟩
  | 101 => ⟨S256x256, .f32⟩
  | 102 => ⟨S256x256, .f32⟩
  | 103 => ⟨S256x256, .f32⟩
  | 104 => ⟨S_, .f32⟩
  | 105 => ⟨S256x256, .f32⟩
  | 106 => ⟨S256x256, .f32⟩
  | 107 => ⟨S_, .f32⟩
  | 108 => ⟨S256x256, .f32⟩
  | 109 => ⟨S256x256, .f32⟩
  | 110 => ⟨S256x256, .f32⟩
  | 111 => ⟨S256x256, .f32⟩
  | 112 => ⟨S256x256, .f32⟩
  | 113 => ⟨S256x256, .f32⟩
  | 114 => ⟨S256x256, .f32⟩
  | 115 => ⟨S_, .f32⟩
  | 116 => ⟨S256x256, .f32⟩
  | 117 => ⟨S256x256, .f32⟩
  | 118 => ⟨S_, .f32⟩
  | 119 => ⟨S256x256, .f32⟩
  | 120 => ⟨S256x256, .f32⟩
  | 121 => ⟨S256x256, .f32⟩
  | 122 => ⟨S256x256, .f32⟩
  | 123 => ⟨S256x128, .f32⟩
  | 124 => ⟨S256x128, .f32⟩
  | 125 => ⟨S128x128, .f32⟩
  | 126 => ⟨S128x256, .f32⟩
  | 127 => ⟨S128x256, .f32⟩
  | _ => ⟨S262143x128, .f32⟩

abbrev hbmTy0_4 (i : Nat) : BufTy := match i % 128 with
  | 0 => ⟨S128x1024, .f32⟩
  | 1 => ⟨S128x1024, .f32⟩
  | 2 => ⟨S1x1024, .f32⟩
  | 3 => ⟨S128x1024, .f32⟩
  | 4 => ⟨S128x1024, .f32⟩
  | 5 => ⟨S256x1024, .f32⟩
  | 6 => ⟨S128x1024, .f32⟩
  | 7 => ⟨S128x1024, .f32⟩
  | 8 => ⟨S1x1024, .f32⟩
  | 9 => ⟨S128x1024, .f32⟩
  | 10 => ⟨S128x1024, .f32⟩
  | 11 => ⟨S128x256, .f32⟩
  | 12 => ⟨S128x256, .f32⟩
  | 13 => ⟨S128x256, .f32⟩
  | 14 => ⟨S128x256, .f32⟩
  | 15 => ⟨S128x256, .f32⟩
  | 16 => ⟨S128x256, .f32⟩
  | 17 => ⟨S_, .f32⟩
  | 18 => ⟨S128x256, .f32⟩
  | 19 => ⟨S128x256, .f32⟩
  | 20 => ⟨S_, .f32⟩
  | 21 => ⟨S128x256, .f32⟩
  | 22 => ⟨S128x256, .f32⟩
  | 23 => ⟨S128x256, .f32⟩
  | 24 => ⟨S128x256, .f32⟩
  | 25 => ⟨S128x256, .f32⟩
  | 26 => ⟨S_, .f32⟩
  | 27 => ⟨S128x256, .f32⟩
  | 28 => ⟨S128x256, .f32⟩
  | 29 => ⟨S_, .f32⟩
  | 30 => ⟨S128x256, .f32⟩
  | 31 => ⟨S128x256, .f32⟩
  | 32 => ⟨S128x256, .f32⟩
  | 33 => ⟨S128x256, .f32⟩
  | 34 => ⟨S128x256, .f32⟩
  | 35 => ⟨S128x256, .f32⟩
  | 36 => ⟨S128x256, .f32⟩
  | 37 => ⟨S_, .f32⟩
  | 38 => ⟨S128x256, .f32⟩
  | 39 => ⟨S128x256, .f32⟩
  | 40 => ⟨S_, .f32⟩
  | 41 => ⟨S128x256, .f32⟩
  | 42 => ⟨S128x256, .f32⟩
  | 43 => ⟨S128x256, .f32⟩
  | 44 => ⟨S128x256, .f32⟩
  | 45 => ⟨S128x128, .f32⟩
  | 46 => ⟨S128x128, .f32⟩
  | 47 => ⟨S64x128, .f32⟩
  | 48 => ⟨S64x256, .f32⟩
  | 49 => ⟨S64x256, .f32⟩
  | 50 => ⟨S128x1024, .f32⟩
  | 51 => ⟨S64x1024, .f32⟩
  | 52 => ⟨S1x1024, .f32⟩
  | 53 => ⟨S64x1024, .f32⟩
  | 54 => ⟨S64x1024, .f32⟩
  | 55 => ⟨S256x1024, .f32⟩
  | 56 => ⟨S64x1024, .f32⟩
  | 57 => ⟨S64x1024, .f32⟩
  | 58 => ⟨S1x1024, .f32⟩
  | 59 => ⟨S64x1024, .f32⟩
  | 60 => ⟨S64x1024, .f32⟩
  | 61 => ⟨S64x256, .f32⟩
  | 62 => ⟨S64x256, .f32⟩
  | 63 => ⟨S64x256, .f32⟩
  | 64 => ⟨S64x256, .f32⟩
  | 65 => ⟨S64x256, .f32⟩
  | 66 => ⟨S64x256, .f32⟩
  | 67 => ⟨S_, .f32⟩
  | 68 => ⟨S64x256, .f32⟩
  | 69 => ⟨S64x256, .f32⟩
  | 70 => ⟨S_, .f32⟩
  | 71 => ⟨S64x256, .f32⟩
  | 72 => ⟨S64x256, .f32⟩
  | 73 => ⟨S64x256, .f32⟩
  | 74 => ⟨S64x256, .f32⟩
  | 75 => ⟨S64x256, .f32⟩
  | 76 => ⟨S_, .f32⟩
  | 77 => ⟨S64x256, .f32⟩
  | 78 => ⟨S64x256, .f32⟩
  | 79 => ⟨S_, .f32⟩
  | 80 => ⟨S64x256, .f32⟩
  | 81 => ⟨S64x256, .f32⟩
  | 82 => ⟨S64x256, .f32⟩
  | 83 => ⟨S64x256, .f32⟩
  | 84 => ⟨S64x256, .f32⟩
  | 85 => ⟨S64x256, .f32⟩
  | 86 => ⟨S64x256, .f32⟩
  | 87 => ⟨S_, .f32⟩
  | 88 => ⟨S64x256, .f32⟩
  | 89 => ⟨S64x256, .f32⟩
  | 90 => ⟨S_, .f32⟩
  | 91 => ⟨S64x256, .f32⟩
  | 92 => ⟨S64x256, .f32⟩
  | 93 => ⟨S64x256, .f32⟩
  | 94 => ⟨S64x256, .f32⟩
  | 95 => ⟨S64x128, .f32⟩
  | 96 => ⟨S64x128, .f32⟩
  | 97 => ⟨S32x128, .f32⟩
  | 98 => ⟨S32x256, .f32⟩
  | 99 => ⟨S32x256, .f32⟩
  | 100 => ⟨S128x1024, .f32⟩
  | 101 => ⟨S32x1024, .f32⟩
  | 102 => ⟨S1x1024, .f32⟩
  | 103 => ⟨S32x1024, .f32⟩
  | 104 => ⟨S32x1024, .f32⟩
  | 105 => ⟨S256x1024, .f32⟩
  | 106 => ⟨S32x1024, .f32⟩
  | 107 => ⟨S32x1024, .f32⟩
  | 108 => ⟨S1x1024, .f32⟩
  | 109 => ⟨S32x1024, .f32⟩
  | 110 => ⟨S32x1024, .f32⟩
  | 111 => ⟨S32x256, .f32⟩
  | 112 => ⟨S32x256, .f32⟩
  | 113 => ⟨S32x256, .f32⟩
  | 114 => ⟨S32x256, .f32⟩
  | 115 => ⟨S32x256, .f32⟩
  | 116 => ⟨S32x256, .f32⟩
  | 117 => ⟨S_, .f32⟩
  | 118 => ⟨S32x256, .f32⟩
  | 119 => ⟨S32x256, .f32⟩
  | 120 => ⟨S_, .f32⟩
  | 121 => ⟨S32x256, .f32⟩
  | 122 => ⟨S32x256, .f32⟩
  | 123 => ⟨S32x256, .f32⟩
  | 124 => ⟨S32x256, .f32⟩
  | 125 => ⟨S32x256, .f32⟩
  | 126 => ⟨S_, .f32⟩
  | 127 => ⟨S32x256, .f32⟩
  | _ => ⟨S262143x128, .f32⟩

abbrev hbmTy0_5 (i : Nat) : BufTy := match i % 128 with
  | 0 => ⟨S32x256, .f32⟩
  | 1 => ⟨S_, .f32⟩
  | 2 => ⟨S32x256, .f32⟩
  | 3 => ⟨S32x256, .f32⟩
  | 4 => ⟨S32x256, .f32⟩
  | 5 => ⟨S32x256, .f32⟩
  | 6 => ⟨S32x256, .f32⟩
  | 7 => ⟨S32x256, .f32⟩
  | 8 => ⟨S32x256, .f32⟩
  | 9 => ⟨S_, .f32⟩
  | 10 => ⟨S32x256, .f32⟩
  | 11 => ⟨S32x256, .f32⟩
  | 12 => ⟨S_, .f32⟩
  | 13 => ⟨S32x256, .f32⟩
  | 14 => ⟨S32x256, .f32⟩
  | 15 => ⟨S32x256, .f32⟩
  | 16 => ⟨S32x256, .f32⟩
  | 17 => ⟨S32x128, .f32⟩
  | 18 => ⟨S32x128, .f32⟩
  | 19 => ⟨S16x128, .f32⟩
  | 20 => ⟨S16x256, .f32⟩
  | 21 => ⟨S16x256, .f32⟩
  | 22 => ⟨S128x1024, .f32⟩
  | 23 => ⟨S16x1024, .f32⟩
  | 24 => ⟨S1x1024, .f32⟩
  | 25 => ⟨S16x1024, .f32⟩
  | 26 => ⟨S16x1024, .f32⟩
  | 27 => ⟨S256x1024, .f32⟩
  | 28 => ⟨S16x1024, .f32⟩
  | 29 => ⟨S16x1024, .f32⟩
  | 30 => ⟨S1x1024, .f32⟩
  | 31 => ⟨S16x1024, .f32⟩
  | 32 => ⟨S16x1024, .f32⟩
  | 33 => ⟨S16x256, .f32⟩
  | 34 => ⟨S16x256, .f32⟩
  | 35 => ⟨S16x256, .f32⟩
  | 36 => ⟨S16x256, .f32⟩
  | 37 => ⟨S16x256, .f32⟩
  | 38 => ⟨S16x256, .f32⟩
  | 39 => ⟨S_, .f32⟩
  | 40 => ⟨S16x256, .f32⟩
  | 41 => ⟨S16x256, .f32⟩
  | 42 => ⟨S_, .f32⟩
  | 43 => ⟨S16x256, .f32⟩
  | 44 => ⟨S16x256, .f32⟩
  | 45 => ⟨S16x256, .f32⟩
  | 46 => ⟨S16x256, .f32⟩
  | 47 => ⟨S16x256, .f32⟩
  | 48 => ⟨S_, .f32⟩
  | 49 => ⟨S16x256, .f32⟩
  | 50 => ⟨S16x256, .f32⟩
  | 51 => ⟨S_, .f32⟩
  | 52 => ⟨S16x256, .f32⟩
  | 53 => ⟨S16x256, .f32⟩
  | 54 => ⟨S16x256, .f32⟩
  | 55 => ⟨S16x256, .f32⟩
  | 56 => ⟨S16x256, .f32⟩
  | 57 => ⟨S16x256, .f32⟩
  | 58 => ⟨S16x256, .f32⟩
  | 59 => ⟨S_, .f32⟩
  | 60 => ⟨S16x256, .f32⟩
  | 61 => ⟨S16x256, .f32⟩
  | 62 => ⟨S_, .f32⟩
  | 63 => ⟨S16x256, .f32⟩
  | 64 => ⟨S16x256, .f32⟩
  | 65 => ⟨S16x256, .f32⟩
  | 66 => ⟨S16x256, .f32⟩
  | 67 => ⟨S16x128, .f32⟩
  | 68 => ⟨S16x128, .f32⟩
  | 69 => ⟨S8x128, .f32⟩
  | 70 => ⟨S8x256, .f32⟩
  | 71 => ⟨S8x256, .f32⟩
  | 72 => ⟨S128x1024, .f32⟩
  | 73 => ⟨S8x1024, .f32⟩
  | 74 => ⟨S1x1024, .f32⟩
  | 75 => ⟨S8x1024, .f32⟩
  | 76 => ⟨S8x1024, .f32⟩
  | 77 => ⟨S256x1024, .f32⟩
  | 78 => ⟨S8x1024, .f32⟩
  | 79 => ⟨S8x1024, .f32⟩
  | 80 => ⟨S1x1024, .f32⟩
  | 81 => ⟨S8x1024, .f32⟩
  | 82 => ⟨S8x1024, .f32⟩
  | 83 => ⟨S8x256, .f32⟩
  | 84 => ⟨S8x256, .f32⟩
  | 85 => ⟨S8x256, .f32⟩
  | 86 => ⟨S8x256, .f32⟩
  | 87 => ⟨S8x256, .f32⟩
  | 88 => ⟨S8x256, .f32⟩
  | 89 => ⟨S_, .f32⟩
  | 90 => ⟨S8x256, .f32⟩
  | 91 => ⟨S8x256, .f32⟩
  | 92 => ⟨S_, .f32⟩
  | 93 => ⟨S8x256, .f32⟩
  | 94 => ⟨S8x256, .f32⟩
  | 95 => ⟨S8x256, .f32⟩
  | 96 => ⟨S8x256, .f32⟩
  | 97 => ⟨S8x256, .f32⟩
  | 98 => ⟨S_, .f32⟩
  | 99 => ⟨S8x256, .f32⟩
  | 100 => ⟨S8x256, .f32⟩
  | 101 => ⟨S_, .f32⟩
  | 102 => ⟨S8x256, .f32⟩
  | 103 => ⟨S8x256, .f32⟩
  | 104 => ⟨S8x256, .f32⟩
  | 105 => ⟨S8x256, .f32⟩
  | 106 => ⟨S8x256, .f32⟩
  | 107 => ⟨S8x256, .f32⟩
  | 108 => ⟨S8x256, .f32⟩
  | 109 => ⟨S_, .f32⟩
  | 110 => ⟨S8x256, .f32⟩
  | 111 => ⟨S8x256, .f32⟩
  | 112 => ⟨S_, .f32⟩
  | 113 => ⟨S8x256, .f32⟩
  | 114 => ⟨S8x256, .f32⟩
  | 115 => ⟨S8x256, .f32⟩
  | 116 => ⟨S8x256, .f32⟩
  | 117 => ⟨S8x128, .f32⟩
  | 118 => ⟨S8x128, .f32⟩
  | 119 => ⟨S4x128, .f32⟩
  | 120 => ⟨S4x256, .f32⟩
  | 121 => ⟨S4x256, .f32⟩
  | 122 => ⟨S128x1024, .f32⟩
  | 123 => ⟨S4x1024, .f32⟩
  | 124 => ⟨S1x1024, .f32⟩
  | 125 => ⟨S4x1024, .f32⟩
  | 126 => ⟨S4x1024, .f32⟩
  | 127 => ⟨S256x1024, .f32⟩
  | _ => ⟨S262143x128, .f32⟩

abbrev hbmTy0_6 (i : Nat) : BufTy := match i % 128 with
  | 0 => ⟨S4x1024, .f32⟩
  | 1 => ⟨S4x1024, .f32⟩
  | 2 => ⟨S1x1024, .f32⟩
  | 3 => ⟨S4x1024, .f32⟩
  | 4 => ⟨S4x1024, .f32⟩
  | 5 => ⟨S4x256, .f32⟩
  | 6 => ⟨S4x256, .f32⟩
  | 7 => ⟨S4x256, .f32⟩
  | 8 => ⟨S4x256, .f32⟩
  | 9 => ⟨S4x256, .f32⟩
  | 10 => ⟨S4x256, .f32⟩
  | 11 => ⟨S_, .f32⟩
  | 12 => ⟨S4x256, .f32⟩
  | 13 => ⟨S4x256, .f32⟩
  | 14 => ⟨S_, .f32⟩
  | 15 => ⟨S4x256, .f32⟩
  | 16 => ⟨S4x256, .f32⟩
  | 17 => ⟨S4x256, .f32⟩
  | 18 => ⟨S4x256, .f32⟩
  | 19 => ⟨S4x256, .f32⟩
  | 20 => ⟨S_, .f32⟩
  | 21 => ⟨S4x256, .f32⟩
  | 22 => ⟨S4x256, .f32⟩
  | 23 => ⟨S_, .f32⟩
  | 24 => ⟨S4x256, .f32⟩
  | 25 => ⟨S4x256, .f32⟩
  | 26 => ⟨S4x256, .f32⟩
  | 27 => ⟨S4x256, .f32⟩
  | 28 => ⟨S4x256, .f32⟩
  | 29 => ⟨S4x256, .f32⟩
  | 30 => ⟨S4x256, .f32⟩
  | 31 => ⟨S_, .f32⟩
  | 32 => ⟨S4x256, .f32⟩
  | 33 => ⟨S4x256, .f32⟩
  | 34 => ⟨S_, .f32⟩
  | 35 => ⟨S4x256, .f32⟩
  | 36 => ⟨S4x256, .f32⟩
  | 37 => ⟨S4x256, .f32⟩
  | 38 => ⟨S4x256, .f32⟩
  | 39 => ⟨S4x128, .f32⟩
  | 40 => ⟨S4x128, .f32⟩
  | 41 => ⟨S2x128, .f32⟩
  | 42 => ⟨S2x256, .f32⟩
  | 43 => ⟨S2x256, .f32⟩
  | 44 => ⟨S128x1024, .f32⟩
  | 45 => ⟨S2x1024, .f32⟩
  | 46 => ⟨S1x1024, .f32⟩
  | 47 => ⟨S2x1024, .f32⟩
  | 48 => ⟨S2x1024, .f32⟩
  | 49 => ⟨S256x1024, .f32⟩
  | 50 => ⟨S2x1024, .f32⟩
  | 51 => ⟨S2x1024, .f32⟩
  | 52 => ⟨S1x1024, .f32⟩
  | 53 => ⟨S2x1024, .f32⟩
  | 54 => ⟨S2x1024, .f32⟩
  | 55 => ⟨S2x256, .f32⟩
  | 56 => ⟨S2x256, .f32⟩
  | 57 => ⟨S2x256, .f32⟩
  | 58 => ⟨S2x256, .f32⟩
  | 59 => ⟨S2x256, .f32⟩
  | 60 => ⟨S2x256, .f32⟩
  | 61 => ⟨S_, .f32⟩
  | 62 => ⟨S2x256, .f32⟩
  | 63 => ⟨S2x256, .f32⟩
  | 64 => ⟨S_, .f32⟩
  | 65 => ⟨S2x256, .f32⟩
  | 66 => ⟨S2x256, .f32⟩
  | 67 => ⟨S2x256, .f32⟩
  | 68 => ⟨S2x256, .f32⟩
  | 69 => ⟨S2x256, .f32⟩
  | 70 => ⟨S_, .f32⟩
  | 71 => ⟨S2x256, .f32⟩
  | 72 => ⟨S2x256, .f32⟩
  | 73 => ⟨S_, .f32⟩
  | 74 => ⟨S2x256, .f32⟩
  | 75 => ⟨S2x256, .f32⟩
  | 76 => ⟨S2x256, .f32⟩
  | 77 => ⟨S2x256, .f32⟩
  | 78 => ⟨S2x256, .f32⟩
  | 79 => ⟨S2x256, .f32⟩
  | 80 => ⟨S2x256, .f32⟩
  | 81 => ⟨S_, .f32⟩
  | 82 => ⟨S2x256, .f32⟩
  | 83 => ⟨S2x256, .f32⟩
  | 84 => ⟨S_, .f32⟩
  | 85 => ⟨S2x256, .f32⟩
  | 86 => ⟨S2x256, .f32⟩
  | 87 => ⟨S2x256, .f32⟩
  | 88 => ⟨S2x256, .f32⟩
  | 89 => ⟨S2x128, .f32⟩
  | 90 => ⟨S2x128, .f32⟩
  | 91 => ⟨S1x128, .f32⟩
  | 92 => ⟨S1x256, .f32⟩
  | 93 => ⟨S1x256, .f32⟩
  | 94 => ⟨S128x1024, .f32⟩
  | 95 => ⟨S1x1024, .f32⟩
  | 96 => ⟨S1x1024, .f32⟩
  | 97 => ⟨S1x1024, .f32⟩
  | 98 => ⟨S256x1024, .f32⟩
  | 99 => ⟨S1x1024, .f32⟩
  | 100 => ⟨S1x1024, .f32⟩
  | 101 => ⟨S1x1024, .f32⟩
  | 102 => ⟨S1x1024, .f32⟩
  | 103 => ⟨S1x256, .f32⟩
  | 104 => ⟨S1x256, .f32⟩
  | 105 => ⟨S1x256, .f32⟩
  | 106 => ⟨S1x256, .f32⟩
  | 107 => ⟨S1x256, .f32⟩
  | 108 => ⟨S1x256, .f32⟩
  | 109 => ⟨S_, .f32⟩
  | 110 => ⟨S1x256, .f32⟩
  | 111 => ⟨S1x256, .f32⟩
  | 112 => ⟨S_, .f32⟩
  | 113 => ⟨S1x256, .f32⟩
  | 114 => ⟨S1x256, .f32⟩
  | 115 => ⟨S1x256, .f32⟩
  | 116 => ⟨S1x256, .f32⟩
  | 117 => ⟨S1x256, .f32⟩
  | 118 => ⟨S_, .f32⟩
  | 119 => ⟨S1x256, .f32⟩
  | 120 => ⟨S1x256, .f32⟩
  | 121 => ⟨S_, .f32⟩
  | 122 => ⟨S1x256, .f32⟩
  | 123 => ⟨S1x256, .f32⟩
  | 124 => ⟨S1x256, .f32⟩
  | 125 => ⟨S1x256, .f32⟩
  | 126 => ⟨S1x256, .f32⟩
  | 127 => ⟨S1x256, .f32⟩
  | _ => ⟨S262143x128, .f32⟩

abbrev hbmTy0_7 (i : Nat) : BufTy := match i % 128 with
  | 0 => ⟨S1x256, .f32⟩
  | 1 => ⟨S_, .f32⟩
  | 2 => ⟨S1x256, .f32⟩
  | 3 => ⟨S1x256, .f32⟩
  | 4 => ⟨S_, .f32⟩
  | 5 => ⟨S1x256, .f32⟩
  | 6 => ⟨S1x256, .f32⟩
  | 7 => ⟨S1x256, .f32⟩
  | 8 => ⟨S1x256, .f32⟩
  | 9 => ⟨S1x128, .f32⟩
  | 10 => ⟨S1x128, .f32⟩
  | 11 => ⟨S1x256, .f32⟩
  | _ => ⟨S262143x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | _ => ⟨S262143x128, .f32⟩

abbrev bufTy : (tb : Table) → Fin (tcTables nBuf tb) → BufTy
  | .hbm, ⟨i, _⟩ => hbmTy i
  | _, _ => ⟨S262143x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_1 : Ref sig .tc := ⟨.hbm, 29, rfl⟩
abbrev main_v22 : Ref sig .tc := ⟨.hbm, 30, rfl⟩
abbrev main_v23 : Ref sig .tc := ⟨.hbm, 31, rfl⟩
abbrev main_cst_2 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_3 : Ref sig .tc := ⟨.hbm, 38, rfl⟩
abbrev main_v29 : Ref sig .tc := ⟨.hbm, 39, rfl⟩
abbrev main_v30 : Ref sig .tc := ⟨.hbm, 40, rfl⟩
abbrev main_cst_4 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_5 : Ref sig .tc := ⟨.hbm, 49, rfl⟩
abbrev main_v38 : Ref sig .tc := ⟨.hbm, 50, rfl⟩
abbrev main_v39 : Ref sig .tc := ⟨.hbm, 51, rfl⟩
abbrev main_cst_6 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_cst_7 : Ref sig .tc := ⟨.hbm, 79, rfl⟩
abbrev main_v66 : Ref sig .tc := ⟨.hbm, 80, rfl⟩
abbrev main_v67 : Ref sig .tc := ⟨.hbm, 81, rfl⟩
abbrev main_cst_8 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_cst_9 : Ref sig .tc := ⟨.hbm, 88, rfl⟩
abbrev main_v73 : Ref sig .tc := ⟨.hbm, 89, rfl⟩
abbrev main_v74 : Ref sig .tc := ⟨.hbm, 90, rfl⟩
abbrev main_cst_10 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_cst_11 : Ref sig .tc := ⟨.hbm, 99, rfl⟩
abbrev main_v82 : Ref sig .tc := ⟨.hbm, 100, rfl⟩
abbrev main_v83 : Ref sig .tc := ⟨.hbm, 101, rfl⟩
abbrev main_cst_12 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_cst_13 : Ref sig .tc := ⟨.hbm, 129, rfl⟩
abbrev main_v110 : Ref sig .tc := ⟨.hbm, 130, rfl⟩
abbrev main_v111 : Ref sig .tc := ⟨.hbm, 131, rfl⟩
abbrev main_cst_14 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_cst_15 : Ref sig .tc := ⟨.hbm, 138, rfl⟩
abbrev main_v117 : Ref sig .tc := ⟨.hbm, 139, rfl⟩
abbrev main_v118 : Ref sig .tc := ⟨.hbm, 140, rfl⟩
abbrev main_cst_16 : Ref sig .tc := ⟨.hbm, 141, rfl⟩
abbrev main_v119 : Ref sig .tc := ⟨.hbm, 142, rfl⟩
abbrev main_v120 : Ref sig .tc := ⟨.hbm, 143, rfl⟩
abbrev main_v121 : Ref sig .tc := ⟨.hbm, 144, rfl⟩
abbrev main_v122 : Ref sig .tc := ⟨.hbm, 145, rfl⟩
abbrev main_v123 : Ref sig .tc := ⟨.hbm, 146, rfl⟩
abbrev main_v124 : Ref sig .tc := ⟨.hbm, 147, rfl⟩
abbrev main_v125 : Ref sig .tc := ⟨.hbm, 148, rfl⟩
abbrev main_cst_17 : Ref sig .tc := ⟨.hbm, 149, rfl⟩
abbrev main_v126 : Ref sig .tc := ⟨.hbm, 150, rfl⟩
abbrev main_v127 : Ref sig .tc := ⟨.hbm, 151, rfl⟩
abbrev main_cst_18 : Ref sig .tc := ⟨.hbm, 152, rfl⟩
abbrev main_v128 : Ref sig .tc := ⟨.hbm, 153, rfl⟩
abbrev main_v129 : Ref sig .tc := ⟨.hbm, 154, rfl⟩
abbrev main_v130 : Ref sig .tc := ⟨.hbm, 155, rfl⟩
abbrev main_v131 : Ref sig .tc := ⟨.hbm, 156, rfl⟩
abbrev main_v132 : Ref sig .tc := ⟨.hbm, 157, rfl⟩
abbrev main_v133 : Ref sig .tc := ⟨.hbm, 158, rfl⟩
abbrev main_v134 : Ref sig .tc := ⟨.hbm, 159, rfl⟩
abbrev main_v135 : Ref sig .tc := ⟨.hbm, 160, rfl⟩
abbrev main_v136 : Ref sig .tc := ⟨.hbm, 161, rfl⟩
abbrev main_v137 : Ref sig .tc := ⟨.hbm, 162, rfl⟩
abbrev main_v138 : Ref sig .tc := ⟨.hbm, 163, rfl⟩
abbrev main_v139 : Ref sig .tc := ⟨.hbm, 164, rfl⟩
abbrev main_v140 : Ref sig .tc := ⟨.hbm, 165, rfl⟩
abbrev main_v141 : Ref sig .tc := ⟨.hbm, 166, rfl⟩
abbrev main_v142 : Ref sig .tc := ⟨.hbm, 167, rfl⟩
abbrev main_v143 : Ref sig .tc := ⟨.hbm, 168, rfl⟩
abbrev main_v144 : Ref sig .tc := ⟨.hbm, 169, rfl⟩
abbrev main_v145 : Ref sig .tc := ⟨.hbm, 170, rfl⟩
abbrev main_v146 : Ref sig .tc := ⟨.hbm, 171, rfl⟩
abbrev main_v147 : Ref sig .tc := ⟨.hbm, 172, rfl⟩
abbrev main_v148 : Ref sig .tc := ⟨.hbm, 173, rfl⟩
abbrev main_v149 : Ref sig .tc := ⟨.hbm, 174, rfl⟩
abbrev main_v150 : Ref sig .tc := ⟨.hbm, 175, rfl⟩
abbrev main_v151 : Ref sig .tc := ⟨.hbm, 176, rfl⟩
abbrev main_v152 : Ref sig .tc := ⟨.hbm, 177, rfl⟩
abbrev main_v153 : Ref sig .tc := ⟨.hbm, 178, rfl⟩
abbrev main_cst_19 : Ref sig .tc := ⟨.hbm, 179, rfl⟩
abbrev main_v154 : Ref sig .tc := ⟨.hbm, 180, rfl⟩
abbrev main_v155 : Ref sig .tc := ⟨.hbm, 181, rfl⟩
abbrev main_cst_20 : Ref sig .tc := ⟨.hbm, 182, rfl⟩
abbrev main_v156 : Ref sig .tc := ⟨.hbm, 183, rfl⟩
abbrev main_v157 : Ref sig .tc := ⟨.hbm, 184, rfl⟩
abbrev main_v158 : Ref sig .tc := ⟨.hbm, 185, rfl⟩
abbrev main_v159 : Ref sig .tc := ⟨.hbm, 186, rfl⟩
abbrev main_v160 : Ref sig .tc := ⟨.hbm, 187, rfl⟩
abbrev main_cst_21 : Ref sig .tc := ⟨.hbm, 188, rfl⟩
abbrev main_v161 : Ref sig .tc := ⟨.hbm, 189, rfl⟩
abbrev main_v162 : Ref sig .tc := ⟨.hbm, 190, rfl⟩
abbrev main_cst_22 : Ref sig .tc := ⟨.hbm, 191, rfl⟩
abbrev main_v163 : Ref sig .tc := ⟨.hbm, 192, rfl⟩
abbrev main_v164 : Ref sig .tc := ⟨.hbm, 193, rfl⟩
abbrev main_v165 : Ref sig .tc := ⟨.hbm, 194, rfl⟩
abbrev main_v166 : Ref sig .tc := ⟨.hbm, 195, rfl⟩
abbrev main_v167 : Ref sig .tc := ⟨.hbm, 196, rfl⟩
abbrev main_v168 : Ref sig .tc := ⟨.hbm, 197, rfl⟩
abbrev main_v169 : Ref sig .tc := ⟨.hbm, 198, rfl⟩
abbrev main_cst_23 : Ref sig .tc := ⟨.hbm, 199, rfl⟩
abbrev main_v170 : Ref sig .tc := ⟨.hbm, 200, rfl⟩
abbrev main_v171 : Ref sig .tc := ⟨.hbm, 201, rfl⟩
abbrev main_cst_24 : Ref sig .tc := ⟨.hbm, 202, rfl⟩
abbrev main_v172 : Ref sig .tc := ⟨.hbm, 203, rfl⟩
abbrev main_v173 : Ref sig .tc := ⟨.hbm, 204, rfl⟩
abbrev main_v174 : Ref sig .tc := ⟨.hbm, 205, rfl⟩
abbrev main_v175 : Ref sig .tc := ⟨.hbm, 206, rfl⟩
abbrev main_v176 : Ref sig .tc := ⟨.hbm, 207, rfl⟩
abbrev main_v177 : Ref sig .tc := ⟨.hbm, 208, rfl⟩
abbrev main_v178 : Ref sig .tc := ⟨.hbm, 209, rfl⟩
abbrev main_v179 : Ref sig .tc := ⟨.hbm, 210, rfl⟩
abbrev main_v180 : Ref sig .tc := ⟨.hbm, 211, rfl⟩
abbrev main_v181 : Ref sig .tc := ⟨.hbm, 212, rfl⟩
abbrev main_v182 : Ref sig .tc := ⟨.hbm, 213, rfl⟩
abbrev main_v183 : Ref sig .tc := ⟨.hbm, 214, rfl⟩
abbrev main_v184 : Ref sig .tc := ⟨.hbm, 215, rfl⟩
abbrev main_v185 : Ref sig .tc := ⟨.hbm, 216, rfl⟩
abbrev main_v186 : Ref sig .tc := ⟨.hbm, 217, rfl⟩
abbrev main_v187 : Ref sig .tc := ⟨.hbm, 218, rfl⟩
abbrev main_v188 : Ref sig .tc := ⟨.hbm, 219, rfl⟩
abbrev main_v189 : Ref sig .tc := ⟨.hbm, 220, rfl⟩
abbrev main_v190 : Ref sig .tc := ⟨.hbm, 221, rfl⟩
abbrev main_v191 : Ref sig .tc := ⟨.hbm, 222, rfl⟩
abbrev main_v192 : Ref sig .tc := ⟨.hbm, 223, rfl⟩
abbrev main_v193 : Ref sig .tc := ⟨.hbm, 224, rfl⟩
abbrev main_v194 : Ref sig .tc := ⟨.hbm, 225, rfl⟩
abbrev main_v195 : Ref sig .tc := ⟨.hbm, 226, rfl⟩
abbrev main_v196 : Ref sig .tc := ⟨.hbm, 227, rfl⟩
abbrev main_v197 : Ref sig .tc := ⟨.hbm, 228, rfl⟩
abbrev main_cst_25 : Ref sig .tc := ⟨.hbm, 229, rfl⟩
abbrev main_v198 : Ref sig .tc := ⟨.hbm, 230, rfl⟩
abbrev main_v199 : Ref sig .tc := ⟨.hbm, 231, rfl⟩
abbrev main_cst_26 : Ref sig .tc := ⟨.hbm, 232, rfl⟩
abbrev main_v200 : Ref sig .tc := ⟨.hbm, 233, rfl⟩
abbrev main_v201 : Ref sig .tc := ⟨.hbm, 234, rfl⟩
abbrev main_v202 : Ref sig .tc := ⟨.hbm, 235, rfl⟩
abbrev main_v203 : Ref sig .tc := ⟨.hbm, 236, rfl⟩
abbrev main_v204 : Ref sig .tc := ⟨.hbm, 237, rfl⟩
abbrev main_cst_27 : Ref sig .tc := ⟨.hbm, 238, rfl⟩
abbrev main_v205 : Ref sig .tc := ⟨.hbm, 239, rfl⟩
abbrev main_v206 : Ref sig .tc := ⟨.hbm, 240, rfl⟩
abbrev main_cst_28 : Ref sig .tc := ⟨.hbm, 241, rfl⟩
abbrev main_v207 : Ref sig .tc := ⟨.hbm, 242, rfl⟩
abbrev main_v208 : Ref sig .tc := ⟨.hbm, 243, rfl⟩
abbrev main_v209 : Ref sig .tc := ⟨.hbm, 244, rfl⟩
abbrev main_v210 : Ref sig .tc := ⟨.hbm, 245, rfl⟩
abbrev main_v211 : Ref sig .tc := ⟨.hbm, 246, rfl⟩
abbrev main_v212 : Ref sig .tc := ⟨.hbm, 247, rfl⟩
abbrev main_v213 : Ref sig .tc := ⟨.hbm, 248, rfl⟩
abbrev main_cst_29 : Ref sig .tc := ⟨.hbm, 249, rfl⟩
abbrev main_v214 : Ref sig .tc := ⟨.hbm, 250, rfl⟩
abbrev main_v215 : Ref sig .tc := ⟨.hbm, 251, rfl⟩
abbrev main_cst_30 : Ref sig .tc := ⟨.hbm, 252, rfl⟩
abbrev main_v216 : Ref sig .tc := ⟨.hbm, 253, rfl⟩
abbrev main_v217 : Ref sig .tc := ⟨.hbm, 254, rfl⟩
abbrev main_v218 : Ref sig .tc := ⟨.hbm, 255, rfl⟩
abbrev main_v219 : Ref sig .tc := ⟨.hbm, 256, rfl⟩
abbrev main_v220 : Ref sig .tc := ⟨.hbm, 257, rfl⟩
abbrev main_v221 : Ref sig .tc := ⟨.hbm, 258, rfl⟩
abbrev main_v222 : Ref sig .tc := ⟨.hbm, 259, rfl⟩
abbrev main_v223 : Ref sig .tc := ⟨.hbm, 260, rfl⟩
abbrev main_v224 : Ref sig .tc := ⟨.hbm, 261, rfl⟩
abbrev main_v225 : Ref sig .tc := ⟨.hbm, 262, rfl⟩
abbrev main_v226 : Ref sig .tc := ⟨.hbm, 263, rfl⟩
abbrev main_v227 : Ref sig .tc := ⟨.hbm, 264, rfl⟩
abbrev main_v228 : Ref sig .tc := ⟨.hbm, 265, rfl⟩
abbrev main_v229 : Ref sig .tc := ⟨.hbm, 266, rfl⟩
abbrev main_v230 : Ref sig .tc := ⟨.hbm, 267, rfl⟩
abbrev main_v231 : Ref sig .tc := ⟨.hbm, 268, rfl⟩
abbrev main_v232 : Ref sig .tc := ⟨.hbm, 269, rfl⟩
abbrev main_v233 : Ref sig .tc := ⟨.hbm, 270, rfl⟩
abbrev main_v234 : Ref sig .tc := ⟨.hbm, 271, rfl⟩
abbrev main_v235 : Ref sig .tc := ⟨.hbm, 272, rfl⟩
abbrev main_v236 : Ref sig .tc := ⟨.hbm, 273, rfl⟩
abbrev main_v237 : Ref sig .tc := ⟨.hbm, 274, rfl⟩
abbrev main_v238 : Ref sig .tc := ⟨.hbm, 275, rfl⟩
abbrev main_v239 : Ref sig .tc := ⟨.hbm, 276, rfl⟩
abbrev main_v240 : Ref sig .tc := ⟨.hbm, 277, rfl⟩
abbrev main_v241 : Ref sig .tc := ⟨.hbm, 278, rfl⟩
abbrev main_cst_31 : Ref sig .tc := ⟨.hbm, 279, rfl⟩
abbrev main_v242 : Ref sig .tc := ⟨.hbm, 280, rfl⟩
abbrev main_v243 : Ref sig .tc := ⟨.hbm, 281, rfl⟩
abbrev main_cst_32 : Ref sig .tc := ⟨.hbm, 282, rfl⟩
abbrev main_v244 : Ref sig .tc := ⟨.hbm, 283, rfl⟩
abbrev main_v245 : Ref sig .tc := ⟨.hbm, 284, rfl⟩
abbrev main_v246 : Ref sig .tc := ⟨.hbm, 285, rfl⟩
abbrev main_v247 : Ref sig .tc := ⟨.hbm, 286, rfl⟩
abbrev main_v248 : Ref sig .tc := ⟨.hbm, 287, rfl⟩
abbrev main_cst_33 : Ref sig .tc := ⟨.hbm, 288, rfl⟩
abbrev main_v249 : Ref sig .tc := ⟨.hbm, 289, rfl⟩
abbrev main_v250 : Ref sig .tc := ⟨.hbm, 290, rfl⟩
abbrev main_cst_34 : Ref sig .tc := ⟨.hbm, 291, rfl⟩
abbrev main_v251 : Ref sig .tc := ⟨.hbm, 292, rfl⟩
abbrev main_v252 : Ref sig .tc := ⟨.hbm, 293, rfl⟩
abbrev main_v253 : Ref sig .tc := ⟨.hbm, 294, rfl⟩
abbrev main_v254 : Ref sig .tc := ⟨.hbm, 295, rfl⟩
abbrev main_v255 : Ref sig .tc := ⟨.hbm, 296, rfl⟩
abbrev main_v256 : Ref sig .tc := ⟨.hbm, 297, rfl⟩
abbrev main_v257 : Ref sig .tc := ⟨.hbm, 298, rfl⟩
abbrev main_cst_35 : Ref sig .tc := ⟨.hbm, 299, rfl⟩
abbrev main_v258 : Ref sig .tc := ⟨.hbm, 300, rfl⟩
abbrev main_v259 : Ref sig .tc := ⟨.hbm, 301, rfl⟩
abbrev main_cst_36 : Ref sig .tc := ⟨.hbm, 302, rfl⟩
abbrev main_v260 : Ref sig .tc := ⟨.hbm, 303, rfl⟩
abbrev main_v261 : Ref sig .tc := ⟨.hbm, 304, rfl⟩
abbrev main_v262 : Ref sig .tc := ⟨.hbm, 305, rfl⟩
abbrev main_v263 : Ref sig .tc := ⟨.hbm, 306, rfl⟩
abbrev main_v264 : Ref sig .tc := ⟨.hbm, 307, rfl⟩
abbrev main_v265 : Ref sig .tc := ⟨.hbm, 308, rfl⟩
abbrev main_v266 : Ref sig .tc := ⟨.hbm, 309, rfl⟩
abbrev main_v267 : Ref sig .tc := ⟨.hbm, 310, rfl⟩
abbrev main_v268 : Ref sig .tc := ⟨.hbm, 311, rfl⟩
abbrev main_v269 : Ref sig .tc := ⟨.hbm, 312, rfl⟩
abbrev main_v270 : Ref sig .tc := ⟨.hbm, 313, rfl⟩
abbrev main_v271 : Ref sig .tc := ⟨.hbm, 314, rfl⟩
abbrev main_v272 : Ref sig .tc := ⟨.hbm, 315, rfl⟩
abbrev main_v273 : Ref sig .tc := ⟨.hbm, 316, rfl⟩
abbrev main_v274 : Ref sig .tc := ⟨.hbm, 317, rfl⟩
abbrev main_v275 : Ref sig .tc := ⟨.hbm, 318, rfl⟩
abbrev main_v276 : Ref sig .tc := ⟨.hbm, 319, rfl⟩
abbrev main_v277 : Ref sig .tc := ⟨.hbm, 320, rfl⟩
abbrev main_v278 : Ref sig .tc := ⟨.hbm, 321, rfl⟩
abbrev main_v279 : Ref sig .tc := ⟨.hbm, 322, rfl⟩
abbrev main_v280 : Ref sig .tc := ⟨.hbm, 323, rfl⟩
abbrev main_v281 : Ref sig .tc := ⟨.hbm, 324, rfl⟩
abbrev main_v282 : Ref sig .tc := ⟨.hbm, 325, rfl⟩
abbrev main_v283 : Ref sig .tc := ⟨.hbm, 326, rfl⟩
abbrev main_v284 : Ref sig .tc := ⟨.hbm, 327, rfl⟩
abbrev main_v285 : Ref sig .tc := ⟨.hbm, 328, rfl⟩
abbrev main_cst_37 : Ref sig .tc := ⟨.hbm, 329, rfl⟩
abbrev main_v286 : Ref sig .tc := ⟨.hbm, 330, rfl⟩
abbrev main_v287 : Ref sig .tc := ⟨.hbm, 331, rfl⟩
abbrev main_cst_38 : Ref sig .tc := ⟨.hbm, 332, rfl⟩
abbrev main_v288 : Ref sig .tc := ⟨.hbm, 333, rfl⟩
abbrev main_v289 : Ref sig .tc := ⟨.hbm, 334, rfl⟩
abbrev main_v290 : Ref sig .tc := ⟨.hbm, 335, rfl⟩
abbrev main_v291 : Ref sig .tc := ⟨.hbm, 336, rfl⟩
abbrev main_v292 : Ref sig .tc := ⟨.hbm, 337, rfl⟩
abbrev main_cst_39 : Ref sig .tc := ⟨.hbm, 338, rfl⟩
abbrev main_v293 : Ref sig .tc := ⟨.hbm, 339, rfl⟩
abbrev main_v294 : Ref sig .tc := ⟨.hbm, 340, rfl⟩
abbrev main_cst_40 : Ref sig .tc := ⟨.hbm, 341, rfl⟩
abbrev main_v295 : Ref sig .tc := ⟨.hbm, 342, rfl⟩
abbrev main_v296 : Ref sig .tc := ⟨.hbm, 343, rfl⟩
abbrev main_v297 : Ref sig .tc := ⟨.hbm, 344, rfl⟩
abbrev main_v298 : Ref sig .tc := ⟨.hbm, 345, rfl⟩
abbrev main_v299 : Ref sig .tc := ⟨.hbm, 346, rfl⟩
abbrev main_v300 : Ref sig .tc := ⟨.hbm, 347, rfl⟩
abbrev main_v301 : Ref sig .tc := ⟨.hbm, 348, rfl⟩
abbrev main_cst_41 : Ref sig .tc := ⟨.hbm, 349, rfl⟩
abbrev main_v302 : Ref sig .tc := ⟨.hbm, 350, rfl⟩
abbrev main_v303 : Ref sig .tc := ⟨.hbm, 351, rfl⟩
abbrev main_cst_42 : Ref sig .tc := ⟨.hbm, 352, rfl⟩
abbrev main_v304 : Ref sig .tc := ⟨.hbm, 353, rfl⟩
abbrev main_v305 : Ref sig .tc := ⟨.hbm, 354, rfl⟩
abbrev main_v306 : Ref sig .tc := ⟨.hbm, 355, rfl⟩
abbrev main_v307 : Ref sig .tc := ⟨.hbm, 356, rfl⟩
abbrev main_v308 : Ref sig .tc := ⟨.hbm, 357, rfl⟩
abbrev main_v309 : Ref sig .tc := ⟨.hbm, 358, rfl⟩
abbrev main_v310 : Ref sig .tc := ⟨.hbm, 359, rfl⟩
abbrev main_v311 : Ref sig .tc := ⟨.hbm, 360, rfl⟩
abbrev main_v312 : Ref sig .tc := ⟨.hbm, 361, rfl⟩
abbrev main_v313 : Ref sig .tc := ⟨.hbm, 362, rfl⟩
abbrev main_v314 : Ref sig .tc := ⟨.hbm, 363, rfl⟩
abbrev main_v315 : Ref sig .tc := ⟨.hbm, 364, rfl⟩
abbrev main_v316 : Ref sig .tc := ⟨.hbm, 365, rfl⟩
abbrev main_v317 : Ref sig .tc := ⟨.hbm, 366, rfl⟩
abbrev main_v318 : Ref sig .tc := ⟨.hbm, 367, rfl⟩
abbrev main_v319 : Ref sig .tc := ⟨.hbm, 368, rfl⟩
abbrev main_v320 : Ref sig .tc := ⟨.hbm, 369, rfl⟩
abbrev main_v321 : Ref sig .tc := ⟨.hbm, 370, rfl⟩
abbrev main_v322 : Ref sig .tc := ⟨.hbm, 371, rfl⟩
abbrev main_v323 : Ref sig .tc := ⟨.hbm, 372, rfl⟩
abbrev main_v324 : Ref sig .tc := ⟨.hbm, 373, rfl⟩
abbrev main_v325 : Ref sig .tc := ⟨.hbm, 374, rfl⟩
abbrev main_v326 : Ref sig .tc := ⟨.hbm, 375, rfl⟩
abbrev main_v327 : Ref sig .tc := ⟨.hbm, 376, rfl⟩
abbrev main_v328 : Ref sig .tc := ⟨.hbm, 377, rfl⟩
abbrev main_v329 : Ref sig .tc := ⟨.hbm, 378, rfl⟩
abbrev main_cst_43 : Ref sig .tc := ⟨.hbm, 379, rfl⟩
abbrev main_v330 : Ref sig .tc := ⟨.hbm, 380, rfl⟩
abbrev main_v331 : Ref sig .tc := ⟨.hbm, 381, rfl⟩
abbrev main_cst_44 : Ref sig .tc := ⟨.hbm, 382, rfl⟩
abbrev main_v332 : Ref sig .tc := ⟨.hbm, 383, rfl⟩
abbrev main_v333 : Ref sig .tc := ⟨.hbm, 384, rfl⟩
abbrev main_v334 : Ref sig .tc := ⟨.hbm, 385, rfl⟩
abbrev main_v335 : Ref sig .tc := ⟨.hbm, 386, rfl⟩
abbrev main_v336 : Ref sig .tc := ⟨.hbm, 387, rfl⟩
abbrev main_cst_45 : Ref sig .tc := ⟨.hbm, 388, rfl⟩
abbrev main_v337 : Ref sig .tc := ⟨.hbm, 389, rfl⟩
abbrev main_v338 : Ref sig .tc := ⟨.hbm, 390, rfl⟩
abbrev main_cst_46 : Ref sig .tc := ⟨.hbm, 391, rfl⟩
abbrev main_v339 : Ref sig .tc := ⟨.hbm, 392, rfl⟩
abbrev main_v340 : Ref sig .tc := ⟨.hbm, 393, rfl⟩
abbrev main_v341 : Ref sig .tc := ⟨.hbm, 394, rfl⟩
abbrev main_v342 : Ref sig .tc := ⟨.hbm, 395, rfl⟩
abbrev main_v343 : Ref sig .tc := ⟨.hbm, 396, rfl⟩
abbrev main_v344 : Ref sig .tc := ⟨.hbm, 397, rfl⟩
abbrev main_v345 : Ref sig .tc := ⟨.hbm, 398, rfl⟩
abbrev main_cst_47 : Ref sig .tc := ⟨.hbm, 399, rfl⟩
abbrev main_v346 : Ref sig .tc := ⟨.hbm, 400, rfl⟩
abbrev main_v347 : Ref sig .tc := ⟨.hbm, 401, rfl⟩
abbrev main_cst_48 : Ref sig .tc := ⟨.hbm, 402, rfl⟩
abbrev main_v348 : Ref sig .tc := ⟨.hbm, 403, rfl⟩
abbrev main_v349 : Ref sig .tc := ⟨.hbm, 404, rfl⟩
abbrev main_v350 : Ref sig .tc := ⟨.hbm, 405, rfl⟩
abbrev main_v351 : Ref sig .tc := ⟨.hbm, 406, rfl⟩
abbrev main_v352 : Ref sig .tc := ⟨.hbm, 407, rfl⟩
abbrev main_v353 : Ref sig .tc := ⟨.hbm, 408, rfl⟩
abbrev main_v354 : Ref sig .tc := ⟨.hbm, 409, rfl⟩
abbrev main_v355 : Ref sig .tc := ⟨.hbm, 410, rfl⟩
abbrev main_v356 : Ref sig .tc := ⟨.hbm, 411, rfl⟩
abbrev main_v357 : Ref sig .tc := ⟨.hbm, 412, rfl⟩
abbrev main_v358 : Ref sig .tc := ⟨.hbm, 413, rfl⟩
abbrev main_v359 : Ref sig .tc := ⟨.hbm, 414, rfl⟩
abbrev main_v360 : Ref sig .tc := ⟨.hbm, 415, rfl⟩
abbrev main_v361 : Ref sig .tc := ⟨.hbm, 416, rfl⟩
abbrev main_v362 : Ref sig .tc := ⟨.hbm, 417, rfl⟩
abbrev main_v363 : Ref sig .tc := ⟨.hbm, 418, rfl⟩
abbrev main_v364 : Ref sig .tc := ⟨.hbm, 419, rfl⟩
abbrev main_v365 : Ref sig .tc := ⟨.hbm, 420, rfl⟩
abbrev main_v366 : Ref sig .tc := ⟨.hbm, 421, rfl⟩
abbrev main_v367 : Ref sig .tc := ⟨.hbm, 422, rfl⟩
abbrev main_v368 : Ref sig .tc := ⟨.hbm, 423, rfl⟩
abbrev main_v369 : Ref sig .tc := ⟨.hbm, 424, rfl⟩
abbrev main_v370 : Ref sig .tc := ⟨.hbm, 425, rfl⟩
abbrev main_v371 : Ref sig .tc := ⟨.hbm, 426, rfl⟩
abbrev main_v372 : Ref sig .tc := ⟨.hbm, 427, rfl⟩
abbrev main_v373 : Ref sig .tc := ⟨.hbm, 428, rfl⟩
abbrev main_cst_49 : Ref sig .tc := ⟨.hbm, 429, rfl⟩
abbrev main_v374 : Ref sig .tc := ⟨.hbm, 430, rfl⟩
abbrev main_v375 : Ref sig .tc := ⟨.hbm, 431, rfl⟩
abbrev main_cst_50 : Ref sig .tc := ⟨.hbm, 432, rfl⟩
abbrev main_v376 : Ref sig .tc := ⟨.hbm, 433, rfl⟩
abbrev main_v377 : Ref sig .tc := ⟨.hbm, 434, rfl⟩
abbrev main_v378 : Ref sig .tc := ⟨.hbm, 435, rfl⟩
abbrev main_v379 : Ref sig .tc := ⟨.hbm, 436, rfl⟩
abbrev main_v380 : Ref sig .tc := ⟨.hbm, 437, rfl⟩
abbrev main_cst_51 : Ref sig .tc := ⟨.hbm, 438, rfl⟩
abbrev main_v381 : Ref sig .tc := ⟨.hbm, 439, rfl⟩
abbrev main_v382 : Ref sig .tc := ⟨.hbm, 440, rfl⟩
abbrev main_cst_52 : Ref sig .tc := ⟨.hbm, 441, rfl⟩
abbrev main_v383 : Ref sig .tc := ⟨.hbm, 442, rfl⟩
abbrev main_v384 : Ref sig .tc := ⟨.hbm, 443, rfl⟩
abbrev main_v385 : Ref sig .tc := ⟨.hbm, 444, rfl⟩
abbrev main_v386 : Ref sig .tc := ⟨.hbm, 445, rfl⟩
abbrev main_v387 : Ref sig .tc := ⟨.hbm, 446, rfl⟩
abbrev main_v388 : Ref sig .tc := ⟨.hbm, 447, rfl⟩
abbrev main_v389 : Ref sig .tc := ⟨.hbm, 448, rfl⟩
abbrev main_cst_53 : Ref sig .tc := ⟨.hbm, 449, rfl⟩
abbrev main_v390 : Ref sig .tc := ⟨.hbm, 450, rfl⟩
abbrev main_v391 : Ref sig .tc := ⟨.hbm, 451, rfl⟩
abbrev main_cst_54 : Ref sig .tc := ⟨.hbm, 452, rfl⟩
abbrev main_v392 : Ref sig .tc := ⟨.hbm, 453, rfl⟩
abbrev main_v393 : Ref sig .tc := ⟨.hbm, 454, rfl⟩
abbrev main_v394 : Ref sig .tc := ⟨.hbm, 455, rfl⟩
abbrev main_v395 : Ref sig .tc := ⟨.hbm, 456, rfl⟩
abbrev main_v396 : Ref sig .tc := ⟨.hbm, 457, rfl⟩
abbrev main_v397 : Ref sig .tc := ⟨.hbm, 458, rfl⟩
abbrev main_v398 : Ref sig .tc := ⟨.hbm, 459, rfl⟩
abbrev main_v399 : Ref sig .tc := ⟨.hbm, 460, rfl⟩
abbrev main_v400 : Ref sig .tc := ⟨.hbm, 461, rfl⟩
abbrev main_v401 : Ref sig .tc := ⟨.hbm, 462, rfl⟩
abbrev main_v402 : Ref sig .tc := ⟨.hbm, 463, rfl⟩
abbrev main_v403 : Ref sig .tc := ⟨.hbm, 464, rfl⟩
abbrev main_v404 : Ref sig .tc := ⟨.hbm, 465, rfl⟩
abbrev main_v405 : Ref sig .tc := ⟨.hbm, 466, rfl⟩
abbrev main_v406 : Ref sig .tc := ⟨.hbm, 467, rfl⟩
abbrev main_v407 : Ref sig .tc := ⟨.hbm, 468, rfl⟩
abbrev main_v408 : Ref sig .tc := ⟨.hbm, 469, rfl⟩
abbrev main_v409 : Ref sig .tc := ⟨.hbm, 470, rfl⟩
abbrev main_v410 : Ref sig .tc := ⟨.hbm, 471, rfl⟩
abbrev main_v411 : Ref sig .tc := ⟨.hbm, 472, rfl⟩
abbrev main_v412 : Ref sig .tc := ⟨.hbm, 473, rfl⟩
abbrev main_v413 : Ref sig .tc := ⟨.hbm, 474, rfl⟩
abbrev main_v414 : Ref sig .tc := ⟨.hbm, 475, rfl⟩
abbrev main_v415 : Ref sig .tc := ⟨.hbm, 476, rfl⟩
abbrev main_v416 : Ref sig .tc := ⟨.hbm, 477, rfl⟩
abbrev main_v417 : Ref sig .tc := ⟨.hbm, 478, rfl⟩
abbrev main_cst_55 : Ref sig .tc := ⟨.hbm, 479, rfl⟩
abbrev main_v418 : Ref sig .tc := ⟨.hbm, 480, rfl⟩
abbrev main_v419 : Ref sig .tc := ⟨.hbm, 481, rfl⟩
abbrev main_cst_56 : Ref sig .tc := ⟨.hbm, 482, rfl⟩
abbrev main_v420 : Ref sig .tc := ⟨.hbm, 483, rfl⟩
abbrev main_v421 : Ref sig .tc := ⟨.hbm, 484, rfl⟩
abbrev main_v422 : Ref sig .tc := ⟨.hbm, 485, rfl⟩
abbrev main_v423 : Ref sig .tc := ⟨.hbm, 486, rfl⟩
abbrev main_v424 : Ref sig .tc := ⟨.hbm, 487, rfl⟩
abbrev main_cst_57 : Ref sig .tc := ⟨.hbm, 488, rfl⟩
abbrev main_v425 : Ref sig .tc := ⟨.hbm, 489, rfl⟩
abbrev main_v426 : Ref sig .tc := ⟨.hbm, 490, rfl⟩
abbrev main_cst_58 : Ref sig .tc := ⟨.hbm, 491, rfl⟩
abbrev main_v427 : Ref sig .tc := ⟨.hbm, 492, rfl⟩
abbrev main_v428 : Ref sig .tc := ⟨.hbm, 493, rfl⟩
abbrev main_v429 : Ref sig .tc := ⟨.hbm, 494, rfl⟩
abbrev main_v430 : Ref sig .tc := ⟨.hbm, 495, rfl⟩
abbrev main_v431 : Ref sig .tc := ⟨.hbm, 496, rfl⟩
abbrev main_v432 : Ref sig .tc := ⟨.hbm, 497, rfl⟩
abbrev main_v433 : Ref sig .tc := ⟨.hbm, 498, rfl⟩
abbrev main_cst_59 : Ref sig .tc := ⟨.hbm, 499, rfl⟩
abbrev main_v434 : Ref sig .tc := ⟨.hbm, 500, rfl⟩
abbrev main_v435 : Ref sig .tc := ⟨.hbm, 501, rfl⟩
abbrev main_cst_60 : Ref sig .tc := ⟨.hbm, 502, rfl⟩
abbrev main_v436 : Ref sig .tc := ⟨.hbm, 503, rfl⟩
abbrev main_v437 : Ref sig .tc := ⟨.hbm, 504, rfl⟩
abbrev main_v438 : Ref sig .tc := ⟨.hbm, 505, rfl⟩
abbrev main_v439 : Ref sig .tc := ⟨.hbm, 506, rfl⟩
abbrev main_v440 : Ref sig .tc := ⟨.hbm, 507, rfl⟩
abbrev main_v441 : Ref sig .tc := ⟨.hbm, 508, rfl⟩
abbrev main_v442 : Ref sig .tc := ⟨.hbm, 509, rfl⟩
abbrev main_v443 : Ref sig .tc := ⟨.hbm, 510, rfl⟩
abbrev main_v444 : Ref sig .tc := ⟨.hbm, 511, rfl⟩
abbrev main_v445 : Ref sig .tc := ⟨.hbm, 512, rfl⟩
abbrev main_v446 : Ref sig .tc := ⟨.hbm, 513, rfl⟩
abbrev main_v447 : Ref sig .tc := ⟨.hbm, 514, rfl⟩
abbrev main_v448 : Ref sig .tc := ⟨.hbm, 515, rfl⟩
abbrev main_v449 : Ref sig .tc := ⟨.hbm, 516, rfl⟩
abbrev main_v450 : Ref sig .tc := ⟨.hbm, 517, rfl⟩
abbrev main_v451 : Ref sig .tc := ⟨.hbm, 518, rfl⟩
abbrev main_v452 : Ref sig .tc := ⟨.hbm, 519, rfl⟩
abbrev main_v453 : Ref sig .tc := ⟨.hbm, 520, rfl⟩
abbrev main_v454 : Ref sig .tc := ⟨.hbm, 521, rfl⟩
abbrev main_v455 : Ref sig .tc := ⟨.hbm, 522, rfl⟩
abbrev main_v456 : Ref sig .tc := ⟨.hbm, 523, rfl⟩
abbrev main_v457 : Ref sig .tc := ⟨.hbm, 524, rfl⟩
abbrev main_v458 : Ref sig .tc := ⟨.hbm, 525, rfl⟩
abbrev main_v459 : Ref sig .tc := ⟨.hbm, 526, rfl⟩
abbrev main_v460 : Ref sig .tc := ⟨.hbm, 527, rfl⟩
abbrev main_v461 : Ref sig .tc := ⟨.hbm, 528, rfl⟩
abbrev main_cst_61 : Ref sig .tc := ⟨.hbm, 529, rfl⟩
abbrev main_v462 : Ref sig .tc := ⟨.hbm, 530, rfl⟩
abbrev main_v463 : Ref sig .tc := ⟨.hbm, 531, rfl⟩
abbrev main_cst_62 : Ref sig .tc := ⟨.hbm, 532, rfl⟩
abbrev main_v464 : Ref sig .tc := ⟨.hbm, 533, rfl⟩
abbrev main_v465 : Ref sig .tc := ⟨.hbm, 534, rfl⟩
abbrev main_v466 : Ref sig .tc := ⟨.hbm, 535, rfl⟩
abbrev main_v467 : Ref sig .tc := ⟨.hbm, 536, rfl⟩
abbrev main_v468 : Ref sig .tc := ⟨.hbm, 537, rfl⟩
abbrev main_cst_63 : Ref sig .tc := ⟨.hbm, 538, rfl⟩
abbrev main_v469 : Ref sig .tc := ⟨.hbm, 539, rfl⟩
abbrev main_v470 : Ref sig .tc := ⟨.hbm, 540, rfl⟩
abbrev main_cst_64 : Ref sig .tc := ⟨.hbm, 541, rfl⟩
abbrev main_v471 : Ref sig .tc := ⟨.hbm, 542, rfl⟩
abbrev main_v472 : Ref sig .tc := ⟨.hbm, 543, rfl⟩
abbrev main_v473 : Ref sig .tc := ⟨.hbm, 544, rfl⟩
abbrev main_v474 : Ref sig .tc := ⟨.hbm, 545, rfl⟩
abbrev main_v475 : Ref sig .tc := ⟨.hbm, 546, rfl⟩
abbrev main_v476 : Ref sig .tc := ⟨.hbm, 547, rfl⟩
abbrev main_v477 : Ref sig .tc := ⟨.hbm, 548, rfl⟩
abbrev main_cst_65 : Ref sig .tc := ⟨.hbm, 549, rfl⟩
abbrev main_v478 : Ref sig .tc := ⟨.hbm, 550, rfl⟩
abbrev main_v479 : Ref sig .tc := ⟨.hbm, 551, rfl⟩
abbrev main_cst_66 : Ref sig .tc := ⟨.hbm, 552, rfl⟩
abbrev main_v480 : Ref sig .tc := ⟨.hbm, 553, rfl⟩
abbrev main_v481 : Ref sig .tc := ⟨.hbm, 554, rfl⟩
abbrev main_v482 : Ref sig .tc := ⟨.hbm, 555, rfl⟩
abbrev main_v483 : Ref sig .tc := ⟨.hbm, 556, rfl⟩
abbrev main_v484 : Ref sig .tc := ⟨.hbm, 557, rfl⟩
abbrev main_v485 : Ref sig .tc := ⟨.hbm, 558, rfl⟩
abbrev main_v486 : Ref sig .tc := ⟨.hbm, 559, rfl⟩
abbrev main_v487 : Ref sig .tc := ⟨.hbm, 560, rfl⟩
abbrev main_v488 : Ref sig .tc := ⟨.hbm, 561, rfl⟩
abbrev main_v489 : Ref sig .tc := ⟨.hbm, 562, rfl⟩
abbrev main_v490 : Ref sig .tc := ⟨.hbm, 563, rfl⟩
abbrev main_v491 : Ref sig .tc := ⟨.hbm, 564, rfl⟩
abbrev main_v492 : Ref sig .tc := ⟨.hbm, 565, rfl⟩
abbrev main_v493 : Ref sig .tc := ⟨.hbm, 566, rfl⟩
abbrev main_v494 : Ref sig .tc := ⟨.hbm, 567, rfl⟩
abbrev main_v495 : Ref sig .tc := ⟨.hbm, 568, rfl⟩
abbrev main_v496 : Ref sig .tc := ⟨.hbm, 569, rfl⟩
abbrev main_v497 : Ref sig .tc := ⟨.hbm, 570, rfl⟩
abbrev main_v498 : Ref sig .tc := ⟨.hbm, 571, rfl⟩
abbrev main_v499 : Ref sig .tc := ⟨.hbm, 572, rfl⟩
abbrev main_v500 : Ref sig .tc := ⟨.hbm, 573, rfl⟩
abbrev main_v501 : Ref sig .tc := ⟨.hbm, 574, rfl⟩
abbrev main_v502 : Ref sig .tc := ⟨.hbm, 575, rfl⟩
abbrev main_v503 : Ref sig .tc := ⟨.hbm, 576, rfl⟩
abbrev main_v504 : Ref sig .tc := ⟨.hbm, 577, rfl⟩
abbrev main_v505 : Ref sig .tc := ⟨.hbm, 578, rfl⟩
abbrev main_cst_67 : Ref sig .tc := ⟨.hbm, 579, rfl⟩
abbrev main_v506 : Ref sig .tc := ⟨.hbm, 580, rfl⟩
abbrev main_v507 : Ref sig .tc := ⟨.hbm, 581, rfl⟩
abbrev main_cst_68 : Ref sig .tc := ⟨.hbm, 582, rfl⟩
abbrev main_v508 : Ref sig .tc := ⟨.hbm, 583, rfl⟩
abbrev main_v509 : Ref sig .tc := ⟨.hbm, 584, rfl⟩
abbrev main_v510 : Ref sig .tc := ⟨.hbm, 585, rfl⟩
abbrev main_v511 : Ref sig .tc := ⟨.hbm, 586, rfl⟩
abbrev main_v512 : Ref sig .tc := ⟨.hbm, 587, rfl⟩
abbrev main_cst_69 : Ref sig .tc := ⟨.hbm, 588, rfl⟩
abbrev main_v513 : Ref sig .tc := ⟨.hbm, 589, rfl⟩
abbrev main_v514 : Ref sig .tc := ⟨.hbm, 590, rfl⟩
abbrev main_cst_70 : Ref sig .tc := ⟨.hbm, 591, rfl⟩
abbrev main_v515 : Ref sig .tc := ⟨.hbm, 592, rfl⟩
abbrev main_v516 : Ref sig .tc := ⟨.hbm, 593, rfl⟩
abbrev main_v517 : Ref sig .tc := ⟨.hbm, 594, rfl⟩
abbrev main_v518 : Ref sig .tc := ⟨.hbm, 595, rfl⟩
abbrev main_v519 : Ref sig .tc := ⟨.hbm, 596, rfl⟩
abbrev main_v520 : Ref sig .tc := ⟨.hbm, 597, rfl⟩
abbrev main_v521 : Ref sig .tc := ⟨.hbm, 598, rfl⟩
abbrev main_cst_71 : Ref sig .tc := ⟨.hbm, 599, rfl⟩
abbrev main_v522 : Ref sig .tc := ⟨.hbm, 600, rfl⟩
abbrev main_v523 : Ref sig .tc := ⟨.hbm, 601, rfl⟩
abbrev main_cst_72 : Ref sig .tc := ⟨.hbm, 602, rfl⟩
abbrev main_v524 : Ref sig .tc := ⟨.hbm, 603, rfl⟩
abbrev main_v525 : Ref sig .tc := ⟨.hbm, 604, rfl⟩
abbrev main_v526 : Ref sig .tc := ⟨.hbm, 605, rfl⟩
abbrev main_v527 : Ref sig .tc := ⟨.hbm, 606, rfl⟩
abbrev main_v528 : Ref sig .tc := ⟨.hbm, 607, rfl⟩
abbrev main_v529 : Ref sig .tc := ⟨.hbm, 608, rfl⟩
abbrev main_v530 : Ref sig .tc := ⟨.hbm, 609, rfl⟩
abbrev main_v531 : Ref sig .tc := ⟨.hbm, 610, rfl⟩
abbrev main_v532 : Ref sig .tc := ⟨.hbm, 611, rfl⟩
abbrev main_v533 : Ref sig .tc := ⟨.hbm, 612, rfl⟩
abbrev main_v534 : Ref sig .tc := ⟨.hbm, 613, rfl⟩
abbrev main_v535 : Ref sig .tc := ⟨.hbm, 614, rfl⟩
abbrev main_v536 : Ref sig .tc := ⟨.hbm, 615, rfl⟩
abbrev main_v537 : Ref sig .tc := ⟨.hbm, 616, rfl⟩
abbrev main_v538 : Ref sig .tc := ⟨.hbm, 617, rfl⟩
abbrev main_v539 : Ref sig .tc := ⟨.hbm, 618, rfl⟩
abbrev main_v540 : Ref sig .tc := ⟨.hbm, 619, rfl⟩
abbrev main_v541 : Ref sig .tc := ⟨.hbm, 620, rfl⟩
abbrev main_v542 : Ref sig .tc := ⟨.hbm, 621, rfl⟩
abbrev main_v543 : Ref sig .tc := ⟨.hbm, 622, rfl⟩
abbrev main_v544 : Ref sig .tc := ⟨.hbm, 623, rfl⟩
abbrev main_v545 : Ref sig .tc := ⟨.hbm, 624, rfl⟩
abbrev main_v546 : Ref sig .tc := ⟨.hbm, 625, rfl⟩
abbrev main_v547 : Ref sig .tc := ⟨.hbm, 626, rfl⟩
abbrev main_v548 : Ref sig .tc := ⟨.hbm, 627, rfl⟩
abbrev main_v549 : Ref sig .tc := ⟨.hbm, 628, rfl⟩
abbrev main_cst_73 : Ref sig .tc := ⟨.hbm, 629, rfl⟩
abbrev main_v550 : Ref sig .tc := ⟨.hbm, 630, rfl⟩
abbrev main_v551 : Ref sig .tc := ⟨.hbm, 631, rfl⟩
abbrev main_cst_74 : Ref sig .tc := ⟨.hbm, 632, rfl⟩
abbrev main_v552 : Ref sig .tc := ⟨.hbm, 633, rfl⟩
abbrev main_v553 : Ref sig .tc := ⟨.hbm, 634, rfl⟩
abbrev main_v554 : Ref sig .tc := ⟨.hbm, 635, rfl⟩
abbrev main_v555 : Ref sig .tc := ⟨.hbm, 636, rfl⟩
abbrev main_v556 : Ref sig .tc := ⟨.hbm, 637, rfl⟩
abbrev main_cst_75 : Ref sig .tc := ⟨.hbm, 638, rfl⟩
abbrev main_v557 : Ref sig .tc := ⟨.hbm, 639, rfl⟩
abbrev main_v558 : Ref sig .tc := ⟨.hbm, 640, rfl⟩
abbrev main_cst_76 : Ref sig .tc := ⟨.hbm, 641, rfl⟩
abbrev main_v559 : Ref sig .tc := ⟨.hbm, 642, rfl⟩
abbrev main_v560 : Ref sig .tc := ⟨.hbm, 643, rfl⟩
abbrev main_v561 : Ref sig .tc := ⟨.hbm, 644, rfl⟩
abbrev main_v562 : Ref sig .tc := ⟨.hbm, 645, rfl⟩
abbrev main_v563 : Ref sig .tc := ⟨.hbm, 646, rfl⟩
abbrev main_v564 : Ref sig .tc := ⟨.hbm, 647, rfl⟩
abbrev main_v565 : Ref sig .tc := ⟨.hbm, 648, rfl⟩
abbrev main_cst_77 : Ref sig .tc := ⟨.hbm, 649, rfl⟩
abbrev main_v566 : Ref sig .tc := ⟨.hbm, 650, rfl⟩
abbrev main_v567 : Ref sig .tc := ⟨.hbm, 651, rfl⟩
abbrev main_cst_78 : Ref sig .tc := ⟨.hbm, 652, rfl⟩
abbrev main_v568 : Ref sig .tc := ⟨.hbm, 653, rfl⟩
abbrev main_v569 : Ref sig .tc := ⟨.hbm, 654, rfl⟩
abbrev main_v570 : Ref sig .tc := ⟨.hbm, 655, rfl⟩
abbrev main_v571 : Ref sig .tc := ⟨.hbm, 656, rfl⟩
abbrev main_v572 : Ref sig .tc := ⟨.hbm, 657, rfl⟩
abbrev main_v573 : Ref sig .tc := ⟨.hbm, 658, rfl⟩
abbrev main_v574 : Ref sig .tc := ⟨.hbm, 659, rfl⟩
abbrev main_v575 : Ref sig .tc := ⟨.hbm, 660, rfl⟩
abbrev main_v576 : Ref sig .tc := ⟨.hbm, 661, rfl⟩
abbrev main_v577 : Ref sig .tc := ⟨.hbm, 662, rfl⟩
abbrev main_v578 : Ref sig .tc := ⟨.hbm, 663, rfl⟩
abbrev main_v579 : Ref sig .tc := ⟨.hbm, 664, rfl⟩
abbrev main_v580 : Ref sig .tc := ⟨.hbm, 665, rfl⟩
abbrev main_v581 : Ref sig .tc := ⟨.hbm, 666, rfl⟩
abbrev main_v582 : Ref sig .tc := ⟨.hbm, 667, rfl⟩
abbrev main_v583 : Ref sig .tc := ⟨.hbm, 668, rfl⟩
abbrev main_v584 : Ref sig .tc := ⟨.hbm, 669, rfl⟩
abbrev main_v585 : Ref sig .tc := ⟨.hbm, 670, rfl⟩
abbrev main_v586 : Ref sig .tc := ⟨.hbm, 671, rfl⟩
abbrev main_v587 : Ref sig .tc := ⟨.hbm, 672, rfl⟩
abbrev main_v588 : Ref sig .tc := ⟨.hbm, 673, rfl⟩
abbrev main_v589 : Ref sig .tc := ⟨.hbm, 674, rfl⟩
abbrev main_v590 : Ref sig .tc := ⟨.hbm, 675, rfl⟩
abbrev main_v591 : Ref sig .tc := ⟨.hbm, 676, rfl⟩
abbrev main_v592 : Ref sig .tc := ⟨.hbm, 677, rfl⟩
abbrev main_v593 : Ref sig .tc := ⟨.hbm, 678, rfl⟩
abbrev main_cst_79 : Ref sig .tc := ⟨.hbm, 679, rfl⟩
abbrev main_v594 : Ref sig .tc := ⟨.hbm, 680, rfl⟩
abbrev main_v595 : Ref sig .tc := ⟨.hbm, 681, rfl⟩
abbrev main_cst_80 : Ref sig .tc := ⟨.hbm, 682, rfl⟩
abbrev main_v596 : Ref sig .tc := ⟨.hbm, 683, rfl⟩
abbrev main_v597 : Ref sig .tc := ⟨.hbm, 684, rfl⟩
abbrev main_v598 : Ref sig .tc := ⟨.hbm, 685, rfl⟩
abbrev main_v599 : Ref sig .tc := ⟨.hbm, 686, rfl⟩
abbrev main_v600 : Ref sig .tc := ⟨.hbm, 687, rfl⟩
abbrev main_cst_81 : Ref sig .tc := ⟨.hbm, 688, rfl⟩
abbrev main_v601 : Ref sig .tc := ⟨.hbm, 689, rfl⟩
abbrev main_v602 : Ref sig .tc := ⟨.hbm, 690, rfl⟩
abbrev main_cst_82 : Ref sig .tc := ⟨.hbm, 691, rfl⟩
abbrev main_v603 : Ref sig .tc := ⟨.hbm, 692, rfl⟩
abbrev main_v604 : Ref sig .tc := ⟨.hbm, 693, rfl⟩
abbrev main_v605 : Ref sig .tc := ⟨.hbm, 694, rfl⟩
abbrev main_v606 : Ref sig .tc := ⟨.hbm, 695, rfl⟩
abbrev main_v607 : Ref sig .tc := ⟨.hbm, 696, rfl⟩
abbrev main_v608 : Ref sig .tc := ⟨.hbm, 697, rfl⟩
abbrev main_v609 : Ref sig .tc := ⟨.hbm, 698, rfl⟩
abbrev main_cst_83 : Ref sig .tc := ⟨.hbm, 699, rfl⟩
abbrev main_v610 : Ref sig .tc := ⟨.hbm, 700, rfl⟩
abbrev main_v611 : Ref sig .tc := ⟨.hbm, 701, rfl⟩
abbrev main_cst_84 : Ref sig .tc := ⟨.hbm, 702, rfl⟩
abbrev main_v612 : Ref sig .tc := ⟨.hbm, 703, rfl⟩
abbrev main_v613 : Ref sig .tc := ⟨.hbm, 704, rfl⟩
abbrev main_v614 : Ref sig .tc := ⟨.hbm, 705, rfl⟩
abbrev main_v615 : Ref sig .tc := ⟨.hbm, 706, rfl⟩
abbrev main_v616 : Ref sig .tc := ⟨.hbm, 707, rfl⟩
abbrev main_v617 : Ref sig .tc := ⟨.hbm, 708, rfl⟩
abbrev main_v618 : Ref sig .tc := ⟨.hbm, 709, rfl⟩
abbrev main_v619 : Ref sig .tc := ⟨.hbm, 710, rfl⟩
abbrev main_v620 : Ref sig .tc := ⟨.hbm, 711, rfl⟩
abbrev main_v621 : Ref sig .tc := ⟨.hbm, 712, rfl⟩
abbrev main_v622 : Ref sig .tc := ⟨.hbm, 713, rfl⟩
abbrev main_v623 : Ref sig .tc := ⟨.hbm, 714, rfl⟩
abbrev main_v624 : Ref sig .tc := ⟨.hbm, 715, rfl⟩
abbrev main_v625 : Ref sig .tc := ⟨.hbm, 716, rfl⟩
abbrev main_v626 : Ref sig .tc := ⟨.hbm, 717, rfl⟩
abbrev main_v627 : Ref sig .tc := ⟨.hbm, 718, rfl⟩
abbrev main_v628 : Ref sig .tc := ⟨.hbm, 719, rfl⟩
abbrev main_v629 : Ref sig .tc := ⟨.hbm, 720, rfl⟩
abbrev main_v630 : Ref sig .tc := ⟨.hbm, 721, rfl⟩
abbrev main_v631 : Ref sig .tc := ⟨.hbm, 722, rfl⟩
abbrev main_v632 : Ref sig .tc := ⟨.hbm, 723, rfl⟩
abbrev main_v633 : Ref sig .tc := ⟨.hbm, 724, rfl⟩
abbrev main_v634 : Ref sig .tc := ⟨.hbm, 725, rfl⟩
abbrev main_v635 : Ref sig .tc := ⟨.hbm, 726, rfl⟩
abbrev main_v636 : Ref sig .tc := ⟨.hbm, 727, rfl⟩
abbrev main_v637 : Ref sig .tc := ⟨.hbm, 728, rfl⟩
abbrev main_cst_85 : Ref sig .tc := ⟨.hbm, 729, rfl⟩
abbrev main_v638 : Ref sig .tc := ⟨.hbm, 730, rfl⟩
abbrev main_v639 : Ref sig .tc := ⟨.hbm, 731, rfl⟩
abbrev main_cst_86 : Ref sig .tc := ⟨.hbm, 732, rfl⟩
abbrev main_v640 : Ref sig .tc := ⟨.hbm, 733, rfl⟩
abbrev main_v641 : Ref sig .tc := ⟨.hbm, 734, rfl⟩
abbrev main_v642 : Ref sig .tc := ⟨.hbm, 735, rfl⟩
abbrev main_v643 : Ref sig .tc := ⟨.hbm, 736, rfl⟩
abbrev main_v644 : Ref sig .tc := ⟨.hbm, 737, rfl⟩
abbrev main_cst_87 : Ref sig .tc := ⟨.hbm, 738, rfl⟩
abbrev main_v645 : Ref sig .tc := ⟨.hbm, 739, rfl⟩
abbrev main_v646 : Ref sig .tc := ⟨.hbm, 740, rfl⟩
abbrev main_cst_88 : Ref sig .tc := ⟨.hbm, 741, rfl⟩
abbrev main_v647 : Ref sig .tc := ⟨.hbm, 742, rfl⟩
abbrev main_v648 : Ref sig .tc := ⟨.hbm, 743, rfl⟩
abbrev main_v649 : Ref sig .tc := ⟨.hbm, 744, rfl⟩
abbrev main_v650 : Ref sig .tc := ⟨.hbm, 745, rfl⟩
abbrev main_v651 : Ref sig .tc := ⟨.hbm, 746, rfl⟩
abbrev main_v652 : Ref sig .tc := ⟨.hbm, 747, rfl⟩
abbrev main_v653 : Ref sig .tc := ⟨.hbm, 748, rfl⟩
abbrev main_cst_89 : Ref sig .tc := ⟨.hbm, 749, rfl⟩
abbrev main_v654 : Ref sig .tc := ⟨.hbm, 750, rfl⟩
abbrev main_v655 : Ref sig .tc := ⟨.hbm, 751, rfl⟩
abbrev main_cst_90 : Ref sig .tc := ⟨.hbm, 752, rfl⟩
abbrev main_v656 : Ref sig .tc := ⟨.hbm, 753, rfl⟩
abbrev main_v657 : Ref sig .tc := ⟨.hbm, 754, rfl⟩
abbrev main_v658 : Ref sig .tc := ⟨.hbm, 755, rfl⟩
abbrev main_v659 : Ref sig .tc := ⟨.hbm, 756, rfl⟩
abbrev main_v660 : Ref sig .tc := ⟨.hbm, 757, rfl⟩
abbrev main_v661 : Ref sig .tc := ⟨.hbm, 758, rfl⟩
abbrev main_v662 : Ref sig .tc := ⟨.hbm, 759, rfl⟩
abbrev main_v663 : Ref sig .tc := ⟨.hbm, 760, rfl⟩
abbrev main_v664 : Ref sig .tc := ⟨.hbm, 761, rfl⟩
abbrev main_v665 : Ref sig .tc := ⟨.hbm, 762, rfl⟩
abbrev main_v666 : Ref sig .tc := ⟨.hbm, 763, rfl⟩
abbrev main_v667 : Ref sig .tc := ⟨.hbm, 764, rfl⟩
abbrev main_v668 : Ref sig .tc := ⟨.hbm, 765, rfl⟩
abbrev main_v669 : Ref sig .tc := ⟨.hbm, 766, rfl⟩
abbrev main_v670 : Ref sig .tc := ⟨.hbm, 767, rfl⟩
abbrev main_v671 : Ref sig .tc := ⟨.hbm, 768, rfl⟩
abbrev main_v672 : Ref sig .tc := ⟨.hbm, 769, rfl⟩
abbrev main_v673 : Ref sig .tc := ⟨.hbm, 770, rfl⟩
abbrev main_v674 : Ref sig .tc := ⟨.hbm, 771, rfl⟩
abbrev main_v675 : Ref sig .tc := ⟨.hbm, 772, rfl⟩
abbrev main_v676 : Ref sig .tc := ⟨.hbm, 773, rfl⟩
abbrev main_v677 : Ref sig .tc := ⟨.hbm, 774, rfl⟩
abbrev main_v678 : Ref sig .tc := ⟨.hbm, 775, rfl⟩
abbrev main_v679 : Ref sig .tc := ⟨.hbm, 776, rfl⟩
abbrev main_v680 : Ref sig .tc := ⟨.hbm, 777, rfl⟩
abbrev main_v681 : Ref sig .tc := ⟨.hbm, 778, rfl⟩
abbrev main_cst_91 : Ref sig .tc := ⟨.hbm, 779, rfl⟩
abbrev main_v682 : Ref sig .tc := ⟨.hbm, 780, rfl⟩
abbrev main_v683 : Ref sig .tc := ⟨.hbm, 781, rfl⟩
abbrev main_cst_92 : Ref sig .tc := ⟨.hbm, 782, rfl⟩
abbrev main_v684 : Ref sig .tc := ⟨.hbm, 783, rfl⟩
abbrev main_v685 : Ref sig .tc := ⟨.hbm, 784, rfl⟩
abbrev main_v686 : Ref sig .tc := ⟨.hbm, 785, rfl⟩
abbrev main_v687 : Ref sig .tc := ⟨.hbm, 786, rfl⟩
abbrev main_v688 : Ref sig .tc := ⟨.hbm, 787, rfl⟩
abbrev main_cst_93 : Ref sig .tc := ⟨.hbm, 788, rfl⟩
abbrev main_v689 : Ref sig .tc := ⟨.hbm, 789, rfl⟩
abbrev main_v690 : Ref sig .tc := ⟨.hbm, 790, rfl⟩
abbrev main_cst_94 : Ref sig .tc := ⟨.hbm, 791, rfl⟩
abbrev main_v691 : Ref sig .tc := ⟨.hbm, 792, rfl⟩
abbrev main_v692 : Ref sig .tc := ⟨.hbm, 793, rfl⟩
abbrev main_v693 : Ref sig .tc := ⟨.hbm, 794, rfl⟩
abbrev main_v694 : Ref sig .tc := ⟨.hbm, 795, rfl⟩
abbrev main_v695 : Ref sig .tc := ⟨.hbm, 796, rfl⟩
abbrev main_v696 : Ref sig .tc := ⟨.hbm, 797, rfl⟩
abbrev main_v697 : Ref sig .tc := ⟨.hbm, 798, rfl⟩
abbrev main_cst_95 : Ref sig .tc := ⟨.hbm, 799, rfl⟩
abbrev main_v698 : Ref sig .tc := ⟨.hbm, 800, rfl⟩
abbrev main_v699 : Ref sig .tc := ⟨.hbm, 801, rfl⟩
abbrev main_cst_96 : Ref sig .tc := ⟨.hbm, 802, rfl⟩
abbrev main_v700 : Ref sig .tc := ⟨.hbm, 803, rfl⟩
abbrev main_v701 : Ref sig .tc := ⟨.hbm, 804, rfl⟩
abbrev main_v702 : Ref sig .tc := ⟨.hbm, 805, rfl⟩
abbrev main_v703 : Ref sig .tc := ⟨.hbm, 806, rfl⟩
abbrev main_v704 : Ref sig .tc := ⟨.hbm, 807, rfl⟩
abbrev main_v705 : Ref sig .tc := ⟨.hbm, 808, rfl⟩
abbrev main_v706 : Ref sig .tc := ⟨.hbm, 809, rfl⟩
abbrev main_v707 : Ref sig .tc := ⟨.hbm, 810, rfl⟩
abbrev main_v708 : Ref sig .tc := ⟨.hbm, 811, rfl⟩
abbrev main_v709 : Ref sig .tc := ⟨.hbm, 812, rfl⟩
abbrev main_v710 : Ref sig .tc := ⟨.hbm, 813, rfl⟩
abbrev main_v711 : Ref sig .tc := ⟨.hbm, 814, rfl⟩
abbrev main_v712 : Ref sig .tc := ⟨.hbm, 815, rfl⟩
abbrev main_v713 : Ref sig .tc := ⟨.hbm, 816, rfl⟩
abbrev main_v714 : Ref sig .tc := ⟨.hbm, 817, rfl⟩
abbrev main_v715 : Ref sig .tc := ⟨.hbm, 818, rfl⟩
abbrev main_v716 : Ref sig .tc := ⟨.hbm, 819, rfl⟩
abbrev main_v717 : Ref sig .tc := ⟨.hbm, 820, rfl⟩
abbrev main_v718 : Ref sig .tc := ⟨.hbm, 821, rfl⟩
abbrev main_v719 : Ref sig .tc := ⟨.hbm, 822, rfl⟩
abbrev main_v720 : Ref sig .tc := ⟨.hbm, 823, rfl⟩
abbrev main_v721 : Ref sig .tc := ⟨.hbm, 824, rfl⟩
abbrev main_v722 : Ref sig .tc := ⟨.hbm, 825, rfl⟩
abbrev main_v723 : Ref sig .tc := ⟨.hbm, 826, rfl⟩
abbrev main_v724 : Ref sig .tc := ⟨.hbm, 827, rfl⟩
abbrev main_v725 : Ref sig .tc := ⟨.hbm, 828, rfl⟩
abbrev main_cst_97 : Ref sig .tc := ⟨.hbm, 829, rfl⟩
abbrev main_v726 : Ref sig .tc := ⟨.hbm, 830, rfl⟩
abbrev main_v727 : Ref sig .tc := ⟨.hbm, 831, rfl⟩
abbrev main_cst_98 : Ref sig .tc := ⟨.hbm, 832, rfl⟩
abbrev main_v728 : Ref sig .tc := ⟨.hbm, 833, rfl⟩
abbrev main_v729 : Ref sig .tc := ⟨.hbm, 834, rfl⟩
abbrev main_v730 : Ref sig .tc := ⟨.hbm, 835, rfl⟩
abbrev main_v731 : Ref sig .tc := ⟨.hbm, 836, rfl⟩
abbrev main_v732 : Ref sig .tc := ⟨.hbm, 837, rfl⟩
abbrev main_cst_99 : Ref sig .tc := ⟨.hbm, 838, rfl⟩
abbrev main_v733 : Ref sig .tc := ⟨.hbm, 839, rfl⟩
abbrev main_v734 : Ref sig .tc := ⟨.hbm, 840, rfl⟩
abbrev main_cst_100 : Ref sig .tc := ⟨.hbm, 841, rfl⟩
abbrev main_v735 : Ref sig .tc := ⟨.hbm, 842, rfl⟩
abbrev main_v736 : Ref sig .tc := ⟨.hbm, 843, rfl⟩
abbrev main_v737 : Ref sig .tc := ⟨.hbm, 844, rfl⟩
abbrev main_v738 : Ref sig .tc := ⟨.hbm, 845, rfl⟩
abbrev main_v739 : Ref sig .tc := ⟨.hbm, 846, rfl⟩
abbrev main_v740 : Ref sig .tc := ⟨.hbm, 847, rfl⟩
abbrev main_v741 : Ref sig .tc := ⟨.hbm, 848, rfl⟩
abbrev main_cst_101 : Ref sig .tc := ⟨.hbm, 849, rfl⟩
abbrev main_v742 : Ref sig .tc := ⟨.hbm, 850, rfl⟩
abbrev main_v743 : Ref sig .tc := ⟨.hbm, 851, rfl⟩
abbrev main_cst_102 : Ref sig .tc := ⟨.hbm, 852, rfl⟩
abbrev main_v744 : Ref sig .tc := ⟨.hbm, 853, rfl⟩
abbrev main_v745 : Ref sig .tc := ⟨.hbm, 854, rfl⟩
abbrev main_v746 : Ref sig .tc := ⟨.hbm, 855, rfl⟩
abbrev main_v747 : Ref sig .tc := ⟨.hbm, 856, rfl⟩
abbrev main_v748 : Ref sig .tc := ⟨.hbm, 857, rfl⟩
abbrev main_v749 : Ref sig .tc := ⟨.hbm, 858, rfl⟩
abbrev main_v750 : Ref sig .tc := ⟨.hbm, 859, rfl⟩
abbrev main_v751 : Ref sig .tc := ⟨.hbm, 860, rfl⟩
abbrev main_v752 : Ref sig .tc := ⟨.hbm, 861, rfl⟩
abbrev main_v753 : Ref sig .tc := ⟨.hbm, 862, rfl⟩
abbrev main_v754 : Ref sig .tc := ⟨.hbm, 863, rfl⟩
abbrev main_v755 : Ref sig .tc := ⟨.hbm, 864, rfl⟩
abbrev main_v756 : Ref sig .tc := ⟨.hbm, 865, rfl⟩
abbrev main_v757 : Ref sig .tc := ⟨.hbm, 866, rfl⟩
abbrev main_v758 : Ref sig .tc := ⟨.hbm, 867, rfl⟩
abbrev main_v759 : Ref sig .tc := ⟨.hbm, 868, rfl⟩
abbrev main_v760 : Ref sig .tc := ⟨.hbm, 869, rfl⟩
abbrev main_v761 : Ref sig .tc := ⟨.hbm, 870, rfl⟩
abbrev main_v762 : Ref sig .tc := ⟨.hbm, 871, rfl⟩
abbrev main_v763 : Ref sig .tc := ⟨.hbm, 872, rfl⟩
abbrev main_v764 : Ref sig .tc := ⟨.hbm, 873, rfl⟩
abbrev main_v765 : Ref sig .tc := ⟨.hbm, 874, rfl⟩
abbrev main_v766 : Ref sig .tc := ⟨.hbm, 875, rfl⟩
abbrev main_v767 : Ref sig .tc := ⟨.hbm, 876, rfl⟩
abbrev main_cst_103 : Ref sig .tc := ⟨.hbm, 877, rfl⟩
abbrev main_v768 : Ref sig .tc := ⟨.hbm, 878, rfl⟩
abbrev main_v769 : Ref sig .tc := ⟨.hbm, 879, rfl⟩
abbrev main_cst_104 : Ref sig .tc := ⟨.hbm, 880, rfl⟩
abbrev main_v770 : Ref sig .tc := ⟨.hbm, 881, rfl⟩
abbrev main_v771 : Ref sig .tc := ⟨.hbm, 882, rfl⟩
abbrev main_v772 : Ref sig .tc := ⟨.hbm, 883, rfl⟩
abbrev main_v773 : Ref sig .tc := ⟨.hbm, 884, rfl⟩
abbrev main_v774 : Ref sig .tc := ⟨.hbm, 885, rfl⟩
abbrev main_cst_105 : Ref sig .tc := ⟨.hbm, 886, rfl⟩
abbrev main_v775 : Ref sig .tc := ⟨.hbm, 887, rfl⟩
abbrev main_v776 : Ref sig .tc := ⟨.hbm, 888, rfl⟩
abbrev main_cst_106 : Ref sig .tc := ⟨.hbm, 889, rfl⟩
abbrev main_v777 : Ref sig .tc := ⟨.hbm, 890, rfl⟩
abbrev main_v778 : Ref sig .tc := ⟨.hbm, 891, rfl⟩
abbrev main_v779 : Ref sig .tc := ⟨.hbm, 892, rfl⟩
abbrev main_v780 : Ref sig .tc := ⟨.hbm, 893, rfl⟩
abbrev main_v781 : Ref sig .tc := ⟨.hbm, 894, rfl⟩
abbrev main_v782 : Ref sig .tc := ⟨.hbm, 895, rfl⟩
abbrev main_v783 : Ref sig .tc := ⟨.hbm, 896, rfl⟩
abbrev main_cst_107 : Ref sig .tc := ⟨.hbm, 897, rfl⟩
abbrev main_v784 : Ref sig .tc := ⟨.hbm, 898, rfl⟩
abbrev main_v785 : Ref sig .tc := ⟨.hbm, 899, rfl⟩
abbrev main_cst_108 : Ref sig .tc := ⟨.hbm, 900, rfl⟩
abbrev main_v786 : Ref sig .tc := ⟨.hbm, 901, rfl⟩
abbrev main_v787 : Ref sig .tc := ⟨.hbm, 902, rfl⟩
abbrev main_v788 : Ref sig .tc := ⟨.hbm, 903, rfl⟩
abbrev main_v789 : Ref sig .tc := ⟨.hbm, 904, rfl⟩
abbrev main_v790 : Ref sig .tc := ⟨.hbm, 905, rfl⟩
abbrev main_v791 : Ref sig .tc := ⟨.hbm, 906, rfl⟩
abbrev main_v792 : Ref sig .tc := ⟨.hbm, 907, rfl⟩

abbrev nD : Nat := 1
abbrev τ : Topo := Topo.v7x

variable {F : FTy → Type} [FloatOps F]

class Facts₀ : Prop where
  bcast_S_S262144x128 : S_.BroadcastsInDim S262144x128 (![] : Fin 0 → Fin S262144x128.rank)
  slices_S262143x128_S131072x128_131071_0 : S262143x128.Slices ![131071, 0] S131072x128
  shapeCasts_S262144x128_S131072x256 : S262144x128.ShapeCasts S131072x256
  transposes_S1024x128_S128x1024_1_0 : S1024x128.Transposes [1, 0] S128x1024
  bcast_S1024_S1x1024_1 : S1024.BroadcastsInDim S1x1024 (![1] : Fin 1 → Fin S1x1024.rank)
  bcast_S1x1024_S131072x1024_0_1 : S1x1024.BroadcastsInDim S131072x1024 (![0, 1] : Fin 2 → Fin S131072x1024.rank)
  transposes_S1024x256_S256x1024_1_0 : S1024x256.Transposes [1, 0] S256x1024
  slices_S131072x1024_S131072x256_0_0 : S131072x1024.Slices ![0, 0] S131072x256
  slices_S131072x1024_S131072x256_0_256 : S131072x1024.Slices ![0, 256] S131072x256
  slices_S131072x1024_S131072x256_0_512 : S131072x1024.Slices ![0, 512] S131072x256
  slices_S131072x1024_S131072x256_0_768 : S131072x1024.Slices ![0, 768] S131072x256
  bcast_S_S131072x256 : S_.BroadcastsInDim S131072x256 (![] : Fin 0 → Fin S131072x256.rank)
  slices_S131072x256_S131072x128_0_0 : S131072x256.Slices ![0, 0] S131072x128
  slices_S262143x128_S65536x128_65535_0 : S262143x128.Slices ![65535, 0] S65536x128
  shapeCasts_S131072x128_S65536x256 : S131072x128.ShapeCasts S65536x256
  bcast_S1x1024_S65536x1024_0_1 : S1x1024.BroadcastsInDim S65536x1024 (![0, 1] : Fin 2 → Fin S65536x1024.rank)
  slices_S65536x1024_S65536x256_0_0 : S65536x1024.Slices ![0, 0] S65536x256
  slices_S65536x1024_S65536x256_0_256 : S65536x1024.Slices ![0, 256] S65536x256
  slices_S65536x1024_S65536x256_0_512 : S65536x1024.Slices ![0, 512] S65536x256
  slices_S65536x1024_S65536x256_0_768 : S65536x1024.Slices ![0, 768] S65536x256
  bcast_S_S65536x256 : S_.BroadcastsInDim S65536x256 (![] : Fin 0 → Fin S65536x256.rank)
  slices_S65536x256_S65536x128_0_0 : S65536x256.Slices ![0, 0] S65536x128
  slices_S262143x128_S32768x128_32767_0 : S262143x128.Slices ![32767, 0] S32768x128
  shapeCasts_S65536x128_S32768x256 : S65536x128.ShapeCasts S32768x256
  bcast_S1x1024_S32768x1024_0_1 : S1x1024.BroadcastsInDim S32768x1024 (![0, 1] : Fin 2 → Fin S32768x1024.rank)
  slices_S32768x1024_S32768x256_0_0 : S32768x1024.Slices ![0, 0] S32768x256
  slices_S32768x1024_S32768x256_0_256 : S32768x1024.Slices ![0, 256] S32768x256
  slices_S32768x1024_S32768x256_0_512 : S32768x1024.Slices ![0, 512] S32768x256
  slices_S32768x1024_S32768x256_0_768 : S32768x1024.Slices ![0, 768] S32768x256
  bcast_S_S32768x256 : S_.BroadcastsInDim S32768x256 (![] : Fin 0 → Fin S32768x256.rank)
  slices_S32768x256_S32768x128_0_0 : S32768x256.Slices ![0, 0] S32768x128
  slices_S262143x128_S16384x128_16383_0 : S262143x128.Slices ![16383, 0] S16384x128
  shapeCasts_S32768x128_S16384x256 : S32768x128.ShapeCasts S16384x256
  bcast_S1x1024_S16384x1024_0_1 : S1x1024.BroadcastsInDim S16384x1024 (![0, 1] : Fin 2 → Fin S16384x1024.rank)
  slices_S16384x1024_S16384x256_0_0 : S16384x1024.Slices ![0, 0] S16384x256
  slices_S16384x1024_S16384x256_0_256 : S16384x1024.Slices ![0, 256] S16384x256
  slices_S16384x1024_S16384x256_0_512 : S16384x1024.Slices ![0, 512] S16384x256
  slices_S16384x1024_S16384x256_0_768 : S16384x1024.Slices ![0, 768] S16384x256
  bcast_S_S16384x256 : S_.BroadcastsInDim S16384x256 (![] : Fin 0 → Fin S16384x256.rank)
  slices_S16384x256_S16384x128_0_0 : S16384x256.Slices ![0, 0] S16384x128
  slices_S262143x128_S8192x128_8191_0 : S262143x128.Slices ![8191, 0] S8192x128
  shapeCasts_S16384x128_S8192x256 : S16384x128.ShapeCasts S8192x256
  bcast_S1x1024_S8192x1024_0_1 : S1x1024.BroadcastsInDim S8192x1024 (![0, 1] : Fin 2 → Fin S8192x1024.rank)
  slices_S8192x1024_S8192x256_0_0 : S8192x1024.Slices ![0, 0] S8192x256
  slices_S8192x1024_S8192x256_0_256 : S8192x1024.Slices ![0, 256] S8192x256
  slices_S8192x1024_S8192x256_0_512 : S8192x1024.Slices ![0, 512] S8192x256
  slices_S8192x1024_S8192x256_0_768 : S8192x1024.Slices ![0, 768] S8192x256
  bcast_S_S8192x256 : S_.BroadcastsInDim S8192x256 (![] : Fin 0 → Fin S8192x256.rank)
  slices_S8192x256_S8192x128_0_0 : S8192x256.Slices ![0, 0] S8192x128
  slices_S262143x128_S4096x128_4095_0 : S262143x128.Slices ![4095, 0] S4096x128
  shapeCasts_S8192x128_S4096x256 : S8192x128.ShapeCasts S4096x256
  bcast_S1x1024_S4096x1024_0_1 : S1x1024.BroadcastsInDim S4096x1024 (![0, 1] : Fin 2 → Fin S4096x1024.rank)
  slices_S4096x1024_S4096x256_0_0 : S4096x1024.Slices ![0, 0] S4096x256
  slices_S4096x1024_S4096x256_0_256 : S4096x1024.Slices ![0, 256] S4096x256
  slices_S4096x1024_S4096x256_0_512 : S4096x1024.Slices ![0, 512] S4096x256
  slices_S4096x1024_S4096x256_0_768 : S4096x1024.Slices ![0, 768] S4096x256
  bcast_S_S4096x256 : S_.BroadcastsInDim S4096x256 (![] : Fin 0 → Fin S4096x256.rank)
  slices_S4096x256_S4096x128_0_0 : S4096x256.Slices ![0, 0] S4096x128
  slices_S262143x128_S2048x128_2047_0 : S262143x128.Slices ![2047, 0] S2048x128
  shapeCasts_S4096x128_S2048x256 : S4096x128.ShapeCasts S2048x256
  bcast_S1x1024_S2048x1024_0_1 : S1x1024.BroadcastsInDim S2048x1024 (![0, 1] : Fin 2 → Fin S2048x1024.rank)
  slices_S2048x1024_S2048x256_0_0 : S2048x1024.Slices ![0, 0] S2048x256
  slices_S2048x1024_S2048x256_0_256 : S2048x1024.Slices ![0, 256] S2048x256
  slices_S2048x1024_S2048x256_0_512 : S2048x1024.Slices ![0, 512] S2048x256
  slices_S2048x1024_S2048x256_0_768 : S2048x1024.Slices ![0, 768] S2048x256
  bcast_S_S2048x256 : S_.BroadcastsInDim S2048x256 (![] : Fin 0 → Fin S2048x256.rank)
  slices_S2048x256_S2048x128_0_0 : S2048x256.Slices ![0, 0] S2048x128
  slices_S262143x128_S1024x128_1023_0 : S262143x128.Slices ![1023, 0] S1024x128
  shapeCasts_S2048x128_S1024x256 : S2048x128.ShapeCasts S1024x256
  bcast_S1x1024_S1024x1024_0_1 : S1x1024.BroadcastsInDim S1024x1024 (![0, 1] : Fin 2 → Fin S1024x1024.rank)
  slices_S1024x1024_S1024x256_0_0 : S1024x1024.Slices ![0, 0] S1024x256
  slices_S1024x1024_S1024x256_0_256 : S1024x1024.Slices ![0, 256] S1024x256
  slices_S1024x1024_S1024x256_0_512 : S1024x1024.Slices ![0, 512] S1024x256
  slices_S1024x1024_S1024x256_0_768 : S1024x1024.Slices ![0, 768] S1024x256
  bcast_S_S1024x256 : S_.BroadcastsInDim S1024x256 (![] : Fin 0 → Fin S1024x256.rank)
  slices_S1024x256_S1024x128_0_0 : S1024x256.Slices ![0, 0] S1024x128
  slices_S262143x128_S512x128_511_0 : S262143x128.Slices ![511, 0] S512x128
  shapeCasts_S1024x128_S512x256 : S1024x128.ShapeCasts S512x256
  bcast_S1x1024_S512x1024_0_1 : S1x1024.BroadcastsInDim S512x1024 (![0, 1] : Fin 2 → Fin S512x1024.rank)
  slices_S512x1024_S512x256_0_0 : S512x1024.Slices ![0, 0] S512x256
  slices_S512x1024_S512x256_0_256 : S512x1024.Slices ![0, 256] S512x256
  slices_S512x1024_S512x256_0_512 : S512x1024.Slices ![0, 512] S512x256
  slices_S512x1024_S512x256_0_768 : S512x1024.Slices ![0, 768] S512x256
  bcast_S_S512x256 : S_.BroadcastsInDim S512x256 (![] : Fin 0 → Fin S512x256.rank)
  slices_S512x256_S512x128_0_0 : S512x256.Slices ![0, 0] S512x128
  slices_S262143x128_S256x128_255_0 : S262143x128.Slices ![255, 0] S256x128
  shapeCasts_S512x128_S256x256 : S512x128.ShapeCasts S256x256
  bcast_S1x1024_S256x1024_0_1 : S1x1024.BroadcastsInDim S256x1024 (![0, 1] : Fin 2 → Fin S256x1024.rank)
  slices_S256x1024_S256x256_0_0 : S256x1024.Slices ![0, 0] S256x256
  slices_S256x1024_S256x256_0_256 : S256x1024.Slices ![0, 256] S256x256
  slices_S256x1024_S256x256_0_512 : S256x1024.Slices ![0, 512] S256x256
  slices_S256x1024_S256x256_0_768 : S256x1024.Slices ![0, 768] S256x256
  bcast_S_S256x256 : S_.BroadcastsInDim S256x256 (![] : Fin 0 → Fin S256x256.rank)
  slices_S256x256_S256x128_0_0 : S256x256.Slices ![0, 0] S256x128
  slices_S262143x128_S128x128_127_0 : S262143x128.Slices ![127, 0] S128x128
  shapeCasts_S256x128_S128x256 : S256x128.ShapeCasts S128x256
  bcast_S1x1024_S128x1024_0_1 : S1x1024.BroadcastsInDim S128x1024 (![0, 1] : Fin 2 → Fin S128x1024.rank)
  slices_S128x1024_S128x256_0_0 : S128x1024.Slices ![0, 0] S128x256
  slices_S128x1024_S128x256_0_256 : S128x1024.Slices ![0, 256] S128x256
  slices_S128x1024_S128x256_0_512 : S128x1024.Slices ![0, 512] S128x256
  slices_S128x1024_S128x256_0_768 : S128x1024.Slices ![0, 768] S128x256
  bcast_S_S128x256 : S_.BroadcastsInDim S128x256 (![] : Fin 0 → Fin S128x256.rank)
  slices_S128x256_S128x128_0_0 : S128x256.Slices ![0, 0] S128x128
  slices_S262143x128_S64x128_63_0 : S262143x128.Slices ![63, 0] S64x128
  shapeCasts_S128x128_S64x256 : S128x128.ShapeCasts S64x256
  bcast_S1x1024_S64x1024_0_1 : S1x1024.BroadcastsInDim S64x1024 (![0, 1] : Fin 2 → Fin S64x1024.rank)
  slices_S64x1024_S64x256_0_0 : S64x1024.Slices ![0, 0] S64x256
  slices_S64x1024_S64x256_0_256 : S64x1024.Slices ![0, 256] S64x256
  slices_S64x1024_S64x256_0_512 : S64x1024.Slices ![0, 512] S64x256
  slices_S64x1024_S64x256_0_768 : S64x1024.Slices ![0, 768] S64x256
  bcast_S_S64x256 : S_.BroadcastsInDim S64x256 (![] : Fin 0 → Fin S64x256.rank)
  slices_S64x256_S64x128_0_0 : S64x256.Slices ![0, 0] S64x128
  slices_S262143x128_S32x128_31_0 : S262143x128.Slices ![31, 0] S32x128
  shapeCasts_S64x128_S32x256 : S64x128.ShapeCasts S32x256
  bcast_S1x1024_S32x1024_0_1 : S1x1024.BroadcastsInDim S32x1024 (![0, 1] : Fin 2 → Fin S32x1024.rank)
  slices_S32x1024_S32x256_0_0 : S32x1024.Slices ![0, 0] S32x256
  slices_S32x1024_S32x256_0_256 : S32x1024.Slices ![0, 256] S32x256
  slices_S32x1024_S32x256_0_512 : S32x1024.Slices ![0, 512] S32x256
  slices_S32x1024_S32x256_0_768 : S32x1024.Slices ![0, 768] S32x256
  bcast_S_S32x256 : S_.BroadcastsInDim S32x256 (![] : Fin 0 → Fin S32x256.rank)
  slices_S32x256_S32x128_0_0 : S32x256.Slices ![0, 0] S32x128
  slices_S262143x128_S16x128_15_0 : S262143x128.Slices ![15, 0] S16x128
  shapeCasts_S32x128_S16x256 : S32x128.ShapeCasts S16x256
  bcast_S1x1024_S16x1024_0_1 : S1x1024.BroadcastsInDim S16x1024 (![0, 1] : Fin 2 → Fin S16x1024.rank)
  slices_S16x1024_S16x256_0_0 : S16x1024.Slices ![0, 0] S16x256
  slices_S16x1024_S16x256_0_256 : S16x1024.Slices ![0, 256] S16x256
  slices_S16x1024_S16x256_0_512 : S16x1024.Slices ![0, 512] S16x256
  slices_S16x1024_S16x256_0_768 : S16x1024.Slices ![0, 768] S16x256
  bcast_S_S16x256 : S_.BroadcastsInDim S16x256 (![] : Fin 0 → Fin S16x256.rank)
  slices_S16x256_S16x128_0_0 : S16x256.Slices ![0, 0] S16x128
  slices_S262143x128_S8x128_7_0 : S262143x128.Slices ![7, 0] S8x128
  shapeCasts_S16x128_S8x256 : S16x128.ShapeCasts S8x256
  bcast_S1x1024_S8x1024_0_1 : S1x1024.BroadcastsInDim S8x1024 (![0, 1] : Fin 2 → Fin S8x1024.rank)
  slices_S8x1024_S8x256_0_0 : S8x1024.Slices ![0, 0] S8x256
  slices_S8x1024_S8x256_0_256 : S8x1024.Slices ![0, 256] S8x256
  slices_S8x1024_S8x256_0_512 : S8x1024.Slices ![0, 512] S8x256
  slices_S8x1024_S8x256_0_768 : S8x1024.Slices ![0, 768] S8x256
  bcast_S_S8x256 : S_.BroadcastsInDim S8x256 (![] : Fin 0 → Fin S8x256.rank)
  slices_S8x256_S8x128_0_0 : S8x256.Slices ![0, 0] S8x128
  slices_S262143x128_S4x128_3_0 : S262143x128.Slices ![3, 0] S4x128
  shapeCasts_S8x128_S4x256 : S8x128.ShapeCasts S4x256
  bcast_S1x1024_S4x1024_0_1 : S1x1024.BroadcastsInDim S4x1024 (![0, 1] : Fin 2 → Fin S4x1024.rank)
  slices_S4x1024_S4x256_0_0 : S4x1024.Slices ![0, 0] S4x256
  slices_S4x1024_S4x256_0_256 : S4x1024.Slices ![0, 256] S4x256
  slices_S4x1024_S4x256_0_512 : S4x1024.Slices ![0, 512] S4x256
  slices_S4x1024_S4x256_0_768 : S4x1024.Slices ![0, 768] S4x256
  bcast_S_S4x256 : S_.BroadcastsInDim S4x256 (![] : Fin 0 → Fin S4x256.rank)
  slices_S4x256_S4x128_0_0 : S4x256.Slices ![0, 0] S4x128
  slices_S262143x128_S2x128_1_0 : S262143x128.Slices ![1, 0] S2x128
  shapeCasts_S4x128_S2x256 : S4x128.ShapeCasts S2x256
  bcast_S1x1024_S2x1024_0_1 : S1x1024.BroadcastsInDim S2x1024 (![0, 1] : Fin 2 → Fin S2x1024.rank)
  slices_S2x1024_S2x256_0_0 : S2x1024.Slices ![0, 0] S2x256
  slices_S2x1024_S2x256_0_256 : S2x1024.Slices ![0, 256] S2x256
  slices_S2x1024_S2x256_0_512 : S2x1024.Slices ![0, 512] S2x256
  slices_S2x1024_S2x256_0_768 : S2x1024.Slices ![0, 768] S2x256
  bcast_S_S2x256 : S_.BroadcastsInDim S2x256 (![] : Fin 0 → Fin S2x256.rank)
  slices_S2x256_S2x128_0_0 : S2x256.Slices ![0, 0] S2x128
  slices_S262143x128_S1x128_0_0 : S262143x128.Slices ![0, 0] S1x128
  shapeCasts_S2x128_S1x256 : S2x128.ShapeCasts S1x256
  slices_S1x1024_S1x256_0_0 : S1x1024.Slices ![0, 0] S1x256
  slices_S1x1024_S1x256_0_256 : S1x1024.Slices ![0, 256] S1x256
  slices_S1x1024_S1x256_0_512 : S1x1024.Slices ![0, 512] S1x256
  slices_S1x1024_S1x256_0_768 : S1x1024.Slices ![0, 768] S1x256
  bcast_S_S1x256 : S_.BroadcastsInDim S1x256 (![] : Fin 0 → Fin S1x256.rank)
  slices_S1x256_S1x128_0_0 : S1x256.Slices ![0, 0] S1x128
  concatenates_S1x128_S1x128_S1x256_d1 : Shape.Concatenates [S1x128, S1x128] S1x256 1
  dot_S131072x128_S128x1024_S131072x1024_1_0_0_1_n_n_wf : DotDims.WF S131072x128 S128x1024 S131072x1024 [1] [0] [0] [1] [] []
  dot_S131072x256_S256x1024_S131072x1024_1_0_0_1_n_n_wf : DotDims.WF S131072x256 S256x1024 S131072x1024 [1] [0] [0] [1] [] []
  dot_S65536x128_S128x1024_S65536x1024_1_0_0_1_n_n_wf : DotDims.WF S65536x128 S128x1024 S65536x1024 [1] [0] [0] [1] [] []
  dot_S65536x256_S256x1024_S65536x1024_1_0_0_1_n_n_wf : DotDims.WF S65536x256 S256x1024 S65536x1024 [1] [0] [0] [1] [] []
  dot_S32768x128_S128x1024_S32768x1024_1_0_0_1_n_n_wf : DotDims.WF S32768x128 S128x1024 S32768x1024 [1] [0] [0] [1] [] []
  dot_S32768x256_S256x1024_S32768x1024_1_0_0_1_n_n_wf : DotDims.WF S32768x256 S256x1024 S32768x1024 [1] [0] [0] [1] [] []
  dot_S16384x128_S128x1024_S16384x1024_1_0_0_1_n_n_wf : DotDims.WF S16384x128 S128x1024 S16384x1024 [1] [0] [0] [1] [] []
  dot_S16384x256_S256x1024_S16384x1024_1_0_0_1_n_n_wf : DotDims.WF S16384x256 S256x1024 S16384x1024 [1] [0] [0] [1] [] []
  dot_S8192x128_S128x1024_S8192x1024_1_0_0_1_n_n_wf : DotDims.WF S8192x128 S128x1024 S8192x1024 [1] [0] [0] [1] [] []
  dot_S8192x256_S256x1024_S8192x1024_1_0_0_1_n_n_wf : DotDims.WF S8192x256 S256x1024 S8192x1024 [1] [0] [0] [1] [] []
  dot_S4096x128_S128x1024_S4096x1024_1_0_0_1_n_n_wf : DotDims.WF S4096x128 S128x1024 S4096x1024 [1] [0] [0] [1] [] []
  dot_S4096x256_S256x1024_S4096x1024_1_0_0_1_n_n_wf : DotDims.WF S4096x256 S256x1024 S4096x1024 [1] [0] [0] [1] [] []
  dot_S2048x128_S128x1024_S2048x1024_1_0_0_1_n_n_wf : DotDims.WF S2048x128 S128x1024 S2048x1024 [1] [0] [0] [1] [] []
  dot_S2048x256_S256x1024_S2048x1024_1_0_0_1_n_n_wf : DotDims.WF S2048x256 S256x1024 S2048x1024 [1] [0] [0] [1] [] []
  dot_S1024x128_S128x1024_S1024x1024_1_0_0_1_n_n_wf : DotDims.WF S1024x128 S128x1024 S1024x1024 [1] [0] [0] [1] [] []
  dot_S1024x256_S256x1024_S1024x1024_1_0_0_1_n_n_wf : DotDims.WF S1024x256 S256x1024 S1024x1024 [1] [0] [0] [1] [] []
  dot_S512x128_S128x1024_S512x1024_1_0_0_1_n_n_wf : DotDims.WF S512x128 S128x1024 S512x1024 [1] [0] [0] [1] [] []
  dot_S512x256_S256x1024_S512x1024_1_0_0_1_n_n_wf : DotDims.WF S512x256 S256x1024 S512x1024 [1] [0] [0] [1] [] []
  dot_S256x128_S128x1024_S256x1024_1_0_0_1_n_n_wf : DotDims.WF S256x128 S128x1024 S256x1024 [1] [0] [0] [1] [] []
  dot_S256x256_S256x1024_S256x1024_1_0_0_1_n_n_wf : DotDims.WF S256x256 S256x1024 S256x1024 [1] [0] [0] [1] [] []
  dot_S128x128_S128x1024_S128x1024_1_0_0_1_n_n_wf : DotDims.WF S128x128 S128x1024 S128x1024 [1] [0] [0] [1] [] []
  dot_S128x256_S256x1024_S128x1024_1_0_0_1_n_n_wf : DotDims.WF S128x256 S256x1024 S128x1024 [1] [0] [0] [1] [] []
  dot_S64x128_S128x1024_S64x1024_1_0_0_1_n_n_wf : DotDims.WF S64x128 S128x1024 S64x1024 [1] [0] [0] [1] [] []
  dot_S64x256_S256x1024_S64x1024_1_0_0_1_n_n_wf : DotDims.WF S64x256 S256x1024 S64x1024 [1] [0] [0] [1] [] []
  dot_S32x128_S128x1024_S32x1024_1_0_0_1_n_n_wf : DotDims.WF S32x128 S128x1024 S32x1024 [1] [0] [0] [1] [] []
  dot_S32x256_S256x1024_S32x1024_1_0_0_1_n_n_wf : DotDims.WF S32x256 S256x1024 S32x1024 [1] [0] [0] [1] [] []
  dot_S16x128_S128x1024_S16x1024_1_0_0_1_n_n_wf : DotDims.WF S16x128 S128x1024 S16x1024 [1] [0] [0] [1] [] []
  dot_S16x256_S256x1024_S16x1024_1_0_0_1_n_n_wf : DotDims.WF S16x256 S256x1024 S16x1024 [1] [0] [0] [1] [] []
  dot_S8x128_S128x1024_S8x1024_1_0_0_1_n_n_wf : DotDims.WF S8x128 S128x1024 S8x1024 [1] [0] [0] [1] [] []
  dot_S8x256_S256x1024_S8x1024_1_0_0_1_n_n_wf : DotDims.WF S8x256 S256x1024 S8x1024 [1] [0] [0] [1] [] []
  dot_S4x128_S128x1024_S4x1024_1_0_0_1_n_n_wf : DotDims.WF S4x128 S128x1024 S4x1024 [1] [0] [0] [1] [] []
  dot_S4x256_S256x1024_S4x1024_1_0_0_1_n_n_wf : DotDims.WF S4x256 S256x1024 S4x1024 [1] [0] [0] [1] [] []
  dot_S2x128_S128x1024_S2x1024_1_0_0_1_n_n_wf : DotDims.WF S2x128 S128x1024 S2x1024 [1] [0] [0] [1] [] []
  dot_S2x256_S256x1024_S2x1024_1_0_0_1_n_n_wf : DotDims.WF S2x256 S256x1024 S2x1024 [1] [0] [0] [1] [] []
  dot_S1x128_S128x1024_S1x1024_1_0_0_1_n_n_wf : DotDims.WF S1x128 S128x1024 S1x1024 [1] [0] [0] [1] [] []
  dot_S1x256_S256x1024_S1x1024_1_0_0_1_n_n_wf : DotDims.WF S1x256 S256x1024 S1x1024 [1] [0] [0] [1] [] []

variable [Facts₀]

def dot_S131072x128_S128x1024_S131072x1024_1_0_0_1_n_n : DotDims S131072x128 S128x1024 S131072x1024 where
  lhsContracting := [1]
  rhsContracting := [0]
  lhsNonContracting := [0]
  rhsNonContracting := [1]
  lhsBatch := []
  rhsBatch := []
  wf := dot_S131072x128_S128x1024_S131072x1024_1_0_0_1_n_n_wf
def dot_S131072x256_S256x1024_S131072x1024_1_0_0_1_n_n : DotDims S131072x256 S256x1024 S131072x1024 where
  lhsContracting := [1]
  rhsContracting := [0]
  lhsNonContracting := [0]
  rhsNonContracting := [1]
  lhsBatch := []
  rhsBatch := []
  wf := dot_S131072x256_S256x1024_S131072x1024_1_0_0_1_n_n_wf
def dot_S65536x128_S128x1024_S65536x1024_1_0_0_1_n_n : DotDims S65536x128 S128x1024 S65536x1024 where
  lhsContracting := [1]
  rhsContracting := [0]
  lhsNonContracting := [0]
  rhsNonContracting := [1]
  lhsBatch := []
  rhsBatch := []
  wf := dot_S65536x128_S128x1024_S65536x1024_1_0_0_1_n_n_wf
def dot_S65536x256_S256x1024_S65536x1024_1_0_0_1_n_n : DotDims S65536x256 S256x1024 S65536x1024 where
  lhsContracting := [1]
  rhsContracting := [0]
  lhsNonContracting := [0]
  rhsNonContracting := [1]
  lhsBatch := []
  rhsBatch := []
  wf := dot_S65536x256_S256x1024_S65536x1024_1_0_0_1_n_n_wf
def dot_S32768x128_S128x1024_S32768x1024_1_0_0_1_n_n : DotDims S32768x128 S128x1024 S32768x1024 where
  lhsContracting := [1]
  rhsContracting := [0]
  lhsNonContracting := [0]
  rhsNonContracting := [1]
  lhsBatch := []
  rhsBatch := []
  wf := dot_S32768x128_S128x1024_S32768x1024_1_0_0_1_n_n_wf
def dot_S32768x256_S256x1024_S32768x1024_1_0_0_1_n_n : DotDims S32768x256 S256x1024 S32768x1024 where
  lhsContracting := [1]
  rhsContracting := [0]
  lhsNonContracting := [0]
  rhsNonContracting := [1]
  lhsBatch := []
  rhsBatch := []
  wf := dot_S32768x256_S256x1024_S32768x1024_1_0_0_1_n_n_wf
def dot_S16384x128_S128x1024_S16384x1024_1_0_0_1_n_n : DotDims S16384x128 S128x1024 S16384x1024 where
  lhsContracting := [1]
  rhsContracting := [0]
  lhsNonContracting := [0]
  rhsNonContracting := [1]
  lhsBatch := []
  rhsBatch := []
  wf := dot_S16384x128_S128x1024_S16384x1024_1_0_0_1_n_n_wf
def dot_S16384x256_S256x1024_S16384x1024_1_0_0_1_n_n : DotDims S16384x256 S256x1024 S16384x1024 where
  lhsContracting := [1]
  rhsContracting := [0]
  lhsNonContracting := [0]
  rhsNonContracting := [1]
  lhsBatch := []
  rhsBatch := []
  wf := dot_S16384x256_S256x1024_S16384x1024_1_0_0_1_n_n_wf
def dot_S8192x128_S128x1024_S8192x1024_1_0_0_1_n_n : DotDims S8192x128 S128x1024 S8192x1024 where
  lhsContracting := [1]
  rhsContracting := [0]
  lhsNonContracting := [0]
  rhsNonContracting := [1]
  lhsBatch := []
  rhsBatch := []
  wf := dot_S8192x128_S128x1024_S8192x1024_1_0_0_1_n_n_wf
def dot_S8192x256_S256x1024_S8192x1024_1_0_0_1_n_n : DotDims S8192x256 S256x1024 S8192x1024 where
  lhsContracting := [1]
  rhsContracting := [0]
  lhsNonContracting := [0]
  rhsNonContracting := [1]
  lhsBatch := []
  rhsBatch := []
  wf := dot_S8192x256_S256x1024_S8192x1024_1_0_0_1_n_n_wf
def dot_S4096x128_S128x1024_S4096x1024_1_0_0_1_n_n : DotDims S4096x128 S128x1024 S4096x1024 where
  lhsContracting := [1]
  rhsContracting := [0]
  lhsNonContracting := [0]
  rhsNonContracting := [1]
  lhsBatch := []
  rhsBatch := []
  wf := dot_S4096x128_S128x1024_S4096x1024_1_0_0_1_n_n_wf
def dot_S4096x256_S256x1024_S4096x1024_1_0_0_1_n_n : DotDims S4096x256 S256x1024 S4096x1024 where
  lhsContracting := [1]
  rhsContracting := [0]
  lhsNonContracting := [0]
  rhsNonContracting := [1]
  lhsBatch := []
  rhsBatch := []
  wf := dot_S4096x256_S256x1024_S4096x1024_1_0_0_1_n_n_wf
def dot_S2048x128_S128x1024_S2048x1024_1_0_0_1_n_n : DotDims S2048x128 S128x1024 S2048x1024 where
  lhsContracting := [1]
  rhsContracting := [0]
  lhsNonContracting := [0]
  rhsNonContracting := [1]
  lhsBatch := []
  rhsBatch := []
  wf := dot_S2048x128_S128x1024_S2048x1024_1_0_0_1_n_n_wf
def dot_S2048x256_S256x1024_S2048x1024_1_0_0_1_n_n : DotDims S2048x256 S256x1024 S2048x1024 where
  lhsContracting := [1]
  rhsContracting := [0]
  lhsNonContracting := [0]
  rhsNonContracting := [1]
  lhsBatch := []
  rhsBatch := []
  wf := dot_S2048x256_S256x1024_S2048x1024_1_0_0_1_n_n_wf
def dot_S1024x128_S128x1024_S1024x1024_1_0_0_1_n_n : DotDims S1024x128 S128x1024 S1024x1024 where
  lhsContracting := [1]
  rhsContracting := [0]
  lhsNonContracting := [0]
  rhsNonContracting := [1]
  lhsBatch := []
  rhsBatch := []
  wf := dot_S1024x128_S128x1024_S1024x1024_1_0_0_1_n_n_wf
def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf
def dot_S512x128_S128x1024_S512x1024_1_0_0_1_n_n : DotDims S512x128 S128x1024 S512x1024 where
  lhsContracting := [1]
  rhsContracting := [0]
  lhsNonContracting := [0]
  rhsNonContracting := [1]
  lhsBatch := []
  rhsBatch := []
  wf := dot_S512x128_S128x1024_S512x1024_1_0_0_1_n_n_wf
def dot_S512x256_S256x1024_S512x1024_1_0_0_1_n_n : DotDims S512x256 S256x1024 S512x1024 where
  lhsContracting := [1]
  rhsContracting := [0]
  lhsNonContracting := [0]
  rhsNonContracting := [1]
  lhsBatch := []
  rhsBatch := []
  wf := dot_S512x256_S256x1024_S512x1024_1_0_0_1_n_n_wf
def dot_S256x128_S128x1024_S256x1024_1_0_0_1_n_n : DotDims S256x128 S128x1024 S256x1024 where
  lhsContracting := [1]
  rhsContracting := [0]
  lhsNonContracting := [0]
  rhsNonContracting := [1]
  lhsBatch := []
  rhsBatch := []
  wf := dot_S256x128_S128x1024_S256x1024_1_0_0_1_n_n_wf
def dot_S256x256_S256x1024_S256x1024_1_0_0_1_n_n : DotDims S256x256 S256x1024 S256x1024 where
  lhsContracting := [1]
  rhsContracting := [0]
  lhsNonContracting := [0]
  rhsNonContracting := [1]
  lhsBatch := []
  rhsBatch := []
  wf := dot_S256x256_S256x1024_S256x1024_1_0_0_1_n_n_wf
def dot_S128x128_S128x1024_S128x1024_1_0_0_1_n_n : DotDims S128x128 S128x1024 S128x1024 where
  lhsContracting := [1]
  rhsContracting := [0]
  lhsNonContracting := [0]
  rhsNonContracting := [1]
  lhsBatch := []
  rhsBatch := []
  wf := dot_S128x128_S128x1024_S128x1024_1_0_0_1_n_n_wf
def dot_S128x256_S256x1024_S128x1024_1_0_0_1_n_n : DotDims S128x256 S256x1024 S128x1024 where
  lhsContracting := [1]
  rhsContracting := [0]
  lhsNonContracting := [0]
  rhsNonContracting := [1]
  lhsBatch := []
  rhsBatch := []
  wf := dot_S128x256_S256x1024_S128x1024_1_0_0_1_n_n_wf
def dot_S64x128_S128x1024_S64x1024_1_0_0_1_n_n : DotDims S64x128 S128x1024 S64x1024 where
  lhsContracting := [1]
  rhsContracting := [0]
  lhsNonContracting := [0]
  rhsNonContracting := [1]
  lhsBatch := []
  rhsBatch := []
  wf := dot_S64x128_S128x1024_S64x1024_1_0_0_1_n_n_wf
def dot_S64x256_S256x1024_S64x1024_1_0_0_1_n_n : DotDims S64x256 S256x1024 S64x1024 where
  lhsContracting := [1]
  rhsContracting := [0]
  lhsNonContracting := [0]
  rhsNonContracting := [1]
  lhsBatch := []
  rhsBatch := []
  wf := dot_S64x256_S256x1024_S64x1024_1_0_0_1_n_n_wf
def dot_S32x128_S128x1024_S32x1024_1_0_0_1_n_n : DotDims S32x128 S128x1024 S32x1024 where
  lhsContracting := [1]
  rhsContracting := [0]
  lhsNonContracting := [0]
  rhsNonContracting := [1]
  lhsBatch := []
  rhsBatch := []
  wf := dot_S32x128_S128x1024_S32x1024_1_0_0_1_n_n_wf
def dot_S32x256_S256x1024_S32x1024_1_0_0_1_n_n : DotDims S32x256 S256x1024 S32x1024 where
  lhsContracting := [1]
  rhsContracting := [0]
  lhsNonContracting := [0]
  rhsNonContracting := [1]
  lhsBatch := []
  rhsBatch := []
  wf := dot_S32x256_S256x1024_S32x1024_1_0_0_1_n_n_wf
def dot_S16x128_S128x1024_S16x1024_1_0_0_1_n_n : DotDims S16x128 S128x1024 S16x1024 where
  lhsContracting := [1]
  rhsContracting := [0]
  lhsNonContracting := [0]
  rhsNonContracting := [1]
  lhsBatch := []
  rhsBatch := []
  wf := dot_S16x128_S128x1024_S16x1024_1_0_0_1_n_n_wf
def dot_S16x256_S256x1024_S16x1024_1_0_0_1_n_n : DotDims S16x256 S256x1024 S16x1024 where
  lhsContracting := [1]
  rhsContracting := [0]
  lhsNonContracting := [0]
  rhsNonContracting := [1]
  lhsBatch := []
  rhsBatch := []
  wf := dot_S16x256_S256x1024_S16x1024_1_0_0_1_n_n_wf
def dot_S8x128_S128x1024_S8x1024_1_0_0_1_n_n : DotDims S8x128 S128x1024 S8x1024 where
  lhsContracting := [1]
  rhsContracting := [0]
  lhsNonContracting := [0]
  rhsNonContracting := [1]
  lhsBatch := []
  rhsBatch := []
  wf := dot_S8x128_S128x1024_S8x1024_1_0_0_1_n_n_wf
def dot_S8x256_S256x1024_S8x1024_1_0_0_1_n_n : DotDims S8x256 S256x1024 S8x1024 where
  lhsContracting := [1]
  rhsContracting := [0]
  lhsNonContracting := [0]
  rhsNonContracting := [1]
  lhsBatch := []
  rhsBatch := []
  wf := dot_S8x256_S256x1024_S8x1024_1_0_0_1_n_n_wf
def dot_S4x128_S128x1024_S4x1024_1_0_0_1_n_n : DotDims S4x128 S128x1024 S4x1024 where
  lhsContracting := [1]
  rhsContracting := [0]
  lhsNonContracting := [0]
  rhsNonContracting := [1]
  lhsBatch := []
  rhsBatch := []
  wf := dot_S4x128_S128x1024_S4x1024_1_0_0_1_n_n_wf
def dot_S4x256_S256x1024_S4x1024_1_0_0_1_n_n : DotDims S4x256 S256x1024 S4x1024 where
  lhsContracting := [1]
  rhsContracting := [0]
  lhsNonContracting := [0]
  rhsNonContracting := [1]
  lhsBatch := []
  rhsBatch := []
  wf := dot_S4x256_S256x1024_S4x1024_1_0_0_1_n_n_wf
def dot_S2x128_S128x1024_S2x1024_1_0_0_1_n_n : DotDims S2x128 S128x1024 S2x1024 where
  lhsContracting := [1]
  rhsContracting := [0]
  lhsNonContracting := [0]
  rhsNonContracting := [1]
  lhsBatch := []
  rhsBatch := []
  wf := dot_S2x128_S128x1024_S2x1024_1_0_0_1_n_n_wf
def dot_S2x256_S256x1024_S2x1024_1_0_0_1_n_n : DotDims S2x256 S256x1024 S2x1024 where
  lhsContracting := [1]
  rhsContracting := [0]
  lhsNonContracting := [0]
  rhsNonContracting := [1]
  lhsBatch := []
  rhsBatch := []
  wf := dot_S2x256_S256x1024_S2x1024_1_0_0_1_n_n_wf
def dot_S1x128_S128x1024_S1x1024_1_0_0_1_n_n : DotDims S1x128 S128x1024 S1x1024 where
  lhsContracting := [1]
  rhsContracting := [0]
  lhsNonContracting := [0]
  rhsNonContracting := [1]
  lhsBatch := []
  rhsBatch := []
  wf := dot_S1x128_S128x1024_S1x1024_1_0_0_1_n_n_wf
def dot_S1x256_S256x1024_S1x1024_1_0_0_1_n_n : DotDims S1x256 S256x1024 S1x1024 where
  lhsContracting := [1]
  rhsContracting := [0]
  lhsNonContracting := [0]
  rhsNonContracting := [1]
  lhsBatch := []
  rhsBatch := []
  wf := dot_S1x256_S256x1024_S1x1024_1_0_0_1_n_n_wf

class Facts : Prop extends Facts₀ where

variable [Facts]
-- ==== Proof.KB.Lines.lean ====
/-
  The host lines around the fused region.

  The program is: 32 host lines (slices of the weights to the kept gate columns, their transposes, the eight level
  slices of the embeddings), the region, then 499 host lines (the ten shallow levels of the tree and the final
  concatenation), cut by the printer into nine stretches. Every buffer is an HBM reference numbered in program order:
  the five arguments are numbers 0–4, the lines before the region write numbers 5–36, the fourteen arrays the region
  stages are among numbers 10–38, and every line after the region writes a number from 39 on. So no line before the
  region writes an argument, and no line after it writes an argument or an array of the region: the region finds the
  arguments as launched, and the lines after it leave them, and the region's arrays, alone.
-/
import proofs.«177989_j29394756173864_2_alg».proof.Proof.Gen.Kernel.Launch
import Idealize.ShloMosaic.Lib.Pipeline.FrameBody
import Idealize.ShloMosaic.Lib.Pipeline.FrameSuffix

set_option maxRecDepth 16384

noncomputable section

namespace Cert.Kernel.Fused

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-! ## The stretches -/

/-- The one stretch of lines before the region. -/
abbrev linesBefore : List (List (HloOp τ sig (Elt F))) := [main_part0_ops0]
/-- The nine stretches of lines after it. -/
abbrev linesAfter : List (List (HloOp τ sig (Elt F))) :=
  [main_part0_ops1, main_part1_ops0, main_part2_ops0, main_part3_ops0, main_part4_ops0, main_part5_ops0, main_part6_ops0, main_part7_ops0, main_part8_ops0]

/-- Core `c`'s buffer contents when the region is entered: after the lines before it. -/
abbrev V0 (c : Dev nD) : Valuation τ sig (Elt F) := StableHlo.after (List.flatten linesBefore) (fun b => m (c, b))
/-- The same read at a TensorCore reference. -/
abbrev V (c : Dev nD) (b : Ref sig .tc) : Buf (Elt F) ((c : Thread nD τ).loc b) := V0 m c (Proc.devRef .tc b)

/-! ## No line allocates -/

theorem before_fresh : (main_part0_ops0 : List (HloOp τ sig (Elt F))).Forall fun op => op.fresh = ∅ := by
  simp only [List.Forall]; repeat' constructor
theorem main_part0_ops1_fresh : (main_part0_ops1 : List (HloOp τ sig (Elt F))).Forall fun op => op.fresh = ∅ := by
  simp only [List.Forall]; repeat' constructor
theorem main_part1_ops0_fresh : (main_part1_ops0 : List (HloOp τ sig (Elt F))).Forall fun op => op.fresh = ∅ := by
  simp only [List.Forall]; repeat' constructor
theorem main_part2_ops0_fresh : (main_part2_ops0 : List (HloOp τ sig (Elt F))).Forall fun op => op.fresh = ∅ := by
  simp only [List.Forall]; repeat' constructor
theorem main_part3_ops0_fresh : (main_part3_ops0 : List (HloOp τ sig (Elt F))).Forall fun op => op.fresh = ∅ := by
  simp only [List.Forall]; repeat' constructor
theorem main_part4_ops0_fresh : (main_part4_ops0 : List (HloOp τ sig (Elt F))).Forall fun op => op.fresh = ∅ := by
  simp only [List.Forall]; repeat' constructor
theorem main_part5_ops0_fresh : (main_part5_ops0 : List (HloOp τ sig (Elt F))).Forall fun op => op.fresh = ∅ := by
  simp only [List.Forall]; repeat' constructor
theorem main_part6_ops0_fresh : (main_part6_ops0 : List (HloOp τ sig (Elt F))).Forall fun op => op.fresh = ∅ := by
  simp only [List.Forall]; repeat' constructor
theorem main_part7_ops0_fresh : (main_part7_ops0 : List (HloOp τ sig (Elt F))).Forall fun op => op.fresh = ∅ := by
  simp only [List.Forall]; repeat' constructor
theorem main_part8_ops0_fresh : (main_part8_ops0 : List (HloOp τ sig (Elt F))).Forall fun op => op.fresh = ∅ := by
  simp only [List.Forall]; repeat' constructor

/-! ## Which buffers the lines write -/

/-- Every line of the stretch writes only buffers numbered `k` or higher. -/
def WritesFrom (k : ℕ) (ops : List (HloOp τ sig (Elt F))) : Prop :=
  ops.Forall fun op => ∀ r : Ref sig .tc, Proc.devRef (τ := τ) .tc r ∈ op.writes → k ≤ r.idx.val

set_option maxHeartbeats 4000000 in
theorem before_from : WritesFrom 5 (main_part0_ops0 : List (HloOp τ sig (Elt F))) := by
  unfold WritesFrom
  simp only [main_part0_ops0, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals (intro r hr; cases Proc.devRef_injective _ hr; decide)
set_option maxHeartbeats 4000000 in
theorem main_part0_ops1_from : WritesFrom 39 (main_part0_ops1 : List (HloOp τ sig (Elt F))) := by
  unfold WritesFrom
  simp only [main_part0_ops1, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals (intro r hr; cases Proc.devRef_injective _ hr; decide)
set_option maxHeartbeats 4000000 in
theorem main_part1_ops0_from : WritesFrom 39 (main_part1_ops0 : List (HloOp τ sig (Elt F))) := by
  unfold WritesFrom
  simp only [main_part1_ops0, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals (intro r hr; cases Proc.devRef_injective _ hr; decide)
set_option maxHeartbeats 4000000 in
theorem main_part2_ops0_from : WritesFrom 39 (main_part2_ops0 : List (HloOp τ sig (Elt F))) := by
  unfold WritesFrom
  simp only [main_part2_ops0, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals (intro r hr; cases Proc.devRef_injective _ hr; decide)
set_option maxHeartbeats 4000000 in
theorem main_part3_ops0_from : WritesFrom 39 (main_part3_ops0 : List (HloOp τ sig (Elt F))) := by
  unfold WritesFrom
  simp only [main_part3_ops0, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals (intro r hr; cases Proc.devRef_injective _ hr; decide)
set_option maxHeartbeats 4000000 in
theorem main_part4_ops0_from : WritesFrom 39 (main_part4_ops0 : List (HloOp τ sig (Elt F))) := by
  unfold WritesFrom
  simp only [main_part4_ops0, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals (intro r hr; cases Proc.devRef_injective _ hr; decide)
set_option maxHeartbeats 4000000 in
theorem main_part5_ops0_from : WritesFrom 39 (main_part5_ops0 : List (HloOp τ sig (Elt F))) := by
  unfold WritesFrom
  simp only [main_part5_ops0, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals (intro r hr; cases Proc.devRef_injective _ hr; decide)
set_option maxHeartbeats 4000000 in
theorem main_part6_ops0_from : WritesFrom 39 (main_part6_ops0 : List (HloOp τ sig (Elt F))) := by
  unfold WritesFrom
  simp only [main_part6_ops0, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals (intro r hr; cases Proc.devRef_injective _ hr; decide)
set_option maxHeartbeats 4000000 in
theorem main_part7_ops0_from : WritesFrom 39 (main_part7_ops0 : List (HloOp τ sig (Elt F))) := by
  unfold WritesFrom
  simp only [main_part7_ops0, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals (intro r hr; cases Proc.devRef_injective _ hr; decide)
set_option maxHeartbeats 4000000 in
theorem main_part8_ops0_from : WritesFrom 39 (main_part8_ops0 : List (HloOp τ sig (Elt F))) := by
  unfold WritesFrom
  simp only [main_part8_ops0, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals (intro r hr; cases Proc.devRef_injective _ hr; decide)

/-- Every line after the region writes only buffers numbered 39 or higher. -/
theorem after_from : ∀ ops ∈ (linesAfter : List (List (HloOp τ sig (Elt F)))), ∀ op ∈ ops,
    ∀ r : Ref sig .tc, Proc.devRef (τ := τ) .tc r ∈ op.writes → 39 ≤ r.idx.val := by
  intro ops hops op hop
  simp only [List.mem_cons, List.mem_nil_iff, or_false] at hops
  rcases hops with rfl | rfl | rfl | rfl | rfl | rfl | rfl | rfl | rfl
  · exact (List.forall_iff_forall_mem.mp main_part0_ops1_from) op hop
  · exact (List.forall_iff_forall_mem.mp main_part1_ops0_from) op hop
  · exact (List.forall_iff_forall_mem.mp main_part2_ops0_from) op hop
  · exact (List.forall_iff_forall_mem.mp main_part3_ops0_from) op hop
  · exact (List.forall_iff_forall_mem.mp main_part4_ops0_from) op hop
  · exact (List.forall_iff_forall_mem.mp main_part5_ops0_from) op hop
  · exact (List.forall_iff_forall_mem.mp main_part6_ops0_from) op hop
  · exact (List.forall_iff_forall_mem.mp main_part7_ops0_from) op hop
  · exact (List.forall_iff_forall_mem.mp main_part8_ops0_from) op hop

/-- The region's fourteen arrays are numbered below 39. -/
theorem arr_idx_lt : ∀ w : Fin 14, (Pipeline.arrRef spec0 w).idx.val < 39 := by decide

/-! ## @main around the region -/

/-- @main is the lines before the region, the region, the lines after it: it reduces to the region continued by the
    later lines, at the contents the earlier lines leave. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((linesAfter : List (List (HloOp τ sig (Elt F)))).map StableHlo.seq)) :=
  Pipeline.hmain_around cfgs 0 defs₀ 𝒱₀ m main linesBefore linesAfter (by simp only [List.Forall]; exact main_part0_ops0_sub)
    (by simp only [List.Forall]; exact before_fresh) main_chain_windows

/-- The lines after the region touch the region's arrays and the buffers that bypass it only. -/
theorem after_sub : ∀ ops ∈ (linesAfter : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl | rfl | rfl | rfl | rfl
  · exact Pipeline.sub_ucRefs op ((List.forall_iff_forall_mem.mp main_part0_ops1_sub) op hop)
  · exact Pipeline.sub_ucRefs op ((List.forall_iff_forall_mem.mp main_part1_ops0_sub) op hop)
  · exact Pipeline.sub_ucRefs op ((List.forall_iff_forall_mem.mp main_part2_ops0_sub) op hop)
  · exact Pipeline.sub_ucRefs op ((List.forall_iff_forall_mem.mp main_part3_ops0_sub) op hop)
  · exact Pipeline.sub_ucRefs op ((List.forall_iff_forall_mem.mp main_part4_ops0_sub) op hop)
  · exact Pipeline.sub_ucRefs op ((List.forall_iff_forall_mem.mp main_part5_ops0_sub) op hop)
  · exact Pipeline.sub_ucRefs op ((List.forall_iff_forall_mem.mp main_part6_ops0_sub) op hop)
  · exact Pipeline.sub_ucRefs op ((List.forall_iff_forall_mem.mp main_part7_ops0_sub) op hop)
  · exact Pipeline.sub_ucRefs op ((List.forall_iff_forall_mem.mp main_part8_ops0_sub) op hop)

/-- They allocate nothing. -/
theorem after_fresh : ∀ ops ∈ (linesAfter : List (List (HloOp τ sig (Elt F)))), ∀ op ∈ ops, op.fresh = ∅ := by
  intro ops hops op hop
  simp only [List.mem_cons, List.mem_nil_iff, or_false] at hops
  rcases hops with rfl | rfl | rfl | rfl | rfl | rfl | rfl | rfl | rfl
  · exact (List.forall_iff_forall_mem.mp main_part0_ops1_fresh) op hop
  · exact (List.forall_iff_forall_mem.mp main_part1_ops0_fresh) op hop
  · exact (List.forall_iff_forall_mem.mp main_part2_ops0_fresh) op hop
  · exact (List.forall_iff_forall_mem.mp main_part3_ops0_fresh) op hop
  · exact (List.forall_iff_forall_mem.mp main_part4_ops0_fresh) op hop
  · exact (List.forall_iff_forall_mem.mp main_part5_ops0_fresh) op hop
  · exact (List.forall_iff_forall_mem.mp main_part6_ops0_fresh) op hop
  · exact (List.forall_iff_forall_mem.mp main_part7_ops0_fresh) op hop
  · exact (List.forall_iff_forall_mem.mp main_part8_ops0_fresh) op hop

/-- And write no array of the region: an array is numbered below 39, what they write is not. -/
theorem after_keeps : ∀ ops ∈ (linesAfter : List (List (HloOp τ sig (Elt F)))), ∀ op ∈ ops,
    ∀ w, Proc.devRef .tc (Pipeline.arrRef spec0 w) ∉ op.writes :=
  fun ops hops op hop w hw => absurd (after_from ops hops op hop _ hw) (Nat.not_le.mpr (arr_idx_lt w))

/-! ## The arguments around the region -/

/-- A buffer numbered below 5 (an argument) is as launched when the region is entered. -/
theorem V_of_lt (c : Dev nD) (r : Ref sig .tc) (hr : r.idx.val < 5) : V m c r = m ((c : Thread nD τ).loc r) :=
  StableHlo.after_of_forall_not_mem (b := Proc.devRef .tc r) _ _ (fun op hop hw => by
    simp only [List.flatten_cons, List.flatten_nil, List.append_nil] at hop
    exact absurd ((List.forall_iff_forall_mem.mp before_from) op hop r hw) (Nat.not_le.mpr hr))

/-- A buffer numbered below 39 that is no array of the region holds, after the lines that follow the region, what
    it held when the region was entered. -/
theorem tail_of_lt (dats : (p : Fin 1) → (c : Dev nD) → Dat τ (Elt F) Unit ℕ (UR sig nD τ) ℕ (cfgs p) c) (c : Dev nD)
    (r : Ref sig .tc) (hr : r.idx.val < 39) (hne : ∀ w, Pipeline.arrRef spec0 w ≠ r) :
    Pipeline.afterTail₀ cfgs dats 0 (V0 m) linesAfter c r = V m c r := by
  unfold Pipeline.afterTail₀
  rw [StableHlo.after_of_forall_not_mem (b := Proc.devRef .tc r) _ _ (fun op hop hw => by
      obtain ⟨ops, hops, hop'⟩ := List.mem_flatten.mp hop
      exact absurd (after_from ops hops op hop' r hw) (Nat.not_le.mpr hr)),
    Pipeline.withArrays_of_ne _ c (V0 m c) _ r hne]

end Cert.Kernel.Fused

end
-- ==== Proof.KB.Body.lean ====
/-
  The body of the fused levels, run once on whole staging buffers.

  One grid point handles one chunk of 1024 leaf-level rows and the seven levels above them: the body loads the eight
  row blocks x0 … x7 (1024, 512, …, 8 rows of the embeddings) and the four weight blocks, chains eight cell updates
  in registers, and stores two 8 × 128 blocks: the hidden state and the cell state of the chunk's eight nodes at the
  shallowest fused level. Here: what those two stores hold as pure functions of the twelve loads (the generated
  payload names, composed in program order), and the body's triple: started holding the twelve input buffers at
  given contents and the two output buffers at anything, it ends holding the inputs as they were and the outputs at
  those two functions.
-/
import proofs.«177989_j29394756173864_2_alg».proof.Proof.Gen.Kernel.Launch
import proofs.«177989_j29394756173864_2_alg».proof.Proof.Gen.Kernel.Skeleton
import proofs.«177989_j29394756173864_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fused

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two stored values as functions of the twelve loads -/

section Values

variable (x0 : Vec F S1024x128 .f32) (x1 : Vec F S512x128 .f32) (x2 : Vec F S256x128 .f32) (x3 : Vec F S128x128 .f32)
  (x4 : Vec F S64x128 .f32) (x5 : Vec F S32x128 .f32) (x6 : Vec F S16x128 .f32) (x7 : Vec F S8x128 .f32)
  (wih : Vec F S128x512 .f32) (whh : Vec F S256x512 .f32) (bih : Vec F S1x512 .f32) (bhh : Vec F S1x512 .f32)

/-- The hidden state of the chunk's eight nodes at the shallowest fused level: sigmoid of the output gate times tanh
    of the new cell state, after eight chained cell updates. -/
def hidden8 : FVec F S8x128 .f32 :=
  have v1 := k0_pay3 wih
  have v3 := k0_pay4 whh
  have v5 := k0_pay5 bih
  have v7 := k0_pay6 bhh
  have v34 := k0_pay9 wih whh bih bhh x0
  have v39 := k0_pay10 wih whh bih bhh x0 x1
  have v40 := k0_pay11 bih
  have v84 := k0_pay16 v1 v3 v5 v7 v34 v39 v40 x2
  have v91 := k0_pay17 v1 v3 v5 v7 v34 v39 v40 x2 x3
  have v92 := k0_pay18 v7
  have v134 := k0_pay23 v1 v3 v5 v7 v84 v91 v92 x4
  have v143 := k0_pay24 v1 v3 v5 v7 v84 v91 v92 x4 x5
  have v144 := k0_pay25 v1 v3 v5 v7 v84 v91 v92 x4 x5
  have v184 := k0_pay29 v1 v3 v5 v7 v134 v143 v144 x6
  have v193 := k0_pay30 v1 v3 v5 v7 v134 v143 v144 x6 x7
  have v194 := k0_pay31 v1 v3 v5 v7 v134 v143 v144 x6 x7
  have v195 := k0_pay32 v1 v3 v5 v7 v134 v143 v144 x6 x7
  have v196 := k0_pay33 v1 v3 v5 v7 v134 v143 v144 x6 x7
  k0_pay2 v184 v193 v194 v195 v196

/-- The cell state of the same eight nodes: sigmoid of the forget gate times the first child's cell state plus sigmoid
    of the input gate times tanh of the candidate. -/
def cell8 : FVec F S8x128 .f32 :=
  have v1 := k0_pay3 wih
  have v3 := k0_pay4 whh
  have v5 := k0_pay5 bih
  have v7 := k0_pay6 bhh
  have v34 := k0_pay9 wih whh bih bhh x0
  have v39 := k0_pay10 wih whh bih bhh x0 x1
  have v40 := k0_pay11 bih
  have v84 := k0_pay16 v1 v3 v5 v7 v34 v39 v40 x2
  have v91 := k0_pay17 v1 v3 v5 v7 v34 v39 v40 x2 x3
  have v92 := k0_pay18 v7
  have v134 := k0_pay23 v1 v3 v5 v7 v84 v91 v92 x4
  have v143 := k0_pay24 v1 v3 v5 v7 v84 v91 v92 x4 x5
  have v144 := k0_pay25 v1 v3 v5 v7 v84 v91 v92 x4 x5
  have v184 := k0_pay29 v1 v3 v5 v7 v134 v143 v144 x6
  have v194 := k0_pay31 v1 v3 v5 v7 v134 v143 v144 x6 x7
  have v195 := k0_pay32 v1 v3 v5 v7 v134 v143 v144 x6 x7
  have v196 := k0_pay33 v1 v3 v5 v7 v134 v143 v144 x6 x7
  k0_pay1 v184 v194 v195 v196

/-- The one rectangle each output store writes: the whole 8 × 128 buffer. -/
abbrev whole8 : Rect S8x128 := Rect.unit (s := S8x128) ![0, 0] S8x128.size inb_S8x128_S8x128_0_0

/-- The hidden-state buffer after the body: its one store, read back. Each input enters as the body loads it,
    through the whole rectangle of its buffer (which reads the buffer's contents). -/
def hiddenBuf : Vec F S8x128 .f32 :=
  View.canon [⟨whole8, hidden8
    (View.ld x0 (Rect.unit (s := S1024x128) ![0, 0] S1024x128.size inb_S1024x128_S1024x128_0_0))
    (View.ld x1 (Rect.unit (s := S512x128) ![0, 0] S512x128.size inb_S512x128_S512x128_0_0))
    (View.ld x2 (Rect.unit (s := S256x128) ![0, 0] S256x128.size inb_S256x128_S256x128_0_0))
    (View.ld x3 (Rect.unit (s := S128x128) ![0, 0] S128x128.size inb_S128x128_S128x128_0_0))
    (View.ld x4 (Rect.unit (s := S64x128) ![0, 0] S64x128.size inb_S64x128_S64x128_0_0))
    (View.ld x5 (Rect.unit (s := S32x128) ![0, 0] S32x128.size inb_S32x128_S32x128_0_0))
    (View.ld x6 (Rect.unit (s := S16x128) ![0, 0] S16x128.size inb_S16x128_S16x128_0_0))
    (View.ld x7 (Rect.unit (s := S8x128) ![0, 0] S8x128.size inb_S8x128_S8x128_0_0))
    (View.ld wih (Rect.unit (s := S128x512) ![0, 0] S128x512.size inb_S128x512_S128x512_0_0))
    (View.ld whh (Rect.unit (s := S256x512) ![0, 0] S256x512.size inb_S256x512_S256x512_0_0))
    (View.ld bih (Rect.unit (s := S1x512) ![0, 0] S1x512.size inb_S1x512_S1x512_0_0))
    (View.ld bhh (Rect.unit (s := S1x512) ![0, 0] S1x512.size inb_S1x512_S1x512_0_0))⟩]

/-- The cell-state buffer after the body: its one store, read back. -/
def cellBuf : Vec F S8x128 .f32 :=
  View.canon [⟨whole8, cell8
    (View.ld x0 (Rect.unit (s := S1024x128) ![0, 0] S1024x128.size inb_S1024x128_S1024x128_0_0))
    (View.ld x1 (Rect.unit (s := S512x128) ![0, 0] S512x128.size inb_S512x128_S512x128_0_0))
    (View.ld x2 (Rect.unit (s := S256x128) ![0, 0] S256x128.size inb_S256x128_S256x128_0_0))
    (View.ld x3 (Rect.unit (s := S128x128) ![0, 0] S128x128.size inb_S128x128_S128x128_0_0))
    (View.ld x4 (Rect.unit (s := S64x128) ![0, 0] S64x128.size inb_S64x128_S64x128_0_0))
    (View.ld x5 (Rect.unit (s := S32x128) ![0, 0] S32x128.size inb_S32x128_S32x128_0_0))
    (View.ld x6 (Rect.unit (s := S16x128) ![0, 0] S16x128.size inb_S16x128_S16x128_0_0))
    (View.ld x7 (Rect.unit (s := S8x128) ![0, 0] S8x128.size inb_S8x128_S8x128_0_0))
    (View.ld wih (Rect.unit (s := S128x512) ![0, 0] S128x512.size inb_S128x512_S128x512_0_0))
    (View.ld whh (Rect.unit (s := S256x512) ![0, 0] S256x512.size inb_S256x512_S256x512_0_0))
    (View.ld bih (Rect.unit (s := S1x512) ![0, 0] S1x512.size inb_S1x512_S1x512_0_0))
    (View.ld bhh (Rect.unit (s := S1x512) ![0, 0] S1x512.size inb_S1x512_S1x512_0_0))⟩]

end Values

/-- One store of the whole buffer covers it. -/
theorem whole8_covers (p0 : Vec F S8x128 .f32) (y : S8x128.Idx) :
    ∃ pc ∈ ([⟨whole8, p0⟩] : List (View.Piece (Elt F) S8x128 .f32)), y ∈ pc.1.set :=
  View.cover_of_tiled [⟨whole8, p0⟩] S8x128.size (by rfl) y

/-! ## The body's triple -/

set_option maxHeartbeats 8000000 in
/-- The body on whole staging buffers: the twelve inputs at given contents, the two outputs at anything; it runs to the
    continuation holding the inputs as they were, the hidden-state buffer at `hiddenBuf` and the cell-state buffer at
    `cellBuf` of the inputs. (The body also loads each output buffer once before storing into it; the loaded value is
    not used.) -/
theorem sound_kernel (c : Dev nD) (E : Set ℕ) (i : grid0.Coords)
    (arg1 : Memref sig .tc .vmem S1024x128 .f32) (harg1 : arg1.IsWhole) (arg2 : Memref sig .tc .vmem S512x128 .f32) (harg2 : arg2.IsWhole)
    (arg3 : Memref sig .tc .vmem S256x128 .f32) (harg3 : arg3.IsWhole) (arg4 : Memref sig .tc .vmem S128x128 .f32) (harg4 : arg4.IsWhole)
    (arg5 : Memref sig .tc .vmem S64x128 .f32) (harg5 : arg5.IsWhole) (arg6 : Memref sig .tc .vmem S32x128 .f32) (harg6 : arg6.IsWhole)
    (arg7 : Memref sig .tc .vmem S16x128 .f32) (harg7 : arg7.IsWhole) (arg8 : Memref sig .tc .vmem S8x128 .f32) (harg8 : arg8.IsWhole)
    (arg9 : Memref sig .tc .vmem S128x512 .f32) (harg9 : arg9.IsWhole) (arg10 : Memref sig .tc .vmem S256x512 .f32) (harg10 : arg10.IsWhole)
    (arg11 : Memref sig .tc .vmem S1x512 .f32) (harg11 : arg11.IsWhole) (arg12 : Memref sig .tc .vmem S1x512 .f32) (harg12 : arg12.IsWhole)
    (arg13 : Memref sig .tc .vmem S8x128 .f32) (harg13 : arg13.IsWhole) (arg14 : Memref sig .tc .vmem S8x128 .f32) (harg14 : arg14.IsWhole)
    (x0 : Vec F S1024x128 .f32) (x1 : Vec F S512x128 .f32) (x2 : Vec F S256x128 .f32) (x3 : Vec F S128x128 .f32)
    (x4 : Vec F S64x128 .f32) (x5 : Vec F S32x128 .f32) (x6 : Vec F S16x128 .f32) (x7 : Vec F S8x128 .f32)
    (wih : Vec F S128x512 .f32) (whh : Vec F S256x512 .f32) (bih : Vec F S1x512 .f32) (bhh : Vec F S1x512 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare wih
        ∗ owns (c : Thread nD τ) arg10 fullShare whh ∗ owns (c : Thread nD τ) arg11 fullShare bih ∗ owns (c : Thread nD τ) arg12 fullShare bhh
        ∗ (∃ d, owns (c : Thread nD τ) arg13 fullShare d) ∗ (∃ d, owns (c : Thread nD τ) arg14 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7 ∗ owns (c : Thread nD τ) arg9 fullShare wih
            ∗ owns (c : Thread nD τ) arg10 fullShare whh ∗ owns (c : Thread nD τ) arg11 fullShare bih ∗ owns (c : Thread nD τ) arg12 fullShare bhh
            ∗ owns (c : Thread nD τ) arg13 fullShare (hiddenBuf x0 x1 x2 x3 x4 x5 x6 x7 wih whh bih bhh)
            ∗ owns (c : Thread nD τ) arg14 fullShare (cellBuf x0 x1 x2 x3 x4 x5 x6 x7 wih whh bih bhh)) -∗ K ⟨⟩))
      ⊢ wp frame (wpE (defs₀ (F := F)) Variants.none c none) E
          (cc0__big_kernel i arg1 harg1 arg2 harg2 arg3 harg3 arg4 harg4 arg5 harg5 arg6 harg6 arg7 harg7 arg8 harg8 arg9 harg9
            arg10 harg10 arg11 harg11 arg12 harg12 arg13 harg13 arg14 harg14) K := by
  simp only [cc0__big_kernel_eq_skeleton]; unfold cc0__big_kernel_skel
  simp only [k0_part1_eq_skeleton]; unfold k0_part1_skel
  simp only [k0_part2_eq_skeleton]; unfold k0_part2_skel
  simp only [k0_part3_eq_skeleton]; unfold k0_part3_skel
  simp only [k0_part4_eq_skeleton]; unfold k0_part4_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, Hk⟩
  subst hf0 hf1 hf2 hf3 hf4 hf5 hf6 hf7 hf8 hf9 hf10 hf11
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists _; isplitr
    swap; · iexact H12
    ipureintro
    try dsimp only
    unfold hiddenBuf hidden8
    exact View.read_writes_eq_canon _ _ _ (whole8_covers (F := F) _)
  iexists _; isplitr
  swap; · iexact H13
  ipureintro
  try dsimp only
  unfold cellBuf cell8
  exact View.read_writes_eq_canon _ _ _ (whole8_covers (F := F) _)

end Cert.Kernel.Fused

end
-- ==== Proof.KB.Run.lean ====
/-
  The run of the fused region inside @main, and the frame.

  At grid point `t` (one chunk of 1024 leaf-level rows) window `w` stages block `t` of its array: rows
  `t·1024 … `, `t·512 …`, …, `t·8 …` of the eight level slices of the embeddings, the four weight blocks whole
  (fetched once, at the first point, and found in place afterwards), and block `t` (8 rows) of the two results.
  The body leaves each input block as it found it and the two result blocks at the body's two stored values of the
  twelve input blocks. The library's frame run around a region with host lines on both sides then gives: every
  weakly fair execution of @main terminates, nothing faults, each array of the region ends at what the write-backs
  left, and every other buffer at what the later lines leave; in particular the five arguments end as launched.
-/
import proofs.«177989_j29394756173864_2_alg».proof.Proof.KB.Lines
import proofs.«177989_j29394756173864_2_alg».proof.Proof.KB.Body

set_option maxRecDepth 16384

noncomputable section

namespace Cert.Kernel.Fused

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point, fetched there or not (unfetched, the block index
    has not moved), for any proof data whose array is the region-entry one and whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point, fetched there or not (unfetched, the block index
    has not moved), for any proof data whose array is the region-entry one and whose body leaves the block in place. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point, fetched there or not (unfetched, the block index
    has not moved), for any proof data whose array is the region-entry one and whose body leaves the block in place. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at every point, fetched there or not (unfetched, the block index
    has not moved), for any proof data whose array is the region-entry one and whose body leaves the block in place. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's staging buffer holds its block at every point, fetched there or not (unfetched, the block index
    has not moved), for any proof data whose array is the region-entry one and whose body leaves the block in place. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's staging buffer holds its block at every point, fetched there or not (unfetched, the block index
    has not moved), for any proof data whose array is the region-entry one and whose body leaves the block in place. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's staging buffer holds its block at every point, fetched there or not (unfetched, the block index
    has not moved), for any proof data whose array is the region-entry one and whose body leaves the block in place. -/
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's staging buffer holds its block at every point, fetched there or not (unfetched, the block index
    has not moved), for any proof data whose array is the region-entry one and whose body leaves the block in place. -/
theorem before7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's staging buffer holds its block at every point, fetched there or not (unfetched, the block index
    has not moved), for any proof data whose array is the region-entry one and whose body leaves the block in place. -/
theorem before8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's staging buffer holds its block at every point, fetched there or not (unfetched, the block index
    has not moved), for any proof data whose array is the region-entry one and whose body leaves the block in place. -/
theorem before9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's staging buffer holds its block at every point, fetched there or not (unfetched, the block index
    has not moved), for any proof data whose array is the region-entry one and whose body leaves the block in place. -/
theorem before10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's staging buffer holds its block at every point, fetched there or not (unfetched, the block index
    has not moved), for any proof data whose array is the region-entry one and whose body leaves the block in place. -/
theorem before11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)

/-! ## The proof data -/

/-- On core `c`: the arrays as the region finds them; after the body at point `t` each input's buffer at its block,
    the hidden-state result's buffer at `hiddenBuf` and the cell-state result's at `cellBuf` of the twelve input blocks;
    the invariant is the scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => hiddenBuf (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
    | ⟨13, _⟩ => cellBuf (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
  Φ _ := Pipeline.ΦA spec0 c
  q _ := fullShare
  owed _ := 0

/-- The proof data's arrays are the region-entry contents (the definition projected, never unfolded through the
    fold over the earlier lines). -/
theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = hiddenBuf (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by dsimp only [dats]
theorem after13 (c : Dev nD) (t : Fin cfg0.N) : (dats m 0 c).after 13 t = cellBuf (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d
theorem before7 (c : Dev nD) (t : Fin cfg0.N) (d) : (dats m 0 c).before 7 t d = iblk m c 7 t :=
  before7_of m (dats m 0 c) (A_eq m c 7) (after7 m c) t d
theorem before8 (c : Dev nD) (t : Fin cfg0.N) (d) : (dats m 0 c).before 8 t d = iblk m c 8 t :=
  before8_of m (dats m 0 c) (A_eq m c 8) (after8 m c) t d
theorem before9 (c : Dev nD) (t : Fin cfg0.N) (d) : (dats m 0 c).before 9 t d = iblk m c 9 t :=
  before9_of m (dats m 0 c) (A_eq m c 9) (after9 m c) t d
theorem before10 (c : Dev nD) (t : Fin cfg0.N) (d) : (dats m 0 c).before 10 t d = iblk m c 10 t :=
  before10_of m (dats m 0 c) (A_eq m c 10) (after10 m c) t d
theorem before11 (c : Dev nD) (t : Fin cfg0.N) (d) : (dats m 0 c).before 11 t d = iblk m c 11 t :=
  before11_of m (dats m 0 c) (A_eq m c 11) (after11 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t))

set_option maxHeartbeats 4000000 in
/-- The body at any point: the inputs' buffers hold their blocks, so the body's triple applies; the invariant and the
    core's obligations pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11, after12, after13]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (sound_kernel c Set.univ (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- At the compiled mesh, from any memory with zero counters: every weakly fair execution of @main on the TensorCores
    terminates, and in every final state each array of the region holds what the write-backs left and every other
    unscoped buffer what the lines after the region leave. -/
theorem run_main : θ_run defs (onTc (τ := τ) (main (F := F))) (s₀ m ρ)
    (Pipeline.FramePost cfgs (dats m) 0 (Pipeline.afterTail₀ cfgs (dats m) 0 (V0 m) linesAfter)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := linesAfter) (hsub := after_sub) (hfresh := after_fresh) (hkeep := after_keeps)
    (hmain := hmain m Variants.none) (hA := A_eq m) (hΦ := fun _ _ => rfl)

/-- An argument (numbered below 5, no array of the region) ends as launched. -/
theorem arg_kept (r : Ref sig .tc) (hs : r.isScoped = false) (hr : r.idx.val < 5) (hne : ∀ w, Pipeline.arrRef spec0 w ≠ r)
    (res : PUnit × MemSt nD τ sig (Elt F))
    (h : Pipeline.FramePost cfgs (dats m) 0 (Pipeline.afterTail₀ cfgs (dats m) 0 (V0 m) linesAfter) res) (c : Dev nD) :
    res.2.mem ((c.tc : Thread nD τ).loc r) = m ((c.tc : Thread nD τ).loc r) :=
  (((h c).2 r (Pipeline.mem_restRefs_of r hs hne)).trans (tail_of_lt m (dats m) c r (Nat.lt_of_lt_of_le hr (by decide)) hne)).trans
    (V_of_lt m c r hr)

/-- THE FRAME, at any `F`: @main terminates without a fault and its five argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun res h c =>
    ⟨arg_kept m main_arg0 (by decide) (by decide) (by decide) res h c,
     arg_kept m main_arg1 (by decide) (by decide) (by decide) res h c,
     arg_kept m main_arg2 (by decide) (by decide) (by decide) res h c,
     arg_kept m main_arg3 (by decide) (by decide) (by decide) res h c,
     arg_kept m main_arg4 (by decide) (by decide) (by decide) res h c⟩) (run_main m ρ)

end Cert.Kernel.Fused

end
-- ==== Proof.KI.Lines.lean ====
/-
  The host lines around the fused region.

  The program is: 32 host lines (slices of the weights to the kept gate columns, their transposes, the eight level
  slices of the embeddings), the region, then 499 host lines (the ten shallow levels of the tree and the final
  concatenation), cut by the printer into nine stretches. Every buffer is an HBM reference numbered in program order:
  the five arguments are numbers 0–4, the lines before the region write numbers 5–36, the fourteen arrays the region
  stages are among numbers 10–38, and every line after the region writes a number from 39 on. So no line before the
  region writes an argument, and no line after it writes an argument or an array of the region: the region finds the
  arguments as launched, and the lines after it leave them, and the region's arrays, alone.
-/
import proofs.«177989_j29394756173864_2_alg».proof.Proof.Gen.KernelIdeal.Launch
import Idealize.ShloMosaic.Lib.Pipeline.FrameBody
import Idealize.ShloMosaic.Lib.Pipeline.FrameSuffix

set_option maxRecDepth 16384

noncomputable section

namespace Cert.KernelIdeal.Fused

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-! ## The stretches -/

/-- The one stretch of lines before the region. -/
abbrev linesBefore : List (List (HloOp τ sig (Elt F))) := [main_part0_ops0]
/-- The nine stretches of lines after it. -/
abbrev linesAfter : List (List (HloOp τ sig (Elt F))) :=
  [main_part0_ops1, main_part1_ops0, main_part2_ops0, main_part3_ops0, main_part4_ops0, main_part5_ops0, main_part6_ops0, main_part7_ops0, main_part8_ops0]

/-- Core `c`'s buffer contents when the region is entered: after the lines before it. -/
abbrev V0 (c : Dev nD) : Valuation τ sig (Elt F) := StableHlo.after (List.flatten linesBefore) (fun b => m (c, b))
/-- The same read at a TensorCore reference. -/
abbrev V (c : Dev nD) (b : Ref sig .tc) : Buf (Elt F) ((c : Thread nD τ).loc b) := V0 m c (Proc.devRef .tc b)

/-! ## No line allocates -/

theorem before_fresh : (main_part0_ops0 : List (HloOp τ sig (Elt F))).Forall fun op => op.fresh = ∅ := by
  simp only [List.Forall]; repeat' constructor
theorem main_part0_ops1_fresh : (main_part0_ops1 : List (HloOp τ sig (Elt F))).Forall fun op => op.fresh = ∅ := by
  simp only [List.Forall]; repeat' constructor
theorem main_part1_ops0_fresh : (main_part1_ops0 : List (HloOp τ sig (Elt F))).Forall fun op => op.fresh = ∅ := by
  simp only [List.Forall]; repeat' constructor
theorem main_part2_ops0_fresh : (main_part2_ops0 : List (HloOp τ sig (Elt F))).Forall fun op => op.fresh = ∅ := by
  simp only [List.Forall]; repeat' constructor
theorem main_part3_ops0_fresh : (main_part3_ops0 : List (HloOp τ sig (Elt F))).Forall fun op => op.fresh = ∅ := by
  simp only [List.Forall]; repeat' constructor
theorem main_part4_ops0_fresh : (main_part4_ops0 : List (HloOp τ sig (Elt F))).Forall fun op => op.fresh = ∅ := by
  simp only [List.Forall]; repeat' constructor
theorem main_part5_ops0_fresh : (main_part5_ops0 : List (HloOp τ sig (Elt F))).Forall fun op => op.fresh = ∅ := by
  simp only [List.Forall]; repeat' constructor
theorem main_part6_ops0_fresh : (main_part6_ops0 : List (HloOp τ sig (Elt F))).Forall fun op => op.fresh = ∅ := by
  simp only [List.Forall]; repeat' constructor
theorem main_part7_ops0_fresh : (main_part7_ops0 : List (HloOp τ sig (Elt F))).Forall fun op => op.fresh = ∅ := by
  simp only [List.Forall]; repeat' constructor
theorem main_part8_ops0_fresh : (main_part8_ops0 : List (HloOp τ sig (Elt F))).Forall fun op => op.fresh = ∅ := by
  simp only [List.Forall]; repeat' constructor

/-! ## Which buffers the lines write -/

/-- Every line of the stretch writes only buffers numbered `k` or higher. -/
def WritesFrom (k : ℕ) (ops : List (HloOp τ sig (Elt F))) : Prop :=
  ops.Forall fun op => ∀ r : Ref sig .tc, Proc.devRef (τ := τ) .tc r ∈ op.writes → k ≤ r.idx.val

set_option maxHeartbeats 4000000 in
theorem before_from : WritesFrom 5 (main_part0_ops0 : List (HloOp τ sig (Elt F))) := by
  unfold WritesFrom
  simp only [main_part0_ops0, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals (intro r hr; cases Proc.devRef_injective _ hr; decide)
set_option maxHeartbeats 4000000 in
theorem main_part0_ops1_from : WritesFrom 39 (main_part0_ops1 : List (HloOp τ sig (Elt F))) := by
  unfold WritesFrom
  simp only [main_part0_ops1, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals (intro r hr; cases Proc.devRef_injective _ hr; decide)
set_option maxHeartbeats 4000000 in
theorem main_part1_ops0_from : WritesFrom 39 (main_part1_ops0 : List (HloOp τ sig (Elt F))) := by
  unfold WritesFrom
  simp only [main_part1_ops0, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals (intro r hr; cases Proc.devRef_injective _ hr; decide)
set_option maxHeartbeats 4000000 in
theorem main_part2_ops0_from : WritesFrom 39 (main_part2_ops0 : List (HloOp τ sig (Elt F))) := by
  unfold WritesFrom
  simp only [main_part2_ops0, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals (intro r hr; cases Proc.devRef_injective _ hr; decide)
set_option maxHeartbeats 4000000 in
theorem main_part3_ops0_from : WritesFrom 39 (main_part3_ops0 : List (HloOp τ sig (Elt F))) := by
  unfold WritesFrom
  simp only [main_part3_ops0, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals (intro r hr; cases Proc.devRef_injective _ hr; decide)
set_option maxHeartbeats 4000000 in
theorem main_part4_ops0_from : WritesFrom 39 (main_part4_ops0 : List (HloOp τ sig (Elt F))) := by
  unfold WritesFrom
  simp only [main_part4_ops0, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals (intro r hr; cases Proc.devRef_injective _ hr; decide)
set_option maxHeartbeats 4000000 in
theorem main_part5_ops0_from : WritesFrom 39 (main_part5_ops0 : List (HloOp τ sig (Elt F))) := by
  unfold WritesFrom
  simp only [main_part5_ops0, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals (intro r hr; cases Proc.devRef_injective _ hr; decide)
set_option maxHeartbeats 4000000 in
theorem main_part6_ops0_from : WritesFrom 39 (main_part6_ops0 : List (HloOp τ sig (Elt F))) := by
  unfold WritesFrom
  simp only [main_part6_ops0, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals (intro r hr; cases Proc.devRef_injective _ hr; decide)
set_option maxHeartbeats 4000000 in
theorem main_part7_ops0_from : WritesFrom 39 (main_part7_ops0 : List (HloOp τ sig (Elt F))) := by
  unfold WritesFrom
  simp only [main_part7_ops0, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals (intro r hr; cases Proc.devRef_injective _ hr; decide)
set_option maxHeartbeats 4000000 in
theorem main_part8_ops0_from : WritesFrom 39 (main_part8_ops0 : List (HloOp τ sig (Elt F))) := by
  unfold WritesFrom
  simp only [main_part8_ops0, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals (intro r hr; cases Proc.devRef_injective _ hr; decide)

/-- Every line after the region writes only buffers numbered 39 or higher. -/
theorem after_from : ∀ ops ∈ (linesAfter : List (List (HloOp τ sig (Elt F)))), ∀ op ∈ ops,
    ∀ r : Ref sig .tc, Proc.devRef (τ := τ) .tc r ∈ op.writes → 39 ≤ r.idx.val := by
  intro ops hops op hop
  simp only [List.mem_cons, List.mem_nil_iff, or_false] at hops
  rcases hops with rfl | rfl | rfl | rfl | rfl | rfl | rfl | rfl | rfl
  · exact (List.forall_iff_forall_mem.mp main_part0_ops1_from) op hop
  · exact (List.forall_iff_forall_mem.mp main_part1_ops0_from) op hop
  · exact (List.forall_iff_forall_mem.mp main_part2_ops0_from) op hop
  · exact (List.forall_iff_forall_mem.mp main_part3_ops0_from) op hop
  · exact (List.forall_iff_forall_mem.mp main_part4_ops0_from) op hop
  · exact (List.forall_iff_forall_mem.mp main_part5_ops0_from) op hop
  · exact (List.forall_iff_forall_mem.mp main_part6_ops0_from) op hop
  · exact (List.forall_iff_forall_mem.mp main_part7_ops0_from) op hop
  · exact (List.forall_iff_forall_mem.mp main_part8_ops0_from) op hop

/-- The region's fourteen arrays are numbered below 39. -/
theorem arr_idx_lt : ∀ w : Fin 14, (Pipeline.arrRef spec0 w).idx.val < 39 := by decide

/-! ## @main around the region -/

/-- @main is the lines before the region, the region, the lines after it: it reduces to the region continued by the
    later lines, at the contents the earlier lines leave. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((linesAfter : List (List (HloOp τ sig (Elt F)))).map StableHlo.seq)) :=
  Pipeline.hmain_around cfgs 0 defs₀ 𝒱₀ m main linesBefore linesAfter (by simp only [List.Forall]; exact main_part0_ops0_sub)
    (by simp only [List.Forall]; exact before_fresh) main_chain_windows

/-- The lines after the region touch the region's arrays and the buffers that bypass it only. -/
theorem after_sub : ∀ ops ∈ (linesAfter : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl | rfl | rfl | rfl | rfl
  · exact Pipeline.sub_ucRefs op ((List.forall_iff_forall_mem.mp main_part0_ops1_sub) op hop)
  · exact Pipeline.sub_ucRefs op ((List.forall_iff_forall_mem.mp main_part1_ops0_sub) op hop)
  · exact Pipeline.sub_ucRefs op ((List.forall_iff_forall_mem.mp main_part2_ops0_sub) op hop)
  · exact Pipeline.sub_ucRefs op ((List.forall_iff_forall_mem.mp main_part3_ops0_sub) op hop)
  · exact Pipeline.sub_ucRefs op ((List.forall_iff_forall_mem.mp main_part4_ops0_sub) op hop)
  · exact Pipeline.sub_ucRefs op ((List.forall_iff_forall_mem.mp main_part5_ops0_sub) op hop)
  · exact Pipeline.sub_ucRefs op ((List.forall_iff_forall_mem.mp main_part6_ops0_sub) op hop)
  · exact Pipeline.sub_ucRefs op ((List.forall_iff_forall_mem.mp main_part7_ops0_sub) op hop)
  · exact Pipeline.sub_ucRefs op ((List.forall_iff_forall_mem.mp main_part8_ops0_sub) op hop)

/-- They allocate nothing. -/
theorem after_fresh : ∀ ops ∈ (linesAfter : List (List (HloOp τ sig (Elt F)))), ∀ op ∈ ops, op.fresh = ∅ := by
  intro ops hops op hop
  simp only [List.mem_cons, List.mem_nil_iff, or_false] at hops
  rcases hops with rfl | rfl | rfl | rfl | rfl | rfl | rfl | rfl | rfl
  · exact (List.forall_iff_forall_mem.mp main_part0_ops1_fresh) op hop
  · exact (List.forall_iff_forall_mem.mp main_part1_ops0_fresh) op hop
  · exact (List.forall_iff_forall_mem.mp main_part2_ops0_fresh) op hop
  · exact (List.forall_iff_forall_mem.mp main_part3_ops0_fresh) op hop
  · exact (List.forall_iff_forall_mem.mp main_part4_ops0_fresh) op hop
  · exact (List.forall_iff_forall_mem.mp main_part5_ops0_fresh) op hop
  · exact (List.forall_iff_forall_mem.mp main_part6_ops0_fresh) op hop
  · exact (List.forall_iff_forall_mem.mp main_part7_ops0_fresh) op hop
  · exact (List.forall_iff_forall_mem.mp main_part8_ops0_fresh) op hop

/-- And write no array of the region: an array is numbered below 39, what they write is not. -/
theorem after_keeps : ∀ ops ∈ (linesAfter : List (List (HloOp τ sig (Elt F)))), ∀ op ∈ ops,
    ∀ w, Proc.devRef .tc (Pipeline.arrRef spec0 w) ∉ op.writes :=
  fun ops hops op hop w hw => absurd (after_from ops hops op hop _ hw) (Nat.not_le.mpr (arr_idx_lt w))

/-! ## The arguments around the region -/

/-- A buffer numbered below 5 (an argument) is as launched when the region is entered. -/
theorem V_of_lt (c : Dev nD) (r : Ref sig .tc) (hr : r.idx.val < 5) : V m c r = m ((c : Thread nD τ).loc r) :=
  StableHlo.after_of_forall_not_mem (b := Proc.devRef .tc r) _ _ (fun op hop hw => by
    simp only [List.flatten_cons, List.flatten_nil, List.append_nil] at hop
    exact absurd ((List.forall_iff_forall_mem.mp before_from) op hop r hw) (Nat.not_le.mpr hr))

/-- A buffer numbered below 39 that is no array of the region holds, after the lines that follow the region, what
    it held when the region was entered. -/
theorem tail_of_lt (dats : (p : Fin 1) → (c : Dev nD) → Dat τ (Elt F) Unit ℕ (UR sig nD τ) ℕ (cfgs p) c) (c : Dev nD)
    (r : Ref sig .tc) (hr : r.idx.val < 39) (hne : ∀ w, Pipeline.arrRef spec0 w ≠ r) :
    Pipeline.afterTail₀ cfgs dats 0 (V0 m) linesAfter c r = V m c r := by
  unfold Pipeline.afterTail₀
  rw [StableHlo.after_of_forall_not_mem (b := Proc.devRef .tc r) _ _ (fun op hop hw => by
      obtain ⟨ops, hops, hop'⟩ := List.mem_flatten.mp hop
      exact absurd (after_from ops hops op hop' r hw) (Nat.not_le.mpr hr)),
    Pipeline.withArrays_of_ne _ c (V0 m c) _ r hne]

end Cert.KernelIdeal.Fused

end
-- ==== Proof.KI.Body.lean ====
/-
  The body of the fused levels, run once on whole staging buffers.

  One grid point handles one chunk of 1024 leaf-level rows and the seven levels above them: the body loads the eight
  row blocks x0 … x7 (1024, 512, …, 8 rows of the embeddings) and the four weight blocks, chains eight cell updates
  in registers, and stores two 8 × 128 blocks: the hidden state and the cell state of the chunk's eight nodes at the
  shallowest fused level. Here: what those two stores hold as pure functions of the twelve loads (the generated
  payload names, composed in program order), and the body's triple: started holding the twelve input buffers at
  given contents and the two output buffers at anything, it ends holding the inputs as they were and the outputs at
  those two functions.
-/
import proofs.«177989_j29394756173864_2_alg».proof.Proof.Gen.KernelIdeal.Launch
import proofs.«177989_j29394756173864_2_alg».proof.Proof.Gen.KernelIdeal.Skeleton
import proofs.«177989_j29394756173864_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fused

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two stored values as functions of the twelve loads -/

section Values

variable (x0 : Vec F S1024x128 .f32) (x1 : Vec F S512x128 .f32) (x2 : Vec F S256x128 .f32) (x3 : Vec F S128x128 .f32)
  (x4 : Vec F S64x128 .f32) (x5 : Vec F S32x128 .f32) (x6 : Vec F S16x128 .f32) (x7 : Vec F S8x128 .f32)
  (wih : Vec F S128x512 .f32) (whh : Vec F S256x512 .f32) (bih : Vec F S1x512 .f32) (bhh : Vec F S1x512 .f32)

/-- The hidden state of the chunk's eight nodes at the shallowest fused level: sigmoid of the output gate times tanh
    of the new cell state, after eight chained cell updates. -/
def hidden8 : FVec F S8x128 .f32 :=
  have v1 := k0_pay3 wih
  have v3 := k0_pay4 whh
  have v5 := k0_pay5 bih
  have v7 := k0_pay6 bhh
  have v34 := k0_pay9 wih whh bih bhh x0
  have v39 := k0_pay10 wih whh bih bhh x0 x1
  have v40 := k0_pay11 bih
  have v84 := k0_pay16 v1 v3 v5 v7 v34 v39 v40 x2
  have v91 := k0_pay17 v1 v3 v5 v7 v34 v39 v40 x2 x3
  have v92 := k0_pay18 v7
  have v134 := k0_pay23 v1 v3 v5 v7 v84 v91 v92 x4
  have v143 := k0_pay24 v1 v3 v5 v7 v84 v91 v92 x4 x5
  have v144 := k0_pay25 v1 v3 v5 v7 v84 v91 v92 x4 x5
  have v184 := k0_pay29 v1 v3 v5 v7 v134 v143 v144 x6
  have v193 := k0_pay30 v1 v3 v5 v7 v134 v143 v144 x6 x7
  have v194 := k0_pay31 v1 v3 v5 v7 v134 v143 v144 x6 x7
  have v195 := k0_pay32 v1 v3 v5 v7 v134 v143 v144 x6 x7
  have v196 := k0_pay33 v1 v3 v5 v7 v134 v143 v144 x6 x7
  k0_pay2 v184 v193 v194 v195 v196

/-- The cell state of the same eight nodes: sigmoid of the forget gate times the first child's cell state plus sigmoid
    of the input gate times tanh of the candidate. -/
def cell8 : FVec F S8x128 .f32 :=
  have v1 := k0_pay3 wih
  have v3 := k0_pay4 whh
  have v5 := k0_pay5 bih
  have v7 := k0_pay6 bhh
  have v34 := k0_pay9 wih whh bih bhh x0
  have v39 := k0_pay10 wih whh bih bhh x0 x1
  have v40 := k0_pay11 bih
  have v84 := k0_pay16 v1 v3 v5 v7 v34 v39 v40 x2
  have v91 := k0_pay17 v1 v3 v5 v7 v34 v39 v40 x2 x3
  have v92 := k0_pay18 v7
  have v134 := k0_pay23 v1 v3 v5 v7 v84 v91 v92 x4
  have v143 := k0_pay24 v1 v3 v5 v7 v84 v91 v92 x4 x5
  have v144 := k0_pay25 v1 v3 v5 v7 v84 v91 v92 x4 x5
  have v184 := k0_pay29 v1 v3 v5 v7 v134 v143 v144 x6
  have v194 := k0_pay31 v1 v3 v5 v7 v134 v143 v144 x6 x7
  have v195 := k0_pay32 v1 v3 v5 v7 v134 v143 v144 x6 x7
  have v196 := k0_pay33 v1 v3 v5 v7 v134 v143 v144 x6 x7
  k0_pay1 v184 v194 v195 v196

/-- The one rectangle each output store writes: the whole 8 × 128 buffer. -/
abbrev whole8 : Rect S8x128 := Rect.unit (s := S8x128) ![0, 0] S8x128.size inb_S8x128_S8x128_0_0

/-- The hidden-state buffer after the body: its one store, read back. Each input enters as the body loads it,
    through the whole rectangle of its buffer (which reads the buffer's contents). -/
def hiddenBuf : Vec F S8x128 .f32 :=
  View.canon [⟨whole8, hidden8
    (View.ld x0 (Rect.unit (s := S1024x128) ![0, 0] S1024x128.size inb_S1024x128_S1024x128_0_0))
    (View.ld x1 (Rect.unit (s := S512x128) ![0, 0] S512x128.size inb_S512x128_S512x128_0_0))
    (View.ld x2 (Rect.unit (s := S256x128) ![0, 0] S256x128.size inb_S256x128_S256x128_0_0))
    (View.ld x3 (Rect.unit (s := S128x128) ![0, 0] S128x128.size inb_S128x128_S128x128_0_0))
    (View.ld x4 (Rect.unit (s := S64x128) ![0, 0] S64x128.size inb_S64x128_S64x128_0_0))
    (View.ld x5 (Rect.unit (s := S32x128) ![0, 0] S32x128.size inb_S32x128_S32x128_0_0))
    (View.ld x6 (Rect.unit (s := S16x128) ![0, 0] S16x128.size inb_S16x128_S16x128_0_0))
    (View.ld x7 (Rect.unit (s := S8x128) ![0, 0] S8x128.size inb_S8x128_S8x128_0_0))
    (View.ld wih (Rect.unit (s := S128x512) ![0, 0] S128x512.size inb_S128x512_S128x512_0_0))
    (View.ld whh (Rect.unit (s := S256x512) ![0, 0] S256x512.size inb_S256x512_S256x512_0_0))
    (View.ld bih (Rect.unit (s := S1x512) ![0, 0] S1x512.size inb_S1x512_S1x512_0_0))
    (View.ld bhh (Rect.unit (s := S1x512) ![0, 0] S1x512.size inb_S1x512_S1x512_0_0))⟩]

/-- The cell-state buffer after the body: its one store, read back. -/
def cellBuf : Vec F S8x128 .f32 :=
  View.canon [⟨whole8, cell8
    (View.ld x0 (Rect.unit (s := S1024x128) ![0, 0] S1024x128.size inb_S1024x128_S1024x128_0_0))
    (View.ld x1 (Rect.unit (s := S512x128) ![0, 0] S512x128.size inb_S512x128_S512x128_0_0))
    (View.ld x2 (Rect.unit (s := S256x128) ![0, 0] S256x128.size inb_S256x128_S256x128_0_0))
    (View.ld x3 (Rect.unit (s := S128x128) ![0, 0] S128x128.size inb_S128x128_S128x128_0_0))
    (View.ld x4 (Rect.unit (s := S64x128) ![0, 0] S64x128.size inb_S64x128_S64x128_0_0))
    (View.ld x5 (Rect.unit (s := S32x128) ![0, 0] S32x128.size inb_S32x128_S32x128_0_0))
    (View.ld x6 (Rect.unit (s := S16x128) ![0, 0] S16x128.size inb_S16x128_S16x128_0_0))
    (View.ld x7 (Rect.unit (s := S8x128) ![0, 0] S8x128.size inb_S8x128_S8x128_0_0))
    (View.ld wih (Rect.unit (s := S128x512) ![0, 0] S128x512.size inb_S128x512_S128x512_0_0))
    (View.ld whh (Rect.unit (s := S256x512) ![0, 0] S256x512.size inb_S256x512_S256x512_0_0))
    (View.ld bih (Rect.unit (s := S1x512) ![0, 0] S1x512.size inb_S1x512_S1x512_0_0))
    (View.ld bhh (Rect.unit (s := S1x512) ![0, 0] S1x512.size inb_S1x512_S1x512_0_0))⟩]

end Values

/-- One store of the whole buffer covers it. -/
theorem whole8_covers (p0 : Vec F S8x128 .f32) (y : S8x128.Idx) :
    ∃ pc ∈ ([⟨whole8, p0⟩] : List (View.Piece (Elt F) S8x128 .f32)), y ∈ pc.1.set :=
  View.cover_of_tiled [⟨whole8, p0⟩] S8x128.size (by rfl) y

/-! ## The body's triple -/

set_option maxHeartbeats 8000000 in
/-- The body on whole staging buffers: the twelve inputs at given contents, the two outputs at anything; it runs to the
    continuation holding the inputs as they were, the hidden-state buffer at `hiddenBuf` and the cell-state buffer at
    `cellBuf` of the inputs. (The body also loads each output buffer once before storing into it; the loaded value is
    not used.) -/
theorem sound_kernel (c : Dev nD) (E : Set ℕ) (i : grid0.Coords)
    (arg1 : Memref sig .tc .vmem S1024x128 .f32) (harg1 : arg1.IsWhole) (arg2 : Memref sig .tc .vmem S512x128 .f32) (harg2 : arg2.IsWhole)
    (arg3 : Memref sig .tc .vmem S256x128 .f32) (harg3 : arg3.IsWhole) (arg4 : Memref sig .tc .vmem S128x128 .f32) (harg4 : arg4.IsWhole)
    (arg5 : Memref sig .tc .vmem S64x128 .f32) (harg5 : arg5.IsWhole) (arg6 : Memref sig .tc .vmem S32x128 .f32) (harg6 : arg6.IsWhole)
    (arg7 : Memref sig .tc .vmem S16x128 .f32) (harg7 : arg7.IsWhole) (arg8 : Memref sig .tc .vmem S8x128 .f32) (harg8 : arg8.IsWhole)
    (arg9 : Memref sig .tc .vmem S128x512 .f32) (harg9 : arg9.IsWhole) (arg10 : Memref sig .tc .vmem S256x512 .f32) (harg10 : arg10.IsWhole)
    (arg11 : Memref sig .tc .vmem S1x512 .f32) (harg11 : arg11.IsWhole) (arg12 : Memref sig .tc .vmem S1x512 .f32) (harg12 : arg12.IsWhole)
    (arg13 : Memref sig .tc .vmem S8x128 .f32) (harg13 : arg13.IsWhole) (arg14 : Memref sig .tc .vmem S8x128 .f32) (harg14 : arg14.IsWhole)
    (x0 : Vec F S1024x128 .f32) (x1 : Vec F S512x128 .f32) (x2 : Vec F S256x128 .f32) (x3 : Vec F S128x128 .f32)
    (x4 : Vec F S64x128 .f32) (x5 : Vec F S32x128 .f32) (x6 : Vec F S16x128 .f32) (x7 : Vec F S8x128 .f32)
    (wih : Vec F S128x512 .f32) (whh : Vec F S256x512 .f32) (bih : Vec F S1x512 .f32) (bhh : Vec F S1x512 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare wih
        ∗ owns (c : Thread nD τ) arg10 fullShare whh ∗ owns (c : Thread nD τ) arg11 fullShare bih ∗ owns (c : Thread nD τ) arg12 fullShare bhh
        ∗ (∃ d, owns (c : Thread nD τ) arg13 fullShare d) ∗ (∃ d, owns (c : Thread nD τ) arg14 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7 ∗ owns (c : Thread nD τ) arg9 fullShare wih
            ∗ owns (c : Thread nD τ) arg10 fullShare whh ∗ owns (c : Thread nD τ) arg11 fullShare bih ∗ owns (c : Thread nD τ) arg12 fullShare bhh
            ∗ owns (c : Thread nD τ) arg13 fullShare (hiddenBuf x0 x1 x2 x3 x4 x5 x6 x7 wih whh bih bhh)
            ∗ owns (c : Thread nD τ) arg14 fullShare (cellBuf x0 x1 x2 x3 x4 x5 x6 x7 wih whh bih bhh)) -∗ K ⟨⟩))
      ⊢ wp frame (wpE (defs₀ (F := F)) Variants.none c none) E
          (cc0__big_kernel i arg1 harg1 arg2 harg2 arg3 harg3 arg4 harg4 arg5 harg5 arg6 harg6 arg7 harg7 arg8 harg8 arg9 harg9
            arg10 harg10 arg11 harg11 arg12 harg12 arg13 harg13 arg14 harg14) K := by
  simp only [cc0__big_kernel_eq_skeleton]; unfold cc0__big_kernel_skel
  simp only [k0_part1_eq_skeleton]; unfold k0_part1_skel
  simp only [k0_part2_eq_skeleton]; unfold k0_part2_skel
  simp only [k0_part3_eq_skeleton]; unfold k0_part3_skel
  simp only [k0_part4_eq_skeleton]; unfold k0_part4_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, Hk⟩
  subst hf0 hf1 hf2 hf3 hf4 hf5 hf6 hf7 hf8 hf9 hf10 hf11
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists _; isplitr
    swap; · iexact H12
    ipureintro
    try dsimp only
    unfold hiddenBuf hidden8
    exact View.read_writes_eq_canon _ _ _ (whole8_covers (F := F) _)
  iexists _; isplitr
  swap; · iexact H13
  ipureintro
  try dsimp only
  unfold cellBuf cell8
  exact View.read_writes_eq_canon _ _ _ (whole8_covers (F := F) _)

end Cert.KernelIdeal.Fused

end
-- ==== Proof.KI.Run.lean ====
/-
  The run of the fused region inside @main, and the frame.

  At grid point `t` (one chunk of 1024 leaf-level rows) window `w` stages block `t` of its array: rows
  `t·1024 … `, `t·512 …`, …, `t·8 …` of the eight level slices of the embeddings, the four weight blocks whole
  (fetched once, at the first point, and found in place afterwards), and block `t` (8 rows) of the two results.
  The body leaves each input block as it found it and the two result blocks at the body's two stored values of the
  twelve input blocks. The library's frame run around a region with host lines on both sides then gives: every
  weakly fair execution of @main terminates, nothing faults, each array of the region ends at what the write-backs
  left, and every other buffer at what the later lines leave; in particular the five arguments end as launched.
-/
import proofs.«177989_j29394756173864_2_alg».proof.Proof.KI.Lines
import proofs.«177989_j29394756173864_2_alg».proof.Proof.KI.Body

set_option maxRecDepth 16384

noncomputable section

namespace Cert.KernelIdeal.Fused

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point, fetched there or not (unfetched, the block index
    has not moved), for any proof data whose array is the region-entry one and whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point, fetched there or not (unfetched, the block index
    has not moved), for any proof data whose array is the region-entry one and whose body leaves the block in place. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point, fetched there or not (unfetched, the block index
    has not moved), for any proof data whose array is the region-entry one and whose body leaves the block in place. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at every point, fetched there or not (unfetched, the block index
    has not moved), for any proof data whose array is the region-entry one and whose body leaves the block in place. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's staging buffer holds its block at every point, fetched there or not (unfetched, the block index
    has not moved), for any proof data whose array is the region-entry one and whose body leaves the block in place. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's staging buffer holds its block at every point, fetched there or not (unfetched, the block index
    has not moved), for any proof data whose array is the region-entry one and whose body leaves the block in place. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's staging buffer holds its block at every point, fetched there or not (unfetched, the block index
    has not moved), for any proof data whose array is the region-entry one and whose body leaves the block in place. -/
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's staging buffer holds its block at every point, fetched there or not (unfetched, the block index
    has not moved), for any proof data whose array is the region-entry one and whose body leaves the block in place. -/
theorem before7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's staging buffer holds its block at every point, fetched there or not (unfetched, the block index
    has not moved), for any proof data whose array is the region-entry one and whose body leaves the block in place. -/
theorem before8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's staging buffer holds its block at every point, fetched there or not (unfetched, the block index
    has not moved), for any proof data whose array is the region-entry one and whose body leaves the block in place. -/
theorem before9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's staging buffer holds its block at every point, fetched there or not (unfetched, the block index
    has not moved), for any proof data whose array is the region-entry one and whose body leaves the block in place. -/
theorem before10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's staging buffer holds its block at every point, fetched there or not (unfetched, the block index
    has not moved), for any proof data whose array is the region-entry one and whose body leaves the block in place. -/
theorem before11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)

/-! ## The proof data -/

/-- On core `c`: the arrays as the region finds them; after the body at point `t` each input's buffer at its block,
    the hidden-state result's buffer at `hiddenBuf` and the cell-state result's at `cellBuf` of the twelve input blocks;
    the invariant is the scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => hiddenBuf (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
    | ⟨13, _⟩ => cellBuf (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
  Φ _ := Pipeline.ΦA spec0 c
  q _ := fullShare
  owed _ := 0

/-- The proof data's arrays are the region-entry contents (the definition projected, never unfolded through the
    fold over the earlier lines). -/
theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = hiddenBuf (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by dsimp only [dats]
theorem after13 (c : Dev nD) (t : Fin cfg0.N) : (dats m 0 c).after 13 t = cellBuf (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d
theorem before7 (c : Dev nD) (t : Fin cfg0.N) (d) : (dats m 0 c).before 7 t d = iblk m c 7 t :=
  before7_of m (dats m 0 c) (A_eq m c 7) (after7 m c) t d
theorem before8 (c : Dev nD) (t : Fin cfg0.N) (d) : (dats m 0 c).before 8 t d = iblk m c 8 t :=
  before8_of m (dats m 0 c) (A_eq m c 8) (after8 m c) t d
theorem before9 (c : Dev nD) (t : Fin cfg0.N) (d) : (dats m 0 c).before 9 t d = iblk m c 9 t :=
  before9_of m (dats m 0 c) (A_eq m c 9) (after9 m c) t d
theorem before10 (c : Dev nD) (t : Fin cfg0.N) (d) : (dats m 0 c).before 10 t d = iblk m c 10 t :=
  before10_of m (dats m 0 c) (A_eq m c 10) (after10 m c) t d
theorem before11 (c : Dev nD) (t : Fin cfg0.N) (d) : (dats m 0 c).before 11 t d = iblk m c 11 t :=
  before11_of m (dats m 0 c) (A_eq m c 11) (after11 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t))

set_option maxHeartbeats 4000000 in
/-- The body at any point: the inputs' buffers hold their blocks, so the body's triple applies; the invariant and the
    core's obligations pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11, after12, after13]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (sound_kernel c Set.univ (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- At the compiled mesh, from any memory with zero counters: every weakly fair execution of @main on the TensorCores
    terminates, and in every final state each array of the region holds what the write-backs left and every other
    unscoped buffer what the lines after the region leave. -/
theorem run_main : θ_run defs (onTc (τ := τ) (main (F := F))) (s₀ m ρ)
    (Pipeline.FramePost cfgs (dats m) 0 (Pipeline.afterTail₀ cfgs (dats m) 0 (V0 m) linesAfter)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := linesAfter) (hsub := after_sub) (hfresh := after_fresh) (hkeep := after_keeps)
    (hmain := hmain m Variants.none) (hA := A_eq m) (hΦ := fun _ _ => rfl)

/-- An argument (numbered below 5, no array of the region) ends as launched. -/
theorem arg_kept (r : Ref sig .tc) (hs : r.isScoped = false) (hr : r.idx.val < 5) (hne : ∀ w, Pipeline.arrRef spec0 w ≠ r)
    (res : PUnit × MemSt nD τ sig (Elt F))
    (h : Pipeline.FramePost cfgs (dats m) 0 (Pipeline.afterTail₀ cfgs (dats m) 0 (V0 m) linesAfter) res) (c : Dev nD) :
    res.2.mem ((c.tc : Thread nD τ).loc r) = m ((c.tc : Thread nD τ).loc r) :=
  (((h c).2 r (Pipeline.mem_restRefs_of r hs hne)).trans (tail_of_lt m (dats m) c r (Nat.lt_of_lt_of_le hr (by decide)) hne)).trans
    (V_of_lt m c r hr)

/-- THE FRAME, at any `F`: @main terminates without a fault and its five argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun res h c =>
    ⟨arg_kept m main_arg0 (by decide) (by decide) (by decide) res h c,
     arg_kept m main_arg1 (by decide) (by decide) (by decide) res h c,
     arg_kept m main_arg2 (by decide) (by decide) (by decide) res h c,
     arg_kept m main_arg3 (by decide) (by decide) (by decide) res h c,
     arg_kept m main_arg4 (by decide) (by decide) (by decide) res h c⟩) (run_main m ρ)

end Cert.KernelIdeal.Fused

end
-- ==== Proof.RefFrame.lean ====
/-
  The reference's frame: the reference is a straight line of host operations, so every weakly fair execution runs
  each line once, in order, and ends; no line writes an argument array, so the five arguments end as they began.
  This is the generated run of the reference with its result forgotten.
-/
import proofs.«177989_j29394756173864_2_alg».proof.Defs
import proofs.«177989_j29394756173864_2_alg».proof.Proof.Gen.ReferenceIdeal
import proofs.«177989_j29394756173864_2_alg».proof.Proof.Gen.ReferenceIdeal.Run
import proofs.«177989_j29394756173864_2_alg».proof.Proof.Gen.Pre_finite_inputs

noncomputable section

open Idealize.ShloMosaic Idealize.ShloMosaic.TcCoe Idealize.SL.Sem

namespace Cert.Proof.RefFrame

/-- The reference terminates without a fault and leaves its five argument arrays unchanged. -/
theorem frame_ri : Cert.frame_ReferenceIdeal := fun m ρ _ =>
  (θ_run Cert.ReferenceIdeal.defs _ _).mono (fun _ h c => (h c).2) (Cert.ReferenceIdeal.Value.run (F := Ideal) m ρ)

end Cert.Proof.RefFrame

end
-- ==== Proof.KI.Tail.L0.lean ====
/-
  Level 0 of the host lines after the region: 512 nodes (tree level 9).

  The level's 50 lines read the five arguments and the two arrays of the level below (`main_v32_0`, `main_v32_1`: hidden and
  cell states, 128 columns), and end by writing this level's hidden states to `main_v75` and cell states to `main_v76`
  (128 kept columns each). Here: the lines, those two buffers after the lines as the composed term of what the lines
  read, and that the lines write only buffers numbered 39 or higher.
-/
import proofs.«177989_j29394756173864_2_alg».proof.Proof.KI.Lines
import Idealize.ShloMosaic.Lib.StableHlo.Run

set_option maxRecDepth 16384

noncomputable section

namespace Cert.KernelIdeal.Fused

open Cert.KernelIdeal Cert.KernelIdeal.Gen
open Idealize.ShloMosaic Idealize.ShloMosaic.TcCoe Idealize.SL.Sem Idealize.ShloMosaic.StableHlo

variable {F : FTy → Type} [FloatOps F]

/-- The level's lines, in program order. -/
abbrev tail0 : List (HloOp τ sig (Elt F)) :=
  [ StableHlo.unary main_arg0 main_v33 ((extractStridedSlice S512x128 ![511, 0] · slices_S262143x128_S512x128_511_0) : (⟨S262143x128, .f32⟩ : BufTy).Contents (Elt F) → (⟨S512x128, .f32⟩ : BufTy).Contents (Elt F)),
    StableHlo.reshape main_v32_0 main_v34 rfl shapeCasts_S1024x128_S512x256,
    StableHlo.reshape main_v32_1 main_v35 rfl shapeCasts_S1024x128_S512x256,
    StableHlo.unary main_arg1 main_v36 ((transpose S128x1024 [1, 0] · transposes_S1024x128_S128x1024_1_0) : (⟨S1024x128, .f32⟩ : BufTy).Contents (Elt F) → (⟨S128x1024, .f32⟩ : BufTy).Contents (Elt F)),
    StableHlo.binary main_v33 main_v36 main_v37 ((fun l r => Host.dotGeneral dot_S512x128_S128x1024_S512x1024_1_0_0_1_n_n none l r) : (⟨S512x128, .f32⟩ : BufTy).Contents (Elt F) → (⟨S128x1024, .f32⟩ : BufTy).Contents (Elt F) → (⟨S512x1024, .f32⟩ : BufTy).Contents (Elt F)),
    StableHlo.unary main_arg3 main_v38 (broadcastInDim S1x1024 ![1] bcast_S1024_S1x1024_1 : (⟨S1024, .f32⟩ : BufTy).Contents (Elt F) → (⟨S1x1024, .f32⟩ : BufTy).Contents (Elt F)),
    StableHlo.unary main_v38 main_v39 (broadcastInDim S512x1024 ![0, 1] bcast_S1x1024_S512x1024_0_1 : (⟨S1x1024, .f32⟩ : BufTy).Contents (Elt F) → (⟨S512x1024, .f32⟩ : BufTy).Contents (Elt F)),
    StableHlo.binary main_v37 main_v39 main_v40 (addf : (⟨S512x1024, .f32⟩ : BufTy).Contents (Elt F) → (⟨S512x1024, .f32⟩ : BufTy).Contents (Elt F) → (⟨S512x1024, .f32⟩ : BufTy).Contents (Elt F)),
    StableHlo.unary main_arg2 main_v41 ((transpose S256x1024 [1, 0] · transposes_S1024x256_S256x1024_1_0) : (⟨S1024x256, .f32⟩ : BufTy).Contents (Elt F) → (⟨S256x1024, .f32⟩ : BufTy).Contents (Elt F)),
    StableHlo.binary main_v34 main_v41 main_v42 ((fun l r => Host.dotGeneral dot_S512x256_S256x1024_S512x1024_1_0_0_1_n_n none l r) : (⟨S512x256, .f32⟩ : BufTy).Contents (Elt F) → (⟨S256x1024, .f32⟩ : BufTy).Contents (Elt F) → (⟨S512x1024, .f32⟩ : BufTy).Contents (Elt F)),
    StableHlo.binary main_v40 main_v42 main_v43 (addf : (⟨S512x1024, .f32⟩ : BufTy).Contents (Elt F) → (⟨S512x1024, .f32⟩ : BufTy).Contents (Elt F) → (⟨S512x1024, .f32⟩ : BufTy).Contents (Elt F)),
    StableHlo.unary main_arg4 main_v44 (broadcastInDim S1x1024 ![1] bcast_S1024_S1x1024_1 : (⟨S1024, .f32⟩ : BufTy).Contents (Elt F) → (⟨S1x1024, .f32⟩ : BufTy).Contents (Elt F)),
    StableHlo.unary main_v44 main_v45 (broadcastInDim S512x1024 ![0, 1] bcast_S1x1024_S512x1024_0_1 : (⟨S1x1024, .f32⟩ : BufTy).Contents (Elt F) → (⟨S512x1024, .f32⟩ : BufTy).Contents (Elt F)),
    StableHlo.binary main_v43 main_v45 main_v46 (addf : (⟨S512x1024, .f32⟩ : BufTy).Contents (Elt F) → (⟨S512x1024, .f32⟩ : BufTy).Contents (Elt F) → (⟨S512x1024, .f32⟩ : BufTy).Contents (Elt F)),
    StableHlo.unary main_v46 main_v47 ((extractStridedSlice S512x256 ![0, 0] · slices_S512x1024_S512x256_0_0) : (⟨S512x1024, .f32⟩ : BufTy).Contents (Elt F) → (⟨S512x256, .f32⟩ : BufTy).Contents (Elt F)),
    StableHlo.unary main_v46 main_v48 ((extractStridedSlice S512x256 ![0, 256] · slices_S512x1024_S512x256_0_256) : (⟨S512x1024, .f32⟩ : BufTy).Contents (Elt F) → (⟨S512x256, .f32⟩ : BufTy).Contents (Elt F)),
    StableHlo.unary main_v46 main_v49 ((extractStridedSlice S512x256 ![0, 512] · slices_S512x1024_S512x256_0_512) : (⟨S512x1024, .f32⟩ : BufTy).Contents (Elt F) → (⟨S512x256, .f32⟩ : BufTy).Contents (Elt F)),
    StableHlo.unary main_v46 main_v50 ((extractStridedSlice S512x256 ![0, 768] · slices_S512x1024_S512x256_0_768) : (⟨S512x1024, .f32⟩ : BufTy).Contents (Elt F) → (⟨S512x256, .f32⟩ : BufTy).Contents (Elt F)),
    StableHlo.unary main_v48 main_v51 (Host.negf : (⟨S512x256, .f32⟩ : BufTy).Contents (Elt F) → (⟨S512x256, .f32⟩ : BufTy).Contents (Elt F)),
    StableHlo.unary main_v51 main_v52 (Host.exp : (⟨S512x256, .f32⟩ : BufTy).Contents (Elt F) → (⟨S512x256, .f32⟩ : BufTy).Contents (Elt F)),
    StableHlo.nullary main_cst (constant S_ .f32 0x3F800000#32),
    StableHlo.unary main_cst main_v53 (broadcastInDim S512x256 ![] bcast_S_S512x256 : (⟨S_, .f32⟩ : BufTy).Contents (Elt F) → (⟨S512x256, .f32⟩ : BufTy).Contents (Elt F)),
    StableHlo.binary main_v53 main_v52 main_v54 (addf : (⟨S512x256, .f32⟩ : BufTy).Contents (Elt F) → (⟨S512x256, .f32⟩ : BufTy).Contents (Elt F) → (⟨S512x256, .f32⟩ : BufTy).Contents (Elt F)),
    StableHlo.nullary main_cst_0 (constant S_ .f32 0x3F800000#32),
    StableHlo.unary main_cst_0 main_v55 (broadcastInDim S512x256 ![] bcast_S_S512x256 : (⟨S_, .f32⟩ : BufTy).Contents (Elt F) → (⟨S512x256, .f32⟩ : BufTy).Contents (Elt F)),
    StableHlo.binary main_v55 main_v54 main_v56 (Host.divf : (⟨S512x256, .f32⟩ : BufTy).Contents (Elt F) → (⟨S512x256, .f32⟩ : BufTy).Contents (Elt F) → (⟨S512x256, .f32⟩ : BufTy).Contents (Elt F)),
    StableHlo.binary main_v56 main_v35 main_v57 (mulf : (⟨S512x256, .f32⟩ : BufTy).Contents (Elt F) → (⟨S512x256, .f32⟩ : BufTy).Contents (Elt F) → (⟨S512x256, .f32⟩ : BufTy).Contents (Elt F)),
    StableHlo.unary main_v47 main_v58 (Host.negf : (⟨S512x256, .f32⟩ : BufTy).Contents (Elt F) → (⟨S512x256, .f32⟩ : BufTy).Contents (Elt F)),
    StableHlo.unary main_v58 main_v59 (Host.exp : (⟨S512x256, .f32⟩ : BufTy).Contents (Elt F) → (⟨S512x256, .f32⟩ : BufTy).Contents (Elt F)),
    StableHlo.nullary main_cst_1 (constant S_ .f32 0x3F800000#32),
    StableHlo.unary main_cst_1 main_v60 (broadcastInDim S512x256 ![] bcast_S_S512x256 : (⟨S_, .f32⟩ : BufTy).Contents (Elt F) → (⟨S512x256, .f32⟩ : BufTy).Contents (Elt F)),
    StableHlo.binary main_v60 main_v59 main_v61 (addf : (⟨S512x256, .f32⟩ : BufTy).Contents (Elt F) → (⟨S512x256, .f32⟩ : BufTy).Contents (Elt F) → (⟨S512x256, .f32⟩ : BufTy).Contents (Elt F)),
    StableHlo.nullary main_cst_2 (constant S_ .f32 0x3F800000#32),
    StableHlo.unary main_cst_2 main_v62 (broadcastInDim S512x256 ![] bcast_S_S512x256 : (⟨S_, .f32⟩ : BufTy).Contents (Elt F) → (⟨S512x256, .f32⟩ : BufTy).Contents (Elt F)),
    StableHlo.binary main_v62 main_v61 main_v63 (Host.divf : (⟨S512x256, .f32⟩ : BufTy).Contents (Elt F) → (⟨S512x256, .f32⟩ : BufTy).Contents (Elt F) → (⟨S512x256, .f32⟩ : BufTy).Contents (Elt F)),
    StableHlo.unary main_v49 main_v64 (Host.tanh : (⟨S512x256, .f32⟩ : BufTy).Contents (Elt F) → (⟨S512x256, .f32⟩ : BufTy).Contents (Elt F)),
    StableHlo.binary main_v63 main_v64 main_v65 (mulf : (⟨S512x256, .f32⟩ : BufTy).Contents (Elt F) → (⟨S512x256, .f32⟩ : BufTy).Contents (Elt F) → (⟨S512x256, .f32⟩ : BufTy).Contents (Elt F)),
    StableHlo.binary main_v57 main_v65 main_v66 (addf : (⟨S512x256, .f32⟩ : BufTy).Contents (Elt F) → (⟨S512x256, .f32⟩ : BufTy).Contents (Elt F) → (⟨S512x256, .f32⟩ : BufTy).Contents (Elt F)),
    StableHlo.unary main_v50 main_v67 (Host.negf : (⟨S512x256, .f32⟩ : BufTy).Contents (Elt F) → (⟨S512x256, .f32⟩ : BufTy).Contents (Elt F)),
    StableHlo.unary main_v67 main_v68 (Host.exp : (⟨S512x256, .f32⟩ : BufTy).Contents (Elt F) → (⟨S512x256, .f32⟩ : BufTy).Contents (Elt F)),
    StableHlo.nullary main_cst_3 (constant S_ .f32 0x3F800000#32),
    StableHlo.unary main_cst_3 main_v69 (broadcastInDim S512x256 ![] bcast_S_S512x256 : (⟨S_, .f32⟩ : BufTy).Contents (Elt F) → (⟨S512x256, .f32⟩ : BufTy).Contents (Elt F)),
    StableHlo.binary main_v69 main_v68 main_v70 (addf : (⟨S512x256, .f32⟩ : BufTy).Contents (Elt F) → (⟨S512x256, .f32⟩ : BufTy).Contents (Elt F) → (⟨S512x256, .f32⟩ : BufTy).Contents (Elt F)),
    StableHlo.nullary main_cst_4 (constant S_ .f32 0x3F800000#32),
    StableHlo.unary main_cst_4 main_v71 (broadcastInDim S512x256 ![] bcast_S_S512x256 : (⟨S_, .f32⟩ : BufTy).Contents (Elt F) → (⟨S512x256, .f32⟩ : BufTy).Contents (Elt F)),
    StableHlo.binary main_v71 main_v70 main_v72 (Host.divf : (⟨S512x256, .f32⟩ : BufTy).Contents (Elt F) → (⟨S512x256, .f32⟩ : BufTy).Contents (Elt F) → (⟨S512x256, .f32⟩ : BufTy).Contents (Elt F)),
    StableHlo.unary main_v66 main_v73 (Host.tanh : (⟨S512x256, .f32⟩ : BufTy).Contents (Elt F) → (⟨S512x256, .f32⟩ : BufTy).Contents (Elt F)),
    StableHlo.binary main_v72 main_v73 main_v74 (mulf : (⟨S512x256, .f32⟩ : BufTy).Contents (Elt F) → (⟨S512x256, .f32⟩ : BufTy).Contents (Elt F) → (⟨S512x256, .f32⟩ : BufTy).Contents (Elt F)),
    StableHlo.unary main_v74 main_v75 ((extractStridedSlice S512x128 ![0, 0] · slices_S512x256_S512x128_0_0) : (⟨S512x256, .f32⟩ : BufTy).Contents (Elt F) → (⟨S512x128, .f32⟩ : BufTy).Contents (Elt F)),
    StableHlo.unary main_v66 main_v76 ((extractStridedSlice S512x128 ![0, 0] · slices_S512x256_S512x128_0_0) : (⟨S512x256, .f32⟩ : BufTy).Contents (Elt F) → (⟨S512x128, .f32⟩ : BufTy).Contents (Elt F)) ]

/-- The level's hidden states (kept columns) as a function of the arrays the lines read: the five arguments and the
    hidden and cell arrays of the level below. -/
def tail0Hf (E : FVec F S262143x128 .f32) (Wih : FVec F S1024x128 .f32) (Whh : FVec F S1024x256 .f32) (bih bhh : FVec F S1024 .f32) (hp cp : FVec F S1024x128 .f32) : FVec F S512x128 .f32 :=
  (extractStridedSlice S512x128 ![0, 0] (mulf (Host.divf (broadcastInDim S512x256 ![] bcast_S_S512x256 (constant S_ .f32 0x3F800000#32)) (addf (broadcastInDim S512x256 ![] bcast_S_S512x256 (constant S_ .f32 0x3F800000#32)) (Host.exp (Host.negf (extractStridedSlice S512x256 ![0, 768] (addf (addf (addf (Host.dotGeneral dot_S512x128_S128x1024_S512x1024_1_0_0_1_n_n none (extractStridedSlice S512x128 ![511, 0] E slices_S262143x128_S512x128_511_0) (transpose S128x1024 [1, 0] Wih transposes_S1024x128_S128x1024_1_0)) (broadcastInDim S512x1024 ![0, 1] bcast_S1x1024_S512x1024_0_1 (broadcastInDim S1x1024 ![1] bcast_S1024_S1x1024_1 bih))) (Host.dotGeneral dot_S512x256_S256x1024_S512x1024_1_0_0_1_n_n none (shapeCast _ hp shapeCasts_S1024x128_S512x256) (transpose S256x1024 [1, 0] Whh transposes_S1024x256_S256x1024_1_0))) (broadcastInDim S512x1024 ![0, 1] bcast_S1x1024_S512x1024_0_1 (broadcastInDim S1x1024 ![1] bcast_S1024_S1x1024_1 bhh))) slices_S512x1024_S512x256_0_768))))) (Host.tanh (addf (mulf (Host.divf (broadcastInDim S512x256 ![] bcast_S_S512x256 (constant S_ .f32 0x3F800000#32)) (addf (broadcastInDim S512x256 ![] bcast_S_S512x256 (constant S_ .f32 0x3F800000#32)) (Host.exp (Host.negf (extractStridedSlice S512x256 ![0, 256] (addf (addf (addf (Host.dotGeneral dot_S512x128_S128x1024_S512x1024_1_0_0_1_n_n none (extractStridedSlice S512x128 ![511, 0] E slices_S262143x128_S512x128_511_0) (transpose S128x1024 [1, 0] Wih transposes_S1024x128_S128x1024_1_0)) (broadcastInDim S512x1024 ![0, 1] bcast_S1x1024_S512x1024_0_1 (broadcastInDim S1x1024 ![1] bcast_S1024_S1x1024_1 bih))) (Host.dotGeneral dot_S512x256_S256x1024_S512x1024_1_0_0_1_n_n none (shapeCast _ hp shapeCasts_S1024x128_S512x256) (transpose S256x1024 [1, 0] Whh transposes_S1024x256_S256x1024_1_0))) (broadcastInDim S512x1024 ![0, 1] bcast_S1x1024_S512x1024_0_1 (broadcastInDim S1x1024 ![1] bcast_S1024_S1x1024_1 bhh))) slices_S512x1024_S512x256_0_256))))) (shapeCast _ cp shapeCasts_S1024x128_S512x256)) (mulf (Host.divf (broadcastInDim S512x256 ![] bcast_S_S512x256 (constant S_ .f32 0x3F800000#32)) (addf (broadcastInDim S512x256 ![] bcast_S_S512x256 (constant S_ .f32 0x3F800000#32)) (Host.exp (Host.negf (extractStridedSlice S512x256 ![0, 0] (addf (addf (addf (Host.dotGeneral dot_S512x128_S128x1024_S512x1024_1_0_0_1_n_n none (extractStridedSlice S512x128 ![511, 0] E slices_S262143x128_S512x128_511_0) (transpose S128x1024 [1, 0] Wih transposes_S1024x128_S128x1024_1_0)) (broadcastInDim S512x1024 ![0, 1] bcast_S1x1024_S512x1024_0_1 (broadcastInDim S1x1024 ![1] bcast_S1024_S1x1024_1 bih))) (Host.dotGeneral dot_S512x256_S256x1024_S512x1024_1_0_0_1_n_n none (shapeCast _ hp shapeCasts_S1024x128_S512x256) (transpose S256x1024 [1, 0] Whh transposes_S1024x256_S256x1024_1_0))) (broadcastInDim S512x1024 ![0, 1] bcast_S1x1024_S512x1024_0_1 (broadcastInDim S1x1024 ![1] bcast_S1024_S1x1024_1 bhh))) slices_S512x1024_S512x256_0_0))))) (Host.tanh (extractStridedSlice S512x256 ![0, 512] (addf (addf (addf (Host.dotGeneral dot_S512x128_S128x1024_S512x1024_1_0_0_1_n_n none (extractStridedSlice S512x128 ![511, 0] E slices_S262143x128_S512x128_511_0) (transpose S128x1024 [1, 0] Wih transposes_S1024x128_S128x1024_1_0)) (broadcastInDim S512x1024 ![0, 1] bcast_S1x1024_S512x1024_0_1 (broadcastInDim S1x1024 ![1] bcast_S1024_S1x1024_1 bih))) (Host.dotGeneral dot_S512x256_S256x1024_S512x1024_1_0_0_1_n_n none (shapeCast _ hp shapeCasts_S1024x128_S512x256) (transpose S256x1024 [1, 0] Whh transposes_S1024x256_S256x1024_1_0))) (broadcastInDim S512x1024 ![0, 1] bcast_S1x1024_S512x1024_0_1 (broadcastInDim S1x1024 ![1] bcast_S1024_S1x1024_1 bhh))) slices_S512x1024_S512x256_0_512)))))) slices_S512x256_S512x128_0_0)

/-- The level's cell states (kept columns) as a function of the same arrays. -/
def tail0Cf (E : FVec F S262143x128 .f32) (Wih : FVec F S1024x128 .f32) (Whh : FVec F S1024x256 .f32) (bih bhh : FVec F S1024 .f32) (hp cp : FVec F S1024x128 .f32) : FVec F S512x128 .f32 :=
  (extractStridedSlice S512x128 ![0, 0] (addf (mulf (Host.divf (broadcastInDim S512x256 ![] bcast_S_S512x256 (constant S_ .f32 0x3F800000#32)) (addf (broadcastInDim S512x256 ![] bcast_S_S512x256 (constant S_ .f32 0x3F800000#32)) (Host.exp (Host.negf (extractStridedSlice S512x256 ![0, 256] (addf (addf (addf (Host.dotGeneral dot_S512x128_S128x1024_S512x1024_1_0_0_1_n_n none (extractStridedSlice S512x128 ![511, 0] E slices_S262143x128_S512x128_511_0) (transpose S128x1024 [1, 0] Wih transposes_S1024x128_S128x1024_1_0)) (broadcastInDim S512x1024 ![0, 1] bcast_S1x1024_S512x1024_0_1 (broadcastInDim S1x1024 ![1] bcast_S1024_S1x1024_1 bih))) (Host.dotGeneral dot_S512x256_S256x1024_S512x1024_1_0_0_1_n_n none (shapeCast _ hp shapeCasts_S1024x128_S512x256) (transpose S256x1024 [1, 0] Whh transposes_S1024x256_S256x1024_1_0))) (broadcastInDim S512x1024 ![0, 1] bcast_S1x1024_S512x1024_0_1 (broadcastInDim S1x1024 ![1] bcast_S1024_S1x1024_1 bhh))) slices_S512x1024_S512x256_0_256))))) (shapeCast _ cp shapeCasts_S1024x128_S512x256)) (mulf (Host.divf (broadcastInDim S512x256 ![] bcast_S_S512x256 (constant S_ .f32 0x3F800000#32)) (addf (broadcastInDim S512x256 ![] bcast_S_S512x256 (constant S_ .f32 0x3F800000#32)) (Host.exp (Host.negf (extractStridedSlice S512x256 ![0, 0] (addf (addf (addf (Host.dotGeneral dot_S512x128_S128x1024_S512x1024_1_0_0_1_n_n none (extractStridedSlice S512x128 ![511, 0] E slices_S262143x128_S512x128_511_0) (transpose S128x1024 [1, 0] Wih transposes_S1024x128_S128x1024_1_0)) (broadcastInDim S512x1024 ![0, 1] bcast_S1x1024_S512x1024_0_1 (broadcastInDim S1x1024 ![1] bcast_S1024_S1x1024_1 bih))) (Host.dotGeneral dot_S512x256_S256x1024_S512x1024_1_0_0_1_n_n none (shapeCast _ hp shapeCasts_S1024x128_S512x256) (transpose S256x1024 [1, 0] Whh transposes_S1024x256_S256x1024_1_0))) (broadcastInDim S512x1024 ![0, 1] bcast_S1x1024_S512x1024_0_1 (broadcastInDim S1x1024 ![1] bcast_S1024_S1x1024_1 bhh))) slices_S512x1024_S512x256_0_0))))) (Host.tanh (extractStridedSlice S512x256 ![0, 512] (addf (addf (addf (Host.dotGeneral dot_S512x128_S128x1024_S512x1024_1_0_0_1_n_n none (extractStridedSlice S512x128 ![511, 0] E slices_S262143x128_S512x128_511_0) (transpose S128x1024 [1, 0] Wih transposes_S1024x128_S128x1024_1_0)) (broadcastInDim S512x1024 ![0, 1] bcast_S1x1024_S512x1024_0_1 (broadcastInDim S1x1024 ![1] bcast_S1024_S1x1024_1 bih))) (Host.dotGeneral dot_S512x256_S256x1024_S512x1024_1_0_0_1_n_n none (shapeCast _ hp shapeCasts_S1024x128_S512x256) (transpose S256x1024 [1, 0] Whh transposes_S1024x256_S256x1024_1_0))) (broadcastInDim S512x1024 ![0, 1] bcast_S1x1024_S512x1024_0_1 (broadcastInDim S1x1024 ![1] bcast_S1024_S1x1024_1 bhh))) slices_S512x1024_S512x256_0_512)))) slices_S512x256_S512x128_0_0)

set_option maxHeartbeats 4000000 in
theorem tail0_hidden (V : Valuation τ sig (Elt F)) :
    after tail0 V (Proc.devRef .tc main_v75) = tail0Hf (V (Proc.devRef .tc main_arg0)) (V (Proc.devRef .tc main_arg1)) (V (Proc.devRef .tc main_arg2)) (V (Proc.devRef .tc main_arg3)) (V (Proc.devRef .tc main_arg4)) (V (Proc.devRef .tc main_v32_0)) (V (Proc.devRef .tc main_v32_1)) := by
  unfold tail0Hf
  simp only [tail0]
  after_results_simp
  first | rfl | (simp only [] <;> rfl)

set_option maxHeartbeats 4000000 in
theorem tail0_cell (V : Valuation τ sig (Elt F)) :
    after tail0 V (Proc.devRef .tc main_v76) = tail0Cf (V (Proc.devRef .tc main_arg0)) (V (Proc.devRef .tc main_arg1)) (V (Proc.devRef .tc main_arg2)) (V (Proc.devRef .tc main_arg3)) (V (Proc.devRef .tc main_arg4)) (V (Proc.devRef .tc main_v32_0)) (V (Proc.devRef .tc main_v32_1)) := by
  unfold tail0Cf
  simp only [tail0]
  after_results_simp
  first | rfl | (simp only [] <;> rfl)

set_option maxHeartbeats 4000000 in
/-- The level's lines write only buffers numbered 39 or higher. -/
theorem tail0_from : WritesFrom 39 (tail0 : List (HloOp τ sig (Elt F))) := by
  unfold WritesFrom
  simp only [tail0, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals (intro r hr; cases Proc.devRef_injective _ hr; decide)

/-- So a buffer numbered below 39 keeps its contents through the level. -/
theorem tail0_keep (V : Valuation τ sig (Elt F)) (r : Ref sig .tc) (hr : r.idx.val < 39) :
    after tail0 V (Proc.devRef .tc r) = V (Proc.devRef .tc r) :=
  after_of_forall_not_mem (b := Proc.devRef .tc r) _ _ (fun op hop hw =>
    absurd ((List.forall_iff_forall_mem.mp tail0_from) op hop r hw) (Nat.not_le.mpr hr))

end Cert.KernelIdeal.Fused

end
-- ==== Proof.KI.Tail.L1.lean ====
/-
  Level 1 of the host lines after the region: 256 nodes (tree level 8).

  The level's 50 lines read the five arguments and the two arrays of the level below (`main_v75`, `main_v76`: hidden and
  cell states, 128 columns), and end by writing this level's hidden states to `main_v119` and cell states to `main_v120`
  (128 kept columns each). Here: the lines, those two buffers after the lines as the composed term of what the lines
  read, and that the lines write only buffers numbered 89 or higher.
-/
import proofs.«177989_j29394756173864_2_alg».proof.Proof.KI.Lines
import Idealize.ShloMosaic.Lib.StableHlo.Run

set_option maxRecDepth 16384

noncomputable section

namespace Cert.KernelIdeal.Fused

open Cert.KernelIdeal Cert.KernelIdeal.Gen
open Idealize.ShloMosaic Idealize.ShloMosaic.TcCoe Idealize.SL.Sem Idealize.ShloMosaic.StableHlo

variable {F : FTy → Type} [FloatOps F]

/-- The level's lines, in program order. -/
abbrev tail1 : List (HloOp τ sig (Elt F)) :=
  [ StableHlo.unary main_arg0 main_v77 ((extractStridedSlice S256x128 ![255, 0] · slices_S262143x128_S256x128_255_0) : (⟨S262143x128, .f32⟩ : BufTy).Contents (Elt F) → (⟨S256x128, .f32⟩ : BufTy).Contents (Elt F)),
    StableHlo.reshape main_v75 main_v78 rfl shapeCasts_S512x128_S256x256,
    StableHlo.reshape main_v76 main_v79 rfl shapeCasts_S512x128_S256x256,
    StableHlo.unary main_arg1 main_v80 ((transpose S128x1024 [1, 0] · transposes_S1024x128_S128x1024_1_0) : (⟨S1024x128, .f32⟩ : BufTy).Contents (Elt F) → (⟨S128x1024, .f32⟩ : BufTy).Contents (Elt F)),
    StableHlo.binary main_v77 main_v80 main_v81 ((fun l r => Host.dotGeneral dot_S256x128_S128x1024_S256x1024_1_0_0_1_n_n none l r) : (⟨S256x128, .f32⟩ : BufTy).Contents (Elt F) → (⟨S128x1024, .f32⟩ : BufTy).Contents (Elt F) → (⟨S256x1024, .f32⟩ : BufTy).Contents (Elt F)),
    StableHlo.unary main_arg3 main_v82 (broadcastInDim S1x1024 ![1] bcast_S1024_S1x1024_1 : (⟨S1024, .f32⟩ : BufTy).Contents (Elt F) → (⟨S1x1024, .f32⟩ : BufTy).Contents (Elt F)),
    StableHlo.unary main_v82 main_v83 (broadcastInDim S256x1024 ![0, 1] bcast_S1x1024_S256x1024_0_1 : (⟨S1x1024, .f32⟩ : BufTy).Contents (Elt F) → (⟨S256x1024, .f32⟩ : BufTy).Contents (Elt F)),
    StableHlo.binary main_v81 main_v83 main_v84 (addf : (⟨S256x1024, .f32⟩ : BufTy).Contents (Elt F) → (⟨S256x1024, .f32⟩ : BufTy).Contents (Elt F) → (⟨S256x1024, .f32⟩ : BufTy).Contents (Elt F)),
    StableHlo.unary main_arg2 main_v85 ((transpose S256x1024 [1, 0] · transposes_S1024x256_S256x1024_1_0) : (⟨S1024x256, .f32⟩ : BufTy).Contents (Elt F) → (⟨S256x1024, .f32⟩ : BufTy).Contents (Elt F)),
    StableHlo.binary main_v78 main_v85 main_v86 ((fun l r => Host.dotGeneral dot_S256x256_S256x1024_S256x1024_1_0_0_1_n_n none l r) : (⟨S256x256, .f32⟩ : BufTy).Contents (Elt F) → (⟨S256x1024, .f32⟩ : BufTy).Contents (Elt F) → (⟨S256x1024, .f32⟩ : BufTy).Contents (Elt F)),
    StableHlo.binary main_v84 main_v86 main_v87 (addf : (⟨S256x1024, .f32⟩ : BufTy).Contents (Elt F) → (⟨S256x1024, .f32⟩ : BufTy).Contents (Elt F) → (⟨S256x1024, .f32⟩ : BufTy).Contents (Elt F)),
    StableHlo.unary main_arg4 main_v88 (broadcastInDim S1x1024 ![1] bcast_S1024_S1x1024_1 : (⟨S1024, .f32⟩ : BufTy).Contents (Elt F) → (⟨S1x1024, .f32⟩ : BufTy).Contents (Elt F)),
    StableHlo.unary main_v88 main_v89 (broadcastInDim S256x1024 ![0, 1] bcast_S1x1024_S256x1024_0_1 : (⟨S1x1024, .f32⟩ : BufTy).Contents (Elt F) → (⟨S256x1024, .f32⟩ : BufTy).Contents (Elt F)),
    StableHlo.binary main_v87 main_v89 main_v90 (addf : (⟨S256x1024, .f32⟩ : BufTy).Contents (Elt F) → (⟨S256x1024, .f32⟩ : BufTy).Contents (Elt F) → (⟨S256x1024, .f32⟩ : BufTy).Contents (Elt F)),
    StableHlo.unary main_v90 main_v91 ((extractStridedSlice S256x256 ![0, 0] · slices_S256x1024_S256x256_0_0) : (⟨S256x1024, .f32⟩ : BufTy).Contents (Elt F) → (⟨S256x256, .f32⟩ : BufTy).Contents (Elt F)),
    StableHlo.unary main_v90 main_v92 ((extractStridedSlice S256x256 ![0, 256] · slices_S256x1024_S256x256_0_256) : (⟨S256x1024, .f32⟩ : BufTy).Contents (Elt F) → (⟨S256x256, .f32⟩ : BufTy).Contents (Elt F)),
    StableHlo.unary main_v90 main_v93 ((extractStridedSlice S256x256 ![0, 512] · slices_S256x1024_S256x256_0_512) : (⟨S256x1024, .f32⟩ : BufTy).Contents (Elt F) → (⟨S256x256, .f32⟩ : BufTy).Contents (Elt F)),
    StableHlo.unary main_v90 main_v94 ((extractStridedSlice S256x256 ![0, 768] · slices_S256x1024_S256x256_0_768) : (⟨S256x1024, .f32⟩ : BufTy).Contents (Elt F) → (⟨S256x256, .f32⟩ : BufTy).Contents (Elt F)),
    StableHlo.unary main_v92 main_v95 (Host.negf : (⟨S256x256, .f32⟩ : BufTy).Contents (Elt F) → (⟨S256x256, .f32⟩ : BufTy).Contents (Elt F)),
    StableHlo.unary main_v95 main_v96 (Host.exp : (⟨S256x256, .f32⟩ : BufTy).Contents (Elt F) → (⟨S256x256, .f32⟩ : BufTy).Contents (Elt F)),
    StableHlo.nullary main_cst_5 (constant S_ .f32 0x3F800000#32),
    StableHlo.unary main_cst_5 main_v97 (broadcastInDim S256x256 ![] bcast_S_S256x256 : (⟨S_, .f32⟩ : BufTy).Contents (Elt F) → (⟨S256x256, .f32⟩ : BufTy).Contents (Elt F)),
    StableHlo.binary main_v97 main_v96 main_v98 (addf : (⟨S256x256, .f32⟩ : BufTy).Contents (Elt F) → (⟨S256x256, .f32⟩ : BufTy).Contents (Elt F) → (⟨S256x256, .f32⟩ : BufTy).Contents (Elt F)),
    StableHlo.nullary main_cst_6 (constant S_ .f32 0x3F800000#32),
    StableHlo.unary main_cst_6 main_v99 (broadcastInDim S256x256 ![] bcast_S_S256x256 : (⟨S_, .f32⟩ : BufTy).Contents (Elt F) → (⟨S256x256, .f32⟩ : BufTy).Contents (Elt F)),
    StableHlo.binary main_v99 main_v98 main_v100 (Host.divf : (⟨S256x256, .f32⟩ : BufTy).Contents (Elt F) → (⟨S256x256, .f32⟩ : BufTy).Contents (Elt F) → (⟨S256x256, .f32⟩ : BufTy).Contents (Elt F)),
    StableHlo.binary main_v100 main_v79 main_v101 (mulf : (⟨S256x256, .f32⟩ : BufTy).Contents (Elt F) → (⟨S256x256, .f32⟩ : BufTy).Contents (Elt F) → (⟨S256x256, .f32⟩ : BufTy).Contents (Elt F)),
    StableHlo.unary main_v91 main_v102 (Host.negf : (⟨S256x256, .f32⟩ : BufTy).Contents (Elt F) → (⟨S256x256, .f32⟩ : BufTy).Contents (Elt F)),
    StableHlo.unary main_v102 main_v103 (Host.exp : (⟨S256x256, .f32⟩ : BufTy).Contents (Elt F) → (⟨S256x256, .f32⟩ : BufTy).Contents (Elt F)),
    StableHlo.nullary main_cst_7 (constant S_ .f32 0x3F800000#32),
    StableHlo.unary main_cst_7 main_v104 (broadcastInDim S256x256 ![] bcast_S_S256x256 : (⟨S_, .f32⟩ : BufTy).Contents (Elt F) → (⟨S256x256, .f32⟩ : BufTy).Contents (Elt F)),
    StableHlo.binary main_v104 main_v103 main_v105 (addf : (⟨S256x256, .f32⟩ : BufTy).Contents (Elt F) → (⟨S256x256, .f32⟩ : BufTy).Contents (Elt F) → (⟨S256x256, .f32⟩ : BufTy).Contents (Elt F)),
    StableHlo.nullary main_cst_8 (constant S_ .f32 0x3F800000#32),
    StableHlo.unary main_cst_8 main_v106 (broadcastInDim S256x256 ![] bcast_S_S256x256 : (⟨S_, .f32⟩ : BufTy).Contents (Elt F) → (⟨S256x256, .f32⟩ : BufTy).Contents (Elt F)),
    StableHlo.binary main_v106 main_v105 main_v107 (Host.divf : (⟨S256x256, .f32⟩ : BufTy).Contents (Elt F) → (⟨S256x256, .f32⟩ : BufTy).Contents (Elt F) → (⟨S256x256, .f32⟩ : BufTy).Contents (Elt F)),
    StableHlo.unary main_v93 main_v108 (Host.tanh : (⟨S256x256, .f32⟩ : BufTy).Contents (Elt F) → (⟨S256x256, .f32⟩ : BufTy).Contents (Elt F)),
    StableHlo.binary main_v107 main_v108 main_v109 (mulf : (⟨S256x256, .f32⟩ : BufTy).Contents (Elt F) → (⟨S256x256, .f32⟩ : BufTy).Contents (Elt F) → (⟨S256x256, .f32⟩ : BufTy).Contents (Elt F)),
    StableHlo.binary main_v101 main_v109 main_v110 (addf : (⟨S256x256, .f32⟩ : BufTy).Contents (Elt F) → (⟨S256x256, .f32⟩ : BufTy).Contents (Elt F) → (⟨S256x256, .f32⟩ : BufTy).Contents (Elt F)),
    StableHlo.unary main_v94 main_v111 (Host.negf : (⟨S256x256, .f32⟩ : BufTy).Contents (Elt F) → (⟨S256x256, .f32⟩ : BufTy).Contents (Elt F)),
    StableHlo.unary main_v111 main_v112 (Host.exp : (⟨S256x256, .f32⟩ : BufTy).Contents (Elt F) → (⟨S256x256, .f32⟩ : BufTy).Contents (Elt F)),
    StableHlo.nullary main_cst_9 (constant S_ .f32 0x3F800000#32),
    StableHlo.unary main_cst_9 main_v113 (broadcastInDim S256x256 ![] bcast_S_S256x256 : (⟨S_, .f32⟩ : BufTy).Contents (Elt F) → (⟨S256x256, .f32⟩ : BufTy).Contents (Elt F)),
    StableHlo.binary main_v113 main_v112 main_v114 (addf : (⟨S256x256, .f32⟩ : BufTy).Contents (Elt F) → (⟨S256x256, .f32⟩ : BufTy).Contents (Elt F) → (⟨S256x256, .f32⟩ : BufTy).Contents (Elt F)),
    StableHlo.nullary main_cst_10 (constant S_ .f32 0x3F800000#32),
    StableHlo.unary main_cst_10 main_v115 (broadcastInDim S256x256 ![] bcast_S_S256x256 : (⟨S_, .f32⟩ : BufTy).Contents (Elt F) → (⟨S256x256, .f32⟩ : BufTy).Contents (Elt F)),
    StableHlo.binary main_v115 main_v114 main_v116 (Host.divf : (⟨S256x256, .f32⟩ : BufTy).Contents (Elt F) → (⟨S256x256, .f32⟩ : BufTy).Contents (Elt F) → (⟨S256x256, .f32⟩ : BufTy).Contents (Elt F)),
    StableHlo.unary main_v110 main_v117 (Host.tanh : (⟨S256x256, .f32⟩ : BufTy).Contents (Elt F) → (⟨S256x256, .f32⟩ : BufTy).Contents (Elt F)),
    StableHlo.binary main_v116 main_v117 main_v118 (mulf : (⟨S256x256, .f32⟩ : BufTy).Contents (Elt F) → (⟨S256x256, .f32⟩ : BufTy).Contents (Elt F) → (⟨S256x256, .f32⟩ : BufTy).Contents (Elt F)),
    StableHlo.unary main_v118 main_v119 ((extractStridedSlice S256x128 ![0, 0] · slices_S256x256_S256x128_0_0) : (⟨S256x256, .f32⟩ : BufTy).Contents (Elt F) → (⟨S256x128, .f32⟩ : BufTy).Contents (Elt F)),
    StableHlo.unary main_v110 main_v120 ((extractStridedSlice S256x128 ![0, 0] · slices_S256x256_S256x128_0_0) : (⟨S256x256, .f32⟩ : BufTy).Contents (Elt F) → (⟨S256x128, .f32⟩ : BufTy).Contents (Elt F)) ]

/-- The level's hidden states (kept columns) as a function of the arrays the lines read: the five arguments and the
    hidden and cell arrays of the level below. -/
def tail1Hf (E : FVec F S262143x128 .f32) (Wih : FVec F S1024x128 .f32) (Whh : FVec F S1024x256 .f32) (bih bhh : FVec F S1024 .f32) (hp cp : FVec F S512x128 .f32) : FVec F S256x128 .f32 :=
  (extractStridedSlice S256x128 ![0, 0] (mulf (Host.divf (broadcastInDim S256x256 ![] bcast_S_S256x256 (constant S_ .f32 0x3F800000#32)) (addf (broadcastInDim S256x256 ![] bcast_S_S256x256 (constant S_ .f32 0x3F800000#32)) (Host.exp (Host.negf (extractStridedSlice S256x256 ![0, 768] (addf (addf (addf (Host.dotGeneral dot_S256x128_S128x1024_S256x1024_1_0_0_1_n_n none (extractStridedSlice S256x128 ![255, 0] E slices_S262143x128_S256x128_255_0) (transpose S128x1024 [1, 0] Wih transposes_S1024x128_S128x1024_1_0)) (broadcastInDim S256x1024 ![0, 1] bcast_S1x1024_S256x1024_0_1 (broadcastInDim S1x1024 ![1] bcast_S1024_S1x1024_1 bih))) (Host.dotGeneral dot_S256x256_S256x1024_S256x1024_1_0_0_1_n_n none (shapeCast _ hp shapeCasts_S512x128_S256x256) (transpose S256x1024 [1, 0] Whh transposes_S1024x256_S256x1024_1_0))) (broadcastInDim S256x1024 ![0, 1] bcast_S1x1024_S256x1024_0_1 (broadcastInDim S1x1024 ![1] bcast_S1024_S1x1024_1 bhh))) slices_S256x1024_S256x256_0_768))))) (Host.tanh (addf (mulf (Host.divf (broadcastInDim S256x256 ![] bcast_S_S256x256 (constant S_ .f32 0x3F800000#32)) (addf (broadcastInDim S256x256 ![] bcast_S_S256x256 (constant S_ .f32 0x3F800000#32)) (Host.exp (Host.negf (extractStridedSlice S256x256 ![0, 256] (addf (addf (addf (Host.dotGeneral dot_S256x128_S128x1024_S256x1024_1_0_0_1_n_n none (extractStridedSlice S256x128 ![255, 0] E slices_S262143x128_S256x128_255_0) (transpose S128x1024 [1, 0] Wih transposes_S1024x128_S128x1024_1_0)) (broadcastInDim S256x1024 ![0, 1] bcast_S1x1024_S256x1024_0_1 (broadcastInDim S1x1024 ![1] bcast_S1024_S1x1024_1 bih))) (Host.dotGeneral dot_S256x256_S256x1024_S256x1024_1_0_0_1_n_n none (shapeCast _ hp shapeCasts_S512x128_S256x256) (transpose S256x1024 [1, 0] Whh transposes_S1024x256_S256x1024_1_0))) (broadcastInDim S256x1024 ![0, 1] bcast_S1x1024_S256x1024_0_1 (broadcastInDim S1x1024 ![1] bcast_S1024_S1x1024_1 bhh))) slices_S256x1024_S256x256_0_256))))) (shapeCast _ cp shapeCasts_S512x128_S256x256)) (mulf (Host.divf (broadcastInDim S256x256 ![] bcast_S_S256x256 (constant S_ .f32 0x3F800000#32)) (addf (broadcastInDim S256x256 ![] bcast_S_S256x256 (constant S_ .f32 0x3F800000#32)) (Host.exp (Host.negf (extractStridedSlice S256x256 ![0, 0] (addf (addf (addf (Host.dotGeneral dot_S256x128_S128x1024_S256x1024_1_0_0_1_n_n none (extractStridedSlice S256x128 ![255, 0] E slices_S262143x128_S256x128_255_0) (transpose S128x1024 [1, 0] Wih transposes_S1024x128_S128x1024_1_0)) (broadcastInDim S256x1024 ![0, 1] bcast_S1x1024_S256x1024_0_1 (broadcastInDim S1x1024 ![1] bcast_S1024_S1x1024_1 bih))) (Host.dotGeneral dot_S256x256_S256x1024_S256x1024_1_0_0_1_n_n none (shapeCast _ hp shapeCasts_S512x128_S256x256) (transpose S256x1024 [1, 0] Whh transposes_S1024x256_S256x1024_1_0))) (broadcastInDim S256x1024 ![0, 1] bcast_S1x1024_S256x1024_0_1 (broadcastInDim S1x1024 ![1] bcast_S1024_S1x1024_1 bhh))) slices_S256x1024_S256x256_0_0))))) (Host.tanh (extractStridedSlice S256x256 ![0, 512] (addf (addf (addf (Host.dotGeneral dot_S256x128_S128x1024_S256x1024_1_0_0_1_n_n none (extractStridedSlice S256x128 ![255, 0] E slices_S262143x128_S256x128_255_0) (transpose S128x1024 [1, 0] Wih transposes_S1024x128_S128x1024_1_0)) (broadcastInDim S256x1024 ![0, 1] bcast_S1x1024_S256x1024_0_1 (broadcastInDim S1x1024 ![1] bcast_S1024_S1x1024_1 bih))) (Host.dotGeneral dot_S256x256_S256x1024_S256x1024_1_0_0_1_n_n none (shapeCast _ hp shapeCasts_S512x128_S256x256) (transpose S256x1024 [1, 0] Whh transposes_S1024x256_S256x1024_1_0))) (broadcastInDim S256x1024 ![0, 1] bcast_S1x1024_S256x1024_0_1 (broadcastInDim S1x1024 ![1] bcast_S1024_S1x1024_1 bhh))) slices_S256x1024_S256x256_0_512)))))) slices_S256x256_S256x128_0_0)

/-- The level's cell states (kept columns) as a function of the same arrays. -/
def tail1Cf (E : FVec F S262143x128 .f32) (Wih : FVec F S1024x128 .f32) (Whh : FVec F S1024x256 .f32) (bih bhh : FVec F S1024 .f32) (hp cp : FVec F S512x128 .f32) : FVec F S256x128 .f32 :=
  (extractStridedSlice S256x128 ![0, 0] (addf (mulf (Host.divf (broadcastInDim S256x256 ![] bcast_S_S256x256 (constant S_ .f32 0x3F800000#32)) (addf (broadcastInDim S256x256 ![] bcast_S_S256x256 (constant S_ .f32 0x3F800000#32)) (Host.exp (Host.negf (extractStridedSlice S256x256 ![0, 256] (addf (addf (addf (Host.dotGeneral dot_S256x128_S128x1024_S256x1024_1_0_0_1_n_n none (extractStridedSlice S256x128 ![255, 0] E slices_S262143x128_S256x128_255_0) (transpose S128x1024 [1, 0] Wih transposes_S1024x128_S128x1024_1_0)) (broadcastInDim S256x1024 ![0, 1] bcast_S1x1024_S256x1024_0_1 (broadcastInDim S1x1024 ![1] bcast_S1024_S1x1024_1 bih))) (Host.dotGeneral dot_S256x256_S256x1024_S256x1024_1_0_0_1_n_n none (shapeCast _ hp shapeCasts_S512x128_S256x256) (transpose S256x1024 [1, 0] Whh transposes_S1024x256_S256x1024_1_0))) (broadcastInDim S256x1024 ![0, 1] bcast_S1x1024_S256x1024_0_1 (broadcastInDim S1x1024 ![1] bcast_S1024_S1x1024_1 bhh))) slices_S256x1024_S256x256_0_256))))) (shapeCast _ cp shapeCasts_S512x128_S256x256)) (mulf (Host.divf (broadcastInDim S256x256 ![] bcast_S_S256x256 (constant S_ .f32 0x3F800000#32)) (addf (broadcastInDim S256x256 ![] bcast_S_S256x256 (constant S_ .f32 0x3F800000#32)) (Host.exp (Host.negf (extractStridedSlice S256x256 ![0, 0] (addf (addf (addf (Host.dotGeneral dot_S256x128_S128x1024_S256x1024_1_0_0_1_n_n none (extractStridedSlice S256x128 ![255, 0] E slices_S262143x128_S256x128_255_0) (transpose S128x1024 [1, 0] Wih transposes_S1024x128_S128x1024_1_0)) (broadcastInDim S256x1024 ![0, 1] bcast_S1x1024_S256x1024_0_1 (broadcastInDim S1x1024 ![1] bcast_S1024_S1x1024_1 bih))) (Host.dotGeneral dot_S256x256_S256x1024_S256x1024_1_0_0_1_n_n none (shapeCast _ hp shapeCasts_S512x128_S256x256) (transpose S256x1024 [1, 0] Whh transposes_S1024x256_S256x1024_1_0))) (broadcastInDim S256x1024 ![0, 1] bcast_S1x1024_S256x1024_0_1 (broadcastInDim S1x1024 ![1] bcast_S1024_S1x1024_1 bhh))) slices_S256x1024_S256x256_0_0))))) (Host.tanh (extractStridedSlice S256x256 ![0, 512] (addf (addf (addf (Host.dotGeneral dot_S256x128_S128x1024_S256x1024_1_0_0_1_n_n none (extractStridedSlice S256x128 ![255, 0] E slices_S262143x128_S256x128_255_0) (transpose S128x1024 [1, 0] Wih transposes_S1024x128_S128x1024_1_0)) (broadcastInDim S256x1024 ![0, 1] bcast_S1x1024_S256x1024_0_1 (broadcastInDim S1x1024 ![1] bcast_S1024_S1x1024_1 bih))) (Host.dotGeneral dot_S256x256_S256x1024_S256x1024_1_0_0_1_n_n none (shapeCast _ hp shapeCasts_S512x128_S256x256) (transpose S256x1024 [1, 0] Whh transposes_S1024x256_S256x1024_1_0))) (broadcastInDim S256x1024 ![0, 1] bcast_S1x1024_S256x1024_0_1 (broadcastInDim S1x1024 ![1] bcast_S1024_S1x1024_1 bhh))) slices_S256x1024_S256x256_0_512)))) slices_S256x256_S256x128_0_0)

set_option maxHeartbeats 4000000 in
theorem tail1_hidden (V : Valuation τ sig (Elt F)) :
    after tail1 V (Proc.devRef .tc main_v119) = tail1Hf (V (Proc.devRef .tc main_arg0)) (V (Proc.devRef .tc main_arg1)) (V (Proc.devRef .tc main_arg2)) (V (Proc.devRef .tc main_arg3)) (V (Proc.devRef .tc main_arg4)) (V (Proc.devRef .tc main_v75)) (V (Proc.devRef .tc main_v76)) := by
  unfold tail1Hf
  simp only [tail1]
  after_results_simp
  first | rfl | (simp only [] <;> rfl)

set_option maxHeartbeats 4000000 in
theorem tail1_cell (V : Valuation τ sig (Elt F)) :
    after tail1 V (Proc.devRef .tc main_v120) = tail1Cf (V (Proc.devRef .tc main_arg0)) (V (Proc.devRef .tc main_arg1)) (V (Proc.devRef .tc main_arg2)) (V (Proc.devRef .tc main_arg3)) (V (Proc.devRef .tc main_arg4)) (V (Proc.devRef .tc main_v75)) (V (Proc.devRef .tc main_v76)) := by
  unfold tail1Cf
  simp only [tail1]
  after_results_simp
  first | rfl | (simp only [] <;> rfl)

set_option maxHeartbeats 4000000 in
/-- The level's lines write only buffers numbered 89 or higher. -/
theorem tail1_from : WritesFrom 89 (tail1 : List (HloOp τ sig (Elt F))) := by
  unfold WritesFrom
  simp only [tail1, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals (intro r hr; cases Proc.devRef_injective _ hr; decide)

/-- So a buffer numbered below 89 keeps its contents through the level. -/
theorem tail1_keep (V : Valuation τ sig (Elt F)) (r : Ref sig .tc) (hr : r.idx.val < 89) :
    after tail1 V (Proc.devRef .tc r) = V (Proc.devRef .tc r) :=
  after_of_forall_not_mem (b := Proc.devRef .tc r) _ _ (fun op hop hw =>
    absurd ((List.forall_iff_forall_mem.mp tail1_from) op hop r hw) (Nat.not_le.mpr hr))

end Cert.KernelIdeal.Fused

end
-- ==== Proof.KI.Tail.L2.lean ====
/-
  Level 2 of the host lines after the region: 128 nodes (tree level 7).

  The level's 50 lines read the five arguments and the two arrays of the level below (`main_v119`, `main_v120`: hidden and
  cell states, 128 columns), and end by writing this level's hidden states to `main_v163` and cell states to `main_v164`
  (128 kept columns each). Here: the lines, those two buffers after the lines as the composed term of what the lines
  read, and that the lines write only buffers numbered 139 or higher.
-/
import proofs.«177989_j29394756173864_2_alg».proof.Proof.KI.Lines
import Idealize.ShloMosaic.Lib.StableHlo.Run

set_option maxRecDepth 16384

noncomputable section

namespace Cert.KernelIdeal.Fused

open Cert.KernelIdeal Cert.KernelIdeal.Gen
open Idealize.ShloMosaic Idealize.ShloMosaic.TcCoe Idealize.SL.Sem Idealize.ShloMosaic.StableHlo

variable {F : FTy → Type} [FloatOps F]

/-- The level's lines, in program order. -/
abbrev tail2 : List (HloOp τ sig (Elt F)) :=
  [ StableHlo.unary main_arg0 main_v121 ((extractStridedSlice S128x128 ![127, 0] · slices_S262143x128_S128x128_127_0) : (⟨S262143x128, .f32⟩ : BufTy).Contents (Elt F) → (⟨S128x128, .f32⟩ : BufTy).Contents (Elt F)),
    StableHlo.reshape main_v119 main_v122 rfl shapeCasts_S256x128_S128x256,
    StableHlo.reshape main_v120 main_v123 rfl shapeCasts_S256x128_S128x256,
    StableHlo.unary main_arg1 main_v124 ((transpose S128x1024 [1, 0] · transposes_S1024x128_S128x1024_1_0) : (⟨S1024x128, .f32⟩ : BufTy).Contents (Elt F) → (⟨S128x1024, .f32⟩ : BufTy).Contents (Elt F)),
    StableHlo.binary main_v121 main_v124 main_v125 ((fun l r => Host.dotGeneral dot_S128x128_S128x1024_S128x1024_1_0_0_1_n_n none l r) : (⟨S128x128, .f32⟩ : BufTy).Contents (Elt F) → (⟨S128x1024, .f32⟩ : BufTy).Contents (Elt F) → (⟨S128x1024, .f32⟩ : BufTy).Contents (Elt F)),
    StableHlo.unary main_arg3 main_v126 (broadcastInDim S1x1024 ![1] bcast_S1024_S1x1024_1 : (⟨S1024, .f32⟩ : BufTy).Contents (Elt F) → (⟨S1x1024, .f32⟩ : BufTy).Contents (Elt F)),
    StableHlo.unary main_v126 main_v127 (broadcastInDim S128x1024 ![0, 1] bcast_S1x1024_S128x1024_0_1 : (⟨S1x1024, .f32⟩ : BufTy).Contents (Elt F) → (⟨S128x1024, .f32⟩ : BufTy).Contents (Elt F)),
    StableHlo.binary main_v125 main_v127 main_v128 (addf : (⟨S128x1024, .f32⟩ : BufTy).Contents (Elt F) → (⟨S128x1024, .f32⟩ : BufTy).Contents (Elt F) → (⟨S128x1024, .f32⟩ : BufTy).Contents (Elt F)),
    StableHlo.unary main_arg2 main_v129 ((transpose S256x1024 [1, 0] · transposes_S1024x256_S256x1024_1_0) : (⟨S1024x256, .f32⟩ : BufTy).Contents (Elt F) → (⟨S256x1024, .f32⟩ : BufTy).Contents (Elt F)),
    StableHlo.binary main_v122 main_v129 main_v130 ((fun l r => Host.dotGeneral dot_S128x256_S256x1024_S128x1024_1_0_0_1_n_n none l r) : (⟨S128x256, .f32⟩ : BufTy).Contents (Elt F) → (⟨S256x1024, .f32⟩ : BufTy).Contents (Elt F) → (⟨S128x1024, .f32⟩ : BufTy).Contents (Elt F)),
    StableHlo.binary main_v128 main_v130 main_v131 (addf : (⟨S128x1024, .f32⟩ : BufTy).Contents (Elt F) → (⟨S128x1024, .f32⟩ : BufTy).Contents (Elt F) → (⟨S128x1024, .f32⟩ : BufTy).Contents (Elt F)),
    StableHlo.unary main_arg4 main_v132 (broadcastInDim S1x1024 ![1] bcast_S1024_S1x1024_1 : (⟨S1024, .f32⟩ : BufTy).Contents (Elt F) → (⟨S1x1024, .f32⟩ : BufTy).Contents (Elt F)),
    StableHlo.unary main_v132 main_v133 (broadcastInDim S128x1024 ![0, 1] bcast_S1x1024_S128x1024_0_1 : (⟨S1x1024, .f32⟩ : BufTy).Contents (Elt F) → (⟨S128x1024, .f32⟩ : BufTy).Contents (Elt F)),
    StableHlo.binary main_v131 main_v133 main_v134 (addf : (⟨S128x1024, .f32⟩ : BufTy).Contents (Elt F) → (⟨S128x1024, .f32⟩ : BufTy).Contents (Elt F) → (⟨S128x1024, .f32⟩ : BufTy).Contents (Elt F)),
    StableHlo.unary main_v134 main_v135 ((extractStridedSlice S128x256 ![0, 0] · slices_S128x1024_S128x256_0_0) : (⟨S128x1024, .f32⟩ : BufTy).Contents (Elt F) → (⟨S128x256, .f32⟩ : BufTy).Contents (Elt F)),
    StableHlo.unary main_v134 main_v136 ((extractStridedSlice S128x256 ![0, 256] · slices_S128x1024_S128x256_0_256) : (⟨S128x1024, .f32⟩ : BufTy).Contents (Elt F) → (⟨S128x256, .f32⟩ : BufTy).Contents (Elt F)),
    StableHlo.unary main_v134 main_v137 ((extractStridedSlice S128x256 ![0, 512] · slices_S128x1024_S128x256_0_512) : (⟨S128x1024, .f32⟩ : BufTy).Contents (Elt F) → (⟨S128x256, .f32⟩ : BufTy).Contents (Elt F)),
    StableHlo.unary main_v134 main_v138 ((extractStridedSlice S128x256 ![0, 768] · slices_S128x1024_S128x256_0_768) : (⟨S128x1024, .f32⟩ : BufTy).Contents (Elt F) → (⟨S128x256, .f32⟩ : BufTy).Contents (Elt F)),
    StableHlo.unary main_v136 main_v139 (Host.negf : (⟨S128x256, .f32⟩ : BufTy).Contents (Elt F) → (⟨S128x256, .f32⟩ : BufTy).Contents (Elt F)),
    StableHlo.unary main_v139 main_v140 (Host.exp : (⟨S128x256, .f32⟩ : BufTy).Contents (Elt F) → (⟨S128x256, .f32⟩ : BufTy).Contents (Elt F)),
    StableHlo.nullary main_cst_11 (constant S_ .f32 0x3F800000#32),
    StableHlo.unary main_cst_11 main_v141 (broadcastInDim S128x256 ![] bcast_S_S128x256 : (⟨S_, .f32⟩ : BufTy).Contents (Elt F) → (⟨S128x256, .f32⟩ : BufTy).Contents (Elt F)),
    StableHlo.binary main_v141 main_v140 main_v142 (addf : (⟨S128x256, .f32⟩ : BufTy).Contents (Elt F) → (⟨S128x256, .f32⟩ : BufTy).Contents (Elt F) → (⟨S128x256, .f32⟩ : BufTy).Contents (Elt F)),
    StableHlo.nullary main_cst_12 (constant S_ .f32 0x3F800000#32),
    StableHlo.unary main_cst_12 main_v143 (broadcastInDim S128x256 ![] bcast_S_S128x256 : (⟨S_, .f32⟩ : BufTy).Contents (Elt F) → (⟨S128x256, .f32⟩ : BufTy).Contents (Elt F)),
    StableHlo.binary main_v143 main_v142 main_v144 (Host.divf : (⟨S128x256, .f32⟩ : BufTy).Contents (Elt F) → (⟨S128x256, .f32⟩ : BufTy).Contents (Elt F) → (⟨S128x256, .f32⟩ : BufTy).Contents (Elt F)),
    StableHlo.binary main_v144 main_v123 main_v145 (mulf : (⟨S128x256, .f32⟩ : BufTy).Contents (Elt F) → (⟨S128x256, .f32⟩ : BufTy).Contents (Elt F) → (⟨S128x256, .f32⟩ : BufTy).Contents (Elt F)),
    StableHlo.unary main_v135 main_v146 (Host.negf : (⟨S128x256, .f32⟩ : BufTy).Contents (Elt F) → (⟨S128x256, .f32⟩ : BufTy).Contents (Elt F)),
    StableHlo.unary main_v146 main_v147 (Host.exp : (⟨S128x256, .f32⟩ : BufTy).Contents (Elt F) → (⟨S128x256, .f32⟩ : BufTy).Contents (Elt F)),
    StableHlo.nullary main_cst_13 (constant S_ .f32 0x3F800000#32),
    StableHlo.unary main_cst_13 main_v148 (broadcastInDim S128x256 ![] bcast_S_S128x256 : (⟨S_, .f32⟩ : BufTy).Contents (Elt F) → (⟨S128x256, .f32⟩ : BufTy).Contents (Elt F)),
    StableHlo.binary main_v148 main_v147 main_v149 (addf : (⟨S128x256, .f32⟩ : BufTy).Contents (Elt F) → (⟨S128x256, .f32⟩ : BufTy).Contents (Elt F) → (⟨S128x256, .f32⟩ : BufTy).Contents (Elt F)),
    StableHlo.nullary main_cst_14 (constant S_ .f32 0x3F800000#32),
    StableHlo.unary main_cst_14 main_v150 (broadcastInDim S128x256 ![] bcast_S_S128x256 : (⟨S_, .f32⟩ : BufTy).Contents (Elt F) → (⟨S128x256, .f32⟩ : BufTy).Contents (Elt F)),
    StableHlo.binary main_v150 main_v149 main_v151 (Host.divf : (⟨S128x256, .f32⟩ : BufTy).Contents (Elt F) → (⟨S128x256, .f32⟩ : BufTy).Contents (Elt F) → (⟨S128x256, .f32⟩ : BufTy).Contents (Elt F)),
    StableHlo.unary main_v137 main_v152 (Host.tanh : (⟨S128x256, .f32⟩ : BufTy).Contents (Elt F) → (⟨S128x256, .f32⟩ : BufTy).Contents (Elt F)),
    StableHlo.binary main_v151 main_v152 main_v153 (mulf : (⟨S128x256, .f32⟩ : BufTy).Contents (Elt F) → (⟨S128x256, .f32⟩ : BufTy).Contents (Elt F) → (⟨S128x256, .f32⟩ : BufTy).Contents (Elt F)),
    StableHlo.binary main_v145 main_v153 main_v154 (addf : (⟨S128x256, .f32⟩ : BufTy).Contents (Elt F) → (⟨S128x256, .f32⟩ : BufTy).Contents (Elt F) → (⟨S128x256, .f32⟩ : BufTy).Contents (Elt F)),
    StableHlo.unary main_v138 main_v155 (Host.negf : (⟨S128x256, .f32⟩ : BufTy).Contents (Elt F) → (⟨S128x256, .f32⟩ : BufTy).Contents (Elt F)),
    StableHlo.unary main_v155 main_v156 (Host.exp : (⟨S128x256, .f32⟩ : BufTy).Contents (Elt F) → (⟨S128x256, .f32⟩ : BufTy).Contents (Elt F)),
    StableHlo.nullary main_cst_15 (constant S_ .f32 0x3F800000#32),
    StableHlo.unary main_cst_15 main_v157 (broadcastInDim S128x256 ![] bcast_S_S128x256 : (⟨S_, .f32⟩ : BufTy).Contents (Elt F) → (⟨S128x256, .f32⟩ : BufTy).Contents (Elt F)),
    StableHlo.binary main_v157 main_v156 main_v158 (addf : (⟨S128x256, .f32⟩ : BufTy).Contents (Elt F) → (⟨S128x256, .f32⟩ : BufTy).Contents (Elt F) → (⟨S128x256, .f32⟩ : BufTy).Contents (Elt F)),
    StableHlo.nullary main_cst_16 (constant S_ .f32 0x3F800000#32),
    StableHlo.unary main_cst_16 main_v159 (broadcastInDim S128x256 ![] bcast_S_S128x256 : (⟨S_, .f32⟩ : BufTy).Contents (Elt F) → (⟨S128x256, .f32⟩ : BufTy).Contents (Elt F)),
    StableHlo.binary main_v159 main_v158 main_v160 (Host.divf : (⟨S128x256, .f32⟩ : BufTy).Contents (Elt F) → (⟨S128x256, .f32⟩ : BufTy).Contents (Elt F) → (⟨S128x256, .f32⟩ : BufTy).Contents (Elt F)),
    StableHlo.unary main_v154 main_v161 (Host.tanh : (⟨S128x256, .f32⟩ : BufTy).Contents (Elt F) → (⟨S128x256, .f32⟩ : BufTy).Contents (Elt F)),
    StableHlo.binary main_v160 main_v161 main_v162 (mulf : (⟨S128x256, .f32⟩ : BufTy).Contents (Elt F) → (⟨S128x256, .f32⟩ : BufTy).Contents (Elt F) → (⟨S128x256, .f32⟩ : BufTy).Contents (Elt F)),
    StableHlo.unary main_v162 main_v163 ((extractStridedSlice S128x128 ![0, 0] · slices_S128x256_S128x128_0_0) : (⟨S128x256, .f32⟩ : BufTy).Contents (Elt F) → (⟨S128x128, .f32⟩ : BufTy).Contents (Elt F)),
    StableHlo.unary main_v154 main_v164 ((extractStridedSlice S128x128 ![0, 0] · slices_S128x256_S128x128_0_0) : (⟨S128x256, .f32⟩ : BufTy).Contents (Elt F) → (⟨S128x128, .f32⟩ : BufTy).Contents (Elt F)) ]

/-- The level's hidden states (kept columns) as a function of the arrays the lines read: the five arguments and the
    hidden and cell arrays of the level below. -/
def tail2Hf (E : FVec F S262143x128 .f32) (Wih : FVec F S1024x128 .f32) (Whh : FVec F S1024x256 .f32) (bih bhh : FVec F S1024 .f32) (hp cp : FVec F S256x128 .f32) : FVec F S128x128 .f32 :=
  (extractStridedSlice S128x128 ![0, 0] (mulf (Host.divf (broadcastInDim S128x256 ![] bcast_S_S128x256 (constant S_ .f32 0x3F800000#32)) (addf (broadcastInDim S128x256 ![] bcast_S_S128x256 (constant S_ .f32 0x3F800000#32)) (Host.exp (Host.negf (extractStridedSlice S128x256 ![0, 768] (addf (addf (addf (Host.dotGeneral dot_S128x128_S128x1024_S128x1024_1_0_0_1_n_n none (extractStridedSlice S128x128 ![127, 0] E slices_S262143x128_S128x128_127_0) (transpose S128x1024 [1, 0] Wih transposes_S1024x128_S128x1024_1_0)) (broadcastInDim S128x1024 ![0, 1] bcast_S1x1024_S128x1024_0_1 (broadcastInDim S1x1024 ![1] bcast_S1024_S1x1024_1 bih))) (Host.dotGeneral dot_S128x256_S256x1024_S128x1024_1_0_0_1_n_n none (shapeCast _ hp shapeCasts_S256x128_S128x256) (transpose S256x1024 [1, 0] Whh transposes_S1024x256_S256x1024_1_0))) (broadcastInDim S128x1024 ![0, 1] bcast_S1x1024_S128x1024_0_1 (broadcastInDim S1x1024 ![1] bcast_S1024_S1x1024_1 bhh))) slices_S128x1024_S128x256_0_768))))) (Host.tanh (addf (mulf (Host.divf (broadcastInDim S128x256 ![] bcast_S_S128x256 (constant S_ .f32 0x3F800000#32)) (addf (broadcastInDim S128x256 ![] bcast_S_S128x256 (constant S_ .f32 0x3F800000#32)) (Host.exp (Host.negf (extractStridedSlice S128x256 ![0, 256] (addf (addf (addf (Host.dotGeneral dot_S128x128_S128x1024_S128x1024_1_0_0_1_n_n none (extractStridedSlice S128x128 ![127, 0] E slices_S262143x128_S128x128_127_0) (transpose S128x1024 [1, 0] Wih transposes_S1024x128_S128x1024_1_0)) (broadcastInDim S128x1024 ![0, 1] bcast_S1x1024_S128x1024_0_1 (broadcastInDim S1x1024 ![1] bcast_S1024_S1x1024_1 bih))) (Host.dotGeneral dot_S128x256_S256x1024_S128x1024_1_0_0_1_n_n none (shapeCast _ hp shapeCasts_S256x128_S128x256) (transpose S256x1024 [1, 0] Whh transposes_S1024x256_S256x1024_1_0))) (broadcastInDim S128x1024 ![0, 1] bcast_S1x1024_S128x1024_0_1 (broadcastInDim S1x1024 ![1] bcast_S1024_S1x1024_1 bhh))) slices_S128x1024_S128x256_0_256))))) (shapeCast _ cp shapeCasts_S256x128_S128x256)) (mulf (Host.divf (broadcastInDim S128x256 ![] bcast_S_S128x256 (constant S_ .f32 0x3F800000#32)) (addf (broadcastInDim S128x256 ![] bcast_S_S128x256 (constant S_ .f32 0x3F800000#32)) (Host.exp (Host.negf (extractStridedSlice S128x256 ![0, 0] (addf (addf (addf (Host.dotGeneral dot_S128x128_S128x1024_S128x1024_1_0_0_1_n_n none (extractStridedSlice S128x128 ![127, 0] E slices_S262143x128_S128x128_127_0) (transpose S128x1024 [1, 0] Wih transposes_S1024x128_S128x1024_1_0)) (broadcastInDim S128x1024 ![0, 1] bcast_S1x1024_S128x1024_0_1 (broadcastInDim S1x1024 ![1] bcast_S1024_S1x1024_1 bih))) (Host.dotGeneral dot_S128x256_S256x1024_S128x1024_1_0_0_1_n_n none (shapeCast _ hp shapeCasts_S256x128_S128x256) (transpose S256x1024 [1, 0] Whh transposes_S1024x256_S256x1024_1_0))) (broadcastInDim S128x1024 ![0, 1] bcast_S1x1024_S128x1024_0_1 (broadcastInDim S1x1024 ![1] bcast_S1024_S1x1024_1 bhh))) slices_S128x1024_S128x256_0_0))))) (Host.tanh (extractStridedSlice S128x256 ![0, 512] (addf (addf (addf (Host.dotGeneral dot_S128x128_S128x1024_S128x1024_1_0_0_1_n_n none (extractStridedSlice S128x128 ![127, 0] E slices_S262143x128_S128x128_127_0) (transpose S128x1024 [1, 0] Wih transposes_S1024x128_S128x1024_1_0)) (broadcastInDim S128x1024 ![0, 1] bcast_S1x1024_S128x1024_0_1 (broadcastInDim S1x1024 ![1] bcast_S1024_S1x1024_1 bih))) (Host.dotGeneral dot_S128x256_S256x1024_S128x1024_1_0_0_1_n_n none (shapeCast _ hp shapeCasts_S256x128_S128x256) (transpose S256x1024 [1, 0] Whh transposes_S1024x256_S256x1024_1_0))) (broadcastInDim S128x1024 ![0, 1] bcast_S1x1024_S128x1024_0_1 (broadcastInDim S1x1024 ![1] bcast_S1024_S1x1024_1 bhh))) slices_S128x1024_S128x256_0_512)))))) slices_S128x256_S128x128_0_0)

/-- The level's cell states (kept columns) as a function of the same arrays. -/
def tail2Cf (E : FVec F S262143x128 .f32) (Wih : FVec F S1024x128 .f32) (Whh : FVec F S1024x256 .f32) (bih bhh : FVec F S1024 .f32) (hp cp : FVec F S256x128 .f32) : FVec F S128x128 .f32 :=
  (extractStridedSlice S128x128 ![0, 0] (addf (mulf (Host.divf (broadcastInDim S128x256 ![] bcast_S_S128x256 (constant S_ .f32 0x3F800000#32)) (addf (broadcastInDim S128x256 ![] bcast_S_S128x256 (constant S_ .f32 0x3F800000#32)) (Host.exp (Host.negf (extractStridedSlice S128x256 ![0, 256] (addf (addf (addf (Host.dotGeneral dot_S128x128_S128x1024_S128x1024_1_0_0_1_n_n none (extractStridedSlice S128x128 ![127, 0] E slices_S262143x128_S128x128_127_0) (transpose S128x1024 [1, 0] Wih transposes_S1024x128_S128x1024_1_0)) (broadcastInDim S128x1024 ![0, 1] bcast_S1x1024_S128x1024_0_1 (broadcastInDim S1x1024 ![1] bcast_S1024_S1x1024_1 bih))) (Host.dotGeneral dot_S128x256_S256x1024_S128x1024_1_0_0_1_n_n none (shapeCast _ hp shapeCasts_S256x128_S128x256) (transpose S256x1024 [1, 0] Whh transposes_S1024x256_S256x1024_1_0))) (broadcastInDim S128x1024 ![0, 1] bcast_S1x1024_S128x1024_0_1 (broadcastInDim S1x1024 ![1] bcast_S1024_S1x1024_1 bhh))) slices_S128x1024_S128x256_0_256))))) (shapeCast _ cp shapeCasts_S256x128_S128x256)) (mulf (Host.divf (broadcastInDim S128x256 ![] bcast_S_S128x256 (constant S_ .f32 0x3F800000#32)) (addf (broadcastInDim S128x256 ![] bcast_S_S128x256 (constant S_ .f32 0x3F800000#32)) (Host.exp (Host.negf (extractStridedSlice S128x256 ![0, 0] (addf (addf (addf (Host.dotGeneral dot_S128x128_S128x1024_S128x1024_1_0_0_1_n_n none (extractStridedSlice S128x128 ![127, 0] E slices_S262143x128_S128x128_127_0) (transpose S128x1024 [1, 0] Wih transposes_S1024x128_S128x1024_1_0)) (broadcastInDim S128x1024 ![0, 1] bcast_S1x1024_S128x1024_0_1 (broadcastInDim S1x1024 ![1] bcast_S1024_S1x1024_1 bih))) (Host.dotGeneral dot_S128x256_S256x1024_S128x1024_1_0_0_1_n_n none (shapeCast _ hp shapeCasts_S256x128_S128x256) (transpose S256x1024 [1, 0] Whh transposes_S1024x256_S256x1024_1_0))) (broadcastInDim S128x1024 ![0, 1] bcast_S1x1024_S128x1024_0_1 (broadcastInDim S1x1024 ![1] bcast_S1024_S1x1024_1 bhh))) slices_S128x1024_S128x256_0_0))))) (Host.tanh (extractStridedSlice S128x256 ![0, 512] (addf (addf (addf (Host.dotGeneral dot_S128x128_S128x1024_S128x1024_1_0_0_1_n_n none (extractStridedSlice S128x128 ![127, 0] E slices_S262143x128_S128x128_127_0) (transpose S128x1024 [1, 0] Wih transposes_S1024x128_S128x1024_1_0)) (broadcastInDim S128x1024 ![0, 1] bcast_S1x1024_S128x1024_0_1 (broadcastInDim S1x1024 ![1] bcast_S1024_S1x1024_1 bih))) (Host.dotGeneral dot_S128x256_S256x1024_S128x1024_1_0_0_1_n_n none (shapeCast _ hp shapeCasts_S256x128_S128x256) (transpose S256x1024 [1, 0] Whh transposes_S1024x256_S256x1024_1_0))) (broadcastInDim S128x1024 ![0, 1] bcast_S1x1024_S128x1024_0_1 (broadcastInDim S1x1024 ![1] bcast_S1024_S1x1024_1 bhh))) slices_S128x1024_S128x256_0_512)))) slices_S128x256_S128x128_0_0)

set_option maxHeartbeats 4000000 in
theorem tail2_hidden (V : Valuation τ sig (Elt F)) :
    after tail2 V (Proc.devRef .tc main_v163) = tail2Hf (V (Proc.devRef .tc main_arg0)) (V (Proc.devRef .tc main_arg1)) (V (Proc.devRef .tc main_arg2)) (V (Proc.devRef .tc main_arg3)) (V (Proc.devRef .tc main_arg4)) (V (Proc.devRef .tc main_v119)) (V (Proc.devRef .tc main_v120)) := by
  unfold tail2Hf
  simp only [tail2]
  after_results_simp
  first | rfl | (simp only [] <;> rfl)

set_option maxHeartbeats 4000000 in
theorem tail2_cell (V : Valuation τ sig (Elt F)) :
    after tail2 V (Proc.devRef .tc main_v164) = tail2Cf (V (Proc.devRef .tc main_arg0)) (V (Proc.devRef .tc main_arg1)) (V (Proc.devRef .tc main_arg2)) (V (Proc.devRef .tc main_arg3)) (V (Proc.devRef .tc main_arg4)) (V (Proc.devRef .tc main_v119)) (V (Proc.devRef .tc main_v120)) := by
  unfold tail2Cf
  simp only [tail2]
  after_results_simp
  first | rfl | (simp only [] <;> rfl)

set_option maxHeartbeats 4000000 in
/-- The level's lines write only buffers numbered 139 or higher. -/
theorem tail2_from : WritesFrom 139 (tail2 : List (HloOp τ sig (Elt F))) := by
  unfold WritesFrom
  simp only [tail2, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals (intro r hr; cases Proc.devRef_injective _ hr; decide)

/-- So a buffer numbered below 139 keeps its contents through the level. -/
theorem tail2_keep (V : Valuation τ sig (Elt F)) (r : Ref sig .tc) (hr : r.idx.val < 139) :
    after tail2 V (Proc.devRef .tc r) = V (Proc.devRef .tc r) :=
  after_of_forall_not_mem (b := Proc.devRef .tc r) _ _ (fun op hop hw =>
    absurd ((List.forall_iff_forall_mem.mp tail2_from) op hop r hw) (Nat.not_le.mpr hr))

end Cert.KernelIdeal.Fused

end
-- ==== Proof.KI.Tail.L3.lean ====
/-
  Level 3 of the host lines after the region: 64 nodes (tree level 6).

  The level's 50 lines read the five arguments and the two arrays of the level below (`main_v163`, `main_v164`: hidden and
  cell states, 128 columns), and end by writing this level's hidden states to `main_v207` and cell states to `main_v208`
  (128 kept columns each). Here: the lines, those two buffers after the lines as the composed term of what the lines
  read, and that the lines write only buffers numbered 189 or higher.
-/
import proofs.«177989_j29394756173864_2_alg».proof.Proof.KI.Lines
import Idealize.ShloMosaic.Lib.StableHlo.Run

set_option maxRecDepth 16384

noncomputable section

namespace Cert.KernelIdeal.Fused

open Cert.KernelIdeal Cert.KernelIdeal.Gen
open Idealize.ShloMosaic Idealize.ShloMosaic.TcCoe Idealize.SL.Sem Idealize.ShloMosaic.StableHlo

variable {F : FTy → Type} [FloatOps F]

/-- The level's lines, in program order. -/
abbrev tail3 : List (HloOp τ sig (Elt F)) :=
  [ StableHlo.unary main_arg0 main_v165 ((extractStridedSlice S64x128 ![63, 0] · slices_S262143x128_S64x128_63_0) : (⟨S262143x128, .f32⟩ : BufTy).Contents (Elt F) → (⟨S64x128, .f32⟩ : BufTy).Contents (Elt F)),
    StableHlo.reshape main_v163 main_v166 rfl shapeCasts_S128x128_S64x256,
    StableHlo.reshape main_v164 main_v167 rfl shapeCasts_S128x128_S64x256,
    StableHlo.unary main_arg1 main_v168 ((transpose S128x1024 [1, 0] · transposes_S1024x128_S128x1024_1_0) : (⟨S1024x128, .f32⟩ : BufTy).Contents (Elt F) → (⟨S128x1024, .f32⟩ : BufTy).Contents (Elt F)),
    StableHlo.binary main_v165 main_v168 main_v169 ((fun l r => Host.dotGeneral dot_S64x128_S128x1024_S64x1024_1_0_0_1_n_n none l r) : (⟨S64x128, .f32⟩ : BufTy).Contents (Elt F) → (⟨S128x1024, .f32⟩ : BufTy).Contents (Elt F) → (⟨S64x1024, .f32⟩ : BufTy).Contents (Elt F)),
    StableHlo.unary main_arg3 main_v170 (broadcastInDim S1x1024 ![1] bcast_S1024_S1x1024_1 : (⟨S1024, .f32⟩ : BufTy).Contents (Elt F) → (⟨S1x1024, .f32⟩ : BufTy).Contents (Elt F)),
    StableHlo.unary main_v170 main_v171 (broadcastInDim S64x1024 ![0, 1] bcast_S1x1024_S64x1024_0_1 : (⟨S1x1024, .f32⟩ : BufTy).Contents (Elt F) → (⟨S64x1024, .f32⟩ : BufTy).Contents (Elt F)),
    StableHlo.binary main_v169 main_v171 main_v172 (addf : (⟨S64x1024, .f32⟩ : BufTy).Contents (Elt F) → (⟨S64x1024, .f32⟩ : BufTy).Contents (Elt F) → (⟨S64x1024, .f32⟩ : BufTy).Contents (Elt F)),
    StableHlo.unary main_arg2 main_v173 ((transpose S256x1024 [1, 0] · transposes_S1024x256_S256x1024_1_0) : (⟨S1024x256, .f32⟩ : BufTy).Contents (Elt F) → (⟨S256x1024, .f32⟩ : BufTy).Contents (Elt F)),
    StableHlo.binary main_v166 main_v173 main_v174 ((fun l r => Host.dotGeneral dot_S64x256_S256x1024_S64x1024_1_0_0_1_n_n none l r) : (⟨S64x256, .f32⟩ : BufTy).Contents (Elt F) → (⟨S256x1024, .f32⟩ : BufTy).Contents (Elt F) → (⟨S64x1024, .f32⟩ : BufTy).Contents (Elt F)),
    StableHlo.binary main_v172 main_v174 main_v175 (addf : (⟨S64x1024, .f32⟩ : BufTy).Contents (Elt F) → (⟨S64x1024, .f32⟩ : BufTy).Contents (Elt F) → (⟨S64x1024, .f32⟩ : BufTy).Contents (Elt F)),
    StableHlo.unary main_arg4 main_v176 (broadcastInDim S1x1024 ![1] bcast_S1024_S1x1024_1 : (⟨S1024, .f32⟩ : BufTy).Contents (Elt F) → (⟨S1x1024, .f32⟩ : BufTy).Contents (Elt F)),
    StableHlo.unary main_v176 main_v177 (broadcastInDim S64x1024 ![0, 1] bcast_S1x1024_S64x1024_0_1 : (⟨S1x1024, .f32⟩ : BufTy).Contents (Elt F) → (⟨S64x1024, .f32⟩ : BufTy).Contents (Elt F)),
    StableHlo.binary main_v175 main_v177 main_v178 (addf : (⟨S64x1024, .f32⟩ : BufTy).Contents (Elt F) → (⟨S64x1024, .f32⟩ : BufTy).Contents (Elt F) → (⟨S64x1024, .f32⟩ : BufTy).Contents (Elt F)),
    StableHlo.unary main_v178 main_v179 ((extractStridedSlice S64x256 ![0, 0] · slices_S64x1024_S64x256_0_0) : (⟨S64x1024, .f32⟩ : BufTy).Contents (Elt F) → (⟨S64x256, .f32⟩ : BufTy).Contents (Elt F)),
    StableHlo.unary main_v178 main_v180 ((extractStridedSlice S64x256 ![0, 256] · slices_S64x1024_S64x256_0_256) : (⟨S64x1024, .f32⟩ : BufTy).Contents (Elt F) → (⟨S64x256, .f32⟩ : BufTy).Contents (Elt F)),
    StableHlo.unary main_v178 main_v181 ((extractStridedSlice S64x256 ![0, 512] · slices_S64x1024_S64x256_0_512) : (⟨S64x1024, .f32⟩ : BufTy).Contents (Elt F) → (⟨S64x256, .f32⟩ : BufTy).Contents (Elt F)),
    StableHlo.unary main_v178 main_v182 ((extractStridedSlice S64x256 ![0, 768] · slices_S64x1024_S64x256_0_768) : (⟨S64x1024, .f32⟩ : BufTy).Contents (Elt F) → (⟨S64x256, .f32⟩ : BufTy).Contents (Elt F)),
    StableHlo.unary main_v180 main_v183 (Host.negf : (⟨S64x256, .f32⟩ : BufTy).Contents (Elt F) → (⟨S64x256, .f32⟩ : BufTy).Contents (Elt F)),
    StableHlo.unary main_v183 main_v184 (Host.exp : (⟨S64x256, .f32⟩ : BufTy).Contents (Elt F) → (⟨S64x256, .f32⟩ : BufTy).Contents (Elt F)),
    StableHlo.nullary main_cst_17 (constant S_ .f32 0x3F800000#32),
    StableHlo.unary main_cst_17 main_v185 (broadcastInDim S64x256 ![] bcast_S_S64x256 : (⟨S_, .f32⟩ : BufTy).Contents (Elt F) → (⟨S64x256, .f32⟩ : BufTy).Contents (Elt F)),
    StableHlo.binary main_v185 main_v184 main_v186 (addf : (⟨S64x256, .f32⟩ : BufTy).Contents (Elt F) → (⟨S64x256, .f32⟩ : BufTy).Contents (Elt F) → (⟨S64x256, .f32⟩ : BufTy).Contents (Elt F)),
    StableHlo.nullary main_cst_18 (constant S_ .f32 0x3F800000#32),
    StableHlo.unary main_cst_18 main_v187 (broadcastInDim S64x256 ![] bcast_S_S64x256 : (⟨S_, .f32⟩ : BufTy).Contents (Elt F) → (⟨S64x256, .f32⟩ : BufTy).Contents (Elt F)),
    StableHlo.binary main_v187 main_v186 main_v188 (Host.divf : (⟨S64x256, .f32⟩ : BufTy).Contents (Elt F) → (⟨S64x256, .f32⟩ : BufTy).Contents (Elt F) → (⟨S64x256, .f32⟩ : BufTy).Contents (Elt F)),
    StableHlo.binary main_v188 main_v167 main_v189 (mulf : (⟨S64x256, .f32⟩ : BufTy).Contents (Elt F) → (⟨S64x256, .f32⟩ : BufTy).Contents (Elt F) → (⟨S64x256, .f32⟩ : BufTy).Contents (Elt F)),
    StableHlo.unary main_v179 main_v190 (Host.negf : (⟨S64x256, .f32⟩ : BufTy).Contents (Elt F) → (⟨S64x256, .f32⟩ : BufTy).Contents (Elt F)),
    StableHlo.unary main_v190 main_v191 (Host.exp : (⟨S64x256, .f32⟩ : BufTy).Contents (Elt F) → (⟨S64x256, .f32⟩ : BufTy).Contents (Elt F)),
    StableHlo.nullary main_cst_19 (constant S_ .f32 0x3F800000#32),
    StableHlo.unary main_cst_19 main_v192 (broadcastInDim S64x256 ![] bcast_S_S64x256 : (⟨S_, .f32⟩ : BufTy).Contents (Elt F) → (⟨S64x256, .f32⟩ : BufTy).Contents (Elt F)),
    StableHlo.binary main_v192 main_v191 main_v193 (addf : (⟨S64x256, .f32⟩ : BufTy).Contents (Elt F) → (⟨S64x256, .f32⟩ : BufTy).Contents (Elt F) → (⟨S64x256, .f32⟩ : BufTy).Contents (Elt F)),
    StableHlo.nullary main_cst_20 (constant S_ .f32 0x3F800000#32),
    StableHlo.unary main_cst_20 main_v194 (broadcastInDim S64x256 ![] bcast_S_S64x256 : (⟨S_, .f32⟩ : BufTy).Contents (Elt F) → (⟨S64x256, .f32⟩ : BufTy).Contents (Elt F)),
    StableHlo.binary main_v194 main_v193 main_v195 (Host.divf : (⟨S64x256, .f32⟩ : BufTy).Contents (Elt F) → (⟨S64x256, .f32⟩ : BufTy).Contents (Elt F) → (⟨S64x256, .f32⟩ : BufTy).Contents (Elt F)),
    StableHlo.unary main_v181 main_v196 (Host.tanh : (⟨S64x256, .f32⟩ : BufTy).Contents (Elt F) → (⟨S64x256, .f32⟩ : BufTy).Contents (Elt F)),
    StableHlo.binary main_v195 main_v196 main_v197 (mulf : (⟨S64x256, .f32⟩ : BufTy).Contents (Elt F) → (⟨S64x256, .f32⟩ : BufTy).Contents (Elt F) → (⟨S64x256, .f32⟩ : BufTy).Contents (Elt F)),
    StableHlo.binary main_v189 main_v197 main_v198 (addf : (⟨S64x256, .f32⟩ : BufTy).Contents (Elt F) → (⟨S64x256, .f32⟩ : BufTy).Contents (Elt F) → (⟨S64x256, .f32⟩ : BufTy).Contents (Elt F)),
    StableHlo.unary main_v182 main_v199 (Host.negf : (⟨S64x256, .f32⟩ : BufTy).Contents (Elt F) → (⟨S64x256, .f32⟩ : BufTy).Contents (Elt F)),
    StableHlo.unary main_v199 main_v200 (Host.exp : (⟨S64x256, .f32⟩ : BufTy).Contents (Elt F) → (⟨S64x256, .f32⟩ : BufTy).Contents (Elt F)),
    StableHlo.nullary main_cst_21 (constant S_ .f32 0x3F800000#32),
    StableHlo.unary main_cst_21 main_v201 (broadcastInDim S64x256 ![] bcast_S_S64x256 : (⟨S_, .f32⟩ : BufTy).Contents (Elt F) → (⟨S64x256, .f32⟩ : BufTy).Contents (Elt F)),
    StableHlo.binary main_v201 main_v200 main_v202 (addf : (⟨S64x256, .f32⟩ : BufTy).Contents (Elt F) → (⟨S64x256, .f32⟩ : BufTy).Contents (Elt F) → (⟨S64x256, .f32⟩ : BufTy).Contents (Elt F)),
    StableHlo.nullary main_cst_22 (constant S_ .f32 0x3F800000#32),
    StableHlo.unary main_cst_22 main_v203 (broadcastInDim S64x256 ![] bcast_S_S64x256 : (⟨S_, .f32⟩ : BufTy).Contents (Elt F) → (⟨S64x256, .f32⟩ : BufTy).Contents (Elt F)),
    StableHlo.binary main_v203 main_v202 main_v204 (Host.divf : (⟨S64x256, .f32⟩ : BufTy).Contents (Elt F) → (⟨S64x256, .f32⟩ : BufTy).Contents (Elt F) → (⟨S64x256, .f32⟩ : BufTy).Contents (Elt F)),
    StableHlo.unary main_v198 main_v205 (Host.tanh : (⟨S64x256, .f32⟩ : BufTy).Contents (Elt F) → (⟨S64x256, .f32⟩ : BufTy).Contents (Elt F)),
    StableHlo.binary main_v204 main_v205 main_v206 (mulf : (⟨S64x256, .f32⟩ : BufTy).Contents (Elt F) → (⟨S64x256, .f32⟩ : BufTy).Contents (Elt F) → (⟨S64x256, .f32⟩ : BufTy).Contents (Elt F)),
    StableHlo.unary main_v206 main_v207 ((extractStridedSlice S64x128 ![0, 0] · slices_S64x256_S64x128_0_0) : (⟨S64x256, .f32⟩ : BufTy).Contents (Elt F) → (⟨S64x128, .f32⟩ : BufTy).Contents (Elt F)),
    StableHlo.unary main_v198 main_v208 ((extractStridedSlice S64x128 ![0, 0] · slices_S64x256_S64x128_0_0) : (⟨S64x256, .f32⟩ : BufTy).Contents (Elt F) → (⟨S64x128, .f32⟩ : BufTy).Contents (Elt F)) ]

/-- The level's hidden states (kept columns) as a function of the arrays the lines read: the five arguments and the
    hidden and cell arrays of the level below. -/
def tail3Hf (E : FVec F S262143x128 .f32) (Wih : FVec F S1024x128 .f32) (Whh : FVec F S1024x256 .f32) (bih bhh : FVec F S1024 .f32) (hp cp : FVec F S128x128 .f32) : FVec F S64x128 .f32 :=
  (extractStridedSlice S64x128 ![0, 0] (mulf (Host.divf (broadcastInDim S64x256 ![] bcast_S_S64x256 (constant S_ .f32 0x3F800000#32)) (addf (broadcastInDim S64x256 ![] bcast_S_S64x256 (constant S_ .f32 0x3F800000#32)) (Host.exp (Host.negf (extractStridedSlice S64x256 ![0, 768] (addf (addf (addf (Host.dotGeneral dot_S64x128_S128x1024_S64x1024_1_0_0_1_n_n none (extractStridedSlice S64x128 ![63, 0] E slices_S262143x128_S64x128_63_0) (transpose S128x1024 [1, 0] Wih transposes_S1024x128_S128x1024_1_0)) (broadcastInDim S64x1024 ![0, 1] bcast_S1x1024_S64x1024_0_1 (broadcastInDim S1x1024 ![1] bcast_S1024_S1x1024_1 bih))) (Host.dotGeneral dot_S64x256_S256x1024_S64x1024_1_0_0_1_n_n none (shapeCast _ hp shapeCasts_S128x128_S64x256) (transpose S256x1024 [1, 0] Whh transposes_S1024x256_S256x1024_1_0))) (broadcastInDim S64x1024 ![0, 1] bcast_S1x1024_S64x1024_0_1 (broadcastInDim S1x1024 ![1] bcast_S1024_S1x1024_1 bhh))) slices_S64x1024_S64x256_0_768))))) (Host.tanh (addf (mulf (Host.divf (broadcastInDim S64x256 ![] bcast_S_S64x256 (constant S_ .f32 0x3F800000#32)) (addf (broadcastInDim S64x256 ![] bcast_S_S64x256 (constant S_ .f32 0x3F800000#32)) (Host.exp (Host.negf (extractStridedSlice S64x256 ![0, 256] (addf (addf (addf (Host.dotGeneral dot_S64x128_S128x1024_S64x1024_1_0_0_1_n_n none (extractStridedSlice S64x128 ![63, 0] E slices_S262143x128_S64x128_63_0) (transpose S128x1024 [1, 0] Wih transposes_S1024x128_S128x1024_1_0)) (broadcastInDim S64x1024 ![0, 1] bcast_S1x1024_S64x1024_0_1 (broadcastInDim S1x1024 ![1] bcast_S1024_S1x1024_1 bih))) (Host.dotGeneral dot_S64x256_S256x1024_S64x1024_1_0_0_1_n_n none (shapeCast _ hp shapeCasts_S128x128_S64x256) (transpose S256x1024 [1, 0] Whh transposes_S1024x256_S256x1024_1_0))) (broadcastInDim S64x1024 ![0, 1] bcast_S1x1024_S64x1024_0_1 (broadcastInDim S1x1024 ![1] bcast_S1024_S1x1024_1 bhh))) slices_S64x1024_S64x256_0_256))))) (shapeCast _ cp shapeCasts_S128x128_S64x256)) (mulf (Host.divf (broadcastInDim S64x256 ![] bcast_S_S64x256 (constant S_ .f32 0x3F800000#32)) (addf (broadcastInDim S64x256 ![] bcast_S_S64x256 (constant S_ .f32 0x3F800000#32)) (Host.exp (Host.negf (extractStridedSlice S64x256 ![0, 0] (addf (addf (addf (Host.dotGeneral dot_S64x128_S128x1024_S64x1024_1_0_0_1_n_n none (extractStridedSlice S64x128 ![63, 0] E slices_S262143x128_S64x128_63_0) (transpose S128x1024 [1, 0] Wih transposes_S1024x128_S128x1024_1_0)) (broadcastInDim S64x1024 ![0, 1] bcast_S1x1024_S64x1024_0_1 (broadcastInDim S1x1024 ![1] bcast_S1024_S1x1024_1 bih))) (Host.dotGeneral dot_S64x256_S256x1024_S64x1024_1_0_0_1_n_n none (shapeCast _ hp shapeCasts_S128x128_S64x256) (transpose S256x1024 [1, 0] Whh transposes_S1024x256_S256x1024_1_0))) (broadcastInDim S64x1024 ![0, 1] bcast_S1x1024_S64x1024_0_1 (broadcastInDim S1x1024 ![1] bcast_S1024_S1x1024_1 bhh))) slices_S64x1024_S64x256_0_0))))) (Host.tanh (extractStridedSlice S64x256 ![0, 512] (addf (addf (addf (Host.dotGeneral dot_S64x128_S128x1024_S64x1024_1_0_0_1_n_n none (extractStridedSlice S64x128 ![63, 0] E slices_S262143x128_S64x128_63_0) (transpose S128x1024 [1, 0] Wih transposes_S1024x128_S128x1024_1_0)) (broadcastInDim S64x1024 ![0, 1] bcast_S1x1024_S64x1024_0_1 (broadcastInDim S1x1024 ![1] bcast_S1024_S1x1024_1 bih))) (Host.dotGeneral dot_S64x256_S256x1024_S64x1024_1_0_0_1_n_n none (shapeCast _ hp shapeCasts_S128x128_S64x256) (transpose S256x1024 [1, 0] Whh transposes_S1024x256_S256x1024_1_0))) (broadcastInDim S64x1024 ![0, 1] bcast_S1x1024_S64x1024_0_1 (broadcastInDim S1x1024 ![1] bcast_S1024_S1x1024_1 bhh))) slices_S64x1024_S64x256_0_512)))))) slices_S64x256_S64x128_0_0)

/-- The level's cell states (kept columns) as a function of the same arrays. -/
def tail3Cf (E : FVec F S262143x128 .f32) (Wih : FVec F S1024x128 .f32) (Whh : FVec F S1024x256 .f32) (bih bhh : FVec F S1024 .f32) (hp cp : FVec F S128x128 .f32) : FVec F S64x128 .f32 :=
  (extractStridedSlice S64x128 ![0, 0] (addf (mulf (Host.divf (broadcastInDim S64x256 ![] bcast_S_S64x256 (constant S_ .f32 0x3F800000#32)) (addf (broadcastInDim S64x256 ![] bcast_S_S64x256 (constant S_ .f32 0x3F800000#32)) (Host.exp (Host.negf (extractStridedSlice S64x256 ![0, 256] (addf (addf (addf (Host.dotGeneral dot_S64x128_S128x1024_S64x1024_1_0_0_1_n_n none (extractStridedSlice S64x128 ![63, 0] E slices_S262143x128_S64x128_63_0) (transpose S128x1024 [1, 0] Wih transposes_S1024x128_S128x1024_1_0)) (broadcastInDim S64x1024 ![0, 1] bcast_S1x1024_S64x1024_0_1 (broadcastInDim S1x1024 ![1] bcast_S1024_S1x1024_1 bih))) (Host.dotGeneral dot_S64x256_S256x1024_S64x1024_1_0_0_1_n_n none (shapeCast _ hp shapeCasts_S128x128_S64x256) (transpose S256x1024 [1, 0] Whh transposes_S1024x256_S256x1024_1_0))) (broadcastInDim S64x1024 ![0, 1] bcast_S1x1024_S64x1024_0_1 (broadcastInDim S1x1024 ![1] bcast_S1024_S1x1024_1 bhh))) slices_S64x1024_S64x256_0_256))))) (shapeCast _ cp shapeCasts_S128x128_S64x256)) (mulf (Host.divf (broadcastInDim S64x256 ![] bcast_S_S64x256 (constant S_ .f32 0x3F800000#32)) (addf (broadcastInDim S64x256 ![] bcast_S_S64x256 (constant S_ .f32 0x3F800000#32)) (Host.exp (Host.negf (extractStridedSlice S64x256 ![0, 0] (addf (addf (addf (Host.dotGeneral dot_S64x128_S128x1024_S64x1024_1_0_0_1_n_n none (extractStridedSlice S64x128 ![63, 0] E slices_S262143x128_S64x128_63_0) (transpose S128x1024 [1, 0] Wih transposes_S1024x128_S128x1024_1_0)) (broadcastInDim S64x1024 ![0, 1] bcast_S1x1024_S64x1024_0_1 (broadcastInDim S1x1024 ![1] bcast_S1024_S1x1024_1 bih))) (Host.dotGeneral dot_S64x256_S256x1024_S64x1024_1_0_0_1_n_n none (shapeCast _ hp shapeCasts_S128x128_S64x256) (transpose S256x1024 [1, 0] Whh transposes_S1024x256_S256x1024_1_0))) (broadcastInDim S64x1024 ![0, 1] bcast_S1x1024_S64x1024_0_1 (broadcastInDim S1x1024 ![1] bcast_S1024_S1x1024_1 bhh))) slices_S64x1024_S64x256_0_0))))) (Host.tanh (extractStridedSlice S64x256 ![0, 512] (addf (addf (addf (Host.dotGeneral dot_S64x128_S128x1024_S64x1024_1_0_0_1_n_n none (extractStridedSlice S64x128 ![63, 0] E slices_S262143x128_S64x128_63_0) (transpose S128x1024 [1, 0] Wih transposes_S1024x128_S128x1024_1_0)) (broadcastInDim S64x1024 ![0, 1] bcast_S1x1024_S64x1024_0_1 (broadcastInDim S1x1024 ![1] bcast_S1024_S1x1024_1 bih))) (Host.dotGeneral dot_S64x256_S256x1024_S64x1024_1_0_0_1_n_n none (shapeCast _ hp shapeCasts_S128x128_S64x256) (transpose S256x1024 [1, 0] Whh transposes_S1024x256_S256x1024_1_0))) (broadcastInDim S64x1024 ![0, 1] bcast_S1x1024_S64x1024_0_1 (broadcastInDim S1x1024 ![1] bcast_S1024_S1x1024_1 bhh))) slices_S64x1024_S64x256_0_512)))) slices_S64x256_S64x128_0_0)

set_option maxHeartbeats 4000000 in
theorem tail3_hidden (V : Valuation τ sig (Elt F)) :
    after tail3 V (Proc.devRef .tc main_v207) = tail3Hf (V (Proc.devRef .tc main_arg0)) (V (Proc.devRef .tc main_arg1)) (V (Proc.devRef .tc main_arg2)) (V (Proc.devRef .tc main_arg3)) (V (Proc.devRef .tc main_arg4)) (V (Proc.devRef .tc main_v163)) (V (Proc.devRef .tc main_v164)) := by
  unfold tail3Hf
  simp only [tail3]
  after_results_simp
  first | rfl | (simp only [] <;> rfl)

set_option maxHeartbeats 4000000 in
theorem tail3_cell (V : Valuation τ sig (Elt F)) :
    after tail3 V (Proc.devRef .tc main_v208) = tail3Cf (V (Proc.devRef .tc main_arg0)) (V (Proc.devRef .tc main_arg1)) (V (Proc.devRef .tc main_arg2)) (V (Proc.devRef .tc main_arg3)) (V (Proc.devRef .tc main_arg4)) (V (Proc.devRef .tc main_v163)) (V (Proc.devRef .tc main_v164)) := by
  unfold tail3Cf
  simp only [tail3]
  after_results_simp
  first | rfl | (simp only [] <;> rfl)

set_option maxHeartbeats 4000000 in
/-- The level's lines write only buffers numbered 189 or higher. -/
theorem tail3_from : WritesFrom 189 (tail3 : List (HloOp τ sig (Elt F))) := by
  unfold WritesFrom
  simp only [tail3, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals (intro r hr; cases Proc.devRef_injective _ hr; decide)

/-- So a buffer numbered below 189 keeps its contents through the level. -/
theorem tail3_keep (V : Valuation τ sig (Elt F)) (r : Ref sig .tc) (hr : r.idx.val < 189) :
    after tail3 V (Proc.devRef .tc r) = V (Proc.devRef .tc r) :=
  after_of_forall_not_mem (b := Proc.devRef .tc r) _ _ (fun op hop hw =>
    absurd ((List.forall_iff_forall_mem.mp tail3_from) op hop r hw) (Nat.not_le.mpr hr))

end Cert.KernelIdeal.Fused

end
-- ==== Proof.KI.Tail.L4.lean ====
/-
  Level 4 of the host lines after the region: 32 nodes (tree level 5).

  The level's 50 lines read the five arguments and the two arrays of the level below (`main_v207`, `main_v208`: hidden and
  cell states, 128 columns), and end by writing this level's hidden states to `main_v251` and cell states to `main_v252`
  (128 kept columns each). Here: the lines, those two buffers after the lines as the composed term of what the lines
  read, and that the lines write only buffers numbered 239 or higher.
-/
import proofs.«177989_j29394756173864_2_alg».proof.Proof.KI.Lines
import Idealize.ShloMosaic.Lib.StableHlo.Run

set_option maxRecDepth 16384

noncomputable section

namespace Cert.KernelIdeal.Fused

open Cert.KernelIdeal Cert.KernelIdeal.Gen
open Idealize.ShloMosaic Idealize.ShloMosaic.TcCoe Idealize.SL.Sem Idealize.ShloMosaic.StableHlo

variable {F : FTy → Type} [FloatOps F]

/-- The level's lines, in program order. -/
abbrev tail4 : List (HloOp τ sig (Elt F)) :=
  [ StableHlo.unary main_arg0 main_v209 ((extractStridedSlice S32x128 ![31, 0] · slices_S262143x128_S32x128_31_0) : (⟨S262143x128, .f32⟩ : BufTy).Contents (Elt F) → (⟨S32x128, .f32⟩ : BufTy).Contents (Elt F)),
    StableHlo.reshape main_v207 main_v210 rfl shapeCasts_S64x128_S32x256,
    StableHlo.reshape main_v208 main_v211 rfl shapeCasts_S64x128_S32x256,
    StableHlo.unary main_arg1 main_v212 ((transpose S128x1024 [1, 0] · transposes_S1024x128_S128x1024_1_0) : (⟨S1024x128, .f32⟩ : BufTy).Contents (Elt F) → (⟨S128x1024, .f32⟩ : BufTy).Contents (Elt F)),
    StableHlo.binary main_v209 main_v212 main_v213 ((fun l r => Host.dotGeneral dot_S32x128_S128x1024_S32x1024_1_0_0_1_n_n none l r) : (⟨S32x128, .f32⟩ : BufTy).Contents (Elt F) → (⟨S128x1024, .f32⟩ : BufTy).Contents (Elt F) → (⟨S32x1024, .f32⟩ : BufTy).Contents (Elt F)),
    StableHlo.unary main_arg3 main_v214 (broadcastInDim S1x1024 ![1] bcast_S1024_S1x1024_1 : (⟨S1024, .f32⟩ : BufTy).Contents (Elt F) → (⟨S1x1024, .f32⟩ : BufTy).Contents (Elt F)),
    StableHlo.unary main_v214 main_v215 (broadcastInDim S32x1024 ![0, 1] bcast_S1x1024_S32x1024_0_1 : (⟨S1x1024, .f32⟩ : BufTy).Contents (Elt F) → (⟨S32x1024, .f32⟩ : BufTy).Contents (Elt F)),
    StableHlo.binary main_v213 main_v215 main_v216 (addf : (⟨S32x1024, .f32⟩ : BufTy).Contents (Elt F) → (⟨S32x1024, .f32⟩ : BufTy).Contents (Elt F) → (⟨S32x1024, .f32⟩ : BufTy).Contents (Elt F)),
    StableHlo.unary main_arg2 main_v217 ((transpose S256x1024 [1, 0] · transposes_S1024x256_S256x1024_1_0) : (⟨S1024x256, .f32⟩ : BufTy).Contents (Elt F) → (⟨S256x1024, .f32⟩ : BufTy).Contents (Elt F)),
    StableHlo.binary main_v210 main_v217 main_v218 ((fun l r => Host.dotGeneral dot_S32x256_S256x1024_S32x1024_1_0_0_1_n_n none l r) : (⟨S32x256, .f32⟩ : BufTy).Contents (Elt F) → (⟨S256x1024, .f32⟩ : BufTy).Contents (Elt F) → (⟨S32x1024, .f32⟩ : BufTy).Contents (Elt F)),
    StableHlo.binary main_v216 main_v218 main_v219 (addf : (⟨S32x1024, .f32⟩ : BufTy).Contents (Elt F) → (⟨S32x1024, .f32⟩ : BufTy).Contents (Elt F) → (⟨S32x1024, .f32⟩ : BufTy).Contents (Elt F)),
    StableHlo.unary main_arg4 main_v220 (broadcastInDim S1x1024 ![1] bcast_S1024_S1x1024_1 : (⟨S1024, .f32⟩ : BufTy).Contents (Elt F) → (⟨S1x1024, .f32⟩ : BufTy).Contents (Elt F)),
    StableHlo.unary main_v220 main_v221 (broadcastInDim S32x1024 ![0, 1] bcast_S1x1024_S32x1024_0_1 : (⟨S1x1024, .f32⟩ : BufTy).Contents (Elt F) → (⟨S32x1024, .f32⟩ : BufTy).Contents (Elt F)),
    StableHlo.binary main_v219 main_v221 main_v222 (addf : (⟨S32x1024, .f32⟩ : BufTy).Contents (Elt F) → (⟨S32x1024, .f32⟩ : BufTy).Contents (Elt F) → (⟨S32x1024, .f32⟩ : BufTy).Contents (Elt F)),
    StableHlo.unary main_v222 main_v223 ((extractStridedSlice S32x256 ![0, 0] · slices_S32x1024_S32x256_0_0) : (⟨S32x1024, .f32⟩ : BufTy).Contents (Elt F) → (⟨S32x256, .f32⟩ : BufTy).Contents (Elt F)),
    StableHlo.unary main_v222 main_v224 ((extractStridedSlice S32x256 ![0, 256] · slices_S32x1024_S32x256_0_256) : (⟨S32x1024, .f32⟩ : BufTy).Contents (Elt F) → (⟨S32x256, .f32⟩ : BufTy).Contents (Elt F)),
    StableHlo.unary main_v222 main_v225 ((extractStridedSlice S32x256 ![0, 512] · slices_S32x1024_S32x256_0_512) : (⟨S32x1024, .f32⟩ : BufTy).Contents (Elt F) → (⟨S32x256, .f32⟩ : BufTy).Contents (Elt F)),
    StableHlo.unary main_v222 main_v226 ((extractStridedSlice S32x256 ![0, 768] · slices_S32x1024_S32x256_0_768) : (⟨S32x1024, .f32⟩ : BufTy).Contents (Elt F) → (⟨S32x256, .f32⟩ : BufTy).Contents (Elt F)),
    StableHlo.unary main_v224 main_v227 (Host.negf : (⟨S32x256, .f32⟩ : BufTy).Contents (Elt F) → (⟨S32x256, .f32⟩ : BufTy).Contents (Elt F)),
    StableHlo.unary main_v227 main_v228 (Host.exp : (⟨S32x256, .f32⟩ : BufTy).Contents (Elt F) → (⟨S32x256, .f32⟩ : BufTy).Contents (Elt F)),
    StableHlo.nullary main_cst_23 (constant S_ .f32 0x3F800000#32),
    StableHlo.unary main_cst_23 main_v229 (broadcastInDim S32x256 ![] bcast_S_S32x256 : (⟨S_, .f32⟩ : BufTy).Contents (Elt F) → (⟨S32x256, .f32⟩ : BufTy).Contents (Elt F)),
    StableHlo.binary main_v229 main_v228 main_v230 (addf : (⟨S32x256, .f32⟩ : BufTy).Contents (Elt F) → (⟨S32x256, .f32⟩ : BufTy).Contents (Elt F) → (⟨S32x256, .f32⟩ : BufTy).Contents (Elt F)),
    StableHlo.nullary main_cst_24 (constant S_ .f32 0x3F800000#32),
    StableHlo.unary main_cst_24 main_v231 (broadcastInDim S32x256 ![] bcast_S_S32x256 : (⟨S_, .f32⟩ : BufTy).Contents (Elt F) → (⟨S32x256, .f32⟩ : BufTy).Contents (Elt F)),
    StableHlo.binary main_v231 main_v230 main_v232 (Host.divf : (⟨S32x256, .f32⟩ : BufTy).Contents (Elt F) → (⟨S32x256, .f32⟩ : BufTy).Contents (Elt F) → (⟨S32x256, .f32⟩ : BufTy).Contents (Elt F)),
    StableHlo.binary main_v232 main_v211 main_v233 (mulf : (⟨S32x256, .f32⟩ : BufTy).Contents (Elt F) → (⟨S32x256, .f32⟩ : BufTy).Contents (Elt F) → (⟨S32x256, .f32⟩ : BufTy).Contents (Elt F)),
    StableHlo.unary main_v223 main_v234 (Host.negf : (⟨S32x256, .f32⟩ : BufTy).Contents (Elt F) → (⟨S32x256, .f32⟩ : BufTy).Contents (Elt F)),
    StableHlo.unary main_v234 main_v235 (Host.exp : (⟨S32x256, .f32⟩ : BufTy).Contents (Elt F) → (⟨S32x256, .f32⟩ : BufTy).Contents (Elt F)),
    StableHlo.nullary main_cst_25 (constant S_ .f32 0x3F800000#32),
    StableHlo.unary main_cst_25 main_v236 (broadcastInDim S32x256 ![] bcast_S_S32x256 : (⟨S_, .f32⟩ : BufTy).Contents (Elt F) → (⟨S32x256, .f32⟩ : BufTy).Contents (Elt F)),
    StableHlo.binary main_v236 main_v235 main_v237 (addf : (⟨S32x256, .f32⟩ : BufTy).Contents (Elt F) → (⟨S32x256, .f32⟩ : BufTy).Contents (Elt F) → (⟨S32x256, .f32⟩ : BufTy).Contents (Elt F)),
    StableHlo.nullary main_cst_26 (constant S_ .f32 0x3F800000#32),
    StableHlo.unary main_cst_26 main_v238 (broadcastInDim S32x256 ![] bcast_S_S32x256 : (⟨S_, .f32⟩ : BufTy).Contents (Elt F) → (⟨S32x256, .f32⟩ : BufTy).Contents (Elt F)),
    StableHlo.binary main_v238 main_v237 main_v239 (Host.divf : (⟨S32x256, .f32⟩ : BufTy).Contents (Elt F) → (⟨S32x256, .f32⟩ : BufTy).Contents (Elt F) → (⟨S32x256, .f32⟩ : BufTy).Contents (Elt F)),
    StableHlo.unary main_v225 main_v240 (Host.tanh : (⟨S32x256, .f32⟩ : BufTy).Contents (Elt F) → (⟨S32x256, .f32⟩ : BufTy).Contents (Elt F)),
    StableHlo.binary main_v239 main_v240 main_v241 (mulf : (⟨S32x256, .f32⟩ : BufTy).Contents (Elt F) → (⟨S32x256, .f32⟩ : BufTy).Contents (Elt F) → (⟨S32x256, .f32⟩ : BufTy).Contents (Elt F)),
    StableHlo.binary main_v233 main_v241 main_v242 (addf : (⟨S32x256, .f32⟩ : BufTy).Contents (Elt F) → (⟨S32x256, .f32⟩ : BufTy).Contents (Elt F) → (⟨S32x256, .f32⟩ : BufTy).Contents (Elt F)),
    StableHlo.unary main_v226 main_v243 (Host.negf : (⟨S32x256, .f32⟩ : BufTy).Contents (Elt F) → (⟨S32x256, .f32⟩ : BufTy).Contents (Elt F)),
    StableHlo.unary main_v243 main_v244 (Host.exp : (⟨S32x256, .f32⟩ : BufTy).Contents (Elt F) → (⟨S32x256, .f32⟩ : BufTy).Contents (Elt F)),
    StableHlo.nullary main_cst_27 (constant S_ .f32 0x3F800000#32),
    StableHlo.unary main_cst_27 main_v245 (broadcastInDim S32x256 ![] bcast_S_S32x256 : (⟨S_, .f32⟩ : BufTy).Contents (Elt F) → (⟨S32x256, .f32⟩ : BufTy).Contents (Elt F)),
    StableHlo.binary main_v245 main_v244 main_v246 (addf : (⟨S32x256, .f32⟩ : BufTy).Contents (Elt F) → (⟨S32x256, .f32⟩ : BufTy).Contents (Elt F) → (⟨S32x256, .f32⟩ : BufTy).Contents (Elt F)),
    StableHlo.nullary main_cst_28 (constant S_ .f32 0x3F800000#32),
    StableHlo.unary main_cst_28 main_v247 (broadcastInDim S32x256 ![] bcast_S_S32x256 : (⟨S_, .f32⟩ : BufTy).Contents (Elt F) → (⟨S32x256, .f32⟩ : BufTy).Contents (Elt F)),
    StableHlo.binary main_v247 main_v246 main_v248 (Host.divf : (⟨S32x256, .f32⟩ : BufTy).Contents (Elt F) → (⟨S32x256, .f32⟩ : BufTy).Contents (Elt F) → (⟨S32x256, .f32⟩ : BufTy).Contents (Elt F)),
    StableHlo.unary main_v242 main_v249 (Host.tanh : (⟨S32x256, .f32⟩ : BufTy).Contents (Elt F) → (⟨S32x256, .f32⟩ : BufTy).Contents (Elt F)),
    StableHlo.binary main_v248 main_v249 main_v250 (mulf : (⟨S32x256, .f32⟩ : BufTy).Contents (Elt F) → (⟨S32x256, .f32⟩ : BufTy).Contents (Elt F) → (⟨S32x256, .f32⟩ : BufTy).Contents (Elt F)),
    StableHlo.unary main_v250 main_v251 ((extractStridedSlice S32x128 ![0, 0] · slices_S32x256_S32x128_0_0) : (⟨S32x256, .f32⟩ : BufTy).Contents (Elt F) → (⟨S32x128, .f32⟩ : BufTy).Contents (Elt F)),
    StableHlo.unary main_v242 main_v252 ((extractStridedSlice S32x128 ![0, 0] · slices_S32x256_S32x128_0_0) : (⟨S32x256, .f32⟩ : BufTy).Contents (Elt F) → (⟨S32x128, .f32⟩ : BufTy).Contents (Elt F)) ]

/-- The level's hidden states (kept columns) as a function of the arrays the lines read: the five arguments and the
    hidden and cell arrays of the level below. -/
def tail4Hf (E : FVec F S262143x128 .f32) (Wih : FVec F S1024x128 .f32) (Whh : FVec F S1024x256 .f32) (bih bhh : FVec F S1024 .f32) (hp cp : FVec F S64x128 .f32) : FVec F S32x128 .f32 :=
  (extractStridedSlice S32x128 ![0, 0] (mulf (Host.divf (broadcastInDim S32x256 ![] bcast_S_S32x256 (constant S_ .f32 0x3F800000#32)) (addf (broadcastInDim S32x256 ![] bcast_S_S32x256 (constant S_ .f32 0x3F800000#32)) (Host.exp (Host.negf (extractStridedSlice S32x256 ![0, 768] (addf (addf (addf (Host.dotGeneral dot_S32x128_S128x1024_S32x1024_1_0_0_1_n_n none (extractStridedSlice S32x128 ![31, 0] E slices_S262143x128_S32x128_31_0) (transpose S128x1024 [1, 0] Wih transposes_S1024x128_S128x1024_1_0)) (broadcastInDim S32x1024 ![0, 1] bcast_S1x1024_S32x1024_0_1 (broadcastInDim S1x1024 ![1] bcast_S1024_S1x1024_1 bih))) (Host.dotGeneral dot_S32x256_S256x1024_S32x1024_1_0_0_1_n_n none (shapeCast _ hp shapeCasts_S64x128_S32x256) (transpose S256x1024 [1, 0] Whh transposes_S1024x256_S256x1024_1_0))) (broadcastInDim S32x1024 ![0, 1] bcast_S1x1024_S32x1024_0_1 (broadcastInDim S1x1024 ![1] bcast_S1024_S1x1024_1 bhh))) slices_S32x1024_S32x256_0_768))))) (Host.tanh (addf (mulf (Host.divf (broadcastInDim S32x256 ![] bcast_S_S32x256 (constant S_ .f32 0x3F800000#32)) (addf (broadcastInDim S32x256 ![] bcast_S_S32x256 (constant S_ .f32 0x3F800000#32)) (Host.exp (Host.negf (extractStridedSlice S32x256 ![0, 256] (addf (addf (addf (Host.dotGeneral dot_S32x128_S128x1024_S32x1024_1_0_0_1_n_n none (extractStridedSlice S32x128 ![31, 0] E slices_S262143x128_S32x128_31_0) (transpose S128x1024 [1, 0] Wih transposes_S1024x128_S128x1024_1_0)) (broadcastInDim S32x1024 ![0, 1] bcast_S1x1024_S32x1024_0_1 (broadcastInDim S1x1024 ![1] bcast_S1024_S1x1024_1 bih))) (Host.dotGeneral dot_S32x256_S256x1024_S32x1024_1_0_0_1_n_n none (shapeCast _ hp shapeCasts_S64x128_S32x256) (transpose S256x1024 [1, 0] Whh transposes_S1024x256_S256x1024_1_0))) (broadcastInDim S32x1024 ![0, 1] bcast_S1x1024_S32x1024_0_1 (broadcastInDim S1x1024 ![1] bcast_S1024_S1x1024_1 bhh))) slices_S32x1024_S32x256_0_256))))) (shapeCast _ cp shapeCasts_S64x128_S32x256)) (mulf (Host.divf (broadcastInDim S32x256 ![] bcast_S_S32x256 (constant S_ .f32 0x3F800000#32)) (addf (broadcastInDim S32x256 ![] bcast_S_S32x256 (constant S_ .f32 0x3F800000#32)) (Host.exp (Host.negf (extractStridedSlice S32x256 ![0, 0] (addf (addf (addf (Host.dotGeneral dot_S32x128_S128x1024_S32x1024_1_0_0_1_n_n none (extractStridedSlice S32x128 ![31, 0] E slices_S262143x128_S32x128_31_0) (transpose S128x1024 [1, 0] Wih transposes_S1024x128_S128x1024_1_0)) (broadcastInDim S32x1024 ![0, 1] bcast_S1x1024_S32x1024_0_1 (broadcastInDim S1x1024 ![1] bcast_S1024_S1x1024_1 bih))) (Host.dotGeneral dot_S32x256_S256x1024_S32x1024_1_0_0_1_n_n none (shapeCast _ hp shapeCasts_S64x128_S32x256) (transpose S256x1024 [1, 0] Whh transposes_S1024x256_S256x1024_1_0))) (broadcastInDim S32x1024 ![0, 1] bcast_S1x1024_S32x1024_0_1 (broadcastInDim S1x1024 ![1] bcast_S1024_S1x1024_1 bhh))) slices_S32x1024_S32x256_0_0))))) (Host.tanh (extractStridedSlice S32x256 ![0, 512] (addf (addf (addf (Host.dotGeneral dot_S32x128_S128x1024_S32x1024_1_0_0_1_n_n none (extractStridedSlice S32x128 ![31, 0] E slices_S262143x128_S32x128_31_0) (transpose S128x1024 [1, 0] Wih transposes_S1024x128_S128x1024_1_0)) (broadcastInDim S32x1024 ![0, 1] bcast_S1x1024_S32x1024_0_1 (broadcastInDim S1x1024 ![1] bcast_S1024_S1x1024_1 bih))) (Host.dotGeneral dot_S32x256_S256x1024_S32x1024_1_0_0_1_n_n none (shapeCast _ hp shapeCasts_S64x128_S32x256) (transpose S256x1024 [1, 0] Whh transposes_S1024x256_S256x1024_1_0))) (broadcastInDim S32x1024 ![0, 1] bcast_S1x1024_S32x1024_0_1 (broadcastInDim S1x1024 ![1] bcast_S1024_S1x1024_1 bhh))) slices_S32x1024_S32x256_0_512)))))) slices_S32x256_S32x128_0_0)

/-- The level's cell states (kept columns) as a function of the same arrays. -/
def tail4Cf (E : FVec F S262143x128 .f32) (Wih : FVec F S1024x128 .f32) (Whh : FVec F S1024x256 .f32) (bih bhh : FVec F S1024 .f32) (hp cp : FVec F S64x128 .f32) : FVec F S32x128 .f32 :=
  (extractStridedSlice S32x128 ![0, 0] (addf (mulf (Host.divf (broadcastInDim S32x256 ![] bcast_S_S32x256 (constant S_ .f32 0x3F800000#32)) (addf (broadcastInDim S32x256 ![] bcast_S_S32x256 (constant S_ .f32 0x3F800000#32)) (Host.exp (Host.negf (extractStridedSlice S32x256 ![0, 256] (addf (addf (addf (Host.dotGeneral dot_S32x128_S128x1024_S32x1024_1_0_0_1_n_n none (extractStridedSlice S32x128 ![31, 0] E slices_S262143x128_S32x128_31_0) (transpose S128x1024 [1, 0] Wih transposes_S1024x128_S128x1024_1_0)) (broadcastInDim S32x1024 ![0, 1] bcast_S1x1024_S32x1024_0_1 (broadcastInDim S1x1024 ![1] bcast_S1024_S1x1024_1 bih))) (Host.dotGeneral dot_S32x256_S256x1024_S32x1024_1_0_0_1_n_n none (shapeCast _ hp shapeCasts_S64x128_S32x256) (transpose S256x1024 [1, 0] Whh transposes_S1024x256_S256x1024_1_0))) (broadcastInDim S32x1024 ![0, 1] bcast_S1x1024_S32x1024_0_1 (broadcastInDim S1x1024 ![1] bcast_S1024_S1x1024_1 bhh))) slices_S32x1024_S32x256_0_256))))) (shapeCast _ cp shapeCasts_S64x128_S32x256)) (mulf (Host.divf (broadcastInDim S32x256 ![] bcast_S_S32x256 (constant S_ .f32 0x3F800000#32)) (addf (broadcastInDim S32x256 ![] bcast_S_S32x256 (constant S_ .f32 0x3F800000#32)) (Host.exp (Host.negf (extractStridedSlice S32x256 ![0, 0] (addf (addf (addf (Host.dotGeneral dot_S32x128_S128x1024_S32x1024_1_0_0_1_n_n none (extractStridedSlice S32x128 ![31, 0] E slices_S262143x128_S32x128_31_0) (transpose S128x1024 [1, 0] Wih transposes_S1024x128_S128x1024_1_0)) (broadcastInDim S32x1024 ![0, 1] bcast_S1x1024_S32x1024_0_1 (broadcastInDim S1x1024 ![1] bcast_S1024_S1x1024_1 bih))) (Host.dotGeneral dot_S32x256_S256x1024_S32x1024_1_0_0_1_n_n none (shapeCast _ hp shapeCasts_S64x128_S32x256) (transpose S256x1024 [1, 0] Whh transposes_S1024x256_S256x1024_1_0))) (broadcastInDim S32x1024 ![0, 1] bcast_S1x1024_S32x1024_0_1 (broadcastInDim S1x1024 ![1] bcast_S1024_S1x1024_1 bhh))) slices_S32x1024_S32x256_0_0))))) (Host.tanh (extractStridedSlice S32x256 ![0, 512] (addf (addf (addf (Host.dotGeneral dot_S32x128_S128x1024_S32x1024_1_0_0_1_n_n none (extractStridedSlice S32x128 ![31, 0] E slices_S262143x128_S32x128_31_0) (transpose S128x1024 [1, 0] Wih transposes_S1024x128_S128x1024_1_0)) (broadcastInDim S32x1024 ![0, 1] bcast_S1x1024_S32x1024_0_1 (broadcastInDim S1x1024 ![1] bcast_S1024_S1x1024_1 bih))) (Host.dotGeneral dot_S32x256_S256x1024_S32x1024_1_0_0_1_n_n none (shapeCast _ hp shapeCasts_S64x128_S32x256) (transpose S256x1024 [1, 0] Whh transposes_S1024x256_S256x1024_1_0))) (broadcastInDim S32x1024 ![0, 1] bcast_S1x1024_S32x1024_0_1 (broadcastInDim S1x1024 ![1] bcast_S1024_S1x1024_1 bhh))) slices_S32x1024_S32x256_0_512)))) slices_S32x256_S32x128_0_0)

set_option maxHeartbeats 4000000 in
theorem tail4_hidden (V : Valuation τ sig (Elt F)) :
    after tail4 V (Proc.devRef .tc main_v251) = tail4Hf (V (Proc.devRef .tc main_arg0)) (V (Proc.devRef .tc main_arg1)) (V (Proc.devRef .tc main_arg2)) (V (Proc.devRef .tc main_arg3)) (V (Proc.devRef .tc main_arg4)) (V (Proc.devRef .tc main_v207)) (V (Proc.devRef .tc main_v208)) := by
  unfold tail4Hf
  simp only [tail4]
  after_results_simp
  first | rfl | (simp only [] <;> rfl)

set_option maxHeartbeats 4000000 in
theorem tail4_cell (V : Valuation τ sig (Elt F)) :
    after tail4 V (Proc.devRef .tc main_v252) = tail4Cf (V (Proc.devRef .tc main_arg0)) (V (Proc.devRef .tc main_arg1)) (V (Proc.devRef .tc main_arg2)) (V (Proc.devRef .tc main_arg3)) (V (Proc.devRef .tc main_arg4)) (V (Proc.devRef .tc main_v207)) (V (Proc.devRef .tc main_v208)) := by
  unfold tail4Cf
  simp only [tail4]
  after_results_simp
  first | rfl | (simp only [] <;> rfl)

set_option maxHeartbeats 4000000 in
/-- The level's lines write only buffers numbered 239 or higher. -/
theorem tail4_from : WritesFrom 239 (tail4 : List (HloOp τ sig (Elt F))) := by
  unfold WritesFrom
  simp only [tail4, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals (intro r hr; cases Proc.devRef_injective _ hr; decide)

/-- So a buffer numbered below 239 keeps its contents through the level. -/
theorem tail4_keep (V : Valuation τ sig (Elt F)) (r : Ref sig .tc) (hr : r.idx.val < 239) :
    after tail4 V (Proc.devRef .tc r) = V (Proc.devRef .tc r) :=
  after_of_forall_not_mem (b := Proc.devRef .tc r) _ _ (fun op hop hw =>
    absurd ((List.forall_iff_forall_mem.mp tail4_from) op hop r hw) (Nat.not_le.mpr hr))

end Cert.KernelIdeal.Fused

end
-- ==== Proof.KI.Tail.L5.lean ====
/-
  Level 5 of the host lines after the region: 16 nodes (tree level 4).

  The level's 50 lines read the five arguments and the two arrays of the level below (`main_v251`, `main_v252`: hidden and
  cell states, 128 columns), and end by writing this level's hidden states to `main_v295` and cell states to `main_v296`
  (128 kept columns each). Here: the lines, those two buffers after the lines as the composed term of what the lines
  read, and that the lines write only buffers numbered 289 or higher.
-/
import proofs.«177989_j29394756173864_2_alg».proof.Proof.KI.Lines
import Idealize.ShloMosaic.Lib.StableHlo.Run

set_option maxRecDepth 16384

noncomputable section

namespace Cert.KernelIdeal.Fused

open Cert.KernelIdeal Cert.KernelIdeal.Gen
open Idealize.ShloMosaic Idealize.ShloMosaic.TcCoe Idealize.SL.Sem Idealize.ShloMosaic.StableHlo

variable {F : FTy → Type} [FloatOps F]

/-- The level's lines, in program order. -/
abbrev tail5 : List (HloOp τ sig (Elt F)) :=
  [ StableHlo.unary main_arg0 main_v253 ((extractStridedSlice S16x128 ![15, 0] · slices_S262143x128_S16x128_15_0) : (⟨S262143x128, .f32⟩ : BufTy).Contents (Elt F) → (⟨S16x128, .f32⟩ : BufTy).Contents (Elt F)),
    StableHlo.reshape main_v251 main_v254 rfl shapeCasts_S32x128_S16x256,
    StableHlo.reshape main_v252 main_v255 rfl shapeCasts_S32x128_S16x256,
    StableHlo.unary main_arg1 main_v256 ((transpose S128x1024 [1, 0] · transposes_S1024x128_S128x1024_1_0) : (⟨S1024x128, .f32⟩ : BufTy).Contents (Elt F) → (⟨S128x1024, .f32⟩ : BufTy).Contents (Elt F)),
    StableHlo.binary main_v253 main_v256 main_v257 ((fun l r => Host.dotGeneral dot_S16x128_S128x1024_S16x1024_1_0_0_1_n_n none l r) : (⟨S16x128, .f32⟩ : BufTy).Contents (Elt F) → (⟨S128x1024, .f32⟩ : BufTy).Contents (Elt F) → (⟨S16x1024, .f32⟩ : BufTy).Contents (Elt F)),
    StableHlo.unary main_arg3 main_v258 (broadcastInDim S1x1024 ![1] bcast_S1024_S1x1024_1 : (⟨S1024, .f32⟩ : BufTy).Contents (Elt F) → (⟨S1x1024, .f32⟩ : BufTy).Contents (Elt F)),
    StableHlo.unary main_v258 main_v259 (broadcastInDim S16x1024 ![0, 1] bcast_S1x1024_S16x1024_0_1 : (⟨S1x1024, .f32⟩ : BufTy).Contents (Elt F) → (⟨S16x1024, .f32⟩ : BufTy).Contents (Elt F)),
    StableHlo.binary main_v257 main_v259 main_v260 (addf : (⟨S16x1024, .f32⟩ : BufTy).Contents (Elt F) → (⟨S16x1024, .f32⟩ : BufTy).Contents (Elt F) → (⟨S16x1024, .f32⟩ : BufTy).Contents (Elt F)),
    StableHlo.unary main_arg2 main_v261 ((transpose S256x1024 [1, 0] · transposes_S1024x256_S256x1024_1_0) : (⟨S1024x256, .f32⟩ : BufTy).Contents (Elt F) → (⟨S256x1024, .f32⟩ : BufTy).Contents (Elt F)),
    StableHlo.binary main_v254 main_v261 main_v262 ((fun l r => Host.dotGeneral dot_S16x256_S256x1024_S16x1024_1_0_0_1_n_n none l r) : (⟨S16x256, .f32⟩ : BufTy).Contents (Elt F) → (⟨S256x1024, .f32⟩ : BufTy).Contents (Elt F) → (⟨S16x1024, .f32⟩ : BufTy).Contents (Elt F)),
    StableHlo.binary main_v260 main_v262 main_v263 (addf : (⟨S16x1024, .f32⟩ : BufTy).Contents (Elt F) → (⟨S16x1024, .f32⟩ : BufTy).Contents (Elt F) → (⟨S16x1024, .f32⟩ : BufTy).Contents (Elt F)),
    StableHlo.unary main_arg4 main_v264 (broadcastInDim S1x1024 ![1] bcast_S1024_S1x1024_1 : (⟨S1024, .f32⟩ : BufTy).Contents (Elt F) → (⟨S1x1024, .f32⟩ : BufTy).Contents (Elt F)),
    StableHlo.unary main_v264 main_v265 (broadcastInDim S16x1024 ![0, 1] bcast_S1x1024_S16x1024_0_1 : (⟨S1x1024, .f32⟩ : BufTy).Contents (Elt F) → (⟨S16x1024, .f32⟩ : BufTy).Contents (Elt F)),
    StableHlo.binary main_v263 main_v265 main_v266 (addf : (⟨S16x1024, .f32⟩ : BufTy).Contents (Elt F) → (⟨S16x1024, .f32⟩ : BufTy).Contents (Elt F) → (⟨S16x1024, .f32⟩ : BufTy).Contents (Elt F)),
    StableHlo.unary main_v266 main_v267 ((extractStridedSlice S16x256 ![0, 0] · slices_S16x1024_S16x256_0_0) : (⟨S16x1024, .f32⟩ : BufTy).Contents (Elt F) → (⟨S16x256, .f32⟩ : BufTy).Contents (Elt F)),
    StableHlo.unary main_v266 main_v268 ((extractStridedSlice S16x256 ![0, 256] · slices_S16x1024_S16x256_0_256) : (⟨S16x1024, .f32⟩ : BufTy).Contents (Elt F) → (⟨S16x256, .f32⟩ : BufTy).Contents (Elt F)),
    StableHlo.unary main_v266 main_v269 ((extractStridedSlice S16x256 ![0, 512] · slices_S16x1024_S16x256_0_512) : (⟨S16x1024, .f32⟩ : BufTy).Contents (Elt F) → (⟨S16x256, .f32⟩ : BufTy).Contents (Elt F)),
    StableHlo.unary main_v266 main_v270 ((extractStridedSlice S16x256 ![0, 768] · slices_S16x1024_S16x256_0_768) : (⟨S16x1024, .f32⟩ : BufTy).Contents (Elt F) → (⟨S16x256, .f32⟩ : BufTy).Contents (Elt F)),
    StableHlo.unary main_v268 main_v271 (Host.negf : (⟨S16x256, .f32⟩ : BufTy).Contents (Elt F) → (⟨S16x256, .f32⟩ : BufTy).Contents (Elt F)),
    StableHlo.unary main_v271 main_v272 (Host.exp : (⟨S16x256, .f32⟩ : BufTy).Contents (Elt F) → (⟨S16x256, .f32⟩ : BufTy).Contents (Elt F)),
    StableHlo.nullary main_cst_29 (constant S_ .f32 0x3F800000#32),
    StableHlo.unary main_cst_29 main_v273 (broadcastInDim S16x256 ![] bcast_S_S16x256 : (⟨S_, .f32⟩ : BufTy).Contents (Elt F) → (⟨S16x256, .f32⟩ : BufTy).Contents (Elt F)),
    StableHlo.binary main_v273 main_v272 main_v274 (addf : (⟨S16x256, .f32⟩ : BufTy).Contents (Elt F) → (⟨S16x256, .f32⟩ : BufTy).Contents (Elt F) → (⟨S16x256, .f32⟩ : BufTy).Contents (Elt F)),
    StableHlo.nullary main_cst_30 (constant S_ .f32 0x3F800000#32),
    StableHlo.unary main_cst_30 main_v275 (broadcastInDim S16x256 ![] bcast_S_S16x256 : (⟨S_, .f32⟩ : BufTy).Contents (Elt F) → (⟨S16x256, .f32⟩ : BufTy).Contents (Elt F)),
    StableHlo.binary main_v275 main_v274 main_v276 (Host.divf : (⟨S16x256, .f32⟩ : BufTy).Contents (Elt F) → (⟨S16x256, .f32⟩ : BufTy).Contents (Elt F) → (⟨S16x256, .f32⟩ : BufTy).Contents (Elt F)),
    StableHlo.binary main_v276 main_v255 main_v277 (mulf : (⟨S16x256, .f32⟩ : BufTy).Contents (Elt F) → (⟨S16x256, .f32⟩ : BufTy).Contents (Elt F) → (⟨S16x256, .f32⟩ : BufTy).Contents (Elt F)),
    StableHlo.unary main_v267 main_v278 (Host.negf : (⟨S16x256, .f32⟩ : BufTy).Contents (Elt F) → (⟨S16x256, .f32⟩ : BufTy).Contents (Elt F)),
    StableHlo.unary main_v278 main_v279 (Host.exp : (⟨S16x256, .f32⟩ : BufTy).Contents (Elt F) → (⟨S16x256, .f32⟩ : BufTy).Contents (Elt F)),
    StableHlo.nullary main_cst_31 (constant S_ .f32 0x3F800000#32),
    StableHlo.unary main_cst_31 main_v280 (broadcastInDim S16x256 ![] bcast_S_S16x256 : (⟨S_, .f32⟩ : BufTy).Contents (Elt F) → (⟨S16x256, .f32⟩ : BufTy).Contents (Elt F)),
    StableHlo.binary main_v280 main_v279 main_v281 (addf : (⟨S16x256, .f32⟩ : BufTy).Contents (Elt F) → (⟨S16x256, .f32⟩ : BufTy).Contents (Elt F) → (⟨S16x256, .f32⟩ : BufTy).Contents (Elt F)),
    StableHlo.nullary main_cst_32 (constant S_ .f32 0x3F800000#32),
    StableHlo.unary main_cst_32 main_v282 (broadcastInDim S16x256 ![] bcast_S_S16x256 : (⟨S_, .f32⟩ : BufTy).Contents (Elt F) → (⟨S16x256, .f32⟩ : BufTy).Contents (Elt F)),
    StableHlo.binary main_v282 main_v281 main_v283 (Host.divf : (⟨S16x256, .f32⟩ : BufTy).Contents (Elt F) → (⟨S16x256, .f32⟩ : BufTy).Contents (Elt F) → (⟨S16x256, .f32⟩ : BufTy).Contents (Elt F)),
    StableHlo.unary main_v269 main_v284 (Host.tanh : (⟨S16x256, .f32⟩ : BufTy).Contents (Elt F) → (⟨S16x256, .f32⟩ : BufTy).Contents (Elt F)),
    StableHlo.binary main_v283 main_v284 main_v285 (mulf : (⟨S16x256, .f32⟩ : BufTy).Contents (Elt F) → (⟨S16x256, .f32⟩ : BufTy).Contents (Elt F) → (⟨S16x256, .f32⟩ : BufTy).Contents (Elt F)),
    StableHlo.binary main_v277 main_v285 main_v286 (addf : (⟨S16x256, .f32⟩ : BufTy).Contents (Elt F) → (⟨S16x256, .f32⟩ : BufTy).Contents (Elt F) → (⟨S16x256, .f32⟩ : BufTy).Contents (Elt F)),
    StableHlo.unary main_v270 main_v287 (Host.negf : (⟨S16x256, .f32⟩ : BufTy).Contents (Elt F) → (⟨S16x256, .f32⟩ : BufTy).Contents (Elt F)),
    StableHlo.unary main_v287 main_v288 (Host.exp : (⟨S16x256, .f32⟩ : BufTy).Contents (Elt F) → (⟨S16x256, .f32⟩ : BufTy).Contents (Elt F)),
    StableHlo.nullary main_cst_33 (constant S_ .f32 0x3F800000#32),
    StableHlo.unary main_cst_33 main_v289 (broadcastInDim S16x256 ![] bcast_S_S16x256 : (⟨S_, .f32⟩ : BufTy).Contents (Elt F) → (⟨S16x256, .f32⟩ : BufTy).Contents (Elt F)),
    StableHlo.binary main_v289 main_v288 main_v290 (addf : (⟨S16x256, .f32⟩ : BufTy).Contents (Elt F) → (⟨S16x256, .f32⟩ : BufTy).Contents (Elt F) → (⟨S16x256, .f32⟩ : BufTy).Contents (Elt F)),
    StableHlo.nullary main_cst_34 (constant S_ .f32 0x3F800000#32),
    StableHlo.unary main_cst_34 main_v291 (broadcastInDim S16x256 ![] bcast_S_S16x256 : (⟨S_, .f32⟩ : BufTy).Contents (Elt F) → (⟨S16x256, .f32⟩ : BufTy).Contents (Elt F)),
    StableHlo.binary main_v291 main_v290 main_v292 (Host.divf : (⟨S16x256, .f32⟩ : BufTy).Contents (Elt F) → (⟨S16x256, .f32⟩ : BufTy).Contents (Elt F) → (⟨S16x256, .f32⟩ : BufTy).Contents (Elt F)),
    StableHlo.unary main_v286 main_v293 (Host.tanh : (⟨S16x256, .f32⟩ : BufTy).Contents (Elt F) → (⟨S16x256, .f32⟩ : BufTy).Contents (Elt F)),
    StableHlo.binary main_v292 main_v293 main_v294 (mulf : (⟨S16x256, .f32⟩ : BufTy).Contents (Elt F) → (⟨S16x256, .f32⟩ : BufTy).Contents (Elt F) → (⟨S16x256, .f32⟩ : BufTy).Contents (Elt F)),
    StableHlo.unary main_v294 main_v295 ((extractStridedSlice S16x128 ![0, 0] · slices_S16x256_S16x128_0_0) : (⟨S16x256, .f32⟩ : BufTy).Contents (Elt F) → (⟨S16x128, .f32⟩ : BufTy).Contents (Elt F)),
    StableHlo.unary main_v286 main_v296 ((extractStridedSlice S16x128 ![0, 0] · slices_S16x256_S16x128_0_0) : (⟨S16x256, .f32⟩ : BufTy).Contents (Elt F) → (⟨S16x128, .f32⟩ : BufTy).Contents (Elt F)) ]

/-- The level's hidden states (kept columns) as a function of the arrays the lines read: the five arguments and the
    hidden and cell arrays of the level below. -/
def tail5Hf (E : FVec F S262143x128 .f32) (Wih : FVec F S1024x128 .f32) (Whh : FVec F S1024x256 .f32) (bih bhh : FVec F S1024 .f32) (hp cp : FVec F S32x128 .f32) : FVec F S16x128 .f32 :=
  (extractStridedSlice S16x128 ![0, 0] (mulf (Host.divf (broadcastInDim S16x256 ![] bcast_S_S16x256 (constant S_ .f32 0x3F800000#32)) (addf (broadcastInDim S16x256 ![] bcast_S_S16x256 (constant S_ .f32 0x3F800000#32)) (Host.exp (Host.negf (extractStridedSlice S16x256 ![0, 768] (addf (addf (addf (Host.dotGeneral dot_S16x128_S128x1024_S16x1024_1_0_0_1_n_n none (extractStridedSlice S16x128 ![15, 0] E slices_S262143x128_S16x128_15_0) (transpose S128x1024 [1, 0] Wih transposes_S1024x128_S128x1024_1_0)) (broadcastInDim S16x1024 ![0, 1] bcast_S1x1024_S16x1024_0_1 (broadcastInDim S1x1024 ![1] bcast_S1024_S1x1024_1 bih))) (Host.dotGeneral dot_S16x256_S256x1024_S16x1024_1_0_0_1_n_n none (shapeCast _ hp shapeCasts_S32x128_S16x256) (transpose S256x1024 [1, 0] Whh transposes_S1024x256_S256x1024_1_0))) (broadcastInDim S16x1024 ![0, 1] bcast_S1x1024_S16x1024_0_1 (broadcastInDim S1x1024 ![1] bcast_S1024_S1x1024_1 bhh))) slices_S16x1024_S16x256_0_768))))) (Host.tanh (addf (mulf (Host.divf (broadcastInDim S16x256 ![] bcast_S_S16x256 (constant S_ .f32 0x3F800000#32)) (addf (broadcastInDim S16x256 ![] bcast_S_S16x256 (constant S_ .f32 0x3F800000#32)) (Host.exp (Host.negf (extractStridedSlice S16x256 ![0, 256] (addf (addf (addf (Host.dotGeneral dot_S16x128_S128x1024_S16x1024_1_0_0_1_n_n none (extractStridedSlice S16x128 ![15, 0] E slices_S262143x128_S16x128_15_0) (transpose S128x1024 [1, 0] Wih transposes_S1024x128_S128x1024_1_0)) (broadcastInDim S16x1024 ![0, 1] bcast_S1x1024_S16x1024_0_1 (broadcastInDim S1x1024 ![1] bcast_S1024_S1x1024_1 bih))) (Host.dotGeneral dot_S16x256_S256x1024_S16x1024_1_0_0_1_n_n none (shapeCast _ hp shapeCasts_S32x128_S16x256) (transpose S256x1024 [1, 0] Whh transposes_S1024x256_S256x1024_1_0))) (broadcastInDim S16x1024 ![0, 1] bcast_S1x1024_S16x1024_0_1 (broadcastInDim S1x1024 ![1] bcast_S1024_S1x1024_1 bhh))) slices_S16x1024_S16x256_0_256))))) (shapeCast _ cp shapeCasts_S32x128_S16x256)) (mulf (Host.divf (broadcastInDim S16x256 ![] bcast_S_S16x256 (constant S_ .f32 0x3F800000#32)) (addf (broadcastInDim S16x256 ![] bcast_S_S16x256 (constant S_ .f32 0x3F800000#32)) (Host.exp (Host.negf (extractStridedSlice S16x256 ![0, 0] (addf (addf (addf (Host.dotGeneral dot_S16x128_S128x1024_S16x1024_1_0_0_1_n_n none (extractStridedSlice S16x128 ![15, 0] E slices_S262143x128_S16x128_15_0) (transpose S128x1024 [1, 0] Wih transposes_S1024x128_S128x1024_1_0)) (broadcastInDim S16x1024 ![0, 1] bcast_S1x1024_S16x1024_0_1 (broadcastInDim S1x1024 ![1] bcast_S1024_S1x1024_1 bih))) (Host.dotGeneral dot_S16x256_S256x1024_S16x1024_1_0_0_1_n_n none (shapeCast _ hp shapeCasts_S32x128_S16x256) (transpose S256x1024 [1, 0] Whh transposes_S1024x256_S256x1024_1_0))) (broadcastInDim S16x1024 ![0, 1] bcast_S1x1024_S16x1024_0_1 (broadcastInDim S1x1024 ![1] bcast_S1024_S1x1024_1 bhh))) slices_S16x1024_S16x256_0_0))))) (Host.tanh (extractStridedSlice S16x256 ![0, 512] (addf (addf (addf (Host.dotGeneral dot_S16x128_S128x1024_S16x1024_1_0_0_1_n_n none (extractStridedSlice S16x128 ![15, 0] E slices_S262143x128_S16x128_15_0) (transpose S128x1024 [1, 0] Wih transposes_S1024x128_S128x1024_1_0)) (broadcastInDim S16x1024 ![0, 1] bcast_S1x1024_S16x1024_0_1 (broadcastInDim S1x1024 ![1] bcast_S1024_S1x1024_1 bih))) (Host.dotGeneral dot_S16x256_S256x1024_S16x1024_1_0_0_1_n_n none (shapeCast _ hp shapeCasts_S32x128_S16x256) (transpose S256x1024 [1, 0] Whh transposes_S1024x256_S256x1024_1_0))) (broadcastInDim S16x1024 ![0, 1] bcast_S1x1024_S16x1024_0_1 (broadcastInDim S1x1024 ![1] bcast_S1024_S1x1024_1 bhh))) slices_S16x1024_S16x256_0_512)))))) slices_S16x256_S16x128_0_0)

/-- The level's cell states (kept columns) as a function of the same arrays. -/
def tail5Cf (E : FVec F S262143x128 .f32) (Wih : FVec F S1024x128 .f32) (Whh : FVec F S1024x256 .f32) (bih bhh : FVec F S1024 .f32) (hp cp : FVec F S32x128 .f32) : FVec F S16x128 .f32 :=
  (extractStridedSlice S16x128 ![0, 0] (addf (mulf (Host.divf (broadcastInDim S16x256 ![] bcast_S_S16x256 (constant S_ .f32 0x3F800000#32)) (addf (broadcastInDim S16x256 ![] bcast_S_S16x256 (constant S_ .f32 0x3F800000#32)) (Host.exp (Host.negf (extractStridedSlice S16x256 ![0, 256] (addf (addf (addf (Host.dotGeneral dot_S16x128_S128x1024_S16x1024_1_0_0_1_n_n none (extractStridedSlice S16x128 ![15, 0] E slices_S262143x128_S16x128_15_0) (transpose S128x1024 [1, 0] Wih transposes_S1024x128_S128x1024_1_0)) (broadcastInDim S16x1024 ![0, 1] bcast_S1x1024_S16x1024_0_1 (broadcastInDim S1x1024 ![1] bcast_S1024_S1x1024_1 bih))) (Host.dotGeneral dot_S16x256_S256x1024_S16x1024_1_0_0_1_n_n none (shapeCast _ hp shapeCasts_S32x128_S16x256) (transpose S256x1024 [1, 0] Whh transposes_S1024x256_S256x1024_1_0))) (broadcastInDim S16x1024 ![0, 1] bcast_S1x1024_S16x1024_0_1 (broadcastInDim S1x1024 ![1] bcast_S1024_S1x1024_1 bhh))) slices_S16x1024_S16x256_0_256))))) (shapeCast _ cp shapeCasts_S32x128_S16x256)) (mulf (Host.divf (broadcastInDim S16x256 ![] bcast_S_S16x256 (constant S_ .f32 0x3F800000#32)) (addf (broadcastInDim S16x256 ![] bcast_S_S16x256 (constant S_ .f32 0x3F800000#32)) (Host.exp (Host.negf (extractStridedSlice S16x256 ![0, 0] (addf (addf (addf (Host.dotGeneral dot_S16x128_S128x1024_S16x1024_1_0_0_1_n_n none (extractStridedSlice S16x128 ![15, 0] E slices_S262143x128_S16x128_15_0) (transpose S128x1024 [1, 0] Wih transposes_S1024x128_S128x1024_1_0)) (broadcastInDim S16x1024 ![0, 1] bcast_S1x1024_S16x1024_0_1 (broadcastInDim S1x1024 ![1] bcast_S1024_S1x1024_1 bih))) (Host.dotGeneral dot_S16x256_S256x1024_S16x1024_1_0_0_1_n_n none (shapeCast _ hp shapeCasts_S32x128_S16x256) (transpose S256x1024 [1, 0] Whh transposes_S1024x256_S256x1024_1_0))) (broadcastInDim S16x1024 ![0, 1] bcast_S1x1024_S16x1024_0_1 (broadcastInDim S1x1024 ![1] bcast_S1024_S1x1024_1 bhh))) slices_S16x1024_S16x256_0_0))))) (Host.tanh (extractStridedSlice S16x256 ![0, 512] (addf (addf (addf (Host.dotGeneral dot_S16x128_S128x1024_S16x1024_1_0_0_1_n_n none (extractStridedSlice S16x128 ![15, 0] E slices_S262143x128_S16x128_15_0) (transpose S128x1024 [1, 0] Wih transposes_S1024x128_S128x1024_1_0)) (broadcastInDim S16x1024 ![0, 1] bcast_S1x1024_S16x1024_0_1 (broadcastInDim S1x1024 ![1] bcast_S1024_S1x1024_1 bih))) (Host.dotGeneral dot_S16x256_S256x1024_S16x1024_1_0_0_1_n_n none (shapeCast _ hp shapeCasts_S32x128_S16x256) (transpose S256x1024 [1, 0] Whh transposes_S1024x256_S256x1024_1_0))) (broadcastInDim S16x1024 ![0, 1] bcast_S1x1024_S16x1024_0_1 (broadcastInDim S1x1024 ![1] bcast_S1024_S1x1024_1 bhh))) slices_S16x1024_S16x256_0_512)))) slices_S16x256_S16x128_0_0)

set_option maxHeartbeats 4000000 in
theorem tail5_hidden (V : Valuation τ sig (Elt F)) :
    after tail5 V (Proc.devRef .tc main_v295) = tail5Hf (V (Proc.devRef .tc main_arg0)) (V (Proc.devRef .tc main_arg1)) (V (Proc.devRef .tc main_arg2)) (V (Proc.devRef .tc main_arg3)) (V (Proc.devRef .tc main_arg4)) (V (Proc.devRef .tc main_v251)) (V (Proc.devRef .tc main_v252)) := by
  unfold tail5Hf
  simp only [tail5]
  after_results_simp
  first | rfl | (simp only [] <;> rfl)

set_option maxHeartbeats 4000000 in
theorem tail5_cell (V : Valuation τ sig (Elt F)) :
    after tail5 V (Proc.devRef .tc main_v296) = tail5Cf (V (Proc.devRef .tc main_arg0)) (V (Proc.devRef .tc main_arg1)) (V (Proc.devRef .tc main_arg2)) (V (Proc.devRef .tc main_arg3)) (V (Proc.devRef .tc main_arg4)) (V (Proc.devRef .tc main_v251)) (V (Proc.devRef .tc main_v252)) := by
  unfold tail5Cf
  simp only [tail5]
  after_results_simp
  first | rfl | (simp only [] <;> rfl)

set_option maxHeartbeats 4000000 in
/-- The level's lines write only buffers numbered 289 or higher. -/
theorem tail5_from : WritesFrom 289 (tail5 : List (HloOp τ sig (Elt F))) := by
  unfold WritesFrom
  simp only [tail5, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals (intro r hr; cases Proc.devRef_injective _ hr; decide)

/-- So a buffer numbered below 289 keeps its contents through the level. -/
theorem tail5_keep (V : Valuation τ sig (Elt F)) (r : Ref sig .tc) (hr : r.idx.val < 289) :
    after tail5 V (Proc.devRef .tc r) = V (Proc.devRef .tc r) :=
  after_of_forall_not_mem (b := Proc.devRef .tc r) _ _ (fun op hop hw =>
    absurd ((List.forall_iff_forall_mem.mp tail5_from) op hop r hw) (Nat.not_le.mpr hr))

end Cert.KernelIdeal.Fused

end
-- ==== Proof.KI.Tail.L6.lean ====
/-
  Level 6 of the host lines after the region: 8 nodes (tree level 3).

  The level's 50 lines read the five arguments and the two arrays of the level below (`main_v295`, `main_v296`: hidden and
  cell states, 128 columns), and end by writing this level's hidden states to `main_v339` and cell states to `main_v340`
  (128 kept columns each). Here: the lines, those two buffers after the lines as the composed term of what the lines
  read, and that the lines write only buffers numbered 339 or higher.
-/
import proofs.«177989_j29394756173864_2_alg».proof.Proof.KI.Lines
import Idealize.ShloMosaic.Lib.StableHlo.Run

set_option maxRecDepth 16384

noncomputable section

namespace Cert.KernelIdeal.Fused

open Cert.KernelIdeal Cert.KernelIdeal.Gen
open Idealize.ShloMosaic Idealize.ShloMosaic.TcCoe Idealize.SL.Sem Idealize.ShloMosaic.StableHlo

variable {F : FTy → Type} [FloatOps F]

/-- The level's lines, in program order. -/
abbrev tail6 : List (HloOp τ sig (Elt F)) :=
  [ StableHlo.unary main_arg0 main_v297 ((extractStridedSlice S8x128 ![7, 0] · slices_S262143x128_S8x128_7_0) : (⟨S262143x128, .f32⟩ : BufTy).Contents (Elt F) → (⟨S8x128, .f32⟩ : BufTy).Contents (Elt F)),
    StableHlo.reshape main_v295 main_v298 rfl shapeCasts_S16x128_S8x256,
    StableHlo.reshape main_v296 main_v299 rfl shapeCasts_S16x128_S8x256,
    StableHlo.unary main_arg1 main_v300 ((transpose S128x1024 [1, 0] · transposes_S1024x128_S128x1024_1_0) : (⟨S1024x128, .f32⟩ : BufTy).Contents (Elt F) → (⟨S128x1024, .f32⟩ : BufTy).Contents (Elt F)),
    StableHlo.binary main_v297 main_v300 main_v301 ((fun l r => Host.dotGeneral dot_S8x128_S128x1024_S8x1024_1_0_0_1_n_n none l r) : (⟨S8x128, .f32⟩ : BufTy).Contents (Elt F) → (⟨S128x1024, .f32⟩ : BufTy).Contents (Elt F) → (⟨S8x1024, .f32⟩ : BufTy).Contents (Elt F)),
    StableHlo.unary main_arg3 main_v302 (broadcastInDim S1x1024 ![1] bcast_S1024_S1x1024_1 : (⟨S1024, .f32⟩ : BufTy).Contents (Elt F) → (⟨S1x1024, .f32⟩ : BufTy).Contents (Elt F)),
    StableHlo.unary main_v302 main_v303 (broadcastInDim S8x1024 ![0, 1] bcast_S1x1024_S8x1024_0_1 : (⟨S1x1024, .f32⟩ : BufTy).Contents (Elt F) → (⟨S8x1024, .f32⟩ : BufTy).Contents (Elt F)),
    StableHlo.binary main_v301 main_v303 main_v304 (addf : (⟨S8x1024, .f32⟩ : BufTy).Contents (Elt F) → (⟨S8x1024, .f32⟩ : BufTy).Contents (Elt F) → (⟨S8x1024, .f32⟩ : BufTy).Contents (Elt F)),
    StableHlo.unary main_arg2 main_v305 ((transpose S256x1024 [1, 0] · transposes_S1024x256_S256x1024_1_0) : (⟨S1024x256, .f32⟩ : BufTy).Contents (Elt F) → (⟨S256x1024, .f32⟩ : BufTy).Contents (Elt F)),
    StableHlo.binary main_v298 main_v305 main_v306 ((fun l r => Host.dotGeneral dot_S8x256_S256x1024_S8x1024_1_0_0_1_n_n none l r) : (⟨S8x256, .f32⟩ : BufTy).Contents (Elt F) → (⟨S256x1024, .f32⟩ : BufTy).Contents (Elt F) → (⟨S8x1024, .f32⟩ : BufTy).Contents (Elt F)),
    StableHlo.binary main_v304 main_v306 main_v307 (addf : (⟨S8x1024, .f32⟩ : BufTy).Contents (Elt F) → (⟨S8x1024, .f32⟩ : BufTy).Contents (Elt F) → (⟨S8x1024, .f32⟩ : BufTy).Contents (Elt F)),
    StableHlo.unary main_arg4 main_v308 (broadcastInDim S1x1024 ![1] bcast_S1024_S1x1024_1 : (⟨S1024, .f32⟩ : BufTy).Contents (Elt F) → (⟨S1x1024, .f32⟩ : BufTy).Contents (Elt F)),
    StableHlo.unary main_v308 main_v309 (broadcastInDim S8x1024 ![0, 1] bcast_S1x1024_S8x1024_0_1 : (⟨S1x1024, .f32⟩ : BufTy).Contents (Elt F) → (⟨S8x1024, .f32⟩ : BufTy).Contents (Elt F)),
    StableHlo.binary main_v307 main_v309 main_v310 (addf : (⟨S8x1024, .f32⟩ : BufTy).Contents (Elt F) → (⟨S8x1024, .f32⟩ : BufTy).Contents (Elt F) → (⟨S8x1024, .f32⟩ : BufTy).Contents (Elt F)),
    StableHlo.unary main_v310 main_v311 ((extractStridedSlice S8x256 ![0, 0] · slices_S8x1024_S8x256_0_0) : (⟨S8x1024, .f32⟩ : BufTy).Contents (Elt F) → (⟨S8x256, .f32⟩ : BufTy).Contents (Elt F)),
    StableHlo.unary main_v310 main_v312 ((extractStridedSlice S8x256 ![0, 256] · slices_S8x1024_S8x256_0_256) : (⟨S8x1024, .f32⟩ : BufTy).Contents (Elt F) → (⟨S8x256, .f32⟩ : BufTy).Contents (Elt F)),
    StableHlo.unary main_v310 main_v313 ((extractStridedSlice S8x256 ![0, 512] · slices_S8x1024_S8x256_0_512) : (⟨S8x1024, .f32⟩ : BufTy).Contents (Elt F) → (⟨S8x256, .f32⟩ : BufTy).Contents (Elt F)),
    StableHlo.unary main_v310 main_v314 ((extractStridedSlice S8x256 ![0, 768] · slices_S8x1024_S8x256_0_768) : (⟨S8x1024, .f32⟩ : BufTy).Contents (Elt F) → (⟨S8x256, .f32⟩ : BufTy).Contents (Elt F)),
    StableHlo.unary main_v312 main_v315 (Host.negf : (⟨S8x256, .f32⟩ : BufTy).Contents (Elt F) → (⟨S8x256, .f32⟩ : BufTy).Contents (Elt F)),
    StableHlo.unary main_v315 main_v316 (Host.exp : (⟨S8x256, .f32⟩ : BufTy).Contents (Elt F) → (⟨S8x256, .f32⟩ : BufTy).Contents (Elt F)),
    StableHlo.nullary main_cst_35 (constant S_ .f32 0x3F800000#32),
    StableHlo.unary main_cst_35 main_v317 (broadcastInDim S8x256 ![] bcast_S_S8x256 : (⟨S_, .f32⟩ : BufTy).Contents (Elt F) → (⟨S8x256, .f32⟩ : BufTy).Contents (Elt F)),
    StableHlo.binary main_v317 main_v316 main_v318 (addf : (⟨S8x256, .f32⟩ : BufTy).Contents (Elt F) → (⟨S8x256, .f32⟩ : BufTy).Contents (Elt F) → (⟨S8x256, .f32⟩ : BufTy).Contents (Elt F)),
    StableHlo.nullary main_cst_36 (constant S_ .f32 0x3F800000#32),
    StableHlo.unary main_cst_36 main_v319 (broadcastInDim S8x256 ![] bcast_S_S8x256 : (⟨S_, .f32⟩ : BufTy).Contents (Elt F) → (⟨S8x256, .f32⟩ : BufTy).Contents (Elt F)),
    StableHlo.binary main_v319 main_v318 main_v320 (Host.divf : (⟨S8x256, .f32⟩ : BufTy).Contents (Elt F) → (⟨S8x256, .f32⟩ : BufTy).Contents (Elt F) → (⟨S8x256, .f32⟩ : BufTy).Contents (Elt F)),
    StableHlo.binary main_v320 main_v299 main_v321 (mulf : (⟨S8x256, .f32⟩ : BufTy).Contents (Elt F) → (⟨S8x256, .f32⟩ : BufTy).Contents (Elt F) → (⟨S8x256, .f32⟩ : BufTy).Contents (Elt F)),
    StableHlo.unary main_v311 main_v322 (Host.negf : (⟨S8x256, .f32⟩ : BufTy).Contents (Elt F) → (⟨S8x256, .f32⟩ : BufTy).Contents (Elt F)),
    StableHlo.unary main_v322 main_v323 (Host.exp : (⟨S8x256, .f32⟩ : BufTy).Contents (Elt F) → (⟨S8x256, .f32⟩ : BufTy).Contents (Elt F)),
    StableHlo.nullary main_cst_37 (constant S_ .f32 0x3F800000#32),
    StableHlo.unary main_cst_37 main_v324 (broadcastInDim S8x256 ![] bcast_S_S8x256 : (⟨S_, .f32⟩ : BufTy).Contents (Elt F) → (⟨S8x256, .f32⟩ : BufTy).Contents (Elt F)),
    StableHlo.binary main_v324 main_v323 main_v325 (addf : (⟨S8x256, .f32⟩ : BufTy).Contents (Elt F) → (⟨S8x256, .f32⟩ : BufTy).Contents (Elt F) → (⟨S8x256, .f32⟩ : BufTy).Contents (Elt F)),
    StableHlo.nullary main_cst_38 (constant S_ .f32 0x3F800000#32),
    StableHlo.unary main_cst_38 main_v326 (broadcastInDim S8x256 ![] bcast_S_S8x256 : (⟨S_, .f32⟩ : BufTy).Contents (Elt F) → (⟨S8x256, .f32⟩ : BufTy).Contents (Elt F)),
    StableHlo.binary main_v326 main_v325 main_v327 (Host.divf : (⟨S8x256, .f32⟩ : BufTy).Contents (Elt F) → (⟨S8x256, .f32⟩ : BufTy).Contents (Elt F) → (⟨S8x256, .f32⟩ : BufTy).Contents (Elt F)),
    StableHlo.unary main_v313 main_v328 (Host.tanh : (⟨S8x256, .f32⟩ : BufTy).Contents (Elt F) → (⟨S8x256, .f32⟩ : BufTy).Contents (Elt F)),
    StableHlo.binary main_v327 main_v328 main_v329 (mulf : (⟨S8x256, .f32⟩ : BufTy).Contents (Elt F) → (⟨S8x256, .f32⟩ : BufTy).Contents (Elt F) → (⟨S8x256, .f32⟩ : BufTy).Contents (Elt F)),
    StableHlo.binary main_v321 main_v329 main_v330 (addf : (⟨S8x256, .f32⟩ : BufTy).Contents (Elt F) → (⟨S8x256, .f32⟩ : BufTy).Contents (Elt F) → (⟨S8x256, .f32⟩ : BufTy).Contents (Elt F)),
    StableHlo.unary main_v314 main_v331 (Host.negf : (⟨S8x256, .f32⟩ : BufTy).Contents (Elt F) → (⟨S8x256, .f32⟩ : BufTy).Contents (Elt F)),
    StableHlo.unary main_v331 main_v332 (Host.exp : (⟨S8x256, .f32⟩ : BufTy).Contents (Elt F) → (⟨S8x256, .f32⟩ : BufTy).Contents (Elt F)),
    StableHlo.nullary main_cst_39 (constant S_ .f32 0x3F800000#32),
    StableHlo.unary main_cst_39 main_v333 (broadcastInDim S8x256 ![] bcast_S_S8x256 : (⟨S_, .f32⟩ : BufTy).Contents (Elt F) → (⟨S8x256, .f32⟩ : BufTy).Contents (Elt F)),
    StableHlo.binary main_v333 main_v332 main_v334 (addf : (⟨S8x256, .f32⟩ : BufTy).Contents (Elt F) → (⟨S8x256, .f32⟩ : BufTy).Contents (Elt F) → (⟨S8x256, .f32⟩ : BufTy).Contents (Elt F)),
    StableHlo.nullary main_cst_40 (constant S_ .f32 0x3F800000#32),
    StableHlo.unary main_cst_40 main_v335 (broadcastInDim S8x256 ![] bcast_S_S8x256 : (⟨S_, .f32⟩ : BufTy).Contents (Elt F) → (⟨S8x256, .f32⟩ : BufTy).Contents (Elt F)),
    StableHlo.binary main_v335 main_v334 main_v336 (Host.divf : (⟨S8x256, .f32⟩ : BufTy).Contents (Elt F) → (⟨S8x256, .f32⟩ : BufTy).Contents (Elt F) → (⟨S8x256, .f32⟩ : BufTy).Contents (Elt F)),
    StableHlo.unary main_v330 main_v337 (Host.tanh : (⟨S8x256, .f32⟩ : BufTy).Contents (Elt F) → (⟨S8x256, .f32⟩ : BufTy).Contents (Elt F)),
    StableHlo.binary main_v336 main_v337 main_v338 (mulf : (⟨S8x256, .f32⟩ : BufTy).Contents (Elt F) → (⟨S8x256, .f32⟩ : BufTy).Contents (Elt F) → (⟨S8x256, .f32⟩ : BufTy).Contents (Elt F)),
    StableHlo.unary main_v338 main_v339 ((extractStridedSlice S8x128 ![0, 0] · slices_S8x256_S8x128_0_0) : (⟨S8x256, .f32⟩ : BufTy).Contents (Elt F) → (⟨S8x128, .f32⟩ : BufTy).Contents (Elt F)),
    StableHlo.unary main_v330 main_v340 ((extractStridedSlice S8x128 ![0, 0] · slices_S8x256_S8x128_0_0) : (⟨S8x256, .f32⟩ : BufTy).Contents (Elt F) → (⟨S8x128, .f32⟩ : BufTy).Contents (Elt F)) ]

/-- The level's hidden states (kept columns) as a function of the arrays the lines read: the five arguments and the
    hidden and cell arrays of the level below. -/
def tail6Hf (E : FVec F S262143x128 .f32) (Wih : FVec F S1024x128 .f32) (Whh : FVec F S1024x256 .f32) (bih bhh : FVec F S1024 .f32) (hp cp : FVec F S16x128 .f32) : FVec F S8x128 .f32 :=
  (extractStridedSlice S8x128 ![0, 0] (mulf (Host.divf (broadcastInDim S8x256 ![] bcast_S_S8x256 (constant S_ .f32 0x3F800000#32)) (addf (broadcastInDim S8x256 ![] bcast_S_S8x256 (constant S_ .f32 0x3F800000#32)) (Host.exp (Host.negf (extractStridedSlice S8x256 ![0, 768] (addf (addf (addf (Host.dotGeneral dot_S8x128_S128x1024_S8x1024_1_0_0_1_n_n none (extractStridedSlice S8x128 ![7, 0] E slices_S262143x128_S8x128_7_0) (transpose S128x1024 [1, 0] Wih transposes_S1024x128_S128x1024_1_0)) (broadcastInDim S8x1024 ![0, 1] bcast_S1x1024_S8x1024_0_1 (broadcastInDim S1x1024 ![1] bcast_S1024_S1x1024_1 bih))) (Host.dotGeneral dot_S8x256_S256x1024_S8x1024_1_0_0_1_n_n none (shapeCast _ hp shapeCasts_S16x128_S8x256) (transpose S256x1024 [1, 0] Whh transposes_S1024x256_S256x1024_1_0))) (broadcastInDim S8x1024 ![0, 1] bcast_S1x1024_S8x1024_0_1 (broadcastInDim S1x1024 ![1] bcast_S1024_S1x1024_1 bhh))) slices_S8x1024_S8x256_0_768))))) (Host.tanh (addf (mulf (Host.divf (broadcastInDim S8x256 ![] bcast_S_S8x256 (constant S_ .f32 0x3F800000#32)) (addf (broadcastInDim S8x256 ![] bcast_S_S8x256 (constant S_ .f32 0x3F800000#32)) (Host.exp (Host.negf (extractStridedSlice S8x256 ![0, 256] (addf (addf (addf (Host.dotGeneral dot_S8x128_S128x1024_S8x1024_1_0_0_1_n_n none (extractStridedSlice S8x128 ![7, 0] E slices_S262143x128_S8x128_7_0) (transpose S128x1024 [1, 0] Wih transposes_S1024x128_S128x1024_1_0)) (broadcastInDim S8x1024 ![0, 1] bcast_S1x1024_S8x1024_0_1 (broadcastInDim S1x1024 ![1] bcast_S1024_S1x1024_1 bih))) (Host.dotGeneral dot_S8x256_S256x1024_S8x1024_1_0_0_1_n_n none (shapeCast _ hp shapeCasts_S16x128_S8x256) (transpose S256x1024 [1, 0] Whh transposes_S1024x256_S256x1024_1_0))) (broadcastInDim S8x1024 ![0, 1] bcast_S1x1024_S8x1024_0_1 (broadcastInDim S1x1024 ![1] bcast_S1024_S1x1024_1 bhh))) slices_S8x1024_S8x256_0_256))))) (shapeCast _ cp shapeCasts_S16x128_S8x256)) (mulf (Host.divf (broadcastInDim S8x256 ![] bcast_S_S8x256 (constant S_ .f32 0x3F800000#32)) (addf (broadcastInDim S8x256 ![] bcast_S_S8x256 (constant S_ .f32 0x3F800000#32)) (Host.exp (Host.negf (extractStridedSlice S8x256 ![0, 0] (addf (addf (addf (Host.dotGeneral dot_S8x128_S128x1024_S8x1024_1_0_0_1_n_n none (extractStridedSlice S8x128 ![7, 0] E slices_S262143x128_S8x128_7_0) (transpose S128x1024 [1, 0] Wih transposes_S1024x128_S128x1024_1_0)) (broadcastInDim S8x1024 ![0, 1] bcast_S1x1024_S8x1024_0_1 (broadcastInDim S1x1024 ![1] bcast_S1024_S1x1024_1 bih))) (Host.dotGeneral dot_S8x256_S256x1024_S8x1024_1_0_0_1_n_n none (shapeCast _ hp shapeCasts_S16x128_S8x256) (transpose S256x1024 [1, 0] Whh transposes_S1024x256_S256x1024_1_0))) (broadcastInDim S8x1024 ![0, 1] bcast_S1x1024_S8x1024_0_1 (broadcastInDim S1x1024 ![1] bcast_S1024_S1x1024_1 bhh))) slices_S8x1024_S8x256_0_0))))) (Host.tanh (extractStridedSlice S8x256 ![0, 512] (addf (addf (addf (Host.dotGeneral dot_S8x128_S128x1024_S8x1024_1_0_0_1_n_n none (extractStridedSlice S8x128 ![7, 0] E slices_S262143x128_S8x128_7_0) (transpose S128x1024 [1, 0] Wih transposes_S1024x128_S128x1024_1_0)) (broadcastInDim S8x1024 ![0, 1] bcast_S1x1024_S8x1024_0_1 (broadcastInDim S1x1024 ![1] bcast_S1024_S1x1024_1 bih))) (Host.dotGeneral dot_S8x256_S256x1024_S8x1024_1_0_0_1_n_n none (shapeCast _ hp shapeCasts_S16x128_S8x256) (transpose S256x1024 [1, 0] Whh transposes_S1024x256_S256x1024_1_0))) (broadcastInDim S8x1024 ![0, 1] bcast_S1x1024_S8x1024_0_1 (broadcastInDim S1x1024 ![1] bcast_S1024_S1x1024_1 bhh))) slices_S8x1024_S8x256_0_512)))))) slices_S8x256_S8x128_0_0)

/-- The level's cell states (kept columns) as a function of the same arrays. -/
def tail6Cf (E : FVec F S262143x128 .f32) (Wih : FVec F S1024x128 .f32) (Whh : FVec F S1024x256 .f32) (bih bhh : FVec F S1024 .f32) (hp cp : FVec F S16x128 .f32) : FVec F S8x128 .f32 :=
  (extractStridedSlice S8x128 ![0, 0] (addf (mulf (Host.divf (broadcastInDim S8x256 ![] bcast_S_S8x256 (constant S_ .f32 0x3F800000#32)) (addf (broadcastInDim S8x256 ![] bcast_S_S8x256 (constant S_ .f32 0x3F800000#32)) (Host.exp (Host.negf (extractStridedSlice S8x256 ![0, 256] (addf (addf (addf (Host.dotGeneral dot_S8x128_S128x1024_S8x1024_1_0_0_1_n_n none (extractStridedSlice S8x128 ![7, 0] E slices_S262143x128_S8x128_7_0) (transpose S128x1024 [1, 0] Wih transposes_S1024x128_S128x1024_1_0)) (broadcastInDim S8x1024 ![0, 1] bcast_S1x1024_S8x1024_0_1 (broadcastInDim S1x1024 ![1] bcast_S1024_S1x1024_1 bih))) (Host.dotGeneral dot_S8x256_S256x1024_S8x1024_1_0_0_1_n_n none (shapeCast _ hp shapeCasts_S16x128_S8x256) (transpose S256x1024 [1, 0] Whh transposes_S1024x256_S256x1024_1_0))) (broadcastInDim S8x1024 ![0, 1] bcast_S1x1024_S8x1024_0_1 (broadcastInDim S1x1024 ![1] bcast_S1024_S1x1024_1 bhh))) slices_S8x1024_S8x256_0_256))))) (shapeCast _ cp shapeCasts_S16x128_S8x256)) (mulf (Host.divf (broadcastInDim S8x256 ![] bcast_S_S8x256 (constant S_ .f32 0x3F800000#32)) (addf (broadcastInDim S8x256 ![] bcast_S_S8x256 (constant S_ .f32 0x3F800000#32)) (Host.exp (Host.negf (extractStridedSlice S8x256 ![0, 0] (addf (addf (addf (Host.dotGeneral dot_S8x128_S128x1024_S8x1024_1_0_0_1_n_n none (extractStridedSlice S8x128 ![7, 0] E slices_S262143x128_S8x128_7_0) (transpose S128x1024 [1, 0] Wih transposes_S1024x128_S128x1024_1_0)) (broadcastInDim S8x1024 ![0, 1] bcast_S1x1024_S8x1024_0_1 (broadcastInDim S1x1024 ![1] bcast_S1024_S1x1024_1 bih))) (Host.dotGeneral dot_S8x256_S256x1024_S8x1024_1_0_0_1_n_n none (shapeCast _ hp shapeCasts_S16x128_S8x256) (transpose S256x1024 [1, 0] Whh transposes_S1024x256_S256x1024_1_0))) (broadcastInDim S8x1024 ![0, 1] bcast_S1x1024_S8x1024_0_1 (broadcastInDim S1x1024 ![1] bcast_S1024_S1x1024_1 bhh))) slices_S8x1024_S8x256_0_0))))) (Host.tanh (extractStridedSlice S8x256 ![0, 512] (addf (addf (addf (Host.dotGeneral dot_S8x128_S128x1024_S8x1024_1_0_0_1_n_n none (extractStridedSlice S8x128 ![7, 0] E slices_S262143x128_S8x128_7_0) (transpose S128x1024 [1, 0] Wih transposes_S1024x128_S128x1024_1_0)) (broadcastInDim S8x1024 ![0, 1] bcast_S1x1024_S8x1024_0_1 (broadcastInDim S1x1024 ![1] bcast_S1024_S1x1024_1 bih))) (Host.dotGeneral dot_S8x256_S256x1024_S8x1024_1_0_0_1_n_n none (shapeCast _ hp shapeCasts_S16x128_S8x256) (transpose S256x1024 [1, 0] Whh transposes_S1024x256_S256x1024_1_0))) (broadcastInDim S8x1024 ![0, 1] bcast_S1x1024_S8x1024_0_1 (broadcastInDim S1x1024 ![1] bcast_S1024_S1x1024_1 bhh))) slices_S8x1024_S8x256_0_512)))) slices_S8x256_S8x128_0_0)

set_option maxHeartbeats 4000000 in
theorem tail6_hidden (V : Valuation τ sig (Elt F)) :
    after tail6 V (Proc.devRef .tc main_v339) = tail6Hf (V (Proc.devRef .tc main_arg0)) (V (Proc.devRef .tc main_arg1)) (V (Proc.devRef .tc main_arg2)) (V (Proc.devRef .tc main_arg3)) (V (Proc.devRef .tc main_arg4)) (V (Proc.devRef .tc main_v295)) (V (Proc.devRef .tc main_v296)) := by
  unfold tail6Hf
  simp only [tail6]
  after_results_simp
  first | rfl | (simp only [] <;> rfl)

set_option maxHeartbeats 4000000 in
theorem tail6_cell (V : Valuation τ sig (Elt F)) :
    after tail6 V (Proc.devRef .tc main_v340) = tail6Cf (V (Proc.devRef .tc main_arg0)) (V (Proc.devRef .tc main_arg1)) (V (Proc.devRef .tc main_arg2)) (V (Proc.devRef .tc main_arg3)) (V (Proc.devRef .tc main_arg4)) (V (Proc.devRef .tc main_v295)) (V (Proc.devRef .tc main_v296)) := by
  unfold tail6Cf
  simp only [tail6]
  after_results_simp
  first | rfl | (simp only [] <;> rfl)

set_option maxHeartbeats 4000000 in
/-- The level's lines write only buffers numbered 339 or higher. -/
theorem tail6_from : WritesFrom 339 (tail6 : List (HloOp τ sig (Elt F))) := by
  unfold WritesFrom
  simp only [tail6, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals (intro r hr; cases Proc.devRef_injective _ hr; decide)

/-- So a buffer numbered below 339 keeps its contents through the level. -/
theorem tail6_keep (V : Valuation τ sig (Elt F)) (r : Ref sig .tc) (hr : r.idx.val < 339) :
    after tail6 V (Proc.devRef .tc r) = V (Proc.devRef .tc r) :=
  after_of_forall_not_mem (b := Proc.devRef .tc r) _ _ (fun op hop hw =>
    absurd ((List.forall_iff_forall_mem.mp tail6_from) op hop r hw) (Nat.not_le.mpr hr))

end Cert.KernelIdeal.Fused

end
-- ==== Proof.KI.Tail.L7.lean ====
/-
  Level 7 of the host lines after the region: 4 nodes (tree level 2).

  The level's 50 lines read the five arguments and the two arrays of the level below (`main_v339`, `main_v340`: hidden and
  cell states, 128 columns), and end by writing this level's hidden states to `main_v383` and cell states to `main_v384`
  (128 kept columns each). Here: the lines, those two buffers after the lines as the composed term of what the lines
  read, and that the lines write only buffers numbered 389 or higher.
-/
import proofs.«177989_j29394756173864_2_alg».proof.Proof.KI.Lines
import Idealize.ShloMosaic.Lib.StableHlo.Run

set_option maxRecDepth 16384

noncomputable section

namespace Cert.KernelIdeal.Fused

open Cert.KernelIdeal Cert.KernelIdeal.Gen
open Idealize.ShloMosaic Idealize.ShloMosaic.TcCoe Idealize.SL.Sem Idealize.ShloMosaic.StableHlo

variable {F : FTy → Type} [FloatOps F]

/-- The level's lines, in program order. -/
abbrev tail7 : List (HloOp τ sig (Elt F)) :=
  [ StableHlo.unary main_arg0 main_v341 ((extractStridedSlice S4x128 ![3, 0] · slices_S262143x128_S4x128_3_0) : (⟨S262143x128, .f32⟩ : BufTy).Contents (Elt F) → (⟨S4x128, .f32⟩ : BufTy).Contents (Elt F)),
    StableHlo.reshape main_v339 main_v342 rfl shapeCasts_S8x128_S4x256,
    StableHlo.reshape main_v340 main_v343 rfl shapeCasts_S8x128_S4x256,
    StableHlo.unary main_arg1 main_v344 ((transpose S128x1024 [1, 0] · transposes_S1024x128_S128x1024_1_0) : (⟨S1024x128, .f32⟩ : BufTy).Contents (Elt F) → (⟨S128x1024, .f32⟩ : BufTy).Contents (Elt F)),
    StableHlo.binary main_v341 main_v344 main_v345 ((fun l r => Host.dotGeneral dot_S4x128_S128x1024_S4x1024_1_0_0_1_n_n none l r) : (⟨S4x128, .f32⟩ : BufTy).Contents (Elt F) → (⟨S128x1024, .f32⟩ : BufTy).Contents (Elt F) → (⟨S4x1024, .f32⟩ : BufTy).Contents (Elt F)),
    StableHlo.unary main_arg3 main_v346 (broadcastInDim S1x1024 ![1] bcast_S1024_S1x1024_1 : (⟨S1024, .f32⟩ : BufTy).Contents (Elt F) → (⟨S1x1024, .f32⟩ : BufTy).Contents (Elt F)),
    StableHlo.unary main_v346 main_v347 (broadcastInDim S4x1024 ![0, 1] bcast_S1x1024_S4x1024_0_1 : (⟨S1x1024, .f32⟩ : BufTy).Contents (Elt F) → (⟨S4x1024, .f32⟩ : BufTy).Contents (Elt F)),
    StableHlo.binary main_v345 main_v347 main_v348 (addf : (⟨S4x1024, .f32⟩ : BufTy).Contents (Elt F) → (⟨S4x1024, .f32⟩ : BufTy).Contents (Elt F) → (⟨S4x1024, .f32⟩ : BufTy).Contents (Elt F)),
    StableHlo.unary main_arg2 main_v349 ((transpose S256x1024 [1, 0] · transposes_S1024x256_S256x1024_1_0) : (⟨S1024x256, .f32⟩ : BufTy).Contents (Elt F) → (⟨S256x1024, .f32⟩ : BufTy).Contents (Elt F)),
    StableHlo.binary main_v342 main_v349 main_v350 ((fun l r => Host.dotGeneral dot_S4x256_S256x1024_S4x1024_1_0_0_1_n_n none l r) : (⟨S4x256, .f32⟩ : BufTy).Contents (Elt F) → (⟨S256x1024, .f32⟩ : BufTy).Contents (Elt F) → (⟨S4x1024, .f32⟩ : BufTy).Contents (Elt F)),
    StableHlo.binary main_v348 main_v350 main_v351 (addf : (⟨S4x1024, .f32⟩ : BufTy).Contents (Elt F) → (⟨S4x1024, .f32⟩ : BufTy).Contents (Elt F) → (⟨S4x1024, .f32⟩ : BufTy).Contents (Elt F)),
    StableHlo.unary main_arg4 main_v352 (broadcastInDim S1x1024 ![1] bcast_S1024_S1x1024_1 : (⟨S1024, .f32⟩ : BufTy).Contents (Elt F) → (⟨S1x1024, .f32⟩ : BufTy).Contents (Elt F)),
    StableHlo.unary main_v352 main_v353 (broadcastInDim S4x1024 ![0, 1] bcast_S1x1024_S4x1024_0_1 : (⟨S1x1024, .f32⟩ : BufTy).Contents (Elt F) → (⟨S4x1024, .f32⟩ : BufTy).Contents (Elt F)),
    StableHlo.binary main_v351 main_v353 main_v354 (addf : (⟨S4x1024, .f32⟩ : BufTy).Contents (Elt F) → (⟨S4x1024, .f32⟩ : BufTy).Contents (Elt F) → (⟨S4x1024, .f32⟩ : BufTy).Contents (Elt F)),
    StableHlo.unary main_v354 main_v355 ((extractStridedSlice S4x256 ![0, 0] · slices_S4x1024_S4x256_0_0) : (⟨S4x1024, .f32⟩ : BufTy).Contents (Elt F) → (⟨S4x256, .f32⟩ : BufTy).Contents (Elt F)),
    StableHlo.unary main_v354 main_v356 ((extractStridedSlice S4x256 ![0, 256] · slices_S4x1024_S4x256_0_256) : (⟨S4x1024, .f32⟩ : BufTy).Contents (Elt F) → (⟨S4x256, .f32⟩ : BufTy).Contents (Elt F)),
    StableHlo.unary main_v354 main_v357 ((extractStridedSlice S4x256 ![0, 512] · slices_S4x1024_S4x256_0_512) : (⟨S4x1024, .f32⟩ : BufTy).Contents (Elt F) → (⟨S4x256, .f32⟩ : BufTy).Contents (Elt F)),
    StableHlo.unary main_v354 main_v358 ((extractStridedSlice S4x256 ![0, 768] · slices_S4x1024_S4x256_0_768) : (⟨S4x1024, .f32⟩ : BufTy).Contents (Elt F) → (⟨S4x256, .f32⟩ : BufTy).Contents (Elt F)),
    StableHlo.unary main_v356 main_v359 (Host.negf : (⟨S4x256, .f32⟩ : BufTy).Contents (Elt F) → (⟨S4x256, .f32⟩ : BufTy).Contents (Elt F)),
    StableHlo.unary main_v359 main_v360 (Host.exp : (⟨S4x256, .f32⟩ : BufTy).Contents (Elt F) → (⟨S4x256, .f32⟩ : BufTy).Contents (Elt F)),
    StableHlo.nullary main_cst_41 (constant S_ .f32 0x3F800000#32),
    StableHlo.unary main_cst_41 main_v361 (broadcastInDim S4x256 ![] bcast_S_S4x256 : (⟨S_, .f32⟩ : BufTy).Contents (Elt F) → (⟨S4x256, .f32⟩ : BufTy).Contents (Elt F)),
    StableHlo.binary main_v361 main_v360 main_v362 (addf : (⟨S4x256, .f32⟩ : BufTy).Contents (Elt F) → (⟨S4x256, .f32⟩ : BufTy).Contents (Elt F) → (⟨S4x256, .f32⟩ : BufTy).Contents (Elt F)),
    StableHlo.nullary main_cst_42 (constant S_ .f32 0x3F800000#32),
    StableHlo.unary main_cst_42 main_v363 (broadcastInDim S4x256 ![] bcast_S_S4x256 : (⟨S_, .f32⟩ : BufTy).Contents (Elt F) → (⟨S4x256, .f32⟩ : BufTy).Contents (Elt F)),
    StableHlo.binary main_v363 main_v362 main_v364 (Host.divf : (⟨S4x256, .f32⟩ : BufTy).Contents (Elt F) → (⟨S4x256, .f32⟩ : BufTy).Contents (Elt F) → (⟨S4x256, .f32⟩ : BufTy).Contents (Elt F)),
    StableHlo.binary main_v364 main_v343 main_v365 (mulf : (⟨S4x256, .f32⟩ : BufTy).Contents (Elt F) → (⟨S4x256, .f32⟩ : BufTy).Contents (Elt F) → (⟨S4x256, .f32⟩ : BufTy).Contents (Elt F)),
    StableHlo.unary main_v355 main_v366 (Host.negf : (⟨S4x256, .f32⟩ : BufTy).Contents (Elt F) → (⟨S4x256, .f32⟩ : BufTy).Contents (Elt F)),
    StableHlo.unary main_v366 main_v367 (Host.exp : (⟨S4x256, .f32⟩ : BufTy).Contents (Elt F) → (⟨S4x256, .f32⟩ : BufTy).Contents (Elt F)),
    StableHlo.nullary main_cst_43 (constant S_ .f32 0x3F800000#32),
    StableHlo.unary main_cst_43 main_v368 (broadcastInDim S4x256 ![] bcast_S_S4x256 : (⟨S_, .f32⟩ : BufTy).Contents (Elt F) → (⟨S4x256, .f32⟩ : BufTy).Contents (Elt F)),
    StableHlo.binary main_v368 main_v367 main_v369 (addf : (⟨S4x256, .f32⟩ : BufTy).Contents (Elt F) → (⟨S4x256, .f32⟩ : BufTy).Contents (Elt F) → (⟨S4x256, .f32⟩ : BufTy).Contents (Elt F)),
    StableHlo.nullary main_cst_44 (constant S_ .f32 0x3F800000#32),
    StableHlo.unary main_cst_44 main_v370 (broadcastInDim S4x256 ![] bcast_S_S4x256 : (⟨S_, .f32⟩ : BufTy).Contents (Elt F) → (⟨S4x256, .f32⟩ : BufTy).Contents (Elt F)),
    StableHlo.binary main_v370 main_v369 main_v371 (Host.divf : (⟨S4x256, .f32⟩ : BufTy).Contents (Elt F) → (⟨S4x256, .f32⟩ : BufTy).Contents (Elt F) → (⟨S4x256, .f32⟩ : BufTy).Contents (Elt F)),
    StableHlo.unary main_v357 main_v372 (Host.tanh : (⟨S4x256, .f32⟩ : BufTy).Contents (Elt F) → (⟨S4x256, .f32⟩ : BufTy).Contents (Elt F)),
    StableHlo.binary main_v371 main_v372 main_v373 (mulf : (⟨S4x256, .f32⟩ : BufTy).Contents (Elt F) → (⟨S4x256, .f32⟩ : BufTy).Contents (Elt F) → (⟨S4x256, .f32⟩ : BufTy).Contents (Elt F)),
    StableHlo.binary main_v365 main_v373 main_v374 (addf : (⟨S4x256, .f32⟩ : BufTy).Contents (Elt F) → (⟨S4x256, .f32⟩ : BufTy).Contents (Elt F) → (⟨S4x256, .f32⟩ : BufTy).Contents (Elt F)),
    StableHlo.unary main_v358 main_v375 (Host.negf : (⟨S4x256, .f32⟩ : BufTy).Contents (Elt F) → (⟨S4x256, .f32⟩ : BufTy).Contents (Elt F)),
    StableHlo.unary main_v375 main_v376 (Host.exp : (⟨S4x256, .f32⟩ : BufTy).Contents (Elt F) → (⟨S4x256, .f32⟩ : BufTy).Contents (Elt F)),
    StableHlo.nullary main_cst_45 (constant S_ .f32 0x3F800000#32),
    StableHlo.unary main_cst_45 main_v377 (broadcastInDim S4x256 ![] bcast_S_S4x256 : (⟨S_, .f32⟩ : BufTy).Contents (Elt F) → (⟨S4x256, .f32⟩ : BufTy).Contents (Elt F)),
    StableHlo.binary main_v377 main_v376 main_v378 (addf : (⟨S4x256, .f32⟩ : BufTy).Contents (Elt F) → (⟨S4x256, .f32⟩ : BufTy).Contents (Elt F) → (⟨S4x256, .f32⟩ : BufTy).Contents (Elt F)),
    StableHlo.nullary main_cst_46 (constant S_ .f32 0x3F800000#32),
    StableHlo.unary main_cst_46 main_v379 (broadcastInDim S4x256 ![] bcast_S_S4x256 : (⟨S_, .f32⟩ : BufTy).Contents (Elt F) → (⟨S4x256, .f32⟩ : BufTy).Contents (Elt F)),
    StableHlo.binary main_v379 main_v378 main_v380 (Host.divf : (⟨S4x256, .f32⟩ : BufTy).Contents (Elt F) → (⟨S4x256, .f32⟩ : BufTy).Contents (Elt F) → (⟨S4x256, .f32⟩ : BufTy).Contents (Elt F)),
    StableHlo.unary main_v374 main_v381 (Host.tanh : (⟨S4x256, .f32⟩ : BufTy).Contents (Elt F) → (⟨S4x256, .f32⟩ : BufTy).Contents (Elt F)),
    StableHlo.binary main_v380 main_v381 main_v382 (mulf : (⟨S4x256, .f32⟩ : BufTy).Contents (Elt F) → (⟨S4x256, .f32⟩ : BufTy).Contents (Elt F) → (⟨S4x256, .f32⟩ : BufTy).Contents (Elt F)),
    StableHlo.unary main_v382 main_v383 ((extractStridedSlice S4x128 ![0, 0] · slices_S4x256_S4x128_0_0) : (⟨S4x256, .f32⟩ : BufTy).Contents (Elt F) → (⟨S4x128, .f32⟩ : BufTy).Contents (Elt F)),
    StableHlo.unary main_v374 main_v384 ((extractStridedSlice S4x128 ![0, 0] · slices_S4x256_S4x128_0_0) : (⟨S4x256, .f32⟩ : BufTy).Contents (Elt F) → (⟨S4x128, .f32⟩ : BufTy).Contents (Elt F)) ]

/-- The level's hidden states (kept columns) as a function of the arrays the lines read: the five arguments and the
    hidden and cell arrays of the level below. -/
def tail7Hf (E : FVec F S262143x128 .f32) (Wih : FVec F S1024x128 .f32) (Whh : FVec F S1024x256 .f32) (bih bhh : FVec F S1024 .f32) (hp cp : FVec F S8x128 .f32) : FVec F S4x128 .f32 :=
  (extractStridedSlice S4x128 ![0, 0] (mulf (Host.divf (broadcastInDim S4x256 ![] bcast_S_S4x256 (constant S_ .f32 0x3F800000#32)) (addf (broadcastInDim S4x256 ![] bcast_S_S4x256 (constant S_ .f32 0x3F800000#32)) (Host.exp (Host.negf (extractStridedSlice S4x256 ![0, 768] (addf (addf (addf (Host.dotGeneral dot_S4x128_S128x1024_S4x1024_1_0_0_1_n_n none (extractStridedSlice S4x128 ![3, 0] E slices_S262143x128_S4x128_3_0) (transpose S128x1024 [1, 0] Wih transposes_S1024x128_S128x1024_1_0)) (broadcastInDim S4x1024 ![0, 1] bcast_S1x1024_S4x1024_0_1 (broadcastInDim S1x1024 ![1] bcast_S1024_S1x1024_1 bih))) (Host.dotGeneral dot_S4x256_S256x1024_S4x1024_1_0_0_1_n_n none (shapeCast _ hp shapeCasts_S8x128_S4x256) (transpose S256x1024 [1, 0] Whh transposes_S1024x256_S256x1024_1_0))) (broadcastInDim S4x1024 ![0, 1] bcast_S1x1024_S4x1024_0_1 (broadcastInDim S1x1024 ![1] bcast_S1024_S1x1024_1 bhh))) slices_S4x1024_S4x256_0_768))))) (Host.tanh (addf (mulf (Host.divf (broadcastInDim S4x256 ![] bcast_S_S4x256 (constant S_ .f32 0x3F800000#32)) (addf (broadcastInDim S4x256 ![] bcast_S_S4x256 (constant S_ .f32 0x3F800000#32)) (Host.exp (Host.negf (extractStridedSlice S4x256 ![0, 256] (addf (addf (addf (Host.dotGeneral dot_S4x128_S128x1024_S4x1024_1_0_0_1_n_n none (extractStridedSlice S4x128 ![3, 0] E slices_S262143x128_S4x128_3_0) (transpose S128x1024 [1, 0] Wih transposes_S1024x128_S128x1024_1_0)) (broadcastInDim S4x1024 ![0, 1] bcast_S1x1024_S4x1024_0_1 (broadcastInDim S1x1024 ![1] bcast_S1024_S1x1024_1 bih))) (Host.dotGeneral dot_S4x256_S256x1024_S4x1024_1_0_0_1_n_n none (shapeCast _ hp shapeCasts_S8x128_S4x256) (transpose S256x1024 [1, 0] Whh transposes_S1024x256_S256x1024_1_0))) (broadcastInDim S4x1024 ![0, 1] bcast_S1x1024_S4x1024_0_1 (broadcastInDim S1x1024 ![1] bcast_S1024_S1x1024_1 bhh))) slices_S4x1024_S4x256_0_256))))) (shapeCast _ cp shapeCasts_S8x128_S4x256)) (mulf (Host.divf (broadcastInDim S4x256 ![] bcast_S_S4x256 (constant S_ .f32 0x3F800000#32)) (addf (broadcastInDim S4x256 ![] bcast_S_S4x256 (constant S_ .f32 0x3F800000#32)) (Host.exp (Host.negf (extractStridedSlice S4x256 ![0, 0] (addf (addf (addf (Host.dotGeneral dot_S4x128_S128x1024_S4x1024_1_0_0_1_n_n none (extractStridedSlice S4x128 ![3, 0] E slices_S262143x128_S4x128_3_0) (transpose S128x1024 [1, 0] Wih transposes_S1024x128_S128x1024_1_0)) (broadcastInDim S4x1024 ![0, 1] bcast_S1x1024_S4x1024_0_1 (broadcastInDim S1x1024 ![1] bcast_S1024_S1x1024_1 bih))) (Host.dotGeneral dot_S4x256_S256x1024_S4x1024_1_0_0_1_n_n none (shapeCast _ hp shapeCasts_S8x128_S4x256) (transpose S256x1024 [1, 0] Whh transposes_S1024x256_S256x1024_1_0))) (broadcastInDim S4x1024 ![0, 1] bcast_S1x1024_S4x1024_0_1 (broadcastInDim S1x1024 ![1] bcast_S1024_S1x1024_1 bhh))) slices_S4x1024_S4x256_0_0))))) (Host.tanh (extractStridedSlice S4x256 ![0, 512] (addf (addf (addf (Host.dotGeneral dot_S4x128_S128x1024_S4x1024_1_0_0_1_n_n none (extractStridedSlice S4x128 ![3, 0] E slices_S262143x128_S4x128_3_0) (transpose S128x1024 [1, 0] Wih transposes_S1024x128_S128x1024_1_0)) (broadcastInDim S4x1024 ![0, 1] bcast_S1x1024_S4x1024_0_1 (broadcastInDim S1x1024 ![1] bcast_S1024_S1x1024_1 bih))) (Host.dotGeneral dot_S4x256_S256x1024_S4x1024_1_0_0_1_n_n none (shapeCast _ hp shapeCasts_S8x128_S4x256) (transpose S256x1024 [1, 0] Whh transposes_S1024x256_S256x1024_1_0))) (broadcastInDim S4x1024 ![0, 1] bcast_S1x1024_S4x1024_0_1 (broadcastInDim S1x1024 ![1] bcast_S1024_S1x1024_1 bhh))) slices_S4x1024_S4x256_0_512)))))) slices_S4x256_S4x128_0_0)

/-- The level's cell states (kept columns) as a function of the same arrays. -/
def tail7Cf (E : FVec F S262143x128 .f32) (Wih : FVec F S1024x128 .f32) (Whh : FVec F S1024x256 .f32) (bih bhh : FVec F S1024 .f32) (hp cp : FVec F S8x128 .f32) : FVec F S4x128 .f32 :=
  (extractStridedSlice S4x128 ![0, 0] (addf (mulf (Host.divf (broadcastInDim S4x256 ![] bcast_S_S4x256 (constant S_ .f32 0x3F800000#32)) (addf (broadcastInDim S4x256 ![] bcast_S_S4x256 (constant S_ .f32 0x3F800000#32)) (Host.exp (Host.negf (extractStridedSlice S4x256 ![0, 256] (addf (addf (addf (Host.dotGeneral dot_S4x128_S128x1024_S4x1024_1_0_0_1_n_n none (extractStridedSlice S4x128 ![3, 0] E slices_S262143x128_S4x128_3_0) (transpose S128x1024 [1, 0] Wih transposes_S1024x128_S128x1024_1_0)) (broadcastInDim S4x1024 ![0, 1] bcast_S1x1024_S4x1024_0_1 (broadcastInDim S1x1024 ![1] bcast_S1024_S1x1024_1 bih))) (Host.dotGeneral dot_S4x256_S256x1024_S4x1024_1_0_0_1_n_n none (shapeCast _ hp shapeCasts_S8x128_S4x256) (transpose S256x1024 [1, 0] Whh transposes_S1024x256_S256x1024_1_0))) (broadcastInDim S4x1024 ![0, 1] bcast_S1x1024_S4x1024_0_1 (broadcastInDim S1x1024 ![1] bcast_S1024_S1x1024_1 bhh))) slices_S4x1024_S4x256_0_256))))) (shapeCast _ cp shapeCasts_S8x128_S4x256)) (mulf (Host.divf (broadcastInDim S4x256 ![] bcast_S_S4x256 (constant S_ .f32 0x3F800000#32)) (addf (broadcastInDim S4x256 ![] bcast_S_S4x256 (constant S_ .f32 0x3F800000#32)) (Host.exp (Host.negf (extractStridedSlice S4x256 ![0, 0] (addf (addf (addf (Host.dotGeneral dot_S4x128_S128x1024_S4x1024_1_0_0_1_n_n none (extractStridedSlice S4x128 ![3, 0] E slices_S262143x128_S4x128_3_0) (transpose S128x1024 [1, 0] Wih transposes_S1024x128_S128x1024_1_0)) (broadcastInDim S4x1024 ![0, 1] bcast_S1x1024_S4x1024_0_1 (broadcastInDim S1x1024 ![1] bcast_S1024_S1x1024_1 bih))) (Host.dotGeneral dot_S4x256_S256x1024_S4x1024_1_0_0_1_n_n none (shapeCast _ hp shapeCasts_S8x128_S4x256) (transpose S256x1024 [1, 0] Whh transposes_S1024x256_S256x1024_1_0))) (broadcastInDim S4x1024 ![0, 1] bcast_S1x1024_S4x1024_0_1 (broadcastInDim S1x1024 ![1] bcast_S1024_S1x1024_1 bhh))) slices_S4x1024_S4x256_0_0))))) (Host.tanh (extractStridedSlice S4x256 ![0, 512] (addf (addf (addf (Host.dotGeneral dot_S4x128_S128x1024_S4x1024_1_0_0_1_n_n none (extractStridedSlice S4x128 ![3, 0] E slices_S262143x128_S4x128_3_0) (transpose S128x1024 [1, 0] Wih transposes_S1024x128_S128x1024_1_0)) (broadcastInDim S4x1024 ![0, 1] bcast_S1x1024_S4x1024_0_1 (broadcastInDim S1x1024 ![1] bcast_S1024_S1x1024_1 bih))) (Host.dotGeneral dot_S4x256_S256x1024_S4x1024_1_0_0_1_n_n none (shapeCast _ hp shapeCasts_S8x128_S4x256) (transpose S256x1024 [1, 0] Whh transposes_S1024x256_S256x1024_1_0))) (broadcastInDim S4x1024 ![0, 1] bcast_S1x1024_S4x1024_0_1 (broadcastInDim S1x1024 ![1] bcast_S1024_S1x1024_1 bhh))) slices_S4x1024_S4x256_0_512)))) slices_S4x256_S4x128_0_0)

set_option maxHeartbeats 4000000 in
theorem tail7_hidden (V : Valuation τ sig (Elt F)) :
    after tail7 V (Proc.devRef .tc main_v383) = tail7Hf (V (Proc.devRef .tc main_arg0)) (V (Proc.devRef .tc main_arg1)) (V (Proc.devRef .tc main_arg2)) (V (Proc.devRef .tc main_arg3)) (V (Proc.devRef .tc main_arg4)) (V (Proc.devRef .tc main_v339)) (V (Proc.devRef .tc main_v340)) := by
  unfold tail7Hf
  simp only [tail7]
  after_results_simp
  first | rfl | (simp only [] <;> rfl)

set_option maxHeartbeats 4000000 in
theorem tail7_cell (V : Valuation τ sig (Elt F)) :
    after tail7 V (Proc.devRef .tc main_v384) = tail7Cf (V (Proc.devRef .tc main_arg0)) (V (Proc.devRef .tc main_arg1)) (V (Proc.devRef .tc main_arg2)) (V (Proc.devRef .tc main_arg3)) (V (Proc.devRef .tc main_arg4)) (V (Proc.devRef .tc main_v339)) (V (Proc.devRef .tc main_v340)) := by
  unfold tail7Cf
  simp only [tail7]
  after_results_simp
  first | rfl | (simp only [] <;> rfl)

set_option maxHeartbeats 4000000 in
/-- The level's lines write only buffers numbered 389 or higher. -/
theorem tail7_from : WritesFrom 389 (tail7 : List (HloOp τ sig (Elt F))) := by
  unfold WritesFrom
  simp only [tail7, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals (intro r hr; cases Proc.devRef_injective _ hr; decide)

/-- So a buffer numbered below 389 keeps its contents through the level. -/
theorem tail7_keep (V : Valuation τ sig (Elt F)) (r : Ref sig .tc) (hr : r.idx.val < 389) :
    after tail7 V (Proc.devRef .tc r) = V (Proc.devRef .tc r) :=
  after_of_forall_not_mem (b := Proc.devRef .tc r) _ _ (fun op hop hw =>
    absurd ((List.forall_iff_forall_mem.mp tail7_from) op hop r hw) (Nat.not_le.mpr hr))

end Cert.KernelIdeal.Fused

end
-- ==== Proof.KI.Tail.L8.lean ====
/-
  Level 8 of the host lines after the region: 2 nodes (tree level 1).

  The level's 50 lines read the five arguments and the two arrays of the level below (`main_v383`, `main_v384`: hidden and
  cell states, 128 columns), and end by writing this level's hidden states to `main_v427` and cell states to `main_v428`
  (128 kept columns each). Here: the lines, those two buffers after the lines as the composed term of what the lines
  read, and that the lines write only buffers numbered 439 or higher.
-/
import proofs.«177989_j29394756173864_2_alg».proof.Proof.KI.Lines
import Idealize.ShloMosaic.Lib.StableHlo.Run

set_option maxRecDepth 16384

noncomputable section

namespace Cert.KernelIdeal.Fused

open Cert.KernelIdeal Cert.KernelIdeal.Gen
open Idealize.ShloMosaic Idealize.ShloMosaic.TcCoe Idealize.SL.Sem Idealize.ShloMosaic.StableHlo

variable {F : FTy → Type} [FloatOps F]

/-- The level's lines, in program order. -/
abbrev tail8 : List (HloOp τ sig (Elt F)) :=
  [ StableHlo.unary main_arg0 main_v385 ((extractStridedSlice S2x128 ![1, 0] · slices_S262143x128_S2x128_1_0) : (⟨S262143x128, .f32⟩ : BufTy).Contents (Elt F) → (⟨S2x128, .f32⟩ : BufTy).Contents (Elt F)),
    StableHlo.reshape main_v383 main_v386 rfl shapeCasts_S4x128_S2x256,
    StableHlo.reshape main_v384 main_v387 rfl shapeCasts_S4x128_S2x256,
    StableHlo.unary main_arg1 main_v388 ((transpose S128x1024 [1, 0] · transposes_S1024x128_S128x1024_1_0) : (⟨S1024x128, .f32⟩ : BufTy).Contents (Elt F) → (⟨S128x1024, .f32⟩ : BufTy).Contents (Elt F)),
    StableHlo.binary main_v385 main_v388 main_v389 ((fun l r => Host.dotGeneral dot_S2x128_S128x1024_S2x1024_1_0_0_1_n_n none l r) : (⟨S2x128, .f32⟩ : BufTy).Contents (Elt F) → (⟨S128x1024, .f32⟩ : BufTy).Contents (Elt F) → (⟨S2x1024, .f32⟩ : BufTy).Contents (Elt F)),
    StableHlo.unary main_arg3 main_v390 (broadcastInDim S1x1024 ![1] bcast_S1024_S1x1024_1 : (⟨S1024, .f32⟩ : BufTy).Contents (Elt F) → (⟨S1x1024, .f32⟩ : BufTy).Contents (Elt F)),
    StableHlo.unary main_v390 main_v391 (broadcastInDim S2x1024 ![0, 1] bcast_S1x1024_S2x1024_0_1 : (⟨S1x1024, .f32⟩ : BufTy).Contents (Elt F) → (⟨S2x1024, .f32⟩ : BufTy).Contents (Elt F)),
    StableHlo.binary main_v389 main_v391 main_v392 (addf : (⟨S2x1024, .f32⟩ : BufTy).Contents (Elt F) → (⟨S2x1024, .f32⟩ : BufTy).Contents (Elt F) → (⟨S2x1024, .f32⟩ : BufTy).Contents (Elt F)),
    StableHlo.unary main_arg2 main_v393 ((transpose S256x1024 [1, 0] · transposes_S1024x256_S256x1024_1_0) : (⟨S1024x256, .f32⟩ : BufTy).Contents (Elt F) → (⟨S256x1024, .f32⟩ : BufTy).Contents (Elt F)),
    StableHlo.binary main_v386 main_v393 main_v394 ((fun l r => Host.dotGeneral dot_S2x256_S256x1024_S2x1024_1_0_0_1_n_n none l r) : (⟨S2x256, .f32⟩ : BufTy).Contents (Elt F) → (⟨S256x1024, .f32⟩ : BufTy).Contents (Elt F) → (⟨S2x1024, .f32⟩ : BufTy).Contents (Elt F)),
    StableHlo.binary main_v392 main_v394 main_v395 (addf : (⟨S2x1024, .f32⟩ : BufTy).Contents (Elt F) → (⟨S2x1024, .f32⟩ : BufTy).Contents (Elt F) → (⟨S2x1024, .f32⟩ : BufTy).Contents (Elt F)),
    StableHlo.unary main_arg4 main_v396 (broadcastInDim S1x1024 ![1] bcast_S1024_S1x1024_1 : (⟨S1024, .f32⟩ : BufTy).Contents (Elt F) → (⟨S1x1024, .f32⟩ : BufTy).Contents (Elt F)),
    StableHlo.unary main_v396 main_v397 (broadcastInDim S2x1024 ![0, 1] bcast_S1x1024_S2x1024_0_1 : (⟨S1x1024, .f32⟩ : BufTy).Contents (Elt F) → (⟨S2x1024, .f32⟩ : BufTy).Contents (Elt F)),
    StableHlo.binary main_v395 main_v397 main_v398 (addf : (⟨S2x1024, .f32⟩ : BufTy).Contents (Elt F) → (⟨S2x1024, .f32⟩ : BufTy).Contents (Elt F) → (⟨S2x1024, .f32⟩ : BufTy).Contents (Elt F)),
    StableHlo.unary main_v398 main_v399 ((extractStridedSlice S2x256 ![0, 0] · slices_S2x1024_S2x256_0_0) : (⟨S2x1024, .f32⟩ : BufTy).Contents (Elt F) → (⟨S2x256, .f32⟩ : BufTy).Contents (Elt F)),
    StableHlo.unary main_v398 main_v400 ((extractStridedSlice S2x256 ![0, 256] · slices_S2x1024_S2x256_0_256) : (⟨S2x1024, .f32⟩ : BufTy).Contents (Elt F) → (⟨S2x256, .f32⟩ : BufTy).Contents (Elt F)),
    StableHlo.unary main_v398 main_v401 ((extractStridedSlice S2x256 ![0, 512] · slices_S2x1024_S2x256_0_512) : (⟨S2x1024, .f32⟩ : BufTy).Contents (Elt F) → (⟨S2x256, .f32⟩ : BufTy).Contents (Elt F)),
    StableHlo.unary main_v398 main_v402 ((extractStridedSlice S2x256 ![0, 768] · slices_S2x1024_S2x256_0_768) : (⟨S2x1024, .f32⟩ : BufTy).Contents (Elt F) → (⟨S2x256, .f32⟩ : BufTy).Contents (Elt F)),
    StableHlo.unary main_v400 main_v403 (Host.negf : (⟨S2x256, .f32⟩ : BufTy).Contents (Elt F) → (⟨S2x256, .f32⟩ : BufTy).Contents (Elt F)),
    StableHlo.unary main_v403 main_v404 (Host.exp : (⟨S2x256, .f32⟩ : BufTy).Contents (Elt F) → (⟨S2x256, .f32⟩ : BufTy).Contents (Elt F)),
    StableHlo.nullary main_cst_47 (constant S_ .f32 0x3F800000#32),
    StableHlo.unary main_cst_47 main_v405 (broadcastInDim S2x256 ![] bcast_S_S2x256 : (⟨S_, .f32⟩ : BufTy).Contents (Elt F) → (⟨S2x256, .f32⟩ : BufTy).Contents (Elt F)),
    StableHlo.binary main_v405 main_v404 main_v406 (addf : (⟨S2x256, .f32⟩ : BufTy).Contents (Elt F) → (⟨S2x256, .f32⟩ : BufTy).Contents (Elt F) → (⟨S2x256, .f32⟩ : BufTy).Contents (Elt F)),
    StableHlo.nullary main_cst_48 (constant S_ .f32 0x3F800000#32),
    StableHlo.unary main_cst_48 main_v407 (broadcastInDim S2x256 ![] bcast_S_S2x256 : (⟨S_, .f32⟩ : BufTy).Contents (Elt F) → (⟨S2x256, .f32⟩ : BufTy).Contents (Elt F)),
    StableHlo.binary main_v407 main_v406 main_v408 (Host.divf : (⟨S2x256, .f32⟩ : BufTy).Contents (Elt F) → (⟨S2x256, .f32⟩ : BufTy).Contents (Elt F) → (⟨S2x256, .f32⟩ : BufTy).Contents (Elt F)),
    StableHlo.binary main_v408 main_v387 main_v409 (mulf : (⟨S2x256, .f32⟩ : BufTy).Contents (Elt F) → (⟨S2x256, .f32⟩ : BufTy).Contents (Elt F) → (⟨S2x256, .f32⟩ : BufTy).Contents (Elt F)),
    StableHlo.unary main_v399 main_v410 (Host.negf : (⟨S2x256, .f32⟩ : BufTy).Contents (Elt F) → (⟨S2x256, .f32⟩ : BufTy).Contents (Elt F)),
    StableHlo.unary main_v410 main_v411 (Host.exp : (⟨S2x256, .f32⟩ : BufTy).Contents (Elt F) → (⟨S2x256, .f32⟩ : BufTy).Contents (Elt F)),
    StableHlo.nullary main_cst_49 (constant S_ .f32 0x3F800000#32),
    StableHlo.unary main_cst_49 main_v412 (broadcastInDim S2x256 ![] bcast_S_S2x256 : (⟨S_, .f32⟩ : BufTy).Contents (Elt F) → (⟨S2x256, .f32⟩ : BufTy).Contents (Elt F)),
    StableHlo.binary main_v412 main_v411 main_v413 (addf : (⟨S2x256, .f32⟩ : BufTy).Contents (Elt F) → (⟨S2x256, .f32⟩ : BufTy).Contents (Elt F) → (⟨S2x256, .f32⟩ : BufTy).Contents (Elt F)),
    StableHlo.nullary main_cst_50 (constant S_ .f32 0x3F800000#32),
    StableHlo.unary main_cst_50 main_v414 (broadcastInDim S2x256 ![] bcast_S_S2x256 : (⟨S_, .f32⟩ : BufTy).Contents (Elt F) → (⟨S2x256, .f32⟩ : BufTy).Contents (Elt F)),
    StableHlo.binary main_v414 main_v413 main_v415 (Host.divf : (⟨S2x256, .f32⟩ : BufTy).Contents (Elt F) → (⟨S2x256, .f32⟩ : BufTy).Contents (Elt F) → (⟨S2x256, .f32⟩ : BufTy).Contents (Elt F)),
    StableHlo.unary main_v401 main_v416 (Host.tanh : (⟨S2x256, .f32⟩ : BufTy).Contents (Elt F) → (⟨S2x256, .f32⟩ : BufTy).Contents (Elt F)),
    StableHlo.binary main_v415 main_v416 main_v417 (mulf : (⟨S2x256, .f32⟩ : BufTy).Contents (Elt F) → (⟨S2x256, .f32⟩ : BufTy).Contents (Elt F) → (⟨S2x256, .f32⟩ : BufTy).Contents (Elt F)),
    StableHlo.binary main_v409 main_v417 main_v418 (addf : (⟨S2x256, .f32⟩ : BufTy).Contents (Elt F) → (⟨S2x256, .f32⟩ : BufTy).Contents (Elt F) → (⟨S2x256, .f32⟩ : BufTy).Contents (Elt F)),
    StableHlo.unary main_v402 main_v419 (Host.negf : (⟨S2x256, .f32⟩ : BufTy).Contents (Elt F) → (⟨S2x256, .f32⟩ : BufTy).Contents (Elt F)),
    StableHlo.unary main_v419 main_v420 (Host.exp : (⟨S2x256, .f32⟩ : BufTy).Contents (Elt F) → (⟨S2x256, .f32⟩ : BufTy).Contents (Elt F)),
    StableHlo.nullary main_cst_51 (constant S_ .f32 0x3F800000#32),
    StableHlo.unary main_cst_51 main_v421 (broadcastInDim S2x256 ![] bcast_S_S2x256 : (⟨S_, .f32⟩ : BufTy).Contents (Elt F) → (⟨S2x256, .f32⟩ : BufTy).Contents (Elt F)),
    StableHlo.binary main_v421 main_v420 main_v422 (addf : (⟨S2x256, .f32⟩ : BufTy).Contents (Elt F) → (⟨S2x256, .f32⟩ : BufTy).Contents (Elt F) → (⟨S2x256, .f32⟩ : BufTy).Contents (Elt F)),
    StableHlo.nullary main_cst_52 (constant S_ .f32 0x3F800000#32),
    StableHlo.unary main_cst_52 main_v423 (broadcastInDim S2x256 ![] bcast_S_S2x256 : (⟨S_, .f32⟩ : BufTy).Contents (Elt F) → (⟨S2x256, .f32⟩ : BufTy).Contents (Elt F)),
    StableHlo.binary main_v423 main_v422 main_v424 (Host.divf : (⟨S2x256, .f32⟩ : BufTy).Contents (Elt F) → (⟨S2x256, .f32⟩ : BufTy).Contents (Elt F) → (⟨S2x256, .f32⟩ : BufTy).Contents (Elt F)),
    StableHlo.unary main_v418 main_v425 (Host.tanh : (⟨S2x256, .f32⟩ : BufTy).Contents (Elt F) → (⟨S2x256, .f32⟩ : BufTy).Contents (Elt F)),
    StableHlo.binary main_v424 main_v425 main_v426 (mulf : (⟨S2x256, .f32⟩ : BufTy).Contents (Elt F) → (⟨S2x256, .f32⟩ : BufTy).Contents (Elt F) → (⟨S2x256, .f32⟩ : BufTy).Contents (Elt F)),
    StableHlo.unary main_v426 main_v427 ((extractStridedSlice S2x128 ![0, 0] · slices_S2x256_S2x128_0_0) : (⟨S2x256, .f32⟩ : BufTy).Contents (Elt F) → (⟨S2x128, .f32⟩ : BufTy).Contents (Elt F)),
    StableHlo.unary main_v418 main_v428 ((extractStridedSlice S2x128 ![0, 0] · slices_S2x256_S2x128_0_0) : (⟨S2x256, .f32⟩ : BufTy).Contents (Elt F) → (⟨S2x128, .f32⟩ : BufTy).Contents (Elt F)) ]

/-- The level's hidden states (kept columns) as a function of the arrays the lines read: the five arguments and the
    hidden and cell arrays of the level below. -/
def tail8Hf (E : FVec F S262143x128 .f32) (Wih : FVec F S1024x128 .f32) (Whh : FVec F S1024x256 .f32) (bih bhh : FVec F S1024 .f32) (hp cp : FVec F S4x128 .f32) : FVec F S2x128 .f32 :=
  (extractStridedSlice S2x128 ![0, 0] (mulf (Host.divf (broadcastInDim S2x256 ![] bcast_S_S2x256 (constant S_ .f32 0x3F800000#32)) (addf (broadcastInDim S2x256 ![] bcast_S_S2x256 (constant S_ .f32 0x3F800000#32)) (Host.exp (Host.negf (extractStridedSlice S2x256 ![0, 768] (addf (addf (addf (Host.dotGeneral dot_S2x128_S128x1024_S2x1024_1_0_0_1_n_n none (extractStridedSlice S2x128 ![1, 0] E slices_S262143x128_S2x128_1_0) (transpose S128x1024 [1, 0] Wih transposes_S1024x128_S128x1024_1_0)) (broadcastInDim S2x1024 ![0, 1] bcast_S1x1024_S2x1024_0_1 (broadcastInDim S1x1024 ![1] bcast_S1024_S1x1024_1 bih))) (Host.dotGeneral dot_S2x256_S256x1024_S2x1024_1_0_0_1_n_n none (shapeCast _ hp shapeCasts_S4x128_S2x256) (transpose S256x1024 [1, 0] Whh transposes_S1024x256_S256x1024_1_0))) (broadcastInDim S2x1024 ![0, 1] bcast_S1x1024_S2x1024_0_1 (broadcastInDim S1x1024 ![1] bcast_S1024_S1x1024_1 bhh))) slices_S2x1024_S2x256_0_768))))) (Host.tanh (addf (mulf (Host.divf (broadcastInDim S2x256 ![] bcast_S_S2x256 (constant S_ .f32 0x3F800000#32)) (addf (broadcastInDim S2x256 ![] bcast_S_S2x256 (constant S_ .f32 0x3F800000#32)) (Host.exp (Host.negf (extractStridedSlice S2x256 ![0, 256] (addf (addf (addf (Host.dotGeneral dot_S2x128_S128x1024_S2x1024_1_0_0_1_n_n none (extractStridedSlice S2x128 ![1, 0] E slices_S262143x128_S2x128_1_0) (transpose S128x1024 [1, 0] Wih transposes_S1024x128_S128x1024_1_0)) (broadcastInDim S2x1024 ![0, 1] bcast_S1x1024_S2x1024_0_1 (broadcastInDim S1x1024 ![1] bcast_S1024_S1x1024_1 bih))) (Host.dotGeneral dot_S2x256_S256x1024_S2x1024_1_0_0_1_n_n none (shapeCast _ hp shapeCasts_S4x128_S2x256) (transpose S256x1024 [1, 0] Whh transposes_S1024x256_S256x1024_1_0))) (broadcastInDim S2x1024 ![0, 1] bcast_S1x1024_S2x1024_0_1 (broadcastInDim S1x1024 ![1] bcast_S1024_S1x1024_1 bhh))) slices_S2x1024_S2x256_0_256))))) (shapeCast _ cp shapeCasts_S4x128_S2x256)) (mulf (Host.divf (broadcastInDim S2x256 ![] bcast_S_S2x256 (constant S_ .f32 0x3F800000#32)) (addf (broadcastInDim S2x256 ![] bcast_S_S2x256 (constant S_ .f32 0x3F800000#32)) (Host.exp (Host.negf (extractStridedSlice S2x256 ![0, 0] (addf (addf (addf (Host.dotGeneral dot_S2x128_S128x1024_S2x1024_1_0_0_1_n_n none (extractStridedSlice S2x128 ![1, 0] E slices_S262143x128_S2x128_1_0) (transpose S128x1024 [1, 0] Wih transposes_S1024x128_S128x1024_1_0)) (broadcastInDim S2x1024 ![0, 1] bcast_S1x1024_S2x1024_0_1 (broadcastInDim S1x1024 ![1] bcast_S1024_S1x1024_1 bih))) (Host.dotGeneral dot_S2x256_S256x1024_S2x1024_1_0_0_1_n_n none (shapeCast _ hp shapeCasts_S4x128_S2x256) (transpose S256x1024 [1, 0] Whh transposes_S1024x256_S256x1024_1_0))) (broadcastInDim S2x1024 ![0, 1] bcast_S1x1024_S2x1024_0_1 (broadcastInDim S1x1024 ![1] bcast_S1024_S1x1024_1 bhh))) slices_S2x1024_S2x256_0_0))))) (Host.tanh (extractStridedSlice S2x256 ![0, 512] (addf (addf (addf (Host.dotGeneral dot_S2x128_S128x1024_S2x1024_1_0_0_1_n_n none (extractStridedSlice S2x128 ![1, 0] E slices_S262143x128_S2x128_1_0) (transpose S128x1024 [1, 0] Wih transposes_S1024x128_S128x1024_1_0)) (broadcastInDim S2x1024 ![0, 1] bcast_S1x1024_S2x1024_0_1 (broadcastInDim S1x1024 ![1] bcast_S1024_S1x1024_1 bih))) (Host.dotGeneral dot_S2x256_S256x1024_S2x1024_1_0_0_1_n_n none (shapeCast _ hp shapeCasts_S4x128_S2x256) (transpose S256x1024 [1, 0] Whh transposes_S1024x256_S256x1024_1_0))) (broadcastInDim S2x1024 ![0, 1] bcast_S1x1024_S2x1024_0_1 (broadcastInDim S1x1024 ![1] bcast_S1024_S1x1024_1 bhh))) slices_S2x1024_S2x256_0_512)))))) slices_S2x256_S2x128_0_0)

/-- The level's cell states (kept columns) as a function of the same arrays. -/
def tail8Cf (E : FVec F S262143x128 .f32) (Wih : FVec F S1024x128 .f32) (Whh : FVec F S1024x256 .f32) (bih bhh : FVec F S1024 .f32) (hp cp : FVec F S4x128 .f32) : FVec F S2x128 .f32 :=
  (extractStridedSlice S2x128 ![0, 0] (addf (mulf (Host.divf (broadcastInDim S2x256 ![] bcast_S_S2x256 (constant S_ .f32 0x3F800000#32)) (addf (broadcastInDim S2x256 ![] bcast_S_S2x256 (constant S_ .f32 0x3F800000#32)) (Host.exp (Host.negf (extractStridedSlice S2x256 ![0, 256] (addf (addf (addf (Host.dotGeneral dot_S2x128_S128x1024_S2x1024_1_0_0_1_n_n none (extractStridedSlice S2x128 ![1, 0] E slices_S262143x128_S2x128_1_0) (transpose S128x1024 [1, 0] Wih transposes_S1024x128_S128x1024_1_0)) (broadcastInDim S2x1024 ![0, 1] bcast_S1x1024_S2x1024_0_1 (broadcastInDim S1x1024 ![1] bcast_S1024_S1x1024_1 bih))) (Host.dotGeneral dot_S2x256_S256x1024_S2x1024_1_0_0_1_n_n none (shapeCast _ hp shapeCasts_S4x128_S2x256) (transpose S256x1024 [1, 0] Whh transposes_S1024x256_S256x1024_1_0))) (broadcastInDim S2x1024 ![0, 1] bcast_S1x1024_S2x1024_0_1 (broadcastInDim S1x1024 ![1] bcast_S1024_S1x1024_1 bhh))) slices_S2x1024_S2x256_0_256))))) (shapeCast _ cp shapeCasts_S4x128_S2x256)) (mulf (Host.divf (broadcastInDim S2x256 ![] bcast_S_S2x256 (constant S_ .f32 0x3F800000#32)) (addf (broadcastInDim S2x256 ![] bcast_S_S2x256 (constant S_ .f32 0x3F800000#32)) (Host.exp (Host.negf (extractStridedSlice S2x256 ![0, 0] (addf (addf (addf (Host.dotGeneral dot_S2x128_S128x1024_S2x1024_1_0_0_1_n_n none (extractStridedSlice S2x128 ![1, 0] E slices_S262143x128_S2x128_1_0) (transpose S128x1024 [1, 0] Wih transposes_S1024x128_S128x1024_1_0)) (broadcastInDim S2x1024 ![0, 1] bcast_S1x1024_S2x1024_0_1 (broadcastInDim S1x1024 ![1] bcast_S1024_S1x1024_1 bih))) (Host.dotGeneral dot_S2x256_S256x1024_S2x1024_1_0_0_1_n_n none (shapeCast _ hp shapeCasts_S4x128_S2x256) (transpose S256x1024 [1, 0] Whh transposes_S1024x256_S256x1024_1_0))) (broadcastInDim S2x1024 ![0, 1] bcast_S1x1024_S2x1024_0_1 (broadcastInDim S1x1024 ![1] bcast_S1024_S1x1024_1 bhh))) slices_S2x1024_S2x256_0_0))))) (Host.tanh (extractStridedSlice S2x256 ![0, 512] (addf (addf (addf (Host.dotGeneral dot_S2x128_S128x1024_S2x1024_1_0_0_1_n_n none (extractStridedSlice S2x128 ![1, 0] E slices_S262143x128_S2x128_1_0) (transpose S128x1024 [1, 0] Wih transposes_S1024x128_S128x1024_1_0)) (broadcastInDim S2x1024 ![0, 1] bcast_S1x1024_S2x1024_0_1 (broadcastInDim S1x1024 ![1] bcast_S1024_S1x1024_1 bih))) (Host.dotGeneral dot_S2x256_S256x1024_S2x1024_1_0_0_1_n_n none (shapeCast _ hp shapeCasts_S4x128_S2x256) (transpose S256x1024 [1, 0] Whh transposes_S1024x256_S256x1024_1_0))) (broadcastInDim S2x1024 ![0, 1] bcast_S1x1024_S2x1024_0_1 (broadcastInDim S1x1024 ![1] bcast_S1024_S1x1024_1 bhh))) slices_S2x1024_S2x256_0_512)))) slices_S2x256_S2x128_0_0)

set_option maxHeartbeats 4000000 in
theorem tail8_hidden (V : Valuation τ sig (Elt F)) :
    after tail8 V (Proc.devRef .tc main_v427) = tail8Hf (V (Proc.devRef .tc main_arg0)) (V (Proc.devRef .tc main_arg1)) (V (Proc.devRef .tc main_arg2)) (V (Proc.devRef .tc main_arg3)) (V (Proc.devRef .tc main_arg4)) (V (Proc.devRef .tc main_v383)) (V (Proc.devRef .tc main_v384)) := by
  unfold tail8Hf
  simp only [tail8]
  after_results_simp
  first | rfl | (simp only [] <;> rfl)

set_option maxHeartbeats 4000000 in
theorem tail8_cell (V : Valuation τ sig (Elt F)) :
    after tail8 V (Proc.devRef .tc main_v428) = tail8Cf (V (Proc.devRef .tc main_arg0)) (V (Proc.devRef .tc main_arg1)) (V (Proc.devRef .tc main_arg2)) (V (Proc.devRef .tc main_arg3)) (V (Proc.devRef .tc main_arg4)) (V (Proc.devRef .tc main_v383)) (V (Proc.devRef .tc main_v384)) := by
  unfold tail8Cf
  simp only [tail8]
  after_results_simp
  first | rfl | (simp only [] <;> rfl)

set_option maxHeartbeats 4000000 in
/-- The level's lines write only buffers numbered 439 or higher. -/
theorem tail8_from : WritesFrom 439 (tail8 : List (HloOp τ sig (Elt F))) := by
  unfold WritesFrom
  simp only [tail8, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals (intro r hr; cases Proc.devRef_injective _ hr; decide)

/-- So a buffer numbered below 439 keeps its contents through the level. -/
theorem tail8_keep (V : Valuation τ sig (Elt F)) (r : Ref sig .tc) (hr : r.idx.val < 439) :
    after tail8 V (Proc.devRef .tc r) = V (Proc.devRef .tc r) :=
  after_of_forall_not_mem (b := Proc.devRef .tc r) _ _ (fun op hop hw =>
    absurd ((List.forall_iff_forall_mem.mp tail8_from) op hop r hw) (Nat.not_le.mpr hr))

end Cert.KernelIdeal.Fused

end
-- ==== Proof.KI.Tail.L9.lean ====
/-
  Level 9 of the host lines after the region: 1 node (tree level 0).

  The level's 48 lines read the five arguments and the two arrays of the level below (`main_v427`, `main_v428`: hidden and
  cell states, 128 columns), and end by writing this level's hidden states to `main_v469` and cell states to `main_v470`
  (128 kept columns each). Here: the lines, those two buffers after the lines as the composed term of what the lines
  read, and that the lines write only buffers numbered 489 or higher.
-/
import proofs.«177989_j29394756173864_2_alg».proof.Proof.KI.Lines
import Idealize.ShloMosaic.Lib.StableHlo.Run

set_option maxRecDepth 16384

noncomputable section

namespace Cert.KernelIdeal.Fused

open Cert.KernelIdeal Cert.KernelIdeal.Gen
open Idealize.ShloMosaic Idealize.ShloMosaic.TcCoe Idealize.SL.Sem Idealize.ShloMosaic.StableHlo

variable {F : FTy → Type} [FloatOps F]

/-- The level's lines, in program order. -/
abbrev tail9 : List (HloOp τ sig (Elt F)) :=
  [ StableHlo.unary main_arg0 main_v429 ((extractStridedSlice S1x128 ![0, 0] · slices_S262143x128_S1x128_0_0) : (⟨S262143x128, .f32⟩ : BufTy).Contents (Elt F) → (⟨S1x128, .f32⟩ : BufTy).Contents (Elt F)),
    StableHlo.reshape main_v427 main_v430 rfl shapeCasts_S2x128_S1x256,
    StableHlo.reshape main_v428 main_v431 rfl shapeCasts_S2x128_S1x256,
    StableHlo.unary main_arg1 main_v432 ((transpose S128x1024 [1, 0] · transposes_S1024x128_S128x1024_1_0) : (⟨S1024x128, .f32⟩ : BufTy).Contents (Elt F) → (⟨S128x1024, .f32⟩ : BufTy).Contents (Elt F)),
    StableHlo.binary main_v429 main_v432 main_v433 ((fun l r => Host.dotGeneral dot_S1x128_S128x1024_S1x1024_1_0_0_1_n_n none l r) : (⟨S1x128, .f32⟩ : BufTy).Contents (Elt F) → (⟨S128x1024, .f32⟩ : BufTy).Contents (Elt F) → (⟨S1x1024, .f32⟩ : BufTy).Contents (Elt F)),
    StableHlo.unary main_arg3 main_v434 (broadcastInDim S1x1024 ![1] bcast_S1024_S1x1024_1 : (⟨S1024, .f32⟩ : BufTy).Contents (Elt F) → (⟨S1x1024, .f32⟩ : BufTy).Contents (Elt F)),
    StableHlo.binary main_v433 main_v434 main_v435 (addf : (⟨S1x1024, .f32⟩ : BufTy).Contents (Elt F) → (⟨S1x1024, .f32⟩ : BufTy).Contents (Elt F) → (⟨S1x1024, .f32⟩ : BufTy).Contents (Elt F)),
    StableHlo.unary main_arg2 main_v436 ((transpose S256x1024 [1, 0] · transposes_S1024x256_S256x1024_1_0) : (⟨S1024x256, .f32⟩ : BufTy).Contents (Elt F) → (⟨S256x1024, .f32⟩ : BufTy).Contents (Elt F)),
    StableHlo.binary main_v430 main_v436 main_v437 ((fun l r => Host.dotGeneral dot_S1x256_S256x1024_S1x1024_1_0_0_1_n_n none l r) : (⟨S1x256, .f32⟩ : BufTy).Contents (Elt F) → (⟨S256x1024, .f32⟩ : BufTy).Contents (Elt F) → (⟨S1x1024, .f32⟩ : BufTy).Contents (Elt F)),
    StableHlo.binary main_v435 main_v437 main_v438 (addf : (⟨S1x1024, .f32⟩ : BufTy).Contents (Elt F) → (⟨S1x1024, .f32⟩ : BufTy).Contents (Elt F) → (⟨S1x1024, .f32⟩ : BufTy).Contents (Elt F)),
    StableHlo.unary main_arg4 main_v439 (broadcastInDim S1x1024 ![1] bcast_S1024_S1x1024_1 : (⟨S1024, .f32⟩ : BufTy).Contents (Elt F) → (⟨S1x1024, .f32⟩ : BufTy).Contents (Elt F)),
    StableHlo.binary main_v438 main_v439 main_v440 (addf : (⟨S1x1024, .f32⟩ : BufTy).Contents (Elt F) → (⟨S1x1024, .f32⟩ : BufTy).Contents (Elt F) → (⟨S1x1024, .f32⟩ : BufTy).Contents (Elt F)),
    StableHlo.unary main_v440 main_v441 ((extractStridedSlice S1x256 ![0, 0] · slices_S1x1024_S1x256_0_0) : (⟨S1x1024, .f32⟩ : BufTy).Contents (Elt F) → (⟨S1x256, .f32⟩ : BufTy).Contents (Elt F)),
    StableHlo.unary main_v440 main_v442 ((extractStridedSlice S1x256 ![0, 256] · slices_S1x1024_S1x256_0_256) : (⟨S1x1024, .f32⟩ : BufTy).Contents (Elt F) → (⟨S1x256, .f32⟩ : BufTy).Contents (Elt F)),
    StableHlo.unary main_v440 main_v443 ((extractStridedSlice S1x256 ![0, 512] · slices_S1x1024_S1x256_0_512) : (⟨S1x1024, .f32⟩ : BufTy).Contents (Elt F) → (⟨S1x256, .f32⟩ : BufTy).Contents (Elt F)),
    StableHlo.unary main_v440 main_v444 ((extractStridedSlice S1x256 ![0, 768] · slices_S1x1024_S1x256_0_768) : (⟨S1x1024, .f32⟩ : BufTy).Contents (Elt F) → (⟨S1x256, .f32⟩ : BufTy).Contents (Elt F)),
    StableHlo.unary main_v442 main_v445 (Host.negf : (⟨S1x256, .f32⟩ : BufTy).Contents (Elt F) → (⟨S1x256, .f32⟩ : BufTy).Contents (Elt F)),
    StableHlo.unary main_v445 main_v446 (Host.exp : (⟨S1x256, .f32⟩ : BufTy).Contents (Elt F) → (⟨S1x256, .f32⟩ : BufTy).Contents (Elt F)),
    StableHlo.nullary main_cst_53 (constant S_ .f32 0x3F800000#32),
    StableHlo.unary main_cst_53 main_v447 (broadcastInDim S1x256 ![] bcast_S_S1x256 : (⟨S_, .f32⟩ : BufTy).Contents (Elt F) → (⟨S1x256, .f32⟩ : BufTy).Contents (Elt F)),
    StableHlo.binary main_v447 main_v446 main_v448 (addf : (⟨S1x256, .f32⟩ : BufTy).Contents (Elt F) → (⟨S1x256, .f32⟩ : BufTy).Contents (Elt F) → (⟨S1x256, .f32⟩ : BufTy).Contents (Elt F)),
    StableHlo.nullary main_cst_54 (constant S_ .f32 0x3F800000#32),
    StableHlo.unary main_cst_54 main_v449 (broadcastInDim S1x256 ![] bcast_S_S1x256 : (⟨S_, .f32⟩ : BufTy).Contents (Elt F) → (⟨S1x256, .f32⟩ : BufTy).Contents (Elt F)),
    StableHlo.binary main_v449 main_v448 main_v450 (Host.divf : (⟨S1x256, .f32⟩ : BufTy).Contents (Elt F) → (⟨S1x256, .f32⟩ : BufTy).Contents (Elt F) → (⟨S1x256, .f32⟩ : BufTy).Contents (Elt F)),
    StableHlo.binary main_v450 main_v431 main_v451 (mulf : (⟨S1x256, .f32⟩ : BufTy).Contents (Elt F) → (⟨S1x256, .f32⟩ : BufTy).Contents (Elt F) → (⟨S1x256, .f32⟩ : BufTy).Contents (Elt F)),
    StableHlo.unary main_v441 main_v452 (Host.negf : (⟨S1x256, .f32⟩ : BufTy).Contents (Elt F) → (⟨S1x256, .f32⟩ : BufTy).Contents (Elt F)),
    StableHlo.unary main_v452 main_v453 (Host.exp : (⟨S1x256, .f32⟩ : BufTy).Contents (Elt F) → (⟨S1x256, .f32⟩ : BufTy).Contents (Elt F)),
    StableHlo.nullary main_cst_55 (constant S_ .f32 0x3F800000#32),
    StableHlo.unary main_cst_55 main_v454 (broadcastInDim S1x256 ![] bcast_S_S1x256 : (⟨S_, .f32⟩ : BufTy).Contents (Elt F) → (⟨S1x256, .f32⟩ : BufTy).Contents (Elt F)),
    StableHlo.binary main_v454 main_v453 main_v455 (addf : (⟨S1x256, .f32⟩ : BufTy).Contents (Elt F) → (⟨S1x256, .f32⟩ : BufTy).Contents (Elt F) → (⟨S1x256, .f32⟩ : BufTy).Contents (Elt F)),
    StableHlo.nullary main_cst_56 (constant S_ .f32 0x3F800000#32),
    StableHlo.unary main_cst_56 main_v456 (broadcastInDim S1x256 ![] bcast_S_S1x256 : (⟨S_, .f32⟩ : BufTy).Contents (Elt F) → (⟨S1x256, .f32⟩ : BufTy).Contents (Elt F)),
    StableHlo.binary main_v456 main_v455 main_v457 (Host.divf : (⟨S1x256, .f32⟩ : BufTy).Contents (Elt F) → (⟨S1x256, .f32⟩ : BufTy).Contents (Elt F) → (⟨S1x256, .f32⟩ : BufTy).Contents (Elt F)),
    StableHlo.unary main_v443 main_v458 (Host.tanh : (⟨S1x256, .f32⟩ : BufTy).Contents (Elt F) → (⟨S1x256, .f32⟩ : BufTy).Contents (Elt F)),
    StableHlo.binary main_v457 main_v458 main_v459 (mulf : (⟨S1x256, .f32⟩ : BufTy).Contents (Elt F) → (⟨S1x256, .f32⟩ : BufTy).Contents (Elt F) → (⟨S1x256, .f32⟩ : BufTy).Contents (Elt F)),
    StableHlo.binary main_v451 main_v459 main_v460 (addf : (⟨S1x256, .f32⟩ : BufTy).Contents (Elt F) → (⟨S1x256, .f32⟩ : BufTy).Contents (Elt F) → (⟨S1x256, .f32⟩ : BufTy).Contents (Elt F)),
    StableHlo.unary main_v444 main_v461 (Host.negf : (⟨S1x256, .f32⟩ : BufTy).Contents (Elt F) → (⟨S1x256, .f32⟩ : BufTy).Contents (Elt F)),
    StableHlo.unary main_v461 main_v462 (Host.exp : (⟨S1x256, .f32⟩ : BufTy).Contents (Elt F) → (⟨S1x256, .f32⟩ : BufTy).Contents (Elt F)),
    StableHlo.nullary main_cst_57 (constant S_ .f32 0x3F800000#32),
    StableHlo.unary main_cst_57 main_v463 (broadcastInDim S1x256 ![] bcast_S_S1x256 : (⟨S_, .f32⟩ : BufTy).Contents (Elt F) → (⟨S1x256, .f32⟩ : BufTy).Contents (Elt F)),
    StableHlo.binary main_v463 main_v462 main_v464 (addf : (⟨S1x256, .f32⟩ : BufTy).Contents (Elt F) → (⟨S1x256, .f32⟩ : BufTy).Contents (Elt F) → (⟨S1x256, .f32⟩ : BufTy).Contents (Elt F)),
    StableHlo.nullary main_cst_58 (constant S_ .f32 0x3F800000#32),
    StableHlo.unary main_cst_58 main_v465 (broadcastInDim S1x256 ![] bcast_S_S1x256 : (⟨S_, .f32⟩ : BufTy).Contents (Elt F) → (⟨S1x256, .f32⟩ : BufTy).Contents (Elt F)),
    StableHlo.binary main_v465 main_v464 main_v466 (Host.divf : (⟨S1x256, .f32⟩ : BufTy).Contents (Elt F) → (⟨S1x256, .f32⟩ : BufTy).Contents (Elt F) → (⟨S1x256, .f32⟩ : BufTy).Contents (Elt F)),
    StableHlo.unary main_v460 main_v467 (Host.tanh : (⟨S1x256, .f32⟩ : BufTy).Contents (Elt F) → (⟨S1x256, .f32⟩ : BufTy).Contents (Elt F)),
    StableHlo.binary main_v466 main_v467 main_v468 (mulf : (⟨S1x256, .f32⟩ : BufTy).Contents (Elt F) → (⟨S1x256, .f32⟩ : BufTy).Contents (Elt F) → (⟨S1x256, .f32⟩ : BufTy).Contents (Elt F)),
    StableHlo.unary main_v468 main_v469 ((extractStridedSlice S1x128 ![0, 0] · slices_S1x256_S1x128_0_0) : (⟨S1x256, .f32⟩ : BufTy).Contents (Elt F) → (⟨S1x128, .f32⟩ : BufTy).Contents (Elt F)),
    StableHlo.unary main_v460 main_v470 ((extractStridedSlice S1x128 ![0, 0] · slices_S1x256_S1x128_0_0) : (⟨S1x256, .f32⟩ : BufTy).Contents (Elt F) → (⟨S1x128, .f32⟩ : BufTy).Contents (Elt F)) ]

/-- The level's hidden states (kept columns) as a function of the arrays the lines read: the five arguments and the
    hidden and cell arrays of the level below. -/
def tail9Hf (E : FVec F S262143x128 .f32) (Wih : FVec F S1024x128 .f32) (Whh : FVec F S1024x256 .f32) (bih bhh : FVec F S1024 .f32) (hp cp : FVec F S2x128 .f32) : FVec F S1x128 .f32 :=
  (extractStridedSlice S1x128 ![0, 0] (mulf (Host.divf (broadcastInDim S1x256 ![] bcast_S_S1x256 (constant S_ .f32 0x3F800000#32)) (addf (broadcastInDim S1x256 ![] bcast_S_S1x256 (constant S_ .f32 0x3F800000#32)) (Host.exp (Host.negf (extractStridedSlice S1x256 ![0, 768] (addf (addf (addf (Host.dotGeneral dot_S1x128_S128x1024_S1x1024_1_0_0_1_n_n none (extractStridedSlice S1x128 ![0, 0] E slices_S262143x128_S1x128_0_0) (transpose S128x1024 [1, 0] Wih transposes_S1024x128_S128x1024_1_0)) (broadcastInDim S1x1024 ![1] bcast_S1024_S1x1024_1 bih)) (Host.dotGeneral dot_S1x256_S256x1024_S1x1024_1_0_0_1_n_n none (shapeCast _ hp shapeCasts_S2x128_S1x256) (transpose S256x1024 [1, 0] Whh transposes_S1024x256_S256x1024_1_0))) (broadcastInDim S1x1024 ![1] bcast_S1024_S1x1024_1 bhh)) slices_S1x1024_S1x256_0_768))))) (Host.tanh (addf (mulf (Host.divf (broadcastInDim S1x256 ![] bcast_S_S1x256 (constant S_ .f32 0x3F800000#32)) (addf (broadcastInDim S1x256 ![] bcast_S_S1x256 (constant S_ .f32 0x3F800000#32)) (Host.exp (Host.negf (extractStridedSlice S1x256 ![0, 256] (addf (addf (addf (Host.dotGeneral dot_S1x128_S128x1024_S1x1024_1_0_0_1_n_n none (extractStridedSlice S1x128 ![0, 0] E slices_S262143x128_S1x128_0_0) (transpose S128x1024 [1, 0] Wih transposes_S1024x128_S128x1024_1_0)) (broadcastInDim S1x1024 ![1] bcast_S1024_S1x1024_1 bih)) (Host.dotGeneral dot_S1x256_S256x1024_S1x1024_1_0_0_1_n_n none (shapeCast _ hp shapeCasts_S2x128_S1x256) (transpose S256x1024 [1, 0] Whh transposes_S1024x256_S256x1024_1_0))) (broadcastInDim S1x1024 ![1] bcast_S1024_S1x1024_1 bhh)) slices_S1x1024_S1x256_0_256))))) (shapeCast _ cp shapeCasts_S2x128_S1x256)) (mulf (Host.divf (broadcastInDim S1x256 ![] bcast_S_S1x256 (constant S_ .f32 0x3F800000#32)) (addf (broadcastInDim S1x256 ![] bcast_S_S1x256 (constant S_ .f32 0x3F800000#32)) (Host.exp (Host.negf (extractStridedSlice S1x256 ![0, 0] (addf (addf (addf (Host.dotGeneral dot_S1x128_S128x1024_S1x1024_1_0_0_1_n_n none (extractStridedSlice S1x128 ![0, 0] E slices_S262143x128_S1x128_0_0) (transpose S128x1024 [1, 0] Wih transposes_S1024x128_S128x1024_1_0)) (broadcastInDim S1x1024 ![1] bcast_S1024_S1x1024_1 bih)) (Host.dotGeneral dot_S1x256_S256x1024_S1x1024_1_0_0_1_n_n none (shapeCast _ hp shapeCasts_S2x128_S1x256) (transpose S256x1024 [1, 0] Whh transposes_S1024x256_S256x1024_1_0))) (broadcastInDim S1x1024 ![1] bcast_S1024_S1x1024_1 bhh)) slices_S1x1024_S1x256_0_0))))) (Host.tanh (extractStridedSlice S1x256 ![0, 512] (addf (addf (addf (Host.dotGeneral dot_S1x128_S128x1024_S1x1024_1_0_0_1_n_n none (extractStridedSlice S1x128 ![0, 0] E slices_S262143x128_S1x128_0_0) (transpose S128x1024 [1, 0] Wih transposes_S1024x128_S128x1024_1_0)) (broadcastInDim S1x1024 ![1] bcast_S1024_S1x1024_1 bih)) (Host.dotGeneral dot_S1x256_S256x1024_S1x1024_1_0_0_1_n_n none (shapeCast _ hp shapeCasts_S2x128_S1x256) (transpose S256x1024 [1, 0] Whh transposes_S1024x256_S256x1024_1_0))) (broadcastInDim S1x1024 ![1] bcast_S1024_S1x1024_1 bhh)) slices_S1x1024_S1x256_0_512)))))) slices_S1x256_S1x128_0_0)

/-- The level's cell states (kept columns) as a function of the same arrays. -/
def tail9Cf (E : FVec F S262143x128 .f32) (Wih : FVec F S1024x128 .f32) (Whh : FVec F S1024x256 .f32) (bih bhh : FVec F S1024 .f32) (hp cp : FVec F S2x128 .f32) : FVec F S1x128 .f32 :=
  (extractStridedSlice S1x128 ![0, 0] (addf (mulf (Host.divf (broadcastInDim S1x256 ![] bcast_S_S1x256 (constant S_ .f32 0x3F800000#32)) (addf (broadcastInDim S1x256 ![] bcast_S_S1x256 (constant S_ .f32 0x3F800000#32)) (Host.exp (Host.negf (extractStridedSlice S1x256 ![0, 256] (addf (addf (addf (Host.dotGeneral dot_S1x128_S128x1024_S1x1024_1_0_0_1_n_n none (extractStridedSlice S1x128 ![0, 0] E slices_S262143x128_S1x128_0_0) (transpose S128x1024 [1, 0] Wih transposes_S1024x128_S128x1024_1_0)) (broadcastInDim S1x1024 ![1] bcast_S1024_S1x1024_1 bih)) (Host.dotGeneral dot_S1x256_S256x1024_S1x1024_1_0_0_1_n_n none (shapeCast _ hp shapeCasts_S2x128_S1x256) (transpose S256x1024 [1, 0] Whh transposes_S1024x256_S256x1024_1_0))) (broadcastInDim S1x1024 ![1] bcast_S1024_S1x1024_1 bhh)) slices_S1x1024_S1x256_0_256))))) (shapeCast _ cp shapeCasts_S2x128_S1x256)) (mulf (Host.divf (broadcastInDim S1x256 ![] bcast_S_S1x256 (constant S_ .f32 0x3F800000#32)) (addf (broadcastInDim S1x256 ![] bcast_S_S1x256 (constant S_ .f32 0x3F800000#32)) (Host.exp (Host.negf (extractStridedSlice S1x256 ![0, 0] (addf (addf (addf (Host.dotGeneral dot_S1x128_S128x1024_S1x1024_1_0_0_1_n_n none (extractStridedSlice S1x128 ![0, 0] E slices_S262143x128_S1x128_0_0) (transpose S128x1024 [1, 0] Wih transposes_S1024x128_S128x1024_1_0)) (broadcastInDim S1x1024 ![1] bcast_S1024_S1x1024_1 bih)) (Host.dotGeneral dot_S1x256_S256x1024_S1x1024_1_0_0_1_n_n none (shapeCast _ hp shapeCasts_S2x128_S1x256) (transpose S256x1024 [1, 0] Whh transposes_S1024x256_S256x1024_1_0))) (broadcastInDim S1x1024 ![1] bcast_S1024_S1x1024_1 bhh)) slices_S1x1024_S1x256_0_0))))) (Host.tanh (extractStridedSlice S1x256 ![0, 512] (addf (addf (addf (Host.dotGeneral dot_S1x128_S128x1024_S1x1024_1_0_0_1_n_n none (extractStridedSlice S1x128 ![0, 0] E slices_S262143x128_S1x128_0_0) (transpose S128x1024 [1, 0] Wih transposes_S1024x128_S128x1024_1_0)) (broadcastInDim S1x1024 ![1] bcast_S1024_S1x1024_1 bih)) (Host.dotGeneral dot_S1x256_S256x1024_S1x1024_1_0_0_1_n_n none (shapeCast _ hp shapeCasts_S2x128_S1x256) (transpose S256x1024 [1, 0] Whh transposes_S1024x256_S256x1024_1_0))) (broadcastInDim S1x1024 ![1] bcast_S1024_S1x1024_1 bhh)) slices_S1x1024_S1x256_0_512)))) slices_S1x256_S1x128_0_0)

set_option maxHeartbeats 4000000 in
theorem tail9_hidden (V : Valuation τ sig (Elt F)) :
    after tail9 V (Proc.devRef .tc main_v469) = tail9Hf (V (Proc.devRef .tc main_arg0)) (V (Proc.devRef .tc main_arg1)) (V (Proc.devRef .tc main_arg2)) (V (Proc.devRef .tc main_arg3)) (V (Proc.devRef .tc main_arg4)) (V (Proc.devRef .tc main_v427)) (V (Proc.devRef .tc main_v428)) := by
  unfold tail9Hf
  simp only [tail9]
  after_results_simp
  first | rfl | (simp only [] <;> rfl)

set_option maxHeartbeats 4000000 in
theorem tail9_cell (V : Valuation τ sig (Elt F)) :
    after tail9 V (Proc.devRef .tc main_v470) = tail9Cf (V (Proc.devRef .tc main_arg0)) (V (Proc.devRef .tc main_arg1)) (V (Proc.devRef .tc main_arg2)) (V (Proc.devRef .tc main_arg3)) (V (Proc.devRef .tc main_arg4)) (V (Proc.devRef .tc main_v427)) (V (Proc.devRef .tc main_v428)) := by
  unfold tail9Cf
  simp only [tail9]
  after_results_simp
  first | rfl | (simp only [] <;> rfl)

set_option maxHeartbeats 4000000 in
/-- The level's lines write only buffers numbered 489 or higher. -/
theorem tail9_from : WritesFrom 489 (tail9 : List (HloOp τ sig (Elt F))) := by
  unfold WritesFrom
  simp only [tail9, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals (intro r hr; cases Proc.devRef_injective _ hr; decide)

/-- So a buffer numbered below 489 keeps its contents through the level. -/
theorem tail9_keep (V : Valuation τ sig (Elt F)) (r : Ref sig .tc) (hr : r.idx.val < 489) :
    after tail9 V (Proc.devRef .tc r) = V (Proc.devRef .tc r) :=
  after_of_forall_not_mem (b := Proc.devRef .tc r) _ _ (fun op hop hw =>
    absurd ((List.forall_iff_forall_mem.mp tail9_from) op hop r hw) (Nat.not_le.mpr hr))

end Cert.KernelIdeal.Fused

end
-- ==== Proof.KI.Tail.Cut.lean ====
/-
  The 499 host lines after the region are the ten levels' lines, in order, followed by the concatenate that puts the
  root's hidden and cell states side by side.
-/
import proofs.«177989_j29394756173864_2_alg».proof.Proof.KI.Tail.L0
import proofs.«177989_j29394756173864_2_alg».proof.Proof.KI.Tail.L1
import proofs.«177989_j29394756173864_2_alg».proof.Proof.KI.Tail.L2
import proofs.«177989_j29394756173864_2_alg».proof.Proof.KI.Tail.L3
import proofs.«177989_j29394756173864_2_alg».proof.Proof.KI.Tail.L4
import proofs.«177989_j29394756173864_2_alg».proof.Proof.KI.Tail.L5
import proofs.«177989_j29394756173864_2_alg».proof.Proof.KI.Tail.L6
import proofs.«177989_j29394756173864_2_alg».proof.Proof.KI.Tail.L7
import proofs.«177989_j29394756173864_2_alg».proof.Proof.KI.Tail.L8
import proofs.«177989_j29394756173864_2_alg».proof.Proof.KI.Tail.L9

set_option maxRecDepth 65536

noncomputable section

namespace Cert.KernelIdeal.Fused

open Cert.KernelIdeal Cert.KernelIdeal.Gen
open Idealize.ShloMosaic Idealize.ShloMosaic.TcCoe Idealize.SL.Sem Idealize.ShloMosaic.StableHlo

variable {F : FTy → Type} [FloatOps F]

/-- The last line: the root's hidden and cell states side by side. -/
abbrev tailConcat : List (HloOp τ sig (Elt F)) :=
  [ StableHlo.binary main_v469 main_v470 main_v471 ((fun a b => concatenate S1x256 1 [⟨S1x128, a⟩, ⟨S1x128, b⟩] concatenates_S1x128_S1x128_S1x256_d1) : (⟨S1x128, .f32⟩ : BufTy).Contents (Elt F) → (⟨S1x128, .f32⟩ : BufTy).Contents (Elt F) → (⟨S1x256, .f32⟩ : BufTy).Contents (Elt F)) ]

set_option maxHeartbeats 4000000 in
theorem tail_cut : List.flatten (linesAfter : List (List (HloOp τ sig (Elt F))))
    = tail0 ++ (tail1 ++ (tail2 ++ (tail3 ++ (tail4 ++ (tail5 ++ (tail6 ++ (tail7 ++ (tail8 ++ (tail9 ++ tailConcat))))))))) := by
  rfl

end Cert.KernelIdeal.Fused

end
-- ==== Proof.Spec.lean ====
/-
  The binary-tree cell recurrence, as mathematics.

  The tree has 18 levels of internal nodes; level d (0 ≤ d ≤ 17) holds 2^d nodes, rows 2^d − 1 … 2^(d+1) − 2 of the
  embedding array, and the children of node r of level d are nodes 2r and 2r + 1 of level d + 1. Below level 17 are
  the leaves, whose hidden and cell states are zero. A node's 256-wide hidden input is its two children's 128-wide
  hidden states side by side, likewise its cell input. With the four gate blocks of 256 rows each in the weights
  (input, forget, candidate, output), the node's gate pre-activation q is

      gate q = ((x · W_ih[q] + b_ih[q]) + [h_left | h_right] · W_hh[q]) + b_hh[q],

  its new cell state, in the 128 kept columns j, is
      c j = σ(gate (256 + j)) · c_left j + σ(gate j) · tanh(gate (512 + j)),
  and its new hidden state  h j = σ(gate (768 + j)) · tanh(c j),  with σ x = 1 / (1 + e^(−x)).
  Only columns j < 128 of each 256-wide gate block are ever used: the next level reads the first 128 columns only.
  The result is the root's hidden state followed by its cell state: 256 numbers.

  Everything is over the extended reals; arrays are functions of natural-number coordinates.
-/
import Idealize.ShloMosaic.PureOps.Ideal
import Idealize.ShloMosaic.Lib.ValueIdx

noncomputable section

namespace Cert.TreeCell

open Idealize.ShloMosaic

/-- A matrix as a function of a row and a column number. -/
abbrev Mat := ℕ → ℕ → EReal

/-- An array of shape [N, M] read at natural coordinates (zero outside the array). -/
def ofArr {N M : ℕ} (A : (⟨2, ![N, M]⟩ : Shape).Idx → EReal) : Mat := fun a b =>
  if h : a < N ∧ b < M then A (ValueIdx.ix2 ⟨a, h.1⟩ ⟨b, h.2⟩) else 0

theorem ofArr_apply {N M : ℕ} (A : (⟨2, ![N, M]⟩ : Shape).Idx → EReal) (a : Fin N) (b : Fin M) :
    ofArr A a.val b.val = A (ValueIdx.ix2 a b) := by
  unfold ofArr
  rw [dif_pos ⟨a.isLt, b.isLt⟩]

/-- A vector of shape [N] read at a natural coordinate (zero outside). -/
def ofVec {N : ℕ} (A : (⟨1, ![N]⟩ : Shape).Idx → EReal) : ℕ → EReal := fun a =>
  if h : a < N then A (ValueIdx.ix1 ⟨a, h⟩) else 0

theorem ofVec_apply {N : ℕ} (A : (⟨1, ![N]⟩ : Shape).Idx → EReal) (a : Fin N) : ofVec A a.val = A (ValueIdx.ix1 a) := by
  unfold ofVec
  rw [dif_pos a.isLt]

section Cell

variable (Wih Whh : Mat) (bih bhh : ℕ → EReal)

/-- Gate pre-activation `q` of node `r`: `x` the level's embedding rows, `hp` the hidden states of the level below. -/
def gate (x hp : Mat) (r q : ℕ) : EReal :=
  (((∑ k : Fin 128, x r k.val * Wih q k.val) + bih q)
    + (∑ k : Fin 256, hp (2 * r + k.val / 128) (k.val % 128) * Whh q k.val)) + bhh q

/-- The node's new cell state in kept column `j`; `cp` the cell states of the level below. -/
def cell (x hp cp : Mat) (r j : ℕ) : EReal :=
  Ideal.logistic (gate Wih Whh bih bhh x hp r (256 + j)) * cp (2 * r) j
    + Ideal.logistic (gate Wih Whh bih bhh x hp r j) * Ideal.tanh (gate Wih Whh bih bhh x hp r (512 + j))

/-- The node's new hidden state in kept column `j`. -/
def hidden (x hp cp : Mat) (r j : ℕ) : EReal :=
  Ideal.logistic (gate Wih Whh bih bhh x hp r (768 + j)) * Ideal.tanh (cell Wih Whh bih bhh x hp cp r j)

/-! A node's update reads only its own embedding row and its two children's rows. -/

theorem gate_congr {x x' hp hp' : Mat} {r : ℕ} (hx : ∀ k, k < 128 → x r k = x' r k)
    (hh : ∀ a, a < 2 → ∀ b, b < 128 → hp (2 * r + a) b = hp' (2 * r + a) b) (q : ℕ) :
    gate Wih Whh bih bhh x hp r q = gate Wih Whh bih bhh x' hp' r q := by
  unfold gate
  have e1 : (∑ k : Fin 128, x r k.val * Wih q k.val) = ∑ k : Fin 128, x' r k.val * Wih q k.val :=
    Finset.sum_congr rfl fun k _ => by rw [hx k.val k.isLt]
  have e2 : (∑ k : Fin 256, hp (2 * r + k.val / 128) (k.val % 128) * Whh q k.val)
      = ∑ k : Fin 256, hp' (2 * r + k.val / 128) (k.val % 128) * Whh q k.val :=
    Finset.sum_congr rfl fun k _ => by
      rw [hh (k.val / 128) (by have := k.isLt; omega) (k.val % 128) (Nat.mod_lt _ (by decide))]
  rw [e1, e2]

theorem cell_congr {x x' hp hp' cp cp' : Mat} {r : ℕ} (hx : ∀ k, k < 128 → x r k = x' r k)
    (hh : ∀ a, a < 2 → ∀ b, b < 128 → hp (2 * r + a) b = hp' (2 * r + a) b)
    (hc : ∀ b, b < 128 → cp (2 * r) b = cp' (2 * r) b) {j : ℕ} (hj : j < 128) :
    cell Wih Whh bih bhh x hp cp r j = cell Wih Whh bih bhh x' hp' cp' r j := by
  unfold cell
  rw [gate_congr Wih Whh bih bhh hx hh, gate_congr Wih Whh bih bhh hx hh, gate_congr Wih Whh bih bhh hx hh, hc j hj]

theorem hidden_congr {x x' hp hp' cp cp' : Mat} {r : ℕ} (hx : ∀ k, k < 128 → x r k = x' r k)
    (hh : ∀ a, a < 2 → ∀ b, b < 128 → hp (2 * r + a) b = hp' (2 * r + a) b)
    (hc : ∀ b, b < 128 → cp (2 * r) b = cp' (2 * r) b) {j : ℕ} (hj : j < 128) :
    hidden Wih Whh bih bhh x hp cp r j = hidden Wih Whh bih bhh x' hp' cp' r j := by
  unfold hidden
  rw [gate_congr Wih Whh bih bhh hx hh, cell_congr Wih Whh bih bhh hx hh hc hj]

/-! A chunk of consecutive nodes: the update of nodes `base + r` reads rows `base + r` of the level and rows
    `2·base + a` of the level below. -/

theorem gate_shift (base : ℕ) (x hp : Mat) (r q : ℕ) :
    gate Wih Whh bih bhh (fun a k => x (base + a) k) (fun a b => hp (2 * base + a) b) r q
      = gate Wih Whh bih bhh x hp (base + r) q := by
  unfold gate
  have e2 : (∑ k : Fin 256, hp (2 * base + (2 * r + k.val / 128)) (k.val % 128) * Whh q k.val)
      = ∑ k : Fin 256, hp (2 * (base + r) + k.val / 128) (k.val % 128) * Whh q k.val :=
    Finset.sum_congr rfl fun k _ => by
      rw [show 2 * base + (2 * r + k.val / 128) = 2 * (base + r) + k.val / 128 by omega]
  rw [e2]

theorem cell_shift (base : ℕ) (x hp cp : Mat) (r j : ℕ) :
    cell Wih Whh bih bhh (fun a k => x (base + a) k) (fun a b => hp (2 * base + a) b) (fun a b => cp (2 * base + a) b) r j
      = cell Wih Whh bih bhh x hp cp (base + r) j := by
  unfold cell
  rw [gate_shift, gate_shift, gate_shift]
  show _ * cp (2 * base + 2 * r) j + _ = _
  rw [show 2 * base + 2 * r = 2 * (base + r) by omega]

theorem hidden_shift (base : ℕ) (x hp cp : Mat) (r j : ℕ) :
    hidden Wih Whh bih bhh (fun a k => x (base + a) k) (fun a b => hp (2 * base + a) b) (fun a b => cp (2 * base + a) b) r j
      = hidden Wih Whh bih bhh x hp cp (base + r) j := by
  unfold hidden
  rw [gate_shift, cell_shift]

variable (emb : Mat)

/-- The embedding rows of the level `s` steps above the leaves' parents: level d = 17 − s, whose node r is row 2^d − 1 + r. -/
def rowsOf (s : ℕ) : Mat := fun r k => emb (2 ^ (17 - s) - 1 + r) k

/-- Hidden and cell states `s` levels above the leaves: zero at the leaves, one cell update per level. -/
def states : ℕ → Mat × Mat
  | 0 => (fun _ _ => 0, fun _ _ => 0)
  | s + 1 => (hidden Wih Whh bih bhh (rowsOf emb s) (states s).1 (states s).2,
              cell Wih Whh bih bhh (rowsOf emb s) (states s).1 (states s).2)

/-- One level up: the hidden states are the cell update's hidden output of the level below. -/
theorem states_fst (s r j : ℕ) : (states Wih Whh bih bhh emb (s + 1)).1 r j
    = hidden Wih Whh bih bhh (rowsOf emb s) (states Wih Whh bih bhh emb s).1 (states Wih Whh bih bhh emb s).2 r j := rfl

/-- One level up: the cell states. -/
theorem states_snd (s r j : ℕ) : (states Wih Whh bih bhh emb (s + 1)).2 r j
    = cell Wih Whh bih bhh (rowsOf emb s) (states Wih Whh bih bhh emb s).1 (states Wih Whh bih bhh emb s).2 r j := rfl

/-- At the leaves both states are zero. -/
theorem states_zero_fst (r j : ℕ) : (states Wih Whh bih bhh emb 0).1 r j = 0 := rfl
theorem states_zero_snd (r j : ℕ) : (states Wih Whh bih bhh emb 0).2 r j = 0 := rfl

/-- The level's embedding rows, spelt out. -/
theorem rowsOf_apply (s r k : ℕ) : rowsOf emb s r k = emb (2 ^ (17 - s) - 1 + r) k := rfl

/-- The result: the root's hidden state in columns 0–127, its cell state in columns 128–255. -/
def root (j : ℕ) : EReal :=
  if j < 128 then (states Wih Whh bih bhh emb 18).1 0 j else (states Wih Whh bih bhh emb 18).2 0 (j - 128)

end Cell

end Cert.TreeCell

end
-- ==== Proof.LibPlainDot.lean ====
/-
  A plain matrix product read at an index (program-independent; imports only the library).

  For the dimension numbers of an ordinary product of an `[M, K]` matrix by a `[K, N]` matrix — the left operand's
  second axis contracted with the right operand's first, no batch axis — the contraction index is one coordinate
  `k : Fin K`, the left operand is read at `(r, k)` and the right one at `(k, j)`. So at the ideal values both the
  kernel's matrix product into a zero accumulator and the host's general product are, at `(r, j)`, the sum over `k` of
  the products of the entries `(r, k)` and `(k, j)`.
-/
import Idealize.ShloMosaic.Lib.ValueIdx
import Idealize.ShloMosaic.PureOps.Ideal.Laws

noncomputable section

namespace Cert.PlainDot

open Idealize.ShloMosaic Idealize.ShloMosaic.ValueIdx

/-- The contraction index of a plain product is its one coordinate. -/
abbrev contrFin (M K N : ℕ) : (DotDims.plain M K N).contr.Idx ≃ Fin K :=
  contrEquiv1 (DotDims.plain M K N) K rfl rfl

/-- At output `(r, j)` and contraction coordinate `k` the left operand is read at `(r, k)`. -/
theorem lhsIdx_plain (M K N : ℕ) (r : Fin M) (j : Fin N) (k : Fin K) :
    (DotDims.plain M K N).lhsIdx (ix2 r j) ((contrFin M K N).symm k) = ix2 r k := by
  funext a; apply Fin.ext
  match a with
  | ⟨0, _⟩ => rfl
  | ⟨1, _⟩ =>
    refine ((DotDims.plain M K N).lhsIdx_val_of_single (cl := (1 : Fin 2)) rfl (ix2 r j) _).trans ?_
    exact contrEquiv1_symm_val (DotDims.plain M K N) K rfl rfl k

/-- At output `(r, j)` and contraction coordinate `k` the right operand is read at `(k, j)`. -/
theorem rhsIdx_plain (M K N : ℕ) (r : Fin M) (j : Fin N) (k : Fin K) :
    (DotDims.plain M K N).rhsIdx (ix2 r j) ((contrFin M K N).symm k) = ix2 k j := by
  funext a; apply Fin.ext
  match a with
  | ⟨0, _⟩ =>
    refine ((DotDims.plain M K N).rhsIdx_val_of_single (cr := (0 : Fin 2)) rfl (ix2 r j) _).trans ?_
    exact contrEquiv1_symm_val (DotDims.plain M K N) K rfl rfl k
  | ⟨1, _⟩ => rfl

/-- The contraction's sum of a plain product at `(r, j)`, over the coordinate `k`. -/
theorem sum_plain {M K N : ℕ} (L : (⟨2, ![M, K]⟩ : Shape).Idx → EReal) (R : (⟨2, ![K, N]⟩ : Shape).Idx → EReal)
    (r : Fin M) (j : Fin N) :
    (∑ q : (DotDims.plain M K N).contr.Idx,
        L ((DotDims.plain M K N).lhsIdx (ix2 r j) q) * R ((DotDims.plain M K N).rhsIdx (ix2 r j) q))
      = ∑ k : Fin K, L (ix2 r k) * R (ix2 k j) := by
  rw [← Equiv.sum_comp (contrFin M K N).symm]
  exact Finset.sum_congr rfl fun k _ => by rw [lhsIdx_plain, rhsIdx_plain]

/-- At the ideal values the kernel's matrix product into the zero accumulator, read at `(r, j)`. -/
theorem matmul_plain_apply {M K N : ℕ} {φ₁ φ₂ : FTy} (prec : Option ContractPrecision)
    (lhs : FVec Ideal ⟨2, ![M, K]⟩ φ₁) (rhs : FVec Ideal ⟨2, ![K, N]⟩ φ₂) (r : Fin M) (j : Fin N) :
    FloatOps.matmul (DotDims.plain M K N) prec lhs rhs (constant ⟨2, ![M, N]⟩ .f32 0x00000000#32) (ix2 r j)
      = ∑ k : Fin K, lhs (ix2 r k) * rhs (ix2 k j) :=
  (Ideal.matmul_constant_zero_apply _ prec lhs rhs (ix2 r j)).trans (sum_plain lhs rhs r j)

/-- At the ideal values the host's general product, read at `(r, j)`. -/
theorem dotGeneral_plain_apply {M K N : ℕ} {φ₁ φ₂ : FTy} (prec : Option ContractPrecision) (sched : HostSchedule)
    (lhs : FVec Ideal ⟨2, ![M, K]⟩ φ₁) (rhs : FVec Ideal ⟨2, ![K, N]⟩ φ₂) (r : Fin M) (j : Fin N) :
    FloatOps.dotGeneral (DotDims.plain M K N) prec sched lhs rhs (ix2 r j)
      = ∑ k : Fin K, lhs (ix2 r k) * rhs (ix2 k j) :=
  (Ideal.dotGeneral_apply _ prec sched lhs rhs (ix2 r j)).trans (sum_plain lhs rhs r j)

end Cert.PlainDot

end
-- ==== Proof.HostLevel.lean ====
/-
  One level of the tree computed by host operations, read at an index.

  Both programs compute the shallow levels of the tree with the same host operations: two general matrix products
  (the level's embedding rows by the transposed input weights; the children's hidden states, two rows side by side,
  by the transposed hidden weights), the two biases broadcast along the rows, four column slices of width 256 (the
  gates), the sigmoid spelt as 1 / (1 + exp (−x)), tanh, products and sums. Here those operations are composed for a
  level of any number `n` of nodes, and read at an index: gate `q` of node `r` is the specification's `gate`, and the
  new cell and hidden states in a column `j < 128` are the specification's `cell` and `hidden`. On the extended reals
  the sigmoid's spelling IS the logistic function (its definition), so no law beyond reading each operation at an
  index is needed.
-/
import proofs.«177989_j29394756173864_2_alg».proof.Proof.Spec
import proofs.«177989_j29394756173864_2_alg».proof.Proof.LibPlainDot
import Idealize.ShloMosaic.Lib.Pipeline.Value
import Idealize.ShloMosaic.Lib.ValueIdx
import Idealize.ShloMosaic.PureOps.Ideal.Laws

noncomputable section

namespace Cert.HostLevel

open Idealize.ShloMosaic Idealize.ShloMosaic.ValueIdx Cert.TreeCell Cert.PlainDot

/-- The float word 0x3F800000 is the number one. -/
theorem one_f32 : Ideal.ofBits .f32 0x3F800000#32 = 1 := by
  simp [Ideal.ofBits, Ideal.ieee, -EReal.coe_mul]; norm_num

/-! ## Layout operations of these shapes, read at an index -/

/-- The transpose of an [A, B] matrix at (b, a) is the matrix at (a, b). -/
theorem transpose_ix2 {A B : ℕ} (W : (⟨2, ![A, B]⟩ : Shape).Idx → EReal)
    (h : (⟨2, ![A, B]⟩ : Shape).Transposes [1, 0] ⟨2, ![B, A]⟩) (b : Fin B) (a : Fin A) :
    transpose ⟨2, ![B, A]⟩ [1, 0] W h (ix2 b a) = W (ix2 a b) :=
  transpose_apply [1, 0] W h (ix2 b a) (ix2 a b) (fun c => by match c with | ⟨0, _⟩ => rfl | ⟨1, _⟩ => rfl)

/-- A [1024] vector broadcast to the row [1, 1024] and then along `n` rows, at (r, q), is the vector at q. -/
theorem bias_apply {n : ℕ} (v : (⟨1, ![1024]⟩ : Shape).Idx → EReal)
    (hB1 : (⟨1, ![1024]⟩ : Shape).BroadcastsInDim ⟨2, ![1, 1024]⟩ ![1])
    (hB2 : (⟨2, ![1, 1024]⟩ : Shape).BroadcastsInDim ⟨2, ![n, 1024]⟩ ![0, 1]) (r : Fin n) (q : Fin 1024) :
    broadcastInDim ⟨2, ![n, 1024]⟩ ![0, 1] hB2 (broadcastInDim ⟨2, ![1, 1024]⟩ ![1] hB1 v) (ix2 r q) = v (ix1 q) := by
  rw [broadcastInDim_apply ![0, 1] hB2 _ (ix2 r q) (ix2 (0 : Fin 1) q)
      (fun a => by match a with | ⟨0, _⟩ => rfl | ⟨1, _⟩ => rfl),
    broadcastInDim_apply ![1] hB1 v (ix2 (0 : Fin 1) q) (ix1 q) (fun a => by match a with | ⟨0, _⟩ => rfl)]

/-- Two rows of width 128 read side by side as one row of width 256: entry (r, k) of the [n, 256] view of a [2n, 128]
    array is entry (2r + k / 128, k mod 128). -/
theorem pair_apply {n : ℕ} (hp : (⟨2, ![2 * n, 128]⟩ : Shape).Idx → EReal)
    (hC : (⟨2, ![2 * n, 128]⟩ : Shape).ShapeCasts ⟨2, ![n, 256]⟩) (r : Fin n) (k : Fin 256) :
    shapeCast ⟨2, ![n, 256]⟩ hp hC (ix2 r k)
      = hp (ix2 ⟨2 * r.val + k.val / 128, by have := r.isLt; have := k.isLt; omega⟩ ⟨k.val % 128, Nat.mod_lt _ (by decide)⟩) := by
  refine shapeCast_apply hp hC (ix2 r k) _ ?_
  rw [Shape.rowMajor_val_two, Shape.rowMajor_val_two]
  show (2 * r.val + k.val / 128) * 128 + k.val % 128 = r.val * 256 + k.val
  have := Nat.div_add_mod k.val 128
  omega

/-- A column slice of width `w` at column offset `o` of an [n, 1024] matrix, at (r, j), is the matrix at (r, o + j). -/
theorem cols_apply {n w : ℕ} (o : ℕ) (G : (⟨2, ![n, 1024]⟩ : Shape).Idx → EReal)
    (h : (⟨2, ![n, 1024]⟩ : Shape).Slices ![0, o] ⟨2, ![n, w]⟩) (ho : o + w ≤ 1024) (r : Fin n) (j : Fin w) :
    extractStridedSlice ⟨2, ![n, w]⟩ ![0, o] G h (ix2 r j) = G (ix2 r ⟨o + j.val, by have := j.isLt; omega⟩) :=
  extractStridedSlice_apply ![0, o] G h (ix2 r j) _ (fun a => by
    match a with
    | ⟨0, _⟩ => show r.val = 0 + r.val; omega
    | ⟨1, _⟩ => rfl)

/-- The first 128 columns of an [n, 256] matrix, at (r, j). -/
theorem left_apply {n : ℕ} (C : (⟨2, ![n, 256]⟩ : Shape).Idx → EReal)
    (h : (⟨2, ![n, 256]⟩ : Shape).Slices ![0, 0] ⟨2, ![n, 128]⟩) (r : Fin n) (j : Fin 128) :
    extractStridedSlice ⟨2, ![n, 128]⟩ ![0, 0] C h (ix2 r j) = C (ix2 r ⟨j.val, by have := j.isLt; omega⟩) :=
  extractStridedSlice_apply ![0, 0] C h (ix2 r j) _ (fun a => by
    match a with
    | ⟨0, _⟩ => show r.val = 0 + r.val; omega
    | ⟨1, _⟩ => show j.val = 0 + j.val; omega)

/-- The constant one broadcast to any shape, at any index. -/
theorem ones_apply {t : Shape} (hB : (⟨0, ![]⟩ : Shape).BroadcastsInDim t ![]) (i : t.Idx) :
    broadcastInDim t ![] hB (constant (F := Ideal) ⟨0, ![]⟩ .f32 0x3F800000#32) i = 1 := by
  rw [broadcastInDim_apply ![] hB _ i ix0 (fun a => a.elim0)]
  exact one_f32

/-- The host's spelling of the sigmoid, 1 / (1 + exp (−x)) with the ones broadcast constants, is the logistic function. -/
theorem sigmoid_apply {t : Shape} (hB : (⟨0, ![]⟩ : Shape).BroadcastsInDim t ![]) (x : FVec Ideal t .f32) (i : t.Idx) :
    Host.divf (broadcastInDim t ![] hB (constant (F := Ideal) ⟨0, ![]⟩ .f32 0x3F800000#32))
        (addf (broadcastInDim t ![] hB (constant (F := Ideal) ⟨0, ![]⟩ .f32 0x3F800000#32)) (Host.exp (Host.negf x))) i
      = Ideal.logistic (x i) := by
  show Ideal.div (broadcastInDim t ![] hB (constant (F := Ideal) ⟨0, ![]⟩ .f32 0x3F800000#32) i)
      (broadcastInDim t ![] hB (constant (F := Ideal) ⟨0, ![]⟩ .f32 0x3F800000#32) i + Ideal.exp (-(x i))) = _
  rw [ones_apply]
  rfl

/-! ## The gates -/

section Level

variable {n : ℕ}
  (hT1 : (⟨2, ![1024, 128]⟩ : Shape).Transposes [1, 0] ⟨2, ![128, 1024]⟩)
  (hT2 : (⟨2, ![1024, 256]⟩ : Shape).Transposes [1, 0] ⟨2, ![256, 1024]⟩)
  (hB1 : (⟨1, ![1024]⟩ : Shape).BroadcastsInDim ⟨2, ![1, 1024]⟩ ![1])
  (hB2 : (⟨2, ![1, 1024]⟩ : Shape).BroadcastsInDim ⟨2, ![n, 1024]⟩ ![0, 1])
  (hC : (⟨2, ![2 * n, 128]⟩ : Shape).ShapeCasts ⟨2, ![n, 256]⟩)
  (x : FVec Ideal ⟨2, ![n, 128]⟩ .f32) (hp cp : FVec Ideal ⟨2, ![2 * n, 128]⟩ .f32)
  (Wih : FVec Ideal ⟨2, ![1024, 128]⟩ .f32) (Whh : FVec Ideal ⟨2, ![1024, 256]⟩ .f32)
  (bih bhh : FVec Ideal ⟨1, ![1024]⟩ .f32)

/-- The level's gate pre-activations as the host computes them: ((x · W_ihᵀ + b_ih) + [h h] · W_hhᵀ) + b_hh. -/
def gatesT : FVec Ideal ⟨2, ![n, 1024]⟩ .f32 :=
  addf (addf (addf (Host.dotGeneral (DotDims.plain n 128 1024) none x (transpose ⟨2, ![128, 1024]⟩ [1, 0] Wih hT1))
      (broadcastInDim ⟨2, ![n, 1024]⟩ ![0, 1] hB2 (broadcastInDim ⟨2, ![1, 1024]⟩ ![1] hB1 bih)))
    (Host.dotGeneral (DotDims.plain n 256 1024) none (shapeCast ⟨2, ![n, 256]⟩ hp hC) (transpose ⟨2, ![256, 1024]⟩ [1, 0] Whh hT2)))
    (broadcastInDim ⟨2, ![n, 1024]⟩ ![0, 1] hB2 (broadcastInDim ⟨2, ![1, 1024]⟩ ![1] hB1 bhh))

/-- Gate `q` of node `r`, as the host computes it, is the specification's. -/
theorem gatesT_apply (r : Fin n) (q : Fin 1024) :
    gatesT hT1 hT2 hB1 hB2 hC x hp Wih Whh bih bhh (ix2 r q)
      = gate (ofArr Wih) (ofArr Whh) (ofVec bih) (ofVec bhh) (ofArr x) (ofArr hp) r.val q.val := by
  unfold gatesT gate
  simp only [addf_apply, Host.dotGeneral]
  rw [dotGeneral_plain_apply, dotGeneral_plain_apply, bias_apply, bias_apply, ofVec_apply, ofVec_apply]
  refine congrArg₂ (· + ·) (congrArg₂ (· + ·) (congrArg₂ (· + ·) ?_ rfl) ?_) rfl
  · exact Finset.sum_congr rfl fun k _ => by rw [transpose_ix2, ofArr_apply, ofArr_apply]
  · exact Finset.sum_congr rfl fun k _ => by
      rw [pair_apply, transpose_ix2, ofArr_apply]
      exact congrArg (· * _) (ofArr_apply hp ⟨2 * r.val + k.val / 128, by have := r.isLt; have := k.isLt; omega⟩
        ⟨k.val % 128, Nat.mod_lt _ (by decide)⟩).symm

/-- The root level's gates (one node): the same, with each bias broadcast once, to the single row. -/
def gatesT1 (hC1 : (⟨2, ![2, 128]⟩ : Shape).ShapeCasts ⟨2, ![1, 256]⟩)
    (x1 : FVec Ideal ⟨2, ![1, 128]⟩ .f32) (hp1 : FVec Ideal ⟨2, ![2, 128]⟩ .f32) : FVec Ideal ⟨2, ![1, 1024]⟩ .f32 :=
  addf (addf (addf (Host.dotGeneral (DotDims.plain 1 128 1024) none x1 (transpose ⟨2, ![128, 1024]⟩ [1, 0] Wih hT1))
      (broadcastInDim ⟨2, ![1, 1024]⟩ ![1] hB1 bih))
    (Host.dotGeneral (DotDims.plain 1 256 1024) none (shapeCast ⟨2, ![1, 256]⟩ hp1 hC1) (transpose ⟨2, ![256, 1024]⟩ [1, 0] Whh hT2)))
    (broadcastInDim ⟨2, ![1, 1024]⟩ ![1] hB1 bhh)

/-- A [1024] vector broadcast to the row [1, 1024], at (0, q), is the vector at q. -/
theorem bias1_apply (v : (⟨1, ![1024]⟩ : Shape).Idx → EReal)
    (hB1 : (⟨1, ![1024]⟩ : Shape).BroadcastsInDim ⟨2, ![1, 1024]⟩ ![1]) (r : Fin 1) (q : Fin 1024) :
    broadcastInDim ⟨2, ![1, 1024]⟩ ![1] hB1 v (ix2 r q) = v (ix1 q) :=
  broadcastInDim_apply ![1] hB1 v (ix2 r q) (ix1 q) (fun a => by match a with | ⟨0, _⟩ => rfl)

/-- Gate `q` of the root, as the host computes it, is the specification's. -/
theorem gatesT1_apply (hC1 : (⟨2, ![2 * 1, 128]⟩ : Shape).ShapeCasts ⟨2, ![1, 256]⟩)
    (x1 : FVec Ideal ⟨2, ![1, 128]⟩ .f32) (hp1 : FVec Ideal ⟨2, ![2 * 1, 128]⟩ .f32) (r : Fin 1) (q : Fin 1024) :
    gatesT1 hT1 hT2 hB1 Wih Whh bih bhh hC1 x1 hp1 (ix2 r q)
      = gate (ofArr Wih) (ofArr Whh) (ofVec bih) (ofVec bhh) (ofArr x1) (ofArr hp1) r.val q.val := by
  unfold gatesT1 gate
  simp only [addf_apply, Host.dotGeneral]
  rw [dotGeneral_plain_apply, dotGeneral_plain_apply, bias1_apply, bias1_apply, ofVec_apply, ofVec_apply]
  refine congrArg₂ (· + ·) (congrArg₂ (· + ·) (congrArg₂ (· + ·) ?_ rfl) ?_) rfl
  · exact Finset.sum_congr rfl fun k _ => by rw [transpose_ix2, ofArr_apply, ofArr_apply]
  · exact Finset.sum_congr rfl fun k _ => by
      rw [pair_apply (n := 1), transpose_ix2, ofArr_apply]
      exact congrArg (· * _) (ofArr_apply hp1 ⟨2 * r.val + k.val / 128, by have := r.isLt; have := k.isLt; omega⟩
        ⟨k.val % 128, Nat.mod_lt _ (by decide)⟩).symm

/-! ## The cell and hidden states -/

variable (hO : (⟨0, ![]⟩ : Shape).BroadcastsInDim ⟨2, ![n, 256]⟩ ![])
  (hS0 : (⟨2, ![n, 1024]⟩ : Shape).Slices ![0, 0] ⟨2, ![n, 256]⟩)
  (hS1 : (⟨2, ![n, 1024]⟩ : Shape).Slices ![0, 256] ⟨2, ![n, 256]⟩)
  (hS2 : (⟨2, ![n, 1024]⟩ : Shape).Slices ![0, 512] ⟨2, ![n, 256]⟩)
  (hS3 : (⟨2, ![n, 1024]⟩ : Shape).Slices ![0, 768] ⟨2, ![n, 256]⟩)
  (hL : (⟨2, ![n, 256]⟩ : Shape).Slices ![0, 0] ⟨2, ![n, 128]⟩)
  (G : FVec Ideal ⟨2, ![n, 1024]⟩ .f32)

/-- The constant one broadcast over an [n, 256] matrix. -/
abbrev ones : FVec Ideal ⟨2, ![n, 256]⟩ .f32 :=
  broadcastInDim ⟨2, ![n, 256]⟩ ![] hO (constant (F := Ideal) ⟨0, ![]⟩ .f32 0x3F800000#32)

/-- The new cell states over all 256 columns, from the gates `G`: σ(forget) · c + σ(input) · tanh(candidate). -/
def cellT : FVec Ideal ⟨2, ![n, 256]⟩ .f32 :=
  addf (mulf (Host.divf (ones hO) (addf (ones hO) (Host.exp (Host.negf (extractStridedSlice ⟨2, ![n, 256]⟩ ![0, 256] G hS1)))))
      (shapeCast ⟨2, ![n, 256]⟩ cp hC))
    (mulf (Host.divf (ones hO) (addf (ones hO) (Host.exp (Host.negf (extractStridedSlice ⟨2, ![n, 256]⟩ ![0, 0] G hS0)))))
      (Host.tanh (extractStridedSlice ⟨2, ![n, 256]⟩ ![0, 512] G hS2)))

/-- The new hidden states over all 256 columns: σ(output) · tanh(new cell). -/
def hiddenT (C : FVec Ideal ⟨2, ![n, 256]⟩ .f32) : FVec Ideal ⟨2, ![n, 256]⟩ .f32 :=
  mulf (Host.divf (ones hO) (addf (ones hO) (Host.exp (Host.negf (extractStridedSlice ⟨2, ![n, 256]⟩ ![0, 768] G hS3)))))
    (Host.tanh C)

/-- The kept (first 128) columns of the new cell states, at (r, j): the specification's cell update, for gates that
    are the specification's at row `r`. -/
theorem cellT_apply (x' hp' : Mat) (r : Fin n)
    (hG : ∀ q : Fin 1024, G (ix2 r q) = gate (ofArr Wih) (ofArr Whh) (ofVec bih) (ofVec bhh) x' hp' r.val q.val) (j : Fin 128) :
    extractStridedSlice ⟨2, ![n, 128]⟩ ![0, 0] (cellT hC cp hO hS0 hS1 hS2 G) hL (ix2 r j)
      = cell (ofArr Wih) (ofArr Whh) (ofVec bih) (ofVec bhh) x' hp' (ofArr cp) r.val j.val := by
  have h1 : j.val / 128 = 0 := Nat.div_eq_of_lt j.isLt
  have h2 : j.val % 128 = j.val := Nat.mod_eq_of_lt j.isLt
  have hc : cp (ix2 ⟨2 * r.val + j.val / 128, by have := r.isLt; omega⟩ ⟨j.val % 128, Nat.mod_lt _ (by decide)⟩)
      = ofArr cp (2 * r.val) j.val := by
    refine (ofArr_apply cp ⟨2 * r.val + j.val / 128, by have := r.isLt; omega⟩ ⟨j.val % 128, Nat.mod_lt _ (by decide)⟩).symm.trans ?_
    show ofArr cp (2 * r.val + j.val / 128) (j.val % 128) = _
    rw [h1, h2, Nat.add_zero]
  rw [left_apply]
  unfold cellT cell
  simp only [addf_apply, mulf_apply]
  rw [sigmoid_apply, sigmoid_apply, pair_apply]
  show Ideal.logistic (extractStridedSlice ⟨2, ![n, 256]⟩ ![0, 256] G hS1 (ix2 r ⟨j.val, _⟩)) * cp (ix2 _ _)
      + Ideal.logistic (extractStridedSlice ⟨2, ![n, 256]⟩ ![0, 0] G hS0 (ix2 r ⟨j.val, _⟩))
        * Ideal.tanh (extractStridedSlice ⟨2, ![n, 256]⟩ ![0, 512] G hS2 (ix2 r ⟨j.val, _⟩)) = _
  rw [cols_apply 256 G hS1 (by decide), cols_apply 0 G hS0 (by decide), cols_apply 512 G hS2 (by decide), hG, hG, hG, hc]
  show _ = Ideal.logistic (gate _ _ _ _ x' hp' r.val (256 + j.val)) * _ + Ideal.logistic (gate _ _ _ _ x' hp' r.val j.val) * _
  simp only [Nat.zero_add]

/-- The kept columns of the new hidden states, at (r, j): the specification's, for gates and cell states that are the
    specification's at row `r`. -/
theorem hiddenT_apply (x' hp' cp' : Mat) (C : FVec Ideal ⟨2, ![n, 256]⟩ .f32) (r : Fin n)
    (hG : ∀ q : Fin 1024, G (ix2 r q) = gate (ofArr Wih) (ofArr Whh) (ofVec bih) (ofVec bhh) x' hp' r.val q.val) (j : Fin 128)
    (hCj : C (ix2 r ⟨j.val, by have := j.isLt; omega⟩) = cell (ofArr Wih) (ofArr Whh) (ofVec bih) (ofVec bhh) x' hp' cp' r.val j.val) :
    extractStridedSlice ⟨2, ![n, 128]⟩ ![0, 0] (hiddenT hO hS3 G C) hL (ix2 r j)
      = TreeCell.hidden (ofArr Wih) (ofArr Whh) (ofVec bih) (ofVec bhh) x' hp' cp' r.val j.val := by
  rw [left_apply]
  unfold hiddenT TreeCell.hidden
  simp only [mulf_apply]
  rw [sigmoid_apply]
  show Ideal.logistic (extractStridedSlice ⟨2, ![n, 256]⟩ ![0, 768] G hS3 (ix2 r ⟨j.val, _⟩)) * Ideal.tanh (C (ix2 r ⟨j.val, _⟩)) = _
  rw [cols_apply 768 G hS3 (by decide), hG, hCj]

/-! ## One level: from the states of the level below to this level's states -/

/-- If the level's embedding block, and the hidden and cell arrays of the level below, are `x'`, `hp'`, `cp'` entry by
    entry, the host's new hidden and cell arrays (kept columns) are the specification's update of `x'`, `hp'`, `cp'`. -/
theorem level_step (x' hp' cp' : Mat)
    (hx : ∀ (r : Fin n) (k : Fin 128), x (ix2 r k) = x' r.val k.val)
    (hh : ∀ (a : Fin (2 * n)) (b : Fin 128), hp (ix2 a b) = hp' a.val b.val)
    (hc : ∀ (a : Fin (2 * n)) (b : Fin 128), cp (ix2 a b) = cp' a.val b.val) (r : Fin n) (j : Fin 128) :
    extractStridedSlice ⟨2, ![n, 128]⟩ ![0, 0]
        (hiddenT hO hS3 (gatesT hT1 hT2 hB1 hB2 hC x hp Wih Whh bih bhh)
          (cellT hC cp hO hS0 hS1 hS2 (gatesT hT1 hT2 hB1 hB2 hC x hp Wih Whh bih bhh))) hL (ix2 r j)
        = TreeCell.hidden (ofArr Wih) (ofArr Whh) (ofVec bih) (ofVec bhh) x' hp' cp' r.val j.val
      ∧ extractStridedSlice ⟨2, ![n, 128]⟩ ![0, 0]
          (cellT hC cp hO hS0 hS1 hS2 (gatesT hT1 hT2 hB1 hB2 hC x hp Wih Whh bih bhh)) hL (ix2 r j)
        = cell (ofArr Wih) (ofArr Whh) (ofVec bih) (ofVec bhh) x' hp' cp' r.val j.val := by
  have ex : ∀ k, k < 128 → ofArr x r.val k = x' r.val k := fun k hk =>
    (ofArr_apply x r ⟨k, hk⟩).trans (hx r ⟨k, hk⟩)
  have eh : ∀ a, a < 2 → ∀ b, b < 128 → ofArr hp (2 * r.val + a) b = hp' (2 * r.val + a) b := fun a ha b hb =>
    (ofArr_apply hp ⟨2 * r.val + a, by have := r.isLt; omega⟩ ⟨b, hb⟩).trans (hh _ _)
  have ec : ∀ b, b < 128 → ofArr cp (2 * r.val) b = cp' (2 * r.val) b := fun b hb =>
    (ofArr_apply cp ⟨2 * r.val, by have := r.isLt; omega⟩ ⟨b, hb⟩).trans (hc _ _)
  have hG : ∀ q : Fin 1024, gatesT hT1 hT2 hB1 hB2 hC x hp Wih Whh bih bhh (ix2 r q)
      = gate (ofArr Wih) (ofArr Whh) (ofVec bih) (ofVec bhh) x' hp' r.val q.val := fun q =>
    (gatesT_apply hT1 hT2 hB1 hB2 hC x hp Wih Whh bih bhh r q).trans (gate_congr _ _ _ _ ex eh q.val)
  have hCell : extractStridedSlice ⟨2, ![n, 128]⟩ ![0, 0]
      (cellT hC cp hO hS0 hS1 hS2 (gatesT hT1 hT2 hB1 hB2 hC x hp Wih Whh bih bhh)) hL (ix2 r j)
      = cell (ofArr Wih) (ofArr Whh) (ofVec bih) (ofVec bhh) x' hp' cp' r.val j.val :=
    (cellT_apply hC cp Wih Whh bih bhh hO hS0 hS1 hS2 hL _ x' hp' r hG j).trans
      (cell_congr _ _ _ _ (fun _ _ => rfl) (fun _ _ _ _ => rfl) ec j.isLt)
  refine ⟨?_, hCell⟩
  refine hiddenT_apply Wih Whh bih bhh hO hS3 hL _ x' hp' cp' _ r hG j ?_
  exact (left_apply _ hL r j).symm.trans hCell

/-- The same for the root level (one node), whose gates broadcast each bias once. -/
theorem level_step1 (hC1 : (⟨2, ![2 * 1, 128]⟩ : Shape).ShapeCasts ⟨2, ![1, 256]⟩)
    (hO1 : (⟨0, ![]⟩ : Shape).BroadcastsInDim ⟨2, ![1, 256]⟩ ![])
    (hR0 : (⟨2, ![1, 1024]⟩ : Shape).Slices ![0, 0] ⟨2, ![1, 256]⟩)
    (hR1 : (⟨2, ![1, 1024]⟩ : Shape).Slices ![0, 256] ⟨2, ![1, 256]⟩)
    (hR2 : (⟨2, ![1, 1024]⟩ : Shape).Slices ![0, 512] ⟨2, ![1, 256]⟩)
    (hR3 : (⟨2, ![1, 1024]⟩ : Shape).Slices ![0, 768] ⟨2, ![1, 256]⟩)
    (hL1 : (⟨2, ![1, 256]⟩ : Shape).Slices ![0, 0] ⟨2, ![1, 128]⟩)
    (x1 : FVec Ideal ⟨2, ![1, 128]⟩ .f32) (hp1 cp1 : FVec Ideal ⟨2, ![2 * 1, 128]⟩ .f32) (x' hp' cp' : Mat)
    (hx : ∀ (r : Fin 1) (k : Fin 128), x1 (ix2 r k) = x' r.val k.val)
    (hh : ∀ (a : Fin (2 * 1)) (b : Fin 128), hp1 (ix2 a b) = hp' a.val b.val)
    (hc : ∀ (a : Fin (2 * 1)) (b : Fin 128), cp1 (ix2 a b) = cp' a.val b.val) (r : Fin 1) (j : Fin 128) :
    extractStridedSlice ⟨2, ![1, 128]⟩ ![0, 0]
        (hiddenT hO1 hR3 (gatesT1 hT1 hT2 hB1 Wih Whh bih bhh hC1 x1 hp1)
          (cellT hC1 cp1 hO1 hR0 hR1 hR2 (gatesT1 hT1 hT2 hB1 Wih Whh bih bhh hC1 x1 hp1))) hL1 (ix2 r j)
        = TreeCell.hidden (ofArr Wih) (ofArr Whh) (ofVec bih) (ofVec bhh) x' hp' cp' r.val j.val
      ∧ extractStridedSlice ⟨2, ![1, 128]⟩ ![0, 0]
          (cellT hC1 cp1 hO1 hR0 hR1 hR2 (gatesT1 hT1 hT2 hB1 Wih Whh bih bhh hC1 x1 hp1)) hL1 (ix2 r j)
        = cell (ofArr Wih) (ofArr Whh) (ofVec bih) (ofVec bhh) x' hp' cp' r.val j.val := by
  have ex : ∀ k, k < 128 → ofArr x1 r.val k = x' r.val k := fun k hk =>
    (ofArr_apply x1 r ⟨k, hk⟩).trans (hx r ⟨k, hk⟩)
  have eh : ∀ a, a < 2 → ∀ b, b < 128 → ofArr hp1 (2 * r.val + a) b = hp' (2 * r.val + a) b := fun a ha b hb =>
    (ofArr_apply hp1 ⟨2 * r.val + a, by have := r.isLt; omega⟩ ⟨b, hb⟩).trans (hh _ _)
  have ec : ∀ b, b < 128 → ofArr cp1 (2 * r.val) b = cp' (2 * r.val) b := fun b hb =>
    (ofArr_apply cp1 ⟨2 * r.val, by have := r.isLt; omega⟩ ⟨b, hb⟩).trans (hc _ _)
  have hG : ∀ q : Fin 1024, gatesT1 hT1 hT2 hB1 Wih Whh bih bhh hC1 x1 hp1 (ix2 r q)
      = gate (ofArr Wih) (ofArr Whh) (ofVec bih) (ofVec bhh) x' hp' r.val q.val := fun q =>
    (gatesT1_apply hT1 hT2 hB1 Wih Whh bih bhh hC1 x1 hp1 r q).trans (gate_congr _ _ _ _ ex eh q.val)
  have hCell : extractStridedSlice ⟨2, ![1, 128]⟩ ![0, 0]
      (cellT hC1 cp1 hO1 hR0 hR1 hR2 (gatesT1 hT1 hT2 hB1 Wih Whh bih bhh hC1 x1 hp1)) hL1 (ix2 r j)
      = cell (ofArr Wih) (ofArr Whh) (ofVec bih) (ofVec bhh) x' hp' cp' r.val j.val :=
    (cellT_apply hC1 cp1 Wih Whh bih bhh hO1 hR0 hR1 hR2 hL1 _ x' hp' r hG j).trans
      (cell_congr _ _ _ _ (fun _ _ => rfl) (fun _ _ _ _ => rfl) ec j.isLt)
  refine ⟨?_, hCell⟩
  refine hiddenT_apply Wih Whh bih bhh hO1 hR3 hL1 _ x' hp' cp' _ r hG j ?_
  exact (left_apply _ hL1 r j).symm.trans hCell

end Level

/-! ## The level's embedding rows, and the leaves -/

/-- Rows `o … o + n − 1` of the embedding array, at (r, k), are the array at (o + r, k). -/
theorem rows_apply {n : ℕ} (o : ℕ) (E : (⟨2, ![262143, 128]⟩ : Shape).Idx → EReal)
    (h : (⟨2, ![262143, 128]⟩ : Shape).Slices ![o, 0] ⟨2, ![n, 128]⟩) (ho : o + n ≤ 262143) (r : Fin n) (k : Fin 128) :
    extractStridedSlice ⟨2, ![n, 128]⟩ ![o, 0] E h (ix2 r k) = ofArr E (o + r.val) k.val := by
  rw [extractStridedSlice_apply ![o, 0] E h (ix2 r k) (ix2 ⟨o + r.val, by have := r.isLt; omega⟩ k) (fun a => by
    match a with
    | ⟨0, _⟩ => rfl
    | ⟨1, _⟩ => show k.val = 0 + k.val; omega)]
  exact (ofArr_apply E ⟨o + r.val, by have := r.isLt; omega⟩ k).symm

/-- The zero constant broadcast to any shape, at any index, is zero: the leaves' states. -/
theorem zeros_apply {t : Shape} (hB : (⟨0, ![]⟩ : Shape).BroadcastsInDim t ![]) (i : t.Idx) :
    broadcastInDim t ![] hB (constant (F := Ideal) ⟨0, ![]⟩ .f32 0x00000000#32) i = 0 := by
  rw [broadcastInDim_apply ![] hB _ i ix0 (fun a => a.elim0)]
  exact Ideal.ofBits_zero_f32

/-! ## The result: the root's hidden and cell states side by side -/

/-- Two [1, 128] rows concatenated along the columns, at column `j`: the first row for j < 128, else the second at j − 128. -/
theorem sideBySide_apply (x₁ x₂ : (⟨2, ![1, 128]⟩ : Shape).Idx → EReal)
    (h : Shape.Concatenates [(⟨2, ![1, 128]⟩ : Shape), ⟨2, ![1, 128]⟩] ⟨2, ![1, 256]⟩ 1) (j : Fin 256) :
    concatenate ⟨2, ![1, 256]⟩ 1 [⟨⟨2, ![1, 128]⟩, x₁⟩, ⟨⟨2, ![1, 128]⟩, x₂⟩] h (ix2 (0 : Fin 1) j)
      = if hj : j.val < 128 then x₁ (ix2 0 ⟨j.val, hj⟩) else x₂ (ix2 0 ⟨j.val - 128, by have := j.isLt; omega⟩) := by
  by_cases hj : j.val < 128
  · rw [dif_pos hj]
    exact concatenate_pair_apply_left 1 x₁ x₂ h (ix2 0 j) rfl (ix2 0 ⟨j.val, hj⟩)
      (fun b => by match b with | ⟨0, _⟩ => rfl | ⟨1, _⟩ => rfl)
  · rw [dif_neg hj]
    exact concatenate_pair_apply_right 1 x₁ x₂ h (ix2 0 j) rfl rfl (ix2 0 ⟨j.val - 128, by have := j.isLt; omega⟩)
      (fun b hb => by match b with | ⟨0, _⟩ => rfl | ⟨1, _⟩ => exact absurd rfl hb)
      (by show j.val - 128 + 128 = j.val; omega)

/-- If the two rows are the specification's root states, their concatenation is the specification's result. -/
theorem result_root (Wih Whh : Mat) (bih bhh : ℕ → EReal) (emb : Mat)
    (x₁ x₂ : (⟨2, ![1, 128]⟩ : Shape).Idx → EReal)
    (h : Shape.Concatenates [(⟨2, ![1, 128]⟩ : Shape), ⟨2, ![1, 128]⟩] ⟨2, ![1, 256]⟩ 1)
    (h1 : ∀ (r : Fin 1) (b : Fin 128), x₁ (ix2 r b) = (states Wih Whh bih bhh emb 18).1 r.val b.val)
    (h2 : ∀ (r : Fin 1) (b : Fin 128), x₂ (ix2 r b) = (states Wih Whh bih bhh emb 18).2 r.val b.val) (j : Fin 256) :
    concatenate ⟨2, ![1, 256]⟩ 1 [⟨⟨2, ![1, 128]⟩, x₁⟩, ⟨⟨2, ![1, 128]⟩, x₂⟩] h (ix2 (0 : Fin 1) j)
      = root Wih Whh bih bhh emb j.val := by
  rw [sideBySide_apply]
  unfold root
  by_cases hj : j.val < 128
  · rw [dif_pos hj, if_pos hj]; exact h1 0 ⟨j.val, hj⟩
  · rw [dif_neg hj, if_neg hj]; exact h2 0 ⟨j.val - 128, by have := j.isLt; omega⟩

end Cert.HostLevel

end
-- ==== Proof.KI.TailValue.lean ====
/-
  The ten shallow levels, computed by the host lines after the region, and the result.

  Start the lines from any contents `W` whose two region results (the arrays of 1024 rows the region wrote) are the
  specification's hidden and cell states eight levels above the leaves. Each level's lines then compute the level
  step (Proof/HostLevel.lean) of the level below, leaving the five arguments alone; so after level j's lines its two
  result buffers are the specification's states 9 + j levels above the leaves, and after the last level and the
  concatenate the result buffer is the specification's root, column by column.
-/
import proofs.«177989_j29394756173864_2_alg».proof.Proof.KI.Tail.Cut
import proofs.«177989_j29394756173864_2_alg».proof.Proof.HostLevel

set_option maxRecDepth 16384

noncomputable section

namespace Cert.KernelIdeal.Fused

open Cert.KernelIdeal Cert.KernelIdeal.Gen
open Idealize.ShloMosaic Idealize.ShloMosaic.TcCoe Idealize.SL.Sem Idealize.ShloMosaic.StableHlo
open Idealize.ShloMosaic.ValueIdx Cert.TreeCell Cert.HostLevel

variable (W : Valuation τ sig (Elt Ideal))

/-- The five arguments, as the lines find them, read as the specification reads them. -/
abbrev tE : Mat := ofArr (N := 262143) (M := 128) (W (Proc.devRef .tc main_arg0))
abbrev tWih : Mat := ofArr (N := 1024) (M := 128) (W (Proc.devRef .tc main_arg1))
abbrev tWhh : Mat := ofArr (N := 1024) (M := 256) (W (Proc.devRef .tc main_arg2))
abbrev tbih : ℕ → EReal := ofVec (N := 1024) (W (Proc.devRef .tc main_arg3))
abbrev tbhh : ℕ → EReal := ofVec (N := 1024) (W (Proc.devRef .tc main_arg4))
/-- The specification's states `s` levels above the leaves, of these arguments. -/
abbrev tst (s : ℕ) : Mat × Mat := states (tWih W) (tWhh W) (tbih W) (tbhh W) (tE W) s

/-- The contents after the lines of the first levels. -/
def upto0 : Valuation τ sig (Elt Ideal) := W
def upto1 : Valuation τ sig (Elt Ideal) := after tail0 (upto0 W)
def upto2 : Valuation τ sig (Elt Ideal) := after tail1 (upto1 W)
def upto3 : Valuation τ sig (Elt Ideal) := after tail2 (upto2 W)
def upto4 : Valuation τ sig (Elt Ideal) := after tail3 (upto3 W)
def upto5 : Valuation τ sig (Elt Ideal) := after tail4 (upto4 W)
def upto6 : Valuation τ sig (Elt Ideal) := after tail5 (upto5 W)
def upto7 : Valuation τ sig (Elt Ideal) := after tail6 (upto6 W)
def upto8 : Valuation τ sig (Elt Ideal) := after tail7 (upto7 W)
def upto9 : Valuation τ sig (Elt Ideal) := after tail8 (upto8 W)
def upto10 : Valuation τ sig (Elt Ideal) := after tail9 (upto9 W)

/-! The lines leave the five arguments alone. -/
theorem arg0_0 : upto0 W (Proc.devRef .tc main_arg0) = (W (Proc.devRef .tc main_arg0)) := rfl
theorem arg0_1 : upto1 W (Proc.devRef .tc main_arg0) = (W (Proc.devRef .tc main_arg0)) :=
  (tail0_keep (upto0 W) main_arg0 (by decide)).trans (arg0_0 W)
theorem arg0_2 : upto2 W (Proc.devRef .tc main_arg0) = (W (Proc.devRef .tc main_arg0)) :=
  (tail1_keep (upto1 W) main_arg0 (by decide)).trans (arg0_1 W)
theorem arg0_3 : upto3 W (Proc.devRef .tc main_arg0) = (W (Proc.devRef .tc main_arg0)) :=
  (tail2_keep (upto2 W) main_arg0 (by decide)).trans (arg0_2 W)
theorem arg0_4 : upto4 W (Proc.devRef .tc main_arg0) = (W (Proc.devRef .tc main_arg0)) :=
  (tail3_keep (upto3 W) main_arg0 (by decide)).trans (arg0_3 W)
theorem arg0_5 : upto5 W (Proc.devRef .tc main_arg0) = (W (Proc.devRef .tc main_arg0)) :=
  (tail4_keep (upto4 W) main_arg0 (by decide)).trans (arg0_4 W)
theorem arg0_6 : upto6 W (Proc.devRef .tc main_arg0) = (W (Proc.devRef .tc main_arg0)) :=
  (tail5_keep (upto5 W) main_arg0 (by decide)).trans (arg0_5 W)
theorem arg0_7 : upto7 W (Proc.devRef .tc main_arg0) = (W (Proc.devRef .tc main_arg0)) :=
  (tail6_keep (upto6 W) main_arg0 (by decide)).trans (arg0_6 W)
theorem arg0_8 : upto8 W (Proc.devRef .tc main_arg0) = (W (Proc.devRef .tc main_arg0)) :=
  (tail7_keep (upto7 W) main_arg0 (by decide)).trans (arg0_7 W)
theorem arg0_9 : upto9 W (Proc.devRef .tc main_arg0) = (W (Proc.devRef .tc main_arg0)) :=
  (tail8_keep (upto8 W) main_arg0 (by decide)).trans (arg0_8 W)
theorem arg0_10 : upto10 W (Proc.devRef .tc main_arg0) = (W (Proc.devRef .tc main_arg0)) :=
  (tail9_keep (upto9 W) main_arg0 (by decide)).trans (arg0_9 W)
theorem arg1_0 : upto0 W (Proc.devRef .tc main_arg1) = (W (Proc.devRef .tc main_arg1)) := rfl
theorem arg1_1 : upto1 W (Proc.devRef .tc main_arg1) = (W (Proc.devRef .tc main_arg1)) :=
  (tail0_keep (upto0 W) main_arg1 (by decide)).trans (arg1_0 W)
theorem arg1_2 : upto2 W (Proc.devRef .tc main_arg1) = (W (Proc.devRef .tc main_arg1)) :=
  (tail1_keep (upto1 W) main_arg1 (by decide)).trans (arg1_1 W)
theorem arg1_3 : upto3 W (Proc.devRef .tc main_arg1) = (W (Proc.devRef .tc main_arg1)) :=
  (tail2_keep (upto2 W) main_arg1 (by decide)).trans (arg1_2 W)
theorem arg1_4 : upto4 W (Proc.devRef .tc main_arg1) = (W (Proc.devRef .tc main_arg1)) :=
  (tail3_keep (upto3 W) main_arg1 (by decide)).trans (arg1_3 W)
theorem arg1_5 : upto5 W (Proc.devRef .tc main_arg1) = (W (Proc.devRef .tc main_arg1)) :=
  (tail4_keep (upto4 W) main_arg1 (by decide)).trans (arg1_4 W)
theorem arg1_6 : upto6 W (Proc.devRef .tc main_arg1) = (W (Proc.devRef .tc main_arg1)) :=
  (tail5_keep (upto5 W) main_arg1 (by decide)).trans (arg1_5 W)
theorem arg1_7 : upto7 W (Proc.devRef .tc main_arg1) = (W (Proc.devRef .tc main_arg1)) :=
  (tail6_keep (upto6 W) main_arg1 (by decide)).trans (arg1_6 W)
theorem arg1_8 : upto8 W (Proc.devRef .tc main_arg1) = (W (Proc.devRef .tc main_arg1)) :=
  (tail7_keep (upto7 W) main_arg1 (by decide)).trans (arg1_7 W)
theorem arg1_9 : upto9 W (Proc.devRef .tc main_arg1) = (W (Proc.devRef .tc main_arg1)) :=
  (tail8_keep (upto8 W) main_arg1 (by decide)).trans (arg1_8 W)
theorem arg1_10 : upto10 W (Proc.devRef .tc main_arg1) = (W (Proc.devRef .tc main_arg1)) :=
  (tail9_keep (upto9 W) main_arg1 (by decide)).trans (arg1_9 W)
theorem arg2_0 : upto0 W (Proc.devRef .tc main_arg2) = (W (Proc.devRef .tc main_arg2)) := rfl
theorem arg2_1 : upto1 W (Proc.devRef .tc main_arg2) = (W (Proc.devRef .tc main_arg2)) :=
  (tail0_keep (upto0 W) main_arg2 (by decide)).trans (arg2_0 W)
theorem arg2_2 : upto2 W (Proc.devRef .tc main_arg2) = (W (Proc.devRef .tc main_arg2)) :=
  (tail1_keep (upto1 W) main_arg2 (by decide)).trans (arg2_1 W)
theorem arg2_3 : upto3 W (Proc.devRef .tc main_arg2) = (W (Proc.devRef .tc main_arg2)) :=
  (tail2_keep (upto2 W) main_arg2 (by decide)).trans (arg2_2 W)
theorem arg2_4 : upto4 W (Proc.devRef .tc main_arg2) = (W (Proc.devRef .tc main_arg2)) :=
  (tail3_keep (upto3 W) main_arg2 (by decide)).trans (arg2_3 W)
theorem arg2_5 : upto5 W (Proc.devRef .tc main_arg2) = (W (Proc.devRef .tc main_arg2)) :=
  (tail4_keep (upto4 W) main_arg2 (by decide)).trans (arg2_4 W)
theorem arg2_6 : upto6 W (Proc.devRef .tc main_arg2) = (W (Proc.devRef .tc main_arg2)) :=
  (tail5_keep (upto5 W) main_arg2 (by decide)).trans (arg2_5 W)
theorem arg2_7 : upto7 W (Proc.devRef .tc main_arg2) = (W (Proc.devRef .tc main_arg2)) :=
  (tail6_keep (upto6 W) main_arg2 (by decide)).trans (arg2_6 W)
theorem arg2_8 : upto8 W (Proc.devRef .tc main_arg2) = (W (Proc.devRef .tc main_arg2)) :=
  (tail7_keep (upto7 W) main_arg2 (by decide)).trans (arg2_7 W)
theorem arg2_9 : upto9 W (Proc.devRef .tc main_arg2) = (W (Proc.devRef .tc main_arg2)) :=
  (tail8_keep (upto8 W) main_arg2 (by decide)).trans (arg2_8 W)
theorem arg2_10 : upto10 W (Proc.devRef .tc main_arg2) = (W (Proc.devRef .tc main_arg2)) :=
  (tail9_keep (upto9 W) main_arg2 (by decide)).trans (arg2_9 W)
theorem arg3_0 : upto0 W (Proc.devRef .tc main_arg3) = (W (Proc.devRef .tc main_arg3)) := rfl
theorem arg3_1 : upto1 W (Proc.devRef .tc main_arg3) = (W (Proc.devRef .tc main_arg3)) :=
  (tail0_keep (upto0 W) main_arg3 (by decide)).trans (arg3_0 W)
theorem arg3_2 : upto2 W (Proc.devRef .tc main_arg3) = (W (Proc.devRef .tc main_arg3)) :=
  (tail1_keep (upto1 W) main_arg3 (by decide)).trans (arg3_1 W)
theorem arg3_3 : upto3 W (Proc.devRef .tc main_arg3) = (W (Proc.devRef .tc main_arg3)) :=
  (tail2_keep (upto2 W) main_arg3 (by decide)).trans (arg3_2 W)
theorem arg3_4 : upto4 W (Proc.devRef .tc main_arg3) = (W (Proc.devRef .tc main_arg3)) :=
  (tail3_keep (upto3 W) main_arg3 (by decide)).trans (arg3_3 W)
theorem arg3_5 : upto5 W (Proc.devRef .tc main_arg3) = (W (Proc.devRef .tc main_arg3)) :=
  (tail4_keep (upto4 W) main_arg3 (by decide)).trans (arg3_4 W)
theorem arg3_6 : upto6 W (Proc.devRef .tc main_arg3) = (W (Proc.devRef .tc main_arg3)) :=
  (tail5_keep (upto5 W) main_arg3 (by decide)).trans (arg3_5 W)
theorem arg3_7 : upto7 W (Proc.devRef .tc main_arg3) = (W (Proc.devRef .tc main_arg3)) :=
  (tail6_keep (upto6 W) main_arg3 (by decide)).trans (arg3_6 W)
theorem arg3_8 : upto8 W (Proc.devRef .tc main_arg3) = (W (Proc.devRef .tc main_arg3)) :=
  (tail7_keep (upto7 W) main_arg3 (by decide)).trans (arg3_7 W)
theorem arg3_9 : upto9 W (Proc.devRef .tc main_arg3) = (W (Proc.devRef .tc main_arg3)) :=
  (tail8_keep (upto8 W) main_arg3 (by decide)).trans (arg3_8 W)
theorem arg3_10 : upto10 W (Proc.devRef .tc main_arg3) = (W (Proc.devRef .tc main_arg3)) :=
  (tail9_keep (upto9 W) main_arg3 (by decide)).trans (arg3_9 W)
theorem arg4_0 : upto0 W (Proc.devRef .tc main_arg4) = (W (Proc.devRef .tc main_arg4)) := rfl
theorem arg4_1 : upto1 W (Proc.devRef .tc main_arg4) = (W (Proc.devRef .tc main_arg4)) :=
  (tail0_keep (upto0 W) main_arg4 (by decide)).trans (arg4_0 W)
theorem arg4_2 : upto2 W (Proc.devRef .tc main_arg4) = (W (Proc.devRef .tc main_arg4)) :=
  (tail1_keep (upto1 W) main_arg4 (by decide)).trans (arg4_1 W)
theorem arg4_3 : upto3 W (Proc.devRef .tc main_arg4) = (W (Proc.devRef .tc main_arg4)) :=
  (tail2_keep (upto2 W) main_arg4 (by decide)).trans (arg4_2 W)
theorem arg4_4 : upto4 W (Proc.devRef .tc main_arg4) = (W (Proc.devRef .tc main_arg4)) :=
  (tail3_keep (upto3 W) main_arg4 (by decide)).trans (arg4_3 W)
theorem arg4_5 : upto5 W (Proc.devRef .tc main_arg4) = (W (Proc.devRef .tc main_arg4)) :=
  (tail4_keep (upto4 W) main_arg4 (by decide)).trans (arg4_4 W)
theorem arg4_6 : upto6 W (Proc.devRef .tc main_arg4) = (W (Proc.devRef .tc main_arg4)) :=
  (tail5_keep (upto5 W) main_arg4 (by decide)).trans (arg4_5 W)
theorem arg4_7 : upto7 W (Proc.devRef .tc main_arg4) = (W (Proc.devRef .tc main_arg4)) :=
  (tail6_keep (upto6 W) main_arg4 (by decide)).trans (arg4_6 W)
theorem arg4_8 : upto8 W (Proc.devRef .tc main_arg4) = (W (Proc.devRef .tc main_arg4)) :=
  (tail7_keep (upto7 W) main_arg4 (by decide)).trans (arg4_7 W)
theorem arg4_9 : upto9 W (Proc.devRef .tc main_arg4) = (W (Proc.devRef .tc main_arg4)) :=
  (tail8_keep (upto8 W) main_arg4 (by decide)).trans (arg4_8 W)
theorem arg4_10 : upto10 W (Proc.devRef .tc main_arg4) = (W (Proc.devRef .tc main_arg4)) :=
  (tail9_keep (upto9 W) main_arg4 (by decide)).trans (arg4_9 W)

/-! ## Level 0 of the lines: 512 nodes -/

set_option maxHeartbeats 2000000 in
/-- The level's hidden states are the level step's: the lines, composed, are the host level of Proof/HostLevel.lean. -/
theorem tail0Hf_eq (E : FVec Ideal S262143x128 .f32) (Wih : FVec Ideal S1024x128 .f32) (Whh : FVec Ideal S1024x256 .f32) (bih bhh : FVec Ideal S1024 .f32) (hp cp : FVec Ideal S1024x128 .f32) :
    tail0Hf (F := Ideal) E Wih Whh bih bhh hp cp = extractStridedSlice S512x128 ![0, 0] (hiddenT (n := 512) bcast_S_S512x256 slices_S512x1024_S512x256_0_768 (gatesT (n := 512) transposes_S1024x128_S128x1024_1_0 transposes_S1024x256_S256x1024_1_0 bcast_S1024_S1x1024_1 bcast_S1x1024_S512x1024_0_1 shapeCasts_S1024x128_S512x256 (extractStridedSlice S512x128 ![511, 0] E slices_S262143x128_S512x128_511_0) hp Wih Whh bih bhh) (cellT (n := 512) shapeCasts_S1024x128_S512x256 cp bcast_S_S512x256 slices_S512x1024_S512x256_0_0 slices_S512x1024_S512x256_0_256 slices_S512x1024_S512x256_0_512 (gatesT (n := 512) transposes_S1024x128_S128x1024_1_0 transposes_S1024x256_S256x1024_1_0 bcast_S1024_S1x1024_1 bcast_S1x1024_S512x1024_0_1 shapeCasts_S1024x128_S512x256 (extractStridedSlice S512x128 ![511, 0] E slices_S262143x128_S512x128_511_0) hp Wih Whh bih bhh))) slices_S512x256_S512x128_0_0 := rfl

set_option maxHeartbeats 2000000 in
/-- Likewise the cell states. -/
theorem tail0Cf_eq (E : FVec Ideal S262143x128 .f32) (Wih : FVec Ideal S1024x128 .f32) (Whh : FVec Ideal S1024x256 .f32) (bih bhh : FVec Ideal S1024 .f32) (hp cp : FVec Ideal S1024x128 .f32) :
    tail0Cf (F := Ideal) E Wih Whh bih bhh hp cp = extractStridedSlice S512x128 ![0, 0] (cellT (n := 512) shapeCasts_S1024x128_S512x256 cp bcast_S_S512x256 slices_S512x1024_S512x256_0_0 slices_S512x1024_S512x256_0_256 slices_S512x1024_S512x256_0_512 (gatesT (n := 512) transposes_S1024x128_S128x1024_1_0 transposes_S1024x256_S256x1024_1_0 bcast_S1024_S1x1024_1 bcast_S1x1024_S512x1024_0_1 shapeCasts_S1024x128_S512x256 (extractStridedSlice S512x128 ![511, 0] E slices_S262143x128_S512x128_511_0) hp Wih Whh bih bhh)) slices_S512x256_S512x128_0_0 := rfl

set_option maxHeartbeats 2000000 in
/-- The level step on arrays: from arrays that are `x'`, `hp'`, `cp'` entry by entry to the specification's update of them. -/
theorem tstep0 (E : FVec Ideal S262143x128 .f32) (Wih : FVec Ideal S1024x128 .f32) (Whh : FVec Ideal S1024x256 .f32) (bih bhh : FVec Ideal S1024 .f32) (hp cp : FVec Ideal S1024x128 .f32) (x' hp' cp' : Mat)
    (hE : ∀ (r : Fin 512) (k : Fin 128), (extractStridedSlice S512x128 ![511, 0] E slices_S262143x128_S512x128_511_0) (ix2 r k) = x' r.val k.val)
    (hH : ∀ (a : Fin 1024) (b : Fin 128), hp (ix2 a b) = hp' a.val b.val)
    (hC : ∀ (a : Fin 1024) (b : Fin 128), cp (ix2 a b) = cp' a.val b.val) (r : Fin 512) (q : Fin 128) :
    tail0Hf (F := Ideal) E Wih Whh bih bhh hp cp (ix2 r q) = TreeCell.hidden (ofArr Wih) (ofArr Whh) (ofVec bih) (ofVec bhh) x' hp' cp' r.val q.val
      ∧ tail0Cf (F := Ideal) E Wih Whh bih bhh hp cp (ix2 r q) = cell (ofArr Wih) (ofArr Whh) (ofVec bih) (ofVec bhh) x' hp' cp' r.val q.val := by
  rw [tail0Hf_eq, tail0Cf_eq]
  have h := level_step (n := 512) transposes_S1024x128_S128x1024_1_0 transposes_S1024x256_S256x1024_1_0 bcast_S1024_S1x1024_1 bcast_S1x1024_S512x1024_0_1 shapeCasts_S1024x128_S512x256 (extractStridedSlice S512x128 ![511, 0] E slices_S262143x128_S512x128_511_0) hp cp Wih Whh bih bhh bcast_S_S512x256 slices_S512x1024_S512x256_0_0 slices_S512x1024_S512x256_0_256 slices_S512x1024_S512x256_0_512 slices_S512x1024_S512x256_0_768 slices_S512x256_S512x128_0_0 x' hp' cp' hE hH hC r q
  exact h

set_option maxHeartbeats 4000000 in
/-- After the level's lines its two result buffers are the specification's states 9 levels above the leaves, if the
    two buffers it read were the states 8 levels above. -/
theorem tlevel0
    (hH : ∀ (a : Fin 1024) (b : Fin 128), (upto0 W (Proc.devRef .tc main_v32_0) : FVec Ideal S1024x128 .f32) (ix2 a b) = (tst W 8).1 a.val b.val)
    (hC : ∀ (a : Fin 1024) (b : Fin 128), (upto0 W (Proc.devRef .tc main_v32_1) : FVec Ideal S1024x128 .f32) (ix2 a b) = (tst W 8).2 a.val b.val)
    (r : Fin 512) (q : Fin 128) :
    (upto1 W (Proc.devRef .tc main_v75) : FVec Ideal S512x128 .f32) (ix2 r q) = (tst W (8 + 1)).1 r.val q.val
      ∧ (upto1 W (Proc.devRef .tc main_v76) : FVec Ideal S512x128 .f32) (ix2 r q) = (tst W (8 + 1)).2 r.val q.val := by
  have e1 : (upto1 W (Proc.devRef .tc main_v75) : FVec Ideal S512x128 .f32) = tail0Hf (F := Ideal) (W (Proc.devRef .tc main_arg0)) (W (Proc.devRef .tc main_arg1)) (W (Proc.devRef .tc main_arg2)) (W (Proc.devRef .tc main_arg3)) (W (Proc.devRef .tc main_arg4)) (upto0 W (Proc.devRef .tc main_v32_0)) (upto0 W (Proc.devRef .tc main_v32_1)) := by
    have h := tail0_hidden (upto0 W)
    rw [arg0_0 W, arg1_0 W, arg2_0 W, arg3_0 W, arg4_0 W] at h
    exact h
  have e2 : (upto1 W (Proc.devRef .tc main_v76) : FVec Ideal S512x128 .f32) = tail0Cf (F := Ideal) (W (Proc.devRef .tc main_arg0)) (W (Proc.devRef .tc main_arg1)) (W (Proc.devRef .tc main_arg2)) (W (Proc.devRef .tc main_arg3)) (W (Proc.devRef .tc main_arg4)) (upto0 W (Proc.devRef .tc main_v32_0)) (upto0 W (Proc.devRef .tc main_v32_1)) := by
    have h := tail0_cell (upto0 W)
    rw [arg0_0 W, arg1_0 W, arg2_0 W, arg3_0 W, arg4_0 W] at h
    exact h
  rw [e1, e2, states_fst, states_snd]
  have h := tstep0 (W (Proc.devRef .tc main_arg0)) (W (Proc.devRef .tc main_arg1)) (W (Proc.devRef .tc main_arg2)) (W (Proc.devRef .tc main_arg3)) (W (Proc.devRef .tc main_arg4)) (upto0 W (Proc.devRef .tc main_v32_0)) (upto0 W (Proc.devRef .tc main_v32_1)) (rowsOf (tE W) 8) (tst W 8).1 (tst W 8).2
    (fun r k => rows_apply 511 _ slices_S262143x128_S512x128_511_0 (by decide) r k) hH hC r q
  exact h

/-! ## Level 1 of the lines: 256 nodes -/

set_option maxHeartbeats 2000000 in
/-- The level's hidden states are the level step's: the lines, composed, are the host level of Proof/HostLevel.lean. -/
theorem tail1Hf_eq (E : FVec Ideal S262143x128 .f32) (Wih : FVec Ideal S1024x128 .f32) (Whh : FVec Ideal S1024x256 .f32) (bih bhh : FVec Ideal S1024 .f32) (hp cp : FVec Ideal S512x128 .f32) :
    tail1Hf (F := Ideal) E Wih Whh bih bhh hp cp = extractStridedSlice S256x128 ![0, 0] (hiddenT (n := 256) bcast_S_S256x256 slices_S256x1024_S256x256_0_768 (gatesT (n := 256) transposes_S1024x128_S128x1024_1_0 transposes_S1024x256_S256x1024_1_0 bcast_S1024_S1x1024_1 bcast_S1x1024_S256x1024_0_1 shapeCasts_S512x128_S256x256 (extractStridedSlice S256x128 ![255, 0] E slices_S262143x128_S256x128_255_0) hp Wih Whh bih bhh) (cellT (n := 256) shapeCasts_S512x128_S256x256 cp bcast_S_S256x256 slices_S256x1024_S256x256_0_0 slices_S256x1024_S256x256_0_256 slices_S256x1024_S256x256_0_512 (gatesT (n := 256) transposes_S1024x128_S128x1024_1_0 transposes_S1024x256_S256x1024_1_0 bcast_S1024_S1x1024_1 bcast_S1x1024_S256x1024_0_1 shapeCasts_S512x128_S256x256 (extractStridedSlice S256x128 ![255, 0] E slices_S262143x128_S256x128_255_0) hp Wih Whh bih bhh))) slices_S256x256_S256x128_0_0 := rfl

set_option maxHeartbeats 2000000 in
/-- Likewise the cell states. -/
theorem tail1Cf_eq (E : FVec Ideal S262143x128 .f32) (Wih : FVec Ideal S1024x128 .f32) (Whh : FVec Ideal S1024x256 .f32) (bih bhh : FVec Ideal S1024 .f32) (hp cp : FVec Ideal S512x128 .f32) :
    tail1Cf (F := Ideal) E Wih Whh bih bhh hp cp = extractStridedSlice S256x128 ![0, 0] (cellT (n := 256) shapeCasts_S512x128_S256x256 cp bcast_S_S256x256 slices_S256x1024_S256x256_0_0 slices_S256x1024_S256x256_0_256 slices_S256x1024_S256x256_0_512 (gatesT (n := 256) transposes_S1024x128_S128x1024_1_0 transposes_S1024x256_S256x1024_1_0 bcast_S1024_S1x1024_1 bcast_S1x1024_S256x1024_0_1 shapeCasts_S512x128_S256x256 (extractStridedSlice S256x128 ![255, 0] E slices_S262143x128_S256x128_255_0) hp Wih Whh bih bhh)) slices_S256x256_S256x128_0_0 := rfl

set_option maxHeartbeats 2000000 in
/-- The level step on arrays: from arrays that are `x'`, `hp'`, `cp'` entry by entry to the specification's update of them. -/
theorem tstep1 (E : FVec Ideal S262143x128 .f32) (Wih : FVec Ideal S1024x128 .f32) (Whh : FVec Ideal S1024x256 .f32) (bih bhh : FVec Ideal S1024 .f32) (hp cp : FVec Ideal S512x128 .f32) (x' hp' cp' : Mat)
    (hE : ∀ (r : Fin 256) (k : Fin 128), (extractStridedSlice S256x128 ![255, 0] E slices_S262143x128_S256x128_255_0) (ix2 r k) = x' r.val k.val)
    (hH : ∀ (a : Fin 512) (b : Fin 128), hp (ix2 a b) = hp' a.val b.val)
    (hC : ∀ (a : Fin 512) (b : Fin 128), cp (ix2 a b) = cp' a.val b.val) (r : Fin 256) (q : Fin 128) :
    tail1Hf (F := Ideal) E Wih Whh bih bhh hp cp (ix2 r q) = TreeCell.hidden (ofArr Wih) (ofArr Whh) (ofVec bih) (ofVec bhh) x' hp' cp' r.val q.val
      ∧ tail1Cf (F := Ideal) E Wih Whh bih bhh hp cp (ix2 r q) = cell (ofArr Wih) (ofArr Whh) (ofVec bih) (ofVec bhh) x' hp' cp' r.val q.val := by
  rw [tail1Hf_eq, tail1Cf_eq]
  have h := level_step (n := 256) transposes_S1024x128_S128x1024_1_0 transposes_S1024x256_S256x1024_1_0 bcast_S1024_S1x1024_1 bcast_S1x1024_S256x1024_0_1 shapeCasts_S512x128_S256x256 (extractStridedSlice S256x128 ![255, 0] E slices_S262143x128_S256x128_255_0) hp cp Wih Whh bih bhh bcast_S_S256x256 slices_S256x1024_S256x256_0_0 slices_S256x1024_S256x256_0_256 slices_S256x1024_S256x256_0_512 slices_S256x1024_S256x256_0_768 slices_S256x256_S256x128_0_0 x' hp' cp' hE hH hC r q
  exact h

set_option maxHeartbeats 4000000 in
/-- After the level's lines its two result buffers are the specification's states 10 levels above the leaves, if the
    two buffers it read were the states 9 levels above. -/
theorem tlevel1
    (hH : ∀ (a : Fin 512) (b : Fin 128), (upto1 W (Proc.devRef .tc main_v75) : FVec Ideal S512x128 .f32) (ix2 a b) = (tst W 9).1 a.val b.val)
    (hC : ∀ (a : Fin 512) (b : Fin 128), (upto1 W (Proc.devRef .tc main_v76) : FVec Ideal S512x128 .f32) (ix2 a b) = (tst W 9).2 a.val b.val)
    (r : Fin 256) (q : Fin 128) :
    (upto2 W (Proc.devRef .tc main_v119) : FVec Ideal S256x128 .f32) (ix2 r q) = (tst W (9 + 1)).1 r.val q.val
      ∧ (upto2 W (Proc.devRef .tc main_v120) : FVec Ideal S256x128 .f32) (ix2 r q) = (tst W (9 + 1)).2 r.val q.val := by
  have e1 : (upto2 W (Proc.devRef .tc main_v119) : FVec Ideal S256x128 .f32) = tail1Hf (F := Ideal) (W (Proc.devRef .tc main_arg0)) (W (Proc.devRef .tc main_arg1)) (W (Proc.devRef .tc main_arg2)) (W (Proc.devRef .tc main_arg3)) (W (Proc.devRef .tc main_arg4)) (upto1 W (Proc.devRef .tc main_v75)) (upto1 W (Proc.devRef .tc main_v76)) := by
    have h := tail1_hidden (upto1 W)
    rw [arg0_1 W, arg1_1 W, arg2_1 W, arg3_1 W, arg4_1 W] at h
    exact h
  have e2 : (upto2 W (Proc.devRef .tc main_v120) : FVec Ideal S256x128 .f32) = tail1Cf (F := Ideal) (W (Proc.devRef .tc main_arg0)) (W (Proc.devRef .tc main_arg1)) (W (Proc.devRef .tc main_arg2)) (W (Proc.devRef .tc main_arg3)) (W (Proc.devRef .tc main_arg4)) (upto1 W (Proc.devRef .tc main_v75)) (upto1 W (Proc.devRef .tc main_v76)) := by
    have h := tail1_cell (upto1 W)
    rw [arg0_1 W, arg1_1 W, arg2_1 W, arg3_1 W, arg4_1 W] at h
    exact h
  rw [e1, e2, states_fst, states_snd]
  have h := tstep1 (W (Proc.devRef .tc main_arg0)) (W (Proc.devRef .tc main_arg1)) (W (Proc.devRef .tc main_arg2)) (W (Proc.devRef .tc main_arg3)) (W (Proc.devRef .tc main_arg4)) (upto1 W (Proc.devRef .tc main_v75)) (upto1 W (Proc.devRef .tc main_v76)) (rowsOf (tE W) 9) (tst W 9).1 (tst W 9).2
    (fun r k => rows_apply 255 _ slices_S262143x128_S256x128_255_0 (by decide) r k) hH hC r q
  exact h

/-! ## Level 2 of the lines: 128 nodes -/

set_option maxHeartbeats 2000000 in
/-- The level's hidden states are the level step's: the lines, composed, are the host level of Proof/HostLevel.lean. -/
theorem tail2Hf_eq (E : FVec Ideal S262143x128 .f32) (Wih : FVec Ideal S1024x128 .f32) (Whh : FVec Ideal S1024x256 .f32) (bih bhh : FVec Ideal S1024 .f32) (hp cp : FVec Ideal S256x128 .f32) :
    tail2Hf (F := Ideal) E Wih Whh bih bhh hp cp = extractStridedSlice S128x128 ![0, 0] (hiddenT (n := 128) bcast_S_S128x256 slices_S128x1024_S128x256_0_768 (gatesT (n := 128) transposes_S1024x128_S128x1024_1_0 transposes_S1024x256_S256x1024_1_0 bcast_S1024_S1x1024_1 bcast_S1x1024_S128x1024_0_1 shapeCasts_S256x128_S128x256 (extractStridedSlice S128x128 ![127, 0] E slices_S262143x128_S128x128_127_0) hp Wih Whh bih bhh) (cellT (n := 128) shapeCasts_S256x128_S128x256 cp bcast_S_S128x256 slices_S128x1024_S128x256_0_0 slices_S128x1024_S128x256_0_256 slices_S128x1024_S128x256_0_512 (gatesT (n := 128) transposes_S1024x128_S128x1024_1_0 transposes_S1024x256_S256x1024_1_0 bcast_S1024_S1x1024_1 bcast_S1x1024_S128x1024_0_1 shapeCasts_S256x128_S128x256 (extractStridedSlice S128x128 ![127, 0] E slices_S262143x128_S128x128_127_0) hp Wih Whh bih bhh))) slices_S128x256_S128x128_0_0 := rfl

set_option maxHeartbeats 2000000 in
/-- Likewise the cell states. -/
theorem tail2Cf_eq (E : FVec Ideal S262143x128 .f32) (Wih : FVec Ideal S1024x128 .f32) (Whh : FVec Ideal S1024x256 .f32) (bih bhh : FVec Ideal S1024 .f32) (hp cp : FVec Ideal S256x128 .f32) :
    tail2Cf (F := Ideal) E Wih Whh bih bhh hp cp = extractStridedSlice S128x128 ![0, 0] (cellT (n := 128) shapeCasts_S256x128_S128x256 cp bcast_S_S128x256 slices_S128x1024_S128x256_0_0 slices_S128x1024_S128x256_0_256 slices_S128x1024_S128x256_0_512 (gatesT (n := 128) transposes_S1024x128_S128x1024_1_0 transposes_S1024x256_S256x1024_1_0 bcast_S1024_S1x1024_1 bcast_S1x1024_S128x1024_0_1 shapeCasts_S256x128_S128x256 (extractStridedSlice S128x128 ![127, 0] E slices_S262143x128_S128x128_127_0) hp Wih Whh bih bhh)) slices_S128x256_S128x128_0_0 := rfl

set_option maxHeartbeats 2000000 in
/-- The level step on arrays: from arrays that are `x'`, `hp'`, `cp'` entry by entry to the specification's update of them. -/
theorem tstep2 (E : FVec Ideal S262143x128 .f32) (Wih : FVec Ideal S1024x128 .f32) (Whh : FVec Ideal S1024x256 .f32) (bih bhh : FVec Ideal S1024 .f32) (hp cp : FVec Ideal S256x128 .f32) (x' hp' cp' : Mat)
    (hE : ∀ (r : Fin 128) (k : Fin 128), (extractStridedSlice S128x128 ![127, 0] E slices_S262143x128_S128x128_127_0) (ix2 r k) = x' r.val k.val)
    (hH : ∀ (a : Fin 256) (b : Fin 128), hp (ix2 a b) = hp' a.val b.val)
    (hC : ∀ (a : Fin 256) (b : Fin 128), cp (ix2 a b) = cp' a.val b.val) (r : Fin 128) (q : Fin 128) :
    tail2Hf (F := Ideal) E Wih Whh bih bhh hp cp (ix2 r q) = TreeCell.hidden (ofArr Wih) (ofArr Whh) (ofVec bih) (ofVec bhh) x' hp' cp' r.val q.val
      ∧ tail2Cf (F := Ideal) E Wih Whh bih bhh hp cp (ix2 r q) = cell (ofArr Wih) (ofArr Whh) (ofVec bih) (ofVec bhh) x' hp' cp' r.val q.val := by
  rw [tail2Hf_eq, tail2Cf_eq]
  have h := level_step (n := 128) transposes_S1024x128_S128x1024_1_0 transposes_S1024x256_S256x1024_1_0 bcast_S1024_S1x1024_1 bcast_S1x1024_S128x1024_0_1 shapeCasts_S256x128_S128x256 (extractStridedSlice S128x128 ![127, 0] E slices_S262143x128_S128x128_127_0) hp cp Wih Whh bih bhh bcast_S_S128x256 slices_S128x1024_S128x256_0_0 slices_S128x1024_S128x256_0_256 slices_S128x1024_S128x256_0_512 slices_S128x1024_S128x256_0_768 slices_S128x256_S128x128_0_0 x' hp' cp' hE hH hC r q
  exact h

set_option maxHeartbeats 4000000 in
/-- After the level's lines its two result buffers are the specification's states 11 levels above the leaves, if the
    two buffers it read were the states 10 levels above. -/
theorem tlevel2
    (hH : ∀ (a : Fin 256) (b : Fin 128), (upto2 W (Proc.devRef .tc main_v119) : FVec Ideal S256x128 .f32) (ix2 a b) = (tst W 10).1 a.val b.val)
    (hC : ∀ (a : Fin 256) (b : Fin 128), (upto2 W (Proc.devRef .tc main_v120) : FVec Ideal S256x128 .f32) (ix2 a b) = (tst W 10).2 a.val b.val)
    (r : Fin 128) (q : Fin 128) :
    (upto3 W (Proc.devRef .tc main_v163) : FVec Ideal S128x128 .f32) (ix2 r q) = (tst W (10 + 1)).1 r.val q.val
      ∧ (upto3 W (Proc.devRef .tc main_v164) : FVec Ideal S128x128 .f32) (ix2 r q) = (tst W (10 + 1)).2 r.val q.val := by
  have e1 : (upto3 W (Proc.devRef .tc main_v163) : FVec Ideal S128x128 .f32) = tail2Hf (F := Ideal) (W (Proc.devRef .tc main_arg0)) (W (Proc.devRef .tc main_arg1)) (W (Proc.devRef .tc main_arg2)) (W (Proc.devRef .tc main_arg3)) (W (Proc.devRef .tc main_arg4)) (upto2 W (Proc.devRef .tc main_v119)) (upto2 W (Proc.devRef .tc main_v120)) := by
    have h := tail2_hidden (upto2 W)
    rw [arg0_2 W, arg1_2 W, arg2_2 W, arg3_2 W, arg4_2 W] at h
    exact h
  have e2 : (upto3 W (Proc.devRef .tc main_v164) : FVec Ideal S128x128 .f32) = tail2Cf (F := Ideal) (W (Proc.devRef .tc main_arg0)) (W (Proc.devRef .tc main_arg1)) (W (Proc.devRef .tc main_arg2)) (W (Proc.devRef .tc main_arg3)) (W (Proc.devRef .tc main_arg4)) (upto2 W (Proc.devRef .tc main_v119)) (upto2 W (Proc.devRef .tc main_v120)) := by
    have h := tail2_cell (upto2 W)
    rw [arg0_2 W, arg1_2 W, arg2_2 W, arg3_2 W, arg4_2 W] at h
    exact h
  rw [e1, e2, states_fst, states_snd]
  have h := tstep2 (W (Proc.devRef .tc main_arg0)) (W (Proc.devRef .tc main_arg1)) (W (Proc.devRef .tc main_arg2)) (W (Proc.devRef .tc main_arg3)) (W (Proc.devRef .tc main_arg4)) (upto2 W (Proc.devRef .tc main_v119)) (upto2 W (Proc.devRef .tc main_v120)) (rowsOf (tE W) 10) (tst W 10).1 (tst W 10).2
    (fun r k => rows_apply 127 _ slices_S262143x128_S128x128_127_0 (by decide) r k) hH hC r q
  exact h

/-! ## Level 3 of the lines: 64 nodes -/

set_option maxHeartbeats 2000000 in
/-- The level's hidden states are the level step's: the lines, composed, are the host level of Proof/HostLevel.lean. -/
theorem tail3Hf_eq (E : FVec Ideal S262143x128 .f32) (Wih : FVec Ideal S1024x128 .f32) (Whh : FVec Ideal S1024x256 .f32) (bih bhh : FVec Ideal S1024 .f32) (hp cp : FVec Ideal S128x128 .f32) :
    tail3Hf (F := Ideal) E Wih Whh bih bhh hp cp = extractStridedSlice S64x128 ![0, 0] (hiddenT (n := 64) bcast_S_S64x256 slices_S64x1024_S64x256_0_768 (gatesT (n := 64) transposes_S1024x128_S128x1024_1_0 transposes_S1024x256_S256x1024_1_0 bcast_S1024_S1x1024_1 bcast_S1x1024_S64x1024_0_1 shapeCasts_S128x128_S64x256 (extractStridedSlice S64x128 ![63, 0] E slices_S262143x128_S64x128_63_0) hp Wih Whh bih bhh) (cellT (n := 64) shapeCasts_S128x128_S64x256 cp bcast_S_S64x256 slices_S64x1024_S64x256_0_0 slices_S64x1024_S64x256_0_256 slices_S64x1024_S64x256_0_512 (gatesT (n := 64) transposes_S1024x128_S128x1024_1_0 transposes_S1024x256_S256x1024_1_0 bcast_S1024_S1x1024_1 bcast_S1x1024_S64x1024_0_1 shapeCasts_S128x128_S64x256 (extractStridedSlice S64x128 ![63, 0] E slices_S262143x128_S64x128_63_0) hp Wih Whh bih bhh))) slices_S64x256_S64x128_0_0 := rfl

set_option maxHeartbeats 2000000 in
/-- Likewise the cell states. -/
theorem tail3Cf_eq (E : FVec Ideal S262143x128 .f32) (Wih : FVec Ideal S1024x128 .f32) (Whh : FVec Ideal S1024x256 .f32) (bih bhh : FVec Ideal S1024 .f32) (hp cp : FVec Ideal S128x128 .f32) :
    tail3Cf (F := Ideal) E Wih Whh bih bhh hp cp = extractStridedSlice S64x128 ![0, 0] (cellT (n := 64) shapeCasts_S128x128_S64x256 cp bcast_S_S64x256 slices_S64x1024_S64x256_0_0 slices_S64x1024_S64x256_0_256 slices_S64x1024_S64x256_0_512 (gatesT (n := 64) transposes_S1024x128_S128x1024_1_0 transposes_S1024x256_S256x1024_1_0 bcast_S1024_S1x1024_1 bcast_S1x1024_S64x1024_0_1 shapeCasts_S128x128_S64x256 (extractStridedSlice S64x128 ![63, 0] E slices_S262143x128_S64x128_63_0) hp Wih Whh bih bhh)) slices_S64x256_S64x128_0_0 := rfl

set_option maxHeartbeats 2000000 in
/-- The level step on arrays: from arrays that are `x'`, `hp'`, `cp'` entry by entry to the specification's update of them. -/
theorem tstep3 (E : FVec Ideal S262143x128 .f32) (Wih : FVec Ideal S1024x128 .f32) (Whh : FVec Ideal S1024x256 .f32) (bih bhh : FVec Ideal S1024 .f32) (hp cp : FVec Ideal S128x128 .f32) (x' hp' cp' : Mat)
    (hE : ∀ (r : Fin 64) (k : Fin 128), (extractStridedSlice S64x128 ![63, 0] E slices_S262143x128_S64x128_63_0) (ix2 r k) = x' r.val k.val)
    (hH : ∀ (a : Fin 128) (b : Fin 128), hp (ix2 a b) = hp' a.val b.val)
    (hC : ∀ (a : Fin 128) (b : Fin 128), cp (ix2 a b) = cp' a.val b.val) (r : Fin 64) (q : Fin 128) :
    tail3Hf (F := Ideal) E Wih Whh bih bhh hp cp (ix2 r q) = TreeCell.hidden (ofArr Wih) (ofArr Whh) (ofVec bih) (ofVec bhh) x' hp' cp' r.val q.val
      ∧ tail3Cf (F := Ideal) E Wih Whh bih bhh hp cp (ix2 r q) = cell (ofArr Wih) (ofArr Whh) (ofVec bih) (ofVec bhh) x' hp' cp' r.val q.val := by
  rw [tail3Hf_eq, tail3Cf_eq]
  have h := level_step (n := 64) transposes_S1024x128_S128x1024_1_0 transposes_S1024x256_S256x1024_1_0 bcast_S1024_S1x1024_1 bcast_S1x1024_S64x1024_0_1 shapeCasts_S128x128_S64x256 (extractStridedSlice S64x128 ![63, 0] E slices_S262143x128_S64x128_63_0) hp cp Wih Whh bih bhh bcast_S_S64x256 slices_S64x1024_S64x256_0_0 slices_S64x1024_S64x256_0_256 slices_S64x1024_S64x256_0_512 slices_S64x1024_S64x256_0_768 slices_S64x256_S64x128_0_0 x' hp' cp' hE hH hC r q
  exact h

set_option maxHeartbeats 4000000 in
/-- After the level's lines its two result buffers are the specification's states 12 levels above the leaves, if the
    two buffers it read were the states 11 levels above. -/
theorem tlevel3
    (hH : ∀ (a : Fin 128) (b : Fin 128), (upto3 W (Proc.devRef .tc main_v163) : FVec Ideal S128x128 .f32) (ix2 a b) = (tst W 11).1 a.val b.val)
    (hC : ∀ (a : Fin 128) (b : Fin 128), (upto3 W (Proc.devRef .tc main_v164) : FVec Ideal S128x128 .f32) (ix2 a b) = (tst W 11).2 a.val b.val)
    (r : Fin 64) (q : Fin 128) :
    (upto4 W (Proc.devRef .tc main_v207) : FVec Ideal S64x128 .f32) (ix2 r q) = (tst W (11 + 1)).1 r.val q.val
      ∧ (upto4 W (Proc.devRef .tc main_v208) : FVec Ideal S64x128 .f32) (ix2 r q) = (tst W (11 + 1)).2 r.val q.val := by
  have e1 : (upto4 W (Proc.devRef .tc main_v207) : FVec Ideal S64x128 .f32) = tail3Hf (F := Ideal) (W (Proc.devRef .tc main_arg0)) (W (Proc.devRef .tc main_arg1)) (W (Proc.devRef .tc main_arg2)) (W (Proc.devRef .tc main_arg3)) (W (Proc.devRef .tc main_arg4)) (upto3 W (Proc.devRef .tc main_v163)) (upto3 W (Proc.devRef .tc main_v164)) := by
    have h := tail3_hidden (upto3 W)
    rw [arg0_3 W, arg1_3 W, arg2_3 W, arg3_3 W, arg4_3 W] at h
    exact h
  have e2 : (upto4 W (Proc.devRef .tc main_v208) : FVec Ideal S64x128 .f32) = tail3Cf (F := Ideal) (W (Proc.devRef .tc main_arg0)) (W (Proc.devRef .tc main_arg1)) (W (Proc.devRef .tc main_arg2)) (W (Proc.devRef .tc main_arg3)) (W (Proc.devRef .tc main_arg4)) (upto3 W (Proc.devRef .tc main_v163)) (upto3 W (Proc.devRef .tc main_v164)) := by
    have h := tail3_cell (upto3 W)
    rw [arg0_3 W, arg1_3 W, arg2_3 W, arg3_3 W, arg4_3 W] at h
    exact h
  rw [e1, e2, states_fst, states_snd]
  have h := tstep3 (W (Proc.devRef .tc main_arg0)) (W (Proc.devRef .tc main_arg1)) (W (Proc.devRef .tc main_arg2)) (W (Proc.devRef .tc main_arg3)) (W (Proc.devRef .tc main_arg4)) (upto3 W (Proc.devRef .tc main_v163)) (upto3 W (Proc.devRef .tc main_v164)) (rowsOf (tE W) 11) (tst W 11).1 (tst W 11).2
    (fun r k => rows_apply 63 _ slices_S262143x128_S64x128_63_0 (by decide) r k) hH hC r q
  exact h

/-! ## Level 4 of the lines: 32 nodes -/

set_option maxHeartbeats 2000000 in
/-- The level's hidden states are the level step's: the lines, composed, are the host level of Proof/HostLevel.lean. -/
theorem tail4Hf_eq (E : FVec Ideal S262143x128 .f32) (Wih : FVec Ideal S1024x128 .f32) (Whh : FVec Ideal S1024x256 .f32) (bih bhh : FVec Ideal S1024 .f32) (hp cp : FVec Ideal S64x128 .f32) :
    tail4Hf (F := Ideal) E Wih Whh bih bhh hp cp = extractStridedSlice S32x128 ![0, 0] (hiddenT (n := 32) bcast_S_S32x256 slices_S32x1024_S32x256_0_768 (gatesT (n := 32) transposes_S1024x128_S128x1024_1_0 transposes_S1024x256_S256x1024_1_0 bcast_S1024_S1x1024_1 bcast_S1x1024_S32x1024_0_1 shapeCasts_S64x128_S32x256 (extractStridedSlice S32x128 ![31, 0] E slices_S262143x128_S32x128_31_0) hp Wih Whh bih bhh) (cellT (n := 32) shapeCasts_S64x128_S32x256 cp bcast_S_S32x256 slices_S32x1024_S32x256_0_0 slices_S32x1024_S32x256_0_256 slices_S32x1024_S32x256_0_512 (gatesT (n := 32) transposes_S1024x128_S128x1024_1_0 transposes_S1024x256_S256x1024_1_0 bcast_S1024_S1x1024_1 bcast_S1x1024_S32x1024_0_1 shapeCasts_S64x128_S32x256 (extractStridedSlice S32x128 ![31, 0] E slices_S262143x128_S32x128_31_0) hp Wih Whh bih bhh))) slices_S32x256_S32x128_0_0 := rfl

set_option maxHeartbeats 2000000 in
/-- Likewise the cell states. -/
theorem tail4Cf_eq (E : FVec Ideal S262143x128 .f32) (Wih : FVec Ideal S1024x128 .f32) (Whh : FVec Ideal S1024x256 .f32) (bih bhh : FVec Ideal S1024 .f32) (hp cp : FVec Ideal S64x128 .f32) :
    tail4Cf (F := Ideal) E Wih Whh bih bhh hp cp = extractStridedSlice S32x128 ![0, 0] (cellT (n := 32) shapeCasts_S64x128_S32x256 cp bcast_S_S32x256 slices_S32x1024_S32x256_0_0 slices_S32x1024_S32x256_0_256 slices_S32x1024_S32x256_0_512 (gatesT (n := 32) transposes_S1024x128_S128x1024_1_0 transposes_S1024x256_S256x1024_1_0 bcast_S1024_S1x1024_1 bcast_S1x1024_S32x1024_0_1 shapeCasts_S64x128_S32x256 (extractStridedSlice S32x128 ![31, 0] E slices_S262143x128_S32x128_31_0) hp Wih Whh bih bhh)) slices_S32x256_S32x128_0_0 := rfl

set_option maxHeartbeats 2000000 in
/-- The level step on arrays: from arrays that are `x'`, `hp'`, `cp'` entry by entry to the specification's update of them. -/
theorem tstep4 (E : FVec Ideal S262143x128 .f32) (Wih : FVec Ideal S1024x128 .f32) (Whh : FVec Ideal S1024x256 .f32) (bih bhh : FVec Ideal S1024 .f32) (hp cp : FVec Ideal S64x128 .f32) (x' hp' cp' : Mat)
    (hE : ∀ (r : Fin 32) (k : Fin 128), (extractStridedSlice S32x128 ![31, 0] E slices_S262143x128_S32x128_31_0) (ix2 r k) = x' r.val k.val)
    (hH : ∀ (a : Fin 64) (b : Fin 128), hp (ix2 a b) = hp' a.val b.val)
    (hC : ∀ (a : Fin 64) (b : Fin 128), cp (ix2 a b) = cp' a.val b.val) (r : Fin 32) (q : Fin 128) :
    tail4Hf (F := Ideal) E Wih Whh bih bhh hp cp (ix2 r q) = TreeCell.hidden (ofArr Wih) (ofArr Whh) (ofVec bih) (ofVec bhh) x' hp' cp' r.val q.val
      ∧ tail4Cf (F := Ideal) E Wih Whh bih bhh hp cp (ix2 r q) = cell (ofArr Wih) (ofArr Whh) (ofVec bih) (ofVec bhh) x' hp' cp' r.val q.val := by
  rw [tail4Hf_eq, tail4Cf_eq]
  have h := level_step (n := 32) transposes_S1024x128_S128x1024_1_0 transposes_S1024x256_S256x1024_1_0 bcast_S1024_S1x1024_1 bcast_S1x1024_S32x1024_0_1 shapeCasts_S64x128_S32x256 (extractStridedSlice S32x128 ![31, 0] E slices_S262143x128_S32x128_31_0) hp cp Wih Whh bih bhh bcast_S_S32x256 slices_S32x1024_S32x256_0_0 slices_S32x1024_S32x256_0_256 slices_S32x1024_S32x256_0_512 slices_S32x1024_S32x256_0_768 slices_S32x256_S32x128_0_0 x' hp' cp' hE hH hC r q
  exact h

set_option maxHeartbeats 4000000 in
/-- After the level's lines its two result buffers are the specification's states 13 levels above the leaves, if the
    two buffers it read were the states 12 levels above. -/
theorem tlevel4
    (hH : ∀ (a : Fin 64) (b : Fin 128), (upto4 W (Proc.devRef .tc main_v207) : FVec Ideal S64x128 .f32) (ix2 a b) = (tst W 12).1 a.val b.val)
    (hC : ∀ (a : Fin 64) (b : Fin 128), (upto4 W (Proc.devRef .tc main_v208) : FVec Ideal S64x128 .f32) (ix2 a b) = (tst W 12).2 a.val b.val)
    (r : Fin 32) (q : Fin 128) :
    (upto5 W (Proc.devRef .tc main_v251) : FVec Ideal S32x128 .f32) (ix2 r q) = (tst W (12 + 1)).1 r.val q.val
      ∧ (upto5 W (Proc.devRef .tc main_v252) : FVec Ideal S32x128 .f32) (ix2 r q) = (tst W (12 + 1)).2 r.val q.val := by
  have e1 : (upto5 W (Proc.devRef .tc main_v251) : FVec Ideal S32x128 .f32) = tail4Hf (F := Ideal) (W (Proc.devRef .tc main_arg0)) (W (Proc.devRef .tc main_arg1)) (W (Proc.devRef .tc main_arg2)) (W (Proc.devRef .tc main_arg3)) (W (Proc.devRef .tc main_arg4)) (upto4 W (Proc.devRef .tc main_v207)) (upto4 W (Proc.devRef .tc main_v208)) := by
    have h := tail4_hidden (upto4 W)
    rw [arg0_4 W, arg1_4 W, arg2_4 W, arg3_4 W, arg4_4 W] at h
    exact h
  have e2 : (upto5 W (Proc.devRef .tc main_v252) : FVec Ideal S32x128 .f32) = tail4Cf (F := Ideal) (W (Proc.devRef .tc main_arg0)) (W (Proc.devRef .tc main_arg1)) (W (Proc.devRef .tc main_arg2)) (W (Proc.devRef .tc main_arg3)) (W (Proc.devRef .tc main_arg4)) (upto4 W (Proc.devRef .tc main_v207)) (upto4 W (Proc.devRef .tc main_v208)) := by
    have h := tail4_cell (upto4 W)
    rw [arg0_4 W, arg1_4 W, arg2_4 W, arg3_4 W, arg4_4 W] at h
    exact h
  rw [e1, e2, states_fst, states_snd]
  have h := tstep4 (W (Proc.devRef .tc main_arg0)) (W (Proc.devRef .tc main_arg1)) (W (Proc.devRef .tc main_arg2)) (W (Proc.devRef .tc main_arg3)) (W (Proc.devRef .tc main_arg4)) (upto4 W (Proc.devRef .tc main_v207)) (upto4 W (Proc.devRef .tc main_v208)) (rowsOf (tE W) 12) (tst W 12).1 (tst W 12).2
    (fun r k => rows_apply 31 _ slices_S262143x128_S32x128_31_0 (by decide) r k) hH hC r q
  exact h

/-! ## Level 5 of the lines: 16 nodes -/

set_option maxHeartbeats 2000000 in
/-- The level's hidden states are the level step's: the lines, composed, are the host level of Proof/HostLevel.lean. -/
theorem tail5Hf_eq (E : FVec Ideal S262143x128 .f32) (Wih : FVec Ideal S1024x128 .f32) (Whh : FVec Ideal S1024x256 .f32) (bih bhh : FVec Ideal S1024 .f32) (hp cp : FVec Ideal S32x128 .f32) :
    tail5Hf (F := Ideal) E Wih Whh bih bhh hp cp = extractStridedSlice S16x128 ![0, 0] (hiddenT (n := 16) bcast_S_S16x256 slices_S16x1024_S16x256_0_768 (gatesT (n := 16) transposes_S1024x128_S128x1024_1_0 transposes_S1024x256_S256x1024_1_0 bcast_S1024_S1x1024_1 bcast_S1x1024_S16x1024_0_1 shapeCasts_S32x128_S16x256 (extractStridedSlice S16x128 ![15, 0] E slices_S262143x128_S16x128_15_0) hp Wih Whh bih bhh) (cellT (n := 16) shapeCasts_S32x128_S16x256 cp bcast_S_S16x256 slices_S16x1024_S16x256_0_0 slices_S16x1024_S16x256_0_256 slices_S16x1024_S16x256_0_512 (gatesT (n := 16) transposes_S1024x128_S128x1024_1_0 transposes_S1024x256_S256x1024_1_0 bcast_S1024_S1x1024_1 bcast_S1x1024_S16x1024_0_1 shapeCasts_S32x128_S16x256 (extractStridedSlice S16x128 ![15, 0] E slices_S262143x128_S16x128_15_0) hp Wih Whh bih bhh))) slices_S16x256_S16x128_0_0 := rfl

set_option maxHeartbeats 2000000 in
/-- Likewise the cell states. -/
theorem tail5Cf_eq (E : FVec Ideal S262143x128 .f32) (Wih : FVec Ideal S1024x128 .f32) (Whh : FVec Ideal S1024x256 .f32) (bih bhh : FVec Ideal S1024 .f32) (hp cp : FVec Ideal S32x128 .f32) :
    tail5Cf (F := Ideal) E Wih Whh bih bhh hp cp = extractStridedSlice S16x128 ![0, 0] (cellT (n := 16) shapeCasts_S32x128_S16x256 cp bcast_S_S16x256 slices_S16x1024_S16x256_0_0 slices_S16x1024_S16x256_0_256 slices_S16x1024_S16x256_0_512 (gatesT (n := 16) transposes_S1024x128_S128x1024_1_0 transposes_S1024x256_S256x1024_1_0 bcast_S1024_S1x1024_1 bcast_S1x1024_S16x1024_0_1 shapeCasts_S32x128_S16x256 (extractStridedSlice S16x128 ![15, 0] E slices_S262143x128_S16x128_15_0) hp Wih Whh bih bhh)) slices_S16x256_S16x128_0_0 := rfl

set_option maxHeartbeats 2000000 in
/-- The level step on arrays: from arrays that are `x'`, `hp'`, `cp'` entry by entry to the specification's update of them. -/
theorem tstep5 (E : FVec Ideal S262143x128 .f32) (Wih : FVec Ideal S1024x128 .f32) (Whh : FVec Ideal S1024x256 .f32) (bih bhh : FVec Ideal S1024 .f32) (hp cp : FVec Ideal S32x128 .f32) (x' hp' cp' : Mat)
    (hE : ∀ (r : Fin 16) (k : Fin 128), (extractStridedSlice S16x128 ![15, 0] E slices_S262143x128_S16x128_15_0) (ix2 r k) = x' r.val k.val)
    (hH : ∀ (a : Fin 32) (b : Fin 128), hp (ix2 a b) = hp' a.val b.val)
    (hC : ∀ (a : Fin 32) (b : Fin 128), cp (ix2 a b) = cp' a.val b.val) (r : Fin 16) (q : Fin 128) :
    tail5Hf (F := Ideal) E Wih Whh bih bhh hp cp (ix2 r q) = TreeCell.hidden (ofArr Wih) (ofArr Whh) (ofVec bih) (ofVec bhh) x' hp' cp' r.val q.val
      ∧ tail5Cf (F := Ideal) E Wih Whh bih bhh hp cp (ix2 r q) = cell (ofArr Wih) (ofArr Whh) (ofVec bih) (ofVec bhh) x' hp' cp' r.val q.val := by
  rw [tail5Hf_eq, tail5Cf_eq]
  have h := level_step (n := 16) transposes_S1024x128_S128x1024_1_0 transposes_S1024x256_S256x1024_1_0 bcast_S1024_S1x1024_1 bcast_S1x1024_S16x1024_0_1 shapeCasts_S32x128_S16x256 (extractStridedSlice S16x128 ![15, 0] E slices_S262143x128_S16x128_15_0) hp cp Wih Whh bih bhh bcast_S_S16x256 slices_S16x1024_S16x256_0_0 slices_S16x1024_S16x256_0_256 slices_S16x1024_S16x256_0_512 slices_S16x1024_S16x256_0_768 slices_S16x256_S16x128_0_0 x' hp' cp' hE hH hC r q
  exact h

set_option maxHeartbeats 4000000 in
/-- After the level's lines its two result buffers are the specification's states 14 levels above the leaves, if the
    two buffers it read were the states 13 levels above. -/
theorem tlevel5
    (hH : ∀ (a : Fin 32) (b : Fin 128), (upto5 W (Proc.devRef .tc main_v251) : FVec Ideal S32x128 .f32) (ix2 a b) = (tst W 13).1 a.val b.val)
    (hC : ∀ (a : Fin 32) (b : Fin 128), (upto5 W (Proc.devRef .tc main_v252) : FVec Ideal S32x128 .f32) (ix2 a b) = (tst W 13).2 a.val b.val)
    (r : Fin 16) (q : Fin 128) :
    (upto6 W (Proc.devRef .tc main_v295) : FVec Ideal S16x128 .f32) (ix2 r q) = (tst W (13 + 1)).1 r.val q.val
      ∧ (upto6 W (Proc.devRef .tc main_v296) : FVec Ideal S16x128 .f32) (ix2 r q) = (tst W (13 + 1)).2 r.val q.val := by
  have e1 : (upto6 W (Proc.devRef .tc main_v295) : FVec Ideal S16x128 .f32) = tail5Hf (F := Ideal) (W (Proc.devRef .tc main_arg0)) (W (Proc.devRef .tc main_arg1)) (W (Proc.devRef .tc main_arg2)) (W (Proc.devRef .tc main_arg3)) (W (Proc.devRef .tc main_arg4)) (upto5 W (Proc.devRef .tc main_v251)) (upto5 W (Proc.devRef .tc main_v252)) := by
    have h := tail5_hidden (upto5 W)
    rw [arg0_5 W, arg1_5 W, arg2_5 W, arg3_5 W, arg4_5 W] at h
    exact h
  have e2 : (upto6 W (Proc.devRef .tc main_v296) : FVec Ideal S16x128 .f32) = tail5Cf (F := Ideal) (W (Proc.devRef .tc main_arg0)) (W (Proc.devRef .tc main_arg1)) (W (Proc.devRef .tc main_arg2)) (W (Proc.devRef .tc main_arg3)) (W (Proc.devRef .tc main_arg4)) (upto5 W (Proc.devRef .tc main_v251)) (upto5 W (Proc.devRef .tc main_v252)) := by
    have h := tail5_cell (upto5 W)
    rw [arg0_5 W, arg1_5 W, arg2_5 W, arg3_5 W, arg4_5 W] at h
    exact h
  rw [e1, e2, states_fst, states_snd]
  have h := tstep5 (W (Proc.devRef .tc main_arg0)) (W (Proc.devRef .tc main_arg1)) (W (Proc.devRef .tc main_arg2)) (W (Proc.devRef .tc main_arg3)) (W (Proc.devRef .tc main_arg4)) (upto5 W (Proc.devRef .tc main_v251)) (upto5 W (Proc.devRef .tc main_v252)) (rowsOf (tE W) 13) (tst W 13).1 (tst W 13).2
    (fun r k => rows_apply 15 _ slices_S262143x128_S16x128_15_0 (by decide) r k) hH hC r q
  exact h

/-! ## Level 6 of the lines: 8 nodes -/

set_option maxHeartbeats 2000000 in
/-- The level's hidden states are the level step's: the lines, composed, are the host level of Proof/HostLevel.lean. -/
theorem tail6Hf_eq (E : FVec Ideal S262143x128 .f32) (Wih : FVec Ideal S1024x128 .f32) (Whh : FVec Ideal S1024x256 .f32) (bih bhh : FVec Ideal S1024 .f32) (hp cp : FVec Ideal S16x128 .f32) :
    tail6Hf (F := Ideal) E Wih Whh bih bhh hp cp = extractStridedSlice S8x128 ![0, 0] (hiddenT (n := 8) bcast_S_S8x256 slices_S8x1024_S8x256_0_768 (gatesT (n := 8) transposes_S1024x128_S128x1024_1_0 transposes_S1024x256_S256x1024_1_0 bcast_S1024_S1x1024_1 bcast_S1x1024_S8x1024_0_1 shapeCasts_S16x128_S8x256 (extractStridedSlice S8x128 ![7, 0] E slices_S262143x128_S8x128_7_0) hp Wih Whh bih bhh) (cellT (n := 8) shapeCasts_S16x128_S8x256 cp bcast_S_S8x256 slices_S8x1024_S8x256_0_0 slices_S8x1024_S8x256_0_256 slices_S8x1024_S8x256_0_512 (gatesT (n := 8) transposes_S1024x128_S128x1024_1_0 transposes_S1024x256_S256x1024_1_0 bcast_S1024_S1x1024_1 bcast_S1x1024_S8x1024_0_1 shapeCasts_S16x128_S8x256 (extractStridedSlice S8x128 ![7, 0] E slices_S262143x128_S8x128_7_0) hp Wih Whh bih bhh))) slices_S8x256_S8x128_0_0 := rfl

set_option maxHeartbeats 2000000 in
/-- Likewise the cell states. -/
theorem tail6Cf_eq (E : FVec Ideal S262143x128 .f32) (Wih : FVec Ideal S1024x128 .f32) (Whh : FVec Ideal S1024x256 .f32) (bih bhh : FVec Ideal S1024 .f32) (hp cp : FVec Ideal S16x128 .f32) :
    tail6Cf (F := Ideal) E Wih Whh bih bhh hp cp = extractStridedSlice S8x128 ![0, 0] (cellT (n := 8) shapeCasts_S16x128_S8x256 cp bcast_S_S8x256 slices_S8x1024_S8x256_0_0 slices_S8x1024_S8x256_0_256 slices_S8x1024_S8x256_0_512 (gatesT (n := 8) transposes_S1024x128_S128x1024_1_0 transposes_S1024x256_S256x1024_1_0 bcast_S1024_S1x1024_1 bcast_S1x1024_S8x1024_0_1 shapeCasts_S16x128_S8x256 (extractStridedSlice S8x128 ![7, 0] E slices_S262143x128_S8x128_7_0) hp Wih Whh bih bhh)) slices_S8x256_S8x128_0_0 := rfl

set_option maxHeartbeats 2000000 in
/-- The level step on arrays: from arrays that are `x'`, `hp'`, `cp'` entry by entry to the specification's update of them. -/
theorem tstep6 (E : FVec Ideal S262143x128 .f32) (Wih : FVec Ideal S1024x128 .f32) (Whh : FVec Ideal S1024x256 .f32) (bih bhh : FVec Ideal S1024 .f32) (hp cp : FVec Ideal S16x128 .f32) (x' hp' cp' : Mat)
    (hE : ∀ (r : Fin 8) (k : Fin 128), (extractStridedSlice S8x128 ![7, 0] E slices_S262143x128_S8x128_7_0) (ix2 r k) = x' r.val k.val)
    (hH : ∀ (a : Fin 16) (b : Fin 128), hp (ix2 a b) = hp' a.val b.val)
    (hC : ∀ (a : Fin 16) (b : Fin 128), cp (ix2 a b) = cp' a.val b.val) (r : Fin 8) (q : Fin 128) :
    tail6Hf (F := Ideal) E Wih Whh bih bhh hp cp (ix2 r q) = TreeCell.hidden (ofArr Wih) (ofArr Whh) (ofVec bih) (ofVec bhh) x' hp' cp' r.val q.val
      ∧ tail6Cf (F := Ideal) E Wih Whh bih bhh hp cp (ix2 r q) = cell (ofArr Wih) (ofArr Whh) (ofVec bih) (ofVec bhh) x' hp' cp' r.val q.val := by
  rw [tail6Hf_eq, tail6Cf_eq]
  have h := level_step (n := 8) transposes_S1024x128_S128x1024_1_0 transposes_S1024x256_S256x1024_1_0 bcast_S1024_S1x1024_1 bcast_S1x1024_S8x1024_0_1 shapeCasts_S16x128_S8x256 (extractStridedSlice S8x128 ![7, 0] E slices_S262143x128_S8x128_7_0) hp cp Wih Whh bih bhh bcast_S_S8x256 slices_S8x1024_S8x256_0_0 slices_S8x1024_S8x256_0_256 slices_S8x1024_S8x256_0_512 slices_S8x1024_S8x256_0_768 slices_S8x256_S8x128_0_0 x' hp' cp' hE hH hC r q
  exact h

set_option maxHeartbeats 4000000 in
/-- After the level's lines its two result buffers are the specification's states 15 levels above the leaves, if the
    two buffers it read were the states 14 levels above. -/
theorem tlevel6
    (hH : ∀ (a : Fin 16) (b : Fin 128), (upto6 W (Proc.devRef .tc main_v295) : FVec Ideal S16x128 .f32) (ix2 a b) = (tst W 14).1 a.val b.val)
    (hC : ∀ (a : Fin 16) (b : Fin 128), (upto6 W (Proc.devRef .tc main_v296) : FVec Ideal S16x128 .f32) (ix2 a b) = (tst W 14).2 a.val b.val)
    (r : Fin 8) (q : Fin 128) :
    (upto7 W (Proc.devRef .tc main_v339) : FVec Ideal S8x128 .f32) (ix2 r q) = (tst W (14 + 1)).1 r.val q.val
      ∧ (upto7 W (Proc.devRef .tc main_v340) : FVec Ideal S8x128 .f32) (ix2 r q) = (tst W (14 + 1)).2 r.val q.val := by
  have e1 : (upto7 W (Proc.devRef .tc main_v339) : FVec Ideal S8x128 .f32) = tail6Hf (F := Ideal) (W (Proc.devRef .tc main_arg0)) (W (Proc.devRef .tc main_arg1)) (W (Proc.devRef .tc main_arg2)) (W (Proc.devRef .tc main_arg3)) (W (Proc.devRef .tc main_arg4)) (upto6 W (Proc.devRef .tc main_v295)) (upto6 W (Proc.devRef .tc main_v296)) := by
    have h := tail6_hidden (upto6 W)
    rw [arg0_6 W, arg1_6 W, arg2_6 W, arg3_6 W, arg4_6 W] at h
    exact h
  have e2 : (upto7 W (Proc.devRef .tc main_v340) : FVec Ideal S8x128 .f32) = tail6Cf (F := Ideal) (W (Proc.devRef .tc main_arg0)) (W (Proc.devRef .tc main_arg1)) (W (Proc.devRef .tc main_arg2)) (W (Proc.devRef .tc main_arg3)) (W (Proc.devRef .tc main_arg4)) (upto6 W (Proc.devRef .tc main_v295)) (upto6 W (Proc.devRef .tc main_v296)) := by
    have h := tail6_cell (upto6 W)
    rw [arg0_6 W, arg1_6 W, arg2_6 W, arg3_6 W, arg4_6 W] at h
    exact h
  rw [e1, e2, states_fst, states_snd]
  have h := tstep6 (W (Proc.devRef .tc main_arg0)) (W (Proc.devRef .tc main_arg1)) (W (Proc.devRef .tc main_arg2)) (W (Proc.devRef .tc main_arg3)) (W (Proc.devRef .tc main_arg4)) (upto6 W (Proc.devRef .tc main_v295)) (upto6 W (Proc.devRef .tc main_v296)) (rowsOf (tE W) 14) (tst W 14).1 (tst W 14).2
    (fun r k => rows_apply 7 _ slices_S262143x128_S8x128_7_0 (by decide) r k) hH hC r q
  exact h

/-! ## Level 7 of the lines: 4 nodes -/

set_option maxHeartbeats 2000000 in
/-- The level's hidden states are the level step's: the lines, composed, are the host level of Proof/HostLevel.lean. -/
theorem tail7Hf_eq (E : FVec Ideal S262143x128 .f32) (Wih : FVec Ideal S1024x128 .f32) (Whh : FVec Ideal S1024x256 .f32) (bih bhh : FVec Ideal S1024 .f32) (hp cp : FVec Ideal S8x128 .f32) :
    tail7Hf (F := Ideal) E Wih Whh bih bhh hp cp = extractStridedSlice S4x128 ![0, 0] (hiddenT (n := 4) bcast_S_S4x256 slices_S4x1024_S4x256_0_768 (gatesT (n := 4) transposes_S1024x128_S128x1024_1_0 transposes_S1024x256_S256x1024_1_0 bcast_S1024_S1x1024_1 bcast_S1x1024_S4x1024_0_1 shapeCasts_S8x128_S4x256 (extractStridedSlice S4x128 ![3, 0] E slices_S262143x128_S4x128_3_0) hp Wih Whh bih bhh) (cellT (n := 4) shapeCasts_S8x128_S4x256 cp bcast_S_S4x256 slices_S4x1024_S4x256_0_0 slices_S4x1024_S4x256_0_256 slices_S4x1024_S4x256_0_512 (gatesT (n := 4) transposes_S1024x128_S128x1024_1_0 transposes_S1024x256_S256x1024_1_0 bcast_S1024_S1x1024_1 bcast_S1x1024_S4x1024_0_1 shapeCasts_S8x128_S4x256 (extractStridedSlice S4x128 ![3, 0] E slices_S262143x128_S4x128_3_0) hp Wih Whh bih bhh))) slices_S4x256_S4x128_0_0 := rfl

set_option maxHeartbeats 2000000 in
/-- Likewise the cell states. -/
theorem tail7Cf_eq (E : FVec Ideal S262143x128 .f32) (Wih : FVec Ideal S1024x128 .f32) (Whh : FVec Ideal S1024x256 .f32) (bih bhh : FVec Ideal S1024 .f32) (hp cp : FVec Ideal S8x128 .f32) :
    tail7Cf (F := Ideal) E Wih Whh bih bhh hp cp = extractStridedSlice S4x128 ![0, 0] (cellT (n := 4) shapeCasts_S8x128_S4x256 cp bcast_S_S4x256 slices_S4x1024_S4x256_0_0 slices_S4x1024_S4x256_0_256 slices_S4x1024_S4x256_0_512 (gatesT (n := 4) transposes_S1024x128_S128x1024_1_0 transposes_S1024x256_S256x1024_1_0 bcast_S1024_S1x1024_1 bcast_S1x1024_S4x1024_0_1 shapeCasts_S8x128_S4x256 (extractStridedSlice S4x128 ![3, 0] E slices_S262143x128_S4x128_3_0) hp Wih Whh bih bhh)) slices_S4x256_S4x128_0_0 := rfl

set_option maxHeartbeats 2000000 in
/-- The level step on arrays: from arrays that are `x'`, `hp'`, `cp'` entry by entry to the specification's update of them. -/
theorem tstep7 (E : FVec Ideal S262143x128 .f32) (Wih : FVec Ideal S1024x128 .f32) (Whh : FVec Ideal S1024x256 .f32) (bih bhh : FVec Ideal S1024 .f32) (hp cp : FVec Ideal S8x128 .f32) (x' hp' cp' : Mat)
    (hE : ∀ (r : Fin 4) (k : Fin 128), (extractStridedSlice S4x128 ![3, 0] E slices_S262143x128_S4x128_3_0) (ix2 r k) = x' r.val k.val)
    (hH : ∀ (a : Fin 8) (b : Fin 128), hp (ix2 a b) = hp' a.val b.val)
    (hC : ∀ (a : Fin 8) (b : Fin 128), cp (ix2 a b) = cp' a.val b.val) (r : Fin 4) (q : Fin 128) :
    tail7Hf (F := Ideal) E Wih Whh bih bhh hp cp (ix2 r q) = TreeCell.hidden (ofArr Wih) (ofArr Whh) (ofVec bih) (ofVec bhh) x' hp' cp' r.val q.val
      ∧ tail7Cf (F := Ideal) E Wih Whh bih bhh hp cp (ix2 r q) = cell (ofArr Wih) (ofArr Whh) (ofVec bih) (ofVec bhh) x' hp' cp' r.val q.val := by
  rw [tail7Hf_eq, tail7Cf_eq]
  have h := level_step (n := 4) transposes_S1024x128_S128x1024_1_0 transposes_S1024x256_S256x1024_1_0 bcast_S1024_S1x1024_1 bcast_S1x1024_S4x1024_0_1 shapeCasts_S8x128_S4x256 (extractStridedSlice S4x128 ![3, 0] E slices_S262143x128_S4x128_3_0) hp cp Wih Whh bih bhh bcast_S_S4x256 slices_S4x1024_S4x256_0_0 slices_S4x1024_S4x256_0_256 slices_S4x1024_S4x256_0_512 slices_S4x1024_S4x256_0_768 slices_S4x256_S4x128_0_0 x' hp' cp' hE hH hC r q
  exact h

set_option maxHeartbeats 4000000 in
/-- After the level's lines its two result buffers are the specification's states 16 levels above the leaves, if the
    two buffers it read were the states 15 levels above. -/
theorem tlevel7
    (hH : ∀ (a : Fin 8) (b : Fin 128), (upto7 W (Proc.devRef .tc main_v339) : FVec Ideal S8x128 .f32) (ix2 a b) = (tst W 15).1 a.val b.val)
    (hC : ∀ (a : Fin 8) (b : Fin 128), (upto7 W (Proc.devRef .tc main_v340) : FVec Ideal S8x128 .f32) (ix2 a b) = (tst W 15).2 a.val b.val)
    (r : Fin 4) (q : Fin 128) :
    (upto8 W (Proc.devRef .tc main_v383) : FVec Ideal S4x128 .f32) (ix2 r q) = (tst W (15 + 1)).1 r.val q.val
      ∧ (upto8 W (Proc.devRef .tc main_v384) : FVec Ideal S4x128 .f32) (ix2 r q) = (tst W (15 + 1)).2 r.val q.val := by
  have e1 : (upto8 W (Proc.devRef .tc main_v383) : FVec Ideal S4x128 .f32) = tail7Hf (F := Ideal) (W (Proc.devRef .tc main_arg0)) (W (Proc.devRef .tc main_arg1)) (W (Proc.devRef .tc main_arg2)) (W (Proc.devRef .tc main_arg3)) (W (Proc.devRef .tc main_arg4)) (upto7 W (Proc.devRef .tc main_v339)) (upto7 W (Proc.devRef .tc main_v340)) := by
    have h := tail7_hidden (upto7 W)
    rw [arg0_7 W, arg1_7 W, arg2_7 W, arg3_7 W, arg4_7 W] at h
    exact h
  have e2 : (upto8 W (Proc.devRef .tc main_v384) : FVec Ideal S4x128 .f32) = tail7Cf (F := Ideal) (W (Proc.devRef .tc main_arg0)) (W (Proc.devRef .tc main_arg1)) (W (Proc.devRef .tc main_arg2)) (W (Proc.devRef .tc main_arg3)) (W (Proc.devRef .tc main_arg4)) (upto7 W (Proc.devRef .tc main_v339)) (upto7 W (Proc.devRef .tc main_v340)) := by
    have h := tail7_cell (upto7 W)
    rw [arg0_7 W, arg1_7 W, arg2_7 W, arg3_7 W, arg4_7 W] at h
    exact h
  rw [e1, e2, states_fst, states_snd]
  have h := tstep7 (W (Proc.devRef .tc main_arg0)) (W (Proc.devRef .tc main_arg1)) (W (Proc.devRef .tc main_arg2)) (W (Proc.devRef .tc main_arg3)) (W (Proc.devRef .tc main_arg4)) (upto7 W (Proc.devRef .tc main_v339)) (upto7 W (Proc.devRef .tc main_v340)) (rowsOf (tE W) 15) (tst W 15).1 (tst W 15).2
    (fun r k => rows_apply 3 _ slices_S262143x128_S4x128_3_0 (by decide) r k) hH hC r q
  exact h

/-! ## Level 8 of the lines: 2 nodes -/

set_option maxHeartbeats 2000000 in
/-- The level's hidden states are the level step's: the lines, composed, are the host level of Proof/HostLevel.lean. -/
theorem tail8Hf_eq (E : FVec Ideal S262143x128 .f32) (Wih : FVec Ideal S1024x128 .f32) (Whh : FVec Ideal S1024x256 .f32) (bih bhh : FVec Ideal S1024 .f32) (hp cp : FVec Ideal S4x128 .f32) :
    tail8Hf (F := Ideal) E Wih Whh bih bhh hp cp = extractStridedSlice S2x128 ![0, 0] (hiddenT (n := 2) bcast_S_S2x256 slices_S2x1024_S2x256_0_768 (gatesT (n := 2) transposes_S1024x128_S128x1024_1_0 transposes_S1024x256_S256x1024_1_0 bcast_S1024_S1x1024_1 bcast_S1x1024_S2x1024_0_1 shapeCasts_S4x128_S2x256 (extractStridedSlice S2x128 ![1, 0] E slices_S262143x128_S2x128_1_0) hp Wih Whh bih bhh) (cellT (n := 2) shapeCasts_S4x128_S2x256 cp bcast_S_S2x256 slices_S2x1024_S2x256_0_0 slices_S2x1024_S2x256_0_256 slices_S2x1024_S2x256_0_512 (gatesT (n := 2) transposes_S1024x128_S128x1024_1_0 transposes_S1024x256_S256x1024_1_0 bcast_S1024_S1x1024_1 bcast_S1x1024_S2x1024_0_1 shapeCasts_S4x128_S2x256 (extractStridedSlice S2x128 ![1, 0] E slices_S262143x128_S2x128_1_0) hp Wih Whh bih bhh))) slices_S2x256_S2x128_0_0 := rfl

set_option maxHeartbeats 2000000 in
/-- Likewise the cell states. -/
theorem tail8Cf_eq (E : FVec Ideal S262143x128 .f32) (Wih : FVec Ideal S1024x128 .f32) (Whh : FVec Ideal S1024x256 .f32) (bih bhh : FVec Ideal S1024 .f32) (hp cp : FVec Ideal S4x128 .f32) :
    tail8Cf (F := Ideal) E Wih Whh bih bhh hp cp = extractStridedSlice S2x128 ![0, 0] (cellT (n := 2) shapeCasts_S4x128_S2x256 cp bcast_S_S2x256 slices_S2x1024_S2x256_0_0 slices_S2x1024_S2x256_0_256 slices_S2x1024_S2x256_0_512 (gatesT (n := 2) transposes_S1024x128_S128x1024_1_0 transposes_S1024x256_S256x1024_1_0 bcast_S1024_S1x1024_1 bcast_S1x1024_S2x1024_0_1 shapeCasts_S4x128_S2x256 (extractStridedSlice S2x128 ![1, 0] E slices_S262143x128_S2x128_1_0) hp Wih Whh bih bhh)) slices_S2x256_S2x128_0_0 := rfl

set_option maxHeartbeats 2000000 in
/-- The level step on arrays: from arrays that are `x'`, `hp'`, `cp'` entry by entry to the specification's update of them. -/
theorem tstep8 (E : FVec Ideal S262143x128 .f32) (Wih : FVec Ideal S1024x128 .f32) (Whh : FVec Ideal S1024x256 .f32) (bih bhh : FVec Ideal S1024 .f32) (hp cp : FVec Ideal S4x128 .f32) (x' hp' cp' : Mat)
    (hE : ∀ (r : Fin 2) (k : Fin 128), (extractStridedSlice S2x128 ![1, 0] E slices_S262143x128_S2x128_1_0) (ix2 r k) = x' r.val k.val)
    (hH : ∀ (a : Fin 4) (b : Fin 128), hp (ix2 a b) = hp' a.val b.val)
    (hC : ∀ (a : Fin 4) (b : Fin 128), cp (ix2 a b) = cp' a.val b.val) (r : Fin 2) (q : Fin 128) :
    tail8Hf (F := Ideal) E Wih Whh bih bhh hp cp (ix2 r q) = TreeCell.hidden (ofArr Wih) (ofArr Whh) (ofVec bih) (ofVec bhh) x' hp' cp' r.val q.val
      ∧ tail8Cf (F := Ideal) E Wih Whh bih bhh hp cp (ix2 r q) = cell (ofArr Wih) (ofArr Whh) (ofVec bih) (ofVec bhh) x' hp' cp' r.val q.val := by
  rw [tail8Hf_eq, tail8Cf_eq]
  have h := level_step (n := 2) transposes_S1024x128_S128x1024_1_0 transposes_S1024x256_S256x1024_1_0 bcast_S1024_S1x1024_1 bcast_S1x1024_S2x1024_0_1 shapeCasts_S4x128_S2x256 (extractStridedSlice S2x128 ![1, 0] E slices_S262143x128_S2x128_1_0) hp cp Wih Whh bih bhh bcast_S_S2x256 slices_S2x1024_S2x256_0_0 slices_S2x1024_S2x256_0_256 slices_S2x1024_S2x256_0_512 slices_S2x1024_S2x256_0_768 slices_S2x256_S2x128_0_0 x' hp' cp' hE hH hC r q
  exact h

set_option maxHeartbeats 4000000 in
/-- After the level's lines its two result buffers are the specification's states 17 levels above the leaves, if the
    two buffers it read were the states 16 levels above. -/
theorem tlevel8
    (hH : ∀ (a : Fin 4) (b : Fin 128), (upto8 W (Proc.devRef .tc main_v383) : FVec Ideal S4x128 .f32) (ix2 a b) = (tst W 16).1 a.val b.val)
    (hC : ∀ (a : Fin 4) (b : Fin 128), (upto8 W (Proc.devRef .tc main_v384) : FVec Ideal S4x128 .f32) (ix2 a b) = (tst W 16).2 a.val b.val)
    (r : Fin 2) (q : Fin 128) :
    (upto9 W (Proc.devRef .tc main_v427) : FVec Ideal S2x128 .f32) (ix2 r q) = (tst W (16 + 1)).1 r.val q.val
      ∧ (upto9 W (Proc.devRef .tc main_v428) : FVec Ideal S2x128 .f32) (ix2 r q) = (tst W (16 + 1)).2 r.val q.val := by
  have e1 : (upto9 W (Proc.devRef .tc main_v427) : FVec Ideal S2x128 .f32) = tail8Hf (F := Ideal) (W (Proc.devRef .tc main_arg0)) (W (Proc.devRef .tc main_arg1)) (W (Proc.devRef .tc main_arg2)) (W (Proc.devRef .tc main_arg3)) (W (Proc.devRef .tc main_arg4)) (upto8 W (Proc.devRef .tc main_v383)) (upto8 W (Proc.devRef .tc main_v384)) := by
    have h := tail8_hidden (upto8 W)
    rw [arg0_8 W, arg1_8 W, arg2_8 W, arg3_8 W, arg4_8 W] at h
    exact h
  have e2 : (upto9 W (Proc.devRef .tc main_v428) : FVec Ideal S2x128 .f32) = tail8Cf (F := Ideal) (W (Proc.devRef .tc main_arg0)) (W (Proc.devRef .tc main_arg1)) (W (Proc.devRef .tc main_arg2)) (W (Proc.devRef .tc main_arg3)) (W (Proc.devRef .tc main_arg4)) (upto8 W (Proc.devRef .tc main_v383)) (upto8 W (Proc.devRef .tc main_v384)) := by
    have h := tail8_cell (upto8 W)
    rw [arg0_8 W, arg1_8 W, arg2_8 W, arg3_8 W, arg4_8 W] at h
    exact h
  rw [e1, e2, states_fst, states_snd]
  have h := tstep8 (W (Proc.devRef .tc main_arg0)) (W (Proc.devRef .tc main_arg1)) (W (Proc.devRef .tc main_arg2)) (W (Proc.devRef .tc main_arg3)) (W (Proc.devRef .tc main_arg4)) (upto8 W (Proc.devRef .tc main_v383)) (upto8 W (Proc.devRef .tc main_v384)) (rowsOf (tE W) 16) (tst W 16).1 (tst W 16).2
    (fun r k => rows_apply 1 _ slices_S262143x128_S2x128_1_0 (by decide) r k) hH hC r q
  exact h

/-! ## Level 9 of the lines: 1 node -/

set_option maxHeartbeats 2000000 in
/-- The level's hidden states are the level step's: the lines, composed, are the host level of Proof/HostLevel.lean. -/
theorem tail9Hf_eq (E : FVec Ideal S262143x128 .f32) (Wih : FVec Ideal S1024x128 .f32) (Whh : FVec Ideal S1024x256 .f32) (bih bhh : FVec Ideal S1024 .f32) (hp cp : FVec Ideal S2x128 .f32) :
    tail9Hf (F := Ideal) E Wih Whh bih bhh hp cp = extractStridedSlice S1x128 ![0, 0] (hiddenT (n := 1) bcast_S_S1x256 slices_S1x1024_S1x256_0_768 (gatesT1 transposes_S1024x128_S128x1024_1_0 transposes_S1024x256_S256x1024_1_0 bcast_S1024_S1x1024_1 Wih Whh bih bhh shapeCasts_S2x128_S1x256 (extractStridedSlice S1x128 ![0, 0] E slices_S262143x128_S1x128_0_0) hp) (cellT (n := 1) shapeCasts_S2x128_S1x256 cp bcast_S_S1x256 slices_S1x1024_S1x256_0_0 slices_S1x1024_S1x256_0_256 slices_S1x1024_S1x256_0_512 (gatesT1 transposes_S1024x128_S128x1024_1_0 transposes_S1024x256_S256x1024_1_0 bcast_S1024_S1x1024_1 Wih Whh bih bhh shapeCasts_S2x128_S1x256 (extractStridedSlice S1x128 ![0, 0] E slices_S262143x128_S1x128_0_0) hp))) slices_S1x256_S1x128_0_0 := rfl

set_option maxHeartbeats 2000000 in
/-- Likewise the cell states. -/
theorem tail9Cf_eq (E : FVec Ideal S262143x128 .f32) (Wih : FVec Ideal S1024x128 .f32) (Whh : FVec Ideal S1024x256 .f32) (bih bhh : FVec Ideal S1024 .f32) (hp cp : FVec Ideal S2x128 .f32) :
    tail9Cf (F := Ideal) E Wih Whh bih bhh hp cp = extractStridedSlice S1x128 ![0, 0] (cellT (n := 1) shapeCasts_S2x128_S1x256 cp bcast_S_S1x256 slices_S1x1024_S1x256_0_0 slices_S1x1024_S1x256_0_256 slices_S1x1024_S1x256_0_512 (gatesT1 transposes_S1024x128_S128x1024_1_0 transposes_S1024x256_S256x1024_1_0 bcast_S1024_S1x1024_1 Wih Whh bih bhh shapeCasts_S2x128_S1x256 (extractStridedSlice S1x128 ![0, 0] E slices_S262143x128_S1x128_0_0) hp)) slices_S1x256_S1x128_0_0 := rfl

set_option maxHeartbeats 2000000 in
/-- The level step on arrays: from arrays that are `x'`, `hp'`, `cp'` entry by entry to the specification's update of them. -/
theorem tstep9 (E : FVec Ideal S262143x128 .f32) (Wih : FVec Ideal S1024x128 .f32) (Whh : FVec Ideal S1024x256 .f32) (bih bhh : FVec Ideal S1024 .f32) (hp cp : FVec Ideal S2x128 .f32) (x' hp' cp' : Mat)
    (hE : ∀ (r : Fin 1) (k : Fin 128), (extractStridedSlice S1x128 ![0, 0] E slices_S262143x128_S1x128_0_0) (ix2 r k) = x' r.val k.val)
    (hH : ∀ (a : Fin 2) (b : Fin 128), hp (ix2 a b) = hp' a.val b.val)
    (hC : ∀ (a : Fin 2) (b : Fin 128), cp (ix2 a b) = cp' a.val b.val) (r : Fin 1) (q : Fin 128) :
    tail9Hf (F := Ideal) E Wih Whh bih bhh hp cp (ix2 r q) = TreeCell.hidden (ofArr Wih) (ofArr Whh) (ofVec bih) (ofVec bhh) x' hp' cp' r.val q.val
      ∧ tail9Cf (F := Ideal) E Wih Whh bih bhh hp cp (ix2 r q) = cell (ofArr Wih) (ofArr Whh) (ofVec bih) (ofVec bhh) x' hp' cp' r.val q.val := by
  rw [tail9Hf_eq, tail9Cf_eq]
  have h := level_step1 transposes_S1024x128_S128x1024_1_0 transposes_S1024x256_S256x1024_1_0 bcast_S1024_S1x1024_1 Wih Whh bih bhh shapeCasts_S2x128_S1x256 bcast_S_S1x256 slices_S1x1024_S1x256_0_0 slices_S1x1024_S1x256_0_256 slices_S1x1024_S1x256_0_512 slices_S1x1024_S1x256_0_768 slices_S1x256_S1x128_0_0 (extractStridedSlice S1x128 ![0, 0] E slices_S262143x128_S1x128_0_0) hp cp x' hp' cp' hE hH hC r q
  exact h

set_option maxHeartbeats 4000000 in
/-- After the level's lines its two result buffers are the specification's states 18 levels above the leaves, if the
    two buffers it read were the states 17 levels above. -/
theorem tlevel9
    (hH : ∀ (a : Fin 2) (b : Fin 128), (upto9 W (Proc.devRef .tc main_v427) : FVec Ideal S2x128 .f32) (ix2 a b) = (tst W 17).1 a.val b.val)
    (hC : ∀ (a : Fin 2) (b : Fin 128), (upto9 W (Proc.devRef .tc main_v428) : FVec Ideal S2x128 .f32) (ix2 a b) = (tst W 17).2 a.val b.val)
    (r : Fin 1) (q : Fin 128) :
    (upto10 W (Proc.devRef .tc main_v469) : FVec Ideal S1x128 .f32) (ix2 r q) = (tst W (17 + 1)).1 r.val q.val
      ∧ (upto10 W (Proc.devRef .tc main_v470) : FVec Ideal S1x128 .f32) (ix2 r q) = (tst W (17 + 1)).2 r.val q.val := by
  have e1 : (upto10 W (Proc.devRef .tc main_v469) : FVec Ideal S1x128 .f32) = tail9Hf (F := Ideal) (W (Proc.devRef .tc main_arg0)) (W (Proc.devRef .tc main_arg1)) (W (Proc.devRef .tc main_arg2)) (W (Proc.devRef .tc main_arg3)) (W (Proc.devRef .tc main_arg4)) (upto9 W (Proc.devRef .tc main_v427)) (upto9 W (Proc.devRef .tc main_v428)) := by
    have h := tail9_hidden (upto9 W)
    rw [arg0_9 W, arg1_9 W, arg2_9 W, arg3_9 W, arg4_9 W] at h
    exact h
  have e2 : (upto10 W (Proc.devRef .tc main_v470) : FVec Ideal S1x128 .f32) = tail9Cf (F := Ideal) (W (Proc.devRef .tc main_arg0)) (W (Proc.devRef .tc main_arg1)) (W (Proc.devRef .tc main_arg2)) (W (Proc.devRef .tc main_arg3)) (W (Proc.devRef .tc main_arg4)) (upto9 W (Proc.devRef .tc main_v427)) (upto9 W (Proc.devRef .tc main_v428)) := by
    have h := tail9_cell (upto9 W)
    rw [arg0_9 W, arg1_9 W, arg2_9 W, arg3_9 W, arg4_9 W] at h
    exact h
  rw [e1, e2, states_fst, states_snd]
  have h := tstep9 (W (Proc.devRef .tc main_arg0)) (W (Proc.devRef .tc main_arg1)) (W (Proc.devRef .tc main_arg2)) (W (Proc.devRef .tc main_arg3)) (W (Proc.devRef .tc main_arg4)) (upto9 W (Proc.devRef .tc main_v427)) (upto9 W (Proc.devRef .tc main_v428)) (rowsOf (tE W) 17) (tst W 17).1 (tst W 17).2
    (fun r k => rows_apply 0 _ slices_S262143x128_S1x128_0_0 (by decide) r k) hH hC r q
  exact h

/-! ## The result -/

/-- The contents after all the lines. -/
def afterAll : Valuation τ sig (Elt Ideal) := after tailConcat (upto10 W)

theorem afterAll_eq : after (List.flatten (linesAfter : List (List (HloOp τ sig (Elt Ideal))))) W = afterAll W := by
  rw [tail_cut]
  simp only [after_append]
  rfl

set_option maxHeartbeats 4000000 in
/-- The last line puts the root's two rows side by side. -/
theorem result_eq : afterAll W (Proc.devRef .tc main_v471)
    = concatenate S1x256 1 [⟨S1x128, upto10 W (Proc.devRef .tc main_v469)⟩, ⟨S1x128, upto10 W (Proc.devRef .tc main_v470)⟩] concatenates_S1x128_S1x128_S1x256_d1 := by
  unfold afterAll
  simp only [tailConcat]
  after_results_simp
  all_goals (first | rfl | (simp only [] <;> rfl))

/-- If the region's two results are the specification's states eight levels above the leaves, the result buffer after
    all the lines is the specification's root. -/
theorem tail_result
    (hH : ∀ (a : Fin 1024) (b : Fin 128), (W (Proc.devRef .tc main_v32_0) : FVec Ideal S1024x128 .f32) (ix2 a b) = (tst W 8).1 a.val b.val)
    (hC : ∀ (a : Fin 1024) (b : Fin 128), (W (Proc.devRef .tc main_v32_1) : FVec Ideal S1024x128 .f32) (ix2 a b) = (tst W 8).2 a.val b.val)
    (j : Fin 256) :
    (after (List.flatten (linesAfter : List (List (HloOp τ sig (Elt Ideal))))) W (Proc.devRef .tc main_v471) : FVec Ideal S1x256 .f32) (ix2 (0 : Fin 1) j)
      = root (tWih W) (tWhh W) (tbih W) (tbhh W) (tE W) j.val := by
  have l0 := tlevel0 W hH hC
  have l1 := tlevel1 W (fun a b => (l0 a b).1) (fun a b => (l0 a b).2)
  have l2 := tlevel2 W (fun a b => (l1 a b).1) (fun a b => (l1 a b).2)
  have l3 := tlevel3 W (fun a b => (l2 a b).1) (fun a b => (l2 a b).2)
  have l4 := tlevel4 W (fun a b => (l3 a b).1) (fun a b => (l3 a b).2)
  have l5 := tlevel5 W (fun a b => (l4 a b).1) (fun a b => (l4 a b).2)
  have l6 := tlevel6 W (fun a b => (l5 a b).1) (fun a b => (l5 a b).2)
  have l7 := tlevel7 W (fun a b => (l6 a b).1) (fun a b => (l6 a b).2)
  have l8 := tlevel8 W (fun a b => (l7 a b).1) (fun a b => (l7 a b).2)
  have l9 := tlevel9 W (fun a b => (l8 a b).1) (fun a b => (l8 a b).2)
  rw [afterAll_eq, result_eq]
  exact result_root (tWih W) (tWhh W) (tbih W) (tbhh W) (tE W) _ _ concatenates_S1x128_S1x128_S1x256_d1
    (fun r b => (l9 r b).1) (fun r b => (l9 r b).2) j

end Cert.KernelIdeal.Fused

end
-- ==== Proof.KernelLevel.lean ====
/-
  One level of the tree as the fused body computes it, read at an index.

  The body keeps, of each 256-wide gate block, only the 128 columns the next level reads: its weights arrive
  transposed and cut to 512 columns, column 128·g + j of the cut standing for gate 256·g + j (g the block: input,
  forget, candidate, output; j < 128). With `x` the level's rows of a chunk, `hloc` and `cloc` the children's hidden and
  cell states two rows side by side, the body computes

      gates = ((x · W_ihᵀ + hloc · W_hhᵀ) + b_ih) + b_hh           (matrix-unit products into a zero accumulator),
      c = σ(gates[128 + j]) · cloc[j] + σ(gates[j]) · tanh(gates[256 + j]),     h = σ(gates[384 + j]) · tanh(c),

  σ the logistic function. The sum is grouped differently from the specification's ((x·W + b_ih) + h·W') + b_hh; on
  the extended reals addition is commutative and associative (no finiteness is needed), so the two agree.
-/
import proofs.«177989_j29394756173864_2_alg».proof.Proof.Spec
import proofs.«177989_j29394756173864_2_alg».proof.Proof.LibPlainDot
import proofs.«177989_j29394756173864_2_alg».proof.Proof.HostLevel
import Idealize.ShloMosaic.Lib.Pipeline.Value
import Idealize.ShloMosaic.Lib.ValueIdx
import Idealize.ShloMosaic.PureOps.Ideal.Laws

noncomputable section

namespace Cert.KernelLevel

open Idealize.ShloMosaic Idealize.ShloMosaic.ValueIdx Cert.TreeCell Cert.PlainDot Cert.HostLevel

/-- The gate that column `q` of the cut weights stands for. -/
def slim (q : ℕ) : ℕ := 256 * (q / 128) + q % 128

theorem slim_block (g j : ℕ) (hj : j < 128) : slim (128 * g + j) = 256 * g + j := by
  unfold slim
  have h1 : (128 * g + j) / 128 = g := by omega
  have h2 : (128 * g + j) % 128 = j := by omega
  rw [h1, h2]

/-! ## Layout operations of these shapes, read at an index -/

/-- A [1, 512] row broadcast along `n` rows, at (r, q), is the row at (0, q). -/
theorem rowBias_apply {n : ℕ} (v : (⟨2, ![1, 512]⟩ : Shape).Idx → EReal)
    (hB : (⟨2, ![1, 512]⟩ : Shape).Broadcasts ⟨2, ![n, 512]⟩) (r : Fin n) (q : Fin 512) :
    broadcastTo ⟨2, ![n, 512]⟩ v hB (ix2 r q) = v (ix2 (0 : Fin 1) q) :=
  broadcastTo_apply v hB (ix2 r q) (ix2 (0 : Fin 1) q) (fun a => by match a with | ⟨0, _⟩ => rfl | ⟨1, _⟩ => rfl)

/-- A column slice of width 128 at column offset `o` of an [n, 512] matrix, at (r, j), is the matrix at (r, o + j). -/
theorem kcols_apply {n : ℕ} (o : ℕ) (G : (⟨2, ![n, 512]⟩ : Shape).Idx → EReal)
    (h : (⟨2, ![n, 512]⟩ : Shape).Slices ![0, o] ⟨2, ![n, 128]⟩) (ho : o + 128 ≤ 512) (r : Fin n) (j : Fin 128) :
    extractStridedSlice ⟨2, ![n, 128]⟩ ![0, o] G h (ix2 r j) = G (ix2 r ⟨o + j.val, by have := j.isLt; omega⟩) :=
  extractStridedSlice_apply ![0, o] G h (ix2 r j) _ (fun a => by
    match a with
    | ⟨0, _⟩ => show r.val = 0 + r.val; omega
    | ⟨1, _⟩ => rfl)

/-! ## The cut of the weights: four blocks of 128 rows, at rows 0, 256, 512, 768, stacked -/

/-- Rows `o … o + 127` of a [1024, K] matrix, at (r, k), are the matrix at (o + r, k). -/
theorem block_rows_apply {K : ℕ} (o : ℕ) (W : (⟨2, ![1024, K]⟩ : Shape).Idx → EReal)
    (h : (⟨2, ![1024, K]⟩ : Shape).Slices ![o, 0] ⟨2, ![128, K]⟩) (ho : o + 128 ≤ 1024) (r : Fin 128) (k : Fin K) :
    extractStridedSlice ⟨2, ![128, K]⟩ ![o, 0] W h (ix2 r k) = ofArr W (o + r.val) k.val := by
  rw [extractStridedSlice_apply ![o, 0] W h (ix2 r k) (ix2 ⟨o + r.val, by have := r.isLt; omega⟩ k) (fun a => by
    match a with
    | ⟨0, _⟩ => rfl
    | ⟨1, _⟩ => show k.val = 0 + k.val; omega)]
  exact (ofArr_apply W ⟨o + r.val, by have := r.isLt; omega⟩ k).symm

/-- The four kept row blocks of a [1024, K] matrix stacked: row q of the stack is row `slim q` of the matrix. -/
theorem cut_rows_apply {K : ℕ} (W : (⟨2, ![1024, K]⟩ : Shape).Idx → EReal)
    (h0 : (⟨2, ![1024, K]⟩ : Shape).Slices ![0, 0] ⟨2, ![128, K]⟩)
    (h1 : (⟨2, ![1024, K]⟩ : Shape).Slices ![256, 0] ⟨2, ![128, K]⟩)
    (h2 : (⟨2, ![1024, K]⟩ : Shape).Slices ![512, 0] ⟨2, ![128, K]⟩)
    (h3 : (⟨2, ![1024, K]⟩ : Shape).Slices ![768, 0] ⟨2, ![128, K]⟩)
    (hc : Shape.Concatenates [(⟨2, ![128, K]⟩ : Shape), ⟨2, ![128, K]⟩, ⟨2, ![128, K]⟩, ⟨2, ![128, K]⟩] ⟨2, ![512, K]⟩ 0)
    (q : Fin 512) (k : Fin K) :
    concatenate ⟨2, ![512, K]⟩ 0 [⟨⟨2, ![128, K]⟩, extractStridedSlice ⟨2, ![128, K]⟩ ![0, 0] W h0⟩,
        ⟨⟨2, ![128, K]⟩, extractStridedSlice ⟨2, ![128, K]⟩ ![256, 0] W h1⟩,
        ⟨⟨2, ![128, K]⟩, extractStridedSlice ⟨2, ![128, K]⟩ ![512, 0] W h2⟩,
        ⟨⟨2, ![128, K]⟩, extractStridedSlice ⟨2, ![128, K]⟩ ![768, 0] W h3⟩] hc (ix2 q k)
      = ofArr W (slim q.val) k.val := by
  have hq := q.isLt
  have hm : q.val % 128 < 128 := Nat.mod_lt _ (by decide)
  have hoff : ∀ b : Fin 2, b.cast (rfl : (2 : ℕ) = 2) ≠ (0 : Fin 2) →
      ((ix2 (⟨q.val % 128, hm⟩ : Fin 128) k) b).val = ((ix2 q k) (b.cast rfl)).val := fun b hb => by
    match b with
    | ⟨0, _⟩ => exact absurd rfl hb
    | ⟨1, _⟩ => rfl
  have key := concatenate_apply_piece (t := ⟨2, ![512, K]⟩) (0 : Fin 2)
      [⟨⟨2, ![128, K]⟩, extractStridedSlice ⟨2, ![128, K]⟩ ![0, 0] W h0⟩,
        ⟨⟨2, ![128, K]⟩, extractStridedSlice ⟨2, ![128, K]⟩ ![256, 0] W h1⟩,
        ⟨⟨2, ![128, K]⟩, extractStridedSlice ⟨2, ![128, K]⟩ ![512, 0] W h2⟩,
        ⟨⟨2, ![128, K]⟩, extractStridedSlice ⟨2, ![128, K]⟩ ![768, 0] W h3⟩] hc (ix2 q k)
  rcases (by omega : q.val / 128 = 0 ∨ q.val / 128 = 1 ∨ q.val / 128 = 2 ∨ q.val / 128 = 3) with hg | hg | hg | hg
  · refine (key 0 (by simp) _ _ rfl rfl 0 (by rfl)
      (ix2 ⟨q.val % 128, hm⟩ k) hoff (by show 0 + q.val % 128 = q.val; omega)).trans ?_
    rw [block_rows_apply 0 W h0 (by decide)]; unfold slim; rw [hg]
  · refine (key 1 (by simp) _ _ rfl rfl 128 (by rfl)
      (ix2 ⟨q.val % 128, hm⟩ k) hoff (by show 128 + q.val % 128 = q.val; omega)).trans ?_
    rw [block_rows_apply 256 W h1 (by decide)]; unfold slim; rw [hg]
  · refine (key 2 (by simp) _ _ rfl rfl 256 (by rfl)
      (ix2 ⟨q.val % 128, hm⟩ k) hoff (by show 256 + q.val % 128 = q.val; omega)).trans ?_
    rw [block_rows_apply 512 W h2 (by decide)]; unfold slim; rw [hg]
  · refine (key 3 (by simp) _ _ rfl rfl 384 (by rfl)
      (ix2 ⟨q.val % 128, hm⟩ k) hoff (by show 384 + q.val % 128 = q.val; omega)).trans ?_
    rw [block_rows_apply 768 W h3 (by decide)]; unfold slim; rw [hg]

/-- Entries `o … o + 127` of a [1024] vector, at r, are the vector at o + r. -/
theorem block_vec_apply (o : ℕ) (b : (⟨1, ![1024]⟩ : Shape).Idx → EReal)
    (h : (⟨1, ![1024]⟩ : Shape).Slices ![o] ⟨1, ![128]⟩) (ho : o + 128 ≤ 1024) (r : Fin 128) :
    extractStridedSlice ⟨1, ![128]⟩ ![o] b h (ix1 r) = ofVec b (o + r.val) := by
  rw [extractStridedSlice_apply ![o] b h (ix1 r) (ix1 ⟨o + r.val, by have := r.isLt; omega⟩) (fun a => by
    match a with
    | ⟨0, _⟩ => rfl)]
  exact (ofVec_apply b ⟨o + r.val, by have := r.isLt; omega⟩).symm

/-- The four kept blocks of a [1024] vector stacked: entry q of the stack is entry `slim q` of the vector. -/
theorem cut_vec_apply (b : (⟨1, ![1024]⟩ : Shape).Idx → EReal)
    (h0 : (⟨1, ![1024]⟩ : Shape).Slices ![0] ⟨1, ![128]⟩) (h1 : (⟨1, ![1024]⟩ : Shape).Slices ![256] ⟨1, ![128]⟩)
    (h2 : (⟨1, ![1024]⟩ : Shape).Slices ![512] ⟨1, ![128]⟩) (h3 : (⟨1, ![1024]⟩ : Shape).Slices ![768] ⟨1, ![128]⟩)
    (hc : Shape.Concatenates [(⟨1, ![128]⟩ : Shape), ⟨1, ![128]⟩, ⟨1, ![128]⟩, ⟨1, ![128]⟩] ⟨1, ![512]⟩ 0) (q : Fin 512) :
    concatenate ⟨1, ![512]⟩ 0 [⟨⟨1, ![128]⟩, extractStridedSlice ⟨1, ![128]⟩ ![0] b h0⟩,
        ⟨⟨1, ![128]⟩, extractStridedSlice ⟨1, ![128]⟩ ![256] b h1⟩,
        ⟨⟨1, ![128]⟩, extractStridedSlice ⟨1, ![128]⟩ ![512] b h2⟩,
        ⟨⟨1, ![128]⟩, extractStridedSlice ⟨1, ![128]⟩ ![768] b h3⟩] hc (ix1 q)
      = ofVec b (slim q.val) := by
  have hq := q.isLt
  have hm : q.val % 128 < 128 := Nat.mod_lt _ (by decide)
  have hoff : ∀ d : Fin 1, d.cast (rfl : (1 : ℕ) = 1) ≠ (0 : Fin 1) →
      ((ix1 (⟨q.val % 128, hm⟩ : Fin 128)) d).val = ((ix1 q) (d.cast rfl)).val := fun d hd => by
    match d with
    | ⟨0, _⟩ => exact absurd rfl hd
  have key := concatenate_apply_piece (t := ⟨1, ![512]⟩) (0 : Fin 1)
      [⟨⟨1, ![128]⟩, extractStridedSlice ⟨1, ![128]⟩ ![0] b h0⟩,
        ⟨⟨1, ![128]⟩, extractStridedSlice ⟨1, ![128]⟩ ![256] b h1⟩,
        ⟨⟨1, ![128]⟩, extractStridedSlice ⟨1, ![128]⟩ ![512] b h2⟩,
        ⟨⟨1, ![128]⟩, extractStridedSlice ⟨1, ![128]⟩ ![768] b h3⟩] hc (ix1 q)
  rcases (by omega : q.val / 128 = 0 ∨ q.val / 128 = 1 ∨ q.val / 128 = 2 ∨ q.val / 128 = 3) with hg | hg | hg | hg
  · refine (key 0 (by simp) _ _ rfl rfl 0 (by rfl) (ix1 ⟨q.val % 128, hm⟩) hoff (by show 0 + q.val % 128 = q.val; omega)).trans ?_
    rw [block_vec_apply 0 b h0 (by decide)]; unfold slim; rw [hg]
  · refine (key 1 (by simp) _ _ rfl rfl 128 (by rfl) (ix1 ⟨q.val % 128, hm⟩) hoff (by show 128 + q.val % 128 = q.val; omega)).trans ?_
    rw [block_vec_apply 256 b h1 (by decide)]; unfold slim; rw [hg]
  · refine (key 2 (by simp) _ _ rfl rfl 256 (by rfl) (ix1 ⟨q.val % 128, hm⟩) hoff (by show 256 + q.val % 128 = q.val; omega)).trans ?_
    rw [block_vec_apply 512 b h2 (by decide)]; unfold slim; rw [hg]
  · refine (key 3 (by simp) _ _ rfl rfl 384 (by rfl) (ix1 ⟨q.val % 128, hm⟩) hoff (by show 384 + q.val % 128 = q.val; omega)).trans ?_
    rw [block_vec_apply 768 b h3 (by decide)]; unfold slim; rw [hg]

/-- A [512] vector read as the one row of a [1, 512] matrix: entry (0, q) is entry q. -/
theorem asRow_apply (v : (⟨1, ![512]⟩ : Shape).Idx → EReal) (h : (⟨1, ![512]⟩ : Shape).ShapeCasts ⟨2, ![1, 512]⟩) (q : Fin 512) :
    shapeCast ⟨2, ![1, 512]⟩ v h (ix2 (0 : Fin 1) q) = v (ix1 q) := by
  refine shapeCast_apply v h (ix2 (0 : Fin 1) q) (ix1 q) ?_
  rw [Shape.rowMajor_val_one, Shape.rowMajor_val_two]
  show q.val = 0 * 512 + q.val
  omega

section Level

variable {n : ℕ}
  (hI : (⟨2, ![n, 128]⟩ : Shape).ShapeCasts ⟨2, ![n, 128]⟩)
  (hBr : (⟨2, ![1, 512]⟩ : Shape).Broadcasts ⟨2, ![n, 512]⟩)
  (x : FVec Ideal ⟨2, ![n, 128]⟩ .f32) (hloc cloc : FVec Ideal ⟨2, ![n, 256]⟩ .f32)
  (wihT : FVec Ideal ⟨2, ![128, 512]⟩ .f32) (whhT : FVec Ideal ⟨2, ![256, 512]⟩ .f32)
  (bih bhh : FVec Ideal ⟨2, ![1, 512]⟩ .f32)

/-- The level's gate pre-activations as the body computes them, over the 512 kept columns. -/
def kgates : FVec Ideal ⟨2, ![n, 512]⟩ .f32 :=
  addf (addf (addf
      (matmul (DotDims.plain n 128 512) none (shapeCast ⟨2, ![n, 128]⟩ x hI) wihT (constant ⟨2, ![n, 512]⟩ .f32 0x00000000#32))
      (matmul (DotDims.plain n 256 512) none hloc whhT (constant ⟨2, ![n, 512]⟩ .f32 0x00000000#32)))
    (broadcastTo ⟨2, ![n, 512]⟩ bih hBr)) (broadcastTo ⟨2, ![n, 512]⟩ bhh hBr)

/-- Kept column `q` of node `r`'s gates, as the body computes it, is the specification's gate `slim q`, when the cut
    weights and biases are the full ones at `slim` and the level's arrays are `x'`, `hp'` entry by entry. -/
theorem kgates_apply (Wih Whh : Mat) (bi bh : ℕ → EReal) (x' hp' : Mat)
    (hW1 : ∀ (k : Fin 128) (q : Fin 512), wihT (ix2 k q) = Wih (slim q.val) k.val)
    (hW2 : ∀ (k : Fin 256) (q : Fin 512), whhT (ix2 k q) = Whh (slim q.val) k.val)
    (hb1 : ∀ q : Fin 512, bih (ix2 (0 : Fin 1) q) = bi (slim q.val))
    (hb2 : ∀ q : Fin 512, bhh (ix2 (0 : Fin 1) q) = bh (slim q.val))
    (r : Fin n) (hx : ∀ k : Fin 128, x (ix2 r k) = x' r.val k.val)
    (hh : ∀ k : Fin 256, hloc (ix2 r k) = hp' (2 * r.val + k.val / 128) (k.val % 128)) (q : Fin 512) :
    kgates hI hBr x hloc wihT whhT bih bhh (ix2 r q) = gate Wih Whh bi bh x' hp' r.val (slim q.val) := by
  unfold kgates gate
  simp only [addf_apply, matmul]
  rw [matmul_plain_apply, matmul_plain_apply, rowBias_apply, rowBias_apply, hb1, hb2, shapeCast_self]
  have e1 : (∑ k : Fin 128, x (ix2 r k) * wihT (ix2 k q)) = ∑ k : Fin 128, x' r.val k.val * Wih (slim q.val) k.val :=
    Finset.sum_congr rfl fun k _ => by rw [hx, hW1]
  have e2 : (∑ k : Fin 256, hloc (ix2 r k) * whhT (ix2 k q))
      = ∑ k : Fin 256, hp' (2 * r.val + k.val / 128) (k.val % 128) * Whh (slim q.val) k.val :=
    Finset.sum_congr rfl fun k _ => by rw [hh, hW2]
  rw [e1, e2, add_right_comm (∑ k : Fin 128, x' r.val k.val * Wih (slim q.val) k.val)]

/-! ## The cell and hidden states -/

theorem slim_lo (j : ℕ) (hj : j < 128) : slim (0 + j) = j := by unfold slim; omega
theorem slim_1 (j : ℕ) (hj : j < 128) : slim (128 + j) = 256 + j := by unfold slim; omega
theorem slim_2 (j : ℕ) (hj : j < 128) : slim (256 + j) = 512 + j := by unfold slim; omega
theorem slim_3 (j : ℕ) (hj : j < 128) : slim (384 + j) = 768 + j := by unfold slim; omega

variable (hK0 : (⟨2, ![n, 512]⟩ : Shape).Slices ![0, 0] ⟨2, ![n, 128]⟩)
  (hK1 : (⟨2, ![n, 512]⟩ : Shape).Slices ![0, 128] ⟨2, ![n, 128]⟩)
  (hK2 : (⟨2, ![n, 512]⟩ : Shape).Slices ![0, 256] ⟨2, ![n, 128]⟩)
  (hK3 : (⟨2, ![n, 512]⟩ : Shape).Slices ![0, 384] ⟨2, ![n, 128]⟩)
  (hL : (⟨2, ![n, 256]⟩ : Shape).Slices ![0, 0] ⟨2, ![n, 128]⟩)
  (g : FVec Ideal ⟨2, ![n, 512]⟩ .f32)

/-- The new cell states: σ(forget) · the first child's cell state + σ(input) · tanh(candidate). -/
def kcell : FVec Ideal ⟨2, ![n, 128]⟩ .f32 :=
  addf (mulf (logistic (extractStridedSlice ⟨2, ![n, 128]⟩ ![0, 128] g hK1)) (extractStridedSlice ⟨2, ![n, 128]⟩ ![0, 0] cloc hL))
    (mulf (logistic (extractStridedSlice ⟨2, ![n, 128]⟩ ![0, 0] g hK0)) (tanh (extractStridedSlice ⟨2, ![n, 128]⟩ ![0, 256] g hK2)))

/-- The new hidden states: σ(output) · tanh(new cell). -/
def khidden (c : FVec Ideal ⟨2, ![n, 128]⟩ .f32) : FVec Ideal ⟨2, ![n, 128]⟩ .f32 :=
  mulf (logistic (extractStridedSlice ⟨2, ![n, 128]⟩ ![0, 384] g hK3)) (tanh c)

theorem kcell_apply (Wih Whh : Mat) (bi bh : ℕ → EReal) (x' hp' cp' : Mat) (r : Fin n)
    (hG : ∀ q : Fin 512, g (ix2 r q) = gate Wih Whh bi bh x' hp' r.val (slim q.val)) (j : Fin 128)
    (hc : cloc (ix2 r ⟨j.val, by have := j.isLt; omega⟩) = cp' (2 * r.val) j.val) :
    kcell cloc hK0 hK1 hK2 hL g (ix2 r j) = cell Wih Whh bi bh x' hp' cp' r.val j.val := by
  unfold kcell cell
  simp only [addf_apply, mulf_apply]
  show Ideal.logistic (extractStridedSlice ⟨2, ![n, 128]⟩ ![0, 128] g hK1 (ix2 r j)) * extractStridedSlice ⟨2, ![n, 128]⟩ ![0, 0] cloc hL (ix2 r j)
      + Ideal.logistic (extractStridedSlice ⟨2, ![n, 128]⟩ ![0, 0] g hK0 (ix2 r j)) * Ideal.tanh (extractStridedSlice ⟨2, ![n, 128]⟩ ![0, 256] g hK2 (ix2 r j)) = _
  rw [kcols_apply 128 g hK1 (by decide), kcols_apply 0 g hK0 (by decide), kcols_apply 256 g hK2 (by decide), left_apply, hG, hG, hG, hc]
  show Ideal.logistic (gate Wih Whh bi bh x' hp' r.val (slim (128 + j.val))) * _
      + Ideal.logistic (gate Wih Whh bi bh x' hp' r.val (slim (0 + j.val))) * Ideal.tanh (gate Wih Whh bi bh x' hp' r.val (slim (256 + j.val))) = _
  rw [slim_1 _ j.isLt, slim_lo _ j.isLt, slim_2 _ j.isLt]

theorem khidden_apply (Wih Whh : Mat) (bi bh : ℕ → EReal) (x' hp' cp' : Mat) (c : FVec Ideal ⟨2, ![n, 128]⟩ .f32) (r : Fin n)
    (hG : ∀ q : Fin 512, g (ix2 r q) = gate Wih Whh bi bh x' hp' r.val (slim q.val)) (j : Fin 128)
    (hCj : c (ix2 r j) = cell Wih Whh bi bh x' hp' cp' r.val j.val) :
    khidden hK3 g c (ix2 r j) = TreeCell.hidden Wih Whh bi bh x' hp' cp' r.val j.val := by
  unfold khidden TreeCell.hidden
  simp only [mulf_apply]
  show Ideal.logistic (extractStridedSlice ⟨2, ![n, 128]⟩ ![0, 384] g hK3 (ix2 r j)) * Ideal.tanh (c (ix2 r j)) = _
  rw [kcols_apply 384 g hK3 (by decide), hG, hCj]
  show Ideal.logistic (gate Wih Whh bi bh x' hp' r.val (slim (384 + j.val))) * _ = _
  rw [slim_3 _ j.isLt]

/-! ## One level -/

/-- From a chunk's rows and its children's states, entry by entry `x'`, `hp'`, `cp'`, to the specification's update. -/
theorem klevel_step (Wih Whh : Mat) (bi bh : ℕ → EReal) (x' hp' cp' : Mat)
    (hW1 : ∀ (k : Fin 128) (q : Fin 512), wihT (ix2 k q) = Wih (slim q.val) k.val)
    (hW2 : ∀ (k : Fin 256) (q : Fin 512), whhT (ix2 k q) = Whh (slim q.val) k.val)
    (hb1 : ∀ q : Fin 512, bih (ix2 (0 : Fin 1) q) = bi (slim q.val))
    (hb2 : ∀ q : Fin 512, bhh (ix2 (0 : Fin 1) q) = bh (slim q.val))
    (hx : ∀ (r : Fin n) (k : Fin 128), x (ix2 r k) = x' r.val k.val)
    (hh : ∀ (r : Fin n) (k : Fin 256), hloc (ix2 r k) = hp' (2 * r.val + k.val / 128) (k.val % 128))
    (hc : ∀ (r : Fin n) (j : Fin 128), cloc (ix2 r ⟨j.val, by have := j.isLt; omega⟩) = cp' (2 * r.val) j.val)
    (r : Fin n) (j : Fin 128) :
    khidden hK3 (kgates hI hBr x hloc wihT whhT bih bhh)
        (kcell cloc hK0 hK1 hK2 hL (kgates hI hBr x hloc wihT whhT bih bhh)) (ix2 r j)
        = TreeCell.hidden Wih Whh bi bh x' hp' cp' r.val j.val
      ∧ kcell cloc hK0 hK1 hK2 hL (kgates hI hBr x hloc wihT whhT bih bhh) (ix2 r j)
        = cell Wih Whh bi bh x' hp' cp' r.val j.val := by
  have hG : ∀ q : Fin 512, kgates hI hBr x hloc wihT whhT bih bhh (ix2 r q) = gate Wih Whh bi bh x' hp' r.val (slim q.val) :=
    fun q => kgates_apply hI hBr x hloc wihT whhT bih bhh Wih Whh bi bh x' hp' hW1 hW2 hb1 hb2 r (hx r) (hh r) q
  have hCell := kcell_apply cloc hK0 hK1 hK2 hL _ Wih Whh bi bh x' hp' cp' r hG j (hc r j)
  exact ⟨khidden_apply hK3 _ Wih Whh bi bh x' hp' cp' _ r hG j hCell, hCell⟩

end Level

end Cert.KernelLevel

end
-- ==== Proof.KI.FusedValue.lean ====
/-
  The fused levels' value at one grid point.

  A grid point handles one chunk: rows 1024·t … of the deepest level, 512·t … of the level above, …, 8·t … of the
  shallowest fused level. The body's two stored values are eight kernel-level steps (Proof/KernelLevel.lean) chained
  through two-rows-side-by-side reshapes, starting from zero children states. So if the body's twelve inputs are the
  chunk's rows of the eight levels and the cut weights, then by induction up the eight levels the hidden and cell
  values of local row r at fused level k are the specification's states k + 1 levels above the leaves at row
  (1024 / 2^k)·t + r — a node's update reads only its own row and its two children.
-/
import proofs.«177989_j29394756173864_2_alg».proof.Proof.KI.Body
import proofs.«177989_j29394756173864_2_alg».proof.Proof.KernelLevel

set_option maxRecDepth 16384

noncomputable section

namespace Cert.KernelIdeal.Fused

open Cert.KernelIdeal Cert.KernelIdeal.Gen
open Idealize.ShloMosaic Idealize.ShloMosaic.TcCoe
open Idealize.ShloMosaic.ValueIdx Cert.TreeCell Cert.HostLevel Cert.KernelLevel

variable (x0 : FVec Ideal S1024x128 .f32) (x1 : FVec Ideal S512x128 .f32) (x2 : FVec Ideal S256x128 .f32) (x3 : FVec Ideal S128x128 .f32)
  (x4 : FVec Ideal S64x128 .f32) (x5 : FVec Ideal S32x128 .f32) (x6 : FVec Ideal S16x128 .f32) (x7 : FVec Ideal S8x128 .f32)
  (wih : FVec Ideal S128x512 .f32) (whh : FVec Ideal S256x512 .f32) (bih : FVec Ideal S1x512 .f32) (bhh : FVec Ideal S1x512 .f32)

/-! ## The eight levels, named -/

/-- Fused level 0 (1024 rows per chunk): gates, cell states, hidden states. -/
def fg0 : FVec Ideal S1024x512 .f32 :=
  kgates (n := 1024) shapeCasts_S1024x128_S1024x128 broadcasts_S1x512_S1024x512 x0 (broadcast S1024x256 (Scalar.ofBits .f32 0x00000000#32)) (k0_pay3 wih) (k0_pay4 whh) (k0_pay5 bih) (k0_pay6 bhh)
def fc0 : FVec Ideal S1024x128 .f32 :=
  kcell (n := 1024) (broadcast S1024x256 (Scalar.ofBits .f32 0x00000000#32)) slices_S1024x512_o0_0_S1024x128 slices_S1024x512_o0_128_S1024x128 slices_S1024x512_o0_256_S1024x128 slices_S1024x256_o0_0_S1024x128 (fg0 x0 wih whh bih bhh)
def fh0 : FVec Ideal S1024x128 .f32 :=
  khidden (n := 1024) slices_S1024x512_o0_384_S1024x128 (fg0 x0 wih whh bih bhh) (fc0 x0 wih whh bih bhh)

/-- Fused level 1 (512 rows per chunk): gates, cell states, hidden states. -/
def fg1 : FVec Ideal S512x512 .f32 :=
  kgates (n := 512) shapeCasts_S512x128_S512x128 broadcasts_S1x512_S512x512 x1 (shapeCast S512x256 (fh0 x0 wih whh bih bhh) shapeCasts_S1024x128_S512x256) (k0_pay3 wih) (k0_pay4 whh) (k0_pay5 bih) (k0_pay6 bhh)
def fc1 : FVec Ideal S512x128 .f32 :=
  kcell (n := 512) (shapeCast S512x256 (fc0 x0 wih whh bih bhh) shapeCasts_S1024x128_S512x256) slices_S512x512_o0_0_S512x128 slices_S512x512_o0_128_S512x128 slices_S512x512_o0_256_S512x128 slices_S512x256_o0_0_S512x128 (fg1 x0 x1 wih whh bih bhh)
def fh1 : FVec Ideal S512x128 .f32 :=
  khidden (n := 512) slices_S512x512_o0_384_S512x128 (fg1 x0 x1 wih whh bih bhh) (fc1 x0 x1 wih whh bih bhh)

/-- Fused level 2 (256 rows per chunk): gates, cell states, hidden states. -/
def fg2 : FVec Ideal S256x512 .f32 :=
  kgates (n := 256) shapeCasts_S256x128_S256x128 broadcasts_S1x512_S256x512 x2 (shapeCast S256x256 (fh1 x0 x1 wih whh bih bhh) shapeCasts_S512x128_S256x256) (k0_pay3 wih) (k0_pay4 whh) (k0_pay5 bih) (k0_pay6 bhh)
def fc2 : FVec Ideal S256x128 .f32 :=
  kcell (n := 256) (shapeCast S256x256 (fc1 x0 x1 wih whh bih bhh) shapeCasts_S512x128_S256x256) slices_S256x512_o0_0_S256x128 slices_S256x512_o0_128_S256x128 slices_S256x512_o0_256_S256x128 slices_S256x256_o0_0_S256x128 (fg2 x0 x1 x2 wih whh bih bhh)
def fh2 : FVec Ideal S256x128 .f32 :=
  khidden (n := 256) slices_S256x512_o0_384_S256x128 (fg2 x0 x1 x2 wih whh bih bhh) (fc2 x0 x1 x2 wih whh bih bhh)

/-- Fused level 3 (128 rows per chunk): gates, cell states, hidden states. -/
def fg3 : FVec Ideal S128x512 .f32 :=
  kgates (n := 128) shapeCasts_S128x128_S128x128 broadcasts_S1x512_S128x512 x3 (shapeCast S128x256 (fh2 x0 x1 x2 wih whh bih bhh) shapeCasts_S256x128_S128x256) (k0_pay3 wih) (k0_pay4 whh) (k0_pay5 bih) (k0_pay6 bhh)
def fc3 : FVec Ideal S128x128 .f32 :=
  kcell (n := 128) (shapeCast S128x256 (fc2 x0 x1 x2 wih whh bih bhh) shapeCasts_S256x128_S128x256) slices_S128x512_o0_0_S128x128 slices_S128x512_o0_128_S128x128 slices_S128x512_o0_256_S128x128 slices_S128x256_o0_0_S128x128 (fg3 x0 x1 x2 x3 wih whh bih bhh)
def fh3 : FVec Ideal S128x128 .f32 :=
  khidden (n := 128) slices_S128x512_o0_384_S128x128 (fg3 x0 x1 x2 x3 wih whh bih bhh) (fc3 x0 x1 x2 x3 wih whh bih bhh)

/-- Fused level 4 (64 rows per chunk): gates, cell states, hidden states. -/
def fg4 : FVec Ideal S64x512 .f32 :=
  kgates (n := 64) shapeCasts_S64x128_S64x128 broadcasts_S1x512_S64x512 x4 (shapeCast S64x256 (fh3 x0 x1 x2 x3 wih whh bih bhh) shapeCasts_S128x128_S64x256) (k0_pay3 wih) (k0_pay4 whh) (k0_pay5 bih) (k0_pay6 bhh)
def fc4 : FVec Ideal S64x128 .f32 :=
  kcell (n := 64) (shapeCast S64x256 (fc3 x0 x1 x2 x3 wih whh bih bhh) shapeCasts_S128x128_S64x256) slices_S64x512_o0_0_S64x128 slices_S64x512_o0_128_S64x128 slices_S64x512_o0_256_S64x128 slices_S64x256_o0_0_S64x128 (fg4 x0 x1 x2 x3 x4 wih whh bih bhh)
def fh4 : FVec Ideal S64x128 .f32 :=
  khidden (n := 64) slices_S64x512_o0_384_S64x128 (fg4 x0 x1 x2 x3 x4 wih whh bih bhh) (fc4 x0 x1 x2 x3 x4 wih whh bih bhh)

/-- Fused level 5 (32 rows per chunk): gates, cell states, hidden states. -/
def fg5 : FVec Ideal S32x512 .f32 :=
  kgates (n := 32) shapeCasts_S32x128_S32x128 broadcasts_S1x512_S32x512 x5 (shapeCast S32x256 (fh4 x0 x1 x2 x3 x4 wih whh bih bhh) shapeCasts_S64x128_S32x256) (k0_pay3 wih) (k0_pay4 whh) (k0_pay5 bih) (k0_pay6 bhh)
def fc5 : FVec Ideal S32x128 .f32 :=
  kcell (n := 32) (shapeCast S32x256 (fc4 x0 x1 x2 x3 x4 wih whh bih bhh) shapeCasts_S64x128_S32x256) slices_S32x512_o0_0_S32x128 slices_S32x512_o0_128_S32x128 slices_S32x512_o0_256_S32x128 slices_S32x256_o0_0_S32x128 (fg5 x0 x1 x2 x3 x4 x5 wih whh bih bhh)
def fh5 : FVec Ideal S32x128 .f32 :=
  khidden (n := 32) slices_S32x512_o0_384_S32x128 (fg5 x0 x1 x2 x3 x4 x5 wih whh bih bhh) (fc5 x0 x1 x2 x3 x4 x5 wih whh bih bhh)

/-- Fused level 6 (16 rows per chunk): gates, cell states, hidden states. -/
def fg6 : FVec Ideal S16x512 .f32 :=
  kgates (n := 16) shapeCasts_S16x128_S16x128 broadcasts_S1x512_S16x512 x6 (shapeCast S16x256 (fh5 x0 x1 x2 x3 x4 x5 wih whh bih bhh) shapeCasts_S32x128_S16x256) (k0_pay3 wih) (k0_pay4 whh) (k0_pay5 bih) (k0_pay6 bhh)
def fc6 : FVec Ideal S16x128 .f32 :=
  kcell (n := 16) (shapeCast S16x256 (fc5 x0 x1 x2 x3 x4 x5 wih whh bih bhh) shapeCasts_S32x128_S16x256) slices_S16x512_o0_0_S16x128 slices_S16x512_o0_128_S16x128 slices_S16x512_o0_256_S16x128 slices_S16x256_o0_0_S16x128 (fg6 x0 x1 x2 x3 x4 x5 x6 wih whh bih bhh)
def fh6 : FVec Ideal S16x128 .f32 :=
  khidden (n := 16) slices_S16x512_o0_384_S16x128 (fg6 x0 x1 x2 x3 x4 x5 x6 wih whh bih bhh) (fc6 x0 x1 x2 x3 x4 x5 x6 wih whh bih bhh)

/-- Fused level 7 (8 rows per chunk): gates, cell states, hidden states. -/
def fg7 : FVec Ideal S8x512 .f32 :=
  kgates (n := 8) shapeCasts_S8x128_S8x128 broadcasts_S1x512_S8x512 x7 (shapeCast S8x256 (fh6 x0 x1 x2 x3 x4 x5 x6 wih whh bih bhh) shapeCasts_S16x128_S8x256) (k0_pay3 wih) (k0_pay4 whh) (k0_pay5 bih) (k0_pay6 bhh)
def fc7 : FVec Ideal S8x128 .f32 :=
  kcell (n := 8) (shapeCast S8x256 (fc6 x0 x1 x2 x3 x4 x5 x6 wih whh bih bhh) shapeCasts_S16x128_S8x256) slices_S8x512_o0_0_S8x128 slices_S8x512_o0_128_S8x128 slices_S8x512_o0_256_S8x128 slices_S8x256_o0_0_S8x128 (fg7 x0 x1 x2 x3 x4 x5 x6 x7 wih whh bih bhh)
def fh7 : FVec Ideal S8x128 .f32 :=
  khidden (n := 8) slices_S8x512_o0_384_S8x128 (fg7 x0 x1 x2 x3 x4 x5 x6 x7 wih whh bih bhh) (fc7 x0 x1 x2 x3 x4 x5 x6 x7 wih whh bih bhh)

set_option maxHeartbeats 8000000 in
/-- The body's stored hidden value is the eighth level's. -/
theorem hidden8_eq : hidden8 (F := Ideal) x0 x1 x2 x3 x4 x5 x6 x7 wih whh bih bhh = fh7 x0 x1 x2 x3 x4 x5 x6 x7 wih whh bih bhh := rfl

set_option maxHeartbeats 8000000 in
/-- The body's stored cell value is the eighth level's. -/
theorem cell8_eq : cell8 (F := Ideal) x0 x1 x2 x3 x4 x5 x6 x7 wih whh bih bhh = fc7 x0 x1 x2 x3 x4 x5 x6 x7 wih whh bih bhh := rfl

/-! ## The chain at one grid point -/

section Chain

variable (Wih Whh : Mat) (bi bh : ℕ → EReal) (emb : Mat) (t : ℕ)
  (hW1 : ∀ (k : Fin 128) (q : Fin 512), k0_pay3 (F := Ideal) wih (ix2 k q) = Wih (slim q.val) k.val)
  (hW2 : ∀ (k : Fin 256) (q : Fin 512), k0_pay4 (F := Ideal) whh (ix2 k q) = Whh (slim q.val) k.val)
  (hb1 : ∀ q : Fin 512, k0_pay5 (F := Ideal) bih (ix2 (0 : Fin 1) q) = bi (slim q.val))
  (hb2 : ∀ q : Fin 512, k0_pay6 (F := Ideal) bhh (ix2 (0 : Fin 1) q) = bh (slim q.val))
  (hx0 : ∀ (r : Fin 1024) (kk : Fin 128), x0 (ix2 r kk) = rowsOf emb 0 (1024 * t + r.val) kk.val)
  (hx1 : ∀ (r : Fin 512) (kk : Fin 128), x1 (ix2 r kk) = rowsOf emb 1 (512 * t + r.val) kk.val)
  (hx2 : ∀ (r : Fin 256) (kk : Fin 128), x2 (ix2 r kk) = rowsOf emb 2 (256 * t + r.val) kk.val)
  (hx3 : ∀ (r : Fin 128) (kk : Fin 128), x3 (ix2 r kk) = rowsOf emb 3 (128 * t + r.val) kk.val)
  (hx4 : ∀ (r : Fin 64) (kk : Fin 128), x4 (ix2 r kk) = rowsOf emb 4 (64 * t + r.val) kk.val)
  (hx5 : ∀ (r : Fin 32) (kk : Fin 128), x5 (ix2 r kk) = rowsOf emb 5 (32 * t + r.val) kk.val)
  (hx6 : ∀ (r : Fin 16) (kk : Fin 128), x6 (ix2 r kk) = rowsOf emb 6 (16 * t + r.val) kk.val)
  (hx7 : ∀ (r : Fin 8) (kk : Fin 128), x7 (ix2 r kk) = rowsOf emb 7 (8 * t + r.val) kk.val)

include hW1 hW2 hb1 hb2

include hx0 in
set_option maxHeartbeats 2000000 in
/-- Fused level 0: local row r of the chunk is node 1024·t + r of tree level 17. -/
theorem flevel0 (r : Fin 1024) (j : Fin 128) :
    fh0 x0 wih whh bih bhh (ix2 r j) = (states Wih Whh bi bh emb (0 + 1)).1 (1024 * t + r.val) j.val
      ∧ fc0 x0 wih whh bih bhh (ix2 r j) = (states Wih Whh bi bh emb (0 + 1)).2 (1024 * t + r.val) j.val := by
  have hs := klevel_step (n := 1024) shapeCasts_S1024x128_S1024x128 broadcasts_S1x512_S1024x512 x0 (broadcast S1024x256 (Scalar.ofBits .f32 0x00000000#32)) (broadcast S1024x256 (Scalar.ofBits .f32 0x00000000#32)) (k0_pay3 wih) (k0_pay4 whh) (k0_pay5 bih) (k0_pay6 bhh)
    slices_S1024x512_o0_0_S1024x128 slices_S1024x512_o0_128_S1024x128 slices_S1024x512_o0_256_S1024x128 slices_S1024x512_o0_384_S1024x128 slices_S1024x256_o0_0_S1024x128
    Wih Whh bi bh (fun a kk => rowsOf emb 0 (1024 * t + a) kk) (fun a b => (states Wih Whh bi bh emb 0).1 (2 * (1024 * t) + a) b) (fun a b => (states Wih Whh bi bh emb 0).2 (2 * (1024 * t) + a) b)
    hW1 hW2 hb1 hb2 (fun r kk => hx0 r kk)
    (fun r kk => by
      show Ideal.ofBits .f32 0x00000000#32 = _
      rw [Ideal.ofBits_zero_f32]; exact (states_zero_fst _ _ _ _ _ _ _).symm)
    (fun r j => by
      show Ideal.ofBits .f32 0x00000000#32 = _
      rw [Ideal.ofBits_zero_f32]; exact (states_zero_snd _ _ _ _ _ _ _).symm) r j
  unfold fh0 fc0 fg0
  rw [states_fst, states_snd]
  exact ⟨hs.1.trans (hidden_shift Wih Whh bi bh (1024 * t) (rowsOf emb 0) (states Wih Whh bi bh emb 0).1 (states Wih Whh bi bh emb 0).2 r.val j.val),
    hs.2.trans (cell_shift Wih Whh bi bh (1024 * t) (rowsOf emb 0) (states Wih Whh bi bh emb 0).1 (states Wih Whh bi bh emb 0).2 r.val j.val)⟩

include hx0 hx1 in
set_option maxHeartbeats 2000000 in
/-- Fused level 1: local row r of the chunk is node 512·t + r of tree level 16. -/
theorem flevel1 (r : Fin 512) (j : Fin 128) :
    fh1 x0 x1 wih whh bih bhh (ix2 r j) = (states Wih Whh bi bh emb (1 + 1)).1 (512 * t + r.val) j.val
      ∧ fc1 x0 x1 wih whh bih bhh (ix2 r j) = (states Wih Whh bi bh emb (1 + 1)).2 (512 * t + r.val) j.val := by
  have hs := klevel_step (n := 512) shapeCasts_S512x128_S512x128 broadcasts_S1x512_S512x512 x1 (shapeCast S512x256 (fh0 x0 wih whh bih bhh) shapeCasts_S1024x128_S512x256) (shapeCast S512x256 (fc0 x0 wih whh bih bhh) shapeCasts_S1024x128_S512x256) (k0_pay3 wih) (k0_pay4 whh) (k0_pay5 bih) (k0_pay6 bhh)
    slices_S512x512_o0_0_S512x128 slices_S512x512_o0_128_S512x128 slices_S512x512_o0_256_S512x128 slices_S512x512_o0_384_S512x128 slices_S512x256_o0_0_S512x128
    Wih Whh bi bh (fun a kk => rowsOf emb 1 (512 * t + a) kk) (fun a b => (states Wih Whh bi bh emb 1).1 (2 * (512 * t) + a) b) (fun a b => (states Wih Whh bi bh emb 1).2 (2 * (512 * t) + a) b)
    hW1 hW2 hb1 hb2 (fun r kk => hx1 r kk)
    (fun r kk => by
      rw [pair_apply (n := 512)]
      refine ((flevel0 x0 wih whh bih bhh Wih Whh bi bh emb t hW1 hW2 hb1 hb2 hx0 ⟨2 * r.val + kk.val / 128, by have := r.isLt; have := kk.isLt; omega⟩ ⟨kk.val % 128, Nat.mod_lt _ (by decide)⟩).1).trans ?_
      show (states Wih Whh bi bh emb 1).1 (1024 * t + (2 * r.val + kk.val / 128)) (kk.val % 128) = (states Wih Whh bi bh emb 1).1 (2 * (512 * t) + (2 * r.val + kk.val / 128)) (kk.val % 128)
      rw [show 1024 * t + (2 * r.val + kk.val / 128) = 2 * (512 * t) + (2 * r.val + kk.val / 128) by omega])
    (fun r j => by
      have h1 : j.val / 128 = 0 := Nat.div_eq_of_lt j.isLt
      have h2 : j.val % 128 = j.val := Nat.mod_eq_of_lt j.isLt
      rw [pair_apply (n := 512)]
      refine ((flevel0 x0 wih whh bih bhh Wih Whh bi bh emb t hW1 hW2 hb1 hb2 hx0 ⟨2 * r.val + j.val / 128, by have := r.isLt; omega⟩ ⟨j.val % 128, Nat.mod_lt _ (by decide)⟩).2).trans ?_
      show (states Wih Whh bi bh emb 1).2 (1024 * t + (2 * r.val + j.val / 128)) (j.val % 128) = (states Wih Whh bi bh emb 1).2 (2 * (512 * t) + 2 * r.val) j.val
      rw [h1, h2, show 1024 * t + (2 * r.val + 0) = 2 * (512 * t) + 2 * r.val by omega]) r j
  unfold fh1 fc1 fg1
  rw [states_fst, states_snd]
  exact ⟨hs.1.trans (hidden_shift Wih Whh bi bh (512 * t) (rowsOf emb 1) (states Wih Whh bi bh emb 1).1 (states Wih Whh bi bh emb 1).2 r.val j.val),
    hs.2.trans (cell_shift Wih Whh bi bh (512 * t) (rowsOf emb 1) (states Wih Whh bi bh emb 1).1 (states Wih Whh bi bh emb 1).2 r.val j.val)⟩

include hx0 hx1 hx2 in
set_option maxHeartbeats 2000000 in
/-- Fused level 2: local row r of the chunk is node 256·t + r of tree level 15. -/
theorem flevel2 (r : Fin 256) (j : Fin 128) :
    fh2 x0 x1 x2 wih whh bih bhh (ix2 r j) = (states Wih Whh bi bh emb (2 + 1)).1 (256 * t + r.val) j.val
      ∧ fc2 x0 x1 x2 wih whh bih bhh (ix2 r j) = (states Wih Whh bi bh emb (2 + 1)).2 (256 * t + r.val) j.val := by
  have hs := klevel_step (n := 256) shapeCasts_S256x128_S256x128 broadcasts_S1x512_S256x512 x2 (shapeCast S256x256 (fh1 x0 x1 wih whh bih bhh) shapeCasts_S512x128_S256x256) (shapeCast S256x256 (fc1 x0 x1 wih whh bih bhh) shapeCasts_S512x128_S256x256) (k0_pay3 wih) (k0_pay4 whh) (k0_pay5 bih) (k0_pay6 bhh)
    slices_S256x512_o0_0_S256x128 slices_S256x512_o0_128_S256x128 slices_S256x512_o0_256_S256x128 slices_S256x512_o0_384_S256x128 slices_S256x256_o0_0_S256x128
    Wih Whh bi bh (fun a kk => rowsOf emb 2 (256 * t + a) kk) (fun a b => (states Wih Whh bi bh emb 2).1 (2 * (256 * t) + a) b) (fun a b => (states Wih Whh bi bh emb 2).2 (2 * (256 * t) + a) b)
    hW1 hW2 hb1 hb2 (fun r kk => hx2 r kk)
    (fun r kk => by
      rw [pair_apply (n := 256)]
      refine ((flevel1 x0 x1 wih whh bih bhh Wih Whh bi bh emb t hW1 hW2 hb1 hb2 hx0 hx1 ⟨2 * r.val + kk.val / 128, by have := r.isLt; have := kk.isLt; omega⟩ ⟨kk.val % 128, Nat.mod_lt _ (by decide)⟩).1).trans ?_
      show (states Wih Whh bi bh emb 2).1 (512 * t + (2 * r.val + kk.val / 128)) (kk.val % 128) = (states Wih Whh bi bh emb 2).1 (2 * (256 * t) + (2 * r.val + kk.val / 128)) (kk.val % 128)
      rw [show 512 * t + (2 * r.val + kk.val / 128) = 2 * (256 * t) + (2 * r.val + kk.val / 128) by omega])
    (fun r j => by
      have h1 : j.val / 128 = 0 := Nat.div_eq_of_lt j.isLt
      have h2 : j.val % 128 = j.val := Nat.mod_eq_of_lt j.isLt
      rw [pair_apply (n := 256)]
      refine ((flevel1 x0 x1 wih whh bih bhh Wih Whh bi bh emb t hW1 hW2 hb1 hb2 hx0 hx1 ⟨2 * r.val + j.val / 128, by have := r.isLt; omega⟩ ⟨j.val % 128, Nat.mod_lt _ (by decide)⟩).2).trans ?_
      show (states Wih Whh bi bh emb 2).2 (512 * t + (2 * r.val + j.val / 128)) (j.val % 128) = (states Wih Whh bi bh emb 2).2 (2 * (256 * t) + 2 * r.val) j.val
      rw [h1, h2, show 512 * t + (2 * r.val + 0) = 2 * (256 * t) + 2 * r.val by omega]) r j
  unfold fh2 fc2 fg2
  rw [states_fst, states_snd]
  exact ⟨hs.1.trans (hidden_shift Wih Whh bi bh (256 * t) (rowsOf emb 2) (states Wih Whh bi bh emb 2).1 (states Wih Whh bi bh emb 2).2 r.val j.val),
    hs.2.trans (cell_shift Wih Whh bi bh (256 * t) (rowsOf emb 2) (states Wih Whh bi bh emb 2).1 (states Wih Whh bi bh emb 2).2 r.val j.val)⟩

include hx0 hx1 hx2 hx3 in
set_option maxHeartbeats 2000000 in
/-- Fused level 3: local row r of the chunk is node 128·t + r of tree level 14. -/
theorem flevel3 (r : Fin 128) (j : Fin 128) :
    fh3 x0 x1 x2 x3 wih whh bih bhh (ix2 r j) = (states Wih Whh bi bh emb (3 + 1)).1 (128 * t + r.val) j.val
      ∧ fc3 x0 x1 x2 x3 wih whh bih bhh (ix2 r j) = (states Wih Whh bi bh emb (3 + 1)).2 (128 * t + r.val) j.val := by
  have hs := klevel_step (n := 128) shapeCasts_S128x128_S128x128 broadcasts_S1x512_S128x512 x3 (shapeCast S128x256 (fh2 x0 x1 x2 wih whh bih bhh) shapeCasts_S256x128_S128x256) (shapeCast S128x256 (fc2 x0 x1 x2 wih whh bih bhh) shapeCasts_S256x128_S128x256) (k0_pay3 wih) (k0_pay4 whh) (k0_pay5 bih) (k0_pay6 bhh)
    slices_S128x512_o0_0_S128x128 slices_S128x512_o0_128_S128x128 slices_S128x512_o0_256_S128x128 slices_S128x512_o0_384_S128x128 slices_S128x256_o0_0_S128x128
    Wih Whh bi bh (fun a kk => rowsOf emb 3 (128 * t + a) kk) (fun a b => (states Wih Whh bi bh emb 3).1 (2 * (128 * t) + a) b) (fun a b => (states Wih Whh bi bh emb 3).2 (2 * (128 * t) + a) b)
    hW1 hW2 hb1 hb2 (fun r kk => hx3 r kk)
    (fun r kk => by
      rw [pair_apply (n := 128)]
      refine ((flevel2 x0 x1 x2 wih whh bih bhh Wih Whh bi bh emb t hW1 hW2 hb1 hb2 hx0 hx1 hx2 ⟨2 * r.val + kk.val / 128, by have := r.isLt; have := kk.isLt; omega⟩ ⟨kk.val % 128, Nat.mod_lt _ (by decide)⟩).1).trans ?_
      show (states Wih Whh bi bh emb 3).1 (256 * t + (2 * r.val + kk.val / 128)) (kk.val % 128) = (states Wih Whh bi bh emb 3).1 (2 * (128 * t) + (2 * r.val + kk.val / 128)) (kk.val % 128)
      rw [show 256 * t + (2 * r.val + kk.val / 128) = 2 * (128 * t) + (2 * r.val + kk.val / 128) by omega])
    (fun r j => by
      have h1 : j.val / 128 = 0 := Nat.div_eq_of_lt j.isLt
      have h2 : j.val % 128 = j.val := Nat.mod_eq_of_lt j.isLt
      rw [pair_apply (n := 128)]
      refine ((flevel2 x0 x1 x2 wih whh bih bhh Wih Whh bi bh emb t hW1 hW2 hb1 hb2 hx0 hx1 hx2 ⟨2 * r.val + j.val / 128, by have := r.isLt; omega⟩ ⟨j.val % 128, Nat.mod_lt _ (by decide)⟩).2).trans ?_
      show (states Wih Whh bi bh emb 3).2 (256 * t + (2 * r.val + j.val / 128)) (j.val % 128) = (states Wih Whh bi bh emb 3).2 (2 * (128 * t) + 2 * r.val) j.val
      rw [h1, h2, show 256 * t + (2 * r.val + 0) = 2 * (128 * t) + 2 * r.val by omega]) r j
  unfold fh3 fc3 fg3
  rw [states_fst, states_snd]
  exact ⟨hs.1.trans (hidden_shift Wih Whh bi bh (128 * t) (rowsOf emb 3) (states Wih Whh bi bh emb 3).1 (states Wih Whh bi bh emb 3).2 r.val j.val),
    hs.2.trans (cell_shift Wih Whh bi bh (128 * t) (rowsOf emb 3) (states Wih Whh bi bh emb 3).1 (states Wih Whh bi bh emb 3).2 r.val j.val)⟩

include hx0 hx1 hx2 hx3 hx4 in
set_option maxHeartbeats 2000000 in
/-- Fused level 4: local row r of the chunk is node 64·t + r of tree level 13. -/
theorem flevel4 (r : Fin 64) (j : Fin 128) :
    fh4 x0 x1 x2 x3 x4 wih whh bih bhh (ix2 r j) = (states Wih Whh bi bh emb (4 + 1)).1 (64 * t + r.val) j.val
      ∧ fc4 x0 x1 x2 x3 x4 wih whh bih bhh (ix2 r j) = (states Wih Whh bi bh emb (4 + 1)).2 (64 * t + r.val) j.val := by
  have hs := klevel_step (n := 64) shapeCasts_S64x128_S64x128 broadcasts_S1x512_S64x512 x4 (shapeCast S64x256 (fh3 x0 x1 x2 x3 wih whh bih bhh) shapeCasts_S128x128_S64x256) (shapeCast S64x256 (fc3 x0 x1 x2 x3 wih whh bih bhh) shapeCasts_S128x128_S64x256) (k0_pay3 wih) (k0_pay4 whh) (k0_pay5 bih) (k0_pay6 bhh)
    slices_S64x512_o0_0_S64x128 slices_S64x512_o0_128_S64x128 slices_S64x512_o0_256_S64x128 slices_S64x512_o0_384_S64x128 slices_S64x256_o0_0_S64x128
    Wih Whh bi bh (fun a kk => rowsOf emb 4 (64 * t + a) kk) (fun a b => (states Wih Whh bi bh emb 4).1 (2 * (64 * t) + a) b) (fun a b => (states Wih Whh bi bh emb 4).2 (2 * (64 * t) + a) b)
    hW1 hW2 hb1 hb2 (fun r kk => hx4 r kk)
    (fun r kk => by
      rw [pair_apply (n := 64)]
      refine ((flevel3 x0 x1 x2 x3 wih whh bih bhh Wih Whh bi bh emb t hW1 hW2 hb1 hb2 hx0 hx1 hx2 hx3 ⟨2 * r.val + kk.val / 128, by have := r.isLt; have := kk.isLt; omega⟩ ⟨kk.val % 128, Nat.mod_lt _ (by decide)⟩).1).trans ?_
      show (states Wih Whh bi bh emb 4).1 (128 * t + (2 * r.val + kk.val / 128)) (kk.val % 128) = (states Wih Whh bi bh emb 4).1 (2 * (64 * t) + (2 * r.val + kk.val / 128)) (kk.val % 128)
      rw [show 128 * t + (2 * r.val + kk.val / 128) = 2 * (64 * t) + (2 * r.val + kk.val / 128) by omega])
    (fun r j => by
      have h1 : j.val / 128 = 0 := Nat.div_eq_of_lt j.isLt
      have h2 : j.val % 128 = j.val := Nat.mod_eq_of_lt j.isLt
      rw [pair_apply (n := 64)]
      refine ((flevel3 x0 x1 x2 x3 wih whh bih bhh Wih Whh bi bh emb t hW1 hW2 hb1 hb2 hx0 hx1 hx2 hx3 ⟨2 * r.val + j.val / 128, by have := r.isLt; omega⟩ ⟨j.val % 128, Nat.mod_lt _ (by decide)⟩).2).trans ?_
      show (states Wih Whh bi bh emb 4).2 (128 * t + (2 * r.val + j.val / 128)) (j.val % 128) = (states Wih Whh bi bh emb 4).2 (2 * (64 * t) + 2 * r.val) j.val
      rw [h1, h2, show 128 * t + (2 * r.val + 0) = 2 * (64 * t) + 2 * r.val by omega]) r j
  unfold fh4 fc4 fg4
  rw [states_fst, states_snd]
  exact ⟨hs.1.trans (hidden_shift Wih Whh bi bh (64 * t) (rowsOf emb 4) (states Wih Whh bi bh emb 4).1 (states Wih Whh bi bh emb 4).2 r.val j.val),
    hs.2.trans (cell_shift Wih Whh bi bh (64 * t) (rowsOf emb 4) (states Wih Whh bi bh emb 4).1 (states Wih Whh bi bh emb 4).2 r.val j.val)⟩

include hx0 hx1 hx2 hx3 hx4 hx5 in
set_option maxHeartbeats 2000000 in
/-- Fused level 5: local row r of the chunk is node 32·t + r of tree level 12. -/
theorem flevel5 (r : Fin 32) (j : Fin 128) :
    fh5 x0 x1 x2 x3 x4 x5 wih whh bih bhh (ix2 r j) = (states Wih Whh bi bh emb (5 + 1)).1 (32 * t + r.val) j.val
      ∧ fc5 x0 x1 x2 x3 x4 x5 wih whh bih bhh (ix2 r j) = (states Wih Whh bi bh emb (5 + 1)).2 (32 * t + r.val) j.val := by
  have hs := klevel_step (n := 32) shapeCasts_S32x128_S32x128 broadcasts_S1x512_S32x512 x5 (shapeCast S32x256 (fh4 x0 x1 x2 x3 x4 wih whh bih bhh) shapeCasts_S64x128_S32x256) (shapeCast S32x256 (fc4 x0 x1 x2 x3 x4 wih whh bih bhh) shapeCasts_S64x128_S32x256) (k0_pay3 wih) (k0_pay4 whh) (k0_pay5 bih) (k0_pay6 bhh)
    slices_S32x512_o0_0_S32x128 slices_S32x512_o0_128_S32x128 slices_S32x512_o0_256_S32x128 slices_S32x512_o0_384_S32x128 slices_S32x256_o0_0_S32x128
    Wih Whh bi bh (fun a kk => rowsOf emb 5 (32 * t + a) kk) (fun a b => (states Wih Whh bi bh emb 5).1 (2 * (32 * t) + a) b) (fun a b => (states Wih Whh bi bh emb 5).2 (2 * (32 * t) + a) b)
    hW1 hW2 hb1 hb2 (fun r kk => hx5 r kk)
    (fun r kk => by
      rw [pair_apply (n := 32)]
      refine ((flevel4 x0 x1 x2 x3 x4 wih whh bih bhh Wih Whh bi bh emb t hW1 hW2 hb1 hb2 hx0 hx1 hx2 hx3 hx4 ⟨2 * r.val + kk.val / 128, by have := r.isLt; have := kk.isLt; omega⟩ ⟨kk.val % 128, Nat.mod_lt _ (by decide)⟩).1).trans ?_
      show (states Wih Whh bi bh emb 5).1 (64 * t + (2 * r.val + kk.val / 128)) (kk.val % 128) = (states Wih Whh bi bh emb 5).1 (2 * (32 * t) + (2 * r.val + kk.val / 128)) (kk.val % 128)
      rw [show 64 * t + (2 * r.val + kk.val / 128) = 2 * (32 * t) + (2 * r.val + kk.val / 128) by omega])
    (fun r j => by
      have h1 : j.val / 128 = 0 := Nat.div_eq_of_lt j.isLt
      have h2 : j.val % 128 = j.val := Nat.mod_eq_of_lt j.isLt
      rw [pair_apply (n := 32)]
      refine ((flevel4 x0 x1 x2 x3 x4 wih whh bih bhh Wih Whh bi bh emb t hW1 hW2 hb1 hb2 hx0 hx1 hx2 hx3 hx4 ⟨2 * r.val + j.val / 128, by have := r.isLt; omega⟩ ⟨j.val % 128, Nat.mod_lt _ (by decide)⟩).2).trans ?_
      show (states Wih Whh bi bh emb 5).2 (64 * t + (2 * r.val + j.val / 128)) (j.val % 128) = (states Wih Whh bi bh emb 5).2 (2 * (32 * t) + 2 * r.val) j.val
      rw [h1, h2, show 64 * t + (2 * r.val + 0) = 2 * (32 * t) + 2 * r.val by omega]) r j
  unfold fh5 fc5 fg5
  rw [states_fst, states_snd]
  exact ⟨hs.1.trans (hidden_shift Wih Whh bi bh (32 * t) (rowsOf emb 5) (states Wih Whh bi bh emb 5).1 (states Wih Whh bi bh emb 5).2 r.val j.val),
    hs.2.trans (cell_shift Wih Whh bi bh (32 * t) (rowsOf emb 5) (states Wih Whh bi bh emb 5).1 (states Wih Whh bi bh emb 5).2 r.val j.val)⟩

include hx0 hx1 hx2 hx3 hx4 hx5 hx6 in
set_option maxHeartbeats 2000000 in
/-- Fused level 6: local row r of the chunk is node 16·t + r of tree level 11. -/
theorem flevel6 (r : Fin 16) (j : Fin 128) :
    fh6 x0 x1 x2 x3 x4 x5 x6 wih whh bih bhh (ix2 r j) = (states Wih Whh bi bh emb (6 + 1)).1 (16 * t + r.val) j.val
      ∧ fc6 x0 x1 x2 x3 x4 x5 x6 wih whh bih bhh (ix2 r j) = (states Wih Whh bi bh emb (6 + 1)).2 (16 * t + r.val) j.val := by
  have hs := klevel_step (n := 16) shapeCasts_S16x128_S16x128 broadcasts_S1x512_S16x512 x6 (shapeCast S16x256 (fh5 x0 x1 x2 x3 x4 x5 wih whh bih bhh) shapeCasts_S32x128_S16x256) (shapeCast S16x256 (fc5 x0 x1 x2 x3 x4 x5 wih whh bih bhh) shapeCasts_S32x128_S16x256) (k0_pay3 wih) (k0_pay4 whh) (k0_pay5 bih) (k0_pay6 bhh)
    slices_S16x512_o0_0_S16x128 slices_S16x512_o0_128_S16x128 slices_S16x512_o0_256_S16x128 slices_S16x512_o0_384_S16x128 slices_S16x256_o0_0_S16x128
    Wih Whh bi bh (fun a kk => rowsOf emb 6 (16 * t + a) kk) (fun a b => (states Wih Whh bi bh emb 6).1 (2 * (16 * t) + a) b) (fun a b => (states Wih Whh bi bh emb 6).2 (2 * (16 * t) + a) b)
    hW1 hW2 hb1 hb2 (fun r kk => hx6 r kk)
    (fun r kk => by
      rw [pair_apply (n := 16)]
      refine ((flevel5 x0 x1 x2 x3 x4 x5 wih whh bih bhh Wih Whh bi bh emb t hW1 hW2 hb1 hb2 hx0 hx1 hx2 hx3 hx4 hx5 ⟨2 * r.val + kk.val / 128, by have := r.isLt; have := kk.isLt; omega⟩ ⟨kk.val % 128, Nat.mod_lt _ (by decide)⟩).1).trans ?_
      show (states Wih Whh bi bh emb 6).1 (32 * t + (2 * r.val + kk.val / 128)) (kk.val % 128) = (states Wih Whh bi bh emb 6).1 (2 * (16 * t) + (2 * r.val + kk.val / 128)) (kk.val % 128)
      rw [show 32 * t + (2 * r.val + kk.val / 128) = 2 * (16 * t) + (2 * r.val + kk.val / 128) by omega])
    (fun r j => by
      have h1 : j.val / 128 = 0 := Nat.div_eq_of_lt j.isLt
      have h2 : j.val % 128 = j.val := Nat.mod_eq_of_lt j.isLt
      rw [pair_apply (n := 16)]
      refine ((flevel5 x0 x1 x2 x3 x4 x5 wih whh bih bhh Wih Whh bi bh emb t hW1 hW2 hb1 hb2 hx0 hx1 hx2 hx3 hx4 hx5 ⟨2 * r.val + j.val / 128, by have := r.isLt; omega⟩ ⟨j.val % 128, Nat.mod_lt _ (by decide)⟩).2).trans ?_
      show (states Wih Whh bi bh emb 6).2 (32 * t + (2 * r.val + j.val / 128)) (j.val % 128) = (states Wih Whh bi bh emb 6).2 (2 * (16 * t) + 2 * r.val) j.val
      rw [h1, h2, show 32 * t + (2 * r.val + 0) = 2 * (16 * t) + 2 * r.val by omega]) r j
  unfold fh6 fc6 fg6
  rw [states_fst, states_snd]
  exact ⟨hs.1.trans (hidden_shift Wih Whh bi bh (16 * t) (rowsOf emb 6) (states Wih Whh bi bh emb 6).1 (states Wih Whh bi bh emb 6).2 r.val j.val),
    hs.2.trans (cell_shift Wih Whh bi bh (16 * t) (rowsOf emb 6) (states Wih Whh bi bh emb 6).1 (states Wih Whh bi bh emb 6).2 r.val j.val)⟩

include hx0 hx1 hx2 hx3 hx4 hx5 hx6 hx7 in
set_option maxHeartbeats 2000000 in
/-- Fused level 7: local row r of the chunk is node 8·t + r of tree level 10. -/
theorem flevel7 (r : Fin 8) (j : Fin 128) :
    fh7 x0 x1 x2 x3 x4 x5 x6 x7 wih whh bih bhh (ix2 r j) = (states Wih Whh bi bh emb (7 + 1)).1 (8 * t + r.val) j.val
      ∧ fc7 x0 x1 x2 x3 x4 x5 x6 x7 wih whh bih bhh (ix2 r j) = (states Wih Whh bi bh emb (7 + 1)).2 (8 * t + r.val) j.val := by
  have hs := klevel_step (n := 8) shapeCasts_S8x128_S8x128 broadcasts_S1x512_S8x512 x7 (shapeCast S8x256 (fh6 x0 x1 x2 x3 x4 x5 x6 wih whh bih bhh) shapeCasts_S16x128_S8x256) (shapeCast S8x256 (fc6 x0 x1 x2 x3 x4 x5 x6 wih whh bih bhh) shapeCasts_S16x128_S8x256) (k0_pay3 wih) (k0_pay4 whh) (k0_pay5 bih) (k0_pay6 bhh)
    slices_S8x512_o0_0_S8x128 slices_S8x512_o0_128_S8x128 slices_S8x512_o0_256_S8x128 slices_S8x512_o0_384_S8x128 slices_S8x256_o0_0_S8x128
    Wih Whh bi bh (fun a kk => rowsOf emb 7 (8 * t + a) kk) (fun a b => (states Wih Whh bi bh emb 7).1 (2 * (8 * t) + a) b) (fun a b => (states Wih Whh bi bh emb 7).2 (2 * (8 * t) + a) b)
    hW1 hW2 hb1 hb2 (fun r kk => hx7 r kk)
    (fun r kk => by
      rw [pair_apply (n := 8)]
      refine ((flevel6 x0 x1 x2 x3 x4 x5 x6 wih whh bih bhh Wih Whh bi bh emb t hW1 hW2 hb1 hb2 hx0 hx1 hx2 hx3 hx4 hx5 hx6 ⟨2 * r.val + kk.val / 128, by have := r.isLt; have := kk.isLt; omega⟩ ⟨kk.val % 128, Nat.mod_lt _ (by decide)⟩).1).trans ?_
      show (states Wih Whh bi bh emb 7).1 (16 * t + (2 * r.val + kk.val / 128)) (kk.val % 128) = (states Wih Whh bi bh emb 7).1 (2 * (8 * t) + (2 * r.val + kk.val / 128)) (kk.val % 128)
      rw [show 16 * t + (2 * r.val + kk.val / 128) = 2 * (8 * t) + (2 * r.val + kk.val / 128) by omega])
    (fun r j => by
      have h1 : j.val / 128 = 0 := Nat.div_eq_of_lt j.isLt
      have h2 : j.val % 128 = j.val := Nat.mod_eq_of_lt j.isLt
      rw [pair_apply (n := 8)]
      refine ((flevel6 x0 x1 x2 x3 x4 x5 x6 wih whh bih bhh Wih Whh bi bh emb t hW1 hW2 hb1 hb2 hx0 hx1 hx2 hx3 hx4 hx5 hx6 ⟨2 * r.val + j.val / 128, by have := r.isLt; omega⟩ ⟨j.val % 128, Nat.mod_lt _ (by decide)⟩).2).trans ?_
      show (states Wih Whh bi bh emb 7).2 (16 * t + (2 * r.val + j.val / 128)) (j.val % 128) = (states Wih Whh bi bh emb 7).2 (2 * (8 * t) + 2 * r.val) j.val
      rw [h1, h2, show 16 * t + (2 * r.val + 0) = 2 * (8 * t) + 2 * r.val by omega]) r j
  unfold fh7 fc7 fg7
  rw [states_fst, states_snd]
  exact ⟨hs.1.trans (hidden_shift Wih Whh bi bh (8 * t) (rowsOf emb 7) (states Wih Whh bi bh emb 7).1 (states Wih Whh bi bh emb 7).2 r.val j.val),
    hs.2.trans (cell_shift Wih Whh bi bh (8 * t) (rowsOf emb 7) (states Wih Whh bi bh emb 7).1 (states Wih Whh bi bh emb 7).2 r.val j.val)⟩

include hx0 hx1 hx2 hx3 hx4 hx5 hx6 hx7 in
/-- The body's two stored values at local row r: the specification's states eight levels above the leaves at row 8·t + r. -/
theorem fused_states (r : Fin 8) (j : Fin 128) :
    hidden8 (F := Ideal) x0 x1 x2 x3 x4 x5 x6 x7 wih whh bih bhh (ix2 r j) = (states Wih Whh bi bh emb 8).1 (8 * t + r.val) j.val
      ∧ cell8 (F := Ideal) x0 x1 x2 x3 x4 x5 x6 x7 wih whh bih bhh (ix2 r j) = (states Wih Whh bi bh emb 8).2 (8 * t + r.val) j.val := by
  rw [hidden8_eq, cell8_eq]
  exact flevel7 x0 x1 x2 x3 x4 x5 x6 x7 wih whh bih bhh Wih Whh bi bh emb t hW1 hW2 hb1 hb2 hx0 hx1 hx2 hx3 hx4 hx5 hx6 hx7 r j

end Chain

end Cert.KernelIdeal.Fused

end
-- ==== Proof.KI.RegionValue.lean ====
/-
  The region's two result arrays.

  Window k (k = 0 … 7) stages, at grid point t, rows (1024 / 2^k)·t … of the k-th level slice of the embeddings; the
  four weight windows stage their whole arrays at every point; the two result windows write back rows 8·t … 8·t + 7.
  With the facts about the lines before the region (each level slice is rows 2^(17−k) − 1 … of the embeddings; the cut
  weights are the full ones at the kept gates), the body's two stored values at point t are, by the chain of eight
  kernel-level steps (Proof/KI/FusedValue.lean), the specification's states eight levels above the leaves at rows
  8·t + r. The 128 points' blocks tile the 1024 rows, so each result array holds those states at every row.
-/
import proofs.«177989_j29394756173864_2_alg».proof.Proof.KI.Run
import proofs.«177989_j29394756173864_2_alg».proof.Proof.KI.FusedValue
import Idealize.ShloMosaic.Lib.StableHlo.Run

set_option maxRecDepth 16384

noncomputable section

namespace Cert.KernelIdeal.Fused

open Cert.KernelIdeal Cert.KernelIdeal.Gen
open Idealize.ShloMosaic Idealize.ShloMosaic.TcCoe Idealize.SL.Sem Idealize.ShloMosaic.StableHlo
open Idealize.ShloMosaic.ValueIdx Cert.TreeCell Cert.HostLevel Cert.KernelLevel
open Idealize.ShloMosaic.Pipeline (Dat Cfg Window)

variable (m : (ℓ : Loc nD τ sig) → Buf (Elt Ideal) ℓ)

/-- The five launched arguments on core `c`, as the specification reads them. -/
abbrev pE (c : Dev nD) : Mat := ofArr (N := 262143) (M := 128) (m ((c : Thread nD τ).loc main_arg0))
abbrev pWih (c : Dev nD) : Mat := ofArr (N := 1024) (M := 128) (m ((c : Thread nD τ).loc main_arg1))
abbrev pWhh (c : Dev nD) : Mat := ofArr (N := 1024) (M := 256) (m ((c : Thread nD τ).loc main_arg2))
abbrev pbih (c : Dev nD) : ℕ → EReal := ofVec (N := 1024) (m ((c : Thread nD τ).loc main_arg3))
abbrev pbhh (c : Dev nD) : ℕ → EReal := ofVec (N := 1024) (m ((c : Thread nD τ).loc main_arg4))
/-- The specification's states `s` levels above the leaves, of them. -/
abbrev pst (c : Dev nD) (s : ℕ) : Mat × Mat := states (pWih m c) (pWhh m c) (pbih m c) (pbhh m c) (pE m c) s

/-! ## The printed index maps -/

/-- Decided over the 128 grid points: block t of each row window and of each result is the t-th along the rows; the
    weight windows stay at block 0. -/
theorem idx_facts : ∀ t : Fin cfg0.N, win0_0.index t (0 : Fin 2) = t.val
    ∧ win0_0.index t (1 : Fin 2) = 0
    ∧ win0_1.index t (0 : Fin 2) = t.val
    ∧ win0_1.index t (1 : Fin 2) = 0
    ∧ win0_2.index t (0 : Fin 2) = t.val
    ∧ win0_2.index t (1 : Fin 2) = 0
    ∧ win0_3.index t (0 : Fin 2) = t.val
    ∧ win0_3.index t (1 : Fin 2) = 0
    ∧ win0_4.index t (0 : Fin 2) = t.val
    ∧ win0_4.index t (1 : Fin 2) = 0
    ∧ win0_5.index t (0 : Fin 2) = t.val
    ∧ win0_5.index t (1 : Fin 2) = 0
    ∧ win0_6.index t (0 : Fin 2) = t.val
    ∧ win0_6.index t (1 : Fin 2) = 0
    ∧ win0_7.index t (0 : Fin 2) = t.val
    ∧ win0_7.index t (1 : Fin 2) = 0
    ∧ win0_8.index t (0 : Fin 2) = 0
    ∧ win0_8.index t (1 : Fin 2) = 0
    ∧ win0_9.index t (0 : Fin 2) = 0
    ∧ win0_9.index t (1 : Fin 2) = 0
    ∧ win0_10.index t (0 : Fin 2) = 0
    ∧ win0_10.index t (1 : Fin 2) = 0
    ∧ win0_11.index t (0 : Fin 2) = 0
    ∧ win0_11.index t (1 : Fin 2) = 0
    ∧ win0_12.index t (0 : Fin 2) = t.val
    ∧ win0_12.index t (1 : Fin 2) = 0
    ∧ win0_13.index t (0 : Fin 2) = t.val
    ∧ win0_13.index t (1 : Fin 2) = 0 :=
  (by decide +kernel : ∀ t : Fin grid0.N, _)

/-! ## The lines before the region -/

set_option maxHeartbeats 4000000 in
/-- The k = 0 level slice as the region finds it: rows 2^17 − 1 … of the launched embeddings. -/
theorem pre_rows0 (c : Dev nD) (a : Fin 131072) (kk : Fin 128) :
    (V m c (Pipeline.arrRef spec0 0) : FVec Ideal S131072x128 .f32) (ix2 a kk) = rowsOf (pE m c) 0 a.val kk.val := by
  have e : (V m c (Pipeline.arrRef spec0 0) : FVec Ideal S131072x128 .f32)
      = extractStridedSlice S131072x128 ![131071, 0] (m ((c : Thread nD τ).loc main_arg0)) slices_S262143x128_S131072x128_131071_0 := by
    show StableHlo.after (List.flatten linesBefore) (fun b => m (c, b)) (Proc.devRef .tc main_v24) = _
    simp only [linesBefore, main_part0_ops0, List.flatten_cons, List.flatten_nil, List.append_nil]
    after_results_simp
    all_goals (first | rfl | (simp only [] <;> rfl))
  rw [e]
  exact rows_apply 131071 _ slices_S262143x128_S131072x128_131071_0 (by decide) a kk

set_option maxHeartbeats 4000000 in
/-- The k = 1 level slice as the region finds it: rows 2^16 − 1 … of the launched embeddings. -/
theorem pre_rows1 (c : Dev nD) (a : Fin 65536) (kk : Fin 128) :
    (V m c (Pipeline.arrRef spec0 1) : FVec Ideal S65536x128 .f32) (ix2 a kk) = rowsOf (pE m c) 1 a.val kk.val := by
  have e : (V m c (Pipeline.arrRef spec0 1) : FVec Ideal S65536x128 .f32)
      = extractStridedSlice S65536x128 ![65535, 0] (m ((c : Thread nD τ).loc main_arg0)) slices_S262143x128_S65536x128_65535_0 := by
    show StableHlo.after (List.flatten linesBefore) (fun b => m (c, b)) (Proc.devRef .tc main_v25) = _
    simp only [linesBefore, main_part0_ops0, List.flatten_cons, List.flatten_nil, List.append_nil]
    after_results_simp
    all_goals (first | rfl | (simp only [] <;> rfl))
  rw [e]
  exact rows_apply 65535 _ slices_S262143x128_S65536x128_65535_0 (by decide) a kk

set_option maxHeartbeats 4000000 in
/-- The k = 2 level slice as the region finds it: rows 2^15 − 1 … of the launched embeddings. -/
theorem pre_rows2 (c : Dev nD) (a : Fin 32768) (kk : Fin 128) :
    (V m c (Pipeline.arrRef spec0 2) : FVec Ideal S32768x128 .f32) (ix2 a kk) = rowsOf (pE m c) 2 a.val kk.val := by
  have e : (V m c (Pipeline.arrRef spec0 2) : FVec Ideal S32768x128 .f32)
      = extractStridedSlice S32768x128 ![32767, 0] (m ((c : Thread nD τ).loc main_arg0)) slices_S262143x128_S32768x128_32767_0 := by
    show StableHlo.after (List.flatten linesBefore) (fun b => m (c, b)) (Proc.devRef .tc main_v26) = _
    simp only [linesBefore, main_part0_ops0, List.flatten_cons, List.flatten_nil, List.append_nil]
    after_results_simp
    all_goals (first | rfl | (simp only [] <;> rfl))
  rw [e]
  exact rows_apply 32767 _ slices_S262143x128_S32768x128_32767_0 (by decide) a kk

set_option maxHeartbeats 4000000 in
/-- The k = 3 level slice as the region finds it: rows 2^14 − 1 … of the launched embeddings. -/
theorem pre_rows3 (c : Dev nD) (a : Fin 16384) (kk : Fin 128) :
    (V m c (Pipeline.arrRef spec0 3) : FVec Ideal S16384x128 .f32) (ix2 a kk) = rowsOf (pE m c) 3 a.val kk.val := by
  have e : (V m c (Pipeline.arrRef spec0 3) : FVec Ideal S16384x128 .f32)
      = extractStridedSlice S16384x128 ![16383, 0] (m ((c : Thread nD τ).loc main_arg0)) slices_S262143x128_S16384x128_16383_0 := by
    show StableHlo.after (List.flatten linesBefore) (fun b => m (c, b)) (Proc.devRef .tc main_v27) = _
    simp only [linesBefore, main_part0_ops0, List.flatten_cons, List.flatten_nil, List.append_nil]
    after_results_simp
    all_goals (first | rfl | (simp only [] <;> rfl))
  rw [e]
  exact rows_apply 16383 _ slices_S262143x128_S16384x128_16383_0 (by decide) a kk

set_option maxHeartbeats 4000000 in
/-- The k = 4 level slice as the region finds it: rows 2^13 − 1 … of the launched embeddings. -/
theorem pre_rows4 (c : Dev nD) (a : Fin 8192) (kk : Fin 128) :
    (V m c (Pipeline.arrRef spec0 4) : FVec Ideal S8192x128 .f32) (ix2 a kk) = rowsOf (pE m c) 4 a.val kk.val := by
  have e : (V m c (Pipeline.arrRef spec0 4) : FVec Ideal S8192x128 .f32)
      = extractStridedSlice S8192x128 ![8191, 0] (m ((c : Thread nD τ).loc main_arg0)) slices_S262143x128_S8192x128_8191_0 := by
    show StableHlo.after (List.flatten linesBefore) (fun b => m (c, b)) (Proc.devRef .tc main_v28) = _
    simp only [linesBefore, main_part0_ops0, List.flatten_cons, List.flatten_nil, List.append_nil]
    after_results_simp
    all_goals (first | rfl | (simp only [] <;> rfl))
  rw [e]
  exact rows_apply 8191 _ slices_S262143x128_S8192x128_8191_0 (by decide) a kk

set_option maxHeartbeats 4000000 in
/-- The k = 5 level slice as the region finds it: rows 2^12 − 1 … of the launched embeddings. -/
theorem pre_rows5 (c : Dev nD) (a : Fin 4096) (kk : Fin 128) :
    (V m c (Pipeline.arrRef spec0 5) : FVec Ideal S4096x128 .f32) (ix2 a kk) = rowsOf (pE m c) 5 a.val kk.val := by
  have e : (V m c (Pipeline.arrRef spec0 5) : FVec Ideal S4096x128 .f32)
      = extractStridedSlice S4096x128 ![4095, 0] (m ((c : Thread nD τ).loc main_arg0)) slices_S262143x128_S4096x128_4095_0 := by
    show StableHlo.after (List.flatten linesBefore) (fun b => m (c, b)) (Proc.devRef .tc main_v29) = _
    simp only [linesBefore, main_part0_ops0, List.flatten_cons, List.flatten_nil, List.append_nil]
    after_results_simp
    all_goals (first | rfl | (simp only [] <;> rfl))
  rw [e]
  exact rows_apply 4095 _ slices_S262143x128_S4096x128_4095_0 (by decide) a kk

set_option maxHeartbeats 4000000 in
/-- The k = 6 level slice as the region finds it: rows 2^11 − 1 … of the launched embeddings. -/
theorem pre_rows6 (c : Dev nD) (a : Fin 2048) (kk : Fin 128) :
    (V m c (Pipeline.arrRef spec0 6) : FVec Ideal S2048x128 .f32) (ix2 a kk) = rowsOf (pE m c) 6 a.val kk.val := by
  have e : (V m c (Pipeline.arrRef spec0 6) : FVec Ideal S2048x128 .f32)
      = extractStridedSlice S2048x128 ![2047, 0] (m ((c : Thread nD τ).loc main_arg0)) slices_S262143x128_S2048x128_2047_0 := by
    show StableHlo.after (List.flatten linesBefore) (fun b => m (c, b)) (Proc.devRef .tc main_v30) = _
    simp only [linesBefore, main_part0_ops0, List.flatten_cons, List.flatten_nil, List.append_nil]
    after_results_simp
    all_goals (first | rfl | (simp only [] <;> rfl))
  rw [e]
  exact rows_apply 2047 _ slices_S262143x128_S2048x128_2047_0 (by decide) a kk

set_option maxHeartbeats 4000000 in
/-- The k = 7 level slice as the region finds it: rows 2^10 − 1 … of the launched embeddings. -/
theorem pre_rows7 (c : Dev nD) (a : Fin 1024) (kk : Fin 128) :
    (V m c (Pipeline.arrRef spec0 7) : FVec Ideal S1024x128 .f32) (ix2 a kk) = rowsOf (pE m c) 7 a.val kk.val := by
  have e : (V m c (Pipeline.arrRef spec0 7) : FVec Ideal S1024x128 .f32)
      = extractStridedSlice S1024x128 ![1023, 0] (m ((c : Thread nD τ).loc main_arg0)) slices_S262143x128_S1024x128_1023_0 := by
    show StableHlo.after (List.flatten linesBefore) (fun b => m (c, b)) (Proc.devRef .tc main_v31) = _
    simp only [linesBefore, main_part0_ops0, List.flatten_cons, List.flatten_nil, List.append_nil]
    after_results_simp
    all_goals (first | rfl | (simp only [] <;> rfl))
  rw [e]
  exact rows_apply 1023 _ slices_S262143x128_S1024x128_1023_0 (by decide) a kk

set_option maxHeartbeats 4000000 in
/-- The cut input weights as the region finds them: entry (k, q) is the full weights' entry (slim q, k). -/
theorem pre_wih (c : Dev nD) (k : Fin 128) (q : Fin 512) :
    (V m c (Pipeline.arrRef spec0 8) : FVec Ideal S128x512 .f32) (ix2 k q) = pWih m c (slim q.val) k.val := by
  have e : (V m c (Pipeline.arrRef spec0 8) : FVec Ideal S128x512 .f32)
      = transpose S128x512 [1, 0] (concatenate S512x128 0 [⟨S128x128, extractStridedSlice S128x128 ![0, 0] (m ((c : Thread nD τ).loc main_arg1)) slices_S1024x128_S128x128_0_0⟩,
          ⟨S128x128, extractStridedSlice S128x128 ![256, 0] (m ((c : Thread nD τ).loc main_arg1)) slices_S1024x128_S128x128_256_0⟩,
          ⟨S128x128, extractStridedSlice S128x128 ![512, 0] (m ((c : Thread nD τ).loc main_arg1)) slices_S1024x128_S128x128_512_0⟩,
          ⟨S128x128, extractStridedSlice S128x128 ![768, 0] (m ((c : Thread nD τ).loc main_arg1)) slices_S1024x128_S128x128_768_0⟩]
          concatenates_S128x128_S128x128_S128x128_S128x128_S512x128_d0) transposes_S512x128_S128x512_1_0 := by
    show StableHlo.after (List.flatten linesBefore) (fun b => m (c, b)) (Proc.devRef .tc main_v5) = _
    simp only [linesBefore, main_part0_ops0, List.flatten_cons, List.flatten_nil, List.append_nil]
    after_results_simp
    all_goals (first | rfl | (simp only [] <;> rfl))
  rw [e, transpose_ix2 (A := 512) (B := 128)]
  exact cut_rows_apply (K := 128) _ _ _ _ _ _ q k

set_option maxHeartbeats 4000000 in
/-- The cut hidden weights. -/
theorem pre_whh (c : Dev nD) (k : Fin 256) (q : Fin 512) :
    (V m c (Pipeline.arrRef spec0 9) : FVec Ideal S256x512 .f32) (ix2 k q) = pWhh m c (slim q.val) k.val := by
  have e : (V m c (Pipeline.arrRef spec0 9) : FVec Ideal S256x512 .f32)
      = transpose S256x512 [1, 0] (concatenate S512x256 0 [⟨S128x256, extractStridedSlice S128x256 ![0, 0] (m ((c : Thread nD τ).loc main_arg2)) slices_S1024x256_S128x256_0_0⟩,
          ⟨S128x256, extractStridedSlice S128x256 ![256, 0] (m ((c : Thread nD τ).loc main_arg2)) slices_S1024x256_S128x256_256_0⟩,
          ⟨S128x256, extractStridedSlice S128x256 ![512, 0] (m ((c : Thread nD τ).loc main_arg2)) slices_S1024x256_S128x256_512_0⟩,
          ⟨S128x256, extractStridedSlice S128x256 ![768, 0] (m ((c : Thread nD τ).loc main_arg2)) slices_S1024x256_S128x256_768_0⟩]
          concatenates_S128x256_S128x256_S128x256_S128x256_S512x256_d0) transposes_S512x256_S256x512_1_0 := by
    show StableHlo.after (List.flatten linesBefore) (fun b => m (c, b)) (Proc.devRef .tc main_v11) = _
    simp only [linesBefore, main_part0_ops0, List.flatten_cons, List.flatten_nil, List.append_nil]
    after_results_simp
    all_goals (first | rfl | (simp only [] <;> rfl))
  rw [e, transpose_ix2 (A := 512) (B := 256)]
  exact cut_rows_apply (K := 256) _ _ _ _ _ _ q k

set_option maxHeartbeats 4000000 in
/-- The cut input bias, as a row. -/
theorem pre_bih (c : Dev nD) (q : Fin 512) :
    (V m c (Pipeline.arrRef spec0 10) : FVec Ideal S1x512 .f32) (ix2 (0 : Fin 1) q) = pbih m c (slim q.val) := by
  have e : (V m c (Pipeline.arrRef spec0 10) : FVec Ideal S1x512 .f32)
      = shapeCast S1x512 (concatenate S512 0 [⟨S128, extractStridedSlice S128 ![0] (m ((c : Thread nD τ).loc main_arg3)) slices_S1024_S128_0⟩,
          ⟨S128, extractStridedSlice S128 ![256] (m ((c : Thread nD τ).loc main_arg3)) slices_S1024_S128_256⟩,
          ⟨S128, extractStridedSlice S128 ![512] (m ((c : Thread nD τ).loc main_arg3)) slices_S1024_S128_512⟩,
          ⟨S128, extractStridedSlice S128 ![768] (m ((c : Thread nD τ).loc main_arg3)) slices_S1024_S128_768⟩]
          concatenates_S128_S128_S128_S128_S512_d0) shapeCasts_S512_S1x512 := by
    show StableHlo.after (List.flatten linesBefore) (fun b => m (c, b)) (Proc.devRef .tc main_v17) = _
    simp only [linesBefore, main_part0_ops0, List.flatten_cons, List.flatten_nil, List.append_nil]
    after_results_simp
    all_goals (first | rfl | (simp only [] <;> rfl))
  rw [e, asRow_apply]
  exact cut_vec_apply _ _ _ _ _ _ q

set_option maxHeartbeats 4000000 in
/-- The cut hidden bias, as a row. -/
theorem pre_bhh (c : Dev nD) (q : Fin 512) :
    (V m c (Pipeline.arrRef spec0 11) : FVec Ideal S1x512 .f32) (ix2 (0 : Fin 1) q) = pbhh m c (slim q.val) := by
  have e : (V m c (Pipeline.arrRef spec0 11) : FVec Ideal S1x512 .f32)
      = shapeCast S1x512 (concatenate S512 0 [⟨S128, extractStridedSlice S128 ![0] (m ((c : Thread nD τ).loc main_arg4)) slices_S1024_S128_0⟩,
          ⟨S128, extractStridedSlice S128 ![256] (m ((c : Thread nD τ).loc main_arg4)) slices_S1024_S128_256⟩,
          ⟨S128, extractStridedSlice S128 ![512] (m ((c : Thread nD τ).loc main_arg4)) slices_S1024_S128_512⟩,
          ⟨S128, extractStridedSlice S128 ![768] (m ((c : Thread nD τ).loc main_arg4)) slices_S1024_S128_768⟩]
          concatenates_S128_S128_S128_S128_S512_d0) shapeCasts_S512_S1x512 := by
    show StableHlo.after (List.flatten linesBefore) (fun b => m (c, b)) (Proc.devRef .tc main_v23) = _
    simp only [linesBefore, main_part0_ops0, List.flatten_cons, List.flatten_nil, List.append_nil]
    after_results_simp
    all_goals (first | rfl | (simp only [] <;> rfl))
  rw [e, asRow_apply]
  exact cut_vec_apply _ _ _ _ _ _ q

/-! ## The blocks -/

/-- Row r, column kk of window 0's block at point t is entry (1024·t + r, kk) of its array. -/
theorem blk0_apply (c : Dev nD) (t : Fin cfg0.N) (r : Fin 1024) (kk : Fin 128) :
    (iblk m c 0 t : FVec Ideal S1024x128 .f32) (ix2 r kk) = rowsOf (pE m c) 0 (1024 * t.val + r.val) kk.val := by
  have hi := idx_facts t
  have hN : cfg0.N = 128 := N_0
  refine Eq.trans ?_ (pre_rows0 m c ⟨1024 * t.val + r.val, by have := t.isLt; have := r.isLt; omega⟩ kk)
  show V m c (Pipeline.arrRef spec0 0) (((cfg0.win 0).blk t).view.emb (ix2 r kk)) = _
  refine congrArg _ (funext fun a => Fin.ext ?_)
  match a with
  | ⟨0, _⟩ => show win0_0.index t (0 : Fin 2) * 1024 + 1 * r.val = 1024 * t.val + r.val; rw [hi.1]; omega
  | ⟨1, _⟩ => show win0_0.index t (1 : Fin 2) * 128 + 1 * kk.val = kk.val; rw [hi.2.1]; omega

/-- Row r, column kk of window 1's block at point t is entry (512·t + r, kk) of its array. -/
theorem blk1_apply (c : Dev nD) (t : Fin cfg0.N) (r : Fin 512) (kk : Fin 128) :
    (iblk m c 1 t : FVec Ideal S512x128 .f32) (ix2 r kk) = rowsOf (pE m c) 1 (512 * t.val + r.val) kk.val := by
  have hi := idx_facts t
  have hN : cfg0.N = 128 := N_0
  refine Eq.trans ?_ (pre_rows1 m c ⟨512 * t.val + r.val, by have := t.isLt; have := r.isLt; omega⟩ kk)
  show V m c (Pipeline.arrRef spec0 1) (((cfg0.win 1).blk t).view.emb (ix2 r kk)) = _
  refine congrArg _ (funext fun a => Fin.ext ?_)
  match a with
  | ⟨0, _⟩ => show win0_1.index t (0 : Fin 2) * 512 + 1 * r.val = 512 * t.val + r.val; rw [hi.2.2.1]; omega
  | ⟨1, _⟩ => show win0_1.index t (1 : Fin 2) * 128 + 1 * kk.val = kk.val; rw [hi.2.2.2.1]; omega

/-- Row r, column kk of window 2's block at point t is entry (256·t + r, kk) of its array. -/
theorem blk2_apply (c : Dev nD) (t : Fin cfg0.N) (r : Fin 256) (kk : Fin 128) :
    (iblk m c 2 t : FVec Ideal S256x128 .f32) (ix2 r kk) = rowsOf (pE m c) 2 (256 * t.val + r.val) kk.val := by
  have hi := idx_facts t
  have hN : cfg0.N = 128 := N_0
  refine Eq.trans ?_ (pre_rows2 m c ⟨256 * t.val + r.val, by have := t.isLt; have := r.isLt; omega⟩ kk)
  show V m c (Pipeline.arrRef spec0 2) (((cfg0.win 2).blk t).view.emb (ix2 r kk)) = _
  refine congrArg _ (funext fun a => Fin.ext ?_)
  match a with
  | ⟨0, _⟩ => show win0_2.index t (0 : Fin 2) * 256 + 1 * r.val = 256 * t.val + r.val; rw [hi.2.2.2.2.1]; omega
  | ⟨1, _⟩ => show win0_2.index t (1 : Fin 2) * 128 + 1 * kk.val = kk.val; rw [hi.2.2.2.2.2.1]; omega

/-- Row r, column kk of window 3's block at point t is entry (128·t + r, kk) of its array. -/
theorem blk3_apply (c : Dev nD) (t : Fin cfg0.N) (r : Fin 128) (kk : Fin 128) :
    (iblk m c 3 t : FVec Ideal S128x128 .f32) (ix2 r kk) = rowsOf (pE m c) 3 (128 * t.val + r.val) kk.val := by
  have hi := idx_facts t
  have hN : cfg0.N = 128 := N_0
  refine Eq.trans ?_ (pre_rows3 m c ⟨128 * t.val + r.val, by have := t.isLt; have := r.isLt; omega⟩ kk)
  show V m c (Pipeline.arrRef spec0 3) (((cfg0.win 3).blk t).view.emb (ix2 r kk)) = _
  refine congrArg _ (funext fun a => Fin.ext ?_)
  match a with
  | ⟨0, _⟩ => show win0_3.index t (0 : Fin 2) * 128 + 1 * r.val = 128 * t.val + r.val; rw [hi.2.2.2.2.2.2.1]; omega
  | ⟨1, _⟩ => show win0_3.index t (1 : Fin 2) * 128 + 1 * kk.val = kk.val; rw [hi.2.2.2.2.2.2.2.1]; omega

/-- Row r, column kk of window 4's block at point t is entry (64·t + r, kk) of its array. -/
theorem blk4_apply (c : Dev nD) (t : Fin cfg0.N) (r : Fin 64) (kk : Fin 128) :
    (iblk m c 4 t : FVec Ideal S64x128 .f32) (ix2 r kk) = rowsOf (pE m c) 4 (64 * t.val + r.val) kk.val := by
  have hi := idx_facts t
  have hN : cfg0.N = 128 := N_0
  refine Eq.trans ?_ (pre_rows4 m c ⟨64 * t.val + r.val, by have := t.isLt; have := r.isLt; omega⟩ kk)
  show V m c (Pipeline.arrRef spec0 4) (((cfg0.win 4).blk t).view.emb (ix2 r kk)) = _
  refine congrArg _ (funext fun a => Fin.ext ?_)
  match a with
  | ⟨0, _⟩ => show win0_4.index t (0 : Fin 2) * 64 + 1 * r.val = 64 * t.val + r.val; rw [hi.2.2.2.2.2.2.2.2.1]; omega
  | ⟨1, _⟩ => show win0_4.index t (1 : Fin 2) * 128 + 1 * kk.val = kk.val; rw [hi.2.2.2.2.2.2.2.2.2.1]; omega

/-- Row r, column kk of window 5's block at point t is entry (32·t + r, kk) of its array. -/
theorem blk5_apply (c : Dev nD) (t : Fin cfg0.N) (r : Fin 32) (kk : Fin 128) :
    (iblk m c 5 t : FVec Ideal S32x128 .f32) (ix2 r kk) = rowsOf (pE m c) 5 (32 * t.val + r.val) kk.val := by
  have hi := idx_facts t
  have hN : cfg0.N = 128 := N_0
  refine Eq.trans ?_ (pre_rows5 m c ⟨32 * t.val + r.val, by have := t.isLt; have := r.isLt; omega⟩ kk)
  show V m c (Pipeline.arrRef spec0 5) (((cfg0.win 5).blk t).view.emb (ix2 r kk)) = _
  refine congrArg _ (funext fun a => Fin.ext ?_)
  match a with
  | ⟨0, _⟩ => show win0_5.index t (0 : Fin 2) * 32 + 1 * r.val = 32 * t.val + r.val; rw [hi.2.2.2.2.2.2.2.2.2.2.1]; omega
  | ⟨1, _⟩ => show win0_5.index t (1 : Fin 2) * 128 + 1 * kk.val = kk.val; rw [hi.2.2.2.2.2.2.2.2.2.2.2.1]; omega

/-- Row r, column kk of window 6's block at point t is entry (16·t + r, kk) of its array. -/
theorem blk6_apply (c : Dev nD) (t : Fin cfg0.N) (r : Fin 16) (kk : Fin 128) :
    (iblk m c 6 t : FVec Ideal S16x128 .f32) (ix2 r kk) = rowsOf (pE m c) 6 (16 * t.val + r.val) kk.val := by
  have hi := idx_facts t
  have hN : cfg0.N = 128 := N_0
  refine Eq.trans ?_ (pre_rows6 m c ⟨16 * t.val + r.val, by have := t.isLt; have := r.isLt; omega⟩ kk)
  show V m c (Pipeline.arrRef spec0 6) (((cfg0.win 6).blk t).view.emb (ix2 r kk)) = _
  refine congrArg _ (funext fun a => Fin.ext ?_)
  match a with
  | ⟨0, _⟩ => show win0_6.index t (0 : Fin 2) * 16 + 1 * r.val = 16 * t.val + r.val; rw [hi.2.2.2.2.2.2.2.2.2.2.2.2.1]; omega
  | ⟨1, _⟩ => show win0_6.index t (1 : Fin 2) * 128 + 1 * kk.val = kk.val; rw [hi.2.2.2.2.2.2.2.2.2.2.2.2.2.1]; omega

/-- Row r, column kk of window 7's block at point t is entry (8·t + r, kk) of its array. -/
theorem blk7_apply (c : Dev nD) (t : Fin cfg0.N) (r : Fin 8) (kk : Fin 128) :
    (iblk m c 7 t : FVec Ideal S8x128 .f32) (ix2 r kk) = rowsOf (pE m c) 7 (8 * t.val + r.val) kk.val := by
  have hi := idx_facts t
  have hN : cfg0.N = 128 := N_0
  refine Eq.trans ?_ (pre_rows7 m c ⟨8 * t.val + r.val, by have := t.isLt; have := r.isLt; omega⟩ kk)
  show V m c (Pipeline.arrRef spec0 7) (((cfg0.win 7).blk t).view.emb (ix2 r kk)) = _
  refine congrArg _ (funext fun a => Fin.ext ?_)
  match a with
  | ⟨0, _⟩ => show win0_7.index t (0 : Fin 2) * 8 + 1 * r.val = 8 * t.val + r.val; rw [hi.2.2.2.2.2.2.2.2.2.2.2.2.2.2.1]; omega
  | ⟨1, _⟩ => show win0_7.index t (1 : Fin 2) * 128 + 1 * kk.val = kk.val; rw [hi.2.2.2.2.2.2.2.2.2.2.2.2.2.2.2.1]; omega

/-- Window 8's block at every point is its whole array. -/
theorem blk8_apply (c : Dev nD) (t : Fin cfg0.N) (k : Fin 128) (q : Fin 512) :
    (iblk m c 8 t : FVec Ideal S128x512 .f32) (ix2 k q) = pWih m c (slim q.val) k.val := by
  have hi := idx_facts t
  refine Eq.trans ?_ (pre_wih m c k q)
  show V m c (Pipeline.arrRef spec0 8) (((cfg0.win 8).blk t).view.emb (ix2 k q)) = _
  refine congrArg _ (funext fun a => Fin.ext ?_)
  match a with
  | ⟨0, _⟩ => show win0_8.index t (0 : Fin 2) * 128 + 1 * k.val = k.val; rw [hi.2.2.2.2.2.2.2.2.2.2.2.2.2.2.2.2.1]; try omega
  | ⟨1, _⟩ => show win0_8.index t (1 : Fin 2) * 512 + 1 * q.val = q.val; rw [hi.2.2.2.2.2.2.2.2.2.2.2.2.2.2.2.2.2.1]; omega

/-- Window 9's block at every point is its whole array. -/
theorem blk9_apply (c : Dev nD) (t : Fin cfg0.N) (k : Fin 256) (q : Fin 512) :
    (iblk m c 9 t : FVec Ideal S256x512 .f32) (ix2 k q) = pWhh m c (slim q.val) k.val := by
  have hi := idx_facts t
  refine Eq.trans ?_ (pre_whh m c k q)
  show V m c (Pipeline.arrRef spec0 9) (((cfg0.win 9).blk t).view.emb (ix2 k q)) = _
  refine congrArg _ (funext fun a => Fin.ext ?_)
  match a with
  | ⟨0, _⟩ => show win0_9.index t (0 : Fin 2) * 256 + 1 * k.val = k.val; rw [hi.2.2.2.2.2.2.2.2.2.2.2.2.2.2.2.2.2.2.1]; try omega
  | ⟨1, _⟩ => show win0_9.index t (1 : Fin 2) * 512 + 1 * q.val = q.val; rw [hi.2.2.2.2.2.2.2.2.2.2.2.2.2.2.2.2.2.2.2.1]; omega

/-- Window 10's block at every point is its whole array. -/
theorem blk10_apply (c : Dev nD) (t : Fin cfg0.N) (q : Fin 512) :
    (iblk m c 10 t : FVec Ideal S1x512 .f32) (ix2 (0 : Fin 1) q) = pbih m c (slim q.val) := by
  have hi := idx_facts t
  refine Eq.trans ?_ (pre_bih m c q)
  show V m c (Pipeline.arrRef spec0 10) (((cfg0.win 10).blk t).view.emb (ix2 (0 : Fin 1) q)) = _
  refine congrArg _ (funext fun a => Fin.ext ?_)
  match a with
  | ⟨0, _⟩ => show win0_10.index t (0 : Fin 2) * 1 + 1 * 0 = 0; rw [hi.2.2.2.2.2.2.2.2.2.2.2.2.2.2.2.2.2.2.2.2.1]; try omega
  | ⟨1, _⟩ => show win0_10.index t (1 : Fin 2) * 512 + 1 * q.val = q.val; rw [hi.2.2.2.2.2.2.2.2.2.2.2.2.2.2.2.2.2.2.2.2.2.1]; omega

/-- Window 11's block at every point is its whole array. -/
theorem blk11_apply (c : Dev nD) (t : Fin cfg0.N) (q : Fin 512) :
    (iblk m c 11 t : FVec Ideal S1x512 .f32) (ix2 (0 : Fin 1) q) = pbhh m c (slim q.val) := by
  have hi := idx_facts t
  refine Eq.trans ?_ (pre_bhh m c q)
  show V m c (Pipeline.arrRef spec0 11) (((cfg0.win 11).blk t).view.emb (ix2 (0 : Fin 1) q)) = _
  refine congrArg _ (funext fun a => Fin.ext ?_)
  match a with
  | ⟨0, _⟩ => show win0_11.index t (0 : Fin 2) * 1 + 1 * 0 = 0; rw [hi.2.2.2.2.2.2.2.2.2.2.2.2.2.2.2.2.2.2.2.2.2.2.1]; try omega
  | ⟨1, _⟩ => show win0_11.index t (1 : Fin 2) * 512 + 1 * q.val = q.val; rw [hi.2.2.2.2.2.2.2.2.2.2.2.2.2.2.2.2.2.2.2.2.2.2.2.1]; omega

/-! ## What each point writes back, and the arrays -/

theorem hz : (![0, 0] : Fin 2 → Nat) = fun _ => 0 := funext fun a => by fin_cases a <;> rfl

/-- The body's two stored values at point t, local row r: the specification's states at row 8·t + r. -/
theorem point_states (c : Dev nD) (t : Fin cfg0.N) (r : Fin 8) (j : Fin 128) :
    hidden8 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r j) = (pst m c 8).1 (8 * t.val + r.val) j.val
      ∧ cell8 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r j) = (pst m c 8).2 (8 * t.val + r.val) j.val :=
  fused_states (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (pWih m c) (pWhh m c) (pbih m c) (pbhh m c) (pE m c) t.val
    (fun k q => by unfold k0_pay3; rw [shapeCast_self]; exact blk8_apply m c t k q)
    (fun k q => by unfold k0_pay4; rw [shapeCast_self]; exact blk9_apply m c t k q)
    (fun q => by unfold k0_pay5; rw [shapeCast_self]; exact blk10_apply m c t q)
    (fun q => by unfold k0_pay6; rw [shapeCast_self]; exact blk11_apply m c t q)
    (fun r kk => blk0_apply m c t r kk) (fun r kk => blk1_apply m c t r kk) (fun r kk => blk2_apply m c t r kk) (fun r kk => blk3_apply m c t r kk) (fun r kk => blk4_apply m c t r kk) (fun r kk => blk5_apply m c t r kk) (fun r kk => blk6_apply m c t r kk) (fun r kk => blk7_apply m c t r kk) r j

/-- What the region's hidden-state result holds: the specification's hidden states eight levels above the leaves. -/
def G12 (c : Dev nD) : S1024x128.Idx → EReal := fun i => (pst m c 8).1 (i 0).val (i 1).val

/-- What point t writes back into it is block t of that. -/
theorem flushed12_eq (c : Dev nD) (t : Fin cfg0.N) :
    (dats m 0 c).flushed 12 t = ((cfg0.win 12).blk t).view.read (Elt Ideal) (G12 m c) := by
  have hi := idx_facts t
  show (cfg0.win 12).cut (grid0.coords t) ((dats m 0 c).after 12 t) = _
  rw [after12]
  unfold hiddenBuf
  rw [View.canon_unit_zero hz]
  simp only [View.ld_unit_zero (S := S1024x128) hz, View.ld_unit_zero (S := S512x128) hz, View.ld_unit_zero (S := S256x128) hz, View.ld_unit_zero (S := S128x128) hz, View.ld_unit_zero (S := S64x128) hz, View.ld_unit_zero (S := S32x128) hz, View.ld_unit_zero (S := S16x128) hz, View.ld_unit_zero (S := S8x128) hz, View.ld_unit_zero (S := S128x512) hz, View.ld_unit_zero (S := S256x512) hz, View.ld_unit_zero (S := S1x512) hz]
  funext y
  obtain ⟨r, j, rfl⟩ : ∃ (r : Fin 8) (j : Fin 128), y = ix2 r j := ⟨y 0, y 1, eq_ix2 y⟩
  refine ((point_states m c t r j).1).trans ?_
  show (pst m c 8).1 (8 * t.val + r.val) j.val = G12 m c (((cfg0.win 12).blk t).view.emb (ix2 r j))
  unfold G12
  have e0 : ((((cfg0.win 12).blk t).view.emb (ix2 r j)) 0).val = 8 * t.val + r.val := by
    show win0_12.index t (0 : Fin 2) * 8 + 1 * r.val = _; rw [hi.2.2.2.2.2.2.2.2.2.2.2.2.2.2.2.2.2.2.2.2.2.2.2.2.1]; omega
  have e1 : ((((cfg0.win 12).blk t).view.emb (ix2 r j)) 1).val = j.val := by
    show win0_12.index t (1 : Fin 2) * 128 + 1 * j.val = _; rw [hi.2.2.2.2.2.2.2.2.2.2.2.2.2.2.2.2.2.2.2.2.2.2.2.2.2.1]; omega
  rw [e0, e1]

/-- An index of the array is in point t's block iff each coordinate is in the block's range. -/
theorem mem_blk12 (t : Fin cfg0.N) (i : S1024x128.Idx) :
    i ∈ ((cfg0.win 12).blk t).view.set ↔ ∀ a : Fin 2, win0_12.index t a * S8x128.size a ≤ (i a).val ∧ (i a).val < win0_12.index t a * S8x128.size a + S8x128.size a := by
  show i ∈ ((View.whole main_v32_0).slice (win0_12.rect t)).set ↔ _
  rw [View.set_slice_whole, Rect.mem_set_unit]
  exact Iff.rfl

/-- The 128 points' blocks tile the 1024 rows: row i is in block i / 8. -/
theorem cover12 (i : S1024x128.Idx) : ∃ t : Fin cfg0.N, (cfg0.win 12).flush t = true ∧ i ∈ ((cfg0.win 12).blk t).view.set := by
  have hN : cfg0.N = 128 := N_0
  have hi0 : (i 0).val < 1024 := (i 0).isLt
  have hi1 : (i 1).val < 128 := (i 1).isLt
  refine ⟨⟨(i 0).val / 8, by omega⟩, flush0_12 _, ?_⟩
  have hi := idx_facts ⟨(i 0).val / 8, by omega⟩
  rw [mem_blk12]
  intro a
  match a with
  | ⟨0, _⟩ => show win0_12.index _ (0 : Fin 2) * 8 ≤ (i 0).val ∧ (i 0).val < win0_12.index _ (0 : Fin 2) * 8 + 8; rw [hi.2.2.2.2.2.2.2.2.2.2.2.2.2.2.2.2.2.2.2.2.2.2.2.2.1]; show (i 0).val / 8 * 8 ≤ _ ∧ _ < (i 0).val / 8 * 8 + 8; omega
  | ⟨1, _⟩ => show win0_12.index _ (1 : Fin 2) * 128 ≤ (i 1).val ∧ (i 1).val < win0_12.index _ (1 : Fin 2) * 128 + 128; rw [hi.2.2.2.2.2.2.2.2.2.2.2.2.2.2.2.2.2.2.2.2.2.2.2.2.2.1]; omega

/-- The array after the region. -/
theorem final12 (c : Dev nD) : (dats m 0 c).arrAt 12 cfg0.N = G12 m c :=
  (dats m 0 c).arrAt_eq_of_cover 12 (G12 m c) (fun t _ => flushed12_eq m c t) (cover12)

/-- What the region's cell-state result holds: the specification's cell states eight levels above the leaves. -/
def G13 (c : Dev nD) : S1024x128.Idx → EReal := fun i => (pst m c 8).2 (i 0).val (i 1).val

/-- What point t writes back into it is block t of that. -/
theorem flushed13_eq (c : Dev nD) (t : Fin cfg0.N) :
    (dats m 0 c).flushed 13 t = ((cfg0.win 13).blk t).view.read (Elt Ideal) (G13 m c) := by
  have hi := idx_facts t
  show (cfg0.win 13).cut (grid0.coords t) ((dats m 0 c).after 13 t) = _
  rw [after13]
  unfold cellBuf
  rw [View.canon_unit_zero hz]
  simp only [View.ld_unit_zero (S := S1024x128) hz, View.ld_unit_zero (S := S512x128) hz, View.ld_unit_zero (S := S256x128) hz, View.ld_unit_zero (S := S128x128) hz, View.ld_unit_zero (S := S64x128) hz, View.ld_unit_zero (S := S32x128) hz, View.ld_unit_zero (S := S16x128) hz, View.ld_unit_zero (S := S8x128) hz, View.ld_unit_zero (S := S128x512) hz, View.ld_unit_zero (S := S256x512) hz, View.ld_unit_zero (S := S1x512) hz]
  funext y
  obtain ⟨r, j, rfl⟩ : ∃ (r : Fin 8) (j : Fin 128), y = ix2 r j := ⟨y 0, y 1, eq_ix2 y⟩
  refine ((point_states m c t r j).2).trans ?_
  show (pst m c 8).2 (8 * t.val + r.val) j.val = G13 m c (((cfg0.win 13).blk t).view.emb (ix2 r j))
  unfold G13
  have e0 : ((((cfg0.win 13).blk t).view.emb (ix2 r j)) 0).val = 8 * t.val + r.val := by
    show win0_13.index t (0 : Fin 2) * 8 + 1 * r.val = _; rw [hi.2.2.2.2.2.2.2.2.2.2.2.2.2.2.2.2.2.2.2.2.2.2.2.2.2.2.1]; omega
  have e1 : ((((cfg0.win 13).blk t).view.emb (ix2 r j)) 1).val = j.val := by
    show win0_13.index t (1 : Fin 2) * 128 + 1 * j.val = _; rw [hi.2.2.2.2.2.2.2.2.2.2.2.2.2.2.2.2.2.2.2.2.2.2.2.2.2.2.2]; omega
  rw [e0, e1]

/-- An index of the array is in point t's block iff each coordinate is in the block's range. -/
theorem mem_blk13 (t : Fin cfg0.N) (i : S1024x128.Idx) :
    i ∈ ((cfg0.win 13).blk t).view.set ↔ ∀ a : Fin 2, win0_13.index t a * S8x128.size a ≤ (i a).val ∧ (i a).val < win0_13.index t a * S8x128.size a + S8x128.size a := by
  show i ∈ ((View.whole main_v32_1).slice (win0_13.rect t)).set ↔ _
  rw [View.set_slice_whole, Rect.mem_set_unit]
  exact Iff.rfl

/-- The 128 points' blocks tile the 1024 rows: row i is in block i / 8. -/
theorem cover13 (i : S1024x128.Idx) : ∃ t : Fin cfg0.N, (cfg0.win 13).flush t = true ∧ i ∈ ((cfg0.win 13).blk t).view.set := by
  have hN : cfg0.N = 128 := N_0
  have hi0 : (i 0).val < 1024 := (i 0).isLt
  have hi1 : (i 1).val < 128 := (i 1).isLt
  refine ⟨⟨(i 0).val / 8, by omega⟩, flush0_13 _, ?_⟩
  have hi := idx_facts ⟨(i 0).val / 8, by omega⟩
  rw [mem_blk13]
  intro a
  match a with
  | ⟨0, _⟩ => show win0_13.index _ (0 : Fin 2) * 8 ≤ (i 0).val ∧ (i 0).val < win0_13.index _ (0 : Fin 2) * 8 + 8; rw [hi.2.2.2.2.2.2.2.2.2.2.2.2.2.2.2.2.2.2.2.2.2.2.2.2.2.2.1]; show (i 0).val / 8 * 8 ≤ _ ∧ _ < (i 0).val / 8 * 8 + 8; omega
  | ⟨1, _⟩ => show win0_13.index _ (1 : Fin 2) * 128 ≤ (i 1).val ∧ (i 1).val < win0_13.index _ (1 : Fin 2) * 128 + 128; rw [hi.2.2.2.2.2.2.2.2.2.2.2.2.2.2.2.2.2.2.2.2.2.2.2.2.2.2.2]; omega

/-- The array after the region. -/
theorem final13 (c : Dev nD) : (dats m 0 c).arrAt 13 cfg0.N = G13 m c :=
  (dats m 0 c).arrAt_eq_of_cover 13 (G13 m c) (fun t _ => flushed13_eq m c t) (cover13)

end Cert.KernelIdeal.Fused

end
-- ==== Proof.RefLevels.lean ====
/-
  The reference, level by level.

  The reference's generated run names two intermediates per level: the gates (an [n, 1024] array) and the new cell
  states over all 256 columns (an [n, 256] array). Level k (k = 0 the leaves' parents, 131072 nodes; k = 17 the root)
  reads rows 2^(17−k) − 1 … of the embeddings and the first 128 columns of the level below's hidden and cell arrays,
  two rows side by side. Each level is the level step of Proof/HostLevel.lean; so, by induction up the tree, level
  k's hidden and cell arrays (first 128 columns) are the specification's states k + 1 levels above the leaves, and the
  reference's result, the root's two rows side by side, is the specification's root.
-/
import proofs.«177989_j29394756173864_2_alg».proof.Proof.Gen.ReferenceIdeal.Run
import proofs.«177989_j29394756173864_2_alg».proof.Proof.HostLevel

set_option maxRecDepth 16384

noncomputable section

namespace Cert.RefTree

open Cert.ReferenceIdeal Cert.ReferenceIdeal.Gen Cert.ReferenceIdeal.Value
open Idealize.ShloMosaic Idealize.ShloMosaic.TcCoe Idealize.SL.Sem Idealize.ShloMosaic.StableHlo
open Idealize.ShloMosaic.ValueIdx Cert.TreeCell Cert.HostLevel

variable (V0 : Valuation τ sig (Elt Ideal))

/-- The five arguments as the specification reads them. -/
abbrev aE : Mat := ofArr (N := 262143) (M := 128) (V0 (Proc.devRef .tc main_arg0))
abbrev aWih : Mat := ofArr (N := 1024) (M := 128) (V0 (Proc.devRef .tc main_arg1))
abbrev aWhh : Mat := ofArr (N := 1024) (M := 256) (V0 (Proc.devRef .tc main_arg2))
abbrev abih : ℕ → EReal := ofVec (N := 1024) (V0 (Proc.devRef .tc main_arg3))
abbrev abhh : ℕ → EReal := ofVec (N := 1024) (V0 (Proc.devRef .tc main_arg4))
/-- The specification's states `s` levels above the leaves, of these arguments. -/
abbrev st (s : ℕ) : Mat × Mat := states (aWih V0) (aWhh V0) (abih V0) (abhh V0) (aE V0) s

/-- The leaves' hidden and cell states: the zero array. -/
def Z : FVec Ideal S262144x128 .f32 := broadcastInDim S262144x128 ![] bcast_S_S262144x128 (constant S_ .f32 0x00000000#32)

/-! ## Level 0: 131072 nodes -/

/-- The level's embedding rows. -/
def X0 : FVec Ideal S131072x128 .f32 :=
  extractStridedSlice S131072x128 ![131071, 0] (V0 (Proc.devRef .tc main_arg0)) slices_S262143x128_S131072x128_131071_0
/-- The level's hidden states, kept columns. -/
def H0 : FVec Ideal S131072x128 .f32 :=
  extractStridedSlice S131072x128 ![0, 0] (mulf (Host.divf (broadcastInDim S131072x256 ![] bcast_S_S131072x256 (constant S_ .f32 0x3F800000#32)) (addf (broadcastInDim S131072x256 ![] bcast_S_S131072x256 (constant S_ .f32 0x3F800000#32)) (Host.exp (Host.negf (extractStridedSlice S131072x256 ![0, 768] (res_main_v15 V0) slices_S131072x1024_S131072x256_0_768))))) (Host.tanh (res_main_v35 V0))) slices_S131072x256_S131072x128_0_0
/-- The level's cell states, kept columns. -/
def C0 : FVec Ideal S131072x128 .f32 :=
  extractStridedSlice S131072x128 ![0, 0] (res_main_v35 V0) slices_S131072x256_S131072x128_0_0

set_option maxHeartbeats 2000000 in
/-- The gates are the host level's gates of the level's rows and the hidden array below. -/
theorem G0_eq : res_main_v15 V0 = gatesT (n := 131072) transposes_S1024x128_S128x1024_1_0 transposes_S1024x256_S256x1024_1_0 bcast_S1024_S1x1024_1 bcast_S1x1024_S131072x1024_0_1 shapeCasts_S262144x128_S131072x256 (X0 V0) Z (V0 (Proc.devRef .tc main_arg1)) (V0 (Proc.devRef .tc main_arg2)) (V0 (Proc.devRef .tc main_arg3)) (V0 (Proc.devRef .tc main_arg4)) := rfl

set_option maxHeartbeats 2000000 in
/-- The cell array over all 256 columns is the host level's. -/
theorem Cfull0_eq : res_main_v35 V0 = cellT (n := 131072) shapeCasts_S262144x128_S131072x256 Z bcast_S_S131072x256 slices_S131072x1024_S131072x256_0_0 slices_S131072x1024_S131072x256_0_256 slices_S131072x1024_S131072x256_0_512 (res_main_v15 V0) := rfl

set_option maxHeartbeats 2000000 in
theorem H0_eq : H0 V0 = extractStridedSlice S131072x128 ![0, 0] (hiddenT (n := 131072) bcast_S_S131072x256 slices_S131072x1024_S131072x256_0_768 (res_main_v15 V0) (res_main_v35 V0)) slices_S131072x256_S131072x128_0_0 := rfl

set_option maxHeartbeats 2000000 in
theorem C0_eq : C0 V0 = extractStridedSlice S131072x128 ![0, 0] (res_main_v35 V0) slices_S131072x256_S131072x128_0_0 := rfl

set_option maxHeartbeats 1000000 in
/-- Level 0's arrays are the specification's states 1 level above the leaves. -/
theorem level0 (r : Fin 131072) (j : Fin 128) :
    H0 V0 (ix2 r j) = (st V0 (0 + 1)).1 r.val j.val ∧ C0 V0 (ix2 r j) = (st V0 (0 + 1)).2 r.val j.val := by
  rw [H0_eq, C0_eq, Cfull0_eq, G0_eq, states_fst, states_snd]
  have h := level_step (n := 131072) transposes_S1024x128_S128x1024_1_0 transposes_S1024x256_S256x1024_1_0 bcast_S1024_S1x1024_1 bcast_S1x1024_S131072x1024_0_1 shapeCasts_S262144x128_S131072x256 (X0 V0) Z Z (V0 (Proc.devRef .tc main_arg1)) (V0 (Proc.devRef .tc main_arg2)) (V0 (Proc.devRef .tc main_arg3)) (V0 (Proc.devRef .tc main_arg4)) bcast_S_S131072x256 slices_S131072x1024_S131072x256_0_0 slices_S131072x1024_S131072x256_0_256 slices_S131072x1024_S131072x256_0_512 slices_S131072x1024_S131072x256_0_768 slices_S131072x256_S131072x128_0_0
    (rowsOf (aE V0) 0) (st V0 0).1 (st V0 0).2
    (fun r k => rows_apply 131071 _ slices_S262143x128_S131072x128_131071_0 (by decide) r k)
    (fun a b => (zeros_apply bcast_S_S262144x128 (ix2 a b)).trans (states_zero_fst _ _ _ _ _ _ _).symm)
    (fun a b => (zeros_apply bcast_S_S262144x128 (ix2 a b)).trans (states_zero_snd _ _ _ _ _ _ _).symm) r j
  exact h

/-! ## Level 1: 65536 nodes -/

/-- The level's embedding rows. -/
def X1 : FVec Ideal S65536x128 .f32 :=
  extractStridedSlice S65536x128 ![65535, 0] (V0 (Proc.devRef .tc main_arg0)) slices_S262143x128_S65536x128_65535_0
/-- The level's hidden states, kept columns. -/
def H1 : FVec Ideal S65536x128 .f32 :=
  extractStridedSlice S65536x128 ![0, 0] (mulf (Host.divf (broadcastInDim S65536x256 ![] bcast_S_S65536x256 (constant S_ .f32 0x3F800000#32)) (addf (broadcastInDim S65536x256 ![] bcast_S_S65536x256 (constant S_ .f32 0x3F800000#32)) (Host.exp (Host.negf (extractStridedSlice S65536x256 ![0, 768] (res_main_v59 V0) slices_S65536x1024_S65536x256_0_768))))) (Host.tanh (res_main_v79 V0))) slices_S65536x256_S65536x128_0_0
/-- The level's cell states, kept columns. -/
def C1 : FVec Ideal S65536x128 .f32 :=
  extractStridedSlice S65536x128 ![0, 0] (res_main_v79 V0) slices_S65536x256_S65536x128_0_0

set_option maxHeartbeats 2000000 in
/-- The gates are the host level's gates of the level's rows and the hidden array below. -/
theorem G1_eq : res_main_v59 V0 = gatesT (n := 65536) transposes_S1024x128_S128x1024_1_0 transposes_S1024x256_S256x1024_1_0 bcast_S1024_S1x1024_1 bcast_S1x1024_S65536x1024_0_1 shapeCasts_S131072x128_S65536x256 (X1 V0) (H0 V0) (V0 (Proc.devRef .tc main_arg1)) (V0 (Proc.devRef .tc main_arg2)) (V0 (Proc.devRef .tc main_arg3)) (V0 (Proc.devRef .tc main_arg4)) := rfl

set_option maxHeartbeats 2000000 in
/-- The cell array over all 256 columns is the host level's. -/
theorem Cfull1_eq : res_main_v79 V0 = cellT (n := 65536) shapeCasts_S131072x128_S65536x256 (C0 V0) bcast_S_S65536x256 slices_S65536x1024_S65536x256_0_0 slices_S65536x1024_S65536x256_0_256 slices_S65536x1024_S65536x256_0_512 (res_main_v59 V0) := rfl

set_option maxHeartbeats 2000000 in
theorem H1_eq : H1 V0 = extractStridedSlice S65536x128 ![0, 0] (hiddenT (n := 65536) bcast_S_S65536x256 slices_S65536x1024_S65536x256_0_768 (res_main_v59 V0) (res_main_v79 V0)) slices_S65536x256_S65536x128_0_0 := rfl

set_option maxHeartbeats 2000000 in
theorem C1_eq : C1 V0 = extractStridedSlice S65536x128 ![0, 0] (res_main_v79 V0) slices_S65536x256_S65536x128_0_0 := rfl

set_option maxHeartbeats 1000000 in
/-- Level 1's arrays are the specification's states 2 levels above the leaves. -/
theorem level1 (r : Fin 65536) (j : Fin 128) :
    H1 V0 (ix2 r j) = (st V0 (1 + 1)).1 r.val j.val ∧ C1 V0 (ix2 r j) = (st V0 (1 + 1)).2 r.val j.val := by
  rw [H1_eq, C1_eq, Cfull1_eq, G1_eq, states_fst, states_snd]
  have h := level_step (n := 65536) transposes_S1024x128_S128x1024_1_0 transposes_S1024x256_S256x1024_1_0 bcast_S1024_S1x1024_1 bcast_S1x1024_S65536x1024_0_1 shapeCasts_S131072x128_S65536x256 (X1 V0) (H0 V0) (C0 V0) (V0 (Proc.devRef .tc main_arg1)) (V0 (Proc.devRef .tc main_arg2)) (V0 (Proc.devRef .tc main_arg3)) (V0 (Proc.devRef .tc main_arg4)) bcast_S_S65536x256 slices_S65536x1024_S65536x256_0_0 slices_S65536x1024_S65536x256_0_256 slices_S65536x1024_S65536x256_0_512 slices_S65536x1024_S65536x256_0_768 slices_S65536x256_S65536x128_0_0
    (rowsOf (aE V0) 1) (st V0 1).1 (st V0 1).2
    (fun r k => rows_apply 65535 _ slices_S262143x128_S65536x128_65535_0 (by decide) r k)
    (fun a b => (level0 V0 a b).1)
    (fun a b => (level0 V0 a b).2) r j
  exact h

/-! ## Level 2: 32768 nodes -/

/-- The level's embedding rows. -/
def X2 : FVec Ideal S32768x128 .f32 :=
  extractStridedSlice S32768x128 ![32767, 0] (V0 (Proc.devRef .tc main_arg0)) slices_S262143x128_S32768x128_32767_0
/-- The level's hidden states, kept columns. -/
def H2 : FVec Ideal S32768x128 .f32 :=
  extractStridedSlice S32768x128 ![0, 0] (mulf (Host.divf (broadcastInDim S32768x256 ![] bcast_S_S32768x256 (constant S_ .f32 0x3F800000#32)) (addf (broadcastInDim S32768x256 ![] bcast_S_S32768x256 (constant S_ .f32 0x3F800000#32)) (Host.exp (Host.negf (extractStridedSlice S32768x256 ![0, 768] (res_main_v103 V0) slices_S32768x1024_S32768x256_0_768))))) (Host.tanh (res_main_v123 V0))) slices_S32768x256_S32768x128_0_0
/-- The level's cell states, kept columns. -/
def C2 : FVec Ideal S32768x128 .f32 :=
  extractStridedSlice S32768x128 ![0, 0] (res_main_v123 V0) slices_S32768x256_S32768x128_0_0

set_option maxHeartbeats 2000000 in
/-- The gates are the host level's gates of the level's rows and the hidden array below. -/
theorem G2_eq : res_main_v103 V0 = gatesT (n := 32768) transposes_S1024x128_S128x1024_1_0 transposes_S1024x256_S256x1024_1_0 bcast_S1024_S1x1024_1 bcast_S1x1024_S32768x1024_0_1 shapeCasts_S65536x128_S32768x256 (X2 V0) (H1 V0) (V0 (Proc.devRef .tc main_arg1)) (V0 (Proc.devRef .tc main_arg2)) (V0 (Proc.devRef .tc main_arg3)) (V0 (Proc.devRef .tc main_arg4)) := rfl

set_option maxHeartbeats 2000000 in
/-- The cell array over all 256 columns is the host level's. -/
theorem Cfull2_eq : res_main_v123 V0 = cellT (n := 32768) shapeCasts_S65536x128_S32768x256 (C1 V0) bcast_S_S32768x256 slices_S32768x1024_S32768x256_0_0 slices_S32768x1024_S32768x256_0_256 slices_S32768x1024_S32768x256_0_512 (res_main_v103 V0) := rfl

set_option maxHeartbeats 2000000 in
theorem H2_eq : H2 V0 = extractStridedSlice S32768x128 ![0, 0] (hiddenT (n := 32768) bcast_S_S32768x256 slices_S32768x1024_S32768x256_0_768 (res_main_v103 V0) (res_main_v123 V0)) slices_S32768x256_S32768x128_0_0 := rfl

set_option maxHeartbeats 2000000 in
theorem C2_eq : C2 V0 = extractStridedSlice S32768x128 ![0, 0] (res_main_v123 V0) slices_S32768x256_S32768x128_0_0 := rfl

set_option maxHeartbeats 1000000 in
/-- Level 2's arrays are the specification's states 3 levels above the leaves. -/
theorem level2 (r : Fin 32768) (j : Fin 128) :
    H2 V0 (ix2 r j) = (st V0 (2 + 1)).1 r.val j.val ∧ C2 V0 (ix2 r j) = (st V0 (2 + 1)).2 r.val j.val := by
  rw [H2_eq, C2_eq, Cfull2_eq, G2_eq, states_fst, states_snd]
  have h := level_step (n := 32768) transposes_S1024x128_S128x1024_1_0 transposes_S1024x256_S256x1024_1_0 bcast_S1024_S1x1024_1 bcast_S1x1024_S32768x1024_0_1 shapeCasts_S65536x128_S32768x256 (X2 V0) (H1 V0) (C1 V0) (V0 (Proc.devRef .tc main_arg1)) (V0 (Proc.devRef .tc main_arg2)) (V0 (Proc.devRef .tc main_arg3)) (V0 (Proc.devRef .tc main_arg4)) bcast_S_S32768x256 slices_S32768x1024_S32768x256_0_0 slices_S32768x1024_S32768x256_0_256 slices_S32768x1024_S32768x256_0_512 slices_S32768x1024_S32768x256_0_768 slices_S32768x256_S32768x128_0_0
    (rowsOf (aE V0) 2) (st V0 2).1 (st V0 2).2
    (fun r k => rows_apply 32767 _ slices_S262143x128_S32768x128_32767_0 (by decide) r k)
    (fun a b => (level1 V0 a b).1)
    (fun a b => (level1 V0 a b).2) r j
  exact h

/-! ## Level 3: 16384 nodes -/

/-- The level's embedding rows. -/
def X3 : FVec Ideal S16384x128 .f32 :=
  extractStridedSlice S16384x128 ![16383, 0] (V0 (Proc.devRef .tc main_arg0)) slices_S262143x128_S16384x128_16383_0
/-- The level's hidden states, kept columns. -/
def H3 : FVec Ideal S16384x128 .f32 :=
  extractStridedSlice S16384x128 ![0, 0] (mulf (Host.divf (broadcastInDim S16384x256 ![] bcast_S_S16384x256 (constant S_ .f32 0x3F800000#32)) (addf (broadcastInDim S16384x256 ![] bcast_S_S16384x256 (constant S_ .f32 0x3F800000#32)) (Host.exp (Host.negf (extractStridedSlice S16384x256 ![0, 768] (res_main_v147 V0) slices_S16384x1024_S16384x256_0_768))))) (Host.tanh (res_main_v167 V0))) slices_S16384x256_S16384x128_0_0
/-- The level's cell states, kept columns. -/
def C3 : FVec Ideal S16384x128 .f32 :=
  extractStridedSlice S16384x128 ![0, 0] (res_main_v167 V0) slices_S16384x256_S16384x128_0_0

set_option maxHeartbeats 2000000 in
/-- The gates are the host level's gates of the level's rows and the hidden array below. -/
theorem G3_eq : res_main_v147 V0 = gatesT (n := 16384) transposes_S1024x128_S128x1024_1_0 transposes_S1024x256_S256x1024_1_0 bcast_S1024_S1x1024_1 bcast_S1x1024_S16384x1024_0_1 shapeCasts_S32768x128_S16384x256 (X3 V0) (H2 V0) (V0 (Proc.devRef .tc main_arg1)) (V0 (Proc.devRef .tc main_arg2)) (V0 (Proc.devRef .tc main_arg3)) (V0 (Proc.devRef .tc main_arg4)) := rfl

set_option maxHeartbeats 2000000 in
/-- The cell array over all 256 columns is the host level's. -/
theorem Cfull3_eq : res_main_v167 V0 = cellT (n := 16384) shapeCasts_S32768x128_S16384x256 (C2 V0) bcast_S_S16384x256 slices_S16384x1024_S16384x256_0_0 slices_S16384x1024_S16384x256_0_256 slices_S16384x1024_S16384x256_0_512 (res_main_v147 V0) := rfl

set_option maxHeartbeats 2000000 in
theorem H3_eq : H3 V0 = extractStridedSlice S16384x128 ![0, 0] (hiddenT (n := 16384) bcast_S_S16384x256 slices_S16384x1024_S16384x256_0_768 (res_main_v147 V0) (res_main_v167 V0)) slices_S16384x256_S16384x128_0_0 := rfl

set_option maxHeartbeats 2000000 in
theorem C3_eq : C3 V0 = extractStridedSlice S16384x128 ![0, 0] (res_main_v167 V0) slices_S16384x256_S16384x128_0_0 := rfl

set_option maxHeartbeats 1000000 in
/-- Level 3's arrays are the specification's states 4 levels above the leaves. -/
theorem level3 (r : Fin 16384) (j : Fin 128) :
    H3 V0 (ix2 r j) = (st V0 (3 + 1)).1 r.val j.val ∧ C3 V0 (ix2 r j) = (st V0 (3 + 1)).2 r.val j.val := by
  rw [H3_eq, C3_eq, Cfull3_eq, G3_eq, states_fst, states_snd]
  have h := level_step (n := 16384) transposes_S1024x128_S128x1024_1_0 transposes_S1024x256_S256x1024_1_0 bcast_S1024_S1x1024_1 bcast_S1x1024_S16384x1024_0_1 shapeCasts_S32768x128_S16384x256 (X3 V0) (H2 V0) (C2 V0) (V0 (Proc.devRef .tc main_arg1)) (V0 (Proc.devRef .tc main_arg2)) (V0 (Proc.devRef .tc main_arg3)) (V0 (Proc.devRef .tc main_arg4)) bcast_S_S16384x256 slices_S16384x1024_S16384x256_0_0 slices_S16384x1024_S16384x256_0_256 slices_S16384x1024_S16384x256_0_512 slices_S16384x1024_S16384x256_0_768 slices_S16384x256_S16384x128_0_0
    (rowsOf (aE V0) 3) (st V0 3).1 (st V0 3).2
    (fun r k => rows_apply 16383 _ slices_S262143x128_S16384x128_16383_0 (by decide) r k)
    (fun a b => (level2 V0 a b).1)
    (fun a b => (level2 V0 a b).2) r j
  exact h

/-! ## Level 4: 8192 nodes -/

/-- The level's embedding rows. -/
def X4 : FVec Ideal S8192x128 .f32 :=
  extractStridedSlice S8192x128 ![8191, 0] (V0 (Proc.devRef .tc main_arg0)) slices_S262143x128_S8192x128_8191_0
/-- The level's hidden states, kept columns. -/
def H4 : FVec Ideal S8192x128 .f32 :=
  extractStridedSlice S8192x128 ![0, 0] (mulf (Host.divf (broadcastInDim S8192x256 ![] bcast_S_S8192x256 (constant S_ .f32 0x3F800000#32)) (addf (broadcastInDim S8192x256 ![] bcast_S_S8192x256 (constant S_ .f32 0x3F800000#32)) (Host.exp (Host.negf (extractStridedSlice S8192x256 ![0, 768] (res_main_v191 V0) slices_S8192x1024_S8192x256_0_768))))) (Host.tanh (res_main_v211 V0))) slices_S8192x256_S8192x128_0_0
/-- The level's cell states, kept columns. -/
def C4 : FVec Ideal S8192x128 .f32 :=
  extractStridedSlice S8192x128 ![0, 0] (res_main_v211 V0) slices_S8192x256_S8192x128_0_0

set_option maxHeartbeats 2000000 in
/-- The gates are the host level's gates of the level's rows and the hidden array below. -/
theorem G4_eq : res_main_v191 V0 = gatesT (n := 8192) transposes_S1024x128_S128x1024_1_0 transposes_S1024x256_S256x1024_1_0 bcast_S1024_S1x1024_1 bcast_S1x1024_S8192x1024_0_1 shapeCasts_S16384x128_S8192x256 (X4 V0) (H3 V0) (V0 (Proc.devRef .tc main_arg1)) (V0 (Proc.devRef .tc main_arg2)) (V0 (Proc.devRef .tc main_arg3)) (V0 (Proc.devRef .tc main_arg4)) := rfl

set_option maxHeartbeats 2000000 in
/-- The cell array over all 256 columns is the host level's. -/
theorem Cfull4_eq : res_main_v211 V0 = cellT (n := 8192) shapeCasts_S16384x128_S8192x256 (C3 V0) bcast_S_S8192x256 slices_S8192x1024_S8192x256_0_0 slices_S8192x1024_S8192x256_0_256 slices_S8192x1024_S8192x256_0_512 (res_main_v191 V0) := rfl

set_option maxHeartbeats 2000000 in
theorem H4_eq : H4 V0 = extractStridedSlice S8192x128 ![0, 0] (hiddenT (n := 8192) bcast_S_S8192x256 slices_S8192x1024_S8192x256_0_768 (res_main_v191 V0) (res_main_v211 V0)) slices_S8192x256_S8192x128_0_0 := rfl

set_option maxHeartbeats 2000000 in
theorem C4_eq : C4 V0 = extractStridedSlice S8192x128 ![0, 0] (res_main_v211 V0) slices_S8192x256_S8192x128_0_0 := rfl

set_option maxHeartbeats 1000000 in
/-- Level 4's arrays are the specification's states 5 levels above the leaves. -/
theorem level4 (r : Fin 8192) (j : Fin 128) :
    H4 V0 (ix2 r j) = (st V0 (4 + 1)).1 r.val j.val ∧ C4 V0 (ix2 r j) = (st V0 (4 + 1)).2 r.val j.val := by
  rw [H4_eq, C4_eq, Cfull4_eq, G4_eq, states_fst, states_snd]
  have h := level_step (n := 8192) transposes_S1024x128_S128x1024_1_0 transposes_S1024x256_S256x1024_1_0 bcast_S1024_S1x1024_1 bcast_S1x1024_S8192x1024_0_1 shapeCasts_S16384x128_S8192x256 (X4 V0) (H3 V0) (C3 V0) (V0 (Proc.devRef .tc main_arg1)) (V0 (Proc.devRef .tc main_arg2)) (V0 (Proc.devRef .tc main_arg3)) (V0 (Proc.devRef .tc main_arg4)) bcast_S_S8192x256 slices_S8192x1024_S8192x256_0_0 slices_S8192x1024_S8192x256_0_256 slices_S8192x1024_S8192x256_0_512 slices_S8192x1024_S8192x256_0_768 slices_S8192x256_S8192x128_0_0
    (rowsOf (aE V0) 4) (st V0 4).1 (st V0 4).2
    (fun r k => rows_apply 8191 _ slices_S262143x128_S8192x128_8191_0 (by decide) r k)
    (fun a b => (level3 V0 a b).1)
    (fun a b => (level3 V0 a b).2) r j
  exact h

/-! ## Level 5: 4096 nodes -/

/-- The level's embedding rows. -/
def X5 : FVec Ideal S4096x128 .f32 :=
  extractStridedSlice S4096x128 ![4095, 0] (V0 (Proc.devRef .tc main_arg0)) slices_S262143x128_S4096x128_4095_0
/-- The level's hidden states, kept columns. -/
def H5 : FVec Ideal S4096x128 .f32 :=
  extractStridedSlice S4096x128 ![0, 0] (mulf (Host.divf (broadcastInDim S4096x256 ![] bcast_S_S4096x256 (constant S_ .f32 0x3F800000#32)) (addf (broadcastInDim S4096x256 ![] bcast_S_S4096x256 (constant S_ .f32 0x3F800000#32)) (Host.exp (Host.negf (extractStridedSlice S4096x256 ![0, 768] (res_main_v235 V0) slices_S4096x1024_S4096x256_0_768))))) (Host.tanh (res_main_v255 V0))) slices_S4096x256_S4096x128_0_0
/-- The level's cell states, kept columns. -/
def C5 : FVec Ideal S4096x128 .f32 :=
  extractStridedSlice S4096x128 ![0, 0] (res_main_v255 V0) slices_S4096x256_S4096x128_0_0

set_option maxHeartbeats 2000000 in
/-- The gates are the host level's gates of the level's rows and the hidden array below. -/
theorem G5_eq : res_main_v235 V0 = gatesT (n := 4096) transposes_S1024x128_S128x1024_1_0 transposes_S1024x256_S256x1024_1_0 bcast_S1024_S1x1024_1 bcast_S1x1024_S4096x1024_0_1 shapeCasts_S8192x128_S4096x256 (X5 V0) (H4 V0) (V0 (Proc.devRef .tc main_arg1)) (V0 (Proc.devRef .tc main_arg2)) (V0 (Proc.devRef .tc main_arg3)) (V0 (Proc.devRef .tc main_arg4)) := rfl

set_option maxHeartbeats 2000000 in
/-- The cell array over all 256 columns is the host level's. -/
theorem Cfull5_eq : res_main_v255 V0 = cellT (n := 4096) shapeCasts_S8192x128_S4096x256 (C4 V0) bcast_S_S4096x256 slices_S4096x1024_S4096x256_0_0 slices_S4096x1024_S4096x256_0_256 slices_S4096x1024_S4096x256_0_512 (res_main_v235 V0) := rfl

set_option maxHeartbeats 2000000 in
theorem H5_eq : H5 V0 = extractStridedSlice S4096x128 ![0, 0] (hiddenT (n := 4096) bcast_S_S4096x256 slices_S4096x1024_S4096x256_0_768 (res_main_v235 V0) (res_main_v255 V0)) slices_S4096x256_S4096x128_0_0 := rfl

set_option maxHeartbeats 2000000 in
theorem C5_eq : C5 V0 = extractStridedSlice S4096x128 ![0, 0] (res_main_v255 V0) slices_S4096x256_S4096x128_0_0 := rfl

set_option maxHeartbeats 1000000 in
/-- Level 5's arrays are the specification's states 6 levels above the leaves. -/
theorem level5 (r : Fin 4096) (j : Fin 128) :
    H5 V0 (ix2 r j) = (st V0 (5 + 1)).1 r.val j.val ∧ C5 V0 (ix2 r j) = (st V0 (5 + 1)).2 r.val j.val := by
  rw [H5_eq, C5_eq, Cfull5_eq, G5_eq, states_fst, states_snd]
  have h := level_step (n := 4096) transposes_S1024x128_S128x1024_1_0 transposes_S1024x256_S256x1024_1_0 bcast_S1024_S1x1024_1 bcast_S1x1024_S4096x1024_0_1 shapeCasts_S8192x128_S4096x256 (X5 V0) (H4 V0) (C4 V0) (V0 (Proc.devRef .tc main_arg1)) (V0 (Proc.devRef .tc main_arg2)) (V0 (Proc.devRef .tc main_arg3)) (V0 (Proc.devRef .tc main_arg4)) bcast_S_S4096x256 slices_S4096x1024_S4096x256_0_0 slices_S4096x1024_S4096x256_0_256 slices_S4096x1024_S4096x256_0_512 slices_S4096x1024_S4096x256_0_768 slices_S4096x256_S4096x128_0_0
    (rowsOf (aE V0) 5) (st V0 5).1 (st V0 5).2
    (fun r k => rows_apply 4095 _ slices_S262143x128_S4096x128_4095_0 (by decide) r k)
    (fun a b => (level4 V0 a b).1)
    (fun a b => (level4 V0 a b).2) r j
  exact h

/-! ## Level 6: 2048 nodes -/

/-- The level's embedding rows. -/
def X6 : FVec Ideal S2048x128 .f32 :=
  extractStridedSlice S2048x128 ![2047, 0] (V0 (Proc.devRef .tc main_arg0)) slices_S262143x128_S2048x128_2047_0
/-- The level's hidden states, kept columns. -/
def H6 : FVec Ideal S2048x128 .f32 :=
  extractStridedSlice S2048x128 ![0, 0] (mulf (Host.divf (broadcastInDim S2048x256 ![] bcast_S_S2048x256 (constant S_ .f32 0x3F800000#32)) (addf (broadcastInDim S2048x256 ![] bcast_S_S2048x256 (constant S_ .f32 0x3F800000#32)) (Host.exp (Host.negf (extractStridedSlice S2048x256 ![0, 768] (res_main_v279 V0) slices_S2048x1024_S2048x256_0_768))))) (Host.tanh (res_main_v299 V0))) slices_S2048x256_S2048x128_0_0
/-- The level's cell states, kept columns. -/
def C6 : FVec Ideal S2048x128 .f32 :=
  extractStridedSlice S2048x128 ![0, 0] (res_main_v299 V0) slices_S2048x256_S2048x128_0_0

set_option maxHeartbeats 2000000 in
/-- The gates are the host level's gates of the level's rows and the hidden array below. -/
theorem G6_eq : res_main_v279 V0 = gatesT (n := 2048) transposes_S1024x128_S128x1024_1_0 transposes_S1024x256_S256x1024_1_0 bcast_S1024_S1x1024_1 bcast_S1x1024_S2048x1024_0_1 shapeCasts_S4096x128_S2048x256 (X6 V0) (H5 V0) (V0 (Proc.devRef .tc main_arg1)) (V0 (Proc.devRef .tc main_arg2)) (V0 (Proc.devRef .tc main_arg3)) (V0 (Proc.devRef .tc main_arg4)) := rfl

set_option maxHeartbeats 2000000 in
/-- The cell array over all 256 columns is the host level's. -/
theorem Cfull6_eq : res_main_v299 V0 = cellT (n := 2048) shapeCasts_S4096x128_S2048x256 (C5 V0) bcast_S_S2048x256 slices_S2048x1024_S2048x256_0_0 slices_S2048x1024_S2048x256_0_256 slices_S2048x1024_S2048x256_0_512 (res_main_v279 V0) := rfl

set_option maxHeartbeats 2000000 in
theorem H6_eq : H6 V0 = extractStridedSlice S2048x128 ![0, 0] (hiddenT (n := 2048) bcast_S_S2048x256 slices_S2048x1024_S2048x256_0_768 (res_main_v279 V0) (res_main_v299 V0)) slices_S2048x256_S2048x128_0_0 := rfl

set_option maxHeartbeats 2000000 in
theorem C6_eq : C6 V0 = extractStridedSlice S2048x128 ![0, 0] (res_main_v299 V0) slices_S2048x256_S2048x128_0_0 := rfl

set_option maxHeartbeats 1000000 in
/-- Level 6's arrays are the specification's states 7 levels above the leaves. -/
theorem level6 (r : Fin 2048) (j : Fin 128) :
    H6 V0 (ix2 r j) = (st V0 (6 + 1)).1 r.val j.val ∧ C6 V0 (ix2 r j) = (st V0 (6 + 1)).2 r.val j.val := by
  rw [H6_eq, C6_eq, Cfull6_eq, G6_eq, states_fst, states_snd]
  have h := level_step (n := 2048) transposes_S1024x128_S128x1024_1_0 transposes_S1024x256_S256x1024_1_0 bcast_S1024_S1x1024_1 bcast_S1x1024_S2048x1024_0_1 shapeCasts_S4096x128_S2048x256 (X6 V0) (H5 V0) (C5 V0) (V0 (Proc.devRef .tc main_arg1)) (V0 (Proc.devRef .tc main_arg2)) (V0 (Proc.devRef .tc main_arg3)) (V0 (Proc.devRef .tc main_arg4)) bcast_S_S2048x256 slices_S2048x1024_S2048x256_0_0 slices_S2048x1024_S2048x256_0_256 slices_S2048x1024_S2048x256_0_512 slices_S2048x1024_S2048x256_0_768 slices_S2048x256_S2048x128_0_0
    (rowsOf (aE V0) 6) (st V0 6).1 (st V0 6).2
    (fun r k => rows_apply 2047 _ slices_S262143x128_S2048x128_2047_0 (by decide) r k)
    (fun a b => (level5 V0 a b).1)
    (fun a b => (level5 V0 a b).2) r j
  exact h

/-! ## Level 7: 1024 nodes -/

/-- The level's embedding rows. -/
def X7 : FVec Ideal S1024x128 .f32 :=
  extractStridedSlice S1024x128 ![1023, 0] (V0 (Proc.devRef .tc main_arg0)) slices_S262143x128_S1024x128_1023_0
/-- The level's hidden states, kept columns. -/
def H7 : FVec Ideal S1024x128 .f32 :=
  extractStridedSlice S1024x128 ![0, 0] (mulf (Host.divf (broadcastInDim S1024x256 ![] bcast_S_S1024x256 (constant S_ .f32 0x3F800000#32)) (addf (broadcastInDim S1024x256 ![] bcast_S_S1024x256 (constant S_ .f32 0x3F800000#32)) (Host.exp (Host.negf (extractStridedSlice S1024x256 ![0, 768] (res_main_v323 V0) slices_S1024x1024_S1024x256_0_768))))) (Host.tanh (res_main_v343 V0))) slices_S1024x256_S1024x128_0_0
/-- The level's cell states, kept columns. -/
def C7 : FVec Ideal S1024x128 .f32 :=
  extractStridedSlice S1024x128 ![0, 0] (res_main_v343 V0) slices_S1024x256_S1024x128_0_0

set_option maxHeartbeats 2000000 in
/-- The gates are the host level's gates of the level's rows and the hidden array below. -/
theorem G7_eq : res_main_v323 V0 = gatesT (n := 1024) transposes_S1024x128_S128x1024_1_0 transposes_S1024x256_S256x1024_1_0 bcast_S1024_S1x1024_1 bcast_S1x1024_S1024x1024_0_1 shapeCasts_S2048x128_S1024x256 (X7 V0) (H6 V0) (V0 (Proc.devRef .tc main_arg1)) (V0 (Proc.devRef .tc main_arg2)) (V0 (Proc.devRef .tc main_arg3)) (V0 (Proc.devRef .tc main_arg4)) := rfl

set_option maxHeartbeats 2000000 in
/-- The cell array over all 256 columns is the host level's. -/
theorem Cfull7_eq : res_main_v343 V0 = cellT (n := 1024) shapeCasts_S2048x128_S1024x256 (C6 V0) bcast_S_S1024x256 slices_S1024x1024_S1024x256_0_0 slices_S1024x1024_S1024x256_0_256 slices_S1024x1024_S1024x256_0_512 (res_main_v323 V0) := rfl

set_option maxHeartbeats 2000000 in
theorem H7_eq : H7 V0 = extractStridedSlice S1024x128 ![0, 0] (hiddenT (n := 1024) bcast_S_S1024x256 slices_S1024x1024_S1024x256_0_768 (res_main_v323 V0) (res_main_v343 V0)) slices_S1024x256_S1024x128_0_0 := rfl

set_option maxHeartbeats 2000000 in
theorem C7_eq : C7 V0 = extractStridedSlice S1024x128 ![0, 0] (res_main_v343 V0) slices_S1024x256_S1024x128_0_0 := rfl

set_option maxHeartbeats 1000000 in
/-- Level 7's arrays are the specification's states 8 levels above the leaves. -/
theorem level7 (r : Fin 1024) (j : Fin 128) :
    H7 V0 (ix2 r j) = (st V0 (7 + 1)).1 r.val j.val ∧ C7 V0 (ix2 r j) = (st V0 (7 + 1)).2 r.val j.val := by
  rw [H7_eq, C7_eq, Cfull7_eq, G7_eq, states_fst, states_snd]
  have h := level_step (n := 1024) transposes_S1024x128_S128x1024_1_0 transposes_S1024x256_S256x1024_1_0 bcast_S1024_S1x1024_1 bcast_S1x1024_S1024x1024_0_1 shapeCasts_S2048x128_S1024x256 (X7 V0) (H6 V0) (C6 V0) (V0 (Proc.devRef .tc main_arg1)) (V0 (Proc.devRef .tc main_arg2)) (V0 (Proc.devRef .tc main_arg3)) (V0 (Proc.devRef .tc main_arg4)) bcast_S_S1024x256 slices_S1024x1024_S1024x256_0_0 slices_S1024x1024_S1024x256_0_256 slices_S1024x1024_S1024x256_0_512 slices_S1024x1024_S1024x256_0_768 slices_S1024x256_S1024x128_0_0
    (rowsOf (aE V0) 7) (st V0 7).1 (st V0 7).2
    (fun r k => rows_apply 1023 _ slices_S262143x128_S1024x128_1023_0 (by decide) r k)
    (fun a b => (level6 V0 a b).1)
    (fun a b => (level6 V0 a b).2) r j
  exact h

/-! ## Level 8: 512 nodes -/

/-- The level's embedding rows. -/
def X8 : FVec Ideal S512x128 .f32 :=
  extractStridedSlice S512x128 ![511, 0] (V0 (Proc.devRef .tc main_arg0)) slices_S262143x128_S512x128_511_0
/-- The level's hidden states, kept columns. -/
def H8 : FVec Ideal S512x128 .f32 :=
  extractStridedSlice S512x128 ![0, 0] (mulf (Host.divf (broadcastInDim S512x256 ![] bcast_S_S512x256 (constant S_ .f32 0x3F800000#32)) (addf (broadcastInDim S512x256 ![] bcast_S_S512x256 (constant S_ .f32 0x3F800000#32)) (Host.exp (Host.negf (extractStridedSlice S512x256 ![0, 768] (res_main_v367 V0) slices_S512x1024_S512x256_0_768))))) (Host.tanh (res_main_v387 V0))) slices_S512x256_S512x128_0_0
/-- The level's cell states, kept columns. -/
def C8 : FVec Ideal S512x128 .f32 :=
  extractStridedSlice S512x128 ![0, 0] (res_main_v387 V0) slices_S512x256_S512x128_0_0

set_option maxHeartbeats 2000000 in
/-- The gates are the host level's gates of the level's rows and the hidden array below. -/
theorem G8_eq : res_main_v367 V0 = gatesT (n := 512) transposes_S1024x128_S128x1024_1_0 transposes_S1024x256_S256x1024_1_0 bcast_S1024_S1x1024_1 bcast_S1x1024_S512x1024_0_1 shapeCasts_S1024x128_S512x256 (X8 V0) (H7 V0) (V0 (Proc.devRef .tc main_arg1)) (V0 (Proc.devRef .tc main_arg2)) (V0 (Proc.devRef .tc main_arg3)) (V0 (Proc.devRef .tc main_arg4)) := rfl

set_option maxHeartbeats 2000000 in
/-- The cell array over all 256 columns is the host level's. -/
theorem Cfull8_eq : res_main_v387 V0 = cellT (n := 512) shapeCasts_S1024x128_S512x256 (C7 V0) bcast_S_S512x256 slices_S512x1024_S512x256_0_0 slices_S512x1024_S512x256_0_256 slices_S512x1024_S512x256_0_512 (res_main_v367 V0) := rfl

set_option maxHeartbeats 2000000 in
theorem H8_eq : H8 V0 = extractStridedSlice S512x128 ![0, 0] (hiddenT (n := 512) bcast_S_S512x256 slices_S512x1024_S512x256_0_768 (res_main_v367 V0) (res_main_v387 V0)) slices_S512x256_S512x128_0_0 := rfl

set_option maxHeartbeats 2000000 in
theorem C8_eq : C8 V0 = extractStridedSlice S512x128 ![0, 0] (res_main_v387 V0) slices_S512x256_S512x128_0_0 := rfl

set_option maxHeartbeats 1000000 in
/-- Level 8's arrays are the specification's states 9 levels above the leaves. -/
theorem level8 (r : Fin 512) (j : Fin 128) :
    H8 V0 (ix2 r j) = (st V0 (8 + 1)).1 r.val j.val ∧ C8 V0 (ix2 r j) = (st V0 (8 + 1)).2 r.val j.val := by
  rw [H8_eq, C8_eq, Cfull8_eq, G8_eq, states_fst, states_snd]
  have h := level_step (n := 512) transposes_S1024x128_S128x1024_1_0 transposes_S1024x256_S256x1024_1_0 bcast_S1024_S1x1024_1 bcast_S1x1024_S512x1024_0_1 shapeCasts_S1024x128_S512x256 (X8 V0) (H7 V0) (C7 V0) (V0 (Proc.devRef .tc main_arg1)) (V0 (Proc.devRef .tc main_arg2)) (V0 (Proc.devRef .tc main_arg3)) (V0 (Proc.devRef .tc main_arg4)) bcast_S_S512x256 slices_S512x1024_S512x256_0_0 slices_S512x1024_S512x256_0_256 slices_S512x1024_S512x256_0_512 slices_S512x1024_S512x256_0_768 slices_S512x256_S512x128_0_0
    (rowsOf (aE V0) 8) (st V0 8).1 (st V0 8).2
    (fun r k => rows_apply 511 _ slices_S262143x128_S512x128_511_0 (by decide) r k)
    (fun a b => (level7 V0 a b).1)
    (fun a b => (level7 V0 a b).2) r j
  exact h

/-! ## Level 9: 256 nodes -/

/-- The level's embedding rows. -/
def X9 : FVec Ideal S256x128 .f32 :=
  extractStridedSlice S256x128 ![255, 0] (V0 (Proc.devRef .tc main_arg0)) slices_S262143x128_S256x128_255_0
/-- The level's hidden states, kept columns. -/
def H9 : FVec Ideal S256x128 .f32 :=
  extractStridedSlice S256x128 ![0, 0] (mulf (Host.divf (broadcastInDim S256x256 ![] bcast_S_S256x256 (constant S_ .f32 0x3F800000#32)) (addf (broadcastInDim S256x256 ![] bcast_S_S256x256 (constant S_ .f32 0x3F800000#32)) (Host.exp (Host.negf (extractStridedSlice S256x256 ![0, 768] (res_main_v411 V0) slices_S256x1024_S256x256_0_768))))) (Host.tanh (res_main_v431 V0))) slices_S256x256_S256x128_0_0
/-- The level's cell states, kept columns. -/
def C9 : FVec Ideal S256x128 .f32 :=
  extractStridedSlice S256x128 ![0, 0] (res_main_v431 V0) slices_S256x256_S256x128_0_0

set_option maxHeartbeats 2000000 in
/-- The gates are the host level's gates of the level's rows and the hidden array below. -/
theorem G9_eq : res_main_v411 V0 = gatesT (n := 256) transposes_S1024x128_S128x1024_1_0 transposes_S1024x256_S256x1024_1_0 bcast_S1024_S1x1024_1 bcast_S1x1024_S256x1024_0_1 shapeCasts_S512x128_S256x256 (X9 V0) (H8 V0) (V0 (Proc.devRef .tc main_arg1)) (V0 (Proc.devRef .tc main_arg2)) (V0 (Proc.devRef .tc main_arg3)) (V0 (Proc.devRef .tc main_arg4)) := rfl

set_option maxHeartbeats 2000000 in
/-- The cell array over all 256 columns is the host level's. -/
theorem Cfull9_eq : res_main_v431 V0 = cellT (n := 256) shapeCasts_S512x128_S256x256 (C8 V0) bcast_S_S256x256 slices_S256x1024_S256x256_0_0 slices_S256x1024_S256x256_0_256 slices_S256x1024_S256x256_0_512 (res_main_v411 V0) := rfl

set_option maxHeartbeats 2000000 in
theorem H9_eq : H9 V0 = extractStridedSlice S256x128 ![0, 0] (hiddenT (n := 256) bcast_S_S256x256 slices_S256x1024_S256x256_0_768 (res_main_v411 V0) (res_main_v431 V0)) slices_S256x256_S256x128_0_0 := rfl

set_option maxHeartbeats 2000000 in
theorem C9_eq : C9 V0 = extractStridedSlice S256x128 ![0, 0] (res_main_v431 V0) slices_S256x256_S256x128_0_0 := rfl

set_option maxHeartbeats 1000000 in
/-- Level 9's arrays are the specification's states 10 levels above the leaves. -/
theorem level9 (r : Fin 256) (j : Fin 128) :
    H9 V0 (ix2 r j) = (st V0 (9 + 1)).1 r.val j.val ∧ C9 V0 (ix2 r j) = (st V0 (9 + 1)).2 r.val j.val := by
  rw [H9_eq, C9_eq, Cfull9_eq, G9_eq, states_fst, states_snd]
  have h := level_step (n := 256) transposes_S1024x128_S128x1024_1_0 transposes_S1024x256_S256x1024_1_0 bcast_S1024_S1x1024_1 bcast_S1x1024_S256x1024_0_1 shapeCasts_S512x128_S256x256 (X9 V0) (H8 V0) (C8 V0) (V0 (Proc.devRef .tc main_arg1)) (V0 (Proc.devRef .tc main_arg2)) (V0 (Proc.devRef .tc main_arg3)) (V0 (Proc.devRef .tc main_arg4)) bcast_S_S256x256 slices_S256x1024_S256x256_0_0 slices_S256x1024_S256x256_0_256 slices_S256x1024_S256x256_0_512 slices_S256x1024_S256x256_0_768 slices_S256x256_S256x128_0_0
    (rowsOf (aE V0) 9) (st V0 9).1 (st V0 9).2
    (fun r k => rows_apply 255 _ slices_S262143x128_S256x128_255_0 (by decide) r k)
    (fun a b => (level8 V0 a b).1)
    (fun a b => (level8 V0 a b).2) r j
  exact h

/-! ## Level 10: 128 nodes -/

/-- The level's embedding rows. -/
def X10 : FVec Ideal S128x128 .f32 :=
  extractStridedSlice S128x128 ![127, 0] (V0 (Proc.devRef .tc main_arg0)) slices_S262143x128_S128x128_127_0
/-- The level's hidden states, kept columns. -/
def H10 : FVec Ideal S128x128 .f32 :=
  extractStridedSlice S128x128 ![0, 0] (mulf (Host.divf (broadcastInDim S128x256 ![] bcast_S_S128x256 (constant S_ .f32 0x3F800000#32)) (addf (broadcastInDim S128x256 ![] bcast_S_S128x256 (constant S_ .f32 0x3F800000#32)) (Host.exp (Host.negf (extractStridedSlice S128x256 ![0, 768] (res_main_v455 V0) slices_S128x1024_S128x256_0_768))))) (Host.tanh (res_main_v475 V0))) slices_S128x256_S128x128_0_0
/-- The level's cell states, kept columns. -/
def C10 : FVec Ideal S128x128 .f32 :=
  extractStridedSlice S128x128 ![0, 0] (res_main_v475 V0) slices_S128x256_S128x128_0_0

set_option maxHeartbeats 2000000 in
/-- The gates are the host level's gates of the level's rows and the hidden array below. -/
theorem G10_eq : res_main_v455 V0 = gatesT (n := 128) transposes_S1024x128_S128x1024_1_0 transposes_S1024x256_S256x1024_1_0 bcast_S1024_S1x1024_1 bcast_S1x1024_S128x1024_0_1 shapeCasts_S256x128_S128x256 (X10 V0) (H9 V0) (V0 (Proc.devRef .tc main_arg1)) (V0 (Proc.devRef .tc main_arg2)) (V0 (Proc.devRef .tc main_arg3)) (V0 (Proc.devRef .tc main_arg4)) := rfl

set_option maxHeartbeats 2000000 in
/-- The cell array over all 256 columns is the host level's. -/
theorem Cfull10_eq : res_main_v475 V0 = cellT (n := 128) shapeCasts_S256x128_S128x256 (C9 V0) bcast_S_S128x256 slices_S128x1024_S128x256_0_0 slices_S128x1024_S128x256_0_256 slices_S128x1024_S128x256_0_512 (res_main_v455 V0) := rfl

set_option maxHeartbeats 2000000 in
theorem H10_eq : H10 V0 = extractStridedSlice S128x128 ![0, 0] (hiddenT (n := 128) bcast_S_S128x256 slices_S128x1024_S128x256_0_768 (res_main_v455 V0) (res_main_v475 V0)) slices_S128x256_S128x128_0_0 := rfl

set_option maxHeartbeats 2000000 in
theorem C10_eq : C10 V0 = extractStridedSlice S128x128 ![0, 0] (res_main_v475 V0) slices_S128x256_S128x128_0_0 := rfl

set_option maxHeartbeats 1000000 in
/-- Level 10's arrays are the specification's states 11 levels above the leaves. -/
theorem level10 (r : Fin 128) (j : Fin 128) :
    H10 V0 (ix2 r j) = (st V0 (10 + 1)).1 r.val j.val ∧ C10 V0 (ix2 r j) = (st V0 (10 + 1)).2 r.val j.val := by
  rw [H10_eq, C10_eq, Cfull10_eq, G10_eq, states_fst, states_snd]
  have h := level_step (n := 128) transposes_S1024x128_S128x1024_1_0 transposes_S1024x256_S256x1024_1_0 bcast_S1024_S1x1024_1 bcast_S1x1024_S128x1024_0_1 shapeCasts_S256x128_S128x256 (X10 V0) (H9 V0) (C9 V0) (V0 (Proc.devRef .tc main_arg1)) (V0 (Proc.devRef .tc main_arg2)) (V0 (Proc.devRef .tc main_arg3)) (V0 (Proc.devRef .tc main_arg4)) bcast_S_S128x256 slices_S128x1024_S128x256_0_0 slices_S128x1024_S128x256_0_256 slices_S128x1024_S128x256_0_512 slices_S128x1024_S128x256_0_768 slices_S128x256_S128x128_0_0
    (rowsOf (aE V0) 10) (st V0 10).1 (st V0 10).2
    (fun r k => rows_apply 127 _ slices_S262143x128_S128x128_127_0 (by decide) r k)
    (fun a b => (level9 V0 a b).1)
    (fun a b => (level9 V0 a b).2) r j
  exact h

/-! ## Level 11: 64 nodes -/

/-- The level's embedding rows. -/
def X11 : FVec Ideal S64x128 .f32 :=
  extractStridedSlice S64x128 ![63, 0] (V0 (Proc.devRef .tc main_arg0)) slices_S262143x128_S64x128_63_0
/-- The level's hidden states, kept columns. -/
def H11 : FVec Ideal S64x128 .f32 :=
  extractStridedSlice S64x128 ![0, 0] (mulf (Host.divf (broadcastInDim S64x256 ![] bcast_S_S64x256 (constant S_ .f32 0x3F800000#32)) (addf (broadcastInDim S64x256 ![] bcast_S_S64x256 (constant S_ .f32 0x3F800000#32)) (Host.exp (Host.negf (extractStridedSlice S64x256 ![0, 768] (res_main_v499 V0) slices_S64x1024_S64x256_0_768))))) (Host.tanh (res_main_v519 V0))) slices_S64x256_S64x128_0_0
/-- The level's cell states, kept columns. -/
def C11 : FVec Ideal S64x128 .f32 :=
  extractStridedSlice S64x128 ![0, 0] (res_main_v519 V0) slices_S64x256_S64x128_0_0

set_option maxHeartbeats 2000000 in
/-- The gates are the host level's gates of the level's rows and the hidden array below. -/
theorem G11_eq : res_main_v499 V0 = gatesT (n := 64) transposes_S1024x128_S128x1024_1_0 transposes_S1024x256_S256x1024_1_0 bcast_S1024_S1x1024_1 bcast_S1x1024_S64x1024_0_1 shapeCasts_S128x128_S64x256 (X11 V0) (H10 V0) (V0 (Proc.devRef .tc main_arg1)) (V0 (Proc.devRef .tc main_arg2)) (V0 (Proc.devRef .tc main_arg3)) (V0 (Proc.devRef .tc main_arg4)) := rfl

set_option maxHeartbeats 2000000 in
/-- The cell array over all 256 columns is the host level's. -/
theorem Cfull11_eq : res_main_v519 V0 = cellT (n := 64) shapeCasts_S128x128_S64x256 (C10 V0) bcast_S_S64x256 slices_S64x1024_S64x256_0_0 slices_S64x1024_S64x256_0_256 slices_S64x1024_S64x256_0_512 (res_main_v499 V0) := rfl

set_option maxHeartbeats 2000000 in
theorem H11_eq : H11 V0 = extractStridedSlice S64x128 ![0, 0] (hiddenT (n := 64) bcast_S_S64x256 slices_S64x1024_S64x256_0_768 (res_main_v499 V0) (res_main_v519 V0)) slices_S64x256_S64x128_0_0 := rfl

set_option maxHeartbeats 2000000 in
theorem C11_eq : C11 V0 = extractStridedSlice S64x128 ![0, 0] (res_main_v519 V0) slices_S64x256_S64x128_0_0 := rfl

set_option maxHeartbeats 1000000 in
/-- Level 11's arrays are the specification's states 12 levels above the leaves. -/
theorem level11 (r : Fin 64) (j : Fin 128) :
    H11 V0 (ix2 r j) = (st V0 (11 + 1)).1 r.val j.val ∧ C11 V0 (ix2 r j) = (st V0 (11 + 1)).2 r.val j.val := by
  rw [H11_eq, C11_eq, Cfull11_eq, G11_eq, states_fst, states_snd]
  have h := level_step (n := 64) transposes_S1024x128_S128x1024_1_0 transposes_S1024x256_S256x1024_1_0 bcast_S1024_S1x1024_1 bcast_S1x1024_S64x1024_0_1 shapeCasts_S128x128_S64x256 (X11 V0) (H10 V0) (C10 V0) (V0 (Proc.devRef .tc main_arg1)) (V0 (Proc.devRef .tc main_arg2)) (V0 (Proc.devRef .tc main_arg3)) (V0 (Proc.devRef .tc main_arg4)) bcast_S_S64x256 slices_S64x1024_S64x256_0_0 slices_S64x1024_S64x256_0_256 slices_S64x1024_S64x256_0_512 slices_S64x1024_S64x256_0_768 slices_S64x256_S64x128_0_0
    (rowsOf (aE V0) 11) (st V0 11).1 (st V0 11).2
    (fun r k => rows_apply 63 _ slices_S262143x128_S64x128_63_0 (by decide) r k)
    (fun a b => (level10 V0 a b).1)
    (fun a b => (level10 V0 a b).2) r j
  exact h

/-! ## Level 12: 32 nodes -/

/-- The level's embedding rows. -/
def X12 : FVec Ideal S32x128 .f32 :=
  extractStridedSlice S32x128 ![31, 0] (V0 (Proc.devRef .tc main_arg0)) slices_S262143x128_S32x128_31_0
/-- The level's hidden states, kept columns. -/
def H12 : FVec Ideal S32x128 .f32 :=
  extractStridedSlice S32x128 ![0, 0] (mulf (Host.divf (broadcastInDim S32x256 ![] bcast_S_S32x256 (constant S_ .f32 0x3F800000#32)) (addf (broadcastInDim S32x256 ![] bcast_S_S32x256 (constant S_ .f32 0x3F800000#32)) (Host.exp (Host.negf (extractStridedSlice S32x256 ![0, 768] (res_main_v543 V0) slices_S32x1024_S32x256_0_768))))) (Host.tanh (res_main_v563 V0))) slices_S32x256_S32x128_0_0
/-- The level's cell states, kept columns. -/
def C12 : FVec Ideal S32x128 .f32 :=
  extractStridedSlice S32x128 ![0, 0] (res_main_v563 V0) slices_S32x256_S32x128_0_0

set_option maxHeartbeats 2000000 in
/-- The gates are the host level's gates of the level's rows and the hidden array below. -/
theorem G12_eq : res_main_v543 V0 = gatesT (n := 32) transposes_S1024x128_S128x1024_1_0 transposes_S1024x256_S256x1024_1_0 bcast_S1024_S1x1024_1 bcast_S1x1024_S32x1024_0_1 shapeCasts_S64x128_S32x256 (X12 V0) (H11 V0) (V0 (Proc.devRef .tc main_arg1)) (V0 (Proc.devRef .tc main_arg2)) (V0 (Proc.devRef .tc main_arg3)) (V0 (Proc.devRef .tc main_arg4)) := rfl

set_option maxHeartbeats 2000000 in
/-- The cell array over all 256 columns is the host level's. -/
theorem Cfull12_eq : res_main_v563 V0 = cellT (n := 32) shapeCasts_S64x128_S32x256 (C11 V0) bcast_S_S32x256 slices_S32x1024_S32x256_0_0 slices_S32x1024_S32x256_0_256 slices_S32x1024_S32x256_0_512 (res_main_v543 V0) := rfl

set_option maxHeartbeats 2000000 in
theorem H12_eq : H12 V0 = extractStridedSlice S32x128 ![0, 0] (hiddenT (n := 32) bcast_S_S32x256 slices_S32x1024_S32x256_0_768 (res_main_v543 V0) (res_main_v563 V0)) slices_S32x256_S32x128_0_0 := rfl

set_option maxHeartbeats 2000000 in
theorem C12_eq : C12 V0 = extractStridedSlice S32x128 ![0, 0] (res_main_v563 V0) slices_S32x256_S32x128_0_0 := rfl

set_option maxHeartbeats 1000000 in
/-- Level 12's arrays are the specification's states 13 levels above the leaves. -/
theorem level12 (r : Fin 32) (j : Fin 128) :
    H12 V0 (ix2 r j) = (st V0 (12 + 1)).1 r.val j.val ∧ C12 V0 (ix2 r j) = (st V0 (12 + 1)).2 r.val j.val := by
  rw [H12_eq, C12_eq, Cfull12_eq, G12_eq, states_fst, states_snd]
  have h := level_step (n := 32) transposes_S1024x128_S128x1024_1_0 transposes_S1024x256_S256x1024_1_0 bcast_S1024_S1x1024_1 bcast_S1x1024_S32x1024_0_1 shapeCasts_S64x128_S32x256 (X12 V0) (H11 V0) (C11 V0) (V0 (Proc.devRef .tc main_arg1)) (V0 (Proc.devRef .tc main_arg2)) (V0 (Proc.devRef .tc main_arg3)) (V0 (Proc.devRef .tc main_arg4)) bcast_S_S32x256 slices_S32x1024_S32x256_0_0 slices_S32x1024_S32x256_0_256 slices_S32x1024_S32x256_0_512 slices_S32x1024_S32x256_0_768 slices_S32x256_S32x128_0_0
    (rowsOf (aE V0) 12) (st V0 12).1 (st V0 12).2
    (fun r k => rows_apply 31 _ slices_S262143x128_S32x128_31_0 (by decide) r k)
    (fun a b => (level11 V0 a b).1)
    (fun a b => (level11 V0 a b).2) r j
  exact h

/-! ## Level 13: 16 nodes -/

/-- The level's embedding rows. -/
def X13 : FVec Ideal S16x128 .f32 :=
  extractStridedSlice S16x128 ![15, 0] (V0 (Proc.devRef .tc main_arg0)) slices_S262143x128_S16x128_15_0
/-- The level's hidden states, kept columns. -/
def H13 : FVec Ideal S16x128 .f32 :=
  extractStridedSlice S16x128 ![0, 0] (mulf (Host.divf (broadcastInDim S16x256 ![] bcast_S_S16x256 (constant S_ .f32 0x3F800000#32)) (addf (broadcastInDim S16x256 ![] bcast_S_S16x256 (constant S_ .f32 0x3F800000#32)) (Host.exp (Host.negf (extractStridedSlice S16x256 ![0, 768] (res_main_v587 V0) slices_S16x1024_S16x256_0_768))))) (Host.tanh (res_main_v607 V0))) slices_S16x256_S16x128_0_0
/-- The level's cell states, kept columns. -/
def C13 : FVec Ideal S16x128 .f32 :=
  extractStridedSlice S16x128 ![0, 0] (res_main_v607 V0) slices_S16x256_S16x128_0_0

set_option maxHeartbeats 2000000 in
/-- The gates are the host level's gates of the level's rows and the hidden array below. -/
theorem G13_eq : res_main_v587 V0 = gatesT (n := 16) transposes_S1024x128_S128x1024_1_0 transposes_S1024x256_S256x1024_1_0 bcast_S1024_S1x1024_1 bcast_S1x1024_S16x1024_0_1 shapeCasts_S32x128_S16x256 (X13 V0) (H12 V0) (V0 (Proc.devRef .tc main_arg1)) (V0 (Proc.devRef .tc main_arg2)) (V0 (Proc.devRef .tc main_arg3)) (V0 (Proc.devRef .tc main_arg4)) := rfl

set_option maxHeartbeats 2000000 in
/-- The cell array over all 256 columns is the host level's. -/
theorem Cfull13_eq : res_main_v607 V0 = cellT (n := 16) shapeCasts_S32x128_S16x256 (C12 V0) bcast_S_S16x256 slices_S16x1024_S16x256_0_0 slices_S16x1024_S16x256_0_256 slices_S16x1024_S16x256_0_512 (res_main_v587 V0) := rfl

set_option maxHeartbeats 2000000 in
theorem H13_eq : H13 V0 = extractStridedSlice S16x128 ![0, 0] (hiddenT (n := 16) bcast_S_S16x256 slices_S16x1024_S16x256_0_768 (res_main_v587 V0) (res_main_v607 V0)) slices_S16x256_S16x128_0_0 := rfl

set_option maxHeartbeats 2000000 in
theorem C13_eq : C13 V0 = extractStridedSlice S16x128 ![0, 0] (res_main_v607 V0) slices_S16x256_S16x128_0_0 := rfl

set_option maxHeartbeats 1000000 in
/-- Level 13's arrays are the specification's states 14 levels above the leaves. -/
theorem level13 (r : Fin 16) (j : Fin 128) :
    H13 V0 (ix2 r j) = (st V0 (13 + 1)).1 r.val j.val ∧ C13 V0 (ix2 r j) = (st V0 (13 + 1)).2 r.val j.val := by
  rw [H13_eq, C13_eq, Cfull13_eq, G13_eq, states_fst, states_snd]
  have h := level_step (n := 16) transposes_S1024x128_S128x1024_1_0 transposes_S1024x256_S256x1024_1_0 bcast_S1024_S1x1024_1 bcast_S1x1024_S16x1024_0_1 shapeCasts_S32x128_S16x256 (X13 V0) (H12 V0) (C12 V0) (V0 (Proc.devRef .tc main_arg1)) (V0 (Proc.devRef .tc main_arg2)) (V0 (Proc.devRef .tc main_arg3)) (V0 (Proc.devRef .tc main_arg4)) bcast_S_S16x256 slices_S16x1024_S16x256_0_0 slices_S16x1024_S16x256_0_256 slices_S16x1024_S16x256_0_512 slices_S16x1024_S16x256_0_768 slices_S16x256_S16x128_0_0
    (rowsOf (aE V0) 13) (st V0 13).1 (st V0 13).2
    (fun r k => rows_apply 15 _ slices_S262143x128_S16x128_15_0 (by decide) r k)
    (fun a b => (level12 V0 a b).1)
    (fun a b => (level12 V0 a b).2) r j
  exact h

/-! ## Level 14: 8 nodes -/

/-- The level's embedding rows. -/
def X14 : FVec Ideal S8x128 .f32 :=
  extractStridedSlice S8x128 ![7, 0] (V0 (Proc.devRef .tc main_arg0)) slices_S262143x128_S8x128_7_0
/-- The level's hidden states, kept columns. -/
def H14 : FVec Ideal S8x128 .f32 :=
  extractStridedSlice S8x128 ![0, 0] (mulf (Host.divf (broadcastInDim S8x256 ![] bcast_S_S8x256 (constant S_ .f32 0x3F800000#32)) (addf (broadcastInDim S8x256 ![] bcast_S_S8x256 (constant S_ .f32 0x3F800000#32)) (Host.exp (Host.negf (extractStridedSlice S8x256 ![0, 768] (res_main_v631 V0) slices_S8x1024_S8x256_0_768))))) (Host.tanh (res_main_v651 V0))) slices_S8x256_S8x128_0_0
/-- The level's cell states, kept columns. -/
def C14 : FVec Ideal S8x128 .f32 :=
  extractStridedSlice S8x128 ![0, 0] (res_main_v651 V0) slices_S8x256_S8x128_0_0

set_option maxHeartbeats 2000000 in
/-- The gates are the host level's gates of the level's rows and the hidden array below. -/
theorem G14_eq : res_main_v631 V0 = gatesT (n := 8) transposes_S1024x128_S128x1024_1_0 transposes_S1024x256_S256x1024_1_0 bcast_S1024_S1x1024_1 bcast_S1x1024_S8x1024_0_1 shapeCasts_S16x128_S8x256 (X14 V0) (H13 V0) (V0 (Proc.devRef .tc main_arg1)) (V0 (Proc.devRef .tc main_arg2)) (V0 (Proc.devRef .tc main_arg3)) (V0 (Proc.devRef .tc main_arg4)) := rfl

set_option maxHeartbeats 2000000 in
/-- The cell array over all 256 columns is the host level's. -/
theorem Cfull14_eq : res_main_v651 V0 = cellT (n := 8) shapeCasts_S16x128_S8x256 (C13 V0) bcast_S_S8x256 slices_S8x1024_S8x256_0_0 slices_S8x1024_S8x256_0_256 slices_S8x1024_S8x256_0_512 (res_main_v631 V0) := rfl

set_option maxHeartbeats 2000000 in
theorem H14_eq : H14 V0 = extractStridedSlice S8x128 ![0, 0] (hiddenT (n := 8) bcast_S_S8x256 slices_S8x1024_S8x256_0_768 (res_main_v631 V0) (res_main_v651 V0)) slices_S8x256_S8x128_0_0 := rfl

set_option maxHeartbeats 2000000 in
theorem C14_eq : C14 V0 = extractStridedSlice S8x128 ![0, 0] (res_main_v651 V0) slices_S8x256_S8x128_0_0 := rfl

set_option maxHeartbeats 1000000 in
/-- Level 14's arrays are the specification's states 15 levels above the leaves. -/
theorem level14 (r : Fin 8) (j : Fin 128) :
    H14 V0 (ix2 r j) = (st V0 (14 + 1)).1 r.val j.val ∧ C14 V0 (ix2 r j) = (st V0 (14 + 1)).2 r.val j.val := by
  rw [H14_eq, C14_eq, Cfull14_eq, G14_eq, states_fst, states_snd]
  have h := level_step (n := 8) transposes_S1024x128_S128x1024_1_0 transposes_S1024x256_S256x1024_1_0 bcast_S1024_S1x1024_1 bcast_S1x1024_S8x1024_0_1 shapeCasts_S16x128_S8x256 (X14 V0) (H13 V0) (C13 V0) (V0 (Proc.devRef .tc main_arg1)) (V0 (Proc.devRef .tc main_arg2)) (V0 (Proc.devRef .tc main_arg3)) (V0 (Proc.devRef .tc main_arg4)) bcast_S_S8x256 slices_S8x1024_S8x256_0_0 slices_S8x1024_S8x256_0_256 slices_S8x1024_S8x256_0_512 slices_S8x1024_S8x256_0_768 slices_S8x256_S8x128_0_0
    (rowsOf (aE V0) 14) (st V0 14).1 (st V0 14).2
    (fun r k => rows_apply 7 _ slices_S262143x128_S8x128_7_0 (by decide) r k)
    (fun a b => (level13 V0 a b).1)
    (fun a b => (level13 V0 a b).2) r j
  exact h

/-! ## Level 15: 4 nodes -/

/-- The level's embedding rows. -/
def X15 : FVec Ideal S4x128 .f32 :=
  extractStridedSlice S4x128 ![3, 0] (V0 (Proc.devRef .tc main_arg0)) slices_S262143x128_S4x128_3_0
/-- The level's hidden states, kept columns. -/
def H15 : FVec Ideal S4x128 .f32 :=
  extractStridedSlice S4x128 ![0, 0] (mulf (Host.divf (broadcastInDim S4x256 ![] bcast_S_S4x256 (constant S_ .f32 0x3F800000#32)) (addf (broadcastInDim S4x256 ![] bcast_S_S4x256 (constant S_ .f32 0x3F800000#32)) (Host.exp (Host.negf (extractStridedSlice S4x256 ![0, 768] (res_main_v675 V0) slices_S4x1024_S4x256_0_768))))) (Host.tanh (res_main_v695 V0))) slices_S4x256_S4x128_0_0
/-- The level's cell states, kept columns. -/
def C15 : FVec Ideal S4x128 .f32 :=
  extractStridedSlice S4x128 ![0, 0] (res_main_v695 V0) slices_S4x256_S4x128_0_0

set_option maxHeartbeats 2000000 in
/-- The gates are the host level's gates of the level's rows and the hidden array below. -/
theorem G15_eq : res_main_v675 V0 = gatesT (n := 4) transposes_S1024x128_S128x1024_1_0 transposes_S1024x256_S256x1024_1_0 bcast_S1024_S1x1024_1 bcast_S1x1024_S4x1024_0_1 shapeCasts_S8x128_S4x256 (X15 V0) (H14 V0) (V0 (Proc.devRef .tc main_arg1)) (V0 (Proc.devRef .tc main_arg2)) (V0 (Proc.devRef .tc main_arg3)) (V0 (Proc.devRef .tc main_arg4)) := rfl

set_option maxHeartbeats 2000000 in
/-- The cell array over all 256 columns is the host level's. -/
theorem Cfull15_eq : res_main_v695 V0 = cellT (n := 4) shapeCasts_S8x128_S4x256 (C14 V0) bcast_S_S4x256 slices_S4x1024_S4x256_0_0 slices_S4x1024_S4x256_0_256 slices_S4x1024_S4x256_0_512 (res_main_v675 V0) := rfl

set_option maxHeartbeats 2000000 in
theorem H15_eq : H15 V0 = extractStridedSlice S4x128 ![0, 0] (hiddenT (n := 4) bcast_S_S4x256 slices_S4x1024_S4x256_0_768 (res_main_v675 V0) (res_main_v695 V0)) slices_S4x256_S4x128_0_0 := rfl

set_option maxHeartbeats 2000000 in
theorem C15_eq : C15 V0 = extractStridedSlice S4x128 ![0, 0] (res_main_v695 V0) slices_S4x256_S4x128_0_0 := rfl

set_option maxHeartbeats 1000000 in
/-- Level 15's arrays are the specification's states 16 levels above the leaves. -/
theorem level15 (r : Fin 4) (j : Fin 128) :
    H15 V0 (ix2 r j) = (st V0 (15 + 1)).1 r.val j.val ∧ C15 V0 (ix2 r j) = (st V0 (15 + 1)).2 r.val j.val := by
  rw [H15_eq, C15_eq, Cfull15_eq, G15_eq, states_fst, states_snd]
  have h := level_step (n := 4) transposes_S1024x128_S128x1024_1_0 transposes_S1024x256_S256x1024_1_0 bcast_S1024_S1x1024_1 bcast_S1x1024_S4x1024_0_1 shapeCasts_S8x128_S4x256 (X15 V0) (H14 V0) (C14 V0) (V0 (Proc.devRef .tc main_arg1)) (V0 (Proc.devRef .tc main_arg2)) (V0 (Proc.devRef .tc main_arg3)) (V0 (Proc.devRef .tc main_arg4)) bcast_S_S4x256 slices_S4x1024_S4x256_0_0 slices_S4x1024_S4x256_0_256 slices_S4x1024_S4x256_0_512 slices_S4x1024_S4x256_0_768 slices_S4x256_S4x128_0_0
    (rowsOf (aE V0) 15) (st V0 15).1 (st V0 15).2
    (fun r k => rows_apply 3 _ slices_S262143x128_S4x128_3_0 (by decide) r k)
    (fun a b => (level14 V0 a b).1)
    (fun a b => (level14 V0 a b).2) r j
  exact h

/-! ## Level 16: 2 nodes -/

/-- The level's embedding rows. -/
def X16 : FVec Ideal S2x128 .f32 :=
  extractStridedSlice S2x128 ![1, 0] (V0 (Proc.devRef .tc main_arg0)) slices_S262143x128_S2x128_1_0
/-- The level's hidden states, kept columns. -/
def H16 : FVec Ideal S2x128 .f32 :=
  extractStridedSlice S2x128 ![0, 0] (mulf (Host.divf (broadcastInDim S2x256 ![] bcast_S_S2x256 (constant S_ .f32 0x3F800000#32)) (addf (broadcastInDim S2x256 ![] bcast_S_S2x256 (constant S_ .f32 0x3F800000#32)) (Host.exp (Host.negf (extractStridedSlice S2x256 ![0, 768] (res_main_v719 V0) slices_S2x1024_S2x256_0_768))))) (Host.tanh (res_main_v739 V0))) slices_S2x256_S2x128_0_0
/-- The level's cell states, kept columns. -/
def C16 : FVec Ideal S2x128 .f32 :=
  extractStridedSlice S2x128 ![0, 0] (res_main_v739 V0) slices_S2x256_S2x128_0_0

set_option maxHeartbeats 2000000 in
/-- The gates are the host level's gates of the level's rows and the hidden array below. -/
theorem G16_eq : res_main_v719 V0 = gatesT (n := 2) transposes_S1024x128_S128x1024_1_0 transposes_S1024x256_S256x1024_1_0 bcast_S1024_S1x1024_1 bcast_S1x1024_S2x1024_0_1 shapeCasts_S4x128_S2x256 (X16 V0) (H15 V0) (V0 (Proc.devRef .tc main_arg1)) (V0 (Proc.devRef .tc main_arg2)) (V0 (Proc.devRef .tc main_arg3)) (V0 (Proc.devRef .tc main_arg4)) := rfl

set_option maxHeartbeats 2000000 in
/-- The cell array over all 256 columns is the host level's. -/
theorem Cfull16_eq : res_main_v739 V0 = cellT (n := 2) shapeCasts_S4x128_S2x256 (C15 V0) bcast_S_S2x256 slices_S2x1024_S2x256_0_0 slices_S2x1024_S2x256_0_256 slices_S2x1024_S2x256_0_512 (res_main_v719 V0) := rfl

set_option maxHeartbeats 2000000 in
theorem H16_eq : H16 V0 = extractStridedSlice S2x128 ![0, 0] (hiddenT (n := 2) bcast_S_S2x256 slices_S2x1024_S2x256_0_768 (res_main_v719 V0) (res_main_v739 V0)) slices_S2x256_S2x128_0_0 := rfl

set_option maxHeartbeats 2000000 in
theorem C16_eq : C16 V0 = extractStridedSlice S2x128 ![0, 0] (res_main_v739 V0) slices_S2x256_S2x128_0_0 := rfl

set_option maxHeartbeats 1000000 in
/-- Level 16's arrays are the specification's states 17 levels above the leaves. -/
theorem level16 (r : Fin 2) (j : Fin 128) :
    H16 V0 (ix2 r j) = (st V0 (16 + 1)).1 r.val j.val ∧ C16 V0 (ix2 r j) = (st V0 (16 + 1)).2 r.val j.val := by
  rw [H16_eq, C16_eq, Cfull16_eq, G16_eq, states_fst, states_snd]
  have h := level_step (n := 2) transposes_S1024x128_S128x1024_1_0 transposes_S1024x256_S256x1024_1_0 bcast_S1024_S1x1024_1 bcast_S1x1024_S2x1024_0_1 shapeCasts_S4x128_S2x256 (X16 V0) (H15 V0) (C15 V0) (V0 (Proc.devRef .tc main_arg1)) (V0 (Proc.devRef .tc main_arg2)) (V0 (Proc.devRef .tc main_arg3)) (V0 (Proc.devRef .tc main_arg4)) bcast_S_S2x256 slices_S2x1024_S2x256_0_0 slices_S2x1024_S2x256_0_256 slices_S2x1024_S2x256_0_512 slices_S2x1024_S2x256_0_768 slices_S2x256_S2x128_0_0
    (rowsOf (aE V0) 16) (st V0 16).1 (st V0 16).2
    (fun r k => rows_apply 1 _ slices_S262143x128_S2x128_1_0 (by decide) r k)
    (fun a b => (level15 V0 a b).1)
    (fun a b => (level15 V0 a b).2) r j
  exact h

/-! ## Level 17: 1 node -/

/-- The level's embedding rows. -/
def X17 : FVec Ideal S1x128 .f32 :=
  extractStridedSlice S1x128 ![0, 0] (V0 (Proc.devRef .tc main_arg0)) slices_S262143x128_S1x128_0_0
/-- The level's hidden states, kept columns. -/
def H17 : FVec Ideal S1x128 .f32 :=
  extractStridedSlice S1x128 ![0, 0] (mulf (Host.divf (broadcastInDim S1x256 ![] bcast_S_S1x256 (constant S_ .f32 0x3F800000#32)) (addf (broadcastInDim S1x256 ![] bcast_S_S1x256 (constant S_ .f32 0x3F800000#32)) (Host.exp (Host.negf (extractStridedSlice S1x256 ![0, 768] (res_main_v761 V0) slices_S1x1024_S1x256_0_768))))) (Host.tanh (res_main_v781 V0))) slices_S1x256_S1x128_0_0
/-- The level's cell states, kept columns. -/
def C17 : FVec Ideal S1x128 .f32 :=
  extractStridedSlice S1x128 ![0, 0] (res_main_v781 V0) slices_S1x256_S1x128_0_0

set_option maxHeartbeats 2000000 in
/-- The root's gates are the host level's gates of its one row and the hidden array below. -/
theorem G17_eq : res_main_v761 V0 = gatesT1 transposes_S1024x128_S128x1024_1_0 transposes_S1024x256_S256x1024_1_0 bcast_S1024_S1x1024_1 (V0 (Proc.devRef .tc main_arg1)) (V0 (Proc.devRef .tc main_arg2)) (V0 (Proc.devRef .tc main_arg3)) (V0 (Proc.devRef .tc main_arg4)) shapeCasts_S2x128_S1x256 (X17 V0) (H16 V0) := rfl

set_option maxHeartbeats 2000000 in
/-- The cell array over all 256 columns is the host level's. -/
theorem Cfull17_eq : res_main_v781 V0 = cellT (n := 1) shapeCasts_S2x128_S1x256 (C16 V0) bcast_S_S1x256 slices_S1x1024_S1x256_0_0 slices_S1x1024_S1x256_0_256 slices_S1x1024_S1x256_0_512 (res_main_v761 V0) := rfl

set_option maxHeartbeats 2000000 in
theorem H17_eq : H17 V0 = extractStridedSlice S1x128 ![0, 0] (hiddenT (n := 1) bcast_S_S1x256 slices_S1x1024_S1x256_0_768 (res_main_v761 V0) (res_main_v781 V0)) slices_S1x256_S1x128_0_0 := rfl

set_option maxHeartbeats 2000000 in
theorem C17_eq : C17 V0 = extractStridedSlice S1x128 ![0, 0] (res_main_v781 V0) slices_S1x256_S1x128_0_0 := rfl

set_option maxHeartbeats 1000000 in
/-- Level 17's arrays are the specification's states 18 levels above the leaves. -/
theorem level17 (r : Fin 1) (j : Fin 128) :
    H17 V0 (ix2 r j) = (st V0 (17 + 1)).1 r.val j.val ∧ C17 V0 (ix2 r j) = (st V0 (17 + 1)).2 r.val j.val := by
  rw [H17_eq, C17_eq, Cfull17_eq, G17_eq, states_fst, states_snd]
  have h := level_step1 transposes_S1024x128_S128x1024_1_0 transposes_S1024x256_S256x1024_1_0 bcast_S1024_S1x1024_1 (V0 (Proc.devRef .tc main_arg1)) (V0 (Proc.devRef .tc main_arg2)) (V0 (Proc.devRef .tc main_arg3)) (V0 (Proc.devRef .tc main_arg4)) shapeCasts_S2x128_S1x256 bcast_S_S1x256 slices_S1x1024_S1x256_0_0 slices_S1x1024_S1x256_0_256 slices_S1x1024_S1x256_0_512 slices_S1x1024_S1x256_0_768 slices_S1x256_S1x128_0_0 (X17 V0) (H16 V0) (C16 V0)
    (rowsOf (aE V0) 17) (st V0 17).1 (st V0 17).2
    (fun r k => rows_apply 0 _ slices_S262143x128_S1x128_0_0 (by decide) r k)
    (fun a b => (level16 V0 a b).1)
    (fun a b => (level16 V0 a b).2) r j
  exact h

end Cert.RefTree

end
-- ==== Proof.Algebraic.lean ====
/-
  Both idealized programs end at the specification's root.

  Kernel program: the frame run leaves the result buffer at what the 499 later lines compute from the contents at the
  region's exit; those contents have the five arguments as launched and the region's two result arrays at what the
  write-backs left, which are the specification's states eight levels above the leaves (`region_hidden`,
  `region_cell`, from Proof/KI/RegionValue.lean: the fused levels' value at every chunk, and the chunks tile the
  rows); the later lines take them up ten more levels to the root (Proof/KI/TailValue.lean). Reference: its generated run ends at the two root rows side by side, which are the
  specification's root by the eighteen level steps (Proof/RefLevels.lean). From memories that agree on the five
  arguments both results are therefore the same 256 extended reals.
-/
import proofs.«177989_j29394756173864_2_alg».proof.Defs
import proofs.«177989_j29394756173864_2_alg».proof.Proof.Gen.Pre_finite_inputs
import proofs.«177989_j29394756173864_2_alg».proof.Proof.KI.Run
import proofs.«177989_j29394756173864_2_alg».proof.Proof.KI.TailValue
import proofs.«177989_j29394756173864_2_alg».proof.Proof.KI.RegionValue
import proofs.«177989_j29394756173864_2_alg».proof.Proof.RefLevels

set_option maxRecDepth 16384

noncomputable section

namespace Cert.Proof.Tree

open Idealize.ShloMosaic Idealize.ShloMosaic.TcCoe Idealize.SL.Sem Idealize.ShloMosaic.StableHlo
open Idealize.ShloMosaic.ValueIdx Cert.TreeCell Cert.HostLevel

/-- The specification's result of five argument arrays, as a [1, 256] array. -/
def specResult (E : (⟨2, ![262143, 128]⟩ : Shape).Idx → EReal) (Wih : (⟨2, ![1024, 128]⟩ : Shape).Idx → EReal)
    (Whh : (⟨2, ![1024, 256]⟩ : Shape).Idx → EReal) (bih bhh : (⟨1, ![1024]⟩ : Shape).Idx → EReal) :
    (⟨2, ![1, 256]⟩ : Shape).Idx → EReal :=
  fun i => root (ofArr Wih) (ofArr Whh) (ofVec bih) (ofVec bhh) (ofArr E) (i 1).val

/-! ## The kernel program -/

section Kernel

open Cert.KernelIdeal Cert.KernelIdeal.Gen Cert.KernelIdeal.Fused

variable (m : (ℓ : Loc nD τ sig) → Buf (Elt Ideal) ℓ) (ρ : Dev nD → PrngReg)

/-- Core `c`'s contents when the lines after the region start: the region's arrays at what the write-backs left, every
    other buffer as the region found it. -/
abbrev exitContents (c : Dev nD) : Valuation τ sig (Elt Ideal) :=
  Pipeline.withArrays spec0 c (V0 m c) fun w => (dats m 0 c).arrAt w cfg0.N

/-- There an argument is as launched. -/
theorem exit_arg (c : Dev nD) (r : Ref sig .tc) (hr : r.idx.val < 5) (hne : ∀ w, Pipeline.arrRef spec0 w ≠ r) :
    exitContents m c (Proc.devRef .tc r) = m ((c : Thread nD τ).loc r) :=
  (Pipeline.withArrays_of_ne _ c (V0 m c) _ r hne).trans (V_of_lt m c r hr)

/-- The fused levels' value (hidden states): the region's first result array, as the later lines find it, is the
    specification's hidden states eight levels above the leaves. -/
theorem region_hidden (c : Dev nD) (a : Fin 1024) (b : Fin 128) :
    (exitContents m c (Proc.devRef .tc main_v32_0) : FVec Ideal S1024x128 .f32) (ix2 a b)
      = (tst (exitContents m c) 8).1 a.val b.val := by
  have e : exitContents m c (Proc.devRef .tc main_v32_0) = (dats m 0 c).arrAt 12 cfg0.N :=
    Pipeline.withArrays_arr spec0 launch0.win.arr_inj c _ _ 12
  rw [e, final12]
  show (states (pWih m c) (pWhh m c) (pbih m c) (pbhh m c) (pE m c) 8).1 a.val b.val
    = (states (ofArr (exitContents m c (Proc.devRef .tc main_arg1))) (ofArr (exitContents m c (Proc.devRef .tc main_arg2)))
        (ofVec (exitContents m c (Proc.devRef .tc main_arg3))) (ofVec (exitContents m c (Proc.devRef .tc main_arg4)))
        (ofArr (exitContents m c (Proc.devRef .tc main_arg0))) 8).1 a.val b.val
  rw [exit_arg m c main_arg0 (by decide) (by decide), exit_arg m c main_arg1 (by decide) (by decide),
    exit_arg m c main_arg2 (by decide) (by decide), exit_arg m c main_arg3 (by decide) (by decide),
    exit_arg m c main_arg4 (by decide) (by decide)]

/-- The fused levels' value (cell states). -/
theorem region_cell (c : Dev nD) (a : Fin 1024) (b : Fin 128) :
    (exitContents m c (Proc.devRef .tc main_v32_1) : FVec Ideal S1024x128 .f32) (ix2 a b)
      = (tst (exitContents m c) 8).2 a.val b.val := by
  have e : exitContents m c (Proc.devRef .tc main_v32_1) = (dats m 0 c).arrAt 13 cfg0.N :=
    Pipeline.withArrays_arr spec0 launch0.win.arr_inj c _ _ 13
  rw [e, final13]
  show (states (pWih m c) (pWhh m c) (pbih m c) (pbhh m c) (pE m c) 8).2 a.val b.val
    = (states (ofArr (exitContents m c (Proc.devRef .tc main_arg1))) (ofArr (exitContents m c (Proc.devRef .tc main_arg2)))
        (ofVec (exitContents m c (Proc.devRef .tc main_arg3))) (ofVec (exitContents m c (Proc.devRef .tc main_arg4)))
        (ofArr (exitContents m c (Proc.devRef .tc main_arg0))) 8).2 a.val b.val
  rw [exit_arg m c main_arg0 (by decide) (by decide), exit_arg m c main_arg1 (by decide) (by decide),
    exit_arg m c main_arg2 (by decide) (by decide), exit_arg m c main_arg3 (by decide) (by decide),
    exit_arg m c main_arg4 (by decide) (by decide)]

/-- The result buffer after the later lines is the specification's result of the launched arguments. -/
theorem kernel_value (c : Dev nD) :
    (Pipeline.afterTail₀ cfgs (dats m) 0 (V0 m) linesAfter c main_v471 : FVec Ideal S1x256 .f32)
      = specResult (m ((c : Thread nD τ).loc main_arg0)) (m ((c : Thread nD τ).loc main_arg1))
          (m ((c : Thread nD τ).loc main_arg2)) (m ((c : Thread nD τ).loc main_arg3)) (m ((c : Thread nD τ).loc main_arg4)) := by
  funext i
  obtain ⟨a, j, rfl⟩ : ∃ (a : Fin 1) (j : Fin 256), i = ix2 a j := ⟨i 0, i 1, eq_ix2 i⟩
  obtain rfl : a = 0 := Subsingleton.elim _ _
  unfold Pipeline.afterTail₀ specResult
  refine (tail_result (exitContents m c) (region_hidden m c) (region_cell m c) j).trans ?_
  show root (ofArr (exitContents m c (Proc.devRef .tc main_arg1))) (ofArr (exitContents m c (Proc.devRef .tc main_arg2)))
      (ofVec (exitContents m c (Proc.devRef .tc main_arg3))) (ofVec (exitContents m c (Proc.devRef .tc main_arg4)))
      (ofArr (exitContents m c (Proc.devRef .tc main_arg0))) j.val = _
  rw [exit_arg m c main_arg0 (by decide) (by decide), exit_arg m c main_arg1 (by decide) (by decide),
    exit_arg m c main_arg2 (by decide) (by decide), exit_arg m c main_arg3 (by decide) (by decide),
    exit_arg m c main_arg4 (by decide) (by decide)]

/-- The kernel program's run, its result named. -/
theorem kernel_run : θ_run defs (onTc (τ := τ) (main (F := Ideal))) ⟨m, fun _ => 0, ρ⟩ (fun r => ∀ c : Dev nD,
      r.2.mem ((c.tc : Thread nD τ).loc main_v471)
        = specResult (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun res h c =>
    ⟨((h c).2 main_v471 (Pipeline.mem_restRefs_of main_v471 (by decide) (by decide))).trans (kernel_value m c),
     arg_kept m main_arg0 (by decide) (by decide) (by decide) res h c,
     arg_kept m main_arg1 (by decide) (by decide) (by decide) res h c,
     arg_kept m main_arg2 (by decide) (by decide) (by decide) res h c,
     arg_kept m main_arg3 (by decide) (by decide) (by decide) res h c,
     arg_kept m main_arg4 (by decide) (by decide) (by decide) res h c⟩) (run_main (F := Ideal) m ρ)

end Kernel

/-! ## The reference -/

section Reference

open Cert.ReferenceIdeal Cert.ReferenceIdeal.Gen Cert.ReferenceIdeal.Value Cert.RefTree

/-- The reference's result term — the root's two rows side by side — is the specification's result of the
    arguments it read. -/
theorem ref_value (V0 : Valuation τ sig (Elt Ideal)) :
    (concatenate S1x256 1 [⟨S1x128, H17 V0⟩, ⟨S1x128, C17 V0⟩] concatenates_S1x128_S1x128_S1x256_d1 : FVec Ideal S1x256 .f32)
      = specResult (V0 (Proc.devRef .tc main_arg0)) (V0 (Proc.devRef .tc main_arg1)) (V0 (Proc.devRef .tc main_arg2))
          (V0 (Proc.devRef .tc main_arg3)) (V0 (Proc.devRef .tc main_arg4)) := by
  funext i
  obtain ⟨a, j, rfl⟩ : ∃ (a : Fin 1) (j : Fin 256), i = ix2 a j := ⟨i 0, i 1, eq_ix2 i⟩
  obtain rfl : a = 0 := Subsingleton.elim _ _
  exact result_root (aWih V0) (aWhh V0) (abih V0) (abhh V0) (aE V0) _ _ concatenates_S1x128_S1x128_S1x256_d1
    (fun r b => (level17 V0 r b).1) (fun r b => (level17 V0 r b).2) j

end Reference

/-! ## The claim -/

/-- From memories agreeing on the five arguments, both idealized programs run to the end, leave the arguments
    unchanged, and end at the same result: the specification's root of the arguments. -/
theorem algebraic : Cert.algebraic_KernelIdeal_ReferenceIdeal := by
  intro m ρ m' ρ' _ hagree
  refine ⟨fun c => specResult (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), kernel_run m ρ, ?_⟩
  refine (θ_run Cert.ReferenceIdeal.defs _ _).mono (fun r h c => ⟨(h c).1.trans ?_, (h c).2⟩)
    (Cert.ReferenceIdeal.Value.run (F := Ideal) m' ρ')
  refine (ref_value (launchContents m' c)).trans ?_
  show specResult (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4)) = _
  rw [(hagree c).1, (hagree c).2.1, (hagree c).2.2.1, (hagree c).2.2.2.1, (hagree c).2.2.2.2]

end Cert.Proof.Tree

end
-- ==== Proof.lean ====
/-
  The certificate of a binary-tree LSTM: eighteen levels of nodes, each node's state one cell update of its
  embedding row and its two children's states; the result is the root's hidden and cell states.

  The kernel program computes the eight deepest levels (99.6 % of the nodes) in one fused region, one grid point per
  chunk of 1024 deepest-level rows with the seven levels above them, keeping only the 128 gate columns per block that
  the next level reads, and the ten shallow levels by host operations; the reference computes all eighteen levels by
  host operations over all 256 columns per gate block.

  The three frames: each program terminates without a fault and leaves its five arguments unchanged — for the two
  kernel programs by the library's run of a region with host lines before and after it (Proof/KB, Proof/KI: the body's
  triple, the lines' bookkeeping, the run), for the reference by its generated run (Proof/RefFrame). The idealization
  rewrote nothing, so `preserves` is `True`. The algebraic claim says both idealized programs end at the same 256
  numbers: the tree recurrence of Proof/Spec.lean.
-/
import proofs.«177989_j29394756173864_2_alg».proof.Defs
import proofs.«177989_j29394756173864_2_alg».proof.Proof.Gen.Kernel
import proofs.«177989_j29394756173864_2_alg».proof.Proof.Gen.KernelIdeal
import proofs.«177989_j29394756173864_2_alg».proof.Proof.Gen.ReferenceIdeal
import proofs.«177989_j29394756173864_2_alg».proof.Proof.Gen.Pre_finite_inputs
import proofs.«177989_j29394756173864_2_alg».proof.Proof.KB.Run
import proofs.«177989_j29394756173864_2_alg».proof.Proof.KI.Run
import proofs.«177989_j29394756173864_2_alg».proof.Proof.RefFrame
import proofs.«177989_j29394756173864_2_alg».proof.Proof.Algebraic
import Idealize.ShloMosaic.Adequacy
import Idealize.ShloMosaic.Init

noncomputable section

namespace Cert.Proof

open Idealize.ShloMosaic Idealize.SL.Sem

/-- The word-level kernel program's frame. -/
theorem frame_k : Cert.frame_Kernel := fun m ρ _ => Cert.Kernel.Fused.frame m ρ

/-- The idealized kernel program's frame. -/
theorem frame_ki : Cert.frame_KernelIdeal := fun m ρ _ => Cert.KernelIdeal.Fused.frame m ρ

theorem claim : Cert.Claim :=
  ⟨Cert.Kernel.Gen.facts, Cert.KernelIdeal.Gen.facts, Cert.ReferenceIdeal.Gen.facts, Cert.Pre_finite_inputs.Gen.facts,
    frame_k, frame_ki, Cert.Proof.RefFrame.frame_ri, trivial, Cert.Proof.Tree.algebraic⟩

end Cert.Proof

end
